-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x200 : Shape := ⟨2, ![16384, 200]⟩
abbrev S3x128 : Shape := ⟨2, ![3, 128]⟩
abbrev S_ : Shape := ⟨0, ![]⟩

class Facts : Prop where
  bcast_S_S3x128 : S_.BroadcastsInDim S3x128 (![] : Fin 0 → Fin S3x128.rank)
  reducesTo_S3x128_S_d0_1 : S3x128.ReducesTo [0, 1] S_
  h_S_ : 0 < S_.numel
  bcast_S_S16384x200 : S_.BroadcastsInDim S16384x200 (![] : Fin 0 → Fin S16384x200.rank)
  reducesTo_S16384x200_S_d0_1 : S16384x200.ReducesTo [0, 1] S_

variable [Facts]

def fn {F : FTy → Type} [FloatOps F] (main_arg0 : IVec S16384x200 32) (main_arg1 : FVec F S3x128 .f32) : IVec S_ 1 :=
  let main_v0 : FVec F S3x128 .f32 := Host.absf main_arg1
  let main_cst : FVec F S_ .f32 := constant S_ .f32 0x7F800000#32
  let main_v1 : FVec F S3x128 .f32 := broadcastInDim S3x128 ![] bcast_S_S3x128 main_cst
  let main_v2 : IVec S3x128 1 := cmpf .olt main_v0 main_v1
  let main_c : IVec S_ 1 := constantI S_ 1 1#1
  let main_v3 : IVec S_ 1 := (fun x v => Host.reduce IntOp.andi x v reducesTo_S3x128_S_d0_1 h_S_) main_v2 main_c
  let main_c_0 : IVec S_ 32 := constantI S_ 32 0#32
  let main_v4 : IVec S16384x200 32 := broadcastInDim S16384x200 ![] bcast_S_S16384x200 main_c_0
  let main_v5 : IVec S16384x200 1 := cmpi .sge main_arg0 main_v4
  let main_c_1 : IVec S_ 32 := constantI S_ 32 2#32
  let main_v6 : IVec S16384x200 32 := broadcastInDim S16384x200 ![] bcast_S_S16384x200 main_c_1
  let main_v7 : IVec S16384x200 1 := cmpi .sle main_arg0 main_v6
  let main_v8 : IVec S16384x200 1 := andi main_v5 main_v7
  let main_c_2 : IVec S_ 1 := constantI S_ 1 1#1
  let main_v9 : IVec S_ 1 := (fun x v => Host.reduce IntOp.andi x v reducesTo_S16384x200_S_d0_1 h_S_) main_v8 main_c_2
  let main_v10 : IVec S_ 1 := andi main_v3 main_v9
  main_v10
-- ==== Kernel.lean ====
abbrev S16384x200 : Shape := ⟨2, ![16384, 200]⟩
abbrev S3x128 : Shape := ⟨2, ![3, 128]⟩
abbrev S3276800 : Shape := ⟨1, ![3276800]⟩
abbrev S25600x128x128 : Shape := ⟨3, ![25600, 128, 128]⟩
abbrev S2x1024 : Shape := ⟨2, ![2, 1024]⟩
abbrev S2x2x128x128 : Shape := ⟨4, ![2, 2, 128, 128]⟩
abbrev S_ : Shape := ⟨0, ![]⟩
abbrev S1x1024 : Shape := ⟨2, ![1, 1024]⟩
abbrev S1024 : Shape := ⟨1, ![1024]⟩
abbrev S1x16 : Shape := ⟨2, ![1, 16]⟩
abbrev S16 : Shape := ⟨1, ![16]⟩
abbrev S1x2x128x128 : Shape := ⟨4, ![1, 2, 128, 128]⟩
abbrev S2x128x128 : Shape := ⟨3, ![2, 128, 128]⟩
abbrev S1x1x128x128 : Shape := ⟨4, ![1, 1, 128, 128]⟩
abbrev S128x128 : Shape := ⟨2, ![128, 128]⟩
abbrev S1x128 : Shape := ⟨2, ![1, 128]⟩
abbrev S128 : Shape := ⟨1, ![128]⟩
abbrev S16384x200x128 : Shape := ⟨3, ![16384, 200, 128]⟩

abbrev nBuf : Table → Nat
  | .hbm => 5
  | .shared => 1
  | .local .scVector .vmem => 2
  | _ => 0

abbrev bufTy : (tb : Table) → Fin (nBuf tb) → BufTy
  | .hbm, ⟨0, _⟩ => ⟨S16384x200, .i32⟩
  | .hbm, ⟨1, _⟩ => ⟨S3x128, .f32⟩
  | .hbm, ⟨2, _⟩ => ⟨S3276800, .i32⟩
  | .hbm, ⟨3, _⟩ => ⟨S25600x128x128, .f32⟩
  | .hbm, ⟨4, _⟩ => ⟨S16384x200x128, .f32⟩
  | .shared, ⟨0, _⟩ => ⟨S3x128, .f32⟩
  | .local .scVector .vmem, ⟨0, _⟩ => ⟨S2x1024, .i32⟩
  | .local .scVector .vmem, ⟨1, _⟩ => ⟨S2x2x128x128, .f32⟩
  | _, _ => ⟨S16384x200, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 5 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.shared, 0, rfl⟩
abbrev cc0_scratch1 : Ref sig .scVector := ⟨.vmem, 0, rfl⟩
abbrev cc0_scratch2 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v5 : BitVec 32 := Scalar.muli v1 c102400_i32
  let c0_i32_1 : BitVec 32 := 0#32
  let v7 : BitVec 32 := Scalar.addi v5 c0_i32_1
  ![v7.toNat]
@[reducible] def k0_t1_loop : Scf.Loop 32 :=
  let c0_i32_6 : BitVec 32 := 0#32
  let c50_i32 : BitVec 32 := 50#32
  let v14 : BitVec 32 := Scalar.addi c0_i32_6 c50_i32
  let c1_i32 : BitVec 32 := 1#32
  ⟨c0_i32_6, v14, c1_i32⟩
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v5 : BitVec 32 := Scalar.muli v1 c102400_i32
  let c0_i32_61 : BitVec 32 := 0#32
  let v48 : BitVec 32 := Scalar.addi v5 c0_i32_61
  ![v48.toNat]
@[reducible] def k0_t2_loop : Scf.Loop 32 :=
  let c0_i32_66 : BitVec 32 := 0#32
  let c8_i32 : BitVec 32 := 8#32
  let v55 : BitVec 32 := Scalar.addi c0_i32_66 c8_i32
  let c1_i32_67 : BitVec 32 := 1#32
  ⟨c0_i32_66, v55, c1_i32_67⟩
def k0_off3 (k0_t2 : Fin k0_t2_loop.trips) : Fin 2 → Nat :=
  let c0_i32_508 : BitVec 32 := 0#32
  let v328 : Index := Scalar.indexCast c0_i32_508
  let c0_i32_507 : BitVec 32 := 0#32
  let c0_i32_66 : BitVec 32 := 0#32
  let c1_i32_67 : BitVec 32 := 1#32
  let arg17 : BitVec 32 := Scf.iv c0_i32_66 c1_i32_67 k0_t2
  let c16_i32 : BitVec 32 := 16#32
  let v326 : BitVec 32 := Scalar.muli arg17 c16_i32
  let v327 : BitVec 32 := Scalar.addi c0_i32_507 v326
  let v329 : Index := Scalar.indexCast v327
  ![0, v329.toNat]
@[reducible] def k0_t3_loop : Scf.Loop 32 :=
  let c0_i32_70 : BitVec 32 := 0#32
  let c8_i32_71 : BitVec 32 := 8#32
  let v56 : BitVec 32 := Scalar.addi c0_i32_70 c8_i32_71
  let c1_i32_72 : BitVec 32 := 1#32
  ⟨c0_i32_70, v56, c1_i32_72⟩
def k0_off4 (k0_t3 : Fin k0_t3_loop.trips) : Fin 2 → Nat :=
  let c0_i32_508 : BitVec 32 := 0#32
  let v328 : Index := Scalar.indexCast c0_i32_508
  let c128_i32_507 : BitVec 32 := 128#32
  let c0_i32_70 : BitVec 32 := 0#32
  let c1_i32_72 : BitVec 32 := 1#32
  let arg17 : BitVec 32 := Scf.iv c0_i32_70 c1_i32_72 k0_t3
  let c16_i32 : BitVec 32 := 16#32
  let v326 : BitVec 32 := Scalar.muli arg17 c16_i32
  let v327 : BitVec 32 := Scalar.addi c128_i32_507 v326
  let v329 : Index := Scalar.indexCast v327
  ![0, v329.toNat]
def k0_cond2 (k0_t1 : Fin k0_t1_loop.trips) : BitVec 1 :=
  let c0_i32_6 : BitVec 32 := 0#32
  let c1_i32 : BitVec 32 := 1#32
  let arg16 : BitVec 32 := Scf.iv c0_i32_6 c1_i32 k0_t1
  let c2_i32_59 : BitVec 32 := 2#32
  let v46 : BitVec 32 := Scalar.muli arg16 c2_i32_59
  let c0_i32_60 : BitVec 32 := 0#32
  let v47 : BitVec 32 := Scalar.addi v46 c0_i32_60
  let c0_i32_74 : BitVec 32 := 0#32
  let v57 : BitVec 1 := Scalar.cmpi .sgt v47 c0_i32_74
  let v58 : BitVec 32 := Scalar.extui v57
  let c0_i32_75 : BitVec 32 := 0#32
  let v59 : BitVec 1 := Scalar.cmpi .ne v58 c0_i32_75
  v59

def k0_off5 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v6 : BitVec 32 := Scalar.muli v1 c800_i32
  let c0_i32_507 : BitVec 32 := 0#32
  let v326 : BitVec 32 := Scalar.addi v6 c0_i32_507
  let c0_i32_512 : BitVec 32 := 0#32
  let c0_i32_513 : BitVec 32 := 0#32
  ![v326.toNat, 0, 0]
@[reducible] def k0_t4_loop : Scf.Loop 32 :=
  let c0_i32_85 : BitVec 32 := 0#32
  let c8_i32_86 : BitVec 32 := 8#32
  let v65 : BitVec 32 := Scalar.addi c0_i32_85 c8_i32_86
  let c1_i32_87 : BitVec 32 := 1#32
  ⟨c0_i32_85, v65, c1_i32_87⟩
def k0_off6 (k0_t4 : Fin k0_t4_loop.trips) : Fin 2 → Nat :=
  let c0_i32_508 : BitVec 32 := 0#32
  let v328 : Index := Scalar.indexCast c0_i32_508
  let c256_i32_507 : BitVec 32 := 256#32
  let c0_i32_85 : BitVec 32 := 0#32
  let c1_i32_87 : BitVec 32 := 1#32
  let arg17 : BitVec 32 := Scf.iv c0_i32_85 c1_i32_87 k0_t4
  let c16_i32 : BitVec 32 := 16#32
  let v326 : BitVec 32 := Scalar.muli arg17 c16_i32
  let v327 : BitVec 32 := Scalar.addi c256_i32_507 v326
  let v329 : Index := Scalar.indexCast v327
  ![0, v329.toNat]
def k0_cond3 (k0_t1 : Fin k0_t1_loop.trips) : BitVec 1 :=
  let c0_i32_6 : BitVec 32 := 0#32
  let c1_i32 : BitVec 32 := 1#32
  let arg16 : BitVec 32 := Scf.iv c0_i32_6 c1_i32 k0_t1
  let c2_i32_59 : BitVec 32 := 2#32
  let v46 : BitVec 32 := Scalar.muli arg16 c2_i32_59
  let c0_i32_60 : BitVec 32 := 0#32
  let v47 : BitVec 32 := Scalar.addi v46 c0_i32_60
  let c0_i32_89 : BitVec 32 := 0#32
  let v66 : BitVec 1 := Scalar.cmpi .sgt v47 c0_i32_89
  let v67 : BitVec 32 := Scalar.extui v66
  let c0_i32_90 : BitVec 32 := 0#32
  let v68 : BitVec 1 := Scalar.cmpi .ne v67 c0_i32_90
  v68

def k0_off7 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v6 : BitVec 32 := Scalar.muli v1 c800_i32
  let c0_i32_6 : BitVec 32 := 0#32
  let c1_i32 : BitVec 32 := 1#32
  let arg16 : BitVec 32 := Scf.iv c0_i32_6 c1_i32 k0_t1
  let c2_i32_59 : BitVec 32 := 2#32
  let v46 : BitVec 32 := Scalar.muli arg16 c2_i32_59
  let c0_i32_60 : BitVec 32 := 0#32
  let v47 : BitVec 32 := Scalar.addi v46 c0_i32_60
  let c8_i32_523 : BitVec 32 := 8#32
  let v336 : BitVec 32 := Scalar.muli v47 c8_i32_523
  let c_m2_i32 : BitVec 32 := 4294967294#32
  let v337 : BitVec 32 := Scalar.addi v336 c_m2_i32
  let v338 : BitVec 32 := Scalar.addi v6 v337
  let c0_i32_528 : BitVec 32 := 0#32
  let c0_i32_529 : BitVec 32 := 0#32
  ![v338.toNat, 0, 0]
@[reducible] def k0_t5_loop : Scf.Loop 32 :=
  let c0_i32_99 : BitVec 32 := 0#32
  let c8_i32_100 : BitVec 32 := 8#32
  let v74 : BitVec 32 := Scalar.addi c0_i32_99 c8_i32_100
  let c1_i32_101 : BitVec 32 := 1#32
  ⟨c0_i32_99, v74, c1_i32_101⟩
def k0_off8 (k0_t5 : Fin k0_t5_loop.trips) : Fin 2 → Nat :=
  let c0_i32_508 : BitVec 32 := 0#32
  let v328 : Index := Scalar.indexCast c0_i32_508
  let c384_i32_507 : BitVec 32 := 384#32
  let c0_i32_99 : BitVec 32 := 0#32
  let c1_i32_101 : BitVec 32 := 1#32
  let arg17 : BitVec 32 := Scf.iv c0_i32_99 c1_i32_101 k0_t5
  let c16_i32 : BitVec 32 := 16#32
  let v326 : BitVec 32 := Scalar.muli arg17 c16_i32
  let v327 : BitVec 32 := Scalar.addi c384_i32_507 v326
  let v329 : Index := Scalar.indexCast v327
  ![0, v329.toNat]
def k0_cond4 (k0_t1 : Fin k0_t1_loop.trips) : BitVec 1 :=
  let c0_i32_6 : BitVec 32 := 0#32
  let c1_i32 : BitVec 32 := 1#32
  let arg16 : BitVec 32 := Scf.iv c0_i32_6 c1_i32 k0_t1
  let c2_i32_59 : BitVec 32 := 2#32
  let v46 : BitVec 32 := Scalar.muli arg16 c2_i32_59
  let c0_i32_60 : BitVec 32 := 0#32
  let v47 : BitVec 32 := Scalar.addi v46 c0_i32_60
  let c99_i32 : BitVec 32 := 99#32
  let v75 : BitVec 1 := Scalar.cmpi .slt v47 c99_i32
  let v76 : BitVec 32 := Scalar.extui v75
  let c0_i32_103 : BitVec 32 := 0#32
  let v77 : BitVec 1 := Scalar.cmpi .ne v76 c0_i32_103
  v77

def k0_off9 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v5 : BitVec 32 := Scalar.muli v1 c102400_i32
  let c0_i32_6 : BitVec 32 := 0#32
  let c1_i32 : BitVec 32 := 1#32
  let arg16 : BitVec 32 := Scf.iv c0_i32_6 c1_i32 k0_t1
  let c2_i32_59 : BitVec 32 := 2#32
  let v46 : BitVec 32 := Scalar.muli arg16 c2_i32_59
  let c0_i32_60 : BitVec 32 := 0#32
  let v47 : BitVec 32 := Scalar.addi v46 c0_i32_60
  let c1_i32_507 : BitVec 32 := 1#32
  let v326 : BitVec 32 := Scalar.addi v47 c1_i32_507
  let c1024_i32 : BitVec 32 := 1024#32
  let v327 : BitVec 32 := Scalar.muli v326 c1024_i32
  let v328 : BitVec 32 := Scalar.addi v5 v327
  ![v328.toNat]
def k0_cond5 (k0_t1 : Fin k0_t1_loop.trips) : BitVec 1 :=
  let c0_i32_6 : BitVec 32 := 0#32
  let c1_i32 : BitVec 32 := 1#32
  let arg16 : BitVec 32 := Scf.iv c0_i32_6 c1_i32 k0_t1
  let c2_i32_59 : BitVec 32 := 2#32
  let v46 : BitVec 32 := Scalar.muli arg16 c2_i32_59
  let c0_i32_60 : BitVec 32 := 0#32
  let v47 : BitVec 32 := Scalar.addi v46 c0_i32_60
  let c0_i32_104 : BitVec 32 := 0#32
  let v78 : BitVec 1 := Scalar.cmpi .sgt v47 c0_i32_104
  let v79 : BitVec 32 := Scalar.extui v78
  let c0_i32_105 : BitVec 32 := 0#32
  let v80 : BitVec 1 := Scalar.cmpi .ne v79 c0_i32_105
  v80

def k0_off10 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v6 : BitVec 32 := Scalar.muli v1 c800_i32
  let c0_i32_507 : BitVec 32 := 0#32
  let v326 : BitVec 32 := Scalar.addi v6 c0_i32_507
  let c0_i32_512 : BitVec 32 := 0#32
  let c0_i32_513 : BitVec 32 := 0#32
  ![v326.toNat, 0, 0]
@[reducible] def k0_t6_loop : Scf.Loop 32 :=
  let c0_i32_114 : BitVec 32 := 0#32
  let c8_i32_115 : BitVec 32 := 8#32
  let v86 : BitVec 32 := Scalar.addi c0_i32_114 c8_i32_115
  let c1_i32_116 : BitVec 32 := 1#32
  ⟨c0_i32_114, v86, c1_i32_116⟩
def k0_off11 (k0_t6 : Fin k0_t6_loop.trips) : Fin 2 → Nat :=
  let c0_i32_508 : BitVec 32 := 0#32
  let v328 : Index := Scalar.indexCast c0_i32_508
  let c512_i32_507 : BitVec 32 := 512#32
  let c0_i32_114 : BitVec 32 := 0#32
  let c1_i32_116 : BitVec 32 := 1#32
  let arg17 : BitVec 32 := Scf.iv c0_i32_114 c1_i32_116 k0_t6
  let c16_i32 : BitVec 32 := 16#32
  let v326 : BitVec 32 := Scalar.muli arg17 c16_i32
  let v327 : BitVec 32 := Scalar.addi c512_i32_507 v326
  let v329 : Index := Scalar.indexCast v327
  ![0, v329.toNat]
def k0_off12 (i : grid0.Coords) (k0_t1 : Fin k0_t1_loop.trips) (c0_i32_60 : BitVec 32) (c0_i32_135 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v6 : BitVec 32 := Scalar.muli v1 c800_i32
  let c0_i32_6 : BitVec 32 := 0#32
  let c1_i32 : BitVec 32 := 1#32
  let arg16 : BitVec 32 := Scf.iv c0_i32_6 c1_i32 k0_t1
  let c2_i32_59 : BitVec 32 := 2#32
  let v46 : BitVec 32 := Scalar.muli arg16 c2_i32_59
  let v47 : BitVec 32 := Scalar.addi v46 c0_i32_60
  let c8_i32_134 : BitVec 32 := 8#32
  let v97 : BitVec 32 := Scalar.muli v47 c8_i32_134
  let v98 : BitVec 32 := Scalar.addi v97 c0_i32_135
  let v99 : BitVec 32 := Scalar.addi v6 v98
  let c0_i32_140 : BitVec 32 := 0#32
  let c0_i32_141 : BitVec 32 := 0#32
  ![v99.toNat, 0, 0]
@[reducible] def k0_t7_loop : Scf.Loop 32 :=
  let c0_i32_155 : BitVec 32 := 0#32
  let c8_i32_156 : BitVec 32 := 8#32
  let v111 : BitVec 32 := Scalar.addi c0_i32_155 c8_i32_156
  let c1_i32_157 : BitVec 32 := 1#32
  ⟨c0_i32_155, v111, c1_i32_157⟩
def k0_off13 (k0_t7 : Fin k0_t7_loop.trips) : Fin 2 → Nat :=
  let c0_i32_508 : BitVec 32 := 0#32
  let v328 : Index := Scalar.indexCast c0_i32_508
  let c640_i32_507 : BitVec 32 := 640#32
  let c0_i32_155 : BitVec 32 := 0#32
  let c1_i32_157 : BitVec 32 := 1#32
  let arg17 : BitVec 32 := Scf.iv c0_i32_155 c1_i32_157 k0_t7
  let c16_i32 : BitVec 32 := 16#32
  let v326 : BitVec 32 := Scalar.muli arg17 c16_i32
  let v327 : BitVec 32 := Scalar.addi c640_i32_507 v326
  let v329 : Index := Scalar.indexCast v327
  ![0, v329.toNat]
def k0_off14 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v6 : BitVec 32 := Scalar.muli v1 c800_i32
  let c0_i32_159 : BitVec 32 := 0#32
  let v112 : BitVec 32 := Scalar.addi v6 c0_i32_159
  let c0_i32_164 : BitVec 32 := 0#32
  let c0_i32_165 : BitVec 32 := 0#32
  ![v112.toNat, 0, 0]
@[reducible] def k0_t8_loop : Scf.Loop 32 :=
  let c0_i32_179 : BitVec 32 := 0#32
  let c8_i32_180 : BitVec 32 := 8#32
  let v124 : BitVec 32 := Scalar.addi c0_i32_179 c8_i32_180
  let c1_i32_181 : BitVec 32 := 1#32
  ⟨c0_i32_179, v124, c1_i32_181⟩
def k0_off15 (k0_t8 : Fin k0_t8_loop.trips) : Fin 2 → Nat :=
  let c0_i32_508 : BitVec 32 := 0#32
  let v328 : Index := Scalar.indexCast c0_i32_508
  let c768_i32_507 : BitVec 32 := 768#32
  let c0_i32_179 : BitVec 32 := 0#32
  let c1_i32_181 : BitVec 32 := 1#32
  let arg17 : BitVec 32 := Scf.iv c0_i32_179 c1_i32_181 k0_t8
  let c16_i32 : BitVec 32 := 16#32
  let v326 : BitVec 32 := Scalar.muli arg17 c16_i32
  let v327 : BitVec 32 := Scalar.addi c768_i32_507 v326
  let v329 : Index := Scalar.indexCast v327
  ![0, v329.toNat]
@[reducible] def k0_t9_loop : Scf.Loop 32 :=
  let c0_i32_220 : BitVec 32 := 0#32
  let c8_i32_221 : BitVec 32 := 8#32
  let v149 : BitVec 32 := Scalar.addi c0_i32_220 c8_i32_221
  let c1_i32_222 : BitVec 32 := 1#32
  ⟨c0_i32_220, v149, c1_i32_222⟩
def k0_off16 (k0_t9 : Fin k0_t9_loop.trips) : Fin 2 → Nat :=
  let c0_i32_508 : BitVec 32 := 0#32
  let v328 : Index := Scalar.indexCast c0_i32_508
  let c896_i32_507 : BitVec 32 := 896#32
  let c0_i32_220 : BitVec 32 := 0#32
  let c1_i32_222 : BitVec 32 := 1#32
  let arg17 : BitVec 32 := Scf.iv c0_i32_220 c1_i32_222 k0_t9
  let c16_i32 : BitVec 32 := 16#32
  let v326 : BitVec 32 := Scalar.muli arg17 c16_i32
  let v327 : BitVec 32 := Scalar.addi c896_i32_507 v326
  let v329 : Index := Scalar.indexCast v327
  ![0, v329.toNat]
@[reducible] def k0_t10_loop : Scf.Loop 32 :=
  let c0_i32_285 : BitVec 32 := 0#32
  let c8_i32_286 : BitVec 32 := 8#32
  let v195 : BitVec 32 := Scalar.addi c0_i32_285 c8_i32_286
  let c1_i32_287 : BitVec 32 := 1#32
  ⟨c0_i32_285, v195, c1_i32_287⟩
def k0_off17 (k0_t10 : Fin k0_t10_loop.trips) : Fin 2 → Nat :=
  let c1_i32_508 : BitVec 32 := 1#32
  let v328 : Index := Scalar.indexCast c1_i32_508
  let c0_i32_507 : BitVec 32 := 0#32
  let c0_i32_285 : BitVec 32 := 0#32
  let c1_i32_287 : BitVec 32 := 1#32
  let arg17 : BitVec 32 := Scf.iv c0_i32_285 c1_i32_287 k0_t10
  let c16_i32 : BitVec 32 := 16#32
  let v326 : BitVec 32 := Scalar.muli arg17 c16_i32
  let v327 : BitVec 32 := Scalar.addi c0_i32_507 v326
  let v329 : Index := Scalar.indexCast v327
  ![1, v329.toNat]
@[reducible] def k0_t11_loop : Scf.Loop 32 :=
  let c0_i32_290 : BitVec 32 := 0#32
  let c8_i32_291 : BitVec 32 := 8#32
  let v196 : BitVec 32 := Scalar.addi c0_i32_290 c8_i32_291
  let c1_i32_292 : BitVec 32 := 1#32
  ⟨c0_i32_290, v196, c1_i32_292⟩
def k0_off18 (k0_t11 : Fin k0_t11_loop.trips) : Fin 2 → Nat :=
  let c1_i32_508 : BitVec 32 := 1#32
  let v328 : Index := Scalar.indexCast c1_i32_508
  let c128_i32_507 : BitVec 32 := 128#32
  let c0_i32_290 : BitVec 32 := 0#32
  let c1_i32_292 : BitVec 32 := 1#32
  let arg17 : BitVec 32 := Scf.iv c0_i32_290 c1_i32_292 k0_t11
  let c16_i32 : BitVec 32 := 16#32
  let v326 : BitVec 32 := Scalar.muli arg17 c16_i32
  let v327 : BitVec 32 := Scalar.addi c128_i32_507 v326
  let v329 : Index := Scalar.indexCast v327
  ![1, v329.toNat]
def k0_cond6 (k0_t1 : Fin k0_t1_loop.trips) : BitVec 1 :=
  let c0_i32_6 : BitVec 32 := 0#32
  let c1_i32 : BitVec 32 := 1#32
  let arg16 : BitVec 32 := Scf.iv c0_i32_6 c1_i32 k0_t1
  let c2_i32_278 : BitVec 32 := 2#32
  let v186 : BitVec 32 := Scalar.muli arg16 c2_i32_278
  let c1_i32_279 : BitVec 32 := 1#32
  let v187 : BitVec 32 := Scalar.addi v186 c1_i32_279
  let c0_i32_294 : BitVec 32 := 0#32
  let v197 : BitVec 1 := Scalar.cmpi .sgt v187 c0_i32_294
  let v198 : BitVec 32 := Scalar.extui v197
  let c0_i32_295 : BitVec 32 := 0#32
  let v199 : BitVec 1 := Scalar.cmpi .ne v198 c0_i32_295
  v199

def k0_off19 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v6 : BitVec 32 := Scalar.muli v1 c800_i32
  let c0_i32_507 : BitVec 32 := 0#32
  let v326 : BitVec 32 := Scalar.addi v6 c0_i32_507
  let c0_i32_512 : BitVec 32 := 0#32
  let c0_i32_513 : BitVec 32 := 0#32
  ![v326.toNat, 0, 0]
@[reducible] def k0_t12_loop : Scf.Loop 32 :=
  let c0_i32_305 : BitVec 32 := 0#32
  let c8_i32_306 : BitVec 32 := 8#32
  let v205 : BitVec 32 := Scalar.addi c0_i32_305 c8_i32_306
  let c1_i32_307 : BitVec 32 := 1#32
  ⟨c0_i32_305, v205, c1_i32_307⟩
def k0_off20 (k0_t12 : Fin k0_t12_loop.trips) : Fin 2 → Nat :=
  let c1_i32_508 : BitVec 32 := 1#32
  let v328 : Index := Scalar.indexCast c1_i32_508
  let c256_i32_507 : BitVec 32 := 256#32
  let c0_i32_305 : BitVec 32 := 0#32
  let c1_i32_307 : BitVec 32 := 1#32
  let arg17 : BitVec 32 := Scf.iv c0_i32_305 c1_i32_307 k0_t12
  let c16_i32 : BitVec 32 := 16#32
  let v326 : BitVec 32 := Scalar.muli arg17 c16_i32
  let v327 : BitVec 32 := Scalar.addi c256_i32_507 v326
  let v329 : Index := Scalar.indexCast v327
  ![1, v329.toNat]
def k0_cond7 (k0_t1 : Fin k0_t1_loop.trips) : BitVec 1 :=
  let c0_i32_6 : BitVec 32 := 0#32
  let c1_i32 : BitVec 32 := 1#32
  let arg16 : BitVec 32 := Scf.iv c0_i32_6 c1_i32 k0_t1
  let c2_i32_278 : BitVec 32 := 2#32
  let v186 : BitVec 32 := Scalar.muli arg16 c2_i32_278
  let c1_i32_279 : BitVec 32 := 1#32
  let v187 : BitVec 32 := Scalar.addi v186 c1_i32_279
  let c0_i32_309 : BitVec 32 := 0#32
  let v206 : BitVec 1 := Scalar.cmpi .sgt v187 c0_i32_309
  let v207 : BitVec 32 := Scalar.extui v206
  let c0_i32_310 : BitVec 32 := 0#32
  let v208 : BitVec 1 := Scalar.cmpi .ne v207 c0_i32_310
  v208

def k0_off21 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v6 : BitVec 32 := Scalar.muli v1 c800_i32
  let c0_i32_6 : BitVec 32 := 0#32
  let c1_i32 : BitVec 32 := 1#32
  let arg16 : BitVec 32 := Scf.iv c0_i32_6 c1_i32 k0_t1
  let c2_i32_278 : BitVec 32 := 2#32
  let v186 : BitVec 32 := Scalar.muli arg16 c2_i32_278
  let c1_i32_279 : BitVec 32 := 1#32
  let v187 : BitVec 32 := Scalar.addi v186 c1_i32_279
  let c8_i32_523 : BitVec 32 := 8#32
  let v336 : BitVec 32 := Scalar.muli v187 c8_i32_523
  let c_m2_i32 : BitVec 32 := 4294967294#32
  let v337 : BitVec 32 := Scalar.addi v336 c_m2_i32
  let v338 : BitVec 32 := Scalar.addi v6 v337
  let c0_i32_528 : BitVec 32 := 0#32
  let c0_i32_529 : BitVec 32 := 0#32
  ![v338.toNat, 0, 0]
@[reducible] def k0_t13_loop : Scf.Loop 32 :=
  let c0_i32_320 : BitVec 32 := 0#32
  let c8_i32_321 : BitVec 32 := 8#32
  let v214 : BitVec 32 := Scalar.addi c0_i32_320 c8_i32_321
  let c1_i32_322 : BitVec 32 := 1#32
  ⟨c0_i32_320, v214, c1_i32_322⟩
def k0_off22 (k0_t13 : Fin k0_t13_loop.trips) : Fin 2 → Nat :=
  let c1_i32_508 : BitVec 32 := 1#32
  let v328 : Index := Scalar.indexCast c1_i32_508
  let c384_i32_507 : BitVec 32 := 384#32
  let c0_i32_320 : BitVec 32 := 0#32
  let c1_i32_322 : BitVec 32 := 1#32
  let arg17 : BitVec 32 := Scf.iv c0_i32_320 c1_i32_322 k0_t13
  let c16_i32 : BitVec 32 := 16#32
  let v326 : BitVec 32 := Scalar.muli arg17 c16_i32
  let v327 : BitVec 32 := Scalar.addi c384_i32_507 v326
  let v329 : Index := Scalar.indexCast v327
  ![1, v329.toNat]
def k0_cond8 (k0_t1 : Fin k0_t1_loop.trips) : BitVec 1 :=
  let c0_i32_6 : BitVec 32 := 0#32
  let c1_i32 : BitVec 32 := 1#32
  let arg16 : BitVec 32 := Scf.iv c0_i32_6 c1_i32 k0_t1
  let c2_i32_278 : BitVec 32 := 2#32
  let v186 : BitVec 32 := Scalar.muli arg16 c2_i32_278
  let c1_i32_279 : BitVec 32 := 1#32
  let v187 : BitVec 32 := Scalar.addi v186 c1_i32_279
  let c99_i32_324 : BitVec 32 := 99#32
  let v215 : BitVec 1 := Scalar.cmpi .slt v187 c99_i32_324
  let v216 : BitVec 32 := Scalar.extui v215
  let c0_i32_325 : BitVec 32 := 0#32
  let v217 : BitVec 1 := Scalar.cmpi .ne v216 c0_i32_325
  v217

def k0_off23 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v5 : BitVec 32 := Scalar.muli v1 c102400_i32
  let c0_i32_6 : BitVec 32 := 0#32
  let c1_i32 : BitVec 32 := 1#32
  let arg16 : BitVec 32 := Scf.iv c0_i32_6 c1_i32 k0_t1
  let c2_i32_278 : BitVec 32 := 2#32
  let v186 : BitVec 32 := Scalar.muli arg16 c2_i32_278
  let c1_i32_279 : BitVec 32 := 1#32
  let v187 : BitVec 32 := Scalar.addi v186 c1_i32_279
  let c1_i32_507 : BitVec 32 := 1#32
  let v326 : BitVec 32 := Scalar.addi v187 c1_i32_507
  let c1024_i32 : BitVec 32 := 1024#32
  let v327 : BitVec 32 := Scalar.muli v326 c1024_i32
  let v328 : BitVec 32 := Scalar.addi v5 v327
  ![v328.toNat]
def k0_cond9 (k0_t1 : Fin k0_t1_loop.trips) : BitVec 1 :=
  let c0_i32_6 : BitVec 32 := 0#32
  let c1_i32 : BitVec 32 := 1#32
  let arg16 : BitVec 32 := Scf.iv c0_i32_6 c1_i32 k0_t1
  let c2_i32_278 : BitVec 32 := 2#32
  let v186 : BitVec 32 := Scalar.muli arg16 c2_i32_278
  let c1_i32_279 : BitVec 32 := 1#32
  let v187 : BitVec 32 := Scalar.addi v186 c1_i32_279
  let c0_i32_326 : BitVec 32 := 0#32
  let v218 : BitVec 1 := Scalar.cmpi .sgt v187 c0_i32_326
  let v219 : BitVec 32 := Scalar.extui v218
  let c0_i32_327 : BitVec 32 := 0#32
  let v220 : BitVec 1 := Scalar.cmpi .ne v219 c0_i32_327
  v220

def k0_off24 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v6 : BitVec 32 := Scalar.muli v1 c800_i32
  let c0_i32_507 : BitVec 32 := 0#32
  let v326 : BitVec 32 := Scalar.addi v6 c0_i32_507
  let c0_i32_512 : BitVec 32 := 0#32
  let c0_i32_513 : BitVec 32 := 0#32
  ![v326.toNat, 0, 0]
@[reducible] def k0_t14_loop : Scf.Loop 32 :=
  let c0_i32_337 : BitVec 32 := 0#32
  let c8_i32_338 : BitVec 32 := 8#32
  let v226 : BitVec 32 := Scalar.addi c0_i32_337 c8_i32_338
  let c1_i32_339 : BitVec 32 := 1#32
  ⟨c0_i32_337, v226, c1_i32_339⟩
def k0_off25 (k0_t14 : Fin k0_t14_loop.trips) : Fin 2 → Nat :=
  let c1_i32_508 : BitVec 32 := 1#32
  let v328 : Index := Scalar.indexCast c1_i32_508
  let c512_i32_507 : BitVec 32 := 512#32
  let c0_i32_337 : BitVec 32 := 0#32
  let c1_i32_339 : BitVec 32 := 1#32
  let arg17 : BitVec 32 := Scf.iv c0_i32_337 c1_i32_339 k0_t14
  let c16_i32 : BitVec 32 := 16#32
  let v326 : BitVec 32 := Scalar.muli arg17 c16_i32
  let v327 : BitVec 32 := Scalar.addi c512_i32_507 v326
  let v329 : Index := Scalar.indexCast v327
  ![1, v329.toNat]
@[reducible] def k0_t15_loop : Scf.Loop 32 :=
  let c0_i32_379 : BitVec 32 := 0#32
  let c8_i32_380 : BitVec 32 := 8#32
  let v251 : BitVec 32 := Scalar.addi c0_i32_379 c8_i32_380
  let c1_i32_381 : BitVec 32 := 1#32
  ⟨c0_i32_379, v251, c1_i32_381⟩
def k0_off26 (k0_t15 : Fin k0_t15_loop.trips) : Fin 2 → Nat :=
  let c1_i32_508 : BitVec 32 := 1#32
  let v328 : Index := Scalar.indexCast c1_i32_508
  let c640_i32_507 : BitVec 32 := 640#32
  let c0_i32_379 : BitVec 32 := 0#32
  let c1_i32_381 : BitVec 32 := 1#32
  let arg17 : BitVec 32 := Scf.iv c0_i32_379 c1_i32_381 k0_t15
  let c16_i32 : BitVec 32 := 16#32
  let v326 : BitVec 32 := Scalar.muli arg17 c16_i32
  let v327 : BitVec 32 := Scalar.addi c640_i32_507 v326
  let v329 : Index := Scalar.indexCast v327
  ![1, v329.toNat]
@[reducible] def k0_t16_loop : Scf.Loop 32 :=
  let c0_i32_404 : BitVec 32 := 0#32
  let c8_i32_405 : BitVec 32 := 8#32
  let v264 : BitVec 32 := Scalar.addi c0_i32_404 c8_i32_405
  let c1_i32_406 : BitVec 32 := 1#32
  ⟨c0_i32_404, v264, c1_i32_406⟩
def k0_off27 (k0_t16 : Fin k0_t16_loop.trips) : Fin 2 → Nat :=
  let c1_i32_508 : BitVec 32 := 1#32
  let v328 : Index := Scalar.indexCast c1_i32_508
  let c768_i32_507 : BitVec 32 := 768#32
  let c0_i32_404 : BitVec 32 := 0#32
  let c1_i32_406 : BitVec 32 := 1#32
  let arg17 : BitVec 32 := Scf.iv c0_i32_404 c1_i32_406 k0_t16
  let c16_i32 : BitVec 32 := 16#32
  let v326 : BitVec 32 := Scalar.muli arg17 c16_i32
  let v327 : BitVec 32 := Scalar.addi c768_i32_507 v326
  let v329 : Index := Scalar.indexCast v327
  ![1, v329.toNat]
@[reducible] def k0_t17_loop : Scf.Loop 32 :=
  let c0_i32_446 : BitVec 32 := 0#32
  let c8_i32_447 : BitVec 32 := 8#32
  let v289 : BitVec 32 := Scalar.addi c0_i32_446 c8_i32_447
  let c1_i32_448 : BitVec 32 := 1#32
  ⟨c0_i32_446, v289, c1_i32_448⟩
def k0_off28 (k0_t17 : Fin k0_t17_loop.trips) : Fin 2 → Nat :=
  let c1_i32_508 : BitVec 32 := 1#32
  let v328 : Index := Scalar.indexCast c1_i32_508
  let c896_i32_507 : BitVec 32 := 896#32
  let c0_i32_446 : BitVec 32 := 0#32
  let c1_i32_448 : BitVec 32 := 1#32
  let arg17 : BitVec 32 := Scf.iv c0_i32_446 c1_i32_448 k0_t17
  let c16_i32 : BitVec 32 := 16#32
  let v326 : BitVec 32 := Scalar.muli arg17 c16_i32
  let v327 : BitVec 32 := Scalar.addi c896_i32_507 v326
  let v329 : Index := Scalar.indexCast v327
  ![1, v329.toNat]
def k0_off29 (i : grid0.Coords) (c798_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v6 : BitVec 32 := Scalar.muli v1 c800_i32
  let v25 : BitVec 32 := Scalar.addi v6 c798_i32
  let c0_i32_28 : BitVec 32 := 0#32
  let c0_i32_29 : BitVec 32 := 0#32
  ![v25.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x200_S3276800 : S16384x200.ShapeCasts S3276800
  inb_S2x1024_S1x1024_0_0 : ∀ a, (![0, 0] : Fin 2 → Nat) a + S1x1024.size a ≤ S2x1024.size a
  squeezes_S1x1024_S1024 : S1x1024.Squeezes S1024
  h_S1x16 : 0 < S1x16.numel
  shapeCasts_S1x16_S16 : S1x16.ShapeCasts S16
  shapeCasts_S16_S1x16 : S16.ShapeCasts S1x16
  inb_S2x2x128x128_S1x2x128x128_0_0_0_0 : ∀ a, (![0, 0, 0, 0] : Fin 4 → Nat) a + S1x2x128x128.size a ≤ S2x2x128x128.size a
  squeezes_S1x2x128x128_S2x128x128 : S1x2x128x128.Squeezes S2x128x128
  inb_S2x2x128x128_S1x1x128x128_0_0_0_0 : ∀ a, (![0, 0, 0, 0] : Fin 4 → Nat) a + S1x1x128x128.size a ≤ S2x2x128x128.size a
  squeezes_S1x1x128x128_S128x128 : S1x1x128x128.Squeezes S128x128
  inb_S2x1024_S1x128_0_0 : ∀ a, (![0, 0] : Fin 2 → Nat) a + S1x128.size a ≤ S2x1024.size a
  squeezes_S1x128_S128 : S1x128.Squeezes S128
  inb_S3x128_S3x128_0_0 : ∀ a, (![0, 0] : Fin 2 → Nat) a + S3x128.size a ≤ S3x128.size a
  gathers_S3x128_S128x128 : S3x128.Gathers 0 S128x128
  inb_S2x2x128x128_S1x1x128x128_1_0_0_0 : ∀ a, (![1, 0, 0, 0] : Fin 4 → Nat) a + S1x1x128x128.size a ≤ S2x2x128x128.size a
  inb_S2x2x128x128_S1x1x128x128_1_1_0_0 : ∀ a, (![1, 1, 0, 0] : Fin 4 → Nat) a + S1x1x128x128.size a ≤ S2x2x128x128.size a
  inb_S2x2x128x128_S1x2x128x128_1_0_0_0 : ∀ a, (![1, 0, 0, 0] : Fin 4 → Nat) a + S1x2x128x128.size a ≤ S2x2x128x128.size a
  inb_S2x2x128x128_S1x1x128x128_0_1_0_0 : ∀ a, (![0, 1, 0, 0] : Fin 4 → Nat) a + S1x1x128x128.size a ≤ S2x2x128x128.size a
  inb_S2x1024_S1x128_0_128 : ∀ a, (![0, 128] : Fin 2 → Nat) a + S1x128.size a ≤ S2x1024.size a
  inb_S2x1024_S1x1024_1_0 : ∀ a, (![1, 0] : Fin 2 → Nat) a + S1x1024.size a ≤ S2x1024.size a
  inb_S2x1024_S1x128_0_256 : ∀ a, (![0, 256] : Fin 2 → Nat) a + S1x128.size a ≤ S2x1024.size a
  inb_S2x1024_S1x128_0_384 : ∀ a, (![0, 384] : Fin 2 → Nat) a + S1x128.size a ≤ S2x1024.size a
  inb_S2x1024_S1x128_0_512 : ∀ a, (![0, 512] : Fin 2 → Nat) a + S1x128.size a ≤ S2x1024.size a
  inb_S2x1024_S1x128_0_640 : ∀ a, (![0, 640] : Fin 2 → Nat) a + S1x128.size a ≤ S2x1024.size a
  inb_S2x1024_S1x128_0_768 : ∀ a, (![0, 768] : Fin 2 → Nat) a + S1x128.size a ≤ S2x1024.size a
  inb_S2x1024_S1x128_0_896 : ∀ a, (![0, 896] : Fin 2 → Nat) a + S1x128.size a ≤ S2x1024.size a
  inb_S2x1024_S1x128_1_0 : ∀ a, (![1, 0] : Fin 2 → Nat) a + S1x128.size a ≤ S2x1024.size a
  inb_S2x1024_S1x128_1_128 : ∀ a, (![1, 128] : Fin 2 → Nat) a + S1x128.size a ≤ S2x1024.size a
  inb_S2x1024_S1x128_1_256 : ∀ a, (![1, 256] : Fin 2 → Nat) a + S1x128.size a ≤ S2x1024.size a
  inb_S2x1024_S1x128_1_384 : ∀ a, (![1, 384] : Fin 2 → Nat) a + S1x128.size a ≤ S2x1024.size a
  inb_S2x1024_S1x128_1_512 : ∀ a, (![1, 512] : Fin 2 → Nat) a + S1x128.size a ≤ S2x1024.size a
  inb_S2x1024_S1x128_1_640 : ∀ a, (![1, 640] : Fin 2 → Nat) a + S1x128.size a ≤ S2x1024.size a
  inb_S2x1024_S1x128_1_768 : ∀ a, (![1, 768] : Fin 2 → Nat) a + S1x128.size a ≤ S2x1024.size a
  inb_S2x1024_S1x128_1_896 : ∀ a, (![1, 896] : Fin 2 → Nat) a + S1x128.size a ≤ S2x1024.size a
  shapeCasts_S25600x128x128_S16384x200x128 : S25600x128x128.ShapeCasts S16384x200x128
  hcc0_scratch3 : 0 + S_.numel ≤ 9
  hcc0_scratch4 : 1 + S_.numel ≤ 9
  hcc0_scratch5 : 2 + S_.numel ≤ 9
  hcc0_scratch6 : 3 + S_.numel ≤ 9
  hcc0_scratch7 : 4 + S_.numel ≤ 9
  hcc0_scratch8 : 5 + S_.numel ≤ 9
  hcc0_scratch9 : 6 + S_.numel ≤ 9
  hcc0_scratch10 : 7 + S_.numel ≤ 9
  hcc0_scoped0 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1024.size a ≤ S3276800.size a
  k0_t1_ok : k0_t1_loop.OK
  k0_off2_inb : ∀ i : grid0.Coords, ∀ a, (k0_off2 i) a + S1024.size a ≤ S3276800.size a
  k0_t2_ok : k0_t2_loop.OK
  k0_off3_inb : ∀ k0_t2 : Fin k0_t2_loop.trips, ∀ a, (k0_off3 k0_t2) a + S1x16.size a ≤ S2x1024.size a
  k0_t3_ok : k0_t3_loop.OK
  k0_off4_inb : ∀ k0_t3 : Fin k0_t3_loop.trips, ∀ a, (k0_off4 k0_t3) a + S1x16.size a ≤ S2x1024.size a
  k0_off5_inb : ∀ (i : grid0.Coords) (k0_t1 : Fin k0_t1_loop.trips), ∀ (k0_h2 : k0_cond2 k0_t1 = 1#1), ∀ a, (k0_off5 i) a + S2x128x128.size a ≤ S25600x128x128.size a
  k0_t4_ok : k0_t4_loop.OK
  k0_off6_inb : ∀ k0_t4 : Fin k0_t4_loop.trips, ∀ a, (k0_off6 k0_t4) a + S1x16.size a ≤ S2x1024.size a
  k0_off7_inb : ∀ (i : grid0.Coords) (k0_t1 : Fin k0_t1_loop.trips), ∀ (k0_h3 : k0_cond3 k0_t1 = 1#1), ∀ a, (k0_off7 i k0_t1) a + S2x128x128.size a ≤ S25600x128x128.size a
  k0_t5_ok : k0_t5_loop.OK
  k0_off8_inb : ∀ k0_t5 : Fin k0_t5_loop.trips, ∀ a, (k0_off8 k0_t5) a + S1x16.size a ≤ S2x1024.size a
  k0_off9_inb : ∀ (i : grid0.Coords) (k0_t1 : Fin k0_t1_loop.trips), ∀ (k0_h4 : k0_cond4 k0_t1 = 1#1), ∀ a, (k0_off9 i k0_t1) a + S1024.size a ≤ S3276800.size a
  k0_off10_inb : ∀ (i : grid0.Coords) (k0_t1 : Fin k0_t1_loop.trips), ∀ (k0_h5 : k0_cond5 k0_t1 = 1#1), ∀ a, (k0_off10 i) a + S2x128x128.size a ≤ S25600x128x128.size a
  k0_t6_ok : k0_t6_loop.OK
  k0_off11_inb : ∀ k0_t6 : Fin k0_t6_loop.trips, ∀ a, (k0_off11 k0_t6) a + S1x16.size a ≤ S2x1024.size a
  k0_off12_inb : ∀ (i : grid0.Coords) (k0_t1 : Fin k0_t1_loop.trips), ∀ (r₁ : Fin 2) (r₂ : Fin 3), ∀ a, (k0_off12 i k0_t1 (BitVec.ofNat 32 r₁.val) (BitVec.ofNat 32 (2 * r₂.val))) a + S2x128x128.size a ≤ S25600x128x128.size a
  k0_t7_ok : k0_t7_loop.OK
  k0_off13_inb : ∀ k0_t7 : Fin k0_t7_loop.trips, ∀ a, (k0_off13 k0_t7) a + S1x16.size a ≤ S2x1024.size a
  k0_off14_inb : ∀ i : grid0.Coords, ∀ a, (k0_off14 i) a + S2x128x128.size a ≤ S25600x128x128.size a
  k0_t8_ok : k0_t8_loop.OK
  k0_off15_inb : ∀ k0_t8 : Fin k0_t8_loop.trips, ∀ a, (k0_off15 k0_t8) a + S1x16.size a ≤ S2x1024.size a
  k0_t9_ok : k0_t9_loop.OK
  k0_off16_inb : ∀ k0_t9 : Fin k0_t9_loop.trips, ∀ a, (k0_off16 k0_t9) a + S1x16.size a ≤ S2x1024.size a
  k0_t10_ok : k0_t10_loop.OK
  k0_off17_inb : ∀ k0_t10 : Fin k0_t10_loop.trips, ∀ a, (k0_off17 k0_t10) a + S1x16.size a ≤ S2x1024.size a
  k0_t11_ok : k0_t11_loop.OK
  k0_off18_inb : ∀ k0_t11 : Fin k0_t11_loop.trips, ∀ a, (k0_off18 k0_t11) a + S1x16.size a ≤ S2x1024.size a
  k0_off19_inb : ∀ (i : grid0.Coords) (k0_t1 : Fin k0_t1_loop.trips), ∀ (k0_h6 : k0_cond6 k0_t1 = 1#1), ∀ a, (k0_off19 i) a + S2x128x128.size a ≤ S25600x128x128.size a
  k0_t12_ok : k0_t12_loop.OK
  k0_off20_inb : ∀ k0_t12 : Fin k0_t12_loop.trips, ∀ a, (k0_off20 k0_t12) a + S1x16.size a ≤ S2x1024.size a
  k0_off21_inb : ∀ (i : grid0.Coords) (k0_t1 : Fin k0_t1_loop.trips), ∀ (k0_h7 : k0_cond7 k0_t1 = 1#1), ∀ a, (k0_off21 i k0_t1) a + S2x128x128.size a ≤ S25600x128x128.size a
  k0_t13_ok : k0_t13_loop.OK
  k0_off22_inb : ∀ k0_t13 : Fin k0_t13_loop.trips, ∀ a, (k0_off22 k0_t13) a + S1x16.size a ≤ S2x1024.size a
  k0_off23_inb : ∀ (i : grid0.Coords) (k0_t1 : Fin k0_t1_loop.trips), ∀ (k0_h8 : k0_cond8 k0_t1 = 1#1), ∀ a, (k0_off23 i k0_t1) a + S1024.size a ≤ S3276800.size a
  k0_off24_inb : ∀ (i : grid0.Coords) (k0_t1 : Fin k0_t1_loop.trips), ∀ (k0_h9 : k0_cond9 k0_t1 = 1#1), ∀ a, (k0_off24 i) a + S2x128x128.size a ≤ S25600x128x128.size a
  k0_t14_ok : k0_t14_loop.OK
  k0_off25_inb : ∀ k0_t14 : Fin k0_t14_loop.trips, ∀ a, (k0_off25 k0_t14) a + S1x16.size a ≤ S2x1024.size a
  k0_t15_ok : k0_t15_loop.OK
  k0_off26_inb : ∀ k0_t15 : Fin k0_t15_loop.trips, ∀ a, (k0_off26 k0_t15) a + S1x16.size a ≤ S2x1024.size a
  k0_t16_ok : k0_t16_loop.OK
  k0_off27_inb : ∀ k0_t16 : Fin k0_t16_loop.trips, ∀ a, (k0_off27 k0_t16) a + S1x16.size a ≤ S2x1024.size a
  k0_t17_ok : k0_t17_loop.OK
  k0_off28_inb : ∀ k0_t17 : Fin k0_t17_loop.trips, ∀ a, (k0_off28 k0_t17) a + S1x16.size a ≤ S2x1024.size a
  k0_off29_inb : ∀ i : grid0.Coords, ∀ (r : Fin 2), ∀ a, (k0_off29 i (BitVec.ofNat 32 (798 * r.val))) a + S2x128x128.size a ≤ S25600x128x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8
abbrev cc0_scratch9 : DmaSems sig S_ := SemArray.consecutive 6 S_ hcc0_scratch9
abbrev cc0_scratch10 : DmaSems sig S_ := SemArray.consecutive 7 S_ hcc0_scratch10
abbrev cc0_scoped0 : DmaSems sig S_ := SemArray.consecutive 8 S_ hcc0_scoped0

class Facts : Prop extends Facts₀ where

variable [Facts]
-- ==== ReferenceIdeal.lean ====
abbrev S16384x200 : Shape := ⟨2, ![16384, 200]⟩
abbrev S3x128 : Shape := ⟨2, ![3, 128]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S16384x200x128 : Shape := ⟨3, ![16384, 200, 128]⟩

abbrev nBuf : Space → Nat
  | .hbm => 47
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S3x128, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S16384x200, .i32⟩
  | .hbm, ⟨9, _⟩ => ⟨S16384x200, .i32⟩
  | .hbm, ⟨10, _⟩ => ⟨S_, .i32⟩
  | .hbm, ⟨11, _⟩ => ⟨S16384x200, .i32⟩
  | .hbm, ⟨12, _⟩ => ⟨S16384x200, .i1⟩
  | .hbm, ⟨13, _⟩ => ⟨S_, .i32⟩
  | .hbm, ⟨14, _⟩ => ⟨S16384x200, .i32⟩
  | .hbm, ⟨15, _⟩ => ⟨S16384x200, .i1⟩
  | .hbm, ⟨16, _⟩ => ⟨S_, .i32⟩
  | .hbm, ⟨17, _⟩ => ⟨S_, .i1⟩
  | .hbm, ⟨18, _⟩ => ⟨S16384x200, .i1⟩
  | .hbm, ⟨19, _⟩ => ⟨S16384x200, .i1⟩
  | .hbm, ⟨20, _⟩ => ⟨S16384x200, .i1⟩
  | .hbm, ⟨21, _⟩ => ⟨S16384x200, .i32⟩
  | .hbm, ⟨22, _⟩ => ⟨S16384x200, .i32⟩
  | .hbm, ⟨23, _⟩ => ⟨S16384x200, .i32⟩
  | .hbm, ⟨24, _⟩ => ⟨S_, .i32⟩
  | .hbm, ⟨25, _⟩ => ⟨S16384x200, .i32⟩
  | .hbm, ⟨26, _⟩ => ⟨S16384x200, .i1⟩
  | .hbm, ⟨27, _⟩ => ⟨S_, .i32⟩
  | .hbm, ⟨28, _⟩ => ⟨S16384x200, .i32⟩
  | .hbm, ⟨29, _⟩ => ⟨S16384x200, .i32⟩
  | .hbm, ⟨30, _⟩ => ⟨S16384x200, .i32⟩
  | .hbm, ⟨31, _⟩ => ⟨S16384x200x1, .i32⟩
  | .hbm, ⟨32, _⟩ => ⟨S1, .i32⟩
  | .hbm, ⟨33, _⟩ => ⟨S_, .i32⟩
  | .hbm, ⟨34, _⟩ => ⟨S16384x200x1, .i32⟩
  | .hbm, ⟨35, _⟩ => ⟨S16384x200x1, .i1⟩
  | .hbm, ⟨36, _⟩ => ⟨S1x1x1, .i32⟩
  | .hbm, ⟨37, _⟩ => ⟨S16384x200x1, .i32⟩
  | .hbm, ⟨38, _⟩ => ⟨S16384x200x1, .i1⟩
  | .hbm, ⟨39, _⟩ => ⟨S16384x200x1, .i1⟩
  | .hbm, ⟨40, _⟩ => ⟨S_, .i1⟩
  | .hbm, ⟨41, _⟩ => ⟨S16384x200, .i1⟩
  | .hbm, ⟨42, _⟩ => ⟨S16384x200x128, .f32⟩
  | .hbm, ⟨43, _⟩ => ⟨S16384x200x128, .i1⟩
  | .hbm, ⟨44, _⟩ => ⟨S_, .f32⟩
  | .hbm, ⟨45, _⟩ => ⟨S16384x200x128, .f32⟩
  | .hbm, ⟨46, _⟩ => ⟨S16384x200x128, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v0 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v1 : Ref sig .tc := ⟨.hbm, 46, rfl⟩

abbrev nD : Nat := 1
abbrev τ : Topo := Topo.v7x

variable {F : FTy → Type} [FloatOps F]

class Facts₀ : Prop where
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  bcast_S16384x200_S16384x200x128_0_1 : S16384x200.BroadcastsInDim S16384x200x128 (![0, 1] : Fin 2 → Fin S16384x200x128.rank)
  bcast_S_S16384x200x128 : S_.BroadcastsInDim S16384x200x128 (![] : Fin 0 → Fin S16384x200x128.rank)
  gather_S3x128_S16384x200x1_S16384x200x128_2_0_n_n_0_2_1128_wf : GatherDims.WF S3x128 S16384x200x1 S16384x200x128 [2] [0] [] [0] [] 2 ![1, 128]

variable [Facts₀]

def gather_S3x128_S16384x200x1_S16384x200x128_2_0_n_n_0_2_1128 : GatherDims S3x128 S16384x200x1 S16384x200x128 where
  offsetDims := [2]
  collapsedSliceDims := [0]
  operandBatchingDims := []
  startIndicesBatchingDims := []
  startIndexMap := [0]
  indexVectorDim := 2
  sliceSizes := ![1, 128]
  wf := gather_S3x128_S16384x200x1_S16384x200x128_2_0_n_n_0_2_1128_wf

class Facts : Prop extends Facts₀ where

variable [Facts]
-- ==== Proof.Spec.lean ====
/-
  The one function both programs compute. The input is an array of 16384 × 200 row numbers and a table of 3 rows of 128
  entries; entry (b, h, d) of the result is the table's entry in row idx[b, h] and column d: an embedding lookup. A row
  number is read as a signed word and clamped into the table's rows 0 … 2, so the function is total; on the inputs the
  claim speaks of (every row number between 0 and 2) the clamp changes nothing. The element type is any: no arithmetic
  is done on an entry, it is only moved.
-/
import Idealize.ShloMosaic.Lib.ValueIdx

noncomputable section

namespace Cert.Spec

open Idealize.ShloMosaic Idealize.ShloMosaic.ValueIdx

/-- The table row a 32-bit row number names: the word read signed, clamped into 0 … 2. -/
def rowOf (w : BitVec 32) : Fin 3 := ⟨min w.toInt.toNat 2, by omega⟩

/-- A row number between 0 and 2 names the row of its own value. -/
theorem rowOf_val {w : BitVec 32} (h0 : 0 ≤ w.toInt) (h2 : w.toInt ≤ 2) : (rowOf w).val = w.toNat := by
  have e : w.toInt = (w.toNat : Int) := by
    rcases BitVec.toInt_eq_toNat_cond w with h
    rw [h] at h0 h2 ⊢
    split_ifs at h0 h2 ⊢ with hlt
    · rfl
    · exfalso; have := w.isLt; omega
  show min w.toInt.toNat 2 = w.toNat
  rw [e] at h2 ⊢
  simp only [Int.toNat_natCast]
  omega

/-- The lookup: entry (b, h, d) is the table's entry (row idx[b, h], column d). -/
def G {α : Type} (idx : (⟨2, ![16384, 200]⟩ : Shape).Idx → BitVec 32) (tab : (⟨2, ![3, 128]⟩ : Shape).Idx → α) :
    (⟨3, ![16384, 200, 128]⟩ : Shape).Idx → α :=
  fun i => tab (ix2 (rowOf (idx (ix2 (i 0) (i 1)))) (i 2))

/-- The lookup at coordinates. -/
theorem G_apply {α : Type} (idx : (⟨2, ![16384, 200]⟩ : Shape).Idx → BitVec 32) (tab : (⟨2, ![3, 128]⟩ : Shape).Idx → α)
    (b : Fin 16384) (h : Fin 200) (d : Fin 128) : G idx tab (ix3 b h d) = tab (ix2 (rowOf (idx (ix2 b h))) d) := rfl

/-- The same lookup on the flat arrays the kernel works on: the row numbers as one list of 3276800 words, the result as
    25600 blocks of 128 rows of 128 entries. Row i of block r is the table row named by word 128 r + i. -/
def look {α : Type} (fi : (⟨1, ![3276800]⟩ : Shape).Idx → BitVec 32) (tab : (⟨2, ![3, 128]⟩ : Shape).Idx → α) :
    (⟨3, ![25600, 128, 128]⟩ : Shape).Idx → α :=
  fun r => tab (ix2 (rowOf (fi (ix1 ⟨(r 0).val * 128 + (r 1).val, by
    have h0 : (r 0).val < 25600 := (r 0).isLt
    have h1 : (r 1).val < 128 := (r 1).isLt
    omega⟩))) (r 2))

/-- The flat lookup at coordinates. -/
theorem look_apply {α : Type} (fi : (⟨1, ![3276800]⟩ : Shape).Idx → BitVec 32) (tab : (⟨2, ![3, 128]⟩ : Shape).Idx → α)
    (r : Fin 25600) (i : Fin 128) (d : Fin 128) :
    look fi tab (ix3 r i d) = tab (ix2 (rowOf (fi (ix1 ⟨r.val * 128 + i.val, by have := r.isLt; have := i.isLt; omega⟩))) d) := rfl

end Cert.Spec

end
-- ==== Proof.PreRange.lean ====
import proofs.«205114_g12446815224155_cont_fleet_488_32_alg».proof.Pre_input_domain
import proofs.«205114_g12446815224155_cont_fleet_488_32_alg».proof.Proof.Gen.Pre_input_domain
import Idealize.ShloMosaic.Lib.ReduceAll
import Idealize.ShloMosaic.Lib.ValueIdx

/-!
  The integer half of the precondition, read back at an index: when the printed predicate evaluates to 1, every
  index word lies in the signed range [0, 2].
-/

namespace Cert.PreRange

open Idealize.ShloMosaic

instance : Subsingleton Cert.Pre_input_domain.S_.Idx := ⟨fun a b => funext fun d => d.elim0⟩

/-- Under the precondition every index word is between 0 and 2 (signed). -/
theorem idx_range {F : FTy → Type} [FloatOps F] (a0 : IVec Cert.Pre_input_domain.S16384x200 32) (a1 : FVec F Cert.Pre_input_domain.S3x128 .f32)
    (h : Cert.Pre_input_domain.fn (F := F) a0 a1 = fun _ => 1#1) (j : Cert.Pre_input_domain.S16384x200.Idx) :
    0 ≤ (a0 j).toInt ∧ (a0 j).toInt ≤ 2 := by
  have h0 := congrFun h ValueIdx.ix0
  dsimp only [Cert.Pre_input_domain.fn] at h0
  -- the outer conjunction of the two "all" results
  obtain ⟨_, h9⟩ := IntOp.andi_eq_one.1 h0
  -- every element of the reduced array is 1
  have hj := Host.reduce_andi_all _ _ _ _ _ h9 j
  -- the element is the conjunction of the two comparisons
  obtain ⟨hge, hle⟩ := IntOp.andi_eq_one.1 hj
  have hge' := IntOp.cmpi_sge.1 hge
  have hle' := IntOp.cmpi_sle.1 hle
  exact ⟨hge', hle'⟩

end Cert.PreRange
-- ==== Proof.RefOps.lean ====
import proofs.«205114_g12446815224155_cont_fleet_488_32_alg».proof.ReferenceIdeal
import proofs.«205114_g12446815224155_cont_fleet_488_32_alg».proof.Proof.Gen.ReferenceIdeal
import Idealize.ShloMosaic.Lib.StableHlo.Run

/-!
  The lookup's reference as one straight line: the modulus by 3 (the divisor's guard, the remainder, its sign
  correction), then the row lookup (the negative index's wrap, the bounds mask, the gather, the masked fill), each
  function's operations written where it is called, over the call's own buffers.
-/

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The reference's 45 operations in order, the calls unfolded. -/
abbrev ops : List (HloOp τ sig (Elt F)) :=
  [ nullary main_c (constantI S_ 32 3#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S16384x200 ![] bcast_S_S16384x200),
    TRef.binary (.of main_arg0) main_call0.v3 main_call0.v4 Host.remsi,
    TRef.nullary main_call0.c_1 (constantI S_ 32 0#32),
    TRef.unary main_call0.c_1 main_call0.v5 (broadcastInDim S16384x200 ![] bcast_S_S16384x200),
    TRef.binary main_call0.v4 main_call0.v5 main_call0.v6 (cmpi .ne),
    TRef.nullary main_call0.c_2 (constantI S_ 32 0#32),
    TRef.unary main_call0.c_2 main_call0.v7 (broadcastInDim S16384x200 ![] bcast_S_S16384x200),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S16384x200 ![] bcast_S_S16384x200),
    TRef.binary main_call0.v8 main_call0.v10 main_call0.v11 (cmpi .ne),
    TRef.binary main_call0.v11 main_call0.v6 main_call0.v12 andi,
    TRef.unary main_call0.call0.v0 main_call0.v13 (broadcastInDim S16384x200 ![] bcast_S_S16384x200),
    TRef.binary main_call0.v4 main_call0.v13 main_call0.v14 addi,
    TRef.ternary main_call0.v12 main_call0.v14 main_call0.v4 main_call0.v15 select,
    TRef.nullary main_call1.c (constantI S_ 32 0#32),
    TRef.unary main_call1.c main_call1.v0 (broadcastInDim S16384x200 ![] bcast_S_S16384x200),
    TRef.binary (.of main_v0) main_call1.v0 main_call1.v1 (cmpi .slt),
    TRef.nullary main_call1.c_0 (constantI S_ 32 3#32),
    TRef.unary main_call1.c_0 main_call1.v2 (broadcastInDim S16384x200 ![] bcast_S_S16384x200),
    TRef.binary (.of main_v0) main_call1.v2 main_call1.v3 addi,
    TRef.ternary main_call1.v1 main_call1.v3 (.of main_v0) main_call1.call0.v0 select,
    TRef.unary main_call1.call0.v0 main_call1.v5 (broadcastInDim S16384x200x1 ![0, 1] bcast_S16384x200_S16384x200x1_0_1),
    TRef.nullary main_call1.c_1 (constantI S1 32 2#32),
    TRef.nullary main_call1.c_2 (constantI S_ 32 0#32),
    TRef.unary main_call1.c_2 main_call1.v6 (broadcastInDim S16384x200x1 ![] bcast_S_S16384x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S16384x200x1 ![0, 1, 2] bcast_S1x1x1_S16384x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x200x1_S16384x200_d2 h_S_),
    TRef.binary (.of main_arg1) main_call1.v5 main_call1.v13 (fun x i => Host.gather gather_S3x128_S16384x200x1_S16384x200x128_2_0_n_n_0_2_1128 x i),
    TRef.unary main_call1.v12 main_call1.v14 (broadcastInDim S16384x200x128 ![0, 1] bcast_S16384x200_S16384x200x128_0_1),
    TRef.nullary main_call1.cst (constant S_ .f32 0x7FC00000#32),
    TRef.unary main_call1.cst main_call1.v15 (broadcastInDim S16384x200x128 ![] bcast_S_S16384x200x128),
    TRef.ternary main_call1.v14 main_call1.v13 main_call1.v15 main_call1.v16 select ]

-- forty-five binds re-associated
set_option maxRecDepth 1024 in
/-- The program is that straight line: each function's definition unfolded where it is called and sequencing
    re-associated, both sides are one chain of steps. -/
theorem main_eq (c : Dev nD) : main (F := F) c = seq ops := by
  simp only [main, fn_remainder.body, fn_where.body, fn_take.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- Every weakly fair execution terminates, and every buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefTerm.lean ====
import proofs.«205114_g12446815224155_cont_fleet_488_32_alg».proof.Proof.RefOps

/-!
  What the reference's straight line leaves in its result buffer, as one term of the two arguments: the index array
  reduced modulo 3 as printed, then the row lookup of the table at that array as printed.
-/

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The divisor of the modulus as printed: 3, replaced by 1 were it 0. -/
def divisor : IVec S_ 32 :=
  select (cmpi .eq (id (constantI S_ 32 3#32)) (constantI S_ 32 0#32)) (constantI S_ 32 1#32) (id (constantI S_ 32 3#32))

/-- The printed remainder of the index array by the divisor. -/
def remTerm (a0 : IVec S16384x200 32) : IVec S16384x200 32 :=
  Host.remsi a0 (broadcastInDim S16384x200 ![] bcast_S_S16384x200 divisor)

/-- The printed modulus: the remainder, plus the divisor where the remainder is nonzero and of the other sign. -/
def modTerm (a0 : IVec S16384x200 32) : IVec S16384x200 32 :=
  select
    (andi
      (cmpi .ne
        (cmpi .slt (remTerm a0) (broadcastInDim S16384x200 ![] bcast_S_S16384x200 (constantI S_ 32 0#32)))
        (broadcastInDim S16384x200 ![] bcast_S_S16384x200 (cmpi .slt divisor (constantI S_ 32 0#32))))
      (cmpi .ne (remTerm a0) (broadcastInDim S16384x200 ![] bcast_S_S16384x200 (constantI S_ 32 0#32))))
    (addi (remTerm a0) (broadcastInDim S16384x200 ![] bcast_S_S16384x200 divisor))
    (remTerm a0)

/-- The lookup's row numbers: a negative one wrapped by adding 3. -/
def wrapTerm (i : IVec S16384x200 32) : IVec S16384x200 32 :=
  select (cmpi .slt i (broadcastInDim S16384x200 ![] bcast_S_S16384x200 (constantI S_ 32 0#32)))
    (addi i (broadcastInDim S16384x200 ![] bcast_S_S16384x200 (constantI S_ 32 3#32))) i

/-- The row numbers as a column of start indices. -/
def startTerm (i : IVec S16384x200 32) : IVec S16384x200x1 32 :=
  broadcastInDim S16384x200x1 ![0, 1] bcast_S16384x200_S16384x200x1_0_1 (wrapTerm i)

/-- The lookup's bounds mask: the start index between 0 and 2, over the unit axis. -/
def maskTerm (i : IVec S16384x200 32) : IVec S16384x200 1 :=
  Host.reduce IntOp.andi
    (andi
      (cmpi .sge (startTerm i) (broadcastInDim S16384x200x1 ![] bcast_S_S16384x200x1 (constantI S_ 32 0#32)))
      (cmpi .sle (startTerm i)
        (broadcastInDim S16384x200x1 ![0, 1, 2] bcast_S1x1x1_S16384x200x1_0_1_2
          (broadcastInDim S1x1x1 ![2] bcast_S1_S1x1x1_2 (constantI S1 32 2#32)))))
    (constantI S_ 1 1#1) reducesTo_S16384x200x1_S16384x200_d2 h_S_

/-- The printed lookup: the gathered rows where the mask holds, the fill elsewhere. -/
def takeTerm (tab : FVec F S3x128 .f32) (i : IVec S16384x200 32) : FVec F S16384x200x128 .f32 :=
  select (broadcastInDim S16384x200x128 ![0, 1] bcast_S16384x200_S16384x200x128_0_1 (maskTerm i))
    (Host.gather gather_S3x128_S16384x200x1_S16384x200x128_2_0_n_n_0_2_1128 tab (startTerm i))
    (broadcastInDim S16384x200x128 ![] bcast_S_S16384x200x128 (constant S_ .f32 0x7FC00000#32))

end Cert.RefSide

end
-- ==== Proof.RefAfter.lean ====
import proofs.«205114_g12446815224155_cont_fleet_488_32_alg».proof.Proof.RefTerm

/-!
  The reference's straight line, folded: its result buffer ends at the composed term of the two arguments, and no
  operation writes an argument.
-/

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Contents moved to a typed reference's buffer and back are themselves. -/
theorem ofBuf_toBuf {sig : RefSig} {Val : EltTy → Type} {T : BufTy} (x : TRef sig T) (v : T.Contents Val) :
    x.ofBuf (x.toBuf v) = v := by
  obtain ⟨r, rfl, _, _⟩ := x
  rfl

/-! At a literal reference the move is the identity: the four buffers the line reads or writes through a typed
reference without having written them through the same one. -/

theorem ofBuf_arg0 (h1 h2 h3) (u : ((main_arg0 : Ref sig .tc) : DevRef τ sig).ty.Contents (Elt F)) :
    (TRef.of (T := ⟨S16384x200, .i32⟩) main_arg0 h1 h2 h3).ofBuf (Val := Elt F) u = u := rfl
theorem ofBuf_arg1 (h1 h2 h3) (u : ((main_arg1 : Ref sig .tc) : DevRef τ sig).ty.Contents (Elt F)) :
    (TRef.of (T := ⟨S3x128, .f32⟩) main_arg1 h1 h2 h3).ofBuf (Val := Elt F) u = u := rfl
theorem ofBuf_c (h1 h2 h3) (u : IVec S_ 32) :
    (TRef.of (T := ⟨S_, .i32⟩) main_c h1 h2 h3).ofBuf (Val := Elt F) u = u := rfl
theorem toBuf_v1 (h1 h2 h3) (u : FVec F S16384x200x128 .f32) :
    (TRef.of (T := ⟨S16384x200x128, .f32⟩) main_v1 h1 h2 h3).toBuf (Val := Elt F) u = u := rfl

set_option maxRecDepth 8192 in
/-- The fold at the result buffer is the composed term: each operation's result read at its own buffer and left alone
    at the others, the moves through typed references removed, what is left is the term's definition unfolded. -/
theorem out_eq (V : Valuation τ sig (Elt F)) :
    after ops V (main_v1 : DevRef τ sig)
      = takeTerm (F := F) (V (main_arg1 : DevRef τ sig)) (modTerm (V (main_arg0 : DevRef τ sig))) := by
  after_results_simp
  simp only [ofBuf_toBuf, ofBuf_arg0, ofBuf_arg1, ofBuf_c, toBuf_v1]
  unfold takeTerm maskTerm startTerm wrapTerm modTerm remTerm divisor
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

end Cert.RefSide

end
-- ==== Proof.RefValue.lean ====
import proofs.«205114_g12446815224155_cont_fleet_488_32_alg».proof.Proof.RefTerm
import proofs.«205114_g12446815224155_cont_fleet_488_32_alg».proof.Proof.Spec
import Idealize.ShloMosaic.Lib.ValueIdx
import Idealize.ShloMosaic.Lib.Pipeline.Value
import Idealize.ShloMosaic.Lib.ReduceAll

/-!
  The reference's composed term is the lookup, on index arrays whose every word is between 0 and 2: there the modulus
  by 3 and the negative index's wrap change nothing, the bounds mask holds everywhere, and the gather reads the table's
  row of the index's own value.
-/

noncomputable section

namespace Cert.RefSide

open Cert.ReferenceIdeal Cert.ReferenceIdeal.Gen Idealize.ShloMosaic Idealize.ShloMosaic.ValueIdx

variable {F : FTy → Type} [FloatOps F]

/-! ## A word between 0 and 2 -/

/-- A 32-bit word that reads, signed, between 0 and 2 is 0, 1 or 2. -/
theorem word_cases {w : BitVec 32} (h0 : 0 ≤ w.toInt) (h2 : w.toInt ≤ 2) : w = 0#32 ∨ w = 1#32 ∨ w = 2#32 := by
  have e : w.toInt = (w.toNat : Int) := by
    rcases BitVec.toInt_eq_toNat_cond w with h
    rw [h] at h0 h2 ⊢
    split_ifs at h0 h2 ⊢ with hlt
    · rfl
    · exfalso; have := w.isLt; omega
  rw [e] at h0 h2
  have h3 : w.toNat = 0 ∨ w.toNat = 1 ∨ w.toNat = 2 := by omega
  rcases h3 with h | h | h
  · exact Or.inl (BitVec.eq_of_toNat_eq h)
  · exact Or.inr (Or.inl (BitVec.eq_of_toNat_eq h))
  · exact Or.inr (Or.inr (BitVec.eq_of_toNat_eq h))

/-! ## The modulus and the wrap, element by element -/

/-- One element of the printed modulus by 3. -/
def modS (x : BitVec 32) : BitVec 32 :=
  Scalar.select
    (IntOp.andi
      (IntOp.cmpi .ne
        (IntOp.cmpi .slt (IntOp.remsi .host x (Scalar.select (IntOp.cmpi .eq 3#32 0#32) 1#32 3#32)) 0#32)
        (IntOp.cmpi .slt (Scalar.select (IntOp.cmpi .eq 3#32 0#32) 1#32 3#32) 0#32))
      (IntOp.cmpi .ne (IntOp.remsi .host x (Scalar.select (IntOp.cmpi .eq 3#32 0#32) 1#32 3#32)) 0#32))
    (IntOp.addi (IntOp.remsi .host x (Scalar.select (IntOp.cmpi .eq 3#32 0#32) 1#32 3#32)) (Scalar.select (IntOp.cmpi .eq 3#32 0#32) 1#32 3#32))
    (IntOp.remsi .host x (Scalar.select (IntOp.cmpi .eq 3#32 0#32) 1#32 3#32))

theorem modTerm_apply (a0 : IVec S16384x200 32) (j : S16384x200.Idx) : modTerm a0 j = modS (a0 j) := rfl

theorem modS_fix : modS 0#32 = 0#32 ∧ modS 1#32 = 1#32 ∧ modS 2#32 = 2#32 := by decide

/-- One element of the printed wrap of a negative row number. -/
def wrapS (x : BitVec 32) : BitVec 32 := Scalar.select (IntOp.cmpi .slt x 0#32) (IntOp.addi x 3#32) x

theorem wrapTerm_apply (i : IVec S16384x200 32) (j : S16384x200.Idx) : wrapTerm i j = wrapS (i j) := rfl

theorem wrapS_fix : wrapS 0#32 = 0#32 ∧ wrapS 1#32 = 1#32 ∧ wrapS 2#32 = 2#32 := by decide

section Range

variable {a0 : IVec S16384x200 32} (H : ∀ j : S16384x200.Idx, 0 ≤ (a0 j).toInt ∧ (a0 j).toInt ≤ 2)
include H

/-- On such an array the modulus by 3 changes nothing. -/
theorem modTerm_eq : modTerm a0 = a0 := by
  funext j
  rw [modTerm_apply]
  rcases word_cases (H j).1 (H j).2 with h | h | h <;> rw [h]
  exacts [modS_fix.1, modS_fix.2.1, modS_fix.2.2]

/-- Nor does the wrap. -/
theorem wrapTerm_eq : wrapTerm a0 = a0 := by
  funext j
  rw [wrapTerm_apply]
  rcases word_cases (H j).1 (H j).2 with h | h | h <;> rw [h]
  exacts [wrapS_fix.1, wrapS_fix.2.1, wrapS_fix.2.2]

/-- The column of start indices reads the array at the leading two coordinates. -/
theorem startTerm_apply (y : S16384x200x1.Idx) : startTerm a0 y = a0 (ix2 (y 0) (y 1)) := by
  unfold startTerm
  rw [wrapTerm_eq H]
  exact broadcastInDim_apply _ _ _ y (ix2 (y 0) (y 1)) (fun a => by fin_cases a <;> rfl)

end Range

/-! ## The bounds mask -/

/-- A left fold by `and` from 1 over words that are all 1 is 1. -/
theorem foldl_andi_of_all {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_of_all f l fun n hn => h n (List.mem_cons_of_mem _ hn)

section Range

variable {a0 : IVec S16384x200 32} (H : ∀ j : S16384x200.Idx, 0 ≤ (a0 j).toInt ∧ (a0 j).toInt ≤ 2)
include H

/-- On such an array the bounds mask holds everywhere. -/
theorem maskTerm_apply (j : S16384x200.Idx) : maskTerm a0 j = 1#1 := by
  unfold maskTerm
  rw [Host.reduce_eq_foldl]
  refine foldl_andi_of_all _ _ fun y _ => ?_
  show IntOp.andi (IntOp.cmpi .sge (startTerm a0 y) 0#32) (IntOp.cmpi .sle (startTerm a0 y) 2#32) = 1#1
  rw [startTerm_apply H]
  exact IntOp.andi_eq_one.2 ⟨IntOp.cmpi_sge.2 (H _).1, IntOp.cmpi_sle.2 (H _).2⟩

end Range

/-! ## The gather of table rows, read at an index -/

section Gather

variable {α : Type} {w : Nat}

local notation "gd" => gather_S3x128_S16384x200x1_S16384x200x128_2_0_n_n_0_2_1128

/-- The row the gather reads for result element (b, h, c): the start index at (b, h, 0), read signed and clamped. -/
theorem gather_row (st : IVec S16384x200x1 w) (b : Fin 16384) (h : Fin 200) (c : Fin 128) :
    (GatherDims.operandIdx gd (ix3 b h c) st 0).val = min (st (ix3 b h 0)).toInt.toNat 2 := by
  show GatherDims.start gd (ix3 b h c) st 0 + GatherDims.batchCoord gd (ix3 b h c) 0 + GatherDims.offCoord gd (ix3 b h c) 0 = _
  rw [GatherDims.batchCoord_eq_zero _ _ _ (show (0 : Fin 2) ∉ GatherDims.operandBatchingDims gd from List.not_mem_nil),
    GatherDims.offCoord_eq_zero _ _ _ (fun hk => ((GatherDims.mem_sKept _ _).mp hk).1 (List.mem_singleton.mpr rfl))]
  simp only [Nat.add_zero]
  unfold GatherDims.start
  rw [dif_pos (show (0 : Fin 2) ∈ GatherDims.startIndexMap gd from List.mem_singleton.mpr rfl)]
  have hsi : GatherDims.siIdx gd (ix3 b h c) ⟨List.idxOf (0 : Fin 2) (GatherDims.startIndexMap gd),
      List.idxOf_lt_length_iff.2 (List.mem_singleton.mpr rfl)⟩ = ix3 b h 0 := by
    funext k; refine Fin.ext ?_
    match k with
    | ⟨0, _⟩ => rfl
    | ⟨1, _⟩ => rfl
    | ⟨2, _⟩ => rfl
  rw [hsi]
  rfl

/-- The column the gather reads for result element (b, h, c): c. -/
theorem gather_col (st : IVec S16384x200x1 w) (b : Fin 16384) (h : Fin 200) (c : Fin 128) :
    (GatherDims.operandIdx gd (ix3 b h c) st 1).val = c.val := by
  show GatherDims.start gd (ix3 b h c) st 1 + GatherDims.batchCoord gd (ix3 b h c) 1 + GatherDims.offCoord gd (ix3 b h c) 1 = _
  rw [GatherDims.batchCoord_eq_zero _ _ _ (show (1 : Fin 2) ∉ GatherDims.operandBatchingDims gd from List.not_mem_nil)]
  unfold GatherDims.start
  rw [dif_neg (show (1 : Fin 2) ∉ GatherDims.startIndexMap gd from fun hk => absurd (List.mem_singleton.mp hk) (by decide))]
  unfold GatherDims.offCoord
  rw [dif_pos (show (1 : Fin 2) ∈ GatherDims.sKept gd from (GatherDims.mem_sKept _ _).mpr
    ⟨fun hk => absurd (List.mem_singleton.mp hk) (by decide), List.not_mem_nil⟩)]
  simp only [Nat.zero_add]
  rfl

/-- Result element (b, h, c) of the gather is the table's entry in column c of the row its start index names, the
    start index read signed and clamped into the table's rows. -/
theorem gather_rows_apply (tab : S3x128.Idx → α) (st : IVec S16384x200x1 w) (b : Fin 16384) (h : Fin 200) (c : Fin 128) :
    Host.gather gd tab st (ix3 b h c) = tab (ix2 ⟨min (st (ix3 b h 0)).toInt.toNat 2, by omega⟩ c) := by
  unfold Host.gather
  rw [eq_ix2 (GatherDims.operandIdx gd (ix3 b h c) st)]
  congr 1
  funext a
  match a with
  | ⟨0, _⟩ => exact Fin.ext (gather_row st b h c)
  | ⟨1, _⟩ => exact Fin.ext (gather_col st b h c)

end Gather

/-! ## The term is the lookup -/

section Range

variable {a0 : IVec S16384x200 32} (H : ∀ j : S16384x200.Idx, 0 ≤ (a0 j).toInt ∧ (a0 j).toInt ≤ 2)
include H

/-- On an index array whose every word is between 0 and 2 the reference's composed term is the lookup. -/
theorem takeTerm_mod_eq (tab : FVec F S3x128 .f32) : takeTerm tab (modTerm a0) = Cert.Spec.G a0 tab := by
  rw [modTerm_eq H]
  funext j
  obtain ⟨b, h, c, rfl⟩ : ∃ (b : Fin 16384) (h : Fin 200) (c : Fin 128), j = ix3 b h c := ⟨j 0, j 1, j 2, eq_ix3 j⟩
  have hm : broadcastInDim S16384x200x128 ![0, 1] bcast_S16384x200_S16384x200x128_0_1 (maskTerm a0) (ix3 b h c)
      = maskTerm a0 (ix2 b h) := broadcastInDim_apply _ _ _ _ _ (fun a => by fin_cases a <;> rfl)
  unfold takeTerm
  rw [select_apply, hm, maskTerm_apply H, select_one, gather_rows_apply, Cert.Spec.G_apply]
  simp only [startTerm_apply H]
  rfl

end Range

end Cert.RefSide

end
-- ==== Proof.RefRun.lean ====
import proofs.«205114_g12446815224155_cont_fleet_488_32_alg».proof.Defs
import proofs.«205114_g12446815224155_cont_fleet_488_32_alg».proof.Proof.Gen.ReferenceIdeal
import proofs.«205114_g12446815224155_cont_fleet_488_32_alg».proof.Proof.Gen.Pre_input_domain
import proofs.«205114_g12446815224155_cont_fleet_488_32_alg».proof.Proof.Spec
import proofs.«205114_g12446815224155_cont_fleet_488_32_alg».proof.Proof.PreRange
import proofs.«205114_g12446815224155_cont_fleet_488_32_alg».proof.Proof.RefAfter
import proofs.«205114_g12446815224155_cont_fleet_488_32_alg».proof.Proof.RefValue

/-!
  The reference's run: from any memory of which the precondition holds, every weakly fair execution terminates with the
  lookup of the table at the index array in the result buffer and the two arguments unchanged.
-/

noncomputable section

namespace Cert.RefSide

open Idealize.ShloMosaic Idealize.SL.Sem

/-- The reference computes the lookup. -/
theorem run (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_ReferenceIdeal (hPre_input_domain := Cert.Pre_input_domain.Gen.facts) m') :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v1)
            = Cert.Spec.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run (Cert.ReferenceIdeal.defs (F := Ideal)) _ _).mono
    (fun _ h c =>
      ⟨(h c Cert.ReferenceIdeal.main_v1).trans ((out_eq _).trans
          (takeTerm_mod_eq (fun j => Cert.PreRange.idx_range _ _ (hpre c) j) _)),
        (h c Cert.ReferenceIdeal.main_arg0).trans (arg0_eq _),
        (h c Cert.ReferenceIdeal.main_arg1).trans (arg1_eq _)⟩)
    (run_main m' g')

end Cert.RefSide

end
-- ==== Proof.Bridge.lean ====
import proofs.«205114_g12446815224155_cont_fleet_488_32_alg».proof.Proof.Spec
import Idealize.ShloMosaic.Lib.ValueIdx
import Idealize.ShloMosaic.Lib.Pipeline.Value

/-!
  The lookup on the flat arrays is the lookup: the row numbers listed in row-major order and the result regrouped
  from 25600 blocks of 128 rows into 16384 × 200 rows name the same entries, because both regroupings keep every
  entry's row-major position.
-/

noncomputable section

namespace Cert.Bridge

open Idealize.ShloMosaic Idealize.ShloMosaic.ValueIdx

/-- The flat lookup of the flattened row numbers, regrouped, is the lookup. -/
theorem look_reshape {α : Type} (idx : (⟨2, ![16384, 200]⟩ : Shape).Idx → BitVec 32) (tab : (⟨2, ![3, 128]⟩ : Shape).Idx → α)
    (h1 : (⟨2, ![16384, 200]⟩ : Shape).ShapeCasts ⟨1, ![3276800]⟩) (h2 : (⟨3, ![25600, 128, 128]⟩ : Shape).ShapeCasts ⟨3, ![16384, 200, 128]⟩) :
    shapeCast ⟨3, ![16384, 200, 128]⟩ (Cert.Spec.look (shapeCast ⟨1, ![3276800]⟩ idx h1) tab) h2 = Cert.Spec.G idx tab := by
  funext j
  obtain ⟨b, h, d, rfl⟩ : ∃ (b : Fin 16384) (h : Fin 200) (d : Fin 128), j = ix3 b h d := ⟨j 0, j 1, j 2, eq_ix3 j⟩
  have hb := b.isLt
  have hh := h.isLt
  have hd := d.isLt
  have hr0 : (b.val * 200 + h.val) / 128 < 25600 := by omega
  have hr1 : (b.val * 200 + h.val) % 128 < 128 := by omega
  -- the result's entry (b, h, d) sits at row-major position (200 b + h) · 128 + d: block (200 b + h) / 128, row (200 b + h) % 128
  rw [shapeCast_apply _ h2 (ix3 b h d) (ix3 ⟨(b.val * 200 + h.val) / 128, hr0⟩ ⟨(b.val * 200 + h.val) % 128, hr1⟩ d)
      (by rw [Shape.rowMajor_val_three, Shape.rowMajor_val_three]
          show ((b.val * 200 + h.val) / 128 * 128 + (b.val * 200 + h.val) % 128) * 128 + d.val
            = (b.val * 200 + h.val) * 128 + d.val
          omega),
    Cert.Spec.look_apply, Cert.Spec.G_apply]
  -- and word 128 · block + row of the flat list is word (b, h) of the array
  rw [shapeCast_apply idx h1 _ (ix2 b h)
      (by rw [Shape.rowMajor_val_two, Shape.rowMajor_val_one]
          show b.val * 200 + h.val = (b.val * 200 + h.val) / 128 * 128 + (b.val * 200 + h.val) % 128
          omega)]

end Cert.Bridge

end
-- ==== Proof.KSetup.lean ====
/-
  What the launch and one tile's task agree on. The call runs on both SparseCores, sixteen tiles each; tile s of
  SparseCore c is worker number 2 s + c of thirty-two. Worker w reads words 102400 w … 102400 w + 102399 of the flat
  list of row numbers (it holds a read share of the whole list) and owns blocks 800 w … 800 w + 799 of the result. Tile 0 of a SparseCore copies the table into the
  SparseCore's shared memory; all sixteen tiles then meet at the barrier, and tile 0's arrival at tile j's barrier cell
  hands tile j a read share of the shared copy, at the table's contents: what a tile gathers from after the barrier it
  holds. Each tile hands its share back at its exit, so that the shared memory is whole again when the region ends.
-/
import proofs.«205114_g12446815224155_cont_fleet_488_32_alg».proof.Defs
import proofs.«205114_g12446815224155_cont_fleet_488_32_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205114_g12446815224155_cont_fleet_488_32_alg».proof.Proof.Gen.KernelIdeal
import proofs.«205114_g12446815224155_cont_fleet_488_32_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number c. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

/-- The flat list of row numbers, the table, and the result in blocks, on device d. -/
abbrev idxLoc (d : Dev nD) : Loc nD τ sig := (SparseCore.T d).loc main_v0
abbrev tabLoc (d : Dev nD) : Loc nD τ sig := (SparseCore.T d).loc main_arg1
abbrev oLoc (d : Dev nD) : Loc nD τ sig := (SparseCore.T d).loc main_v1

local notation "iV" => (Memref.whole Cert.KernelIdeal.main_v0_scv : Memref Cert.KernelIdeal.sig Kind.scVector Space.hbm Cert.KernelIdeal.S3276800 EltTy.i32)
local notation "tV" => (Memref.whole Cert.KernelIdeal.main_arg1_scv : Memref Cert.KernelIdeal.sig Kind.scVector Space.hbm Cert.KernelIdeal.S3x128 EltTy.f32)
local notation "oV" => (Memref.whole Cert.KernelIdeal.main_v1_scv : Memref Cert.KernelIdeal.sig Kind.scVector Space.hbm Cert.KernelIdeal.S25600x128x128 EltTy.f32)
local notation "shV" => (Memref.whole Cert.KernelIdeal.cc0_scratch0 : Memref Cert.KernelIdeal.sig Kind.scVector Space.shared Cert.KernelIdeal.S3x128 EltTy.f32)

theorem hdivO : 32 ∣ S25600x128x128.size 0 := ⟨800, rfl⟩
/-- Worker w's blocks of the result. -/
abbrev oPart (w : Fin 32) : Rect S25600x128x128 := Rect.part (s := S25600x128x128) (a₀ := 0) hdivO w
abbrev oSet (w : Fin 32) : Finset S25600x128x128.Idx := ((oV).view.slice (oPart w)).set

theorem nSub_eq : τ.nSub = 16 := rfl
theorem nSC_eq : τ.nSC = 2 := rfl

/-- The worker number of tile s of SparseCore c. -/
def wid (c : Fin τ.nSC) (s : Fin τ.nSub) : Fin 32 := ⟨s.val * 2 + c.val, by
  have hc : c.val < 2 := c.isLt
  have hs : s.val < 16 := s.isLt
  omega⟩

/-- SparseCore c's shared memory, as every tile of it addresses it. -/
abbrev shRef (c : Fin τ.nSC) : DevRef τ sig := ⟨.shared, ⟨0, by decide⟩, c⟩
abbrev shLoc (d : Dev nD) (c : Fin τ.nSC) : Loc nD τ sig := (d, shRef c)

-- The contents of the three arrays when the call starts: any list of row numbers fi, any table ft, any result array fo.
variable (fi : (d : Dev nD) → Buf (Elt F) (idxLoc d)) (ft : (d : Dev nD) → Buf (Elt F) (tabLoc d)) (fo : (d : Dev nD) → Buf (Elt F) (oLoc d))

/-- The table as the contents of a SparseCore's shared memory. -/
abbrev tabAt (d : Dev nD) (c : Fin τ.nSC) : Buf (Elt F) (shLoc d c) := ft d
/-- The result the call leaves: the lookup on the flat arrays. -/
abbrev oDone (d : Dev nD) : Buf (Elt F) (oLoc d) := Cert.Spec.look (fi d) (ft d)

variable [FloatOps F]

/-! ## The barrier cells -/

/-- Tile (c, j)'s barrier semaphore of device d. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile j's read share of its SparseCore's shared memory. -/
abbrev shTok (j : Fin τ.nSub) : PosShare TreeShare := shareTok fullShare 16 (Fin.cast nSub_eq j)
abbrev shTokPts (d : Dev nD) (c : Fin τ.nSC) (j : Fin τ.nSub) (f : Buf (Elt F) (shLoc d c)) : sProp 𝕄 := shLoc d c ↦{shTok j} f

/-- What a duty in tile j's round hands over: tile 0's, tile j's read share of the shared copy at the table's contents;
    the others', nothing. -/
def bPay (g : GSem nD τ sig) (n : ℕ) : sProp 𝕄 :=
  match g with
  | ((d, .scVector c j), _) => if n = 0 then shTokPts d c j (tabAt ft d c) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay ft g n
  amount_pos _ _ _ _ := Nat.one_pos

instance bRd_payload_storable (g : GSem nD τ sig) (r n : ℕ) : BI.Storable (upEmb : UEmb _ 𝕄) ((bRd (F := F) ft).payload g r n) := by
  show BI.Storable upEmb (bPay ft g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) ft).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) ft).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) ft).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile of SparseCore c owe for the barrier: a unit on every tile's cell of its SparseCore, at the
    call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile (c, i)'s barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) ft) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- The table is read by tile 0 of either SparseCore: SparseCore 0 takes the left half of its share, SparseCore 1 the right. -/
def tabShare (c : Fin τ.nSC) : PosShare TreeShare := if c.val = 0 then (fullShare : PosShare TreeShare).left else (fullShare : PosShare TreeShare).right

/-- The list is only read: worker w holds a read share of the whole list, not a slice of it. -/
abbrev iTok (w : Fin 32) : PosShare TreeShare := shareTok fullShare 32 w
abbrev iPts (d : Dev nD) (w : Fin 32) : sProp 𝕄 := idxLoc d ↦{iTok w} fi d
abbrev oPts (d : Dev nD) (w : Fin 32) (f : Buf (Elt F) (oLoc d)) : sProp 𝕄 := oLoc d ↦[oSet w]{fullShare} f
abbrev tPts (d : Dev nD) (c : Fin τ.nSC) : sProp 𝕄 := tabLoc d ↦{tabShare c} ft d

/-- What tile s of SparseCore c is handed beside its slices: tile 0 the table's share and the shared memory whole. -/
def goExtra (d : Dev nD) (c : Fin τ.nSC) (s : Fin τ.nSub) : sProp 𝕄 :=
  if s.val = 0 then iprop(tPts ft d c ∗ ∃ f, shLoc d c ↦{fullShare} f) else iprop(emp)
/-- What it hands back beside them: tile 0 the table's share and what remains of the shared memory beside the sixteen read shares. -/
def tdExtra (d : Dev nD) (c : Fin τ.nSC) (s : Fin τ.nSub) : sProp 𝕄 :=
  if s.val = 0 then iprop(tPts ft d c ∗ ∃ f, shLoc d c ↦{shareDrop fullShare 16} f) else iprop(emp)

abbrev sV (i : Fin ((K (F := F)).nSub 0)) : Fin τ.nSub := (K (F := F)).sub 0 i

/-- The one call: a SparseCore takes its sixteen workers' read shares of the list, their slices of the result and its share of the
    table; a task its own share and slice (tile 0 also the table's share and the shared memory), and brings back its slices — the
    result's at the lookup — and its read share of the shared memory; each task's proof consumes its barrier kit; each
    tile owes its arrivals. -/
def P : (K (F := F)).Pay (nD := nD) (Val := Elt F) (Name := ℕ) (U := UU) where
  st := fun q d c => match q with
    | 0 => iprop((bigSep Finset.univ fun i : Fin ((K (F := F)).nSub 0) => iprop(iPts fi d (wid (coreOf c) (sV i)) ∗ oPts d (wid (coreOf c) (sV i)) (fo d))) ∗ tPts ft d (coreOf c))
  dn := fun q d c => match q with
    | 0 => iprop((bigSep Finset.univ fun i : Fin ((K (F := F)).nSub 0) => iprop(iPts fi d (wid (coreOf c) (sV i)) ∗ oPts d (wid (coreOf c) (sV i)) (oDone fi ft d))) ∗ tPts ft d (coreOf c))
  go := fun q d c i => match q with
    | 0 => iprop(iPts fi d (wid (coreOf c) (sV i)) ∗ oPts d (wid (coreOf c) (sV i)) (fo d) ∗ goExtra ft d (coreOf c) (sV i))
  td := fun q d c i => match q with
    | 0 => iprop(iPts fi d (wid (coreOf c) (sV i)) ∗ oPts d (wid (coreOf c) (sV i)) (oDone fi ft d) ∗ tdExtra ft d (coreOf c) (sV i)
        ∗ ∃ f, shTokPts d (coreOf c) (sV i) f)
  x := fun _ thr => match thr with
    | (d, .scVector c i) => bkit ft d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance goExtra_storable (d : Dev nD) (c : Fin τ.nSC) (s : Fin τ.nSub) : BI.Storable (upEmb : UEmb _ 𝕄) (goExtra (F := F) ft d c s) := by
  unfold goExtra; split <;> infer_instance
instance tdExtra_storable (d : Dev nD) (c : Fin τ.nSC) (s : Fin τ.nSub) : BI.Storable (upEmb : UEmb _ 𝕄) (tdExtra (F := F) ft d c s) := by
  unfold tdExtra; split <;> infer_instance

instance P_storable : (P (F := F) fi ft fo).IsStorable where
  st q d c := match q with
    | 0 => (inferInstance : BI.Storable (upEmb : UEmb _ 𝕄)
      iprop((bigSep Finset.univ fun i : Fin ((K (F := F)).nSub 0) => iprop(iPts fi d (wid (coreOf c) (sV i)) ∗ oPts d (wid (coreOf c) (sV i)) (fo d))) ∗ tPts ft d (coreOf c)))
  dn q d c := match q with
    | 0 => (inferInstance : BI.Storable (upEmb : UEmb _ 𝕄)
      iprop((bigSep Finset.univ fun i : Fin ((K (F := F)).nSub 0) => iprop(iPts fi d (wid (coreOf c) (sV i)) ∗ oPts d (wid (coreOf c) (sV i)) (oDone fi ft d))) ∗ tPts ft d (coreOf c)))
  go q d c i := match q with
    | 0 => (inferInstance : BI.Storable (upEmb : UEmb _ 𝕄)
      iprop(iPts fi d (wid (coreOf c) (sV i)) ∗ oPts d (wid (coreOf c) (sV i)) (fo d) ∗ goExtra ft d (coreOf c) (sV i)))
  td q d c i := match q with
    | 0 => (inferInstance : BI.Storable (upEmb : UEmb _ 𝕄)
      iprop(iPts fi d (wid (coreOf c) (sV i)) ∗ oPts d (wid (coreOf c) (sV i)) (oDone fi ft d) ∗ tdExtra ft d (coreOf c) (sV i)
        ∗ ∃ f, shTokPts d (coreOf c) (sV i) f))

/-! ## One tile's task, as a statement -/

local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)

/-- The SparseCore and the tile of a place of the grid. -/
abbrev cV (L : grid0.Coords) : Fin τ.nSC := (L 0).castLE hcore0
abbrev jV (L : grid0.Coords) : Fin τ.nSub := (L 1).castLE hsub0
/-- The worker at a place of the grid. -/
abbrev wL (L : grid0.Coords) : Fin 32 := wid (cV L) (jV L)

/-- The task of the tile at any place L of the grid: from its slices of the list and of the result (tile 0: also the
    table's share and the shared memory), its barrier kit and its own scratch and semaphores, the body runs to the end,
    leaves its slice of the result at the lookup and hands back what it took, its read share of the shared memory in
    place of the whole; every unit it owed for the barrier is paid. -/
def TileBody : Prop :=
  ∀ (d : Dev nD) (L : grid0.Coords) (_ : (K (F := F)).Facts) (O : CellTallies nD τ sig (HIx 1)) (W : Waits sig (HIx 1)) (_ : ∀ g, O g none = 0)
    (_ : ∀ g ι, 0 < O g ι → 8 * (0 : Fin 1).val + 6 ≤ (K (F := F)).lev g ι),
    iprop(levAts (K (F := F)).L (K (F := F)).lev ∗ bkit ft d (cV L) (jV L)
        ∗ (iPts fi d (wL L) ∗ oPts d (wL L) (fo d) ∗ goExtra ft d (cV L) (jV L))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__body L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0)
          fun _ => iprop((iPts fi d (wL L) ∗ oPts d (wL L) (oDone fi ft d) ∗ tdExtra ft d (cV L) (jV L) ∗ ∃ f, shTokPts d (cV L) (jV L) f)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

/-- Every row number of the list lies between 0 and 2 (read signed): what the precondition gives, and what makes every
    gathered row a row of the table. -/
def InRange : Prop := ∀ (d : Dev nD) (j : S3276800.Idx), 0 ≤ ((fi d j : BitVec 32)).toInt ∧ ((fi d j : BitVec 32)).toInt ≤ 2

end Cert.Proof.KI

end
-- ==== Proof.KObl.lean ====
/-
  One tile's task as the launch asks for it. The launch names a tile by its SparseCore's and its own number within the
  call; the body is stated at a place of the grid. The two agree: the place (c, s) is tile s of SparseCore c, and what
  the handshakes carry for that tile is what the body's statement takes and gives back.
-/
import proofs.«205114_g12446815224155_cont_fleet_488_32_alg».proof.Proof.KSetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S3276800 EltTy.i32)
local notation "tV" => (Memref.whole Cert.KernelIdeal.main_arg1_scv : Memref Cert.KernelIdeal.sig Kind.scVector Space.hbm Cert.KernelIdeal.S3x128 EltTy.f32)
local notation "oV" => (Memref.whole Cert.KernelIdeal.main_v1_scv : Memref Cert.KernelIdeal.sig Kind.scVector Space.hbm Cert.KernelIdeal.S25600x128x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)

variable (fi : (d : Dev nD) → Buf (Elt F) (idxLoc d)) (ft : (d : Dev nD) → Buf (Elt F) (tabLoc d)) (fo : (d : Dev nD) → Buf (Elt F) (oLoc d))
variable [FloatOps F]

/-- The place of the grid of SparseCore c's tile s. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          iV (Memref.isWhole_whole _) tV (Memref.isWhole_whole _) oV (Memref.isWhole_whole _) shV (Memref.isWhole_whole _)
          ibV (Memref.isWhole_whole _) rwV (Memref.isWhole_whole _)
          cc0_scratch3 cc0_scratch4 cc0_scratch5 cc0_scratch6 cc0_scratch7 cc0_scratch8 cc0_scratch9 cc0_scratch10 cc0_scoped0) ⟨⟩ c s := rfl

set_option maxRecDepth 16384 in
theorem tileObl (hF : (K (F := F)).Facts) (htb : TileBody (F := F) fi ft fo) : (K (F := F)).TileObl (D (F := F)) 𝒱 (P fi ft fo) v₀ 0 := by
  intro d c i O W hO hOlev _
  have hci : ((K (F := F)).core 0 c).val < grid0.bound 0 ∧ ((K (F := F)).sub 0 i).val < grid0.bound 1 := ⟨c.isLt, i.isLt⟩
  rw [show (P fi ft fo).ox 0 (V d ((K (F := F)).core 0 c) ((K (F := F)).sub 0 i)) = oxV d ((K (F := F)).core 0 c) from rfl,
    show (P fi ft fo).x 0 (V d ((K (F := F)).core 0 c) ((K (F := F)).sub 0 i)) = bkit ft d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact htb d (coordsV ⟨_, hci.1⟩ ⟨_, hci.2⟩) hF O W hO hOlev

end Cert.Proof.KI

end
-- ==== Proof.KSplit.lean ====
/-
  How a SparseCore's share of the call splits among its sixteen tiles and comes back. Each tile takes its own read share
  of the list and its own blocks of the result; tile 0 takes, beside them, the SparseCore's share of the table and its
  shared memory whole. Coming back, tile 0 brings what remains of the shared memory beside sixteen read shares, and every
  tile brings its read share, each at contents of its own: shares of one array agree on its contents, so the seventeen
  pieces are the shared memory whole again, at some contents.
-/
import proofs.«205114_g12446815224155_cont_fleet_488_32_alg».proof.Proof.KSetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S3276800 EltTy.i32)
local notation "tV" => (Memref.whole Cert.KernelIdeal.main_arg1_scv : Memref Cert.KernelIdeal.sig Kind.scVector Space.hbm Cert.KernelIdeal.S3x128 EltTy.f32)
local notation "oV" => (Memref.whole Cert.KernelIdeal.main_v1_scv : Memref Cert.KernelIdeal.sig Kind.scVector Space.hbm Cert.KernelIdeal.S25600x128x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)

section Join

variable {ℓ : Loc nD τ sig}

/-- The two halves of a share of an array, each at contents of its own, are the share at one contents: they agree. -/
theorem halves_join (q : PosShare TreeShare) :
    iprop((∃ f : Buf (Elt F) ℓ, ℓ ↦{q.left} f) ∗ ∃ f : Buf (Elt F) ℓ, ℓ ↦{q.right} f) ⊢ (iprop(∃ f : Buf (Elt F) ℓ, ℓ ↦{q} f) : sProp 𝕄) := by
  iintro ⟨⟨%f, H₁⟩, ⟨%g, H₂⟩⟩
  ihave Hag := (persistent_entails_right pointsTo_agree) $$ [H₁ H₂]
  · isplitl [H₁]; · iexact H₁
    iexact H₂
  icases Hag with ⟨%hag, H₁, H₂⟩
  ihave H₂' := (Entails.of_eq (pointsTo_congr (f := g) (g := f) fun i hi => (hag i (Finset.mem_inter.mpr ⟨hi, hi⟩)).1.symm)) $$ H₂
  iexists f
  iapply (pointsTo_share (PosShare.mem_left_op_right q)).2
  isplitl [H₁]; · iexact H₁
  iexact H₂'

/-- What remains of a share after n read shares, and the n read shares, each at contents of its own, are the share. -/
theorem toks_join_range (q : PosShare TreeShare) : ∀ n : ℕ,
    iprop((∃ f : Buf (Elt F) ℓ, ℓ ↦{shareDrop q n} f) ∗ bigSep (Finset.range n) fun i => iprop(∃ f : Buf (Elt F) ℓ, ℓ ↦{Transfers.shareTokN q i} f))
      ⊢ (iprop(∃ f : Buf (Elt F) ℓ, ℓ ↦{q} f) : sProp 𝕄)
  | 0 => by rw [Finset.range_zero, bigSep_empty]; exact Laws.sep_emp.1
  | n + 1 => by
    rw [Finset.range_add_one, SparseCore.bigSep_insert' Finset.notMem_range_self]
    iintro ⟨Hd, Ht, Hts⟩
    iapply (toks_join_range q n)
    isplitl [Hd Ht]
    · iapply (halves_join (shareDrop q n))
      isplitl [Hd]; · iexact Hd
      iexact Ht
    iexact Hts

/-- The same with the read shares numbered by the cells. -/
theorem toks_join_fin (q : PosShare TreeShare) (n : ℕ) :
    iprop((∃ f : Buf (Elt F) ℓ, ℓ ↦{shareDrop q n} f) ∗ bigSep Finset.univ fun i : Fin n => iprop(∃ f : Buf (Elt F) ℓ, ℓ ↦{shareTok q n i} f))
      ⊢ (iprop(∃ f : Buf (Elt F) ℓ, ℓ ↦{q} f) : sProp 𝕄) := by
  rw [show (bigSep Finset.univ fun i : Fin n => (iprop(∃ f : Buf (Elt F) ℓ, ℓ ↦{shareTok q n i} f) : sProp 𝕄))
      = bigSep (Finset.range n) (fun i => iprop(∃ f : Buf (Elt F) ℓ, ℓ ↦{Transfers.shareTokN q i} f))
    by rw [← Nat.Iio_eq_range, ← Fin.map_valEmbedding_univ, bigSep_map]; rfl]
  exact toks_join_range q n

end Join

variable (fi : (d : Dev nD) → Buf (Elt F) (idxLoc d)) (ft : (d : Dev nD) → Buf (Elt F) (tabLoc d)) (fo : (d : Dev nD) → Buf (Elt F) (oLoc d))
variable [FloatOps F]

omit [FloatOps F] in
/-- What only tile 0 carries is carried once among the sixteen. -/
theorem only_zero (X : sProp 𝕄) :
    (bigSep Finset.univ fun i : Fin ((K (F := F)).nSub 0) => if (sV (F := F) i).val = 0 then X else iprop(emp)) = X := by
  show (bigSep Finset.univ fun i : Fin ((K (F := F)).nSub 0) => if (sV (F := F) i).val = 0 then X else (BI.emp : sProp 𝕄)) = X
  rw [← bigSep_filter Finset.univ (fun i : Fin ((K (F := F)).nSub 0) => (sV (F := F) i).val = 0) (fun _ => X),
    show (Finset.univ.filter fun i : Fin ((K (F := F)).nSub 0) => (sV (F := F) i).val = 0) = {(⟨0, (by decide : (0 : ℕ) < 16)⟩ : Fin ((K (F := F)).nSub 0))} from by
      ext i; simp only [Finset.mem_filter, Finset.mem_univ, true_and, Finset.mem_singleton]
      exact ⟨fun h => Fin.ext h, fun h => congrArg Fin.val h⟩,
    bigSep_singleton]

omit [FloatOps F] in
theorem goExtra_all (d : Dev nD) (c : Fin τ.nSC) :
    (bigSep Finset.univ fun i : Fin ((K (F := F)).nSub 0) => goExtra ft d c (sV i)) = iprop(tPts ft d c ∗ ∃ f, shLoc d c ↦{fullShare} f) := by
  unfold goExtra; exact only_zero _
omit [FloatOps F] in
theorem tdExtra_all (d : Dev nD) (c : Fin τ.nSC) :
    (bigSep Finset.univ fun i : Fin ((K (F := F)).nSub 0) => tdExtra ft d c (sV i)) = iprop(tPts ft d c ∗ ∃ f, shLoc d c ↦{shareDrop fullShare 16} f) := by
  unfold tdExtra; exact only_zero _

omit [FloatOps F] in
/-- The sixteen tiles' read shares and what remains beside them are the shared memory whole. -/
theorem shToks_join (d : Dev nD) (c : Fin τ.nSC) :
    iprop((∃ f, shLoc d c ↦{shareDrop fullShare 16} f) ∗ bigSep Finset.univ fun i : Fin ((K (F := F)).nSub 0) => iprop(∃ f, shTokPts d c (sV i) f))
      ⊢ (iprop(∃ f, shLoc d c ↦{fullShare} f) : sProp 𝕄) :=
  toks_join_fin (ℓ := shLoc d c) fullShare 16

omit [FloatOps F] in
/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P fi ft fo) 0 := by
  intro d c
  show iprop(iprop((bigSep Finset.univ fun i : Fin ((K (F := F)).nSub 0) => iprop(iPts fi d (wid (coreOf c) (sV i)) ∗ oPts d (wid (coreOf c) (sV i)) (fo d))) ∗ tPts ft d (coreOf c))
      ∗ ownBufs (S d (coreOf c))) ⊢ |={Set.univ}=> iprop(
      (bigSep Finset.univ fun i : Fin ((K (F := F)).nSub 0) => iprop(iPts fi d (wid (coreOf c) (sV i)) ∗ oPts d (wid (coreOf c) (sV i)) (fo d) ∗ goExtra ft d (coreOf c) (sV i)))
      ∗ ((bigSep Finset.univ fun i : Fin ((K (F := F)).nSub 0) => iprop(iPts fi d (wid (coreOf c) (sV i)) ∗ oPts d (wid (coreOf c) (sV i)) (oDone fi ft d)
            ∗ tdExtra ft d (coreOf c) (sV i) ∗ ∃ f, shTokPts d (coreOf c) (sV i) f))
          -∗ iprop(iprop((bigSep Finset.univ fun i : Fin ((K (F := F)).nSub 0) => iprop(iPts fi d (wid (coreOf c) (sV i)) ∗ oPts d (wid (coreOf c) (sV i)) (oDone fi ft d)))
              ∗ tPts ft d (coreOf c)) ∗ ownBufs (S d (coreOf c)))))
  simp only [bigSep_sep']
  rw [goExtra_all, tdExtra_all, ownBufs_S]
  iintro ⟨⟨⟨HA, HB⟩, Ht⟩, Hsh, Hrest⟩; imodintro
  isplitl [HA HB Ht Hsh]
  · isplitl [HA]; · iexact HA
    isplitl [HB]; · iexact HB
    isplitl [Ht]; · iexact Ht
    iexact Hsh
  iintro ⟨HA, HB, ⟨Ht, Hd⟩, HX⟩
  isplitl [HA HB Ht]
  · isplitl [HA HB]
    · isplitl [HA]; · iexact HA
      iexact HB
    iexact Ht
  isplitl [Hd HX]
  · iapply (shToks_join (F := F) d (coreOf c))
    isplitl [Hd]; · iexact Hd
    iexact HX
  iexact Hrest

end Cert.Proof.KI

end
-- ==== Proof.KElem.lean ====
/-
  The ghost state the run starts from, and what it is dealt out as. The handshakes' rounds are the launch's own. The
  barrier cells — one per tile — get one round each, of sixteen unit duties, one per tile of the SparseCore: their
  counters start at zero, their invariants are allocated at once, and each tile is dealt its kit: every cell's invariant
  of its SparseCore and that each has reached round 0, its own position, its duty token in every tile's round, and the
  credit for the sixteen units of its own cell.
-/
import proofs.«205114_g12446815224155_cont_fleet_488_32_alg».proof.Proof.KSetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S3276800 EltTy.i32)
local notation "tV" => (Memref.whole Cert.KernelIdeal.main_arg1_scv : Memref Cert.KernelIdeal.sig Kind.scVector Space.hbm Cert.KernelIdeal.S3x128 EltTy.f32)
local notation "oV" => (Memref.whole Cert.KernelIdeal.main_v1_scv : Memref Cert.KernelIdeal.sig Kind.scVector Space.hbm Cert.KernelIdeal.S25600x128x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)

variable (fi : (d : Dev nD) → Buf (Elt F) (idxLoc d)) (ft : (d : Dev nD) → Buf (Elt F) (tabLoc d)) (fo : (d : Dev nD) → Buf (Elt F) (oLoc d))
variable [FloatOps F]

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile i's token in tile j's cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) ft) g 0)
    ⊢ |={Set.univ}=> iprop(∃ κ : GSem nD τ sig → ℕ, bigSep bCells fun g => cellInv EB (bRd (F := F) ft) (κ g) g) := by
  refine (Rounds.bodies_intro EB (bRd (F := F) ft) bCells).trans ((inv_alloc_family bCells (Rounds.body EB (bRd (F := F) ft)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P (F := F) fi ft fo).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) fi ft fo).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) fi ft fo).oxFrom 0 (V d c i) = oxV d c := fun i => by
    rw [show (0 : ℕ) = (0 : Fin 1).val from rfl, (P fi ft fo).oxFrom_step, (P fi ft fo).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) fi ft fo).x q (SparseCore.T d)) = iprop(emp) :=
  bigSep_univ_of_subsingleton (0 : Fin 1)
theorem Px_S (d : Dev nD) (c : Fin τ.nSC) : (bigSep Finset.univ fun q : Fin 1 => (P (F := F) fi ft fo).x q (S d c)) = iprop(emp) :=
  bigSep_univ_of_subsingleton (0 : Fin 1)
theorem Px_V (d : Dev nD) (c : Fin τ.nSC) (i : Fin τ.nSub) :
    (bigSep Finset.univ fun q : Fin 1 => (P (F := F) fi ft fo).x q (V d c i)) = bkit ft d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) ft) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) ft ∗ mine (F := F) dci) ⊢ (bkit (F := F) ft dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) ft) (κ (bcell₃ x)) (bcell₃ x)) fun j _ =>
        sep_elim_left.trans (bigSep_elim (Φ := fun x : DCI => (cellInv EB (bRd (F := F) ft) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) ft ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) fi ft fo).x q thr : sProp 𝕄) := by
  rw [SparseCore.Cfg.bigSep_threads (fun thr : Thread nD τ => bigSep Finset.univ fun q : Fin 1 => (P fi ft fo).x q thr)]
  simp only [Px_T, Px_S, Px_V, bigSep_emp']
  iintro ⟨#Hsh, Hat, Htok, Hcred⟩
  isplitr; · iempintro
  isplitr; · iempintro
  iapply (bigSep_mono_frame (R := shared (F := F) ft) (Φ := mine (F := F)) fun dci _ => kit_intro (F := F) ft dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) fi ft fo).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P fi ft fo).x q thr) : sProp 𝕄) := by
  unfold u₀
  iintro ⟨Hu, Hcred, Hfree⟩
  ihave H := (ownU_split _ _) $$ Hu
  icases H with ⟨HH, HB⟩
  imod (Rounds.fund EB (bRd (F := F) ft) bCells bToks) $$ HB with ⟨Hst, #Hr, Hat, Htok⟩
  ihave Hsems := (sems_b (F := F)) $$ Hfree
  imod (invs_b (F := F) ft) $$ [Hsems Hst] with ⟨%κ, #Hinv⟩
  · isplitl [Hsems] <;> iassumption
  ihave Hcred' := (creds_b fi ft fo) $$ Hcred
  ihave Hinv' := (Entails.of_eq (bCells_eq (F := F) fun g => cellInv EB (bRd (F := F) ft) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal fi ft fo)
  isplitr
  · isplitl; · iexists κ; iexact Hinv'
    iexact Hr'
  isplitl [Hat']; · iexact Hat'
  isplitl [Htok']; · iexact Htok'
  iexact Hcred'

end Cert.Proof.KI

end
-- ==== Proof.KRes.lean ====
/-
  The arrays the one call works on, read off the memory the program starts from, and the result it ends with. The first
  host operation writes the list of row numbers as one flat list: the argument's 16384 × 200 words in row-major order.
  The table and the result's buffer are as the starting memory has them. The last host operation writes the lookup's
  25600 blocks of 128 rows of 128 entries in row-major order at the shape 16384 × 200 × 128.
-/
import proofs.«205114_g12446815224155_cont_fleet_488_32_alg».proof.Proof.KSetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

/-- The flat list of row numbers the call reads: the argument in row-major order. -/
abbrev fiOf (m : (ℓ : Loc nD τ sig) → Buf (Elt F) ℓ) (d : Dev nD) : Buf (Elt F) (idxLoc d) :=
  shapeCast S3276800 (m ((SparseCore.T d).loc main_arg0)) Cert.KernelIdeal.Gen.shapeCasts_S16384x200_S3276800
/-- The table, as the starting memory has it. -/
abbrev ftOf (m : (ℓ : Loc nD τ sig) → Buf (Elt F) ℓ) (d : Dev nD) : Buf (Elt F) (tabLoc d) := m (tabLoc d)
/-- The result's buffer, as the starting memory has it. -/
abbrev foOf (m : (ℓ : Loc nD τ sig) → Buf (Elt F) ℓ) (d : Dev nD) : Buf (Elt F) (oLoc d) := m (oLoc d)
/-- What the program ends with: the lookup on the flat arrays, in row-major order at the result's shape. -/
abbrev resOf (m : (ℓ : Loc nD τ sig) → Buf (Elt F) ℓ) (c : Dev nD) : Buf (Elt F) ((c.tc : Thread nD τ).loc main_v2) :=
  shapeCast S16384x200x128 (Cert.Spec.look (fiOf m c) (ftOf m c)) Cert.KernelIdeal.Gen.shapeCasts_S25600x128x128_S16384x200x128

end Cert.Proof.KI

end
-- ==== Proof.KMain.lean ====
/-
  The program on the TensorCore. The first host operation writes the argument's words, in row-major order, as the flat
  list the call reads. The call is handed, for each SparseCore, its sixteen workers' read shares of the list and their
  blocks of the result, and its half of the table's share: the list's share is split into thirty-two read shares and a
  remainder kept here, the result into the thirty-two workers' blocks — worker 2 s + c is tile s of SparseCore c, and the
  pairs (c, s) are the thirty-two workers once each —, the table's share into its two halves. The call brings all of it
  back with the result at the lookup; the pieces are joined, and the last host operation writes the lookup in row-major
  order at the result's shape. The two arguments are as they were.
-/
import proofs.«205114_g12446815224155_cont_fleet_488_32_alg».proof.Proof.KRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}
open Idealize.ShloMosaic.StableHlo (held held_split held_sdiff_result wp_hlo_within)

local notation "𝕄" => MT nD τ sig (HIx 1) (Elt F) ℕ UU ℕ
local notation "iV" => (Memref.whole Cert.KernelIdeal.main_v0_scv : Memref Cert.KernelIdeal.sig Kind.scVector Space.hbm Cert.KernelIdeal.S3276800 EltTy.i32)
local notation "tV" => (Memref.whole Cert.KernelIdeal.main_arg1_scv : Memref Cert.KernelIdeal.sig Kind.scVector Space.hbm Cert.KernelIdeal.S3x128 EltTy.f32)
local notation "oV" => (Memref.whole Cert.KernelIdeal.main_v1_scv : Memref Cert.KernelIdeal.sig Kind.scVector Space.hbm Cert.KernelIdeal.S25600x128x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)

variable (m : (ℓ : Loc nD τ sig) → Buf (Elt F) ℓ) (ρ : Dev nD → PrngReg)
variable (fi : (d : Dev nD) → Buf (Elt F) (idxLoc d)) (ft : (d : Dev nD) → Buf (Elt F) (tabLoc d)) (fo : (d : Dev nD) → Buf (Elt F) (oLoc d))

/-! ## The thirty-two workers are the pairs of a SparseCore and a tile -/

/-- Worker 2 s + c is tile s of SparseCore c: the pairs are the workers, once each. -/
def widE : Fin ((K (F := F)).nCore 0) × Fin ((K (F := F)).nSub 0) ≃ Fin 32 where
  toFun p := wid (coreOf p.1) (sV p.2)
  invFun w := ((⟨w.val % 2, (Nat.mod_lt _ (by decide) : w.val % 2 < 2)⟩ : Fin ((K (F := F)).nCore 0)),
    (⟨w.val / 2, (by have := w.isLt; omega : w.val / 2 < 16)⟩ : Fin ((K (F := F)).nSub 0)))
  left_inv p := by
    obtain ⟨c, i⟩ := p
    have hc : c.val < 2 := c.isLt
    have hi : i.val < 16 := i.isLt
    refine Prod.ext (Fin.ext ?_) (Fin.ext ?_)
    · show (i.val * 2 + c.val) % 2 = c.val; omega
    · show (i.val * 2 + c.val) / 2 = i.val; omega
  right_inv w := by
    refine Fin.ext ?_
    show (w.val / 2) * 2 + w.val % 2 = w.val; omega

/-- A family over the workers, taken SparseCore by SparseCore and tile by tile. -/
theorem bigSep_wid (Φ : Fin 32 → sProp 𝕄) :
    (bigSep Finset.univ fun c : Fin ((K (F := F)).nCore 0) => bigSep Finset.univ fun i : Fin ((K (F := F)).nSub 0) => Φ (wid (coreOf c) (sV i))) = bigSep Finset.univ Φ := by
  rw [← bigSep_univ_prod (fun p : Fin ((K (F := F)).nCore 0) × Fin ((K (F := F)).nSub 0) => Φ (wid (coreOf p.1) (sV p.2)))]
  exact (bigSep_univ_equiv (widE (F := F)) Φ).symm

/-! ## The result's blocks, the list's read shares, the table's halves -/

theorem oSet_eq (w : Fin 32) : oSet w = (oPart w).set := by
  show ((View.whole (main_v1_scv : Ref sig .scVector)).slice (oPart w)).set = _
  rw [View.set_slice]; exact Finset.map_refl
theorem oSets_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint hdivO h
theorem oSets_cover : (Finset.univ : Finset (Fin 32)).biUnion oSet = Finset.univ :=
  (Finset.biUnion_congr rfl fun i _ => oSet_eq i).trans (Rect.biUnion_part hdivO)

/-- The result whole is its thirty-two workers' blocks. -/
theorem oPts_parts (d : Dev nD) (f : Buf (Elt F) (oLoc d)) :
    (oLoc d ↦{fullShare} f : sProp 𝕄) = bigSep Finset.univ fun w : Fin 32 => oPts d w f := by
  rw [← pointsTo_biUnion Finset.univ (ℓ := oLoc d) oSet oSets_disjoint, oSets_cover]; try rfl

/-- The list's share is what remains beside thirty-two read shares, and those. -/
theorem iPts_toks (d : Dev nD) :
    (idxLoc d ↦{fullShare} fi d : sProp 𝕄) ⊣⊢ iprop((idxLoc d ↦{shareDrop fullShare 32} fi d) ∗ bigSep Finset.univ fun w : Fin 32 => iPts fi d w) :=
  Transfers.pointsTo_toks fullShare 32

/-- The table's share is its two halves, one per SparseCore. -/
theorem tPts_halves (d : Dev nD) :
    (tabLoc d ↦{fullShare} ft d : sProp 𝕄) ⊣⊢ iprop((bigSep Finset.univ fun c : Fin ((K (F := F)).nCore 0) => tPts ft d (coreOf c))) := by
  show _ ⊣⊢ bigSep (Finset.univ : Finset (Fin 2)) fun c => tPts ft d (coreOf c)
  rw [bigSep_univ_two]
  exact pointsTo_share (PosShare.mem_left_op_right fullShare)

variable [FloatOps F]

/-- What the call takes for its two SparseCores: the thirty-two read shares of the list, the thirty-two blocks of the
    result, the table's share. -/
theorem st0_eq (d : Dev nD) : (bigSep Finset.univ fun c : Fin ((K (F := F)).nCore 0) => (P fi ft fo).st 0 d c)
    = iprop(((bigSep Finset.univ fun w : Fin 32 => iPts fi d w) ∗ (oLoc d ↦{fullShare} fo d))
        ∗ bigSep Finset.univ fun c : Fin ((K (F := F)).nCore 0) => tPts ft d (coreOf c)) := by
  show (bigSep Finset.univ fun c : Fin ((K (F := F)).nCore 0) =>
      iprop((bigSep Finset.univ fun i : Fin ((K (F := F)).nSub 0) => iprop(iPts fi d (wid (coreOf c) (sV i)) ∗ oPts d (wid (coreOf c) (sV i)) (fo d))) ∗ tPts ft d (coreOf c))) = _
  rw [bigSep_sep', bigSep_wid (F := F) (fun w => iprop(iPts fi d w ∗ oPts d w (fo d))), bigSep_sep', oPts_parts]
/-- What it brings back: the same with the result at the lookup. -/
theorem dn0_eq (d : Dev nD) : (bigSep Finset.univ fun c : Fin ((K (F := F)).nCore 0) => (P fi ft fo).dn 0 d c)
    = iprop(((bigSep Finset.univ fun w : Fin 32 => iPts fi d w) ∗ (oLoc d ↦{fullShare} oDone fi ft d))
        ∗ bigSep Finset.univ fun c : Fin ((K (F := F)).nCore 0) => tPts ft d (coreOf c)) := by
  show (bigSep Finset.univ fun c : Fin ((K (F := F)).nCore 0) =>
      iprop((bigSep Finset.univ fun i : Fin ((K (F := F)).nSub 0) => iprop(iPts fi d (wid (coreOf c) (sV i)) ∗ oPts d (wid (coreOf c) (sV i)) (oDone fi ft d))) ∗ tPts ft d (coreOf c))) = _
  rw [bigSep_sep', bigSep_wid (F := F) (fun w => iprop(iPts fi d w ∗ oPts d w (oDone fi ft d))), bigSep_sep', oPts_parts]

/-! ## The host operations -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev a0Loc (d : Dev nD) : Loc nD τ sig := (SparseCore.T d).loc main_arg0
abbrev v2Loc (d : Dev nD) : Loc nD τ sig := (SparseCore.T d).loc main_v2
/-- The two host operations: the argument to the flat list, the result's blocks to the result's shape. -/
abbrev opIn : HloOp τ sig (Elt F) := StableHlo.reshape main_arg0 main_v0 rfl shapeCasts_S16384x200_S3276800
abbrev opOut : HloOp τ sig (Elt F) := StableHlo.reshape main_v1 main_v2 rfl shapeCasts_S25600x128x128_S16384x200x128

/-- The TensorCore's arrays, all unscoped. -/
abbrev S5 : Finset (DevRef τ sig) := {a0', a1', v0', v1', v2'}

omit [FloatOps F] in
theorem held_S5 (d : Dev nD) (W : Valuation τ sig (Elt F)) :
    (held (T d) S5 W : sProp 𝕄)
      = iprop((a0Loc d ↦{fullShare} W a0') ∗ (tabLoc d ↦{fullShare} W a1') ∗ (idxLoc d ↦{fullShare} W v0')
          ∗ (oLoc d ↦{fullShare} W v1') ∗ v2Loc d ↦{fullShare} W v2') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (tabLoc d ↦{fullShare} W main_arg1) ∗ (idxLoc d ↦{fullShare} W main_v0)
          ∗ (oLoc d ↦{fullShare} W main_v1) ∗ v2Loc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The contents at the launch, after the first host operation, and before the last: the result's blocks at the lookup. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) v1' (oDone (fiOf m) (ftOf m) d)

omit [FloatOps F] in
theorem unscoped_held (d : Dev nD) : (unscopedBufs d (fun b => m ((SparseCore.T d).loc b)) : sProp 𝕄) = held (T d) S5 (V0 m d) := by
  rw [unscopedBufs_eq, held_S5]; rfl

omit [FloatOps F] in
theorem V1_a0 (d : Dev nD) : V1 m d a0' = m (a0Loc d) :=
  ((opIn (F := F)).result_of_not_mem _ (show a0' ∉ ({v0'} : Finset (DevRef τ sig)) by decide)).trans rfl
omit [FloatOps F] in
theorem V1_a1 (d : Dev nD) : V1 m d a1' = ftOf m d :=
  ((opIn (F := F)).result_of_not_mem _ (show a1' ∉ ({v0'} : Finset (DevRef τ sig)) by decide)).trans rfl
omit [FloatOps F] in
theorem V1_v1 (d : Dev nD) : V1 m d v1' = foOf m d :=
  ((opIn (F := F)).result_of_not_mem _ (show v1' ∉ ({v0'} : Finset (DevRef τ sig)) by decide)).trans rfl
omit [FloatOps F] in
theorem V1_v2 (d : Dev nD) : V1 m d v2' = m (v2Loc d) :=
  ((opIn (F := F)).result_of_not_mem _ (show v2' ∉ ({v0'} : Finset (DevRef τ sig)) by decide)).trans rfl
omit [FloatOps F] in
/-- The first host operation writes the flat list. -/
theorem V1_v0 (d : Dev nD) : V1 m d v0' = fiOf m d :=
  (StableHlo.reshape_result main_arg0 main_v0 rfl shapeCasts_S16384x200_S3276800 ⟨by decide, rfl⟩ ⟨by decide, rfl⟩ (V0 m d)).trans rfl

theorem V2_a0 (d : Dev nD) : V2 m d a0' = m (a0Loc d) := (Function.update_of_ne (show a0' ≠ v1' by decide) _ _).trans (V1_a0 m d)
theorem V2_a1 (d : Dev nD) : V2 m d a1' = ftOf m d := (Function.update_of_ne (show a1' ≠ v1' by decide) _ _).trans (V1_a1 m d)
theorem V2_v0 (d : Dev nD) : V2 m d v0' = fiOf m d := (Function.update_of_ne (show v0' ≠ v1' by decide) _ _).trans (V1_v0 m d)
theorem V2_v1 (d : Dev nD) : V2 m d v1' = oDone (fiOf m) (ftOf m) d := Function.update_self _ _ _
theorem V2_v2 (d : Dev nD) : V2 m d v2' = m (v2Loc d) := (Function.update_of_ne (show v2' ≠ v1' by decide) _ _).trans (V1_v2 m d)

theorem V3_a0 (d : Dev nD) : (opOut (F := F)).result (V2 m d) a0' = m (a0Loc d) :=
  ((opOut (F := F)).result_of_not_mem _ (show a0' ∉ ({v2'} : Finset (DevRef τ sig)) by decide)).trans (V2_a0 m d)
theorem V3_a1 (d : Dev nD) : (opOut (F := F)).result (V2 m d) a1' = ftOf m d :=
  ((opOut (F := F)).result_of_not_mem _ (show a1' ∉ ({v2'} : Finset (DevRef τ sig)) by decide)).trans (V2_a1 m d)
/-- The last host operation writes the lookup at the result's shape. -/
theorem V3_v2 (d : Dev nD) : (opOut (F := F)).result (V2 m d) v2' = resOf m d := by
  rw [StableHlo.reshape_result main_v1 main_v2 rfl shapeCasts_S25600x128x128_S16384x200x128 ⟨by decide, rfl⟩ ⟨by decide, rfl⟩ (V2 m d)]
  show (fun i => shapeCast S16384x200x128 (V2 m d v1') shapeCasts_S25600x128x128_S16384x200x128 i) = _
  rw [V2_v1]; rfl

theorem hIn : (opIn (F := F)).bufs ⊆ S5 := show ({a0', v0'} : Finset (DevRef τ sig)) ⊆ S5 by decide
theorem hOut : (opOut (F := F)).bufs ⊆ S5 := show ({v1', v2'} : Finset (DevRef τ sig)) ⊆ S5 by decide

/-- What @main leaves the claim: the result at the lookup in the result's shape, the two arguments as they were. -/
abbrev FIN (d : Dev nD) : sProp 𝕄 :=
  iprop((v2Loc d ↦{fullShare} resOf m d) ∗ (a0Loc d ↦{fullShare} m (a0Loc d)) ∗ tabLoc d ↦{fullShare} m (tabLoc d))

theorem held_V1 (d : Dev nD) :
    (held (T d) S5 ((opIn (F := F)).result (V0 m d)) : sProp 𝕄)
      = iprop((a0Loc d ↦{fullShare} m (a0Loc d)) ∗ (tabLoc d ↦{fullShare} ftOf m d) ∗ (idxLoc d ↦{fullShare} fiOf m d)
          ∗ (oLoc d ↦{fullShare} foOf m d) ∗ v2Loc d ↦{fullShare} m (v2Loc d)) := by
  show held (SparseCore.T d) S5 (V1 m d) = _
  rw [held_S5, V1_a0, V1_a1, V1_v0, V1_v1, V1_v2]
theorem held_V2 (d : Dev nD) :
    (held (T d) S5 (V2 m d) : sProp 𝕄)
      = iprop((a0Loc d ↦{fullShare} m (a0Loc d)) ∗ (tabLoc d ↦{fullShare} ftOf m d) ∗ (idxLoc d ↦{fullShare} fiOf m d)
          ∗ (oLoc d ↦{fullShare} oDone (fiOf m) (ftOf m) d) ∗ v2Loc d ↦{fullShare} m (v2Loc d)) := by
  rw [held_S5, V2_a0, V2_a1, V2_v0, V2_v1, V2_v2]
theorem held_V3 (d : Dev nD) :
    (held (T d) S5 ((opOut (F := F)).result (V2 m d)) : sProp 𝕄)
      = iprop((a0Loc d ↦{fullShare} m (a0Loc d)) ∗ (tabLoc d ↦{fullShare} ftOf m d) ∗ (idxLoc d ↦{fullShare} (opOut (F := F)).result (V2 m d) v0')
          ∗ (oLoc d ↦{fullShare} (opOut (F := F)).result (V2 m d) v1') ∗ v2Loc d ↦{fullShare} resOf m d) := by
  rw [held_S5, V3_a0, V3_a1, V3_v2]

/-- @main on device d's TensorCore: the first host operation, the call, the last host operation. -/
theorem hmain (κ : GSem nD τ sig → ℕ) (d : Dev nD) :
    iprop((K (F := F)).ctx EH (P (fiOf m) (ftOf m) (foOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first host operation writes the flat list
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha0, Ha1, Hv0, Hv1, Hv2⟩
  -- the call: the list's read shares, the result's blocks, the table's halves, to the two SparseCores and back
  ihave Hi := (iPts_toks (F := F) (fiOf m) d).1 $$ Hv0
  icases Hi with ⟨Hrem, Htoks⟩
  ihave Ht := (tPts_halves (F := F) (ftOf m) d).1 $$ Ha1
  iapply ((K (F := F)).wp_run (D (F := F)) 𝒱 (EH := EH) (P := P (fiOf m) (ftOf m) (foOf m)) κ d 0) $$ [Hst Htoks Hv1 Ht Hb Ha0 Hrem Hv2]
  isplitr; · iexact Hctx
  isplitl [Hst]; · iexact Hst
  isplitl [Htoks Hv1 Ht]
  · rw [st0_eq]
    isplitl [Htoks Hv1]
    · isplitl [Htoks]; · iexact Htoks
      iexact Hv1
    iexact Ht
  iintro ⟨Hst, Hdn⟩
  ihave Hdn' := (Entails.of_eq (dn0_eq (F := F) (fiOf m) (ftOf m) (foOf m) d)) $$ Hdn
  icases Hdn' with ⟨⟨Htoks, Hv1⟩, Ht⟩
  ihave Hv0 := (iPts_toks (F := F) (fiOf m) d).2 $$ [Hrem Htoks]
  · isplitl [Hrem]; · iexact Hrem
    iexact Htoks
  ihave Ha1 := (tPts_halves (F := F) (ftOf m) d).2 $$ Ht
  -- the last host operation writes the lookup at the result's shape
  iapply (wp_hlo_within 𝒱 (SparseCore.T d) none Set.univ (op := opOut) (S := S5) hOut (V := V2 m d)) $$ [Hb Ha0 Ha1 Hv0 Hv1 Hv2]
  · isplitl [Hb]; · iexact Hb
    rw [held_V2]
    isplitl [Ha0]; · iexact Ha0
    isplitl [Ha1]; · iexact Ha1
    isplitl [Hv0]; · iexact Hv0
    isplitl [Hv1]; · iexact Hv1
    iexact Hv2
  iintro ⟨Hb, Hheld⟩
  ihave Hh := (Entails.of_eq (held_V3 (F := F) m d)) $$ Hheld
  icases Hh with ⟨Ha0, Ha1, -, -, Hv2⟩
  rw [wp_ret]; imodintro; imodintro
  isplitl [Hst]; · iexact Hst
  isplitl [Hv2]; · iexact Hv2
  isplitl [Ha0]; · iexact Ha0
  iexact Ha1

/-- What the final memory then reads. -/
def fq (d : Dev nD) (s' : Phys nD τ sig (Elt F)) : Prop :=
  s'.mem.mem (v2Loc d) = resOf m d ∧ s'.mem.mem (a0Loc d) = m (a0Loc d) ∧ s'.mem.mem (tabLoc d) = m (tabLoc d)

theorem hfin (d : Dev nD) (s' : Phys nD τ sig (Elt F)) : iprop(FIN m d ∗ SI s') ⊢ (⌜fq m d s'⌝ : sProp 𝕄) := by
  iintro ⟨⟨H2, H0, H1⟩, HSI⟩
  ihave H := (persistent_entails_right (SI_pointsTo_agree (st := s') (ℓ := v2Loc d) (I := Finset.univ) (q := fullShare) (f := resOf m d))) $$ [HSI H2]
  · isplitl [HSI] <;> iassumption
  icases H with ⟨%h2, HSI, -⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (SI_pointsTo_agree (st := s') (ℓ := tabLoc d) (I := Finset.univ) (q := fullShare) (f := m (tabLoc d))) $$ [HSI H1]
  · isplitl [HSI] <;> iassumption
  icases H with %h1
  ipureintro
  exact ⟨funext fun i => h2 i (Finset.mem_univ i), funext fun i => h0 i (Finset.mem_univ i), funext fun i => h1 i (Finset.mem_univ i)⟩

end Cert.Proof.KI

end
-- ==== Proof.KRun.lean ====
/-
  The program's run. Every tile's task proved at any place of the grid gives the run of the whole program — the
  TensorCore, the two sequencers and the thirty-two tiles, under every fair interleaving —: it ends, and it ends with the
  result at the lookup on the flat list the first host operation wrote, in row-major order at the result's shape, and
  with the two arguments as they were.
-/
import proofs.«205114_g12446815224155_cont_fleet_488_32_alg».proof.Proof.KObl
import proofs.«205114_g12446815224155_cont_fleet_488_32_alg».proof.Proof.KSplit
import proofs.«205114_g12446815224155_cont_fleet_488_32_alg».proof.Proof.KElem
import proofs.«205114_g12446815224155_cont_fleet_488_32_alg».proof.Proof.KMain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

theorem run_main [∀ e, Nonempty (Elt F e)] (m : (ℓ : Loc nD τ sig) → Buf (Elt F) ℓ) (ρ : Dev nD → PrngReg)
    (hr : InRange (F := F) (fiOf m)) (htb : TileBody (F := F) (fiOf m) (ftOf m) (foOf m)) :
    θ_run (Cert.KernelIdeal.defs (F := F)) (Cert.KernelIdeal.threads (F := F)) ⟨m, fun _ => 0, ρ⟩ (fun r => ∀ c : Dev nD,
      r.2.mem ((c.tc : Thread nD τ).loc main_v2) = resOf m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P (fiOf m) (ftOf m) (foOf m)) facts v₀
    (fun q hq => match q with | 0 => nomatch hq)
    (fun q _ => match q with | 0 => tileObl (fiOf m) (ftOf m) (foOf m) facts htb)
    (fun q _ => match q with | 0 => vecSplit (fiOf m) (ftOf m) (foOf m))
    m ρ main (fun _ => iprop(emp)) (FIN m) (u₀ (F := F)) (hu₀ (fiOf m) (ftOf m) (foOf m)) (hmain m ρ) (fq m) (hfin m) _ (fun _ h => h)

end Cert.Proof.KI

end
-- ==== Proof.BSetup.lean ====
/-
  What the launch and one tile's task agree on. The call runs on both SparseCores, sixteen tiles each; tile s of
  SparseCore c is worker number 2 s + c of thirty-two. Worker w reads words 102400 w … 102400 w + 102399 of the flat
  list of row numbers (it holds a read share of the whole list) and owns blocks 800 w … 800 w + 799 of the result. Tile 0 of a SparseCore copies the table into the
  SparseCore's shared memory; all sixteen tiles then meet at the barrier, and tile 0's arrival at tile j's barrier cell
  hands tile j a read share of the shared copy, at the table's contents: what a tile gathers from after the barrier it
  holds. Each tile hands its share back at its exit, so that the shared memory is whole again when the region ends.
-/
import proofs.«205114_g12446815224155_cont_fleet_488_32_alg».proof.Defs
import proofs.«205114_g12446815224155_cont_fleet_488_32_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205114_g12446815224155_cont_fleet_488_32_alg».proof.Proof.Gen.Kernel
import proofs.«205114_g12446815224155_cont_fleet_488_32_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number c. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

/-- The flat list of row numbers, the table, and the result in blocks, on device d. -/
abbrev idxLoc (d : Dev nD) : Loc nD τ sig := (SparseCore.T d).loc main_v0
abbrev tabLoc (d : Dev nD) : Loc nD τ sig := (SparseCore.T d).loc main_arg1
abbrev oLoc (d : Dev nD) : Loc nD τ sig := (SparseCore.T d).loc main_v1

local notation "iV" => (Memref.whole Cert.Kernel.main_v0_scv : Memref Cert.Kernel.sig Kind.scVector Space.hbm Cert.Kernel.S3276800 EltTy.i32)
local notation "tV" => (Memref.whole Cert.Kernel.main_arg1_scv : Memref Cert.Kernel.sig Kind.scVector Space.hbm Cert.Kernel.S3x128 EltTy.f32)
local notation "oV" => (Memref.whole Cert.Kernel.main_v1_scv : Memref Cert.Kernel.sig Kind.scVector Space.hbm Cert.Kernel.S25600x128x128 EltTy.f32)
local notation "shV" => (Memref.whole Cert.Kernel.cc0_scratch0 : Memref Cert.Kernel.sig Kind.scVector Space.shared Cert.Kernel.S3x128 EltTy.f32)

theorem hdivO : 32 ∣ S25600x128x128.size 0 := ⟨800, rfl⟩
/-- Worker w's blocks of the result. -/
abbrev oPart (w : Fin 32) : Rect S25600x128x128 := Rect.part (s := S25600x128x128) (a₀ := 0) hdivO w
abbrev oSet (w : Fin 32) : Finset S25600x128x128.Idx := ((oV).view.slice (oPart w)).set

theorem nSub_eq : τ.nSub = 16 := rfl
theorem nSC_eq : τ.nSC = 2 := rfl

/-- The worker number of tile s of SparseCore c. -/
def wid (c : Fin τ.nSC) (s : Fin τ.nSub) : Fin 32 := ⟨s.val * 2 + c.val, by
  have hc : c.val < 2 := c.isLt
  have hs : s.val < 16 := s.isLt
  omega⟩

/-- SparseCore c's shared memory, as every tile of it addresses it. -/
abbrev shRef (c : Fin τ.nSC) : DevRef τ sig := ⟨.shared, ⟨0, by decide⟩, c⟩
abbrev shLoc (d : Dev nD) (c : Fin τ.nSC) : Loc nD τ sig := (d, shRef c)

-- The contents of the three arrays when the call starts: any list of row numbers fi, any table ft, any result array fo.
variable (fi : (d : Dev nD) → Buf (Elt F) (idxLoc d)) (ft : (d : Dev nD) → Buf (Elt F) (tabLoc d)) (fo : (d : Dev nD) → Buf (Elt F) (oLoc d))

/-- The table as the contents of a SparseCore's shared memory. -/
abbrev tabAt (d : Dev nD) (c : Fin τ.nSC) : Buf (Elt F) (shLoc d c) := ft d
/-- The result the call leaves: the lookup on the flat arrays. -/
abbrev oDone (d : Dev nD) : Buf (Elt F) (oLoc d) := Cert.Spec.look (fi d) (ft d)

variable [FloatOps F]

/-! ## The barrier cells -/

/-- Tile (c, j)'s barrier semaphore of device d. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile j's read share of its SparseCore's shared memory. -/
abbrev shTok (j : Fin τ.nSub) : PosShare TreeShare := shareTok fullShare 16 (Fin.cast nSub_eq j)
abbrev shTokPts (d : Dev nD) (c : Fin τ.nSC) (j : Fin τ.nSub) (f : Buf (Elt F) (shLoc d c)) : sProp 𝕄 := shLoc d c ↦{shTok j} f

/-- What a duty in tile j's round hands over: tile 0's, tile j's read share of the shared copy at the table's contents;
    the others', nothing. -/
def bPay (g : GSem nD τ sig) (n : ℕ) : sProp 𝕄 :=
  match g with
  | ((d, .scVector c j), _) => if n = 0 then shTokPts d c j (tabAt ft d c) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay ft g n
  amount_pos _ _ _ _ := Nat.one_pos

instance bRd_payload_storable (g : GSem nD τ sig) (r n : ℕ) : BI.Storable (upEmb : UEmb _ 𝕄) ((bRd (F := F) ft).payload g r n) := by
  show BI.Storable upEmb (bPay ft g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) ft).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) ft).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) ft).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile of SparseCore c owe for the barrier: a unit on every tile's cell of its SparseCore, at the
    call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile (c, i)'s barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) ft) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- The table is read by tile 0 of either SparseCore: SparseCore 0 takes the left half of its share, SparseCore 1 the right. -/
def tabShare (c : Fin τ.nSC) : PosShare TreeShare := if c.val = 0 then (fullShare : PosShare TreeShare).left else (fullShare : PosShare TreeShare).right

/-- The list is only read: worker w holds a read share of the whole list, not a slice of it. -/
abbrev iTok (w : Fin 32) : PosShare TreeShare := shareTok fullShare 32 w
abbrev iPts (d : Dev nD) (w : Fin 32) : sProp 𝕄 := idxLoc d ↦{iTok w} fi d
abbrev oPts (d : Dev nD) (w : Fin 32) (f : Buf (Elt F) (oLoc d)) : sProp 𝕄 := oLoc d ↦[oSet w]{fullShare} f
abbrev tPts (d : Dev nD) (c : Fin τ.nSC) : sProp 𝕄 := tabLoc d ↦{tabShare c} ft d

/-- What tile s of SparseCore c is handed beside its slices: tile 0 the table's share and the shared memory whole. -/
def goExtra (d : Dev nD) (c : Fin τ.nSC) (s : Fin τ.nSub) : sProp 𝕄 :=
  if s.val = 0 then iprop(tPts ft d c ∗ ∃ f, shLoc d c ↦{fullShare} f) else iprop(emp)
/-- What it hands back beside them: tile 0 the table's share and what remains of the shared memory beside the sixteen read shares. -/
def tdExtra (d : Dev nD) (c : Fin τ.nSC) (s : Fin τ.nSub) : sProp 𝕄 :=
  if s.val = 0 then iprop(tPts ft d c ∗ ∃ f, shLoc d c ↦{shareDrop fullShare 16} f) else iprop(emp)

abbrev sV (i : Fin ((K (F := F)).nSub 0)) : Fin τ.nSub := (K (F := F)).sub 0 i

/-- The one call: a SparseCore takes its sixteen workers' read shares of the list, their slices of the result and its share of the
    table; a task its own share and slice (tile 0 also the table's share and the shared memory), and brings back its slices — the
    result's at the lookup — and its read share of the shared memory; each task's proof consumes its barrier kit; each
    tile owes its arrivals. -/
def P : (K (F := F)).Pay (nD := nD) (Val := Elt F) (Name := ℕ) (U := UU) where
  st := fun q d c => match q with
    | 0 => iprop((bigSep Finset.univ fun i : Fin ((K (F := F)).nSub 0) => iprop(iPts fi d (wid (coreOf c) (sV i)) ∗ oPts d (wid (coreOf c) (sV i)) (fo d))) ∗ tPts ft d (coreOf c))
  dn := fun q d c => match q with
    | 0 => iprop((bigSep Finset.univ fun i : Fin ((K (F := F)).nSub 0) => iprop(iPts fi d (wid (coreOf c) (sV i)) ∗ oPts d (wid (coreOf c) (sV i)) (oDone fi ft d))) ∗ tPts ft d (coreOf c))
  go := fun q d c i => match q with
    | 0 => iprop(iPts fi d (wid (coreOf c) (sV i)) ∗ oPts d (wid (coreOf c) (sV i)) (fo d) ∗ goExtra ft d (coreOf c) (sV i))
  td := fun q d c i => match q with
    | 0 => iprop(iPts fi d (wid (coreOf c) (sV i)) ∗ oPts d (wid (coreOf c) (sV i)) (oDone fi ft d) ∗ tdExtra ft d (coreOf c) (sV i)
        ∗ ∃ f, shTokPts d (coreOf c) (sV i) f)
  x := fun _ thr => match thr with
    | (d, .scVector c i) => bkit ft d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance goExtra_storable (d : Dev nD) (c : Fin τ.nSC) (s : Fin τ.nSub) : BI.Storable (upEmb : UEmb _ 𝕄) (goExtra (F := F) ft d c s) := by
  unfold goExtra; split <;> infer_instance
instance tdExtra_storable (d : Dev nD) (c : Fin τ.nSC) (s : Fin τ.nSub) : BI.Storable (upEmb : UEmb _ 𝕄) (tdExtra (F := F) ft d c s) := by
  unfold tdExtra; split <;> infer_instance

instance P_storable : (P (F := F) fi ft fo).IsStorable where
  st q d c := match q with
    | 0 => (inferInstance : BI.Storable (upEmb : UEmb _ 𝕄)
      iprop((bigSep Finset.univ fun i : Fin ((K (F := F)).nSub 0) => iprop(iPts fi d (wid (coreOf c) (sV i)) ∗ oPts d (wid (coreOf c) (sV i)) (fo d))) ∗ tPts ft d (coreOf c)))
  dn q d c := match q with
    | 0 => (inferInstance : BI.Storable (upEmb : UEmb _ 𝕄)
      iprop((bigSep Finset.univ fun i : Fin ((K (F := F)).nSub 0) => iprop(iPts fi d (wid (coreOf c) (sV i)) ∗ oPts d (wid (coreOf c) (sV i)) (oDone fi ft d))) ∗ tPts ft d (coreOf c)))
  go q d c i := match q with
    | 0 => (inferInstance : BI.Storable (upEmb : UEmb _ 𝕄)
      iprop(iPts fi d (wid (coreOf c) (sV i)) ∗ oPts d (wid (coreOf c) (sV i)) (fo d) ∗ goExtra ft d (coreOf c) (sV i)))
  td q d c i := match q with
    | 0 => (inferInstance : BI.Storable (upEmb : UEmb _ 𝕄)
      iprop(iPts fi d (wid (coreOf c) (sV i)) ∗ oPts d (wid (coreOf c) (sV i)) (oDone fi ft d) ∗ tdExtra ft d (coreOf c) (sV i)
        ∗ ∃ f, shTokPts d (coreOf c) (sV i) f))

/-! ## One tile's task, as a statement -/

local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)

/-- The SparseCore and the tile of a place of the grid. -/
abbrev cV (L : grid0.Coords) : Fin τ.nSC := (L 0).castLE hcore0
abbrev jV (L : grid0.Coords) : Fin τ.nSub := (L 1).castLE hsub0
/-- The worker at a place of the grid. -/
abbrev wL (L : grid0.Coords) : Fin 32 := wid (cV L) (jV L)

/-- The task of the tile at any place L of the grid: from its slices of the list and of the result (tile 0: also the
    table's share and the shared memory), its barrier kit and its own scratch and semaphores, the body runs to the end,
    leaves its slice of the result at the lookup and hands back what it took, its read share of the shared memory in
    place of the whole; every unit it owed for the barrier is paid. -/
def TileBody : Prop :=
  ∀ (d : Dev nD) (L : grid0.Coords) (_ : (K (F := F)).Facts) (O : CellTallies nD τ sig (HIx 1)) (W : Waits sig (HIx 1)) (_ : ∀ g, O g none = 0)
    (_ : ∀ g ι, 0 < O g ι → 8 * (0 : Fin 1).val + 6 ≤ (K (F := F)).lev g ι),
    iprop(levAts (K (F := F)).L (K (F := F)).lev ∗ bkit ft d (cV L) (jV L)
        ∗ (iPts fi d (wL L) ∗ oPts d (wL L) (fo d) ∗ goExtra ft d (cV L) (jV L))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__body L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0)
          fun _ => iprop((iPts fi d (wL L) ∗ oPts d (wL L) (oDone fi ft d) ∗ tdExtra ft d (cV L) (jV L) ∗ ∃ f, shTokPts d (cV L) (jV L) f)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

/-- Every row number of the list lies between 0 and 2 (read signed): what the precondition gives, and what makes every
    gathered row a row of the table. -/
def InRange : Prop := ∀ (d : Dev nD) (j : S3276800.Idx), 0 ≤ ((fi d j : BitVec 32)).toInt ∧ ((fi d j : BitVec 32)).toInt ≤ 2

end Cert.Proof.KB

end
-- ==== Proof.BObl.lean ====
/-
  One tile's task as the launch asks for it. The launch names a tile by its SparseCore's and its own number within the
  call; the body is stated at a place of the grid. The two agree: the place (c, s) is tile s of SparseCore c, and what
  the handshakes carry for that tile is what the body's statement takes and gives back.
-/
import proofs.«205114_g12446815224155_cont_fleet_488_32_alg».proof.Proof.BSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S3276800 EltTy.i32)
local notation "tV" => (Memref.whole Cert.Kernel.main_arg1_scv : Memref Cert.Kernel.sig Kind.scVector Space.hbm Cert.Kernel.S3x128 EltTy.f32)
local notation "oV" => (Memref.whole Cert.Kernel.main_v1_scv : Memref Cert.Kernel.sig Kind.scVector Space.hbm Cert.Kernel.S25600x128x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)

variable (fi : (d : Dev nD) → Buf (Elt F) (idxLoc d)) (ft : (d : Dev nD) → Buf (Elt F) (tabLoc d)) (fo : (d : Dev nD) → Buf (Elt F) (oLoc d))
variable [FloatOps F]

/-- The place of the grid of SparseCore c's tile s. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          iV (Memref.isWhole_whole _) tV (Memref.isWhole_whole _) oV (Memref.isWhole_whole _) shV (Memref.isWhole_whole _)
          ibV (Memref.isWhole_whole _) rwV (Memref.isWhole_whole _)
          cc0_scratch3 cc0_scratch4 cc0_scratch5 cc0_scratch6 cc0_scratch7 cc0_scratch8 cc0_scratch9 cc0_scratch10 cc0_scoped0) ⟨⟩ c s := rfl

set_option maxRecDepth 16384 in
theorem tileObl (hF : (K (F := F)).Facts) (htb : TileBody (F := F) fi ft fo) : (K (F := F)).TileObl (D (F := F)) 𝒱 (P fi ft fo) v₀ 0 := by
  intro d c i O W hO hOlev _
  have hci : ((K (F := F)).core 0 c).val < grid0.bound 0 ∧ ((K (F := F)).sub 0 i).val < grid0.bound 1 := ⟨c.isLt, i.isLt⟩
  rw [show (P fi ft fo).ox 0 (V d ((K (F := F)).core 0 c) ((K (F := F)).sub 0 i)) = oxV d ((K (F := F)).core 0 c) from rfl,
    show (P fi ft fo).x 0 (V d ((K (F := F)).core 0 c) ((K (F := F)).sub 0 i)) = bkit ft d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact htb d (coordsV ⟨_, hci.1⟩ ⟨_, hci.2⟩) hF O W hO hOlev

end Cert.Proof.KB

end
-- ==== Proof.BSplit.lean ====
/-
  How a SparseCore's share of the call splits among its sixteen tiles and comes back. Each tile takes its own read share
  of the list and its own blocks of the result; tile 0 takes, beside them, the SparseCore's share of the table and its
  shared memory whole. Coming back, tile 0 brings what remains of the shared memory beside sixteen read shares, and every
  tile brings its read share, each at contents of its own: shares of one array agree on its contents, so the seventeen
  pieces are the shared memory whole again, at some contents.
-/
import proofs.«205114_g12446815224155_cont_fleet_488_32_alg».proof.Proof.BSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S3276800 EltTy.i32)
local notation "tV" => (Memref.whole Cert.Kernel.main_arg1_scv : Memref Cert.Kernel.sig Kind.scVector Space.hbm Cert.Kernel.S3x128 EltTy.f32)
local notation "oV" => (Memref.whole Cert.Kernel.main_v1_scv : Memref Cert.Kernel.sig Kind.scVector Space.hbm Cert.Kernel.S25600x128x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)

section Join

variable {ℓ : Loc nD τ sig}

/-- The two halves of a share of an array, each at contents of its own, are the share at one contents: they agree. -/
theorem halves_join (q : PosShare TreeShare) :
    iprop((∃ f : Buf (Elt F) ℓ, ℓ ↦{q.left} f) ∗ ∃ f : Buf (Elt F) ℓ, ℓ ↦{q.right} f) ⊢ (iprop(∃ f : Buf (Elt F) ℓ, ℓ ↦{q} f) : sProp 𝕄) := by
  iintro ⟨⟨%f, H₁⟩, ⟨%g, H₂⟩⟩
  ihave Hag := (persistent_entails_right pointsTo_agree) $$ [H₁ H₂]
  · isplitl [H₁]; · iexact H₁
    iexact H₂
  icases Hag with ⟨%hag, H₁, H₂⟩
  ihave H₂' := (Entails.of_eq (pointsTo_congr (f := g) (g := f) fun i hi => (hag i (Finset.mem_inter.mpr ⟨hi, hi⟩)).1.symm)) $$ H₂
  iexists f
  iapply (pointsTo_share (PosShare.mem_left_op_right q)).2
  isplitl [H₁]; · iexact H₁
  iexact H₂'

/-- What remains of a share after n read shares, and the n read shares, each at contents of its own, are the share. -/
theorem toks_join_range (q : PosShare TreeShare) : ∀ n : ℕ,
    iprop((∃ f : Buf (Elt F) ℓ, ℓ ↦{shareDrop q n} f) ∗ bigSep (Finset.range n) fun i => iprop(∃ f : Buf (Elt F) ℓ, ℓ ↦{Transfers.shareTokN q i} f))
      ⊢ (iprop(∃ f : Buf (Elt F) ℓ, ℓ ↦{q} f) : sProp 𝕄)
  | 0 => by rw [Finset.range_zero, bigSep_empty]; exact Laws.sep_emp.1
  | n + 1 => by
    rw [Finset.range_add_one, SparseCore.bigSep_insert' Finset.notMem_range_self]
    iintro ⟨Hd, Ht, Hts⟩
    iapply (toks_join_range q n)
    isplitl [Hd Ht]
    · iapply (halves_join (shareDrop q n))
      isplitl [Hd]; · iexact Hd
      iexact Ht
    iexact Hts

/-- The same with the read shares numbered by the cells. -/
theorem toks_join_fin (q : PosShare TreeShare) (n : ℕ) :
    iprop((∃ f : Buf (Elt F) ℓ, ℓ ↦{shareDrop q n} f) ∗ bigSep Finset.univ fun i : Fin n => iprop(∃ f : Buf (Elt F) ℓ, ℓ ↦{shareTok q n i} f))
      ⊢ (iprop(∃ f : Buf (Elt F) ℓ, ℓ ↦{q} f) : sProp 𝕄) := by
  rw [show (bigSep Finset.univ fun i : Fin n => (iprop(∃ f : Buf (Elt F) ℓ, ℓ ↦{shareTok q n i} f) : sProp 𝕄))
      = bigSep (Finset.range n) (fun i => iprop(∃ f : Buf (Elt F) ℓ, ℓ ↦{Transfers.shareTokN q i} f))
    by rw [← Nat.Iio_eq_range, ← Fin.map_valEmbedding_univ, bigSep_map]; rfl]
  exact toks_join_range q n

end Join

variable (fi : (d : Dev nD) → Buf (Elt F) (idxLoc d)) (ft : (d : Dev nD) → Buf (Elt F) (tabLoc d)) (fo : (d : Dev nD) → Buf (Elt F) (oLoc d))
variable [FloatOps F]

omit [FloatOps F] in
/-- What only tile 0 carries is carried once among the sixteen. -/
theorem only_zero (X : sProp 𝕄) :
    (bigSep Finset.univ fun i : Fin ((K (F := F)).nSub 0) => if (sV (F := F) i).val = 0 then X else iprop(emp)) = X := by
  show (bigSep Finset.univ fun i : Fin ((K (F := F)).nSub 0) => if (sV (F := F) i).val = 0 then X else (BI.emp : sProp 𝕄)) = X
  rw [← bigSep_filter Finset.univ (fun i : Fin ((K (F := F)).nSub 0) => (sV (F := F) i).val = 0) (fun _ => X),
    show (Finset.univ.filter fun i : Fin ((K (F := F)).nSub 0) => (sV (F := F) i).val = 0) = {(⟨0, (by decide : (0 : ℕ) < 16)⟩ : Fin ((K (F := F)).nSub 0))} from by
      ext i; simp only [Finset.mem_filter, Finset.mem_univ, true_and, Finset.mem_singleton]
      exact ⟨fun h => Fin.ext h, fun h => congrArg Fin.val h⟩,
    bigSep_singleton]

omit [FloatOps F] in
theorem goExtra_all (d : Dev nD) (c : Fin τ.nSC) :
    (bigSep Finset.univ fun i : Fin ((K (F := F)).nSub 0) => goExtra ft d c (sV i)) = iprop(tPts ft d c ∗ ∃ f, shLoc d c ↦{fullShare} f) := by
  unfold goExtra; exact only_zero _
omit [FloatOps F] in
theorem tdExtra_all (d : Dev nD) (c : Fin τ.nSC) :
    (bigSep Finset.univ fun i : Fin ((K (F := F)).nSub 0) => tdExtra ft d c (sV i)) = iprop(tPts ft d c ∗ ∃ f, shLoc d c ↦{shareDrop fullShare 16} f) := by
  unfold tdExtra; exact only_zero _

omit [FloatOps F] in
/-- The sixteen tiles' read shares and what remains beside them are the shared memory whole. -/
theorem shToks_join (d : Dev nD) (c : Fin τ.nSC) :
    iprop((∃ f, shLoc d c ↦{shareDrop fullShare 16} f) ∗ bigSep Finset.univ fun i : Fin ((K (F := F)).nSub 0) => iprop(∃ f, shTokPts d c (sV i) f))
      ⊢ (iprop(∃ f, shLoc d c ↦{fullShare} f) : sProp 𝕄) :=
  toks_join_fin (ℓ := shLoc d c) fullShare 16

omit [FloatOps F] in
/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P fi ft fo) 0 := by
  intro d c
  show iprop(iprop((bigSep Finset.univ fun i : Fin ((K (F := F)).nSub 0) => iprop(iPts fi d (wid (coreOf c) (sV i)) ∗ oPts d (wid (coreOf c) (sV i)) (fo d))) ∗ tPts ft d (coreOf c))
      ∗ ownBufs (S d (coreOf c))) ⊢ |={Set.univ}=> iprop(
      (bigSep Finset.univ fun i : Fin ((K (F := F)).nSub 0) => iprop(iPts fi d (wid (coreOf c) (sV i)) ∗ oPts d (wid (coreOf c) (sV i)) (fo d) ∗ goExtra ft d (coreOf c) (sV i)))
      ∗ ((bigSep Finset.univ fun i : Fin ((K (F := F)).nSub 0) => iprop(iPts fi d (wid (coreOf c) (sV i)) ∗ oPts d (wid (coreOf c) (sV i)) (oDone fi ft d)
            ∗ tdExtra ft d (coreOf c) (sV i) ∗ ∃ f, shTokPts d (coreOf c) (sV i) f))
          -∗ iprop(iprop((bigSep Finset.univ fun i : Fin ((K (F := F)).nSub 0) => iprop(iPts fi d (wid (coreOf c) (sV i)) ∗ oPts d (wid (coreOf c) (sV i)) (oDone fi ft d)))
              ∗ tPts ft d (coreOf c)) ∗ ownBufs (S d (coreOf c)))))
  simp only [bigSep_sep']
  rw [goExtra_all, tdExtra_all, ownBufs_S]
  iintro ⟨⟨⟨HA, HB⟩, Ht⟩, Hsh, Hrest⟩; imodintro
  isplitl [HA HB Ht Hsh]
  · isplitl [HA]; · iexact HA
    isplitl [HB]; · iexact HB
    isplitl [Ht]; · iexact Ht
    iexact Hsh
  iintro ⟨HA, HB, ⟨Ht, Hd⟩, HX⟩
  isplitl [HA HB Ht]
  · isplitl [HA HB]
    · isplitl [HA]; · iexact HA
      iexact HB
    iexact Ht
  isplitl [Hd HX]
  · iapply (shToks_join (F := F) d (coreOf c))
    isplitl [Hd]; · iexact Hd
    iexact HX
  iexact Hrest

end Cert.Proof.KB

end
-- ==== Proof.BElem.lean ====
/-
  The ghost state the run starts from, and what it is dealt out as. The handshakes' rounds are the launch's own. The
  barrier cells — one per tile — get one round each, of sixteen unit duties, one per tile of the SparseCore: their
  counters start at zero, their invariants are allocated at once, and each tile is dealt its kit: every cell's invariant
  of its SparseCore and that each has reached round 0, its own position, its duty token in every tile's round, and the
  credit for the sixteen units of its own cell.
-/
import proofs.«205114_g12446815224155_cont_fleet_488_32_alg».proof.Proof.BSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S3276800 EltTy.i32)
local notation "tV" => (Memref.whole Cert.Kernel.main_arg1_scv : Memref Cert.Kernel.sig Kind.scVector Space.hbm Cert.Kernel.S3x128 EltTy.f32)
local notation "oV" => (Memref.whole Cert.Kernel.main_v1_scv : Memref Cert.Kernel.sig Kind.scVector Space.hbm Cert.Kernel.S25600x128x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)

variable (fi : (d : Dev nD) → Buf (Elt F) (idxLoc d)) (ft : (d : Dev nD) → Buf (Elt F) (tabLoc d)) (fo : (d : Dev nD) → Buf (Elt F) (oLoc d))
variable [FloatOps F]

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile i's token in tile j's cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) ft) g 0)
    ⊢ |={Set.univ}=> iprop(∃ κ : GSem nD τ sig → ℕ, bigSep bCells fun g => cellInv EB (bRd (F := F) ft) (κ g) g) := by
  refine (Rounds.bodies_intro EB (bRd (F := F) ft) bCells).trans ((inv_alloc_family bCells (Rounds.body EB (bRd (F := F) ft)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P (F := F) fi ft fo).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) fi ft fo).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) fi ft fo).oxFrom 0 (V d c i) = oxV d c := fun i => by
    rw [show (0 : ℕ) = (0 : Fin 1).val from rfl, (P fi ft fo).oxFrom_step, (P fi ft fo).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) fi ft fo).x q (SparseCore.T d)) = iprop(emp) :=
  bigSep_univ_of_subsingleton (0 : Fin 1)
theorem Px_S (d : Dev nD) (c : Fin τ.nSC) : (bigSep Finset.univ fun q : Fin 1 => (P (F := F) fi ft fo).x q (S d c)) = iprop(emp) :=
  bigSep_univ_of_subsingleton (0 : Fin 1)
theorem Px_V (d : Dev nD) (c : Fin τ.nSC) (i : Fin τ.nSub) :
    (bigSep Finset.univ fun q : Fin 1 => (P (F := F) fi ft fo).x q (V d c i)) = bkit ft d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) ft) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) ft ∗ mine (F := F) dci) ⊢ (bkit (F := F) ft dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) ft) (κ (bcell₃ x)) (bcell₃ x)) fun j _ =>
        sep_elim_left.trans (bigSep_elim (Φ := fun x : DCI => (cellInv EB (bRd (F := F) ft) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) ft ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) fi ft fo).x q thr : sProp 𝕄) := by
  rw [SparseCore.Cfg.bigSep_threads (fun thr : Thread nD τ => bigSep Finset.univ fun q : Fin 1 => (P fi ft fo).x q thr)]
  simp only [Px_T, Px_S, Px_V, bigSep_emp']
  iintro ⟨#Hsh, Hat, Htok, Hcred⟩
  isplitr; · iempintro
  isplitr; · iempintro
  iapply (bigSep_mono_frame (R := shared (F := F) ft) (Φ := mine (F := F)) fun dci _ => kit_intro (F := F) ft dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) fi ft fo).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P fi ft fo).x q thr) : sProp 𝕄) := by
  unfold u₀
  iintro ⟨Hu, Hcred, Hfree⟩
  ihave H := (ownU_split _ _) $$ Hu
  icases H with ⟨HH, HB⟩
  imod (Rounds.fund EB (bRd (F := F) ft) bCells bToks) $$ HB with ⟨Hst, #Hr, Hat, Htok⟩
  ihave Hsems := (sems_b (F := F)) $$ Hfree
  imod (invs_b (F := F) ft) $$ [Hsems Hst] with ⟨%κ, #Hinv⟩
  · isplitl [Hsems] <;> iassumption
  ihave Hcred' := (creds_b fi ft fo) $$ Hcred
  ihave Hinv' := (Entails.of_eq (bCells_eq (F := F) fun g => cellInv EB (bRd (F := F) ft) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal fi ft fo)
  isplitr
  · isplitl; · iexists κ; iexact Hinv'
    iexact Hr'
  isplitl [Hat']; · iexact Hat'
  isplitl [Htok']; · iexact Htok'
  iexact Hcred'

end Cert.Proof.KB

end
-- ==== Proof.BRes.lean ====
/-
  The arrays the one call works on, read off the memory the program starts from, and the result it ends with. The first
  host operation writes the list of row numbers as one flat list: the argument's 16384 × 200 words in row-major order.
  The table and the result's buffer are as the starting memory has them. The last host operation writes the lookup's
  25600 blocks of 128 rows of 128 entries in row-major order at the shape 16384 × 200 × 128.
-/
import proofs.«205114_g12446815224155_cont_fleet_488_32_alg».proof.Proof.BSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

/-- The flat list of row numbers the call reads: the argument in row-major order. -/
abbrev fiOf (m : (ℓ : Loc nD τ sig) → Buf (Elt F) ℓ) (d : Dev nD) : Buf (Elt F) (idxLoc d) :=
  shapeCast S3276800 (m ((SparseCore.T d).loc main_arg0)) Cert.Kernel.Gen.shapeCasts_S16384x200_S3276800
/-- The table, as the starting memory has it. -/
abbrev ftOf (m : (ℓ : Loc nD τ sig) → Buf (Elt F) ℓ) (d : Dev nD) : Buf (Elt F) (tabLoc d) := m (tabLoc d)
/-- The result's buffer, as the starting memory has it. -/
abbrev foOf (m : (ℓ : Loc nD τ sig) → Buf (Elt F) ℓ) (d : Dev nD) : Buf (Elt F) (oLoc d) := m (oLoc d)
/-- What the program ends with: the lookup on the flat arrays, in row-major order at the result's shape. -/
abbrev resOf (m : (ℓ : Loc nD τ sig) → Buf (Elt F) ℓ) (c : Dev nD) : Buf (Elt F) ((c.tc : Thread nD τ).loc main_v2) :=
  shapeCast S16384x200x128 (Cert.Spec.look (fiOf m c) (ftOf m c)) Cert.Kernel.Gen.shapeCasts_S25600x128x128_S16384x200x128

end Cert.Proof.KB

end
-- ==== Proof.BMain.lean ====
/-
  The program on the TensorCore. The first host operation writes the argument's words, in row-major order, as the flat
  list the call reads. The call is handed, for each SparseCore, its sixteen workers' read shares of the list and their
  blocks of the result, and its half of the table's share: the list's share is split into thirty-two read shares and a
  remainder kept here, the result into the thirty-two workers' blocks — worker 2 s + c is tile s of SparseCore c, and the
  pairs (c, s) are the thirty-two workers once each —, the table's share into its two halves. The call brings all of it
  back with the result at the lookup; the pieces are joined, and the last host operation writes the lookup in row-major
  order at the result's shape. The two arguments are as they were.
-/
import proofs.«205114_g12446815224155_cont_fleet_488_32_alg».proof.Proof.BRes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}
open Idealize.ShloMosaic.StableHlo (held held_split held_sdiff_result wp_hlo_within)

local notation "𝕄" => MT nD τ sig (HIx 1) (Elt F) ℕ UU ℕ
local notation "iV" => (Memref.whole Cert.Kernel.main_v0_scv : Memref Cert.Kernel.sig Kind.scVector Space.hbm Cert.Kernel.S3276800 EltTy.i32)
local notation "tV" => (Memref.whole Cert.Kernel.main_arg1_scv : Memref Cert.Kernel.sig Kind.scVector Space.hbm Cert.Kernel.S3x128 EltTy.f32)
local notation "oV" => (Memref.whole Cert.Kernel.main_v1_scv : Memref Cert.Kernel.sig Kind.scVector Space.hbm Cert.Kernel.S25600x128x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)

variable (m : (ℓ : Loc nD τ sig) → Buf (Elt F) ℓ) (ρ : Dev nD → PrngReg)
variable (fi : (d : Dev nD) → Buf (Elt F) (idxLoc d)) (ft : (d : Dev nD) → Buf (Elt F) (tabLoc d)) (fo : (d : Dev nD) → Buf (Elt F) (oLoc d))

/-! ## The thirty-two workers are the pairs of a SparseCore and a tile -/

/-- Worker 2 s + c is tile s of SparseCore c: the pairs are the workers, once each. -/
def widE : Fin ((K (F := F)).nCore 0) × Fin ((K (F := F)).nSub 0) ≃ Fin 32 where
  toFun p := wid (coreOf p.1) (sV p.2)
  invFun w := ((⟨w.val % 2, (Nat.mod_lt _ (by decide) : w.val % 2 < 2)⟩ : Fin ((K (F := F)).nCore 0)),
    (⟨w.val / 2, (by have := w.isLt; omega : w.val / 2 < 16)⟩ : Fin ((K (F := F)).nSub 0)))
  left_inv p := by
    obtain ⟨c, i⟩ := p
    have hc : c.val < 2 := c.isLt
    have hi : i.val < 16 := i.isLt
    refine Prod.ext (Fin.ext ?_) (Fin.ext ?_)
    · show (i.val * 2 + c.val) % 2 = c.val; omega
    · show (i.val * 2 + c.val) / 2 = i.val; omega
  right_inv w := by
    refine Fin.ext ?_
    show (w.val / 2) * 2 + w.val % 2 = w.val; omega

/-- A family over the workers, taken SparseCore by SparseCore and tile by tile. -/
theorem bigSep_wid (Φ : Fin 32 → sProp 𝕄) :
    (bigSep Finset.univ fun c : Fin ((K (F := F)).nCore 0) => bigSep Finset.univ fun i : Fin ((K (F := F)).nSub 0) => Φ (wid (coreOf c) (sV i))) = bigSep Finset.univ Φ := by
  rw [← bigSep_univ_prod (fun p : Fin ((K (F := F)).nCore 0) × Fin ((K (F := F)).nSub 0) => Φ (wid (coreOf p.1) (sV p.2)))]
  exact (bigSep_univ_equiv (widE (F := F)) Φ).symm

/-! ## The result's blocks, the list's read shares, the table's halves -/

theorem oSet_eq (w : Fin 32) : oSet w = (oPart w).set := by
  show ((View.whole (main_v1_scv : Ref sig .scVector)).slice (oPart w)).set = _
  rw [View.set_slice]; exact Finset.map_refl
theorem oSets_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint hdivO h
theorem oSets_cover : (Finset.univ : Finset (Fin 32)).biUnion oSet = Finset.univ :=
  (Finset.biUnion_congr rfl fun i _ => oSet_eq i).trans (Rect.biUnion_part hdivO)

/-- The result whole is its thirty-two workers' blocks. -/
theorem oPts_parts (d : Dev nD) (f : Buf (Elt F) (oLoc d)) :
    (oLoc d ↦{fullShare} f : sProp 𝕄) = bigSep Finset.univ fun w : Fin 32 => oPts d w f := by
  rw [← pointsTo_biUnion Finset.univ (ℓ := oLoc d) oSet oSets_disjoint, oSets_cover]; try rfl

/-- The list's share is what remains beside thirty-two read shares, and those. -/
theorem iPts_toks (d : Dev nD) :
    (idxLoc d ↦{fullShare} fi d : sProp 𝕄) ⊣⊢ iprop((idxLoc d ↦{shareDrop fullShare 32} fi d) ∗ bigSep Finset.univ fun w : Fin 32 => iPts fi d w) :=
  Transfers.pointsTo_toks fullShare 32

/-- The table's share is its two halves, one per SparseCore. -/
theorem tPts_halves (d : Dev nD) :
    (tabLoc d ↦{fullShare} ft d : sProp 𝕄) ⊣⊢ iprop((bigSep Finset.univ fun c : Fin ((K (F := F)).nCore 0) => tPts ft d (coreOf c))) := by
  show _ ⊣⊢ bigSep (Finset.univ : Finset (Fin 2)) fun c => tPts ft d (coreOf c)
  rw [bigSep_univ_two]
  exact pointsTo_share (PosShare.mem_left_op_right fullShare)

variable [FloatOps F]

/-- What the call takes for its two SparseCores: the thirty-two read shares of the list, the thirty-two blocks of the
    result, the table's share. -/
theorem st0_eq (d : Dev nD) : (bigSep Finset.univ fun c : Fin ((K (F := F)).nCore 0) => (P fi ft fo).st 0 d c)
    = iprop(((bigSep Finset.univ fun w : Fin 32 => iPts fi d w) ∗ (oLoc d ↦{fullShare} fo d))
        ∗ bigSep Finset.univ fun c : Fin ((K (F := F)).nCore 0) => tPts ft d (coreOf c)) := by
  show (bigSep Finset.univ fun c : Fin ((K (F := F)).nCore 0) =>
      iprop((bigSep Finset.univ fun i : Fin ((K (F := F)).nSub 0) => iprop(iPts fi d (wid (coreOf c) (sV i)) ∗ oPts d (wid (coreOf c) (sV i)) (fo d))) ∗ tPts ft d (coreOf c))) = _
  rw [bigSep_sep', bigSep_wid (F := F) (fun w => iprop(iPts fi d w ∗ oPts d w (fo d))), bigSep_sep', oPts_parts]
/-- What it brings back: the same with the result at the lookup. -/
theorem dn0_eq (d : Dev nD) : (bigSep Finset.univ fun c : Fin ((K (F := F)).nCore 0) => (P fi ft fo).dn 0 d c)
    = iprop(((bigSep Finset.univ fun w : Fin 32 => iPts fi d w) ∗ (oLoc d ↦{fullShare} oDone fi ft d))
        ∗ bigSep Finset.univ fun c : Fin ((K (F := F)).nCore 0) => tPts ft d (coreOf c)) := by
  show (bigSep Finset.univ fun c : Fin ((K (F := F)).nCore 0) =>
      iprop((bigSep Finset.univ fun i : Fin ((K (F := F)).nSub 0) => iprop(iPts fi d (wid (coreOf c) (sV i)) ∗ oPts d (wid (coreOf c) (sV i)) (oDone fi ft d))) ∗ tPts ft d (coreOf c))) = _
  rw [bigSep_sep', bigSep_wid (F := F) (fun w => iprop(iPts fi d w ∗ oPts d w (oDone fi ft d))), bigSep_sep', oPts_parts]

/-! ## The host operations -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev a0Loc (d : Dev nD) : Loc nD τ sig := (SparseCore.T d).loc main_arg0
abbrev v2Loc (d : Dev nD) : Loc nD τ sig := (SparseCore.T d).loc main_v2
/-- The two host operations: the argument to the flat list, the result's blocks to the result's shape. -/
abbrev opIn : HloOp τ sig (Elt F) := StableHlo.reshape main_arg0 main_v0 rfl shapeCasts_S16384x200_S3276800
abbrev opOut : HloOp τ sig (Elt F) := StableHlo.reshape main_v1 main_v2 rfl shapeCasts_S25600x128x128_S16384x200x128

/-- The TensorCore's arrays, all unscoped. -/
abbrev S5 : Finset (DevRef τ sig) := {a0', a1', v0', v1', v2'}

omit [FloatOps F] in
theorem held_S5 (d : Dev nD) (W : Valuation τ sig (Elt F)) :
    (held (T d) S5 W : sProp 𝕄)
      = iprop((a0Loc d ↦{fullShare} W a0') ∗ (tabLoc d ↦{fullShare} W a1') ∗ (idxLoc d ↦{fullShare} W v0')
          ∗ (oLoc d ↦{fullShare} W v1') ∗ v2Loc d ↦{fullShare} W v2') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (tabLoc d ↦{fullShare} W main_arg1) ∗ (idxLoc d ↦{fullShare} W main_v0)
          ∗ (oLoc d ↦{fullShare} W main_v1) ∗ v2Loc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The contents at the launch, after the first host operation, and before the last: the result's blocks at the lookup. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) v1' (oDone (fiOf m) (ftOf m) d)

omit [FloatOps F] in
theorem unscoped_held (d : Dev nD) : (unscopedBufs d (fun b => m ((SparseCore.T d).loc b)) : sProp 𝕄) = held (T d) S5 (V0 m d) := by
  rw [unscopedBufs_eq, held_S5]; rfl

omit [FloatOps F] in
theorem V1_a0 (d : Dev nD) : V1 m d a0' = m (a0Loc d) :=
  ((opIn (F := F)).result_of_not_mem _ (show a0' ∉ ({v0'} : Finset (DevRef τ sig)) by decide)).trans rfl
omit [FloatOps F] in
theorem V1_a1 (d : Dev nD) : V1 m d a1' = ftOf m d :=
  ((opIn (F := F)).result_of_not_mem _ (show a1' ∉ ({v0'} : Finset (DevRef τ sig)) by decide)).trans rfl
omit [FloatOps F] in
theorem V1_v1 (d : Dev nD) : V1 m d v1' = foOf m d :=
  ((opIn (F := F)).result_of_not_mem _ (show v1' ∉ ({v0'} : Finset (DevRef τ sig)) by decide)).trans rfl
omit [FloatOps F] in
theorem V1_v2 (d : Dev nD) : V1 m d v2' = m (v2Loc d) :=
  ((opIn (F := F)).result_of_not_mem _ (show v2' ∉ ({v0'} : Finset (DevRef τ sig)) by decide)).trans rfl
omit [FloatOps F] in
/-- The first host operation writes the flat list. -/
theorem V1_v0 (d : Dev nD) : V1 m d v0' = fiOf m d :=
  (StableHlo.reshape_result main_arg0 main_v0 rfl shapeCasts_S16384x200_S3276800 ⟨by decide, rfl⟩ ⟨by decide, rfl⟩ (V0 m d)).trans rfl

theorem V2_a0 (d : Dev nD) : V2 m d a0' = m (a0Loc d) := (Function.update_of_ne (show a0' ≠ v1' by decide) _ _).trans (V1_a0 m d)
theorem V2_a1 (d : Dev nD) : V2 m d a1' = ftOf m d := (Function.update_of_ne (show a1' ≠ v1' by decide) _ _).trans (V1_a1 m d)
theorem V2_v0 (d : Dev nD) : V2 m d v0' = fiOf m d := (Function.update_of_ne (show v0' ≠ v1' by decide) _ _).trans (V1_v0 m d)
theorem V2_v1 (d : Dev nD) : V2 m d v1' = oDone (fiOf m) (ftOf m) d := Function.update_self _ _ _
theorem V2_v2 (d : Dev nD) : V2 m d v2' = m (v2Loc d) := (Function.update_of_ne (show v2' ≠ v1' by decide) _ _).trans (V1_v2 m d)

theorem V3_a0 (d : Dev nD) : (opOut (F := F)).result (V2 m d) a0' = m (a0Loc d) :=
  ((opOut (F := F)).result_of_not_mem _ (show a0' ∉ ({v2'} : Finset (DevRef τ sig)) by decide)).trans (V2_a0 m d)
theorem V3_a1 (d : Dev nD) : (opOut (F := F)).result (V2 m d) a1' = ftOf m d :=
  ((opOut (F := F)).result_of_not_mem _ (show a1' ∉ ({v2'} : Finset (DevRef τ sig)) by decide)).trans (V2_a1 m d)
/-- The last host operation writes the lookup at the result's shape. -/
theorem V3_v2 (d : Dev nD) : (opOut (F := F)).result (V2 m d) v2' = resOf m d := by
  rw [StableHlo.reshape_result main_v1 main_v2 rfl shapeCasts_S25600x128x128_S16384x200x128 ⟨by decide, rfl⟩ ⟨by decide, rfl⟩ (V2 m d)]
  show (fun i => shapeCast S16384x200x128 (V2 m d v1') shapeCasts_S25600x128x128_S16384x200x128 i) = _
  rw [V2_v1]; rfl

theorem hIn : (opIn (F := F)).bufs ⊆ S5 := show ({a0', v0'} : Finset (DevRef τ sig)) ⊆ S5 by decide
theorem hOut : (opOut (F := F)).bufs ⊆ S5 := show ({v1', v2'} : Finset (DevRef τ sig)) ⊆ S5 by decide

/-- What @main leaves the claim: the result at the lookup in the result's shape, the two arguments as they were. -/
abbrev FIN (d : Dev nD) : sProp 𝕄 :=
  iprop((v2Loc d ↦{fullShare} resOf m d) ∗ (a0Loc d ↦{fullShare} m (a0Loc d)) ∗ tabLoc d ↦{fullShare} m (tabLoc d))

theorem held_V1 (d : Dev nD) :
    (held (T d) S5 ((opIn (F := F)).result (V0 m d)) : sProp 𝕄)
      = iprop((a0Loc d ↦{fullShare} m (a0Loc d)) ∗ (tabLoc d ↦{fullShare} ftOf m d) ∗ (idxLoc d ↦{fullShare} fiOf m d)
          ∗ (oLoc d ↦{fullShare} foOf m d) ∗ v2Loc d ↦{fullShare} m (v2Loc d)) := by
  show held (SparseCore.T d) S5 (V1 m d) = _
  rw [held_S5, V1_a0, V1_a1, V1_v0, V1_v1, V1_v2]
theorem held_V2 (d : Dev nD) :
    (held (T d) S5 (V2 m d) : sProp 𝕄)
      = iprop((a0Loc d ↦{fullShare} m (a0Loc d)) ∗ (tabLoc d ↦{fullShare} ftOf m d) ∗ (idxLoc d ↦{fullShare} fiOf m d)
          ∗ (oLoc d ↦{fullShare} oDone (fiOf m) (ftOf m) d) ∗ v2Loc d ↦{fullShare} m (v2Loc d)) := by
  rw [held_S5, V2_a0, V2_a1, V2_v0, V2_v1, V2_v2]
theorem held_V3 (d : Dev nD) :
    (held (T d) S5 ((opOut (F := F)).result (V2 m d)) : sProp 𝕄)
      = iprop((a0Loc d ↦{fullShare} m (a0Loc d)) ∗ (tabLoc d ↦{fullShare} ftOf m d) ∗ (idxLoc d ↦{fullShare} (opOut (F := F)).result (V2 m d) v0')
          ∗ (oLoc d ↦{fullShare} (opOut (F := F)).result (V2 m d) v1') ∗ v2Loc d ↦{fullShare} resOf m d) := by
  rw [held_S5, V3_a0, V3_a1, V3_v2]

/-- @main on device d's TensorCore: the first host operation, the call, the last host operation. -/
theorem hmain (κ : GSem nD τ sig → ℕ) (d : Dev nD) :
    iprop((K (F := F)).ctx EH (P (fiOf m) (ftOf m) (foOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first host operation writes the flat list
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha0, Ha1, Hv0, Hv1, Hv2⟩
  -- the call: the list's read shares, the result's blocks, the table's halves, to the two SparseCores and back
  ihave Hi := (iPts_toks (F := F) (fiOf m) d).1 $$ Hv0
  icases Hi with ⟨Hrem, Htoks⟩
  ihave Ht := (tPts_halves (F := F) (ftOf m) d).1 $$ Ha1
  iapply ((K (F := F)).wp_run (D (F := F)) 𝒱 (EH := EH) (P := P (fiOf m) (ftOf m) (foOf m)) κ d 0) $$ [Hst Htoks Hv1 Ht Hb Ha0 Hrem Hv2]
  isplitr; · iexact Hctx
  isplitl [Hst]; · iexact Hst
  isplitl [Htoks Hv1 Ht]
  · rw [st0_eq]
    isplitl [Htoks Hv1]
    · isplitl [Htoks]; · iexact Htoks
      iexact Hv1
    iexact Ht
  iintro ⟨Hst, Hdn⟩
  ihave Hdn' := (Entails.of_eq (dn0_eq (F := F) (fiOf m) (ftOf m) (foOf m) d)) $$ Hdn
  icases Hdn' with ⟨⟨Htoks, Hv1⟩, Ht⟩
  ihave Hv0 := (iPts_toks (F := F) (fiOf m) d).2 $$ [Hrem Htoks]
  · isplitl [Hrem]; · iexact Hrem
    iexact Htoks
  ihave Ha1 := (tPts_halves (F := F) (ftOf m) d).2 $$ Ht
  -- the last host operation writes the lookup at the result's shape
  iapply (wp_hlo_within 𝒱 (SparseCore.T d) none Set.univ (op := opOut) (S := S5) hOut (V := V2 m d)) $$ [Hb Ha0 Ha1 Hv0 Hv1 Hv2]
  · isplitl [Hb]; · iexact Hb
    rw [held_V2]
    isplitl [Ha0]; · iexact Ha0
    isplitl [Ha1]; · iexact Ha1
    isplitl [Hv0]; · iexact Hv0
    isplitl [Hv1]; · iexact Hv1
    iexact Hv2
  iintro ⟨Hb, Hheld⟩
  ihave Hh := (Entails.of_eq (held_V3 (F := F) m d)) $$ Hheld
  icases Hh with ⟨Ha0, Ha1, -, -, Hv2⟩
  rw [wp_ret]; imodintro; imodintro
  isplitl [Hst]; · iexact Hst
  isplitl [Hv2]; · iexact Hv2
  isplitl [Ha0]; · iexact Ha0
  iexact Ha1

/-- What the final memory then reads. -/
def fq (d : Dev nD) (s' : Phys nD τ sig (Elt F)) : Prop :=
  s'.mem.mem (v2Loc d) = resOf m d ∧ s'.mem.mem (a0Loc d) = m (a0Loc d) ∧ s'.mem.mem (tabLoc d) = m (tabLoc d)

theorem hfin (d : Dev nD) (s' : Phys nD τ sig (Elt F)) : iprop(FIN m d ∗ SI s') ⊢ (⌜fq m d s'⌝ : sProp 𝕄) := by
  iintro ⟨⟨H2, H0, H1⟩, HSI⟩
  ihave H := (persistent_entails_right (SI_pointsTo_agree (st := s') (ℓ := v2Loc d) (I := Finset.univ) (q := fullShare) (f := resOf m d))) $$ [HSI H2]
  · isplitl [HSI] <;> iassumption
  icases H with ⟨%h2, HSI, -⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (SI_pointsTo_agree (st := s') (ℓ := tabLoc d) (I := Finset.univ) (q := fullShare) (f := m (tabLoc d))) $$ [HSI H1]
  · isplitl [HSI] <;> iassumption
  icases H with %h1
  ipureintro
  exact ⟨funext fun i => h2 i (Finset.mem_univ i), funext fun i => h0 i (Finset.mem_univ i), funext fun i => h1 i (Finset.mem_univ i)⟩

end Cert.Proof.KB

end
-- ==== Proof.BRun.lean ====
/-
  The program's run. Every tile's task proved at any place of the grid gives the run of the whole program — the
  TensorCore, the two sequencers and the thirty-two tiles, under every fair interleaving —: it ends, and it ends with the
  result at the lookup on the flat list the first host operation wrote, in row-major order at the result's shape, and
  with the two arguments as they were.
-/
import proofs.«205114_g12446815224155_cont_fleet_488_32_alg».proof.Proof.BObl
import proofs.«205114_g12446815224155_cont_fleet_488_32_alg».proof.Proof.BSplit
import proofs.«205114_g12446815224155_cont_fleet_488_32_alg».proof.Proof.BElem
import proofs.«205114_g12446815224155_cont_fleet_488_32_alg».proof.Proof.BMain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

theorem run_main [∀ e, Nonempty (Elt F e)] (m : (ℓ : Loc nD τ sig) → Buf (Elt F) ℓ) (ρ : Dev nD → PrngReg)
    (hr : InRange (F := F) (fiOf m)) (htb : TileBody (F := F) (fiOf m) (ftOf m) (foOf m)) :
    θ_run (Cert.Kernel.defs (F := F)) (Cert.Kernel.threads (F := F)) ⟨m, fun _ => 0, ρ⟩ (fun r => ∀ c : Dev nD,
      r.2.mem ((c.tc : Thread nD τ).loc main_v2) = resOf m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P (fiOf m) (ftOf m) (foOf m)) facts v₀
    (fun q hq => match q with | 0 => nomatch hq)
    (fun q _ => match q with | 0 => tileObl (fiOf m) (ftOf m) (foOf m) facts htb)
    (fun q _ => match q with | 0 => vecSplit (fiOf m) (ftOf m) (foOf m))
    m ρ main (fun _ => iprop(emp)) (FIN m) (u₀ (F := F)) (hu₀ (fiOf m) (ftOf m) (foOf m)) (hmain m ρ) (fq m) (hfin m) _ (fun _ h => h)

end Cert.Proof.KB

end
-- ==== Proof.Claims.lean ====
import proofs.«205114_g12446815224155_cont_fleet_488_32_alg».proof.Defs
import proofs.«205114_g12446815224155_cont_fleet_488_32_alg».proof.Proof.Gen.Kernel
import proofs.«205114_g12446815224155_cont_fleet_488_32_alg».proof.Proof.Gen.KernelIdeal
import proofs.«205114_g12446815224155_cont_fleet_488_32_alg».proof.Proof.Gen.ReferenceIdeal
import proofs.«205114_g12446815224155_cont_fleet_488_32_alg».proof.Proof.Gen.Pre_input_domain
import proofs.«205114_g12446815224155_cont_fleet_488_32_alg».proof.Proof.Spec
import proofs.«205114_g12446815224155_cont_fleet_488_32_alg».proof.Proof.PreRange
import proofs.«205114_g12446815224155_cont_fleet_488_32_alg».proof.Proof.RefRun
import proofs.«205114_g12446815224155_cont_fleet_488_32_alg».proof.Proof.Bridge
import proofs.«205114_g12446815224155_cont_fleet_488_32_alg».proof.Proof.KRun
import proofs.«205114_g12446815224155_cont_fleet_488_32_alg».proof.Proof.BRun

/-!
  The certificate's claims, each from one tile's task as a hypothesis. The reference computes the lookup; the kernel,
  given every tile's task, ends with the lookup on the flat arrays regrouped, which is the lookup; so the two results
  are equal, and each program leaves its arguments as they were.
-/

noncomputable section

namespace Cert.Proof.Claims

open Idealize.ShloMosaic Idealize.SL.Sem

/-- Nothing was rewritten between the kernel and its idealization. -/
theorem preserves : Cert.preserves_Kernel_KernelIdeal := trivial

/-- The reference runs and leaves its arguments unchanged. -/
theorem frame_ri : Cert.frame_ReferenceIdeal (hReferenceIdeal := Cert.ReferenceIdeal.Gen.facts) (hPre_input_domain := Cert.Pre_input_domain.Gen.facts) :=
  fun m g hpre => (θ_run _ _ _).mono (fun _ h c => ⟨(h c).2.1, (h c).2.2⟩) (Cert.RefSide.run m g hpre)

/-- Under the precondition every word of the flat list of row numbers is between 0 and 2: the flat list's word j is the
    argument's word at the index of the same row-major position. -/
theorem inRange_of_pre (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) :
    Cert.Proof.KI.InRange (F := Ideal) (Cert.Proof.KI.fiOf m) :=
  fun d j => Cert.PreRange.idx_range _ _ (hpre d) (Shape.reshapeEquiv Cert.KernelIdeal.Gen.shapeCasts_S16384x200_S3276800 j)

/-- What the kernel ends with is the lookup of the table at the index array. -/
theorem resOf_eq (m : (ℓ : Loc Cert.KernelIdeal.nD Cert.KernelIdeal.τ Cert.KernelIdeal.sig) → Buf (Elt Ideal) ℓ) (c : Dev Cert.KernelIdeal.nD) :
    Cert.Proof.KI.resOf m c
      = Cert.Spec.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
  Cert.Bridge.look_reshape _ _ _ _

/-- The idealized kernel runs and leaves its arguments unchanged, given every tile's task on lists of row numbers between 0 and 2. -/
theorem frame_ki (hb : ∀ m : (ℓ : Loc Cert.KernelIdeal.nD Cert.KernelIdeal.τ Cert.KernelIdeal.sig) → Buf (Elt Ideal) ℓ,
      Cert.Proof.KI.InRange (F := Ideal) (Cert.Proof.KI.fiOf m) →
      Cert.Proof.KI.TileBody (F := Ideal) (Cert.Proof.KI.fiOf m) (Cert.Proof.KI.ftOf m) (Cert.Proof.KI.foOf m)) :
    Cert.frame_KernelIdeal (hKernelIdeal := Cert.KernelIdeal.Gen.facts) (hPre_input_domain := Cert.Pre_input_domain.Gen.facts) :=
  fun m g hpre => (θ_run _ _ _).mono (fun _ h c => ⟨(h c).2.1, (h c).2.2⟩)
    (Cert.Proof.KI.run_main m g (inRange_of_pre m hpre) (hb m (inRange_of_pre m hpre)))

/-- The idealized kernel and the reference end with equal results, given every tile's task: both are the lookup. -/
theorem algebraic (hb : ∀ m : (ℓ : Loc Cert.KernelIdeal.nD Cert.KernelIdeal.τ Cert.KernelIdeal.sig) → Buf (Elt Ideal) ℓ,
      Cert.Proof.KI.InRange (F := Ideal) (Cert.Proof.KI.fiOf m) →
      Cert.Proof.KI.TileBody (F := Ideal) (Cert.Proof.KI.fiOf m) (Cert.Proof.KI.ftOf m) (Cert.Proof.KI.foOf m)) :
    Cert.algebraic_KernelIdeal_ReferenceIdeal (hKernelIdeal := Cert.KernelIdeal.Gen.facts) (hReferenceIdeal := Cert.ReferenceIdeal.Gen.facts)
      (hPre_input_domain := Cert.Pre_input_domain.Gen.facts) := by
  intro m g m' g' hpre hagree
  have hpre' : Cert.Pre_ReferenceIdeal (hPre_input_domain := Cert.Pre_input_domain.Gen.facts) m' := fun c => by
    have h := hpre c
    rw [← (hagree c).1, ← (hagree c).2] at h
    exact h
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run _ _ _).mono (fun _ h c => ⟨(h c).1.trans (resOf_eq m c), (h c).2.1, (h c).2.2⟩)
      (Cert.Proof.KI.run_main m g (inRange_of_pre m hpre) (hb m (inRange_of_pre m hpre)))
  · refine (θ_run _ _ _).mono (fun _ h c => ⟨(h c).1.trans ?_, (h c).2.1, (h c).2.2⟩) (Cert.RefSide.run m' g' hpre')
    rw [(hagree c).1, (hagree c).2]

/-! ## The same at the words the kernel computes on -/

/-- Under the precondition every word of the flat list of row numbers is between 0 and 2, at any float values. -/
theorem inRange_of_pre_bits (m : (ℓ : Loc Cert.Kernel.nD Cert.Kernel.τ Cert.Kernel.sig) → Buf (Elt Bits) ℓ)
    (hpre : Cert.Pre_Kernel (hPre_input_domain := Cert.Pre_input_domain.Gen.facts) m) :
    Cert.Proof.KB.InRange (F := Bits) (Cert.Proof.KB.fiOf m) :=
  fun d j => Cert.PreRange.idx_range _ _ (hpre d) (Shape.reshapeEquiv Cert.Kernel.Gen.shapeCasts_S16384x200_S3276800 j)

/-- The kernel runs and leaves its arguments unchanged, given every tile's task. -/
theorem frame_k (hb : ∀ m : (ℓ : Loc Cert.Kernel.nD Cert.Kernel.τ Cert.Kernel.sig) → Buf (Elt Bits) ℓ,
      Cert.Proof.KB.InRange (F := Bits) (Cert.Proof.KB.fiOf m) →
      Cert.Proof.KB.TileBody (F := Bits) (Cert.Proof.KB.fiOf m) (Cert.Proof.KB.ftOf m) (Cert.Proof.KB.foOf m)) :
    Cert.frame_Kernel (hKernel := Cert.Kernel.Gen.facts) (hPre_input_domain := Cert.Pre_input_domain.Gen.facts) :=
  fun m g hpre => (θ_run _ _ _).mono (fun _ h c => ⟨(h c).2.1, (h c).2.2⟩)
    (Cert.Proof.KB.run_main m g (inRange_of_pre_bits m hpre) (hb m (inRange_of_pre_bits m hpre)))

end Cert.Proof.Claims

end
-- ==== Proof.KCells.lean ====
/-
  A tile's own scratch, by name. Its scoped semaphores at zero are the nine transfer semaphores of the task — the two
  the list's blocks arrive on, the four the gathers complete on, the two the result's blocks leave on, and the one the
  table's copy into the shared memory uses — each at zero, and the rest; its scoped buffers are the two-block buffer of
  row numbers and the two-by-two buffer of gathered rows, each whole at some contents, and the rest.
-/
import proofs.«205114_g12446815224155_cont_fleet_488_32_alg».proof.Proof.KSetup

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ

/-- The cell of one of a tile's transfer semaphores. -/
abbrev dcell (d : Dev nD) (c : Fin τ.nSC) (i : Fin τ.nSub) (s : DmaSems sig S_) : GSem nD τ sig := (V d c i, .dma s.sem)

theorem ownSems0_V (d : Dev nD) (c : Fin τ.nSC) (i : Fin τ.nSub) :
    (ownSems0 (V d c i) : sProp 𝕄)
      = iprop(semVal (dcell d c i cc0_scratch3) 0 ∗ semVal (dcell d c i cc0_scratch4) 0 ∗ semVal (dcell d c i cc0_scratch5) 0 ∗ semVal (dcell d c i cc0_scratch6) 0 ∗ semVal (dcell d c i cc0_scratch7) 0 ∗ semVal (dcell d c i cc0_scratch8) 0 ∗ semVal (dcell d c i cc0_scratch9) 0 ∗ semVal (dcell d c i cc0_scratch10) 0 ∗ semVal (dcell d c i cc0_scoped0) 0 ∗ bigSep ((((((((((ownCells (V d c i)).erase (dcell d c i cc0_scratch3)).erase (dcell d c i cc0_scratch4)).erase (dcell d c i cc0_scratch5)).erase (dcell d c i cc0_scratch6)).erase (dcell d c i cc0_scratch7)).erase (dcell d c i cc0_scratch8)).erase (dcell d c i cc0_scratch9)).erase (dcell d c i cc0_scratch10)).erase (dcell d c i cc0_scoped0)) fun g => semVal g 0) := by
  unfold SparseCore.Cfg.ownSems0
  rw [SparseCore.bigSep_erase' ((mem_ownCells (g := dcell d c i cc0_scratch3)).mpr ⟨rfl, by show (SemLoc.dma cc0_scratch3.sem : SemLoc sig).isScoped .scVector = true; decide⟩),
    SparseCore.bigSep_erase' (Finset.mem_erase.mpr ⟨(fun e => absurd (congrArg (fun g : GSem nD τ sig => g.2) e) (by show (SemLoc.dma cc0_scratch4.sem : SemLoc sig) ≠ SemLoc.dma cc0_scratch3.sem; decide)), (mem_ownCells (g := dcell d c i cc0_scratch4)).mpr ⟨rfl, by show (SemLoc.dma cc0_scratch4.sem : SemLoc sig).isScoped .scVector = true; decide⟩⟩),
    SparseCore.bigSep_erase' (Finset.mem_erase.mpr ⟨(fun e => absurd (congrArg (fun g : GSem nD τ sig => g.2) e) (by show (SemLoc.dma cc0_scratch5.sem : SemLoc sig) ≠ SemLoc.dma cc0_scratch4.sem; decide)), Finset.mem_erase.mpr ⟨(fun e => absurd (congrArg (fun g : GSem nD τ sig => g.2) e) (by show (SemLoc.dma cc0_scratch5.sem : SemLoc sig) ≠ SemLoc.dma cc0_scratch3.sem; decide)), (mem_ownCells (g := dcell d c i cc0_scratch5)).mpr ⟨rfl, by show (SemLoc.dma cc0_scratch5.sem : SemLoc sig).isScoped .scVector = true; decide⟩⟩⟩),
    SparseCore.bigSep_erase' (Finset.mem_erase.mpr ⟨(fun e => absurd (congrArg (fun g : GSem nD τ sig => g.2) e) (by show (SemLoc.dma cc0_scratch6.sem : SemLoc sig) ≠ SemLoc.dma cc0_scratch5.sem; decide)), Finset.mem_erase.mpr ⟨(fun e => absurd (congrArg (fun g : GSem nD τ sig => g.2) e) (by show (SemLoc.dma cc0_scratch6.sem : SemLoc sig) ≠ SemLoc.dma cc0_scratch4.sem; decide)), Finset.mem_erase.mpr ⟨(fun e => absurd (congrArg (fun g : GSem nD τ sig => g.2) e) (by show (SemLoc.dma cc0_scratch6.sem : SemLoc sig) ≠ SemLoc.dma cc0_scratch3.sem; decide)), (mem_ownCells (g := dcell d c i cc0_scratch6)).mpr ⟨rfl, by show (SemLoc.dma cc0_scratch6.sem : SemLoc sig).isScoped .scVector = true; decide⟩⟩⟩⟩),
    SparseCore.bigSep_erase' (Finset.mem_erase.mpr ⟨(fun e => absurd (congrArg (fun g : GSem nD τ sig => g.2) e) (by show (SemLoc.dma cc0_scratch7.sem : SemLoc sig) ≠ SemLoc.dma cc0_scratch6.sem; decide)), Finset.mem_erase.mpr ⟨(fun e => absurd (congrArg (fun g : GSem nD τ sig => g.2) e) (by show (SemLoc.dma cc0_scratch7.sem : SemLoc sig) ≠ SemLoc.dma cc0_scratch5.sem; decide)), Finset.mem_erase.mpr ⟨(fun e => absurd (congrArg (fun g : GSem nD τ sig => g.2) e) (by show (SemLoc.dma cc0_scratch7.sem : SemLoc sig) ≠ SemLoc.dma cc0_scratch4.sem; decide)), Finset.mem_erase.mpr ⟨(fun e => absurd (congrArg (fun g : GSem nD τ sig => g.2) e) (by show (SemLoc.dma cc0_scratch7.sem : SemLoc sig) ≠ SemLoc.dma cc0_scratch3.sem; decide)), (mem_ownCells (g := dcell d c i cc0_scratch7)).mpr ⟨rfl, by show (SemLoc.dma cc0_scratch7.sem : SemLoc sig).isScoped .scVector = true; decide⟩⟩⟩⟩⟩),
    SparseCore.bigSep_erase' (Finset.mem_erase.mpr ⟨(fun e => absurd (congrArg (fun g : GSem nD τ sig => g.2) e) (by show (SemLoc.dma cc0_scratch8.sem : SemLoc sig) ≠ SemLoc.dma cc0_scratch7.sem; decide)), Finset.mem_erase.mpr ⟨(fun e => absurd (congrArg (fun g : GSem nD τ sig => g.2) e) (by show (SemLoc.dma cc0_scratch8.sem : SemLoc sig) ≠ SemLoc.dma cc0_scratch6.sem; decide)), Finset.mem_erase.mpr ⟨(fun e => absurd (congrArg (fun g : GSem nD τ sig => g.2) e) (by show (SemLoc.dma cc0_scratch8.sem : SemLoc sig) ≠ SemLoc.dma cc0_scratch5.sem; decide)), Finset.mem_erase.mpr ⟨(fun e => absurd (congrArg (fun g : GSem nD τ sig => g.2) e) (by show (SemLoc.dma cc0_scratch8.sem : SemLoc sig) ≠ SemLoc.dma cc0_scratch4.sem; decide)), Finset.mem_erase.mpr ⟨(fun e => absurd (congrArg (fun g : GSem nD τ sig => g.2) e) (by show (SemLoc.dma cc0_scratch8.sem : SemLoc sig) ≠ SemLoc.dma cc0_scratch3.sem; decide)), (mem_ownCells (g := dcell d c i cc0_scratch8)).mpr ⟨rfl, by show (SemLoc.dma cc0_scratch8.sem : SemLoc sig).isScoped .scVector = true; decide⟩⟩⟩⟩⟩⟩),
    SparseCore.bigSep_erase' (Finset.mem_erase.mpr ⟨(fun e => absurd (congrArg (fun g : GSem nD τ sig => g.2) e) (by show (SemLoc.dma cc0_scratch9.sem : SemLoc sig) ≠ SemLoc.dma cc0_scratch8.sem; decide)), Finset.mem_erase.mpr ⟨(fun e => absurd (congrArg (fun g : GSem nD τ sig => g.2) e) (by show (SemLoc.dma cc0_scratch9.sem : SemLoc sig) ≠ SemLoc.dma cc0_scratch7.sem; decide)), Finset.mem_erase.mpr ⟨(fun e => absurd (congrArg (fun g : GSem nD τ sig => g.2) e) (by show (SemLoc.dma cc0_scratch9.sem : SemLoc sig) ≠ SemLoc.dma cc0_scratch6.sem; decide)), Finset.mem_erase.mpr ⟨(fun e => absurd (congrArg (fun g : GSem nD τ sig => g.2) e) (by show (SemLoc.dma cc0_scratch9.sem : SemLoc sig) ≠ SemLoc.dma cc0_scratch5.sem; decide)), Finset.mem_erase.mpr ⟨(fun e => absurd (congrArg (fun g : GSem nD τ sig => g.2) e) (by show (SemLoc.dma cc0_scratch9.sem : SemLoc sig) ≠ SemLoc.dma cc0_scratch4.sem; decide)), Finset.mem_erase.mpr ⟨(fun e => absurd (congrArg (fun g : GSem nD τ sig => g.2) e) (by show (SemLoc.dma cc0_scratch9.sem : SemLoc sig) ≠ SemLoc.dma cc0_scratch3.sem; decide)), (mem_ownCells (g := dcell d c i cc0_scratch9)).mpr ⟨rfl, by show (SemLoc.dma cc0_scratch9.sem : SemLoc sig).isScoped .scVector = true; decide⟩⟩⟩⟩⟩⟩⟩),
    SparseCore.bigSep_erase' (Finset.mem_erase.mpr ⟨(fun e => absurd (congrArg (fun g : GSem nD τ sig => g.2) e) (by show (SemLoc.dma cc0_scratch10.sem : SemLoc sig) ≠ SemLoc.dma cc0_scratch9.sem; decide)), Finset.mem_erase.mpr ⟨(fun e => absurd (congrArg (fun g : GSem nD τ sig => g.2) e) (by show (SemLoc.dma cc0_scratch10.sem : SemLoc sig) ≠ SemLoc.dma cc0_scratch8.sem; decide)), Finset.mem_erase.mpr ⟨(fun e => absurd (congrArg (fun g : GSem nD τ sig => g.2) e) (by show (SemLoc.dma cc0_scratch10.sem : SemLoc sig) ≠ SemLoc.dma cc0_scratch7.sem; decide)), Finset.mem_erase.mpr ⟨(fun e => absurd (congrArg (fun g : GSem nD τ sig => g.2) e) (by show (SemLoc.dma cc0_scratch10.sem : SemLoc sig) ≠ SemLoc.dma cc0_scratch6.sem; decide)), Finset.mem_erase.mpr ⟨(fun e => absurd (congrArg (fun g : GSem nD τ sig => g.2) e) (by show (SemLoc.dma cc0_scratch10.sem : SemLoc sig) ≠ SemLoc.dma cc0_scratch5.sem; decide)), Finset.mem_erase.mpr ⟨(fun e => absurd (congrArg (fun g : GSem nD τ sig => g.2) e) (by show (SemLoc.dma cc0_scratch10.sem : SemLoc sig) ≠ SemLoc.dma cc0_scratch4.sem; decide)), Finset.mem_erase.mpr ⟨(fun e => absurd (congrArg (fun g : GSem nD τ sig => g.2) e) (by show (SemLoc.dma cc0_scratch10.sem : SemLoc sig) ≠ SemLoc.dma cc0_scratch3.sem; decide)), (mem_ownCells (g := dcell d c i cc0_scratch10)).mpr ⟨rfl, by show (SemLoc.dma cc0_scratch10.sem : SemLoc sig).isScoped .scVector = true; decide⟩⟩⟩⟩⟩⟩⟩⟩),
    SparseCore.bigSep_erase' (Finset.mem_erase.mpr ⟨(fun e => absurd (congrArg (fun g : GSem nD τ sig => g.2) e) (by show (SemLoc.dma cc0_scoped0.sem : SemLoc sig) ≠ SemLoc.dma cc0_scratch10.sem; decide)), Finset.mem_erase.mpr ⟨(fun e => absurd (congrArg (fun g : GSem nD τ sig => g.2) e) (by show (SemLoc.dma cc0_scoped0.sem : SemLoc sig) ≠ SemLoc.dma cc0_scratch9.sem; decide)), Finset.mem_erase.mpr ⟨(fun e => absurd (congrArg (fun g : GSem nD τ sig => g.2) e) (by show (SemLoc.dma cc0_scoped0.sem : SemLoc sig) ≠ SemLoc.dma cc0_scratch8.sem; decide)), Finset.mem_erase.mpr ⟨(fun e => absurd (congrArg (fun g : GSem nD τ sig => g.2) e) (by show (SemLoc.dma cc0_scoped0.sem : SemLoc sig) ≠ SemLoc.dma cc0_scratch7.sem; decide)), Finset.mem_erase.mpr ⟨(fun e => absurd (congrArg (fun g : GSem nD τ sig => g.2) e) (by show (SemLoc.dma cc0_scoped0.sem : SemLoc sig) ≠ SemLoc.dma cc0_scratch6.sem; decide)), Finset.mem_erase.mpr ⟨(fun e => absurd (congrArg (fun g : GSem nD τ sig => g.2) e) (by show (SemLoc.dma cc0_scoped0.sem : SemLoc sig) ≠ SemLoc.dma cc0_scratch5.sem; decide)), Finset.mem_erase.mpr ⟨(fun e => absurd (congrArg (fun g : GSem nD τ sig => g.2) e) (by show (SemLoc.dma cc0_scoped0.sem : SemLoc sig) ≠ SemLoc.dma cc0_scratch4.sem; decide)), Finset.mem_erase.mpr ⟨(fun e => absurd (congrArg (fun g : GSem nD τ sig => g.2) e) (by show (SemLoc.dma cc0_scoped0.sem : SemLoc sig) ≠ SemLoc.dma cc0_scratch3.sem; decide)), (mem_ownCells (g := dcell d c i cc0_scoped0)).mpr ⟨rfl, by show (SemLoc.dma cc0_scoped0.sem : SemLoc sig).isScoped .scVector = true; decide⟩⟩⟩⟩⟩⟩⟩⟩⟩)]

/-- The two scratch buffers are among the tile's own. -/
theorem ownBufs_V (d : Dev nD) (c : Fin τ.nSC) (i : Fin τ.nSub) :
    (ownBufs (V d c i) : sProp 𝕄)
      = iprop((∃ f, (V d c i).loc cc0_scratch1 ↦{fullShare} f) ∗ (∃ f, (V d c i).loc cc0_scratch2 ↦{fullShare} f)
          ∗ bigSep (((ownRefs (τ := τ) (.scVector c i)).erase ((Proc.scVector c i).devRef cc0_scratch1)).erase ((Proc.scVector c i).devRef cc0_scratch2))
              fun b => iprop(∃ f, ((d, b) : Loc nD τ sig) ↦{fullShare} f)) := by
  unfold SparseCore.Cfg.ownBufs
  rw [SparseCore.bigSep_erase' (SparseCore.Cfg.mem_ownRefs_of_owner (p := Proc.scVector c i) (b := (Proc.scVector c i).devRef cc0_scratch1) rfl),
    SparseCore.bigSep_erase' (Finset.mem_erase.mpr ⟨fun e => absurd (show (1 : ℕ) = 0 from congrArg (fun b : DevRef τ sig => b.idx.val) e) (by decide), SparseCore.Cfg.mem_ownRefs_of_owner (p := Proc.scVector c i) (b := (Proc.scVector c i).devRef cc0_scratch2) rfl⟩)]

end Cert.Proof.KI

end
-- ==== Proof.KSpell.lean ====
/-
  The same arrays in the two spellings. The launch hands a tile the list, the table and the shared memory as the
  TensorCore names them; the task's own copies and gathers name them through the kernel's operands at the tile. The two
  are one location and, for a whole array, one set of elements.
-/
import proofs.«205114_g12446815224155_cont_fleet_488_32_alg».proof.Proof.KCells

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "iV" => (Memref.whole Cert.KernelIdeal.main_v0_scv : Memref Cert.KernelIdeal.sig Kind.scVector Space.hbm Cert.KernelIdeal.S3276800 EltTy.i32)
local notation "tV" => (Memref.whole Cert.KernelIdeal.main_arg1_scv : Memref Cert.KernelIdeal.sig Kind.scVector Space.hbm Cert.KernelIdeal.S3x128 EltTy.f32)
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)
local notation "shV" => (Memref.whole Cert.KernelIdeal.cc0_scratch0 : Memref Cert.KernelIdeal.sig Kind.scVector Space.shared Cert.KernelIdeal.S3x128 EltTy.f32)

/-- The table, as the tile's copy names it. -/
theorem pts_tV (d : Dev nD) (c : Fin τ.nSC) (j : Fin τ.nSub) (q : PosShare TreeShare) (f : Buf (Elt F) (tabLoc d)) :
    ((tV).view.loc (V d c j) ↦[(tV).view.set]{q} f : sProp 𝕄) = (tabLoc d ↦{q} f) := by
  rw [(Memref.isWhole_whole _).set_eq_univ]

/-- The SparseCore's shared memory, as the tile's copy and gathers name it. -/
theorem pts_shV (d : Dev nD) (c : Fin τ.nSC) (j : Fin τ.nSub) (q : PosShare TreeShare) (f : Buf (Elt F) (shLoc d c)) :
    ((shV).view.loc (V d c j) ↦[(shV).view.set]{q} f : sProp 𝕄) = (shLoc d c ↦{q} f) := by
  rw [(Memref.isWhole_whole _).set_eq_univ]; rfl

/-- The list of row numbers, as the tile's copies name it. -/
theorem pts_iV (d : Dev nD) (c : Fin τ.nSC) (j : Fin τ.nSub) (q : PosShare TreeShare) (f : Buf (Elt F) (idxLoc d)) :
    ((iV).view.loc (V d c j) ↦[(iV).view.set]{q} f : sProp 𝕄) = (idxLoc d ↦{q} f) := by
  rw [(Memref.isWhole_whole _).set_eq_univ]

/-- The tile's buffer of row numbers, as its copies, loads and stores name it. -/
theorem pts_ibV (d : Dev nD) (c : Fin τ.nSC) (j : Fin τ.nSub) (q : PosShare TreeShare) (f : Buf (Elt F) ((V d c j).loc cc0_scratch1)) :
    ((ibV).view.loc (V d c j) ↦[(ibV).view.set]{q} f : sProp 𝕄) = ((V d c j).loc cc0_scratch1 ↦{q} f) := by
  rw [(Memref.isWhole_whole _).set_eq_univ]; try rfl

/-- The tile's buffer of gathered rows, as its gathers and copies name it. -/
theorem pts_rwV (d : Dev nD) (c : Fin τ.nSC) (j : Fin τ.nSub) (q : PosShare TreeShare) (f : Buf (Elt F) ((V d c j).loc cc0_scratch2)) :
    ((rwV).view.loc (V d c j) ↦[(rwV).view.set]{q} f : sProp 𝕄) = ((V d c j).loc cc0_scratch2 ↦{q} f) := by
  rw [(Memref.isWhole_whole _).set_eq_univ]; try rfl

end Cert.Proof.KI

end
-- ==== Proof.KBarrier.lean ====
/-
  What crosses the barrier. Tile 0's arrival at tile j's barrier cell carries tile j's read share of the shared copy of
  the table; every other tile's arrival carries nothing. So tile 0 pays its sixteen arrivals with the sixteen read
  shares, any other tile pays with nothing, and what a tile reads off its own round once all sixteen have arrived is
  its own read share, at the table's contents.
-/
import proofs.«205114_g12446815224155_cont_fleet_488_32_alg».proof.Proof.KSpell

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}
local notation "𝕄" => MT nD τ sig (HIx 1) (Elt F) ℕ UU ℕ

variable (ft : (d : Dev nD) → Buf (Elt F) (tabLoc d))
variable [FloatOps F]

/-- Tile 0 pays its arrival at every tile's cell with that tile's read share. -/
theorem pays_tile0 (d : Dev nD) (L : grid0.Coords) (hj : (L 1).val = 0) :
    (bigSep Finset.univ fun i : Fin 16 => (shLoc d (cV L) ↦{shareTok fullShare 16 i} tabAt ft d (cV L) : sProp 𝕄))
      ⊢ bigSep Finset.univ fun j : Fin (grid0.bound 1) => (bRd (F := F) ft).payload (bcell d (cV L) (j.castLE hsub0)) 0 (jV L).val := by
  refine Entails.of_eq ?_
  show _ = bigSep (Finset.univ : Finset (Fin 16)) _
  congr 1; funext j
  show _ = bPay ft (bcell d (cV L) (j.castLE hsub0)) (jV L).val
  unfold bPay
  dsimp only
  rw [if_pos (show (jV L).val = 0 from hj)]
  rfl

/-- Any other tile pays its arrivals with nothing. -/
theorem pays_other (d : Dev nD) (L : grid0.Coords) (hj : (L 1).val ≠ 0) :
    (iprop(emp) : sProp 𝕄)
      ⊢ bigSep Finset.univ fun j : Fin (grid0.bound 1) => (bRd (F := F) ft).payload (bcell d (cV L) (j.castLE hsub0)) 0 (jV L).val := by
  have e : (fun j : Fin (grid0.bound 1) => (bRd (F := F) ft).payload (bcell d (cV L) (j.castLE hsub0)) 0 (jV L).val) = fun _ => (iprop(emp) : sProp 𝕄) := by
    funext j
    show bPay ft (bcell d (cV L) (j.castLE hsub0)) (jV L).val = _
    unfold bPay
    dsimp only
    rw [if_neg (show ¬ (jV L).val = 0 from hj)]
  rw [e, bigSep_emp']

/-- Once all sixteen have arrived, a tile reads its own read share off its round, at the table's contents. -/
theorem got_tok (d : Dev nD) (c : Fin τ.nSC) (j : Fin τ.nSub) :
    (bigSep ((bRd (F := F) ft).duties (bcell d c j) 0 \ ∅) fun n => (bRd (F := F) ft).payload (bcell d c j) 0 n)
      ⊢ shTokPts d c j (tabAt ft d c) := by
  rw [Finset.sdiff_empty, bRd_duties₀]
  have h0 : (0 : ℕ) ∈ (Finset.univ : Finset (Fin τ.nSub)).image Fin.val :=
    Finset.mem_image.mpr ⟨⟨0, by decide⟩, Finset.mem_univ _, rfl⟩
  rw [SparseCore.bigSep_erase' h0]
  iintro ⟨H, -⟩
  iapply (Entails.of_eq (show (bRd (F := F) ft).payload (bcell d c j) 0 0 = shTokPts d c j (tabAt ft d c) from by
    show bPay ft (bcell d c j) 0 = _
    unfold bPay
    dsimp only
    rw [if_pos rfl]))
  iexact H

end Cert.Proof.KI

end
-- ==== Proof.KWrap.lean ====
/-
  Reducing a row number modulo 3 in place. A row number between 0 and 2 is its own remainder on division by 3, so on the
  inputs the claim speaks of each sixteen-lane step of the reduction stores back exactly the words it loaded: the buffer
  of row numbers is left as the copy from the list filled it.
-/
import proofs.«205114_g12446815224155_cont_fleet_488_32_alg».proof.Proof.Gen.KernelIdeal.Skeleton
import Idealize.ShloMosaic.Lib.Pipeline.Value
import Idealize.ShloMosaic.Lib.ValueIdx

noncomputable section

namespace Cert.Proof.KI

open Cert.KernelIdeal Cert.KernelIdeal.Gen
open Idealize.ShloMosaic

variable {F : FTy → Type} [FloatOps F]

/-- A 32-bit word between 0 and 2, read signed, is one of the three literals. -/
theorem word_cases {w : BitVec 32} (h0 : 0 ≤ w.toInt) (h2 : w.toInt ≤ 2) : w = 0#32 ∨ w = 1#32 ∨ w = 2#32 := by
  have e : w.toInt = (w.toNat : Int) := by
    rcases BitVec.toInt_eq_toNat_cond w with h
    rw [h] at h0 h2 ⊢
    split_ifs at h0 h2 ⊢ with hlt
    · rfl
    · exfalso; have := w.isLt; omega
  rw [e] at h2
  have e0 : w.toNat = 0 ∨ w.toNat = 1 ∨ w.toNat = 2 := by omega
  rcases e0 with e | e | e
  · exact .inl (BitVec.eq_of_toNat_eq (by rw [e]; rfl))
  · exact .inr (.inl (BitVec.eq_of_toNat_eq (by rw [e]; rfl)))
  · exact .inr (.inr (BitVec.eq_of_toNat_eq (by rw [e]; rfl)))

/-- Its remainder on division by 3 is the word itself. -/
theorem rem3_fixed {w : BitVec 32} (h0 : 0 ≤ w.toInt) (h2 : w.toInt ≤ 2) : IntOp.remsi .vector w 3#32 = w := by
  rcases word_cases h0 h2 with rfl | rfl | rfl <;> decide

/-- One sixteen-lane step: the words reshaped to a row, reduced modulo 3 and reshaped back are the words. -/
theorem wrap_fixed (v : IVec S1x16 32) (hv : ∀ x, 0 ≤ (v x).toInt ∧ (v x).toInt ≤ 2)
    (h : S1x16.ShapeCasts S16) (h' : S16.ShapeCasts S1x16) :
    shapeCast S1x16 (remsi (shapeCast S16 v h) (broadcast S16 3#32)) h' = v := by
  have e : remsi (shapeCast S16 v h) (broadcast S16 3#32) = shapeCast S16 v h :=
    funext fun x => rem3_fixed (hv _).1 (hv _).2
  rw [e, shapeCast_shapeCast]

theorem pay1_fixed (v : Vec F S1x16 .i32) (hv : ∀ x, 0 ≤ ((v x : BitVec 32)).toInt ∧ ((v x : BitVec 32)).toInt ≤ 2) : k0_pay1 (F := F) v = v := by
  unfold k0_pay1
  exact wrap_fixed v hv _ _

theorem pay2_fixed (v : Vec F S1x16 .i32) (hv : ∀ x, 0 ≤ ((v x : BitVec 32)).toInt ∧ ((v x : BitVec 32)).toInt ≤ 2) : k0_pay2 (F := F) v = v := by
  unfold k0_pay2
  exact wrap_fixed v hv _ _

theorem pay3_fixed (v : Vec F S1x16 .i32) (hv : ∀ x, 0 ≤ ((v x : BitVec 32)).toInt ∧ ((v x : BitVec 32)).toInt ≤ 2) : k0_pay3 (F := F) v = v := by
  unfold k0_pay3
  exact wrap_fixed v hv _ _

theorem pay4_fixed (v : Vec F S1x16 .i32) (hv : ∀ x, 0 ≤ ((v x : BitVec 32)).toInt ∧ ((v x : BitVec 32)).toInt ≤ 2) : k0_pay4 (F := F) v = v := by
  unfold k0_pay4
  exact wrap_fixed v hv _ _

theorem pay5_fixed (v : Vec F S1x16 .i32) (hv : ∀ x, 0 ≤ ((v x : BitVec 32)).toInt ∧ ((v x : BitVec 32)).toInt ≤ 2) : k0_pay5 (F := F) v = v := by
  unfold k0_pay5
  exact wrap_fixed v hv _ _

theorem pay6_fixed (v : Vec F S1x16 .i32) (hv : ∀ x, 0 ≤ ((v x : BitVec 32)).toInt ∧ ((v x : BitVec 32)).toInt ≤ 2) : k0_pay6 (F := F) v = v := by
  unfold k0_pay6
  exact wrap_fixed v hv _ _

theorem pay7_fixed (v : Vec F S1x16 .i32) (hv : ∀ x, 0 ≤ ((v x : BitVec 32)).toInt ∧ ((v x : BitVec 32)).toInt ≤ 2) : k0_pay7 (F := F) v = v := by
  unfold k0_pay7
  exact wrap_fixed v hv _ _

theorem pay8_fixed (v : Vec F S1x16 .i32) (hv : ∀ x, 0 ≤ ((v x : BitVec 32)).toInt ∧ ((v x : BitVec 32)).toInt ≤ 2) : k0_pay8 (F := F) v = v := by
  unfold k0_pay8
  exact wrap_fixed v hv _ _

theorem pay9_fixed (v : Vec F S1x16 .i32) (hv : ∀ x, 0 ≤ ((v x : BitVec 32)).toInt ∧ ((v x : BitVec 32)).toInt ≤ 2) : k0_pay9 (F := F) v = v := by
  unfold k0_pay9
  exact wrap_fixed v hv _ _

theorem pay10_fixed (v : Vec F S1x16 .i32) (hv : ∀ x, 0 ≤ ((v x : BitVec 32)).toInt ∧ ((v x : BitVec 32)).toInt ≤ 2) : k0_pay10 (F := F) v = v := by
  unfold k0_pay10
  exact wrap_fixed v hv _ _

theorem pay11_fixed (v : Vec F S1x16 .i32) (hv : ∀ x, 0 ≤ ((v x : BitVec 32)).toInt ∧ ((v x : BitVec 32)).toInt ≤ 2) : k0_pay11 (F := F) v = v := by
  unfold k0_pay11
  exact wrap_fixed v hv _ _

theorem pay12_fixed (v : Vec F S1x16 .i32) (hv : ∀ x, 0 ≤ ((v x : BitVec 32)).toInt ∧ ((v x : BitVec 32)).toInt ≤ 2) : k0_pay12 (F := F) v = v := by
  unfold k0_pay12
  exact wrap_fixed v hv _ _

theorem pay13_fixed (v : Vec F S1x16 .i32) (hv : ∀ x, 0 ≤ ((v x : BitVec 32)).toInt ∧ ((v x : BitVec 32)).toInt ≤ 2) : k0_pay13 (F := F) v = v := by
  unfold k0_pay13
  exact wrap_fixed v hv _ _

theorem pay14_fixed (v : Vec F S1x16 .i32) (hv : ∀ x, 0 ≤ ((v x : BitVec 32)).toInt ∧ ((v x : BitVec 32)).toInt ≤ 2) : k0_pay14 (F := F) v = v := by
  unfold k0_pay14
  exact wrap_fixed v hv _ _

theorem pay15_fixed (v : Vec F S1x16 .i32) (hv : ∀ x, 0 ≤ ((v x : BitVec 32)).toInt ∧ ((v x : BitVec 32)).toInt ≤ 2) : k0_pay15 (F := F) v = v := by
  unfold k0_pay15
  exact wrap_fixed v hv _ _

theorem pay16_fixed (v : Vec F S1x16 .i32) (hv : ∀ x, 0 ≤ ((v x : BitVec 32)).toInt ∧ ((v x : BitVec 32)).toInt ≤ 2) : k0_pay16 (F := F) v = v := by
  unfold k0_pay16
  exact wrap_fixed v hv _ _

end Cert.Proof.KI

end
-- ==== Proof.KPieces.lean ====
/-
  The tile's two scratch buffers in pieces. The buffer of row numbers is two blocks of 1024, and a block is eight lists of
  128; the buffer of gathered rows is two halves, and a half is two quarters of 128 rows. A piece is a rectangle of the
  buffer; the pieces of a buffer, or of a piece, are disjoint and cover it, so holding it is holding them.
-/
import proofs.«205114_g12446815224155_cont_fleet_488_32_alg».proof.Proof.KSpell

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)

/-! ## Rectangles of a buffer, by their coordinates -/

theorem mem_unit2 {d : Fin 2 → ℕ} (off sz : Fin 2 → ℕ) (inb : ∀ a, off a + sz a ≤ (⟨2, d⟩ : Shape).size a) (i : (⟨2, d⟩ : Shape).Idx) :
    i ∈ (Rect.unit (s := ⟨2, d⟩) off sz inb).set
      ↔ (off 0 ≤ (i 0).val ∧ (i 0).val < off 0 + sz 0) ∧ (off 1 ≤ (i 1).val ∧ (i 1).val < off 1 + sz 1) := by
  rw [Rect.mem_set_unit]; exact Fin.forall_fin_two

theorem forall_fin_four {P : Fin 4 → Prop} : (∀ a, P a) ↔ P 0 ∧ P 1 ∧ P 2 ∧ P 3 :=
  ⟨fun h => ⟨h 0, h 1, h 2, h 3⟩, fun ⟨h0, h1, h2, h3⟩ a => by fin_cases a <;> assumption⟩

theorem mem_unit4 {d : Fin 4 → ℕ} (off sz : Fin 4 → ℕ) (inb : ∀ a, off a + sz a ≤ (⟨4, d⟩ : Shape).size a) (i : (⟨4, d⟩ : Shape).Idx) :
    i ∈ (Rect.unit (s := ⟨4, d⟩) off sz inb).set
      ↔ (off 0 ≤ (i 0).val ∧ (i 0).val < off 0 + sz 0) ∧ (off 1 ≤ (i 1).val ∧ (i 1).val < off 1 + sz 1)
        ∧ (off 2 ≤ (i 2).val ∧ (i 2).val < off 2 + sz 2) ∧ (off 3 ≤ (i 3).val ∧ (i 3).val < off 3 + sz 3) := by
  rw [Rect.mem_set_unit]; exact forall_fin_four

/-! ## The buffer of row numbers: two blocks, each eight lists -/

/-- Block bb of the buffer of row numbers: row bb, all 1024 words. -/
def slotR : Fin 2 → Rect S2x1024
  | 0 => Rect.unit (s := S2x1024) ![0, 0] S1x1024.size inb_S2x1024_S1x1024_0_0
  | 1 => Rect.unit (s := S2x1024) ![1, 0] S1x1024.size inb_S2x1024_S1x1024_1_0
  | ⟨_ + 2, h⟩ => absurd h (by omega)
/-- List s of block bb: words 128 s … 128 s + 127 of row bb. -/
def listR : Fin 2 → Fin 8 → Rect S2x1024
  | 0 => fun
    | 0 => Rect.unit (s := S2x1024) ![0, 0] S1x128.size inb_S2x1024_S1x128_0_0
    | 1 => Rect.unit (s := S2x1024) ![0, 128] S1x128.size inb_S2x1024_S1x128_0_128
    | 2 => Rect.unit (s := S2x1024) ![0, 256] S1x128.size inb_S2x1024_S1x128_0_256
    | 3 => Rect.unit (s := S2x1024) ![0, 384] S1x128.size inb_S2x1024_S1x128_0_384
    | 4 => Rect.unit (s := S2x1024) ![0, 512] S1x128.size inb_S2x1024_S1x128_0_512
    | 5 => Rect.unit (s := S2x1024) ![0, 640] S1x128.size inb_S2x1024_S1x128_0_640
    | 6 => Rect.unit (s := S2x1024) ![0, 768] S1x128.size inb_S2x1024_S1x128_0_768
    | 7 => Rect.unit (s := S2x1024) ![0, 896] S1x128.size inb_S2x1024_S1x128_0_896
    | ⟨_ + 8, h⟩ => absurd h (by omega)
  | 1 => fun
    | 0 => Rect.unit (s := S2x1024) ![1, 0] S1x128.size inb_S2x1024_S1x128_1_0
    | 1 => Rect.unit (s := S2x1024) ![1, 128] S1x128.size inb_S2x1024_S1x128_1_128
    | 2 => Rect.unit (s := S2x1024) ![1, 256] S1x128.size inb_S2x1024_S1x128_1_256
    | 3 => Rect.unit (s := S2x1024) ![1, 384] S1x128.size inb_S2x1024_S1x128_1_384
    | 4 => Rect.unit (s := S2x1024) ![1, 512] S1x128.size inb_S2x1024_S1x128_1_512
    | 5 => Rect.unit (s := S2x1024) ![1, 640] S1x128.size inb_S2x1024_S1x128_1_640
    | 6 => Rect.unit (s := S2x1024) ![1, 768] S1x128.size inb_S2x1024_S1x128_1_768
    | 7 => Rect.unit (s := S2x1024) ![1, 896] S1x128.size inb_S2x1024_S1x128_1_896
    | ⟨_ + 8, h⟩ => absurd h (by omega)
  | ⟨_ + 2, h⟩ => absurd h (by omega)

theorem slotR_stride (bb : Fin 2) : ∀ a, (slotR bb).stride a = 1 := by fin_cases bb <;> exact fun _ => rfl
theorem slotR_shape (bb : Fin 2) : (slotR bb).shape = S1x1024 := by fin_cases bb <;> rfl
theorem listR_stride (bb : Fin 2) (s : Fin 8) : ∀ a, (listR bb s).stride a = 1 := by fin_cases bb <;> fin_cases s <;> exact fun _ => rfl
theorem listR_shape (bb : Fin 2) (s : Fin 8) : (listR bb s).shape = S1x128 := by fin_cases bb <;> fin_cases s <;> rfl

/-- A block of 1024 row numbers, as the task's copies of the list name it. -/
abbrev slotM (bb : Fin 2) : Memref sig .scVector .vmem S1024 .i32 :=
  ((ibV).slice (slotR bb) (slotR_stride bb)).squeeze S1024 (slotR_shape bb ▸ squeezes_S1x1024_S1024)
/-- A list of 128 row numbers, as the task's gathers name it. -/
abbrev listM (bb : Fin 2) (s : Fin 8) : Memref sig .scVector .vmem S128 .i32 :=
  ((ibV).slice (listR bb s) (listR_stride bb s)).squeeze S128 (listR_shape bb s ▸ squeezes_S1x128_S128)

theorem slotM_0 : slotM 0 = ((ibV).slice (Rect.unit (s := S2x1024) ![0, 0] S1x1024.size inb_S2x1024_S1x1024_0_0) (fun _ => rfl)).squeeze S1024 squeezes_S1x1024_S1024 := rfl
theorem slotM_1 : slotM 1 = ((ibV).slice (Rect.unit (s := S2x1024) ![1, 0] S1x1024.size inb_S2x1024_S1x1024_1_0) (fun _ => rfl)).squeeze S1024 squeezes_S1x1024_S1024 := rfl
theorem listM_0_0 : listM 0 0 = ((ibV).slice (Rect.unit (s := S2x1024) ![0, 0] S1x128.size inb_S2x1024_S1x128_0_0) (fun _ => rfl)).squeeze S128 squeezes_S1x128_S128 := rfl
theorem listM_0_1 : listM 0 1 = ((ibV).slice (Rect.unit (s := S2x1024) ![0, 128] S1x128.size inb_S2x1024_S1x128_0_128) (fun _ => rfl)).squeeze S128 squeezes_S1x128_S128 := rfl
theorem listM_0_2 : listM 0 2 = ((ibV).slice (Rect.unit (s := S2x1024) ![0, 256] S1x128.size inb_S2x1024_S1x128_0_256) (fun _ => rfl)).squeeze S128 squeezes_S1x128_S128 := rfl
theorem listM_0_3 : listM 0 3 = ((ibV).slice (Rect.unit (s := S2x1024) ![0, 384] S1x128.size inb_S2x1024_S1x128_0_384) (fun _ => rfl)).squeeze S128 squeezes_S1x128_S128 := rfl
theorem listM_0_4 : listM 0 4 = ((ibV).slice (Rect.unit (s := S2x1024) ![0, 512] S1x128.size inb_S2x1024_S1x128_0_512) (fun _ => rfl)).squeeze S128 squeezes_S1x128_S128 := rfl
theorem listM_0_5 : listM 0 5 = ((ibV).slice (Rect.unit (s := S2x1024) ![0, 640] S1x128.size inb_S2x1024_S1x128_0_640) (fun _ => rfl)).squeeze S128 squeezes_S1x128_S128 := rfl
theorem listM_0_6 : listM 0 6 = ((ibV).slice (Rect.unit (s := S2x1024) ![0, 768] S1x128.size inb_S2x1024_S1x128_0_768) (fun _ => rfl)).squeeze S128 squeezes_S1x128_S128 := rfl
theorem listM_0_7 : listM 0 7 = ((ibV).slice (Rect.unit (s := S2x1024) ![0, 896] S1x128.size inb_S2x1024_S1x128_0_896) (fun _ => rfl)).squeeze S128 squeezes_S1x128_S128 := rfl
theorem listM_1_0 : listM 1 0 = ((ibV).slice (Rect.unit (s := S2x1024) ![1, 0] S1x128.size inb_S2x1024_S1x128_1_0) (fun _ => rfl)).squeeze S128 squeezes_S1x128_S128 := rfl
theorem listM_1_1 : listM 1 1 = ((ibV).slice (Rect.unit (s := S2x1024) ![1, 128] S1x128.size inb_S2x1024_S1x128_1_128) (fun _ => rfl)).squeeze S128 squeezes_S1x128_S128 := rfl
theorem listM_1_2 : listM 1 2 = ((ibV).slice (Rect.unit (s := S2x1024) ![1, 256] S1x128.size inb_S2x1024_S1x128_1_256) (fun _ => rfl)).squeeze S128 squeezes_S1x128_S128 := rfl
theorem listM_1_3 : listM 1 3 = ((ibV).slice (Rect.unit (s := S2x1024) ![1, 384] S1x128.size inb_S2x1024_S1x128_1_384) (fun _ => rfl)).squeeze S128 squeezes_S1x128_S128 := rfl
theorem listM_1_4 : listM 1 4 = ((ibV).slice (Rect.unit (s := S2x1024) ![1, 512] S1x128.size inb_S2x1024_S1x128_1_512) (fun _ => rfl)).squeeze S128 squeezes_S1x128_S128 := rfl
theorem listM_1_5 : listM 1 5 = ((ibV).slice (Rect.unit (s := S2x1024) ![1, 640] S1x128.size inb_S2x1024_S1x128_1_640) (fun _ => rfl)).squeeze S128 squeezes_S1x128_S128 := rfl
theorem listM_1_6 : listM 1 6 = ((ibV).slice (Rect.unit (s := S2x1024) ![1, 768] S1x128.size inb_S2x1024_S1x128_1_768) (fun _ => rfl)).squeeze S128 squeezes_S1x128_S128 := rfl
theorem listM_1_7 : listM 1 7 = ((ibV).slice (Rect.unit (s := S2x1024) ![1, 896] S1x128.size inb_S2x1024_S1x128_1_896) (fun _ => rfl)).squeeze S128 squeezes_S1x128_S128 := rfl

/-- Which words a block holds, and which a list. -/
theorem mem_slotR (bb : Fin 2) (i : S2x1024.Idx) : i ∈ (slotR bb).set ↔ (i 0).val = bb.val := by
  have h1 : (i 1).val < 1024 := (i 1).isLt
  fin_cases bb
  · exact (mem_unit2 _ _ inb_S2x1024_S1x1024_0_0 i).trans (show (0 ≤ (i 0).val ∧ (i 0).val < 0 + 1) ∧ (0 ≤ (i 1).val ∧ (i 1).val < 0 + 1024) ↔ (i 0).val = 0 by omega)
  · exact (mem_unit2 _ _ inb_S2x1024_S1x1024_1_0 i).trans (show (1 ≤ (i 0).val ∧ (i 0).val < 1 + 1) ∧ (0 ≤ (i 1).val ∧ (i 1).val < 0 + 1024) ↔ (i 0).val = 1 by omega)
theorem mem_listR (bb : Fin 2) (s : Fin 8) (i : S2x1024.Idx) :
    i ∈ (listR bb s).set ↔ (i 0).val = bb.val ∧ 128 * s.val ≤ (i 1).val ∧ (i 1).val < 128 * s.val + 128 := by
  fin_cases bb <;> fin_cases s
  · exact (mem_unit2 _ _ inb_S2x1024_S1x128_0_0 i).trans (show (0 ≤ (i 0).val ∧ (i 0).val < 0 + 1) ∧ (0 ≤ (i 1).val ∧ (i 1).val < 0 + 128)
      ↔ (i 0).val = 0 ∧ 128 * 0 ≤ (i 1).val ∧ (i 1).val < 128 * 0 + 128 by omega)
  · exact (mem_unit2 _ _ inb_S2x1024_S1x128_0_128 i).trans (show (0 ≤ (i 0).val ∧ (i 0).val < 0 + 1) ∧ (128 ≤ (i 1).val ∧ (i 1).val < 128 + 128)
      ↔ (i 0).val = 0 ∧ 128 * 1 ≤ (i 1).val ∧ (i 1).val < 128 * 1 + 128 by omega)
  · exact (mem_unit2 _ _ inb_S2x1024_S1x128_0_256 i).trans (show (0 ≤ (i 0).val ∧ (i 0).val < 0 + 1) ∧ (256 ≤ (i 1).val ∧ (i 1).val < 256 + 128)
      ↔ (i 0).val = 0 ∧ 128 * 2 ≤ (i 1).val ∧ (i 1).val < 128 * 2 + 128 by omega)
  · exact (mem_unit2 _ _ inb_S2x1024_S1x128_0_384 i).trans (show (0 ≤ (i 0).val ∧ (i 0).val < 0 + 1) ∧ (384 ≤ (i 1).val ∧ (i 1).val < 384 + 128)
      ↔ (i 0).val = 0 ∧ 128 * 3 ≤ (i 1).val ∧ (i 1).val < 128 * 3 + 128 by omega)
  · exact (mem_unit2 _ _ inb_S2x1024_S1x128_0_512 i).trans (show (0 ≤ (i 0).val ∧ (i 0).val < 0 + 1) ∧ (512 ≤ (i 1).val ∧ (i 1).val < 512 + 128)
      ↔ (i 0).val = 0 ∧ 128 * 4 ≤ (i 1).val ∧ (i 1).val < 128 * 4 + 128 by omega)
  · exact (mem_unit2 _ _ inb_S2x1024_S1x128_0_640 i).trans (show (0 ≤ (i 0).val ∧ (i 0).val < 0 + 1) ∧ (640 ≤ (i 1).val ∧ (i 1).val < 640 + 128)
      ↔ (i 0).val = 0 ∧ 128 * 5 ≤ (i 1).val ∧ (i 1).val < 128 * 5 + 128 by omega)
  · exact (mem_unit2 _ _ inb_S2x1024_S1x128_0_768 i).trans (show (0 ≤ (i 0).val ∧ (i 0).val < 0 + 1) ∧ (768 ≤ (i 1).val ∧ (i 1).val < 768 + 128)
      ↔ (i 0).val = 0 ∧ 128 * 6 ≤ (i 1).val ∧ (i 1).val < 128 * 6 + 128 by omega)
  · exact (mem_unit2 _ _ inb_S2x1024_S1x128_0_896 i).trans (show (0 ≤ (i 0).val ∧ (i 0).val < 0 + 1) ∧ (896 ≤ (i 1).val ∧ (i 1).val < 896 + 128)
      ↔ (i 0).val = 0 ∧ 128 * 7 ≤ (i 1).val ∧ (i 1).val < 128 * 7 + 128 by omega)
  · exact (mem_unit2 _ _ inb_S2x1024_S1x128_1_0 i).trans (show (1 ≤ (i 0).val ∧ (i 0).val < 1 + 1) ∧ (0 ≤ (i 1).val ∧ (i 1).val < 0 + 128)
      ↔ (i 0).val = 1 ∧ 128 * 0 ≤ (i 1).val ∧ (i 1).val < 128 * 0 + 128 by omega)
  · exact (mem_unit2 _ _ inb_S2x1024_S1x128_1_128 i).trans (show (1 ≤ (i 0).val ∧ (i 0).val < 1 + 1) ∧ (128 ≤ (i 1).val ∧ (i 1).val < 128 + 128)
      ↔ (i 0).val = 1 ∧ 128 * 1 ≤ (i 1).val ∧ (i 1).val < 128 * 1 + 128 by omega)
  · exact (mem_unit2 _ _ inb_S2x1024_S1x128_1_256 i).trans (show (1 ≤ (i 0).val ∧ (i 0).val < 1 + 1) ∧ (256 ≤ (i 1).val ∧ (i 1).val < 256 + 128)
      ↔ (i 0).val = 1 ∧ 128 * 2 ≤ (i 1).val ∧ (i 1).val < 128 * 2 + 128 by omega)
  · exact (mem_unit2 _ _ inb_S2x1024_S1x128_1_384 i).trans (show (1 ≤ (i 0).val ∧ (i 0).val < 1 + 1) ∧ (384 ≤ (i 1).val ∧ (i 1).val < 384 + 128)
      ↔ (i 0).val = 1 ∧ 128 * 3 ≤ (i 1).val ∧ (i 1).val < 128 * 3 + 128 by omega)
  · exact (mem_unit2 _ _ inb_S2x1024_S1x128_1_512 i).trans (show (1 ≤ (i 0).val ∧ (i 0).val < 1 + 1) ∧ (512 ≤ (i 1).val ∧ (i 1).val < 512 + 128)
      ↔ (i 0).val = 1 ∧ 128 * 4 ≤ (i 1).val ∧ (i 1).val < 128 * 4 + 128 by omega)
  · exact (mem_unit2 _ _ inb_S2x1024_S1x128_1_640 i).trans (show (1 ≤ (i 0).val ∧ (i 0).val < 1 + 1) ∧ (640 ≤ (i 1).val ∧ (i 1).val < 640 + 128)
      ↔ (i 0).val = 1 ∧ 128 * 5 ≤ (i 1).val ∧ (i 1).val < 128 * 5 + 128 by omega)
  · exact (mem_unit2 _ _ inb_S2x1024_S1x128_1_768 i).trans (show (1 ≤ (i 0).val ∧ (i 0).val < 1 + 1) ∧ (768 ≤ (i 1).val ∧ (i 1).val < 768 + 128)
      ↔ (i 0).val = 1 ∧ 128 * 6 ≤ (i 1).val ∧ (i 1).val < 128 * 6 + 128 by omega)
  · exact (mem_unit2 _ _ inb_S2x1024_S1x128_1_896 i).trans (show (1 ≤ (i 0).val ∧ (i 0).val < 1 + 1) ∧ (896 ≤ (i 1).val ∧ (i 1).val < 896 + 128)
      ↔ (i 0).val = 1 ∧ 128 * 7 ≤ (i 1).val ∧ (i 1).val < 128 * 7 + 128 by omega)

theorem set_slotM (bb : Fin 2) : (slotM bb).view.set = (slotR bb).set := by
  show (((View.whole (cc0_scratch1 : Ref sig .scVector)).slice (slotR bb)).reshape S1024 _).set = _
  rw [View.set_reshape, View.set_slice_whole]
theorem set_listM (bb : Fin 2) (s : Fin 8) : (listM bb s).view.set = (listR bb s).set := by
  show (((View.whole (cc0_scratch1 : Ref sig .scVector)).slice (listR bb s)).reshape S128 _).set = _
  rw [View.set_reshape, View.set_slice_whole]

theorem slots_disjoint : Disjoint (slotR 0).set (slotR 1).set :=
  Finset.disjoint_left.mpr fun i h0 h1 => by
    have e0 : (i 0).val = 0 := (mem_slotR 0 i).mp h0
    have e1 : (i 0).val = 1 := (mem_slotR 1 i).mp h1
    omega
theorem slots_cover : (slotR 0).set ∪ (slotR 1).set = Finset.univ := by
  ext i
  simp only [Finset.mem_union, mem_slotR, Finset.mem_univ, iff_true]
  have h0 : (i 0).val < 2 := (i 0).isLt
  show (i 0).val = 0 ∨ (i 0).val = 1
  omega
theorem lists_disjoint (bb : Fin 2) : ∀ s ∈ (Finset.univ : Finset (Fin 8)), ∀ s' ∈ (Finset.univ : Finset (Fin 8)), s ≠ s' →
    Disjoint (listR bb s).set (listR bb s').set := fun s _ s' _ hne =>
  Finset.disjoint_left.mpr fun i h h' => by
    have e := (mem_listR bb s i).mp h
    have e' := (mem_listR bb s' i).mp h'
    have : s.val ≠ s'.val := fun e => hne (Fin.ext e)
    omega
theorem lists_cover (bb : Fin 2) : (Finset.univ : Finset (Fin 8)).biUnion (fun s => (listR bb s).set) = (slotR bb).set := by
  ext i
  simp only [Finset.mem_biUnion, Finset.mem_univ, true_and, mem_listR, mem_slotR]
  have h1 : (i 1).val < 1024 := (i 1).isLt
  constructor
  · rintro ⟨s, e, -⟩; exact e
  · intro e
    exact ⟨⟨(i 1).val / 128, by omega⟩, e, by show 128 * ((i 1).val / 128) ≤ (i 1).val; omega, by show (i 1).val < 128 * ((i 1).val / 128) + 128; omega⟩

section IbPts

variable (d : Dev nD) (c : Fin τ.nSC) (j : Fin τ.nSub)

/-- The buffer of row numbers is its two blocks. -/
theorem ib_slots (f : Buf (Elt F) ((ibV).view.loc (V d c j))) :
    ((ibV).view.loc (V d c j) ↦[(ibV).view.set]{fullShare} f : sProp 𝕄)
      = iprop(((slotM 0).view.loc (V d c j) ↦[(slotM 0).view.set]{fullShare} f) ∗ ((slotM 1).view.loc (V d c j) ↦[(slotM 1).view.set]{fullShare} f)) := by
  rw [(Memref.isWhole_whole _).set_eq_univ, set_slotM, set_slotM]
  show ((ibV).view.loc (V d c j) ↦[Finset.univ]{fullShare} f : sProp 𝕄)
    = iprop(((ibV).view.loc (V d c j) ↦[(slotR 0).set]{fullShare} f) ∗ ((ibV).view.loc (V d c j) ↦[(slotR 1).set]{fullShare} f))
  rw [← slots_cover]
  have hu : ((ibV).view.loc (V d c j) ↦[(slotR 0).set ∪ (slotR 1).set]{fullShare} f : sProp 𝕄)
      ⊣⊢ iprop(((ibV).view.loc (V d c j) ↦[(slotR 0).set]{fullShare} f) ∗ ((ibV).view.loc (V d c j) ↦[(slotR 1).set]{fullShare} f)) := pointsTo_union slots_disjoint
  exact equiv_iff.mp ⟨hu.1, hu.2⟩

/-- A block is its eight lists. -/
theorem slot_lists (bb : Fin 2) (f : Buf (Elt F) ((ibV).view.loc (V d c j))) :
    ((slotM bb).view.loc (V d c j) ↦[(slotM bb).view.set]{fullShare} f : sProp 𝕄)
      = bigSep Finset.univ fun s : Fin 8 => (listM bb s).view.loc (V d c j) ↦[(listM bb s).view.set]{fullShare} f := by
  rw [set_slotM, ← lists_cover bb]
  show ((ibV).view.loc (V d c j) ↦[(Finset.univ : Finset (Fin 8)).biUnion (fun s => (listR bb s).set)]{fullShare} f : sProp 𝕄) = _
  rw [pointsTo_biUnion Finset.univ (ℓ := (ibV).view.loc (V d c j)) (fun s => (listR bb s).set) (lists_disjoint bb)]
  exact bigSep_congr fun s _ => by rw [set_listM]

/-- The same, the eight lists written out. -/
theorem slot_lists8 (bb : Fin 2) (f : Buf (Elt F) ((ibV).view.loc (V d c j))) :
    ((slotM bb).view.loc (V d c j) ↦[(slotM bb).view.set]{fullShare} f : sProp 𝕄)
      = iprop(((listM bb 0).view.loc (V d c j) ↦[(listM bb 0).view.set]{fullShare} f) ∗ ((listM bb 1).view.loc (V d c j) ↦[(listM bb 1).view.set]{fullShare} f)
        ∗ ((listM bb 2).view.loc (V d c j) ↦[(listM bb 2).view.set]{fullShare} f) ∗ ((listM bb 3).view.loc (V d c j) ↦[(listM bb 3).view.set]{fullShare} f)
        ∗ ((listM bb 4).view.loc (V d c j) ↦[(listM bb 4).view.set]{fullShare} f) ∗ ((listM bb 5).view.loc (V d c j) ↦[(listM bb 5).view.set]{fullShare} f)
        ∗ ((listM bb 6).view.loc (V d c j) ↦[(listM bb 6).view.set]{fullShare} f) ∗ ((listM bb 7).view.loc (V d c j) ↦[(listM bb 7).view.set]{fullShare} f)) := by
  rw [slot_lists, show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

end IbPts

/-! ## The buffer of gathered rows: two halves, each two quarters -/

/-- Half pp of the buffer of gathered rows: both blocks of 128 rows of slot pp. -/
def halfR : Fin 2 → Rect S2x2x128x128
  | 0 => Rect.unit (s := S2x2x128x128) ![0, 0, 0, 0] S1x2x128x128.size inb_S2x2x128x128_S1x2x128x128_0_0_0_0
  | 1 => Rect.unit (s := S2x2x128x128) ![1, 0, 0, 0] S1x2x128x128.size inb_S2x2x128x128_S1x2x128x128_1_0_0_0
  | ⟨_ + 2, h⟩ => absurd h (by omega)
/-- Quarter s of half pp: block s of 128 rows of slot pp. -/
def quarterR : Fin 2 → Fin 2 → Rect S2x2x128x128
  | 0 => fun
    | 0 => Rect.unit (s := S2x2x128x128) ![0, 0, 0, 0] S1x1x128x128.size inb_S2x2x128x128_S1x1x128x128_0_0_0_0
    | 1 => Rect.unit (s := S2x2x128x128) ![0, 1, 0, 0] S1x1x128x128.size inb_S2x2x128x128_S1x1x128x128_0_1_0_0
    | ⟨_ + 2, h⟩ => absurd h (by omega)
  | 1 => fun
    | 0 => Rect.unit (s := S2x2x128x128) ![1, 0, 0, 0] S1x1x128x128.size inb_S2x2x128x128_S1x1x128x128_1_0_0_0
    | 1 => Rect.unit (s := S2x2x128x128) ![1, 1, 0, 0] S1x1x128x128.size inb_S2x2x128x128_S1x1x128x128_1_1_0_0
    | ⟨_ + 2, h⟩ => absurd h (by omega)
  | ⟨_ + 2, h⟩ => absurd h (by omega)

theorem halfR_stride (pp : Fin 2) : ∀ a, (halfR pp).stride a = 1 := by fin_cases pp <;> exact fun _ => rfl
theorem halfR_shape (pp : Fin 2) : (halfR pp).shape = S1x2x128x128 := by fin_cases pp <;> rfl
theorem quarterR_stride (pp s : Fin 2) : ∀ a, (quarterR pp s).stride a = 1 := by fin_cases pp <;> fin_cases s <;> exact fun _ => rfl
theorem quarterR_shape (pp s : Fin 2) : (quarterR pp s).shape = S1x1x128x128 := by fin_cases pp <;> fin_cases s <;> rfl

/-- Half a buffer of gathered rows, as the task's copies to the result name it. -/
abbrev halfM (pp : Fin 2) : Memref sig .scVector .vmem S2x128x128 .f32 :=
  ((rwV).slice (halfR pp) (halfR_stride pp)).squeeze S2x128x128 (halfR_shape pp ▸ squeezes_S1x2x128x128_S2x128x128)
/-- A block of 128 gathered rows, as the task's gathers name it. -/
abbrev quarterM (pp s : Fin 2) : Memref sig .scVector .vmem S128x128 .f32 :=
  ((rwV).slice (quarterR pp s) (quarterR_stride pp s)).squeeze S128x128 (quarterR_shape pp s ▸ squeezes_S1x1x128x128_S128x128)

theorem halfM_0 : halfM 0 = ((rwV).slice (Rect.unit (s := S2x2x128x128) ![0, 0, 0, 0] S1x2x128x128.size inb_S2x2x128x128_S1x2x128x128_0_0_0_0) (fun _ => rfl)).squeeze S2x128x128 squeezes_S1x2x128x128_S2x128x128 := rfl
theorem halfM_1 : halfM 1 = ((rwV).slice (Rect.unit (s := S2x2x128x128) ![1, 0, 0, 0] S1x2x128x128.size inb_S2x2x128x128_S1x2x128x128_1_0_0_0) (fun _ => rfl)).squeeze S2x128x128 squeezes_S1x2x128x128_S2x128x128 := rfl
theorem quarterM_0_0 : quarterM 0 0 = ((rwV).slice (Rect.unit (s := S2x2x128x128) ![0, 0, 0, 0] S1x1x128x128.size inb_S2x2x128x128_S1x1x128x128_0_0_0_0) (fun _ => rfl)).squeeze S128x128 squeezes_S1x1x128x128_S128x128 := rfl
theorem quarterM_0_1 : quarterM 0 1 = ((rwV).slice (Rect.unit (s := S2x2x128x128) ![0, 1, 0, 0] S1x1x128x128.size inb_S2x2x128x128_S1x1x128x128_0_1_0_0) (fun _ => rfl)).squeeze S128x128 squeezes_S1x1x128x128_S128x128 := rfl
theorem quarterM_1_0 : quarterM 1 0 = ((rwV).slice (Rect.unit (s := S2x2x128x128) ![1, 0, 0, 0] S1x1x128x128.size inb_S2x2x128x128_S1x1x128x128_1_0_0_0) (fun _ => rfl)).squeeze S128x128 squeezes_S1x1x128x128_S128x128 := rfl
theorem quarterM_1_1 : quarterM 1 1 = ((rwV).slice (Rect.unit (s := S2x2x128x128) ![1, 1, 0, 0] S1x1x128x128.size inb_S2x2x128x128_S1x1x128x128_1_1_0_0) (fun _ => rfl)).squeeze S128x128 squeezes_S1x1x128x128_S128x128 := rfl

/-- Which entries a half holds, and which a quarter. -/
theorem mem_halfR (pp : Fin 2) (i : S2x2x128x128.Idx) : i ∈ (halfR pp).set ↔ (i 0).val = pp.val := by
  have h1 : (i 1).val < 2 := (i 1).isLt
  have h2 : (i 2).val < 128 := (i 2).isLt
  have h3 : (i 3).val < 128 := (i 3).isLt
  fin_cases pp
  · exact (mem_unit4 _ _ inb_S2x2x128x128_S1x2x128x128_0_0_0_0 i).trans (show (0 ≤ (i 0).val ∧ (i 0).val < 0 + 1) ∧ (0 ≤ (i 1).val ∧ (i 1).val < 0 + 2)
      ∧ (0 ≤ (i 2).val ∧ (i 2).val < 0 + 128) ∧ (0 ≤ (i 3).val ∧ (i 3).val < 0 + 128) ↔ (i 0).val = 0 by omega)
  · exact (mem_unit4 _ _ inb_S2x2x128x128_S1x2x128x128_1_0_0_0 i).trans (show (1 ≤ (i 0).val ∧ (i 0).val < 1 + 1) ∧ (0 ≤ (i 1).val ∧ (i 1).val < 0 + 2)
      ∧ (0 ≤ (i 2).val ∧ (i 2).val < 0 + 128) ∧ (0 ≤ (i 3).val ∧ (i 3).val < 0 + 128) ↔ (i 0).val = 1 by omega)
theorem mem_quarterR (pp s : Fin 2) (i : S2x2x128x128.Idx) : i ∈ (quarterR pp s).set ↔ (i 0).val = pp.val ∧ (i 1).val = s.val := by
  have h2 : (i 2).val < 128 := (i 2).isLt
  have h3 : (i 3).val < 128 := (i 3).isLt
  fin_cases pp <;> fin_cases s
  · exact (mem_unit4 _ _ inb_S2x2x128x128_S1x1x128x128_0_0_0_0 i).trans (show (0 ≤ (i 0).val ∧ (i 0).val < 0 + 1) ∧ (0 ≤ (i 1).val ∧ (i 1).val < 0 + 1)
      ∧ (0 ≤ (i 2).val ∧ (i 2).val < 0 + 128) ∧ (0 ≤ (i 3).val ∧ (i 3).val < 0 + 128) ↔ (i 0).val = 0 ∧ (i 1).val = 0 by omega)
  · exact (mem_unit4 _ _ inb_S2x2x128x128_S1x1x128x128_0_1_0_0 i).trans (show (0 ≤ (i 0).val ∧ (i 0).val < 0 + 1) ∧ (1 ≤ (i 1).val ∧ (i 1).val < 1 + 1)
      ∧ (0 ≤ (i 2).val ∧ (i 2).val < 0 + 128) ∧ (0 ≤ (i 3).val ∧ (i 3).val < 0 + 128) ↔ (i 0).val = 0 ∧ (i 1).val = 1 by omega)
  · exact (mem_unit4 _ _ inb_S2x2x128x128_S1x1x128x128_1_0_0_0 i).trans (show (1 ≤ (i 0).val ∧ (i 0).val < 1 + 1) ∧ (0 ≤ (i 1).val ∧ (i 1).val < 0 + 1)
      ∧ (0 ≤ (i 2).val ∧ (i 2).val < 0 + 128) ∧ (0 ≤ (i 3).val ∧ (i 3).val < 0 + 128) ↔ (i 0).val = 1 ∧ (i 1).val = 0 by omega)
  · exact (mem_unit4 _ _ inb_S2x2x128x128_S1x1x128x128_1_1_0_0 i).trans (show (1 ≤ (i 0).val ∧ (i 0).val < 1 + 1) ∧ (1 ≤ (i 1).val ∧ (i 1).val < 1 + 1)
      ∧ (0 ≤ (i 2).val ∧ (i 2).val < 0 + 128) ∧ (0 ≤ (i 3).val ∧ (i 3).val < 0 + 128) ↔ (i 0).val = 1 ∧ (i 1).val = 1 by omega)

theorem set_halfM (pp : Fin 2) : (halfM pp).view.set = (halfR pp).set := by
  show (((View.whole (cc0_scratch2 : Ref sig .scVector)).slice (halfR pp)).reshape S2x128x128 _).set = _
  rw [View.set_reshape, View.set_slice_whole]
theorem set_quarterM (pp s : Fin 2) : (quarterM pp s).view.set = (quarterR pp s).set := by
  show (((View.whole (cc0_scratch2 : Ref sig .scVector)).slice (quarterR pp s)).reshape S128x128 _).set = _
  rw [View.set_reshape, View.set_slice_whole]

theorem halves_disjoint : Disjoint (halfR 0).set (halfR 1).set :=
  Finset.disjoint_left.mpr fun i h0 h1 => by
    have e0 : (i 0).val = 0 := (mem_halfR 0 i).mp h0
    have e1 : (i 0).val = 1 := (mem_halfR 1 i).mp h1
    omega
theorem halves_cover : (halfR 0).set ∪ (halfR 1).set = Finset.univ := by
  ext i
  simp only [Finset.mem_union, mem_halfR, Finset.mem_univ, iff_true]
  have h0 : (i 0).val < 2 := (i 0).isLt
  show (i 0).val = 0 ∨ (i 0).val = 1
  omega
theorem quarters_disjoint (pp : Fin 2) : Disjoint (quarterR pp 0).set (quarterR pp 1).set :=
  Finset.disjoint_left.mpr fun i h0 h1 => by
    have e0 : (i 1).val = 0 := ((mem_quarterR pp 0 i).mp h0).2
    have e1 : (i 1).val = 1 := ((mem_quarterR pp 1 i).mp h1).2
    omega
theorem quarters_cover (pp : Fin 2) : (quarterR pp 0).set ∪ (quarterR pp 1).set = (halfR pp).set := by
  ext i
  simp only [Finset.mem_union, mem_quarterR, mem_halfR]
  have h1 : (i 1).val < 2 := (i 1).isLt
  show ((i 0).val = pp.val ∧ (i 1).val = 0) ∨ ((i 0).val = pp.val ∧ (i 1).val = 1) ↔ (i 0).val = pp.val
  omega

section RwPts

variable (d : Dev nD) (c : Fin τ.nSC) (j : Fin τ.nSub)

/-- The buffer of gathered rows is its two halves. -/
theorem rw_halves (f : Buf (Elt F) ((rwV).view.loc (V d c j))) :
    ((rwV).view.loc (V d c j) ↦[(rwV).view.set]{fullShare} f : sProp 𝕄)
      = iprop(((halfM 0).view.loc (V d c j) ↦[(halfM 0).view.set]{fullShare} f) ∗ ((halfM 1).view.loc (V d c j) ↦[(halfM 1).view.set]{fullShare} f)) := by
  rw [(Memref.isWhole_whole _).set_eq_univ, set_halfM, set_halfM]
  show ((rwV).view.loc (V d c j) ↦[Finset.univ]{fullShare} f : sProp 𝕄)
    = iprop(((rwV).view.loc (V d c j) ↦[(halfR 0).set]{fullShare} f) ∗ ((rwV).view.loc (V d c j) ↦[(halfR 1).set]{fullShare} f))
  rw [← halves_cover]
  have hu : ((rwV).view.loc (V d c j) ↦[(halfR 0).set ∪ (halfR 1).set]{fullShare} f : sProp 𝕄)
      ⊣⊢ iprop(((rwV).view.loc (V d c j) ↦[(halfR 0).set]{fullShare} f) ∗ ((rwV).view.loc (V d c j) ↦[(halfR 1).set]{fullShare} f)) := pointsTo_union halves_disjoint
  exact equiv_iff.mp ⟨hu.1, hu.2⟩

/-- A half is its two quarters. -/
theorem half_quarters (pp : Fin 2) (f : Buf (Elt F) ((rwV).view.loc (V d c j))) :
    ((halfM pp).view.loc (V d c j) ↦[(halfM pp).view.set]{fullShare} f : sProp 𝕄)
      = iprop(((quarterM pp 0).view.loc (V d c j) ↦[(quarterM pp 0).view.set]{fullShare} f) ∗ ((quarterM pp 1).view.loc (V d c j) ↦[(quarterM pp 1).view.set]{fullShare} f)) := by
  rw [set_halfM, set_quarterM, set_quarterM]
  show ((rwV).view.loc (V d c j) ↦[(halfR pp).set]{fullShare} f : sProp 𝕄)
    = iprop(((rwV).view.loc (V d c j) ↦[(quarterR pp 0).set]{fullShare} f) ∗ ((rwV).view.loc (V d c j) ↦[(quarterR pp 1).set]{fullShare} f))
  rw [← quarters_cover]
  have hu : ((rwV).view.loc (V d c j) ↦[(quarterR pp 0).set ∪ (quarterR pp 1).set]{fullShare} f : sProp 𝕄)
      ⊣⊢ iprop(((rwV).view.loc (V d c j) ↦[(quarterR pp 0).set]{fullShare} f) ∗ ((rwV).view.loc (V d c j) ↦[(quarterR pp 1).set]{fullShare} f)) := pointsTo_union (quarters_disjoint pp)
  exact equiv_iff.mp ⟨hu.1, hu.2⟩

end RwPts

/-! ## A part of what is held, and the rest -/

/-- Holding a set of an array's elements is holding any part of it and the rest. -/
theorem pts_split {ℓ : Loc nD τ sig} {A B : Finset (Idx ℓ)} (h : B ⊆ A) (q : PosShare TreeShare) (f : Buf (Elt F) ℓ) :
    (ℓ ↦[A]{q} f : sProp 𝕄) = iprop((ℓ ↦[B]{q} f) ∗ ℓ ↦[A \ B]{q} f) := by
  have hu : (ℓ ↦[A]{q} f : sProp 𝕄) ⊣⊢ iprop((ℓ ↦[B]{q} f) ∗ ℓ ↦[A \ B]{q} f) := pointsTo_split_subset h
  exact equiv_iff.mp ⟨hu.1, hu.2⟩

end Cert.Proof.KI

end
-- ==== Proof.KWrapLoops.lean ====
import proofs.«205114_g12446815224155_cont_fleet_488_32_alg».proof.Proof.KWrap
import proofs.«205114_g12446815224155_cont_fleet_488_32_alg».proof.Proof.KSpell
import proofs.«205114_g12446815224155_cont_fleet_488_32_alg».proof.Proof.KPieces

/-!
  The sixteen reduction loops. Each reduces one list of 128 row numbers modulo 3, sixteen words a trip: a trip loads
  sixteen words and stores their remainders where it loaded them. On words between 0 and 2 the remainder is the word, so
  a trip leaves the list as it found it; the list held whole at its contents is each loop's invariant.
-/

set_option maxRecDepth 16384
set_option warn.classDefReducibility false

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}
local notation "𝕄" => MT nD τ sig (HIx 1) (Elt F) ℕ UU ℕ
local notation "iV" => (Memref.whole Cert.KernelIdeal.main_v0_scv : Memref Cert.KernelIdeal.sig Kind.scVector Space.hbm Cert.KernelIdeal.S3276800 EltTy.i32)
local notation "tV" => (Memref.whole Cert.KernelIdeal.main_arg1_scv : Memref Cert.KernelIdeal.sig Kind.scVector Space.hbm Cert.KernelIdeal.S3x128 EltTy.f32)
local notation "oV" => (Memref.whole Cert.KernelIdeal.main_v1_scv : Memref Cert.KernelIdeal.sig Kind.scVector Space.hbm Cert.KernelIdeal.S25600x128x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)

variable [FloatOps F]

/-! ## One trip leaves the list as it found it -/

/-- Every word of list s of block bb is between 0 and 2, read signed. -/
def ListOK (bb : Fin 2) (s : Fin 8) (d : Dev nD) (c : Fin τ.nSC) (j : Fin τ.nSub) (f : Buf (Elt F) ((listM bb s).view.loc (V d c j))) : Prop :=
  ∀ y, 0 ≤ (((listM bb s).view.read (Elt F) f y : BitVec 32)).toInt ∧ (((listM bb s).view.read (Elt F) f y : BitVec 32)).toInt ≤ 2

/-- Sixteen words loaded from inside such a list are between 0 and 2. -/
theorem box_words_ok (bb : Fin 2) (s : Fin 8) (d : Dev nD) (c : Fin τ.nSC) (j : Fin τ.nSub)
    (f : Buf (Elt F) ((listM bb s).view.loc (V d c j))) (hf : ListOK bb s d c j f)
    (box : Rect S2x1024) (hbox : ((ibV).access box).set ⊆ (listM bb s).view.set) :
    ∀ x, 0 ≤ ((((ibV).access box).read (Elt F) f x : BitVec 32)).toInt ∧ ((((ibV).access box).read (Elt F) f x : BitVec 32)).toInt ≤ 2 := by
  intro x
  obtain ⟨y, -, hy⟩ := Finset.mem_map.mp (hbox (View.emb_mem_set _ x))
  have h := hf y
  rw [View.read_apply, hy] at h
  exact h

/-- A trip's store of the reduced words it loaded leaves the contents as they were. -/
theorem trip_fixed (bb : Fin 2) (s : Fin 8) (d : Dev nD) (c : Fin τ.nSC) (j : Fin τ.nSub)
    (f : Buf (Elt F) ((listM bb s).view.loc (V d c j))) (hf : ListOK bb s d c j f)
    (box : Rect S2x1024) (hbox : ((ibV).access box).set ⊆ (listM bb s).view.set)
    (pay : Vec F box.shape .i32 → Vec F box.shape .i32)
    (hpay : ∀ v : Vec F box.shape .i32, (∀ x, 0 ≤ ((v x : BitVec 32)).toInt ∧ ((v x : BitVec 32)).toInt ≤ 2) → pay v = v) :
    View.write (Elt F) ((ibV).access box) f (pay (View.readAt (Elt F) (ibV).view box.toLoadRect f)) Finset.univ = f := by
  have hv := box_words_ok bb s d c j f hf box hbox
  rw [show View.readAt (Elt F) (ibV).view box.toLoadRect f = ((ibV).access box).read (Elt F) f from rfl, hpay _ hv]
  rw [View.write_read_eq_piecewise]
  exact Finset.piecewise_same _ _

/-- A box of sixteen words at (row, col) lies in list s of block bb when row = bb and col … col + 15 lie in 128 s … 128 s + 127. -/
theorem box_sub_list (bb : Fin 2) (s : Fin 8) (off : Fin 2 → ℕ) (inb : ∀ a, off a + S1x16.size a ≤ S2x1024.size a)
    (h0 : off 0 = bb.val) (h1 : 128 * s.val ≤ off 1) (h2 : off 1 + 16 ≤ 128 * s.val + 128) :
    ((ibV).access (Rect.unit (s := S2x1024) off S1x16.size inb)).set ⊆ (listM bb s).view.set := by
  intro i hi
  rw [set_listM, mem_listR]
  have hi' : i ∈ (Rect.unit (s := S2x1024) off S1x16.size inb).set := by
    rwa [show ((ibV).access (Rect.unit (s := S2x1024) off S1x16.size inb)).set = _ from View.set_slice_whole _ _] at hi
  have h := (mem_unit2 _ _ inb i).mp hi'
  have s0 : S1x16.size 0 = 1 := rfl
  have s1 : S1x16.size 1 = 16 := rfl
  rw [s0, s1] at h
  omega

/-- A list of a block whose every word is between 0 and 2 has its words between 0 and 2: a list's word is one of the
    block's. -/
theorem listOK_of_slot (bb : Fin 2) (d : Dev nD) (c : Fin τ.nSC) (j : Fin τ.nSub) (f : Buf (Elt F) ((ibV).view.loc (V d c j)))
    (h : ∀ x, 0 ≤ (((slotM bb).view.read (Elt F) f x : BitVec 32)).toInt ∧ (((slotM bb).view.read (Elt F) f x : BitVec 32)).toInt ≤ 2)
    (s : Fin 8) : ListOK bb s d c j f := by
  intro y
  have hm : (listM bb s).view.emb y ∈ (slotM bb).view.set := by
    rw [set_slotM, mem_slotR]
    have hy := View.emb_mem_set (listM bb s).view y
    rw [set_listM, mem_listR] at hy
    exact hy.1
  obtain ⟨x, -, hx⟩ := Finset.mem_map.mp hm
  have hh := h x
  rw [View.read_apply, hx] at hh
  exact hh

/-! ## Loop 2: list 0 of block 0 -/

/-- The boxes of loop 2 lie in list 0 of block 0. -/
theorem hbox_t2 (k : Fin k0_t2_loop.trips) :
    ((ibV).access (Rect.unit (s := S2x1024) (k0_off3 k) S1x16.size (k0_off3_inb k))).set ⊆ (listM 0 0).view.set := by
  have e := k0_off3_eq k
  have hk : k.val < 8 := k.isLt
  refine box_sub_list 0 0 _ _ (by rw [e]; rfl) ?_ ?_
  · rw [e]; show 128 * 0 ≤ 16 * k.val + 0; omega
  · rw [e]; show 16 * k.val + 0 + 16 ≤ 128 * 0 + 128; omega

/-- The invariant of loop 2: list 0 of block 0 held whole at f. -/
def inv_t2 (d : Dev nD) (L : grid0.Coords) (f : Buf (Elt F) ((listM 0 0).view.loc (V d (cV L) (jV L)))) (_ : ℕ) (_ : Unit) : sProp 𝕄 :=
  (listM 0 0).view.loc (V d (cV L) (jV L)) ↦[(listM 0 0).view.set]{fullShare} f

/-- One trip of loop 2 keeps it, when the list's words are between 0 and 2. -/
theorem step_t2 (d : Dev nD) (L : grid0.Coords) (v5 v6 c0 c1 : BitVec 32) (k1 : Fin k0_t1_loop.trips)
    (f : Buf (Elt F) ((listM 0 0).view.loc (V d (cV L) (jV L)))) (hf : ListOK 0 0 d (cV L) (jV L) f) (k : Fin k0_t2_loop.trips) (acc : Unit) :
    inv_t2 d L f k acc
      ⊢ wp frame (wpE (defs₀ (F := F)) 𝒱₀ (V d (cV L) (jV L)) none) Set.univ
          (k0_t2_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 c0 c1 k1 k acc)
          (inv_t2 d L f (k.val + 1)) := by
  have hbox := hbox_t2 k
  unfold inv_t2
  iintro H
  sl_unfold [k0_t2_body]
  sl_exec
  have e : step_t2.sl.H_w1 d L f k = f :=
    trip_fixed 0 0 d (cV L) (jV L) f hf _ hbox (k0_pay1 (F := F)) (fun v hv => pay1_fixed v hv)
  rw [e]
  sl_step
  iexact H

/-- Loop 2 by its invariant. -/
def loopInv_t2 (d : Dev nD) (L : grid0.Coords) (v5 v6 c0 c1 : BitVec 32) (k1 : Fin k0_t1_loop.trips)
    (f : Buf (Elt F) ((listM 0 0).view.loc (V d (cV L) (jV L)))) (hf : ListOK 0 0 d (cV L) (jV L) f) :
    LoopInv (M := 𝕄) frame (wpE (defs₀ (F := F)) 𝒱₀ (V d (cV L) (jV L)) none) Set.univ k0_t2_loop.lb k0_t2_loop.ub k0_t2_loop.st k0_t2_ok ⟨⟩
      (k0_t2_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 c0 c1 k1) where
  inv := inv_t2 d L f
  step := step_t2 d L v5 v6 c0 c1 k1 f hf

/-! ## Loop 3: list 1 of block 0 -/

/-- The boxes of loop 3 lie in list 1 of block 0. -/
theorem hbox_t3 (k : Fin k0_t3_loop.trips) :
    ((ibV).access (Rect.unit (s := S2x1024) (k0_off4 k) S1x16.size (k0_off4_inb k))).set ⊆ (listM 0 1).view.set := by
  have e := k0_off4_eq k
  have hk : k.val < 8 := k.isLt
  refine box_sub_list 0 1 _ _ (by rw [e]; rfl) ?_ ?_
  · rw [e]; show 128 * 1 ≤ 16 * k.val + 128; omega
  · rw [e]; show 16 * k.val + 128 + 16 ≤ 128 * 1 + 128; omega

/-- The invariant of loop 3: list 1 of block 0 held whole at f. -/
def inv_t3 (d : Dev nD) (L : grid0.Coords) (f : Buf (Elt F) ((listM 0 1).view.loc (V d (cV L) (jV L)))) (_ : ℕ) (_ : Unit) : sProp 𝕄 :=
  (listM 0 1).view.loc (V d (cV L) (jV L)) ↦[(listM 0 1).view.set]{fullShare} f

/-- One trip of loop 3 keeps it, when the list's words are between 0 and 2. -/
theorem step_t3 (d : Dev nD) (L : grid0.Coords) (v5 v6 c0 c1 : BitVec 32) (k1 : Fin k0_t1_loop.trips)
    (f : Buf (Elt F) ((listM 0 1).view.loc (V d (cV L) (jV L)))) (hf : ListOK 0 1 d (cV L) (jV L) f) (k : Fin k0_t3_loop.trips) (acc : Unit) :
    inv_t3 d L f k acc
      ⊢ wp frame (wpE (defs₀ (F := F)) 𝒱₀ (V d (cV L) (jV L)) none) Set.univ
          (k0_t3_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 c0 c1 k1 k acc)
          (inv_t3 d L f (k.val + 1)) := by
  have hbox := hbox_t3 k
  unfold inv_t3
  iintro H
  sl_unfold [k0_t3_body]
  sl_exec
  have e : step_t3.sl.H_w1 d L f k = f :=
    trip_fixed 0 1 d (cV L) (jV L) f hf _ hbox (k0_pay2 (F := F)) (fun v hv => pay2_fixed v hv)
  rw [e]
  sl_step
  iexact H

/-- Loop 3 by its invariant. -/
def loopInv_t3 (d : Dev nD) (L : grid0.Coords) (v5 v6 c0 c1 : BitVec 32) (k1 : Fin k0_t1_loop.trips)
    (f : Buf (Elt F) ((listM 0 1).view.loc (V d (cV L) (jV L)))) (hf : ListOK 0 1 d (cV L) (jV L) f) :
    LoopInv (M := 𝕄) frame (wpE (defs₀ (F := F)) 𝒱₀ (V d (cV L) (jV L)) none) Set.univ k0_t3_loop.lb k0_t3_loop.ub k0_t3_loop.st k0_t3_ok ⟨⟩
      (k0_t3_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 c0 c1 k1) where
  inv := inv_t3 d L f
  step := step_t3 d L v5 v6 c0 c1 k1 f hf

/-! ## Loop 4: list 2 of block 0 -/

/-- The boxes of loop 4 lie in list 2 of block 0. -/
theorem hbox_t4 (k : Fin k0_t4_loop.trips) :
    ((ibV).access (Rect.unit (s := S2x1024) (k0_off6 k) S1x16.size (k0_off6_inb k))).set ⊆ (listM 0 2).view.set := by
  have e := k0_off6_eq k
  have hk : k.val < 8 := k.isLt
  refine box_sub_list 0 2 _ _ (by rw [e]; rfl) ?_ ?_
  · rw [e]; show 128 * 2 ≤ 16 * k.val + 256; omega
  · rw [e]; show 16 * k.val + 256 + 16 ≤ 128 * 2 + 128; omega

/-- The invariant of loop 4: list 2 of block 0 held whole at f. -/
def inv_t4 (d : Dev nD) (L : grid0.Coords) (f : Buf (Elt F) ((listM 0 2).view.loc (V d (cV L) (jV L)))) (_ : ℕ) (_ : Unit) : sProp 𝕄 :=
  (listM 0 2).view.loc (V d (cV L) (jV L)) ↦[(listM 0 2).view.set]{fullShare} f

/-- One trip of loop 4 keeps it, when the list's words are between 0 and 2. -/
theorem step_t4 (d : Dev nD) (L : grid0.Coords) (v5 v6 c0 c1 : BitVec 32) (k1 : Fin k0_t1_loop.trips)
    (f : Buf (Elt F) ((listM 0 2).view.loc (V d (cV L) (jV L)))) (hf : ListOK 0 2 d (cV L) (jV L) f) (k : Fin k0_t4_loop.trips) (acc : Unit) :
    inv_t4 d L f k acc
      ⊢ wp frame (wpE (defs₀ (F := F)) 𝒱₀ (V d (cV L) (jV L)) none) Set.univ
          (k0_t4_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 c0 c1 k1 k acc)
          (inv_t4 d L f (k.val + 1)) := by
  have hbox := hbox_t4 k
  unfold inv_t4
  iintro H
  sl_unfold [k0_t4_body]
  sl_exec
  have e : step_t4.sl.H_w1 d L f k = f :=
    trip_fixed 0 2 d (cV L) (jV L) f hf _ hbox (k0_pay3 (F := F)) (fun v hv => pay3_fixed v hv)
  rw [e]
  sl_step
  iexact H

/-- Loop 4 by its invariant. -/
def loopInv_t4 (d : Dev nD) (L : grid0.Coords) (v5 v6 c0 c1 : BitVec 32) (k1 : Fin k0_t1_loop.trips)
    (f : Buf (Elt F) ((listM 0 2).view.loc (V d (cV L) (jV L)))) (hf : ListOK 0 2 d (cV L) (jV L) f) :
    LoopInv (M := 𝕄) frame (wpE (defs₀ (F := F)) 𝒱₀ (V d (cV L) (jV L)) none) Set.univ k0_t4_loop.lb k0_t4_loop.ub k0_t4_loop.st k0_t4_ok ⟨⟩
      (k0_t4_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 c0 c1 k1) where
  inv := inv_t4 d L f
  step := step_t4 d L v5 v6 c0 c1 k1 f hf

/-! ## Loop 5: list 3 of block 0 -/

/-- The boxes of loop 5 lie in list 3 of block 0. -/
theorem hbox_t5 (k : Fin k0_t5_loop.trips) :
    ((ibV).access (Rect.unit (s := S2x1024) (k0_off8 k) S1x16.size (k0_off8_inb k))).set ⊆ (listM 0 3).view.set := by
  have e := k0_off8_eq k
  have hk : k.val < 8 := k.isLt
  refine box_sub_list 0 3 _ _ (by rw [e]; rfl) ?_ ?_
  · rw [e]; show 128 * 3 ≤ 16 * k.val + 384; omega
  · rw [e]; show 16 * k.val + 384 + 16 ≤ 128 * 3 + 128; omega

/-- The invariant of loop 5: list 3 of block 0 held whole at f. -/
def inv_t5 (d : Dev nD) (L : grid0.Coords) (f : Buf (Elt F) ((listM 0 3).view.loc (V d (cV L) (jV L)))) (_ : ℕ) (_ : Unit) : sProp 𝕄 :=
  (listM 0 3).view.loc (V d (cV L) (jV L)) ↦[(listM 0 3).view.set]{fullShare} f

/-- One trip of loop 5 keeps it, when the list's words are between 0 and 2. -/
theorem step_t5 (d : Dev nD) (L : grid0.Coords) (v5 v6 : BitVec 32) (k1 : Fin k0_t1_loop.trips) (v47 : BitVec 32) (v66 : BitVec 1)
    (f : Buf (Elt F) ((listM 0 3).view.loc (V d (cV L) (jV L)))) (hf : ListOK 0 3 d (cV L) (jV L) f) (k : Fin k0_t5_loop.trips) (acc : Unit) :
    inv_t5 d L f k acc
      ⊢ wp frame (wpE (defs₀ (F := F)) 𝒱₀ (V d (cV L) (jV L)) none) Set.univ
          (k0_t5_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k1 v47 v66 k acc)
          (inv_t5 d L f (k.val + 1)) := by
  have hbox := hbox_t5 k
  unfold inv_t5
  iintro H
  sl_unfold [k0_t5_body]
  sl_exec
  have e : step_t5.sl.H_w1 d L f k = f :=
    trip_fixed 0 3 d (cV L) (jV L) f hf _ hbox (k0_pay4 (F := F)) (fun v hv => pay4_fixed v hv)
  rw [e]
  sl_step
  iexact H

/-- Loop 5 by its invariant. -/
def loopInv_t5 (d : Dev nD) (L : grid0.Coords) (v5 v6 : BitVec 32) (k1 : Fin k0_t1_loop.trips) (v47 : BitVec 32) (v66 : BitVec 1)
    (f : Buf (Elt F) ((listM 0 3).view.loc (V d (cV L) (jV L)))) (hf : ListOK 0 3 d (cV L) (jV L) f) :
    LoopInv (M := 𝕄) frame (wpE (defs₀ (F := F)) 𝒱₀ (V d (cV L) (jV L)) none) Set.univ k0_t5_loop.lb k0_t5_loop.ub k0_t5_loop.st k0_t5_ok ⟨⟩
      (k0_t5_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k1 v47 v66) where
  inv := inv_t5 d L f
  step := step_t5 d L v5 v6 k1 v47 v66 f hf

/-! ## Loop 6: list 4 of block 0 -/

/-- The boxes of loop 6 lie in list 4 of block 0. -/
theorem hbox_t6 (k : Fin k0_t6_loop.trips) :
    ((ibV).access (Rect.unit (s := S2x1024) (k0_off11 k) S1x16.size (k0_off11_inb k))).set ⊆ (listM 0 4).view.set := by
  have e := k0_off11_eq k
  have hk : k.val < 8 := k.isLt
  refine box_sub_list 0 4 _ _ (by rw [e]; rfl) ?_ ?_
  · rw [e]; show 128 * 4 ≤ 16 * k.val + 512; omega
  · rw [e]; show 16 * k.val + 512 + 16 ≤ 128 * 4 + 128; omega

/-- The invariant of loop 6: list 4 of block 0 held whole at f. -/
def inv_t6 (d : Dev nD) (L : grid0.Coords) (f : Buf (Elt F) ((listM 0 4).view.loc (V d (cV L) (jV L)))) (_ : ℕ) (_ : Unit) : sProp 𝕄 :=
  (listM 0 4).view.loc (V d (cV L) (jV L)) ↦[(listM 0 4).view.set]{fullShare} f

/-- One trip of loop 6 keeps it, when the list's words are between 0 and 2. -/
theorem step_t6 (d : Dev nD) (L : grid0.Coords) (v5 v6 : BitVec 32) (k1 : Fin k0_t1_loop.trips) (v47 : BitVec 32) (v66 : BitVec 1)
    (f : Buf (Elt F) ((listM 0 4).view.loc (V d (cV L) (jV L)))) (hf : ListOK 0 4 d (cV L) (jV L) f) (k : Fin k0_t6_loop.trips) (acc : Unit) :
    inv_t6 d L f k acc
      ⊢ wp frame (wpE (defs₀ (F := F)) 𝒱₀ (V d (cV L) (jV L)) none) Set.univ
          (k0_t6_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k1 v47 v66 k acc)
          (inv_t6 d L f (k.val + 1)) := by
  have hbox := hbox_t6 k
  unfold inv_t6
  iintro H
  sl_unfold [k0_t6_body]
  sl_exec
  have e : step_t6.sl.H_w1 d L f k = f :=
    trip_fixed 0 4 d (cV L) (jV L) f hf _ hbox (k0_pay5 (F := F)) (fun v hv => pay5_fixed v hv)
  rw [e]
  sl_step
  iexact H

/-- Loop 6 by its invariant. -/
def loopInv_t6 (d : Dev nD) (L : grid0.Coords) (v5 v6 : BitVec 32) (k1 : Fin k0_t1_loop.trips) (v47 : BitVec 32) (v66 : BitVec 1)
    (f : Buf (Elt F) ((listM 0 4).view.loc (V d (cV L) (jV L)))) (hf : ListOK 0 4 d (cV L) (jV L) f) :
    LoopInv (M := 𝕄) frame (wpE (defs₀ (F := F)) 𝒱₀ (V d (cV L) (jV L)) none) Set.univ k0_t6_loop.lb k0_t6_loop.ub k0_t6_loop.st k0_t6_ok ⟨⟩
      (k0_t6_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k1 v47 v66) where
  inv := inv_t6 d L f
  step := step_t6 d L v5 v6 k1 v47 v66 f hf

/-! ## Loop 7: list 5 of block 0 -/

/-- The boxes of loop 7 lie in list 5 of block 0. -/
theorem hbox_t7 (k : Fin k0_t7_loop.trips) :
    ((ibV).access (Rect.unit (s := S2x1024) (k0_off13 k) S1x16.size (k0_off13_inb k))).set ⊆ (listM 0 5).view.set := by
  have e := k0_off13_eq k
  have hk : k.val < 8 := k.isLt
  refine box_sub_list 0 5 _ _ (by rw [e]; rfl) ?_ ?_
  · rw [e]; show 128 * 5 ≤ 16 * k.val + 640; omega
  · rw [e]; show 16 * k.val + 640 + 16 ≤ 128 * 5 + 128; omega

/-- The invariant of loop 7: list 5 of block 0 held whole at f. -/
def inv_t7 (d : Dev nD) (L : grid0.Coords) (f : Buf (Elt F) ((listM 0 5).view.loc (V d (cV L) (jV L)))) (_ : ℕ) (_ : Unit) : sProp 𝕄 :=
  (listM 0 5).view.loc (V d (cV L) (jV L)) ↦[(listM 0 5).view.set]{fullShare} f

/-- One trip of loop 7 keeps it, when the list's words are between 0 and 2. -/
theorem step_t7 (d : Dev nD) (L : grid0.Coords) (v6 : BitVec 32)
    (f : Buf (Elt F) ((listM 0 5).view.loc (V d (cV L) (jV L)))) (hf : ListOK 0 5 d (cV L) (jV L) f) (k : Fin k0_t7_loop.trips) (acc : Unit) :
    inv_t7 d L f k acc
      ⊢ wp frame (wpE (defs₀ (F := F)) 𝒱₀ (V d (cV L) (jV L)) none) Set.univ
          (k0_t7_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k acc)
          (inv_t7 d L f (k.val + 1)) := by
  have hbox := hbox_t7 k
  unfold inv_t7
  iintro H
  sl_unfold [k0_t7_body]
  sl_exec
  have e : step_t7.sl.H_w1 d L f k = f :=
    trip_fixed 0 5 d (cV L) (jV L) f hf _ hbox (k0_pay6 (F := F)) (fun v hv => pay6_fixed v hv)
  rw [e]
  sl_step
  iexact H

/-- Loop 7 by its invariant. -/
def loopInv_t7 (d : Dev nD) (L : grid0.Coords) (v6 : BitVec 32)
    (f : Buf (Elt F) ((listM 0 5).view.loc (V d (cV L) (jV L)))) (hf : ListOK 0 5 d (cV L) (jV L) f) :
    LoopInv (M := 𝕄) frame (wpE (defs₀ (F := F)) 𝒱₀ (V d (cV L) (jV L)) none) Set.univ k0_t7_loop.lb k0_t7_loop.ub k0_t7_loop.st k0_t7_ok ⟨⟩
      (k0_t7_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6) where
  inv := inv_t7 d L f
  step := step_t7 d L v6 f hf

/-! ## Loop 8: list 6 of block 0 -/

/-- The boxes of loop 8 lie in list 6 of block 0. -/
theorem hbox_t8 (k : Fin k0_t8_loop.trips) :
    ((ibV).access (Rect.unit (s := S2x1024) (k0_off15 k) S1x16.size (k0_off15_inb k))).set ⊆ (listM 0 6).view.set := by
  have e := k0_off15_eq k
  have hk : k.val < 8 := k.isLt
  refine box_sub_list 0 6 _ _ (by rw [e]; rfl) ?_ ?_
  · rw [e]; show 128 * 6 ≤ 16 * k.val + 768; omega
  · rw [e]; show 16 * k.val + 768 + 16 ≤ 128 * 6 + 128; omega

/-- The invariant of loop 8: list 6 of block 0 held whole at f. -/
def inv_t8 (d : Dev nD) (L : grid0.Coords) (f : Buf (Elt F) ((listM 0 6).view.loc (V d (cV L) (jV L)))) (_ : ℕ) (_ : Unit) : sProp 𝕄 :=
  (listM 0 6).view.loc (V d (cV L) (jV L)) ↦[(listM 0 6).view.set]{fullShare} f

/-- One trip of loop 8 keeps it, when the list's words are between 0 and 2. -/
theorem step_t8 (d : Dev nD) (L : grid0.Coords) (v6 : BitVec 32)
    (f : Buf (Elt F) ((listM 0 6).view.loc (V d (cV L) (jV L)))) (hf : ListOK 0 6 d (cV L) (jV L) f) (k : Fin k0_t8_loop.trips) (acc : Unit) :
    inv_t8 d L f k acc
      ⊢ wp frame (wpE (defs₀ (F := F)) 𝒱₀ (V d (cV L) (jV L)) none) Set.univ
          (k0_t8_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k acc)
          (inv_t8 d L f (k.val + 1)) := by
  have hbox := hbox_t8 k
  unfold inv_t8
  iintro H
  sl_unfold [k0_t8_body]
  sl_exec
  have e : step_t8.sl.H_w1 d L f k = f :=
    trip_fixed 0 6 d (cV L) (jV L) f hf _ hbox (k0_pay7 (F := F)) (fun v hv => pay7_fixed v hv)
  rw [e]
  sl_step
  iexact H

/-- Loop 8 by its invariant. -/
def loopInv_t8 (d : Dev nD) (L : grid0.Coords) (v6 : BitVec 32)
    (f : Buf (Elt F) ((listM 0 6).view.loc (V d (cV L) (jV L)))) (hf : ListOK 0 6 d (cV L) (jV L) f) :
    LoopInv (M := 𝕄) frame (wpE (defs₀ (F := F)) 𝒱₀ (V d (cV L) (jV L)) none) Set.univ k0_t8_loop.lb k0_t8_loop.ub k0_t8_loop.st k0_t8_ok ⟨⟩
      (k0_t8_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6) where
  inv := inv_t8 d L f
  step := step_t8 d L v6 f hf

/-! ## Loop 9: list 7 of block 0 -/

/-- The boxes of loop 9 lie in list 7 of block 0. -/
theorem hbox_t9 (k : Fin k0_t9_loop.trips) :
    ((ibV).access (Rect.unit (s := S2x1024) (k0_off16 k) S1x16.size (k0_off16_inb k))).set ⊆ (listM 0 7).view.set := by
  have e := k0_off16_eq k
  have hk : k.val < 8 := k.isLt
  refine box_sub_list 0 7 _ _ (by rw [e]; rfl) ?_ ?_
  · rw [e]; show 128 * 7 ≤ 16 * k.val + 896; omega
  · rw [e]; show 16 * k.val + 896 + 16 ≤ 128 * 7 + 128; omega

/-- The invariant of loop 9: list 7 of block 0 held whole at f. -/
def inv_t9 (d : Dev nD) (L : grid0.Coords) (f : Buf (Elt F) ((listM 0 7).view.loc (V d (cV L) (jV L)))) (_ : ℕ) (_ : Unit) : sProp 𝕄 :=
  (listM 0 7).view.loc (V d (cV L) (jV L)) ↦[(listM 0 7).view.set]{fullShare} f

/-- One trip of loop 9 keeps it, when the list's words are between 0 and 2. -/
theorem step_t9 (d : Dev nD) (L : grid0.Coords) (v6 c0 : BitVec 32)
    (f : Buf (Elt F) ((listM 0 7).view.loc (V d (cV L) (jV L)))) (hf : ListOK 0 7 d (cV L) (jV L) f) (k : Fin k0_t9_loop.trips) (acc : Unit) :
    inv_t9 d L f k acc
      ⊢ wp frame (wpE (defs₀ (F := F)) 𝒱₀ (V d (cV L) (jV L)) none) Set.univ
          (k0_t9_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 c0 k acc)
          (inv_t9 d L f (k.val + 1)) := by
  have hbox := hbox_t9 k
  unfold inv_t9
  iintro H
  sl_unfold [k0_t9_body]
  sl_exec
  have e : step_t9.sl.H_w1 d L f k = f :=
    trip_fixed 0 7 d (cV L) (jV L) f hf _ hbox (k0_pay8 (F := F)) (fun v hv => pay8_fixed v hv)
  rw [e]
  sl_step
  iexact H

/-- Loop 9 by its invariant. -/
def loopInv_t9 (d : Dev nD) (L : grid0.Coords) (v6 c0 : BitVec 32)
    (f : Buf (Elt F) ((listM 0 7).view.loc (V d (cV L) (jV L)))) (hf : ListOK 0 7 d (cV L) (jV L) f) :
    LoopInv (M := 𝕄) frame (wpE (defs₀ (F := F)) 𝒱₀ (V d (cV L) (jV L)) none) Set.univ k0_t9_loop.lb k0_t9_loop.ub k0_t9_loop.st k0_t9_ok ⟨⟩
      (k0_t9_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 c0) where
  inv := inv_t9 d L f
  step := step_t9 d L v6 c0 f hf

/-! ## Loop 10: list 0 of block 1 -/

/-- The boxes of loop 10 lie in list 0 of block 1. -/
theorem hbox_t10 (k : Fin k0_t10_loop.trips) :
    ((ibV).access (Rect.unit (s := S2x1024) (k0_off17 k) S1x16.size (k0_off17_inb k))).set ⊆ (listM 1 0).view.set := by
  have e := k0_off17_eq k
  have hk : k.val < 8 := k.isLt
  refine box_sub_list 1 0 _ _ (by rw [e]; rfl) ?_ ?_
  · rw [e]; show 128 * 0 ≤ 16 * k.val + 0; omega
  · rw [e]; show 16 * k.val + 0 + 16 ≤ 128 * 0 + 128; omega

/-- The invariant of loop 10: list 0 of block 1 held whole at f. -/
def inv_t10 (d : Dev nD) (L : grid0.Coords) (f : Buf (Elt F) ((listM 1 0).view.loc (V d (cV L) (jV L)))) (_ : ℕ) (_ : Unit) : sProp 𝕄 :=
  (listM 1 0).view.loc (V d (cV L) (jV L)) ↦[(listM 1 0).view.set]{fullShare} f

/-- One trip of loop 10 keeps it, when the list's words are between 0 and 2. -/
theorem step_t10 (d : Dev nD) (L : grid0.Coords) (v6 : BitVec 32) (k1 : Fin k0_t1_loop.trips) (v187 c0 : BitVec 32)
    (f : Buf (Elt F) ((listM 1 0).view.loc (V d (cV L) (jV L)))) (hf : ListOK 1 0 d (cV L) (jV L) f) (k : Fin k0_t10_loop.trips) (acc : Unit) :
    inv_t10 d L f k acc
      ⊢ wp frame (wpE (defs₀ (F := F)) 𝒱₀ (V d (cV L) (jV L)) none) Set.univ
          (k0_t10_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187 c0 k acc)
          (inv_t10 d L f (k.val + 1)) := by
  have hbox := hbox_t10 k
  unfold inv_t10
  iintro H
  sl_unfold [k0_t10_body]
  sl_exec
  have e : step_t10.sl.H_w1 d L f k = f :=
    trip_fixed 1 0 d (cV L) (jV L) f hf _ hbox (k0_pay9 (F := F)) (fun v hv => pay9_fixed v hv)
  rw [e]
  sl_step
  iexact H

/-- Loop 10 by its invariant. -/
def loopInv_t10 (d : Dev nD) (L : grid0.Coords) (v6 : BitVec 32) (k1 : Fin k0_t1_loop.trips) (v187 c0 : BitVec 32)
    (f : Buf (Elt F) ((listM 1 0).view.loc (V d (cV L) (jV L)))) (hf : ListOK 1 0 d (cV L) (jV L) f) :
    LoopInv (M := 𝕄) frame (wpE (defs₀ (F := F)) 𝒱₀ (V d (cV L) (jV L)) none) Set.univ k0_t10_loop.lb k0_t10_loop.ub k0_t10_loop.st k0_t10_ok ⟨⟩
      (k0_t10_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187 c0) where
  inv := inv_t10 d L f
  step := step_t10 d L v6 k1 v187 c0 f hf

/-! ## Loop 11: list 1 of block 1 -/

/-- The boxes of loop 11 lie in list 1 of block 1. -/
theorem hbox_t11 (k : Fin k0_t11_loop.trips) :
    ((ibV).access (Rect.unit (s := S2x1024) (k0_off18 k) S1x16.size (k0_off18_inb k))).set ⊆ (listM 1 1).view.set := by
  have e := k0_off18_eq k
  have hk : k.val < 8 := k.isLt
  refine box_sub_list 1 1 _ _ (by rw [e]; rfl) ?_ ?_
  · rw [e]; show 128 * 1 ≤ 16 * k.val + 128; omega
  · rw [e]; show 16 * k.val + 128 + 16 ≤ 128 * 1 + 128; omega

/-- The invariant of loop 11: list 1 of block 1 held whole at f. -/
def inv_t11 (d : Dev nD) (L : grid0.Coords) (f : Buf (Elt F) ((listM 1 1).view.loc (V d (cV L) (jV L)))) (_ : ℕ) (_ : Unit) : sProp 𝕄 :=
  (listM 1 1).view.loc (V d (cV L) (jV L)) ↦[(listM 1 1).view.set]{fullShare} f

/-- One trip of loop 11 keeps it, when the list's words are between 0 and 2. -/
theorem step_t11 (d : Dev nD) (L : grid0.Coords) (v6 : BitVec 32) (k1 : Fin k0_t1_loop.trips) (v187 c0 : BitVec 32)
    (f : Buf (Elt F) ((listM 1 1).view.loc (V d (cV L) (jV L)))) (hf : ListOK 1 1 d (cV L) (jV L) f) (k : Fin k0_t11_loop.trips) (acc : Unit) :
    inv_t11 d L f k acc
      ⊢ wp frame (wpE (defs₀ (F := F)) 𝒱₀ (V d (cV L) (jV L)) none) Set.univ
          (k0_t11_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187 c0 k acc)
          (inv_t11 d L f (k.val + 1)) := by
  have hbox := hbox_t11 k
  unfold inv_t11
  iintro H
  sl_unfold [k0_t11_body]
  sl_exec
  have e : step_t11.sl.H_w1 d L f k = f :=
    trip_fixed 1 1 d (cV L) (jV L) f hf _ hbox (k0_pay10 (F := F)) (fun v hv => pay10_fixed v hv)
  rw [e]
  sl_step
  iexact H

/-- Loop 11 by its invariant. -/
def loopInv_t11 (d : Dev nD) (L : grid0.Coords) (v6 : BitVec 32) (k1 : Fin k0_t1_loop.trips) (v187 c0 : BitVec 32)
    (f : Buf (Elt F) ((listM 1 1).view.loc (V d (cV L) (jV L)))) (hf : ListOK 1 1 d (cV L) (jV L) f) :
    LoopInv (M := 𝕄) frame (wpE (defs₀ (F := F)) 𝒱₀ (V d (cV L) (jV L)) none) Set.univ k0_t11_loop.lb k0_t11_loop.ub k0_t11_loop.st k0_t11_ok ⟨⟩
      (k0_t11_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187 c0) where
  inv := inv_t11 d L f
  step := step_t11 d L v6 k1 v187 c0 f hf

/-! ## Loop 12: list 2 of block 1 -/

/-- The boxes of loop 12 lie in list 2 of block 1. -/
theorem hbox_t12 (k : Fin k0_t12_loop.trips) :
    ((ibV).access (Rect.unit (s := S2x1024) (k0_off20 k) S1x16.size (k0_off20_inb k))).set ⊆ (listM 1 2).view.set := by
  have e := k0_off20_eq k
  have hk : k.val < 8 := k.isLt
  refine box_sub_list 1 2 _ _ (by rw [e]; rfl) ?_ ?_
  · rw [e]; show 128 * 2 ≤ 16 * k.val + 256; omega
  · rw [e]; show 16 * k.val + 256 + 16 ≤ 128 * 2 + 128; omega

/-- The invariant of loop 12: list 2 of block 1 held whole at f. -/
def inv_t12 (d : Dev nD) (L : grid0.Coords) (f : Buf (Elt F) ((listM 1 2).view.loc (V d (cV L) (jV L)))) (_ : ℕ) (_ : Unit) : sProp 𝕄 :=
  (listM 1 2).view.loc (V d (cV L) (jV L)) ↦[(listM 1 2).view.set]{fullShare} f

/-- One trip of loop 12 keeps it, when the list's words are between 0 and 2. -/
theorem step_t12 (d : Dev nD) (L : grid0.Coords) (v6 : BitVec 32) (k1 : Fin k0_t1_loop.trips) (v187 c0 : BitVec 32)
    (f : Buf (Elt F) ((listM 1 2).view.loc (V d (cV L) (jV L)))) (hf : ListOK 1 2 d (cV L) (jV L) f) (k : Fin k0_t12_loop.trips) (acc : Unit) :
    inv_t12 d L f k acc
      ⊢ wp frame (wpE (defs₀ (F := F)) 𝒱₀ (V d (cV L) (jV L)) none) Set.univ
          (k0_t12_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187 c0 k acc)
          (inv_t12 d L f (k.val + 1)) := by
  have hbox := hbox_t12 k
  unfold inv_t12
  iintro H
  sl_unfold [k0_t12_body]
  sl_exec
  have e : step_t12.sl.H_w1 d L f k = f :=
    trip_fixed 1 2 d (cV L) (jV L) f hf _ hbox (k0_pay11 (F := F)) (fun v hv => pay11_fixed v hv)
  rw [e]
  sl_step
  iexact H

/-- Loop 12 by its invariant. -/
def loopInv_t12 (d : Dev nD) (L : grid0.Coords) (v6 : BitVec 32) (k1 : Fin k0_t1_loop.trips) (v187 c0 : BitVec 32)
    (f : Buf (Elt F) ((listM 1 2).view.loc (V d (cV L) (jV L)))) (hf : ListOK 1 2 d (cV L) (jV L) f) :
    LoopInv (M := 𝕄) frame (wpE (defs₀ (F := F)) 𝒱₀ (V d (cV L) (jV L)) none) Set.univ k0_t12_loop.lb k0_t12_loop.ub k0_t12_loop.st k0_t12_ok ⟨⟩
      (k0_t12_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187 c0) where
  inv := inv_t12 d L f
  step := step_t12 d L v6 k1 v187 c0 f hf

/-! ## Loop 13: list 3 of block 1 -/

/-- The boxes of loop 13 lie in list 3 of block 1. -/
theorem hbox_t13 (k : Fin k0_t13_loop.trips) :
    ((ibV).access (Rect.unit (s := S2x1024) (k0_off22 k) S1x16.size (k0_off22_inb k))).set ⊆ (listM 1 3).view.set := by
  have e := k0_off22_eq k
  have hk : k.val < 8 := k.isLt
  refine box_sub_list 1 3 _ _ (by rw [e]; rfl) ?_ ?_
  · rw [e]; show 128 * 3 ≤ 16 * k.val + 384; omega
  · rw [e]; show 16 * k.val + 384 + 16 ≤ 128 * 3 + 128; omega

/-- The invariant of loop 13: list 3 of block 1 held whole at f. -/
def inv_t13 (d : Dev nD) (L : grid0.Coords) (f : Buf (Elt F) ((listM 1 3).view.loc (V d (cV L) (jV L)))) (_ : ℕ) (_ : Unit) : sProp 𝕄 :=
  (listM 1 3).view.loc (V d (cV L) (jV L)) ↦[(listM 1 3).view.set]{fullShare} f

/-- One trip of loop 13 keeps it, when the list's words are between 0 and 2. -/
theorem step_t13 (d : Dev nD) (L : grid0.Coords) (v5 v6 : BitVec 32) (k1 : Fin k0_t1_loop.trips) (v187 : BitVec 32)
    (f : Buf (Elt F) ((listM 1 3).view.loc (V d (cV L) (jV L)))) (hf : ListOK 1 3 d (cV L) (jV L) f) (k : Fin k0_t13_loop.trips) (acc : Unit) :
    inv_t13 d L f k acc
      ⊢ wp frame (wpE (defs₀ (F := F)) 𝒱₀ (V d (cV L) (jV L)) none) Set.univ
          (k0_t13_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k1 v187 k acc)
          (inv_t13 d L f (k.val + 1)) := by
  have hbox := hbox_t13 k
  unfold inv_t13
  iintro H
  sl_unfold [k0_t13_body]
  sl_exec
  have e : step_t13.sl.H_w1 d L f k = f :=
    trip_fixed 1 3 d (cV L) (jV L) f hf _ hbox (k0_pay12 (F := F)) (fun v hv => pay12_fixed v hv)
  rw [e]
  sl_step
  iexact H

/-- Loop 13 by its invariant. -/
def loopInv_t13 (d : Dev nD) (L : grid0.Coords) (v5 v6 : BitVec 32) (k1 : Fin k0_t1_loop.trips) (v187 : BitVec 32)
    (f : Buf (Elt F) ((listM 1 3).view.loc (V d (cV L) (jV L)))) (hf : ListOK 1 3 d (cV L) (jV L) f) :
    LoopInv (M := 𝕄) frame (wpE (defs₀ (F := F)) 𝒱₀ (V d (cV L) (jV L)) none) Set.univ k0_t13_loop.lb k0_t13_loop.ub k0_t13_loop.st k0_t13_ok ⟨⟩
      (k0_t13_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k1 v187) where
  inv := inv_t13 d L f
  step := step_t13 d L v5 v6 k1 v187 f hf

/-! ## Loop 14: list 4 of block 1 -/

/-- The boxes of loop 14 lie in list 4 of block 1. -/
theorem hbox_t14 (k : Fin k0_t14_loop.trips) :
    ((ibV).access (Rect.unit (s := S2x1024) (k0_off25 k) S1x16.size (k0_off25_inb k))).set ⊆ (listM 1 4).view.set := by
  have e := k0_off25_eq k
  have hk : k.val < 8 := k.isLt
  refine box_sub_list 1 4 _ _ (by rw [e]; rfl) ?_ ?_
  · rw [e]; show 128 * 4 ≤ 16 * k.val + 512; omega
  · rw [e]; show 16 * k.val + 512 + 16 ≤ 128 * 4 + 128; omega

/-- The invariant of loop 14: list 4 of block 1 held whole at f. -/
def inv_t14 (d : Dev nD) (L : grid0.Coords) (f : Buf (Elt F) ((listM 1 4).view.loc (V d (cV L) (jV L)))) (_ : ℕ) (_ : Unit) : sProp 𝕄 :=
  (listM 1 4).view.loc (V d (cV L) (jV L)) ↦[(listM 1 4).view.set]{fullShare} f

/-- One trip of loop 14 keeps it, when the list's words are between 0 and 2. -/
theorem step_t14 (d : Dev nD) (L : grid0.Coords) (v5 v6 : BitVec 32) (k1 : Fin k0_t1_loop.trips) (v187 : BitVec 32)
    (f : Buf (Elt F) ((listM 1 4).view.loc (V d (cV L) (jV L)))) (hf : ListOK 1 4 d (cV L) (jV L) f) (k : Fin k0_t14_loop.trips) (acc : Unit) :
    inv_t14 d L f k acc
      ⊢ wp frame (wpE (defs₀ (F := F)) 𝒱₀ (V d (cV L) (jV L)) none) Set.univ
          (k0_t14_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k1 v187 k acc)
          (inv_t14 d L f (k.val + 1)) := by
  have hbox := hbox_t14 k
  unfold inv_t14
  iintro H
  sl_unfold [k0_t14_body]
  sl_exec
  have e : step_t14.sl.H_w1 d L f k = f :=
    trip_fixed 1 4 d (cV L) (jV L) f hf _ hbox (k0_pay13 (F := F)) (fun v hv => pay13_fixed v hv)
  rw [e]
  sl_step
  iexact H

/-- Loop 14 by its invariant. -/
def loopInv_t14 (d : Dev nD) (L : grid0.Coords) (v5 v6 : BitVec 32) (k1 : Fin k0_t1_loop.trips) (v187 : BitVec 32)
    (f : Buf (Elt F) ((listM 1 4).view.loc (V d (cV L) (jV L)))) (hf : ListOK 1 4 d (cV L) (jV L) f) :
    LoopInv (M := 𝕄) frame (wpE (defs₀ (F := F)) 𝒱₀ (V d (cV L) (jV L)) none) Set.univ k0_t14_loop.lb k0_t14_loop.ub k0_t14_loop.st k0_t14_ok ⟨⟩
      (k0_t14_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k1 v187) where
  inv := inv_t14 d L f
  step := step_t14 d L v5 v6 k1 v187 f hf

/-! ## Loop 15: list 5 of block 1 -/

/-- The boxes of loop 15 lie in list 5 of block 1. -/
theorem hbox_t15 (k : Fin k0_t15_loop.trips) :
    ((ibV).access (Rect.unit (s := S2x1024) (k0_off26 k) S1x16.size (k0_off26_inb k))).set ⊆ (listM 1 5).view.set := by
  have e := k0_off26_eq k
  have hk : k.val < 8 := k.isLt
  refine box_sub_list 1 5 _ _ (by rw [e]; rfl) ?_ ?_
  · rw [e]; show 128 * 5 ≤ 16 * k.val + 640; omega
  · rw [e]; show 16 * k.val + 640 + 16 ≤ 128 * 5 + 128; omega

/-- The invariant of loop 15: list 5 of block 1 held whole at f. -/
def inv_t15 (d : Dev nD) (L : grid0.Coords) (f : Buf (Elt F) ((listM 1 5).view.loc (V d (cV L) (jV L)))) (_ : ℕ) (_ : Unit) : sProp 𝕄 :=
  (listM 1 5).view.loc (V d (cV L) (jV L)) ↦[(listM 1 5).view.set]{fullShare} f

/-- One trip of loop 15 keeps it, when the list's words are between 0 and 2. -/
theorem step_t15 (d : Dev nD) (L : grid0.Coords) (v6 : BitVec 32) (k1 : Fin k0_t1_loop.trips) (v187 : BitVec 32)
    (f : Buf (Elt F) ((listM 1 5).view.loc (V d (cV L) (jV L)))) (hf : ListOK 1 5 d (cV L) (jV L) f) (k : Fin k0_t15_loop.trips) (acc : Unit) :
    inv_t15 d L f k acc
      ⊢ wp frame (wpE (defs₀ (F := F)) 𝒱₀ (V d (cV L) (jV L)) none) Set.univ
          (k0_t15_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187 k acc)
          (inv_t15 d L f (k.val + 1)) := by
  have hbox := hbox_t15 k
  unfold inv_t15
  iintro H
  sl_unfold [k0_t15_body]
  sl_exec
  have e : step_t15.sl.H_w1 d L f k = f :=
    trip_fixed 1 5 d (cV L) (jV L) f hf _ hbox (k0_pay14 (F := F)) (fun v hv => pay14_fixed v hv)
  rw [e]
  sl_step
  iexact H

/-- Loop 15 by its invariant. -/
def loopInv_t15 (d : Dev nD) (L : grid0.Coords) (v6 : BitVec 32) (k1 : Fin k0_t1_loop.trips) (v187 : BitVec 32)
    (f : Buf (Elt F) ((listM 1 5).view.loc (V d (cV L) (jV L)))) (hf : ListOK 1 5 d (cV L) (jV L) f) :
    LoopInv (M := 𝕄) frame (wpE (defs₀ (F := F)) 𝒱₀ (V d (cV L) (jV L)) none) Set.univ k0_t15_loop.lb k0_t15_loop.ub k0_t15_loop.st k0_t15_ok ⟨⟩
      (k0_t15_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187) where
  inv := inv_t15 d L f
  step := step_t15 d L v6 k1 v187 f hf

/-! ## Loop 16: list 6 of block 1 -/

/-- The boxes of loop 16 lie in list 6 of block 1. -/
theorem hbox_t16 (k : Fin k0_t16_loop.trips) :
    ((ibV).access (Rect.unit (s := S2x1024) (k0_off27 k) S1x16.size (k0_off27_inb k))).set ⊆ (listM 1 6).view.set := by
  have e := k0_off27_eq k
  have hk : k.val < 8 := k.isLt
  refine box_sub_list 1 6 _ _ (by rw [e]; rfl) ?_ ?_
  · rw [e]; show 128 * 6 ≤ 16 * k.val + 768; omega
  · rw [e]; show 16 * k.val + 768 + 16 ≤ 128 * 6 + 128; omega

/-- The invariant of loop 16: list 6 of block 1 held whole at f. -/
def inv_t16 (d : Dev nD) (L : grid0.Coords) (f : Buf (Elt F) ((listM 1 6).view.loc (V d (cV L) (jV L)))) (_ : ℕ) (_ : Unit) : sProp 𝕄 :=
  (listM 1 6).view.loc (V d (cV L) (jV L)) ↦[(listM 1 6).view.set]{fullShare} f

/-- One trip of loop 16 keeps it, when the list's words are between 0 and 2. -/
theorem step_t16 (d : Dev nD) (L : grid0.Coords)
    (f : Buf (Elt F) ((listM 1 6).view.loc (V d (cV L) (jV L)))) (hf : ListOK 1 6 d (cV L) (jV L) f) (k : Fin k0_t16_loop.trips) (acc : Unit) :
    inv_t16 d L f k acc
      ⊢ wp frame (wpE (defs₀ (F := F)) 𝒱₀ (V d (cV L) (jV L)) none) Set.univ
          (k0_t16_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 k acc)
          (inv_t16 d L f (k.val + 1)) := by
  have hbox := hbox_t16 k
  unfold inv_t16
  iintro H
  sl_unfold [k0_t16_body]
  sl_exec
  have e : step_t16.sl.H_w1 d L f k = f :=
    trip_fixed 1 6 d (cV L) (jV L) f hf _ hbox (k0_pay15 (F := F)) (fun v hv => pay15_fixed v hv)
  rw [e]
  sl_step
  iexact H

/-- Loop 16 by its invariant. -/
def loopInv_t16 (d : Dev nD) (L : grid0.Coords)
    (f : Buf (Elt F) ((listM 1 6).view.loc (V d (cV L) (jV L)))) (hf : ListOK 1 6 d (cV L) (jV L) f) :
    LoopInv (M := 𝕄) frame (wpE (defs₀ (F := F)) 𝒱₀ (V d (cV L) (jV L)) none) Set.univ k0_t16_loop.lb k0_t16_loop.ub k0_t16_loop.st k0_t16_ok ⟨⟩
      (k0_t16_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0) where
  inv := inv_t16 d L f
  step := step_t16 d L f hf

/-! ## Loop 17: list 7 of block 1 -/

/-- The boxes of loop 17 lie in list 7 of block 1. -/
theorem hbox_t17 (k : Fin k0_t17_loop.trips) :
    ((ibV).access (Rect.unit (s := S2x1024) (k0_off28 k) S1x16.size (k0_off28_inb k))).set ⊆ (listM 1 7).view.set := by
  have e := k0_off28_eq k
  have hk : k.val < 8 := k.isLt
  refine box_sub_list 1 7 _ _ (by rw [e]; rfl) ?_ ?_
  · rw [e]; show 128 * 7 ≤ 16 * k.val + 896; omega
  · rw [e]; show 16 * k.val + 896 + 16 ≤ 128 * 7 + 128; omega

/-- The invariant of loop 17: list 7 of block 1 held whole at f. -/
def inv_t17 (d : Dev nD) (L : grid0.Coords) (f : Buf (Elt F) ((listM 1 7).view.loc (V d (cV L) (jV L)))) (_ : ℕ) (_ : Unit) : sProp 𝕄 :=
  (listM 1 7).view.loc (V d (cV L) (jV L)) ↦[(listM 1 7).view.set]{fullShare} f

/-- One trip of loop 17 keeps it, when the list's words are between 0 and 2. -/
theorem step_t17 (d : Dev nD) (L : grid0.Coords) (v6 : BitVec 32) (k1 : Fin k0_t1_loop.trips) (v187 : BitVec 32)
    (f : Buf (Elt F) ((listM 1 7).view.loc (V d (cV L) (jV L)))) (hf : ListOK 1 7 d (cV L) (jV L) f) (k : Fin k0_t17_loop.trips) (acc : Unit) :
    inv_t17 d L f k acc
      ⊢ wp frame (wpE (defs₀ (F := F)) 𝒱₀ (V d (cV L) (jV L)) none) Set.univ
          (k0_t17_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187 k acc)
          (inv_t17 d L f (k.val + 1)) := by
  have hbox := hbox_t17 k
  unfold inv_t17
  iintro H
  sl_unfold [k0_t17_body]
  sl_exec
  have e : step_t17.sl.H_w1 d L f k = f :=
    trip_fixed 1 7 d (cV L) (jV L) f hf _ hbox (k0_pay16 (F := F)) (fun v hv => pay16_fixed v hv)
  rw [e]
  sl_step
  iexact H

/-- Loop 17 by its invariant. -/
def loopInv_t17 (d : Dev nD) (L : grid0.Coords) (v6 : BitVec 32) (k1 : Fin k0_t1_loop.trips) (v187 : BitVec 32)
    (f : Buf (Elt F) ((listM 1 7).view.loc (V d (cV L) (jV L)))) (hf : ListOK 1 7 d (cV L) (jV L) f) :
    LoopInv (M := 𝕄) frame (wpE (defs₀ (F := F)) 𝒱₀ (V d (cV L) (jV L)) none) Set.univ k0_t17_loop.lb k0_t17_loop.ub k0_t17_loop.st k0_t17_ok ⟨⟩
      (k0_t17_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187) where
  inv := inv_t17 d L f
  step := step_t17 d L v6 k1 v187 f hf

end Cert.Proof.KI

end
-- ==== Proof.KGather.lean ====
import proofs.«205114_g12446815224155_cont_fleet_488_32_alg».proof.Proof.Spec
import Idealize.ShloMosaic.Lib.SparseCore.Stream
import Idealize.ShloMosaic.Lib.ValueIdx

/-!
  What one indirect gather delivers, read at an index. The source is a table of 3 rows of 128 entries, the offsets a
  list of 128 row numbers each between 0 and 2, the destination 128 rows of 128 entries: row r of the destination is
  the table's row named by word r of the list. When the list is a chunk of 128 consecutive words of the flat list of
  row numbers, starting at 128 b, the destination is block b of the lookup on the flat arrays.
-/

noncomputable section

namespace Cert.Proof.KI

open Idealize.ShloMosaic Idealize.ShloMosaic.ValueIdx

variable {F : FTy → Type}

/-- A list of row numbers each between 0 and 2 names rows of the table: what the gather's rule asks of the list. -/
theorem gather_hin (hg : (⟨2, ![3, 128]⟩ : Shape).Gathers 0 ⟨2, ![128, 128]⟩) (w : (⟨1, ![128]⟩ : Shape).Idx → BitVec 32)
    (H : ∀ x, 0 ≤ (w x).toInt ∧ (w x).toInt ≤ 2) : ∀ x, (w x).toNat < (⟨2, ![3, 128]⟩ : Shape).size hg.axis := fun x => by
  have h := Cert.Spec.rowOf_val (H x).1 (H x).2
  have h3 : (Cert.Spec.rowOf (w x)).val < 3 := (Cert.Spec.rowOf (w x)).isLt
  show (w x).toNat < 3
  omega

/-- The word of a list of 128 at row-major position r is word r. -/
theorem rowMajor_symm_128 {n : Nat} (k : Fin n) (h : n = (⟨1, ![128]⟩ : Shape).numel) (r : Fin 128) (hk : k.val = r.val) :
    (⟨1, ![128]⟩ : Shape).rowMajor.symm (k.cast h) = ix1 r := by
  rw [Equiv.symm_apply_eq]
  refine Fin.ext ?_
  rw [Shape.rowMajor_val_one]
  exact hk

/-- THE GATHER READ AT (r, q): the table's entry in column q of the row word r of the list names. -/
theorem gatherPayload_apply (hg : (⟨2, ![3, 128]⟩ : Shape).Gathers 0 ⟨2, ![128, 128]⟩)
    (tab : (⟨2, ![3, 128]⟩ : Shape).Idx → Elt F .f32) (w : (⟨1, ![128]⟩ : Shape).Idx → BitVec 32)
    (hn : (⟨1, ![128]⟩ : Shape).numel = (⟨2, ![128, 128]⟩ : Shape).size hg.axis')
    (hin : ∀ x, (w x).toNat < (⟨2, ![3, 128]⟩ : Shape).size hg.axis)
    (H : ∀ x, 0 ≤ (w x).toInt ∧ (w x).toInt ≤ 2) (r q : Fin 128) :
    SparseCore.gatherPayload (F := F) hg tab (SparseCore.rows (F := F) w hn hin) (ix2 r q)
      = tab (ix2 (Cert.Spec.rowOf (w (ix1 r))) q) := by
  unfold SparseCore.gatherPayload
  congr 1
  funext b
  refine Fin.ext ?_
  match b with
  | ⟨0, hb⟩ =>
    have e : (⟨0, hb⟩ : Fin (⟨2, ![3, 128]⟩ : Shape).rank) = hg.axis := rfl
    rw [e, Shape.Gathers.idx_axis]
    show (w ((⟨1, ![128]⟩ : Shape).rowMajor.symm ((r : Fin 128).cast hn.symm))).toNat = (Cert.Spec.rowOf (w (ix1 r))).val
    rw [rowMajor_symm_128 _ hn.symm r rfl, Cert.Spec.rowOf_val (H _).1 (H _).2]
  | ⟨1, hb⟩ =>
    rw [Shape.Gathers.idx_of_ne hg _ _ ⟨1, hb⟩ (show (1 : Nat) ≠ 0 from Nat.one_ne_zero)]
    rfl

/-- THE GATHER OF A CHUNK: when the list is words 128 b … 128 b + 127 of the flat list of row numbers, the destination
    is block b of the lookup on the flat arrays. -/
theorem gatherPayload_chunk (hg : (⟨2, ![3, 128]⟩ : Shape).Gathers 0 ⟨2, ![128, 128]⟩)
    (tab : (⟨2, ![3, 128]⟩ : Shape).Idx → Elt F .f32) (fi : (⟨1, ![3276800]⟩ : Shape).Idx → BitVec 32)
    (w : (⟨1, ![128]⟩ : Shape).Idx → BitVec 32)
    (hn : (⟨1, ![128]⟩ : Shape).numel = (⟨2, ![128, 128]⟩ : Shape).size hg.axis')
    (hin : ∀ x, (w x).toNat < (⟨2, ![3, 128]⟩ : Shape).size hg.axis)
    (H : ∀ x, 0 ≤ (w x).toInt ∧ (w x).toInt ≤ 2) (b : Fin 25600)
    (hw : ∀ r : Fin 128, w (ix1 r) = fi (ix1 ⟨b.val * 128 + r.val, by have := b.isLt; have := r.isLt; omega⟩))
    (r q : Fin 128) :
    SparseCore.gatherPayload (F := F) hg tab (SparseCore.rows (F := F) w hn hin) (ix2 r q)
      = Cert.Spec.look fi tab (ix3 b r q) := by
  rw [gatherPayload_apply hg tab w hn hin H r q, Cert.Spec.look_apply, hw r]

/-- The same with the chunk's start as a number p0 = 128 b and the list's words given at p0 + r. -/
theorem gatherPayload_chunk_at (hg : (⟨2, ![3, 128]⟩ : Shape).Gathers 0 ⟨2, ![128, 128]⟩)
    (tab : (⟨2, ![3, 128]⟩ : Shape).Idx → Elt F .f32) (fi : (⟨1, ![3276800]⟩ : Shape).Idx → BitVec 32)
    (w : (⟨1, ![128]⟩ : Shape).Idx → BitVec 32)
    (hn : (⟨1, ![128]⟩ : Shape).numel = (⟨2, ![128, 128]⟩ : Shape).size hg.axis')
    (hin : ∀ x, (w x).toNat < (⟨2, ![3, 128]⟩ : Shape).size hg.axis)
    (H : ∀ x, 0 ≤ (w x).toInt ∧ (w x).toInt ≤ 2) (b : Fin 25600) (p0 : Nat) (hp0 : p0 = 128 * b.val)
    (hw : ∀ (r : Fin 128) (h : p0 + r.val < 3276800), w (ix1 r) = fi (ix1 ⟨p0 + r.val, h⟩))
    (r q : Fin 128) :
    SparseCore.gatherPayload (F := F) hg tab (SparseCore.rows (F := F) w hn hin) (ix2 r q)
      = Cert.Spec.look fi tab (ix3 b r q) := by
  refine gatherPayload_chunk hg tab fi w hn hin H b (fun r' => ?_) r q
  have hb := b.isLt
  have hr := r'.isLt
  have h : p0 + r'.val < 3276800 := by omega
  rw [hw r' h]
  congr 2
  refine Fin.ext ?_
  show p0 + r'.val = b.val * 128 + r'.val
  omega

end Cert.Proof.KI

end
-- ==== Proof.KOut.lean ====
import proofs.«205114_g12446815224155_cont_fleet_488_32_alg».proof.Proof.KSpell

/-!
  The result array's bookkeeping. A worker owns 800 consecutive blocks of the result; every copy out of the tile writes
  a pair of consecutive blocks. A pair is the elements whose block number is one of its two; a worker's 800 blocks are
  its 400 pairs, disjoint, so holding the 400 pairs is holding the worker's blocks, and one pair comes off any region
  that contains it.
-/

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "oV" => (Memref.whole Cert.KernelIdeal.main_v1_scv : Memref Cert.KernelIdeal.sig Kind.scVector Space.hbm Cert.KernelIdeal.S25600x128x128 EltTy.f32)

/-! ## A pair of blocks -/

/-- Blocks b and b + 1 of the result, as a copy's destination names them. -/
abbrev pairM (b : ℕ) (hb : ∀ a, (![b, 0, 0] : Fin 3 → ℕ) a + S2x128x128.size a ≤ S25600x128x128.size a) :
    Memref sig .scVector .hbm S2x128x128 .f32 :=
  (oV).slice (Rect.unit (s := S25600x128x128) ![b, 0, 0] S2x128x128.size hb) (fun _ => rfl)

/-- A pair of blocks inside the result lies inside it on every axis. -/
theorem pair_inb {b : ℕ} (h : b + 2 ≤ 25600) : ∀ a, (![b, 0, 0] : Fin 3 → ℕ) a + S2x128x128.size a ≤ S25600x128x128.size a := fun a =>
  match a with
  | ⟨0, _⟩ => h
  | ⟨1, _⟩ => show (0 : ℕ) + 128 ≤ 128 from Nat.le_refl _
  | ⟨2, _⟩ => show (0 : ℕ) + 128 ≤ 128 from Nat.le_refl _

/-- The pair's elements: those of block b or b + 1. -/
theorem mem_pairM {b : ℕ} {hb : ∀ a, (![b, 0, 0] : Fin 3 → ℕ) a + S2x128x128.size a ≤ S25600x128x128.size a} {i : S25600x128x128.Idx} :
    i ∈ (pairM b hb).view.set ↔ b ≤ (i 0).val ∧ (i 0).val < b + 2 := by
  show i ∈ ((View.whole main_v1_scv).slice (Rect.unit (s := S25600x128x128) ![b, 0, 0] S2x128x128.size hb)).set ↔ _
  rw [View.set_slice_whole, Rect.mem_set_unit]
  constructor
  · intro h; exact h 0
  · intro h a
    match a with
    | ⟨0, _⟩ => exact h
    | ⟨1, _⟩ => exact ⟨Nat.zero_le _, by have h1 : (i 1).val < 128 := (i 1).isLt; show (i 1).val < 0 + 128; omega⟩
    | ⟨2, _⟩ => exact ⟨Nat.zero_le _, by have h2 : (i 2).val < 128 := (i 2).isLt; show (i 2).val < 0 + 128; omega⟩

/-- A worker's elements: those of its 800 blocks. -/
theorem mem_oSet {w : Fin 32} {i : S25600x128x128.Idx} :
    i ∈ oSet w ↔ 800 * w.val ≤ (i 0).val ∧ (i 0).val < 800 * w.val + 800 := by
  show i ∈ ((View.whole main_v1_scv).slice (oPart w)).set ↔ _
  rw [View.set_slice_whole, Rect.mem_set_unit]
  constructor
  · intro h
    have h0 := h 0
    have e1 : S25600x128x128.partIx 0 w.val 0 = w.val := rfl
    have e2 : S25600x128x128.partSize 0 32 0 = 800 := rfl
    rw [e1, e2] at h0
    omega
  · intro h a
    match a with
    | ⟨0, _⟩ =>
      show w.val * 800 ≤ (i 0).val ∧ (i 0).val < w.val * 800 + 800
      omega
    | ⟨1, _⟩ => exact ⟨Nat.zero_le _, by have h1 : (i 1).val < 128 := (i 1).isLt; show (i 1).val < 0 * 128 + 128; omega⟩
    | ⟨2, _⟩ => exact ⟨Nat.zero_le _, by have h2 : (i 2).val < 128 := (i 2).isLt; show (i 2).val < 0 * 128 + 128; omega⟩

/-! ## A worker's 400 pairs -/

/-- Pair p of worker w lies inside the result. -/
theorem pairW_inb (w : Fin 32) (p : Fin 400) :
    ∀ a, (![800 * w.val + 2 * p.val, 0, 0] : Fin 3 → ℕ) a + S2x128x128.size a ≤ S25600x128x128.size a :=
  pair_inb (by have := w.isLt; have := p.isLt; omega)

/-- The elements of worker w's pair p. -/
abbrev pairSet (w : Fin 32) (p : Fin 400) : Finset S25600x128x128.Idx := (pairM (800 * w.val + 2 * p.val) (pairW_inb w p)).view.set

theorem pairSet_disjoint (w : Fin 32) {p p' : Fin 400} (h : p ≠ p') : Disjoint (pairSet w p) (pairSet w p') := by
  rw [Finset.disjoint_left]
  intro i hi hi'
  have h1 := mem_pairM.mp hi
  have h2 := mem_pairM.mp hi'
  exact h (Fin.ext (by omega))

theorem biUnion_pairSet (w : Fin 32) : (Finset.univ : Finset (Fin 400)).biUnion (pairSet w) = oSet w := by
  ext i
  rw [Finset.mem_biUnion, mem_oSet]
  constructor
  · rintro ⟨p, -, hp⟩
    have h1 := mem_pairM.mp hp
    have := p.isLt
    omega
  · intro h
    refine ⟨⟨((i 0).val - 800 * w.val) / 2, by omega⟩, Finset.mem_univ _, mem_pairM.mpr ?_⟩
    show 800 * w.val + 2 * (((i 0).val - 800 * w.val) / 2) ≤ (i 0).val ∧ (i 0).val < 800 * w.val + 2 * (((i 0).val - 800 * w.val) / 2) + 2
    omega

/-- Holding a worker's 400 pairs is holding its blocks. -/
theorem bigSep_pairs (d : Dev nD) (w : Fin 32) (f : Buf (Elt F) (oLoc d)) :
    (bigSep Finset.univ fun p : Fin 400 => (oLoc d ↦[pairSet w p]{fullShare} f : sProp 𝕄)) = (oLoc d ↦[oSet w]{fullShare} f) := by
  rw [← pointsTo_biUnion Finset.univ (ℓ := oLoc d) (pairSet w) (fun p _ p' _ h => pairSet_disjoint w h), biUnion_pairSet]

/-- One pair comes off any region that contains it, at any share. -/
theorem pair_split (d : Dev nD) {b : ℕ} {hb : ∀ a, (![b, 0, 0] : Fin 3 → ℕ) a + S2x128x128.size a ≤ S25600x128x128.size a}
    {R : Finset S25600x128x128.Idx} (h : (pairM b hb).view.set ⊆ R) (q : PosShare TreeShare) (f : Buf (Elt F) (oLoc d)) :
    (oLoc d ↦[R]{q} f : sProp 𝕄) = iprop((oLoc d ↦[(pairM b hb).view.set]{q} f) ∗ (oLoc d ↦[R \ (pairM b hb).view.set]{q} f)) :=
  BI.equiv_iff.mp ⟨(pointsTo_split_subset h).1, (pointsTo_split_subset h).2⟩

/-- A pair's contents may be rewritten to anything that agrees with them on the pair. -/
theorem pair_congr (d : Dev nD) {b : ℕ} {hb : ∀ a, (![b, 0, 0] : Fin 3 → ℕ) a + S2x128x128.size a ≤ S25600x128x128.size a}
    (q : PosShare TreeShare) {g g' : Buf (Elt F) (oLoc d)} (h : ∀ i ∈ (pairM b hb).view.set, g i = g' i) :
    (oLoc d ↦[(pairM b hb).view.set]{q} g : sProp 𝕄) = (oLoc d ↦[(pairM b hb).view.set]{q} g') :=
  pointsTo_congr h

/-- The result array as the tile's copies name it, over any set of its elements. -/
theorem pts_oV_sub (d : Dev nD) (c : Fin τ.nSC) (j : Fin τ.nSub) (Sx : Finset S25600x128x128.Idx) (q : PosShare TreeShare) (f : Buf (Elt F) (oLoc d)) :
    ((oV).view.loc (V d c j) ↦[Sx]{q} f : sProp 𝕄) = (oLoc d ↦[Sx]{q} f) := rfl

end Cert.Proof.KI

end
-- ==== Proof.KJoin.lean ====
/-
  Joining what two gathers left. A copy-out reads a half of the rows buffer, which two gathers filled a quarter each:
  the two quarters, at whatever each holds, are the half at the contents that is the first quarter's on its elements and
  the second's elsewhere. And a pair of result blocks named through a printed offset is the pair at that offset's value.
-/
import proofs.«205114_g12446815224155_cont_fleet_488_32_alg».proof.Proof.KPieces
import proofs.«205114_g12446815224155_cont_fleet_488_32_alg».proof.Proof.KOut

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "oV" => (Memref.whole Cert.KernelIdeal.main_v1_scv : Memref Cert.KernelIdeal.sig Kind.scVector Space.hbm Cert.KernelIdeal.S25600x128x128 EltTy.f32)
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)

/-- The two quarters of a half share no element, said of the quarters as the gathers name them. -/
theorem quarterM_disjoint (pp : Fin 2) : Disjoint (quarterM pp 0).view.set (quarterM pp 1).view.set := by
  rw [set_quarterM, set_quarterM]; exact quarters_disjoint pp

/-- Two quarters, each at its own contents, are their half at the contents that is the first's on the first quarter's
    elements and the second's elsewhere. -/
theorem quarters_join (d : Dev nD) (c : Fin τ.nSC) (j : Fin τ.nSub) (pp : Fin 2) (a b : Buf (Elt F) ((rwV).view.loc (V d c j))) :
    iprop(((quarterM pp 0).view.loc (V d c j) ↦[(quarterM pp 0).view.set]{fullShare} a)
        ∗ ((quarterM pp 1).view.loc (V d c j) ↦[(quarterM pp 1).view.set]{fullShare} b))
      ⊢ ((halfM pp).view.loc (V d c j) ↦[(halfM pp).view.set]{fullShare} ((quarterM pp 0).view.set.piecewise a b) : sProp 𝕄) := by
  rw [half_quarters (F := F) d c j pp ((quarterM pp 0).view.set.piecewise a b)]
  have ha : ((quarterM pp 0).view.loc (V d c j) ↦[(quarterM pp 0).view.set]{fullShare} a : sProp 𝕄)
      = ((quarterM pp 0).view.loc (V d c j) ↦[(quarterM pp 0).view.set]{fullShare} ((quarterM pp 0).view.set.piecewise a b)) :=
    pointsTo_congr fun i hi => (Finset.piecewise_eq_of_mem _ _ _ hi).symm
  have hb : ((quarterM pp 1).view.loc (V d c j) ↦[(quarterM pp 1).view.set]{fullShare} b : sProp 𝕄)
      = ((quarterM pp 1).view.loc (V d c j) ↦[(quarterM pp 1).view.set]{fullShare} ((quarterM pp 0).view.set.piecewise a b)) :=
    pointsTo_congr fun i hi => (Finset.piecewise_eq_of_notMem _ _ _ (Finset.disjoint_right.mp (quarterM_disjoint pp) hi)).symm
  rw [ha, hb]

/-- A pair of result blocks named through an offset function whose value is (b, 0, 0) has the elements of the pair at b. -/
theorem set_pair_off {off : Fin 3 → ℕ} (inb : ∀ a, off a + S2x128x128.size a ≤ S25600x128x128.size a) {b : ℕ} (h : off = ![b, 0, 0]) :
    ((oV).slice (Rect.unit (s := S25600x128x128) off S2x128x128.size inb) (fun _ => rfl)).view.set = (pairM b (h ▸ inb)).view.set := by
  subst h; rfl

/-- A pair of result blocks named through an offset of value (b, 0, 0), between a worker's first block and its last, lies
    in the worker's slice. -/
theorem pair_sub_oSet (w : Fin 32) {off : Fin 3 → ℕ} (inb : ∀ a, off a + S2x128x128.size a ≤ S25600x128x128.size a) {b : ℕ}
    (h : off = ![b, 0, 0]) (hlo : 800 * w.val ≤ b) (hhi : b + 2 ≤ 800 * w.val + 800) : ((oV).slice (Rect.unit (s := S25600x128x128) off S2x128x128.size inb) (fun _ => rfl)).view.set ⊆ oSet w := by
  rw [set_pair_off inb h]
  intro i hi
  rw [mem_oSet]
  have := mem_pairM.mp hi
  omega

/-- A pair of result blocks that lies in a part of the result still lies in it once another pair, two blocks away or
    more, is taken out. -/
theorem pair_sub_sdiff {off off' : Fin 3 → ℕ} (inb : ∀ a, off a + S2x128x128.size a ≤ S25600x128x128.size a)
    (inb' : ∀ a, off' a + S2x128x128.size a ≤ S25600x128x128.size a) {b b' : ℕ} (h : off = ![b, 0, 0]) (h' : off' = ![b', 0, 0])
    (hne : b' + 2 ≤ b ∨ b + 2 ≤ b') {R : Finset S25600x128x128.Idx} (hR : ((oV).slice (Rect.unit (s := S25600x128x128) off S2x128x128.size inb) (fun _ => rfl)).view.set ⊆ R) :
    ((oV).slice (Rect.unit (s := S25600x128x128) off S2x128x128.size inb) (fun _ => rfl)).view.set ⊆ R \ ((oV).slice (Rect.unit (s := S25600x128x128) off' S2x128x128.size inb') (fun _ => rfl)).view.set := fun i hi =>
  Finset.mem_sdiff.mpr ⟨hR hi, fun h0 => by
    rw [set_pair_off inb' h'] at h0
    rw [set_pair_off inb h] at hi
    have a := mem_pairM.mp h0
    have c := mem_pairM.mp hi
    omega⟩

/-- A pair of result blocks split off any part of the result that contains it: the pair as the copy-out names it, and the rest. -/
theorem pair_off (d : Dev nD) (c : Fin τ.nSC) (j : Fin τ.nSub) {off : Fin 3 → ℕ} (inb : ∀ a, off a + S2x128x128.size a ≤ S25600x128x128.size a)
    {R : Finset S25600x128x128.Idx} (hsub : ((oV).slice (Rect.unit (s := S25600x128x128) off S2x128x128.size inb) (fun _ => rfl)).view.set ⊆ R) (f : Buf (Elt F) (oLoc d)) :
    (oLoc d ↦[R]{fullShare} f : sProp 𝕄)
      ⊢ iprop((((oV).slice (Rect.unit (s := S25600x128x128) off S2x128x128.size inb) (fun _ => rfl)).view.loc (V d c j) ↦[((oV).slice (Rect.unit (s := S25600x128x128) off S2x128x128.size inb) (fun _ => rfl)).view.set]{fullShare} f)
          ∗ (oLoc d ↦[R \ ((oV).slice (Rect.unit (s := S25600x128x128) off S2x128x128.size inb) (fun _ => rfl)).view.set]{fullShare} f)) :=
  (Entails.of_eq (pts_split (F := F) hsub fullShare f)).trans (Entails.of_eq rfl)

/-- The quarter (0, 0) of the rows buffer as a gather names it is the quarter of the pieces. -/
theorem quarter_lit_0_0 (d : Dev nD) (c : Fin τ.nSC) (j : Fin τ.nSub) (a : Buf (Elt F) ((rwV).view.loc (V d c j))) :
    ((((rwV).slice (Rect.unit (s := S2x2x128x128) ![0, 0, 0, 0] S1x1x128x128.size inb_S2x2x128x128_S1x1x128x128_0_0_0_0) (fun _ => rfl)).squeeze S128x128 squeezes_S1x1x128x128_S128x128).view.loc (V d c j) ↦[(((rwV).slice (Rect.unit (s := S2x2x128x128) ![0, 0, 0, 0] S1x1x128x128.size inb_S2x2x128x128_S1x1x128x128_0_0_0_0) (fun _ => rfl)).squeeze S128x128 squeezes_S1x1x128x128_S128x128).view.set]{fullShare} a : sProp 𝕄)
      = ((quarterM 0 0).view.loc (V d c j) ↦[(quarterM 0 0).view.set]{fullShare} a) := rfl

/-- The quarter (0, 1) of the rows buffer as a gather names it is the quarter of the pieces. -/
theorem quarter_lit_0_1 (d : Dev nD) (c : Fin τ.nSC) (j : Fin τ.nSub) (a : Buf (Elt F) ((rwV).view.loc (V d c j))) :
    ((((rwV).slice (Rect.unit (s := S2x2x128x128) ![0, 1, 0, 0] S1x1x128x128.size inb_S2x2x128x128_S1x1x128x128_0_1_0_0) (fun _ => rfl)).squeeze S128x128 squeezes_S1x1x128x128_S128x128).view.loc (V d c j) ↦[(((rwV).slice (Rect.unit (s := S2x2x128x128) ![0, 1, 0, 0] S1x1x128x128.size inb_S2x2x128x128_S1x1x128x128_0_1_0_0) (fun _ => rfl)).squeeze S128x128 squeezes_S1x1x128x128_S128x128).view.set]{fullShare} a : sProp 𝕄)
      = ((quarterM 0 1).view.loc (V d c j) ↦[(quarterM 0 1).view.set]{fullShare} a) := rfl

/-- The quarter (1, 0) of the rows buffer as a gather names it is the quarter of the pieces. -/
theorem quarter_lit_1_0 (d : Dev nD) (c : Fin τ.nSC) (j : Fin τ.nSub) (a : Buf (Elt F) ((rwV).view.loc (V d c j))) :
    ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d c j) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} a : sProp 𝕄)
      = ((quarterM 1 0).view.loc (V d c j) ↦[(quarterM 1 0).view.set]{fullShare} a) := rfl

/-- The quarter (1, 1) of the rows buffer as a gather names it is the quarter of the pieces. -/
theorem quarter_lit_1_1 (d : Dev nD) (c : Fin τ.nSC) (j : Fin τ.nSub) (a : Buf (Elt F) ((rwV).view.loc (V d c j))) :
    ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d c j) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} a : sProp 𝕄)
      = ((quarterM 1 1).view.loc (V d c j) ↦[(quarterM 1 1).view.set]{fullShare} a) := rfl

/-- The half 0 of the rows buffer as a copy-out names it is the half of the pieces. -/
theorem half_lit_0 (d : Dev nD) (c : Fin τ.nSC) (j : Fin τ.nSub) (a : Buf (Elt F) ((rwV).view.loc (V d c j))) :
    ((((rwV).slice (Rect.unit (s := S2x2x128x128) ![0, 0, 0, 0] S1x2x128x128.size inb_S2x2x128x128_S1x2x128x128_0_0_0_0) (fun _ => rfl)).squeeze S2x128x128 squeezes_S1x2x128x128_S2x128x128).view.loc (V d c j) ↦[(((rwV).slice (Rect.unit (s := S2x2x128x128) ![0, 0, 0, 0] S1x2x128x128.size inb_S2x2x128x128_S1x2x128x128_0_0_0_0) (fun _ => rfl)).squeeze S2x128x128 squeezes_S1x2x128x128_S2x128x128).view.set]{fullShare} a : sProp 𝕄)
      = ((halfM 0).view.loc (V d c j) ↦[(halfM 0).view.set]{fullShare} a) := rfl

/-- The half 1 of the rows buffer as a copy-out names it is the half of the pieces. -/
theorem half_lit_1 (d : Dev nD) (c : Fin τ.nSC) (j : Fin τ.nSub) (a : Buf (Elt F) ((rwV).view.loc (V d c j))) :
    ((((rwV).slice (Rect.unit (s := S2x2x128x128) ![1, 0, 0, 0] S1x2x128x128.size inb_S2x2x128x128_S1x2x128x128_1_0_0_0) (fun _ => rfl)).squeeze S2x128x128 squeezes_S1x2x128x128_S2x128x128).view.loc (V d c j) ↦[(((rwV).slice (Rect.unit (s := S2x2x128x128) ![1, 0, 0, 0] S1x2x128x128.size inb_S2x2x128x128_S1x2x128x128_1_0_0_0) (fun _ => rfl)).squeeze S2x128x128 squeezes_S1x2x128x128_S2x128x128).view.set]{fullShare} a : sProp 𝕄)
      = ((halfM 1).view.loc (V d c j) ↦[(halfM 1).view.set]{fullShare} a) := rfl

/-- A slot the copy from the list has filled holds some contents whose row numbers, read through the slot, are the copy's. -/
theorem landed (bb : Fin 2) (d : Dev nD) (c : Fin τ.nSC) (j : Fin τ.nSub) (g : Buf (Elt F) ((ibV).view.loc (V d c j))) (p : S1024.Idx → Elt F .i32) :
    ((slotM bb).view.loc (V d c j) ↦[(slotM bb).view.set]{fullShare} ((slotM bb).view.writes (Elt F) g [⟨Rect.whole S1024, p⟩]) : sProp 𝕄)
      ⊢ iprop(∃ f : Buf (Elt F) ((ibV).view.loc (V d c j)), ((slotM bb).view.loc (V d c j) ↦[(slotM bb).view.set]{fullShare} f)
          ∗ ⌜∀ x, (slotM bb).view.read (Elt F) f x = p x⌝) := by
  iintro H
  iexists _
  isplitl [H]; · iexact H
  ipureintro
  exact fun x => congrFun (View.read_writes_whole (Val := Elt F) (slotM bb).view g p) x

/-- The same, said of slot 0 as the copy from the list names it. -/
theorem landed_lit_0 (d : Dev nD) (c : Fin τ.nSC) (j : Fin τ.nSub) (g : Buf (Elt F) ((ibV).view.loc (V d c j))) (p : S1024.Idx → Elt F .i32) :
    ((((ibV).slice (Rect.unit (s := S2x1024) ![0, 0] S1x1024.size inb_S2x1024_S1x1024_0_0) (fun _ => rfl)).squeeze S1024 squeezes_S1x1024_S1024).view.loc (V d c j) ↦[(((ibV).slice (Rect.unit (s := S2x1024) ![0, 0] S1x1024.size inb_S2x1024_S1x1024_0_0) (fun _ => rfl)).squeeze S1024 squeezes_S1x1024_S1024).view.set]{fullShare} ((((ibV).slice (Rect.unit (s := S2x1024) ![0, 0] S1x1024.size inb_S2x1024_S1x1024_0_0) (fun _ => rfl)).squeeze S1024 squeezes_S1x1024_S1024).view.writes (Elt F) g [⟨Rect.whole S1024, p⟩]) : sProp 𝕄)
      ⊢ iprop(∃ f : Buf (Elt F) ((ibV).view.loc (V d c j)), ((slotM 0).view.loc (V d c j) ↦[(slotM 0).view.set]{fullShare} f)
          ∗ ⌜∀ x, (slotM 0).view.read (Elt F) f x = p x⌝) :=
  landed (F := F) 0 d c j g p

/-- The same, said of slot 1 as the copy from the list names it. -/
theorem landed_lit_1 (d : Dev nD) (c : Fin τ.nSC) (j : Fin τ.nSub) (g : Buf (Elt F) ((ibV).view.loc (V d c j))) (p : S1024.Idx → Elt F .i32) :
    ((((ibV).slice (Rect.unit (s := S2x1024) ![1, 0] S1x1024.size inb_S2x1024_S1x1024_1_0) (fun _ => rfl)).squeeze S1024 squeezes_S1x1024_S1024).view.loc (V d c j) ↦[(((ibV).slice (Rect.unit (s := S2x1024) ![1, 0] S1x1024.size inb_S2x1024_S1x1024_1_0) (fun _ => rfl)).squeeze S1024 squeezes_S1x1024_S1024).view.set]{fullShare} ((((ibV).slice (Rect.unit (s := S2x1024) ![1, 0] S1x1024.size inb_S2x1024_S1x1024_1_0) (fun _ => rfl)).squeeze S1024 squeezes_S1x1024_S1024).view.writes (Elt F) g [⟨Rect.whole S1024, p⟩]) : sProp 𝕄)
      ⊢ iprop(∃ f : Buf (Elt F) ((ibV).view.loc (V d c j)), ((slotM 1).view.loc (V d c j) ↦[(slotM 1).view.set]{fullShare} f)
          ∗ ⌜∀ x, (slotM 1).view.read (Elt F) f x = p x⌝) :=
  landed (F := F) 1 d c j g p

/-- Slot 0 of the buffer of row numbers as the copy from the list names it is the slot of the pieces. -/
theorem slot_lit_0 (d : Dev nD) (c : Fin τ.nSC) (j : Fin τ.nSub) (a : Buf (Elt F) ((ibV).view.loc (V d c j))) :
    ((((ibV).slice (Rect.unit (s := S2x1024) ![0, 0] S1x1024.size inb_S2x1024_S1x1024_0_0) (fun _ => rfl)).squeeze S1024 squeezes_S1x1024_S1024).view.loc (V d c j) ↦[(((ibV).slice (Rect.unit (s := S2x1024) ![0, 0] S1x1024.size inb_S2x1024_S1x1024_0_0) (fun _ => rfl)).squeeze S1024 squeezes_S1x1024_S1024).view.set]{fullShare} a : sProp 𝕄)
      = ((slotM 0).view.loc (V d c j) ↦[(slotM 0).view.set]{fullShare} a) := rfl

theorem list_lit_0_0 (d : Dev nD) (c : Fin τ.nSC) (j : Fin τ.nSub) (a : Buf (Elt F) ((ibV).view.loc (V d c j))) :
    ((((ibV).slice (Rect.unit (s := S2x1024) ![0, 0] S1x128.size inb_S2x1024_S1x128_0_0) (fun _ => rfl)).squeeze S128 squeezes_S1x128_S128).view.loc (V d c j) ↦[(((ibV).slice (Rect.unit (s := S2x1024) ![0, 0] S1x128.size inb_S2x1024_S1x128_0_0) (fun _ => rfl)).squeeze S128 squeezes_S1x128_S128).view.set]{fullShare} a : sProp 𝕄)
      = ((listM 0 0).view.loc (V d c j) ↦[(listM 0 0).view.set]{fullShare} a) := rfl

theorem list_lit_0_1 (d : Dev nD) (c : Fin τ.nSC) (j : Fin τ.nSub) (a : Buf (Elt F) ((ibV).view.loc (V d c j))) :
    ((((ibV).slice (Rect.unit (s := S2x1024) ![0, 128] S1x128.size inb_S2x1024_S1x128_0_128) (fun _ => rfl)).squeeze S128 squeezes_S1x128_S128).view.loc (V d c j) ↦[(((ibV).slice (Rect.unit (s := S2x1024) ![0, 128] S1x128.size inb_S2x1024_S1x128_0_128) (fun _ => rfl)).squeeze S128 squeezes_S1x128_S128).view.set]{fullShare} a : sProp 𝕄)
      = ((listM 0 1).view.loc (V d c j) ↦[(listM 0 1).view.set]{fullShare} a) := rfl

theorem list_lit_0_2 (d : Dev nD) (c : Fin τ.nSC) (j : Fin τ.nSub) (a : Buf (Elt F) ((ibV).view.loc (V d c j))) :
    ((((ibV).slice (Rect.unit (s := S2x1024) ![0, 256] S1x128.size inb_S2x1024_S1x128_0_256) (fun _ => rfl)).squeeze S128 squeezes_S1x128_S128).view.loc (V d c j) ↦[(((ibV).slice (Rect.unit (s := S2x1024) ![0, 256] S1x128.size inb_S2x1024_S1x128_0_256) (fun _ => rfl)).squeeze S128 squeezes_S1x128_S128).view.set]{fullShare} a : sProp 𝕄)
      = ((listM 0 2).view.loc (V d c j) ↦[(listM 0 2).view.set]{fullShare} a) := rfl

theorem list_lit_0_3 (d : Dev nD) (c : Fin τ.nSC) (j : Fin τ.nSub) (a : Buf (Elt F) ((ibV).view.loc (V d c j))) :
    ((((ibV).slice (Rect.unit (s := S2x1024) ![0, 384] S1x128.size inb_S2x1024_S1x128_0_384) (fun _ => rfl)).squeeze S128 squeezes_S1x128_S128).view.loc (V d c j) ↦[(((ibV).slice (Rect.unit (s := S2x1024) ![0, 384] S1x128.size inb_S2x1024_S1x128_0_384) (fun _ => rfl)).squeeze S128 squeezes_S1x128_S128).view.set]{fullShare} a : sProp 𝕄)
      = ((listM 0 3).view.loc (V d c j) ↦[(listM 0 3).view.set]{fullShare} a) := rfl

theorem list_lit_0_4 (d : Dev nD) (c : Fin τ.nSC) (j : Fin τ.nSub) (a : Buf (Elt F) ((ibV).view.loc (V d c j))) :
    ((((ibV).slice (Rect.unit (s := S2x1024) ![0, 512] S1x128.size inb_S2x1024_S1x128_0_512) (fun _ => rfl)).squeeze S128 squeezes_S1x128_S128).view.loc (V d c j) ↦[(((ibV).slice (Rect.unit (s := S2x1024) ![0, 512] S1x128.size inb_S2x1024_S1x128_0_512) (fun _ => rfl)).squeeze S128 squeezes_S1x128_S128).view.set]{fullShare} a : sProp 𝕄)
      = ((listM 0 4).view.loc (V d c j) ↦[(listM 0 4).view.set]{fullShare} a) := rfl

theorem list_lit_0_5 (d : Dev nD) (c : Fin τ.nSC) (j : Fin τ.nSub) (a : Buf (Elt F) ((ibV).view.loc (V d c j))) :
    ((((ibV).slice (Rect.unit (s := S2x1024) ![0, 640] S1x128.size inb_S2x1024_S1x128_0_640) (fun _ => rfl)).squeeze S128 squeezes_S1x128_S128).view.loc (V d c j) ↦[(((ibV).slice (Rect.unit (s := S2x1024) ![0, 640] S1x128.size inb_S2x1024_S1x128_0_640) (fun _ => rfl)).squeeze S128 squeezes_S1x128_S128).view.set]{fullShare} a : sProp 𝕄)
      = ((listM 0 5).view.loc (V d c j) ↦[(listM 0 5).view.set]{fullShare} a) := rfl

theorem list_lit_0_6 (d : Dev nD) (c : Fin τ.nSC) (j : Fin τ.nSub) (a : Buf (Elt F) ((ibV).view.loc (V d c j))) :
    ((((ibV).slice (Rect.unit (s := S2x1024) ![0, 768] S1x128.size inb_S2x1024_S1x128_0_768) (fun _ => rfl)).squeeze S128 squeezes_S1x128_S128).view.loc (V d c j) ↦[(((ibV).slice (Rect.unit (s := S2x1024) ![0, 768] S1x128.size inb_S2x1024_S1x128_0_768) (fun _ => rfl)).squeeze S128 squeezes_S1x128_S128).view.set]{fullShare} a : sProp 𝕄)
      = ((listM 0 6).view.loc (V d c j) ↦[(listM 0 6).view.set]{fullShare} a) := rfl

theorem list_lit_0_7 (d : Dev nD) (c : Fin τ.nSC) (j : Fin τ.nSub) (a : Buf (Elt F) ((ibV).view.loc (V d c j))) :
    ((((ibV).slice (Rect.unit (s := S2x1024) ![0, 896] S1x128.size inb_S2x1024_S1x128_0_896) (fun _ => rfl)).squeeze S128 squeezes_S1x128_S128).view.loc (V d c j) ↦[(((ibV).slice (Rect.unit (s := S2x1024) ![0, 896] S1x128.size inb_S2x1024_S1x128_0_896) (fun _ => rfl)).squeeze S128 squeezes_S1x128_S128).view.set]{fullShare} a : sProp 𝕄)
      = ((listM 0 7).view.loc (V d c j) ↦[(listM 0 7).view.set]{fullShare} a) := rfl

/-- Slot 1 of the buffer of row numbers as the copy from the list names it is the slot of the pieces. -/
theorem slot_lit_1 (d : Dev nD) (c : Fin τ.nSC) (j : Fin τ.nSub) (a : Buf (Elt F) ((ibV).view.loc (V d c j))) :
    ((((ibV).slice (Rect.unit (s := S2x1024) ![1, 0] S1x1024.size inb_S2x1024_S1x1024_1_0) (fun _ => rfl)).squeeze S1024 squeezes_S1x1024_S1024).view.loc (V d c j) ↦[(((ibV).slice (Rect.unit (s := S2x1024) ![1, 0] S1x1024.size inb_S2x1024_S1x1024_1_0) (fun _ => rfl)).squeeze S1024 squeezes_S1x1024_S1024).view.set]{fullShare} a : sProp 𝕄)
      = ((slotM 1).view.loc (V d c j) ↦[(slotM 1).view.set]{fullShare} a) := rfl

theorem list_lit_1_0 (d : Dev nD) (c : Fin τ.nSC) (j : Fin τ.nSub) (a : Buf (Elt F) ((ibV).view.loc (V d c j))) :
    ((((ibV).slice (Rect.unit (s := S2x1024) ![1, 0] S1x128.size inb_S2x1024_S1x128_1_0) (fun _ => rfl)).squeeze S128 squeezes_S1x128_S128).view.loc (V d c j) ↦[(((ibV).slice (Rect.unit (s := S2x1024) ![1, 0] S1x128.size inb_S2x1024_S1x128_1_0) (fun _ => rfl)).squeeze S128 squeezes_S1x128_S128).view.set]{fullShare} a : sProp 𝕄)
      = ((listM 1 0).view.loc (V d c j) ↦[(listM 1 0).view.set]{fullShare} a) := rfl

theorem list_lit_1_1 (d : Dev nD) (c : Fin τ.nSC) (j : Fin τ.nSub) (a : Buf (Elt F) ((ibV).view.loc (V d c j))) :
    ((((ibV).slice (Rect.unit (s := S2x1024) ![1, 128] S1x128.size inb_S2x1024_S1x128_1_128) (fun _ => rfl)).squeeze S128 squeezes_S1x128_S128).view.loc (V d c j) ↦[(((ibV).slice (Rect.unit (s := S2x1024) ![1, 128] S1x128.size inb_S2x1024_S1x128_1_128) (fun _ => rfl)).squeeze S128 squeezes_S1x128_S128).view.set]{fullShare} a : sProp 𝕄)
      = ((listM 1 1).view.loc (V d c j) ↦[(listM 1 1).view.set]{fullShare} a) := rfl

theorem list_lit_1_2 (d : Dev nD) (c : Fin τ.nSC) (j : Fin τ.nSub) (a : Buf (Elt F) ((ibV).view.loc (V d c j))) :
    ((((ibV).slice (Rect.unit (s := S2x1024) ![1, 256] S1x128.size inb_S2x1024_S1x128_1_256) (fun _ => rfl)).squeeze S128 squeezes_S1x128_S128).view.loc (V d c j) ↦[(((ibV).slice (Rect.unit (s := S2x1024) ![1, 256] S1x128.size inb_S2x1024_S1x128_1_256) (fun _ => rfl)).squeeze S128 squeezes_S1x128_S128).view.set]{fullShare} a : sProp 𝕄)
      = ((listM 1 2).view.loc (V d c j) ↦[(listM 1 2).view.set]{fullShare} a) := rfl

theorem list_lit_1_3 (d : Dev nD) (c : Fin τ.nSC) (j : Fin τ.nSub) (a : Buf (Elt F) ((ibV).view.loc (V d c j))) :
    ((((ibV).slice (Rect.unit (s := S2x1024) ![1, 384] S1x128.size inb_S2x1024_S1x128_1_384) (fun _ => rfl)).squeeze S128 squeezes_S1x128_S128).view.loc (V d c j) ↦[(((ibV).slice (Rect.unit (s := S2x1024) ![1, 384] S1x128.size inb_S2x1024_S1x128_1_384) (fun _ => rfl)).squeeze S128 squeezes_S1x128_S128).view.set]{fullShare} a : sProp 𝕄)
      = ((listM 1 3).view.loc (V d c j) ↦[(listM 1 3).view.set]{fullShare} a) := rfl

theorem list_lit_1_4 (d : Dev nD) (c : Fin τ.nSC) (j : Fin τ.nSub) (a : Buf (Elt F) ((ibV).view.loc (V d c j))) :
    ((((ibV).slice (Rect.unit (s := S2x1024) ![1, 512] S1x128.size inb_S2x1024_S1x128_1_512) (fun _ => rfl)).squeeze S128 squeezes_S1x128_S128).view.loc (V d c j) ↦[(((ibV).slice (Rect.unit (s := S2x1024) ![1, 512] S1x128.size inb_S2x1024_S1x128_1_512) (fun _ => rfl)).squeeze S128 squeezes_S1x128_S128).view.set]{fullShare} a : sProp 𝕄)
      = ((listM 1 4).view.loc (V d c j) ↦[(listM 1 4).view.set]{fullShare} a) := rfl

theorem list_lit_1_5 (d : Dev nD) (c : Fin τ.nSC) (j : Fin τ.nSub) (a : Buf (Elt F) ((ibV).view.loc (V d c j))) :
    ((((ibV).slice (Rect.unit (s := S2x1024) ![1, 640] S1x128.size inb_S2x1024_S1x128_1_640) (fun _ => rfl)).squeeze S128 squeezes_S1x128_S128).view.loc (V d c j) ↦[(((ibV).slice (Rect.unit (s := S2x1024) ![1, 640] S1x128.size inb_S2x1024_S1x128_1_640) (fun _ => rfl)).squeeze S128 squeezes_S1x128_S128).view.set]{fullShare} a : sProp 𝕄)
      = ((listM 1 5).view.loc (V d c j) ↦[(listM 1 5).view.set]{fullShare} a) := rfl

theorem list_lit_1_6 (d : Dev nD) (c : Fin τ.nSC) (j : Fin τ.nSub) (a : Buf (Elt F) ((ibV).view.loc (V d c j))) :
    ((((ibV).slice (Rect.unit (s := S2x1024) ![1, 768] S1x128.size inb_S2x1024_S1x128_1_768) (fun _ => rfl)).squeeze S128 squeezes_S1x128_S128).view.loc (V d c j) ↦[(((ibV).slice (Rect.unit (s := S2x1024) ![1, 768] S1x128.size inb_S2x1024_S1x128_1_768) (fun _ => rfl)).squeeze S128 squeezes_S1x128_S128).view.set]{fullShare} a : sProp 𝕄)
      = ((listM 1 6).view.loc (V d c j) ↦[(listM 1 6).view.set]{fullShare} a) := rfl

theorem list_lit_1_7 (d : Dev nD) (c : Fin τ.nSC) (j : Fin τ.nSub) (a : Buf (Elt F) ((ibV).view.loc (V d c j))) :
    ((((ibV).slice (Rect.unit (s := S2x1024) ![1, 896] S1x128.size inb_S2x1024_S1x128_1_896) (fun _ => rfl)).squeeze S128 squeezes_S1x128_S128).view.loc (V d c j) ↦[(((ibV).slice (Rect.unit (s := S2x1024) ![1, 896] S1x128.size inb_S2x1024_S1x128_1_896) (fun _ => rfl)).squeeze S128 squeezes_S1x128_S128).view.set]{fullShare} a : sProp 𝕄)
      = ((listM 1 7).view.loc (V d c j) ↦[(listM 1 7).view.set]{fullShare} a) := rfl

end Cert.Proof.KI

end
-- ==== Proof.KRows.lean ====
/-
  The result slice of one worker as intervals of block numbers. A worker owns blocks 800 w … 800 w + 799 of the result;
  its copies out deliver the blocks two at a time, lowest first. So at any moment the worker's slice is an interval of
  blocks already holding the lookup and an interval not yet touched: a copy-out takes the two lowest blocks of the
  untouched interval, and a delivered pair extends the done interval by two. The list of row numbers is likewise cut in
  runs of 1024 consecutive words.
-/
import proofs.«205114_g12446815224155_cont_fleet_488_32_alg».proof.Proof.KJoin

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "oV" => (Memref.whole Cert.KernelIdeal.main_v1_scv : Memref Cert.KernelIdeal.sig Kind.scVector Space.hbm Cert.KernelIdeal.S25600x128x128 EltTy.f32)
local notation "iV" => (Memref.whole Cert.KernelIdeal.main_v0_scv : Memref Cert.KernelIdeal.sig Kind.scVector Space.hbm Cert.KernelIdeal.S3276800 EltTy.i32)

/-! ## Intervals of a worker's blocks -/

/-- The elements of the result whose block number lies between the worker's block lo and its block hi (hi excluded). -/
def rowsIn (w : Fin 32) (lo hi : ℕ) : Finset S25600x128x128.Idx :=
  Finset.univ.filter fun i => 800 * w.val + lo ≤ (i 0).val ∧ (i 0).val < 800 * w.val + hi

theorem mem_rowsIn {w : Fin 32} {lo hi : ℕ} {i : S25600x128x128.Idx} :
    i ∈ rowsIn w lo hi ↔ 800 * w.val + lo ≤ (i 0).val ∧ (i 0).val < 800 * w.val + hi := by
  unfold rowsIn
  rw [Finset.mem_filter]
  exact ⟨fun h => h.2, fun h => ⟨Finset.mem_univ _, h⟩⟩

/-- A worker's slice is the interval of all its 800 blocks. -/
theorem oSet_eq_rows (w : Fin 32) : oSet w = rowsIn w 0 800 := by
  ext i
  rw [mem_oSet, mem_rowsIn]
  omega

/-- An empty interval has no element. -/
theorem rowsIn_self (w : Fin 32) (lo : ℕ) : rowsIn w lo lo = ∅ := by
  ext i
  rw [mem_rowsIn]
  constructor
  · intro h; omega
  · intro h; exact absurd h (Finset.notMem_empty _)

/-- The pair of blocks at a worker's block lo is the interval of its blocks lo and lo + 1. -/
theorem pairM_rows (w : Fin 32) (lo : ℕ)
    (hb : ∀ a, (![800 * w.val + lo, 0, 0] : Fin 3 → ℕ) a + S2x128x128.size a ≤ S25600x128x128.size a) :
    (pairM (800 * w.val + lo) hb).view.set = rowsIn w lo (lo + 2) := by
  ext i
  rw [mem_pairM, mem_rowsIn]
  omega

/-- An interval is its lower part and its upper part. -/
theorem rowsIn_union (w : Fin 32) {lo mid hi : ℕ} (h1 : lo ≤ mid) (h2 : mid ≤ hi) :
    rowsIn w lo hi = rowsIn w lo mid ∪ rowsIn w mid hi := by
  ext i
  rw [Finset.mem_union, mem_rowsIn, mem_rowsIn, mem_rowsIn]
  omega

theorem rowsIn_disjoint (w : Fin 32) (lo mid hi : ℕ) : Disjoint (rowsIn w lo mid) (rowsIn w mid hi) := by
  rw [Finset.disjoint_left]
  intro i h h'
  rw [mem_rowsIn] at h h'
  omega

/-- An interval less its two lowest blocks is the interval from two blocks higher. -/
theorem rowsIn_sdiff (w : Fin 32) {lo hi : ℕ} :
    rowsIn w lo hi \ rowsIn w lo (lo + 2) = rowsIn w (lo + 2) hi := by
  ext i
  rw [Finset.mem_sdiff, mem_rowsIn, mem_rowsIn, mem_rowsIn]
  omega

/-- The destination of a copy-out whose offset has the value (800 w + lo, 0, 0) is the interval of blocks lo and lo + 1. -/
theorem set_off_rows (w : Fin 32) {off : Fin 3 → ℕ} (inb : ∀ a, off a + S2x128x128.size a ≤ S25600x128x128.size a) {lo : ℕ}
    (hoff : off = ![800 * w.val + lo, 0, 0]) : ((oV).slice (Rect.unit (s := S25600x128x128) off S2x128x128.size inb) (fun _ => rfl)).view.set = rowsIn w lo (lo + 2) := by
  rw [set_pair_off inb hoff, pairM_rows]

/-- A copy-out takes the two lowest blocks of the untouched interval. -/
theorem rest_take (d : Dev nD) (c : Fin τ.nSC) (j : Fin τ.nSub) (w : Fin 32) {off : Fin 3 → ℕ}
    (inb : ∀ a, off a + S2x128x128.size a ≤ S25600x128x128.size a) {lo : ℕ} (hoff : off = ![800 * w.val + lo, 0, 0]) (hlo : lo + 2 ≤ 800)
    (f : Buf (Elt F) (oLoc d)) :
    (oLoc d ↦[rowsIn w lo 800]{fullShare} f : sProp 𝕄)
      ⊢ iprop((((oV).slice (Rect.unit (s := S25600x128x128) off S2x128x128.size inb) (fun _ => rfl)).view.loc (V d c j) ↦[((oV).slice (Rect.unit (s := S25600x128x128) off S2x128x128.size inb) (fun _ => rfl)).view.set]{fullShare} f)
          ∗ (oLoc d ↦[rowsIn w (lo + 2) 800]{fullShare} f)) := by
  have hsub : ((oV).slice (Rect.unit (s := S25600x128x128) off S2x128x128.size inb) (fun _ => rfl)).view.set ⊆ rowsIn w lo 800 := by
    rw [set_off_rows w inb hoff]
    intro i hi
    rw [mem_rowsIn] at hi ⊢
    omega
  refine (pair_off (F := F) d c j inb hsub f).trans (Entails.of_eq ?_)
  rw [set_off_rows w inb hoff, rowsIn_sdiff]

/-- A delivered pair whose contents is the wanted one on its blocks extends the done interval by two. -/
theorem done_add (d : Dev nD) (c : Fin τ.nSC) (j : Fin τ.nSub) (w : Fin 32) {off : Fin 3 → ℕ}
    (inb : ∀ a, off a + S2x128x128.size a ≤ S25600x128x128.size a) {lo : ℕ} (hoff : off = ![800 * w.val + lo, 0, 0])
    (g G : Buf (Elt F) (oLoc d)) (hg : ∀ i ∈ ((oV).slice (Rect.unit (s := S25600x128x128) off S2x128x128.size inb) (fun _ => rfl)).view.set, g i = G i) :
    iprop((oLoc d ↦[rowsIn w 0 lo]{fullShare} G)
        ∗ (((oV).slice (Rect.unit (s := S25600x128x128) off S2x128x128.size inb) (fun _ => rfl)).view.loc (V d c j) ↦[((oV).slice (Rect.unit (s := S25600x128x128) off S2x128x128.size inb) (fun _ => rfl)).view.set]{fullShare} g))
      ⊢ (oLoc d ↦[rowsIn w 0 (lo + 2)]{fullShare} G : sProp 𝕄) := by
  have e : (((oV).slice (Rect.unit (s := S25600x128x128) off S2x128x128.size inb) (fun _ => rfl)).view.loc (V d c j) ↦[((oV).slice (Rect.unit (s := S25600x128x128) off S2x128x128.size inb) (fun _ => rfl)).view.set]{fullShare} g : sProp 𝕄)
      = (oLoc d ↦[rowsIn w lo (lo + 2)]{fullShare} G) := by
    rw [← set_off_rows w inb hoff]
    exact pointsTo_congr hg
  rw [e, rowsIn_union w (Nat.zero_le lo) (Nat.le_add_right lo 2)]
  exact (pointsTo_union (rowsIn_disjoint w 0 lo (lo + 2))).2

/-- Nothing is held of an empty interval: the done interval before the first copy-out costs nothing. -/
theorem rows_none (d : Dev nD) (w : Fin 32) (lo : ℕ) (q : PosShare TreeShare) (f : Buf (Elt F) (oLoc d)) :
    (oLoc d ↦[rowsIn w lo lo]{q} f : sProp 𝕄) = iprop(emp) := by
  rw [rowsIn_self, pointsTo_empty]

/-! ## Runs of the list of row numbers -/

/-- Words 102400 w + 1024 g … 102400 w + 1024 g + 1023 of the flat list of row numbers: run g of worker w. -/
def blockSet (w : Fin 32) (g : ℕ) : Finset S3276800.Idx :=
  Finset.univ.filter fun i => 102400 * w.val + 1024 * g ≤ (i 0).val ∧ (i 0).val < 102400 * w.val + 1024 * g + 1024

theorem mem_blockSet {w : Fin 32} {g : ℕ} {i : S3276800.Idx} :
    i ∈ blockSet w g ↔ 102400 * w.val + 1024 * g ≤ (i 0).val ∧ (i 0).val < 102400 * w.val + 1024 * g + 1024 := by
  unfold blockSet
  rw [Finset.mem_filter]
  exact ⟨fun h => h.2, fun h => ⟨Finset.mem_univ _, h⟩⟩

/-- The source of a copy of row numbers whose offset has the value 102400 w + 1024 g is run g of worker w. -/
theorem set_block_off {off : Fin 1 → ℕ} (inb : ∀ a, off a + S1024.size a ≤ S3276800.size a) {w : Fin 32} {g : ℕ}
    (h : off = ![102400 * w.val + 1024 * g]) :
    ((iV).slice (Rect.unit (s := S3276800) off S1024.size inb) (fun _ => rfl)).view.set = blockSet w g := by
  subst h
  ext i
  show i ∈ ((View.whole main_v0_scv).slice (Rect.unit (s := S3276800) ![102400 * w.val + 1024 * g] S1024.size inb)).set ↔ _
  rw [View.set_slice_whole, Rect.mem_set_unit, mem_blockSet]
  constructor
  · intro h; exact h 0
  · intro h a
    match a with
    | ⟨0, _⟩ => exact h

/-- A run lies in the list. -/
theorem blockSet_sub (w : Fin 32) (g : ℕ) : blockSet w g ⊆ (iV).view.set := by
  rw [(Memref.isWhole_whole _).set_eq_univ]
  exact Finset.subset_univ _

end Cert.Proof.KI

end
-- ==== Proof.KInv.lean ====
/-
  What holds at the head of each trip of a tile's main loop. Trip k handles the blocks of row numbers 2k (through slot 0
  of the buffer of row numbers) and 2k + 1 (through slot 1). Transfers are kept in flight across the trips: at the head
  of trip k >= 1 the copy of block 2k into slot 0 is outstanding, so are the gathers of the last two lists of block
  2k - 1 into the second half of the rows buffer, and so is the copy-out of the first half to result blocks 16k - 4 and
  16k - 3 of the worker's slice. The slice's blocks before 16k - 4 hold the lookup; its blocks from 16k - 2 on are as
  the call found them. At the head of trip 0 only the copy of block 0 is outstanding and nothing is written; after trip
  49 no copy of row numbers is outstanding. Each outstanding transfer is held with what it will deliver said in the
  tile's own words: a slot whose words are the list's block, a quarter whose rows are the lookup's, a pair of result
  blocks at the lookup.
-/
import proofs.«205114_g12446815224155_cont_fleet_488_32_alg».proof.Proof.KRows

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (shareTok shareDrop)

variable {F : FTy → Type}
local notation "𝕄" => MT nD τ sig (HIx 1) (Elt F) ℕ UU ℕ
local notation "iV" => (Memref.whole Cert.KernelIdeal.main_v0_scv : Memref Cert.KernelIdeal.sig Kind.scVector Space.hbm Cert.KernelIdeal.S3276800 EltTy.i32)
local notation "oV" => (Memref.whole Cert.KernelIdeal.main_v1_scv : Memref Cert.KernelIdeal.sig Kind.scVector Space.hbm Cert.KernelIdeal.S25600x128x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)

variable (fi : (d : Dev nD) → Buf (Elt F) (idxLoc d)) (ft : (d : Dev nD) → Buf (Elt F) (tabLoc d)) (fo : (d : Dev nD) → Buf (Elt F) (oLoc d))
variable [FloatOps F]

section Deliveries

variable (d : Dev nD) (L : grid0.Coords)

/-- The table's slice a gather reads: all of it. -/
abbrev shAll : Memref sig .scVector .shared S3x128 .f32 := (shV).slice (Rect.unit (s := S3x128) ![0, 0] S3x128.size inb_S3x128_S3x128_0_0) (fun _ => rfl)

/-- Block g of the worker's part of the list fits the list. -/
theorem blk_inb (g : ℕ) (hg : g < 100) : ∀ a, (![102400 * (wL L).val + 1024 * g] : Fin 1 → ℕ) a + S1024.size a ≤ S3276800.size a := fun a => by
  have hw := (wL L).isLt
  have ha : a = 0 := Subsingleton.elim _ _
  subst ha
  show 102400 * (wL L).val + 1024 * g + 1024 ≤ 3276800
  omega

/-- Block g of the worker's part of the list, as a copy into a slot names its source. -/
abbrev idxBlk (g : ℕ) (hg : g < 100) : Memref sig .scVector .hbm S1024 .i32 :=
  (iV).slice (Rect.unit (s := S3276800) ![102400 * (wL L).val + 1024 * g] S1024.size (blk_inb L g hg)) (fun _ => rfl)

/-- The words of slot bb, read through the slot, are block g of the worker's part of the list. -/
def SlotIs (bb : Fin 2) (g : ℕ) (f : Buf (Elt F) ((ibV).view.loc (V d (cV L) (jV L)))) : Prop :=
  ∀ x : S1024.Idx, ∃ h : 102400 * (wL L).val + 1024 * g + (x 0).val < 3276800,
    ((slotM bb).view.read (Elt F) f x : BitVec 32) = fi d (ix1 ⟨102400 * (wL L).val + 1024 * g + (x 0).val, h⟩)

/-- The rows of quarter (pp, s), read through the quarter, are the lookup's rows of result block blk of the worker's slice. -/
def QuarterIs (pp s : Fin 2) (blk : ℕ) (a : Buf (Elt F) ((rwV).view.loc (V d (cV L) (jV L)))) : Prop :=
  ∀ r q : Fin 128, ∃ h : 800 * (wL L).val + blk < 25600,
    (quarterM pp s).view.read (Elt F) a (ix2 r q) = Cert.Spec.look (fi d) (ft d) (ix3 ⟨800 * (wL L).val + blk, h⟩ r q)

/-- What the copy of block g of the list into slot 0 delivers: the slot at the block's words, and the list's share back. -/
abbrev IdxD0 (g : ℕ) (hg : g < 100) : sProp 𝕄 :=
  iprop((∃ f : Buf (Elt F) ((ibV).view.loc (V d (cV L) (jV L))), ((((ibV).slice (Rect.unit (s := S2x1024) ![0, 0] S1x1024.size inb_S2x1024_S1x1024_0_0) (fun _ => rfl)).squeeze S1024 squeezes_S1x1024_S1024).view.loc (V d (cV L) (jV L)) ↦[(((ibV).slice (Rect.unit (s := S2x1024) ![0, 0] S1x1024.size inb_S2x1024_S1x1024_0_0) (fun _ => rfl)).squeeze S1024 squeezes_S1x1024_S1024).view.set]{fullShare} f) ∗ ⌜SlotIs fi d L 0 g f⌝)
    ∗ ((iV).view.loc (V d (cV L) (jV L)) ↦[(idxBlk L g hg).view.set]{iTok (wL L)} fi d))

/-- What the gather of the seventh list of slot 1 into the third quarter of the rows buffer delivers: the quarter at the
    lookup's rows of result block blk, the list back, and the table's token back. -/
abbrev GathD10 (blk : ℕ) (f : Buf (Elt F) ((ibV).view.loc (V d (cV L) (jV L)))) : sProp 𝕄 :=
  iprop(((∃ a : Buf (Elt F) ((rwV).view.loc (V d (cV L) (jV L))), ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} a) ∗ ⌜QuarterIs fi ft d L 1 0 blk a⌝)
      ∗ ((((ibV).slice (Rect.unit (s := S2x1024) ![1, 768] S1x128.size inb_S2x1024_S1x128_1_768) (fun _ => rfl)).squeeze S128 squeezes_S1x128_S128).view.loc (V d (cV L) (jV L)) ↦[(((ibV).slice (Rect.unit (s := S2x1024) ![1, 768] S1x128.size inb_S2x1024_S1x128_1_768) (fun _ => rfl)).squeeze S128 squeezes_S1x128_S128).view.set]{fullShare} f))
    ∗ ((shV).view.loc (V d (cV L) (jV L)) ↦[(shAll).view.set]{shareTok (shTok (jV L)) 9 4} ft d))

/-- The same for the eighth list and the fourth quarter. -/
abbrev GathD11 (blk : ℕ) (f : Buf (Elt F) ((ibV).view.loc (V d (cV L) (jV L)))) : sProp 𝕄 :=
  iprop(((∃ a : Buf (Elt F) ((rwV).view.loc (V d (cV L) (jV L))), ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} a) ∗ ⌜QuarterIs fi ft d L 1 1 blk a⌝)
      ∗ ((((ibV).slice (Rect.unit (s := S2x1024) ![1, 896] S1x128.size inb_S2x1024_S1x128_1_896) (fun _ => rfl)).squeeze S128 squeezes_S1x128_S128).view.loc (V d (cV L) (jV L)) ↦[(((ibV).slice (Rect.unit (s := S2x1024) ![1, 896] S1x128.size inb_S2x1024_S1x128_1_896) (fun _ => rfl)).squeeze S128 squeezes_S1x128_S128).view.set]{fullShare} f))
    ∗ ((shV).view.loc (V d (cV L) (jV L)) ↦[(shAll).view.set]{shareTok (shTok (jV L)) 9 5} ft d))

/-- What the copy-out of the first half of the rows buffer to the result blocks lo, lo + 1 of the worker's slice delivers:
    the two blocks at the lookup, and the half back. -/
abbrev OutD0 (lo : ℕ) (hb : ∀ a, (![800 * (wL L).val + lo, 0, 0] : Fin 3 → ℕ) a + S2x128x128.size a ≤ S25600x128x128.size a)
    (h : Buf (Elt F) ((rwV).view.loc (V d (cV L) (jV L)))) : sProp 𝕄 :=
  iprop((∃ g : Buf (Elt F) (oLoc d), ((pairM (800 * (wL L).val + lo) hb).view.loc (V d (cV L) (jV L)) ↦[(pairM (800 * (wL L).val + lo) hb).view.set]{fullShare} g)
        ∗ ⌜∀ i ∈ (pairM (800 * (wL L).val + lo) hb).view.set, g i = oDone fi ft d i⌝)
    ∗ ((((rwV).slice (Rect.unit (s := S2x2x128x128) ![0, 0, 0, 0] S1x2x128x128.size inb_S2x2x128x128_S1x2x128x128_0_0_0_0) (fun _ => rfl)).squeeze S2x128x128 squeezes_S1x2x128x128_S2x128x128).view.loc (V d (cV L) (jV L)) ↦[(((rwV).slice (Rect.unit (s := S2x2x128x128) ![0, 0, 0, 0] S1x2x128x128.size inb_S2x2x128x128_S1x2x128x128_0_0_0_0) (fun _ => rfl)).squeeze S2x128x128 squeezes_S1x2x128x128_S2x128x128).view.set]{fullShare} h))

end Deliveries

section Invariant

variable (d : Dev nD) (L : grid0.Coords) (O : CellTallies nD τ sig (HIx 1)) (W : Waits sig (HIx 1))

/-- The waits recorded so far are the ones the task began with or the task's own. -/
def WaitsOK (W' : Waits sig (HIx 1)) : Prop := ∀ p ∈ W', p ∈ W ∨ p.2 = none ∨ p.2 = some (0 : Fin 1)

/-- The pair of result blocks lo, lo + 1 of the worker's slice fits the result. -/
theorem pairIn (lo : ℕ) (h : lo + 2 ≤ 800) : ∀ a, (![800 * (wL L).val + lo, 0, 0] : Fin 3 → ℕ) a + S2x128x128.size a ≤ S25600x128x128.size a :=
  pair_inb (by have := (wL L).isLt; omega)

/-- What every trip starts from whatever its number: the waits' evidence, the debt, the four semaphores nothing is
    outstanding on, the table's tokens of the first two gather semaphores, the unused tokens and the remainder. -/
def Base : sProp 𝕄 :=
  iprop(Transfers.MayWaits (V d (cV L) (jV L)) (default : HIx 1) O
    ∗ (∃ W', ⌜WaitsOK W W'⌝ ∗ owes (V d (cV L) (jV L)) O W')
    ∗ semVal (dcell d (cV L) (jV L) cc0_scratch4) 0 ∗ semVal (dcell d (cV L) (jV L) cc0_scratch5) 0
    ∗ semVal (dcell d (cV L) (jV L) cc0_scratch6) 0 ∗ semVal (dcell d (cV L) (jV L) cc0_scratch10) 0
    ∗ ((shV).view.loc (V d (cV L) (jV L)) ↦[(shV).view.set]{shareTok (shTok (jV L)) 9 2} ft d)
    ∗ ((shV).view.loc (V d (cV L) (jV L)) ↦[(shV).view.set]{shareTok (shTok (jV L)) 9 3} ft d)
    ∗ (bigSep (((((Finset.univ : Finset (Fin 9)).erase 2).erase 3).erase 4).erase 5) fun i => ((shV).view.loc (V d (cV L) (jV L)) ↦[(shV).view.set]{shareTok (shTok (jV L)) 9 i} ft d))
    ∗ ((shV).view.loc (V d (cV L) (jV L)) ↦[(shV).view.set]{shareDrop (shTok (jV L)) 9} ft d))

theorem two_lt {k : ℕ} (h : k < 50) : 2 * k < 100 := by omega

/-- The list of row numbers: before trip 50 the copy of block 2k into slot 0 is outstanding; after the last trip nothing
    is, and slot 0's lists rest at some contents. -/
def IdxPart (k : ℕ) : sProp 𝕄 :=
  if h : k < 50 then
    iprop(Transfers.Flight countersEmb (V d (cV L) (jV L)) (SemLoc.dma cc0_scratch3.sem) (default : HIx 1) 32768 (IdxD0 fi d L (2 * k) (two_lt h))
      ∗ ((iV).view.loc (V d (cV L) (jV L)) ↦[(iV).view.set \ (idxBlk L (2 * k) (two_lt h)).view.set]{iTok (wL L)} fi d))
  else
    iprop(semVal (dcell d (cV L) (jV L) cc0_scratch3) 0
      ∗ ((iV).view.loc (V d (cV L) (jV L)) ↦[(iV).view.set]{iTok (wL L)} fi d)
      ∗ (∃ f : Buf (Elt F) ((ibV).view.loc (V d (cV L) (jV L))), bigSep Finset.univ fun s : Fin 8 => ((listM 0 s).view.loc (V d (cV L) (jV L)) ↦[(listM 0 s).view.set]{fullShare} f)))

/-- Before the first trip: slot 1 and the four quarters of the rows buffer rest at some contents, nothing else is
    outstanding, and the worker's slice of the result is as the call found it. -/
def First : sProp 𝕄 :=
  iprop((∃ f : Buf (Elt F) ((ibV).view.loc (V d (cV L) (jV L))), (slotM 1).view.loc (V d (cV L) (jV L)) ↦[(slotM 1).view.set]{fullShare} f)
    ∗ (∃ f : Buf (Elt F) ((rwV).view.loc (V d (cV L) (jV L))), (rwV).view.loc (V d (cV L) (jV L)) ↦[(rwV).view.set]{fullShare} f)
    ∗ semVal (dcell d (cV L) (jV L) cc0_scratch7) 0 ∗ semVal (dcell d (cV L) (jV L) cc0_scratch8) 0 ∗ semVal (dcell d (cV L) (jV L) cc0_scratch9) 0
    ∗ ((shV).view.loc (V d (cV L) (jV L)) ↦[(shV).view.set]{shareTok (shTok (jV L)) 9 4} ft d)
    ∗ ((shV).view.loc (V d (cV L) (jV L)) ↦[(shV).view.set]{shareTok (shTok (jV L)) 9 5} ft d)
    ∗ (oLoc d ↦[rowsIn (wL L) 0 800]{fullShare} fo d)
    ∗ (oLoc d ↦[rowsIn (wL L) 0 0]{fullShare} oDone fi ft d))

/-- Before trip k >= 1: slot 1 holds block 2k - 1, its first six lists rest, its last two are being gathered into the
    second half of the rows buffer; the first half is being copied out to blocks 16k - 4, 16k - 3; the blocks before them
    hold the lookup, the blocks from 16k - 2 on are untouched. -/
def Steady (k : ℕ) (hk : 16 * k + 0 ≤ 800 ∧ 4 ≤ 16 * k) : sProp 𝕄 :=
  iprop(∃ f2 : Buf (Elt F) ((ibV).view.loc (V d (cV L) (jV L))), ⌜SlotIs fi d L 1 (2 * k - 1) f2⌝
    ∗ (bigSep ((((Finset.univ : Finset (Fin 8)).erase 6).erase 7)) fun s : Fin 8 => ((listM 1 s).view.loc (V d (cV L) (jV L)) ↦[(listM 1 s).view.set]{fullShare} f2))
    ∗ Transfers.Flight countersEmb (V d (cV L) (jV L)) (SemLoc.dma cc0_scratch7.sem) (default : HIx 1) 524288 (GathD10 fi ft d L (16 * k - 2) f2)
    ∗ Transfers.Flight countersEmb (V d (cV L) (jV L)) (SemLoc.dma cc0_scratch8.sem) (default : HIx 1) 524288 (GathD11 fi ft d L (16 * k - 1) f2)
    ∗ ((shV).view.loc (V d (cV L) (jV L)) ↦[(shV).view.set \ (shAll).view.set]{shareTok (shTok (jV L)) 9 4} ft d)
    ∗ ((shV).view.loc (V d (cV L) (jV L)) ↦[(shV).view.set \ (shAll).view.set]{shareTok (shTok (jV L)) 9 5} ft d)
    ∗ (∃ h0 : Buf (Elt F) ((rwV).view.loc (V d (cV L) (jV L))), Transfers.Flight countersEmb (V d (cV L) (jV L)) (SemLoc.dma cc0_scratch9.sem) (default : HIx 1) 1048576 (OutD0 fi ft d L (16 * k - 4) (pairIn L (16 * k - 4) (by omega)) h0))
    ∗ (oLoc d ↦[rowsIn (wL L) 0 (16 * k - 4)]{fullShare} oDone fi ft d)
    ∗ (oLoc d ↦[rowsIn (wL L) (16 * k - 2) 800]{fullShare} fo d))

/-- The invariant of the main loop. -/
def Inv (k : ℕ) (_ : Unit) : sProp 𝕄 :=
  iprop(⌜k ≤ 50⌝ ∗ Base ft d L O W ∗ IdxPart fi d L k
    ∗ (if h : k = 0 then First fi ft fo d L else if h' : k ≤ 50 then Steady fi ft fo d L k (by omega) else iprop(emp)))

end Invariant

end Cert.Proof.KI

end
-- ==== Proof.KValue.lean ====
/-
  The values the tile's transfers leave. A block of the buffer of row numbers filled by a copy of a run of the flat list
  reads that run; a list is 128 consecutive words of its block; a quarter of the buffer of gathered rows filled by a
  gather of the table along a list that is a chunk of the flat list reads a block of the lookup; and a pair of result
  blocks filled by the copy of a half whose quarters read two consecutive blocks of the lookup holds the lookup on its
  elements. Each fact is read off where a piece's element sits in its buffer: a piece is a rectangle of the buffer with
  its unit axes dropped, so its element is the rectangle's origin plus the element's own coordinates.
-/
import proofs.«205114_g12446815224155_cont_fleet_488_32_alg».proof.Proof.KRows
import proofs.«205114_g12446815224155_cont_fleet_488_32_alg».proof.Proof.KGather
import Idealize.ShloMosaic.Lib.ValueLayout

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "oV" => (Memref.whole Cert.KernelIdeal.main_v1_scv : Memref Cert.KernelIdeal.sig Kind.scVector Space.hbm Cert.KernelIdeal.S25600x128x128 EltTy.f32)
local notation "iV" => (Memref.whole Cert.KernelIdeal.main_v0_scv : Memref Cert.KernelIdeal.sig Kind.scVector Space.hbm Cert.KernelIdeal.S3276800 EltTy.i32)
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)
local notation "shV" => (Memref.whole Cert.KernelIdeal.cc0_scratch0 : Memref Cert.KernelIdeal.sig Kind.scVector Space.shared Cert.KernelIdeal.S3x128 EltTy.f32)
open Idealize.ShloMosaic.ValueIdx

/-! ## Where a piece's element sits in its buffer -/

/-- Element x of a block of 1024 words of the buffer of row numbers, the block named through an offset: on the row the
    offset names, at the offset's word plus x. -/
theorem slotLit_emb {off : Fin 2 → ℕ} (inb : ∀ a, off a + S1x1024.size a ≤ S2x1024.size a) (x : S1024.Idx) (a : Fin 2) :
    (((((ibV).slice (Rect.unit (s := S2x1024) off S1x1024.size inb) (fun _ => rfl)).squeeze S1024 squeezes_S1x1024_S1024).view.emb x) a).val
      = off a + (match a with | ⟨0, _⟩ => 0 | ⟨1, _⟩ => (x 0).val) := by
  show ((Rect.unit (s := S2x1024) off S1x1024.size inb).emb (Shape.reshapeEquiv _ x) a).val = _
  rw [Rect.emb_apply, Shape.reshapeEquiv_cons_one (n := 1) (d := ![1024])]
  match a with
  | ⟨0, _⟩ => rfl
  | ⟨1, _⟩ =>
    show off 1 + 1 * (x 0).val = off 1 + (x 0).val
    omega

/-- The same for a list of 128 words. -/
theorem listLit_emb {off : Fin 2 → ℕ} (inb : ∀ a, off a + S1x128.size a ≤ S2x1024.size a) (x : S128.Idx) (a : Fin 2) :
    (((((ibV).slice (Rect.unit (s := S2x1024) off S1x128.size inb) (fun _ => rfl)).squeeze S128 squeezes_S1x128_S128).view.emb x) a).val
      = off a + (match a with | ⟨0, _⟩ => 0 | ⟨1, _⟩ => (x 0).val) := by
  show ((Rect.unit (s := S2x1024) off S1x128.size inb).emb (Shape.reshapeEquiv _ x) a).val = _
  rw [Rect.emb_apply, Shape.reshapeEquiv_cons_one (n := 1) (d := ![128])]
  match a with
  | ⟨0, _⟩ => rfl
  | ⟨1, _⟩ =>
    show off 1 + 1 * (x 0).val = off 1 + (x 0).val
    omega

/-- Word x of block bb is word x of row bb of the buffer of row numbers. -/
theorem slotM_emb (bb : Fin 2) (x : S1024.Idx) (a : Fin 2) :
    ((slotM bb).view.emb x a).val = (match a with | ⟨0, _⟩ => bb.val | ⟨1, _⟩ => (x 0).val) := by
  fin_cases bb
  · exact (slotLit_emb inb_S2x1024_S1x1024_0_0 x a).trans (by
      match a with
      | ⟨0, _⟩ => exact Nat.add_zero _
      | ⟨1, _⟩ => exact Nat.zero_add _)
  · exact (slotLit_emb inb_S2x1024_S1x1024_1_0 x a).trans (by
      match a with
      | ⟨0, _⟩ => exact Nat.add_zero _
      | ⟨1, _⟩ => exact Nat.zero_add _)

/-- Word x of list s of block bb is word 128 s + x of row bb. -/
theorem listM_emb (bb : Fin 2) (s : Fin 8) (x : S128.Idx) (a : Fin 2) :
    ((listM bb s).view.emb x a).val = (match a with | ⟨0, _⟩ => bb.val | ⟨1, _⟩ => 128 * s.val + (x 0).val) := by
  fin_cases bb <;> fin_cases s
  · exact (listLit_emb inb_S2x1024_S1x128_0_0 x a).trans (by
      match a with
      | ⟨0, _⟩ => exact Nat.add_zero _
      | ⟨1, _⟩ => rfl)
  · exact (listLit_emb inb_S2x1024_S1x128_0_128 x a).trans (by
      match a with
      | ⟨0, _⟩ => exact Nat.add_zero _
      | ⟨1, _⟩ => rfl)
  · exact (listLit_emb inb_S2x1024_S1x128_0_256 x a).trans (by
      match a with
      | ⟨0, _⟩ => exact Nat.add_zero _
      | ⟨1, _⟩ => rfl)
  · exact (listLit_emb inb_S2x1024_S1x128_0_384 x a).trans (by
      match a with
      | ⟨0, _⟩ => exact Nat.add_zero _
      | ⟨1, _⟩ => rfl)
  · exact (listLit_emb inb_S2x1024_S1x128_0_512 x a).trans (by
      match a with
      | ⟨0, _⟩ => exact Nat.add_zero _
      | ⟨1, _⟩ => rfl)
  · exact (listLit_emb inb_S2x1024_S1x128_0_640 x a).trans (by
      match a with
      | ⟨0, _⟩ => exact Nat.add_zero _
      | ⟨1, _⟩ => rfl)
  · exact (listLit_emb inb_S2x1024_S1x128_0_768 x a).trans (by
      match a with
      | ⟨0, _⟩ => exact Nat.add_zero _
      | ⟨1, _⟩ => rfl)
  · exact (listLit_emb inb_S2x1024_S1x128_0_896 x a).trans (by
      match a with
      | ⟨0, _⟩ => exact Nat.add_zero _
      | ⟨1, _⟩ => rfl)
  · exact (listLit_emb inb_S2x1024_S1x128_1_0 x a).trans (by
      match a with
      | ⟨0, _⟩ => exact Nat.add_zero _
      | ⟨1, _⟩ => rfl)
  · exact (listLit_emb inb_S2x1024_S1x128_1_128 x a).trans (by
      match a with
      | ⟨0, _⟩ => exact Nat.add_zero _
      | ⟨1, _⟩ => rfl)
  · exact (listLit_emb inb_S2x1024_S1x128_1_256 x a).trans (by
      match a with
      | ⟨0, _⟩ => exact Nat.add_zero _
      | ⟨1, _⟩ => rfl)
  · exact (listLit_emb inb_S2x1024_S1x128_1_384 x a).trans (by
      match a with
      | ⟨0, _⟩ => exact Nat.add_zero _
      | ⟨1, _⟩ => rfl)
  · exact (listLit_emb inb_S2x1024_S1x128_1_512 x a).trans (by
      match a with
      | ⟨0, _⟩ => exact Nat.add_zero _
      | ⟨1, _⟩ => rfl)
  · exact (listLit_emb inb_S2x1024_S1x128_1_640 x a).trans (by
      match a with
      | ⟨0, _⟩ => exact Nat.add_zero _
      | ⟨1, _⟩ => rfl)
  · exact (listLit_emb inb_S2x1024_S1x128_1_768 x a).trans (by
      match a with
      | ⟨0, _⟩ => exact Nat.add_zero _
      | ⟨1, _⟩ => rfl)
  · exact (listLit_emb inb_S2x1024_S1x128_1_896 x a).trans (by
      match a with
      | ⟨0, _⟩ => exact Nat.add_zero _
      | ⟨1, _⟩ => rfl)

/-! ## A block of row numbers after its copy from the list, and a list inside a block -/

/-- A list's word is the block's word 128 s further on. -/
theorem list_of_slot (bb : Fin 2) (s : Fin 8) (d : Dev nD) (c : Fin τ.nSC) (j : Fin τ.nSub) (f : Buf (Elt F) ((ibV).view.loc (V d c j)))
    (x : S128.Idx) :
    (listM bb s).view.read (Elt F) f x
      = (slotM bb).view.read (Elt F) f (ix1 ⟨128 * s.val + (x 0).val, by
          have hs : s.val < 8 := s.isLt
          have hx : (x 0).val < 128 := (x 0).isLt
          omega⟩) := by
  have e : (listM bb s).view.emb x = (slotM bb).view.emb (ix1 ⟨128 * s.val + (x 0).val, by
          have hs : s.val < 8 := s.isLt
          have hx : (x 0).val < 128 := (x 0).isLt
          omega⟩) := by
    funext a
    refine Fin.ext ?_
    rw [listM_emb, slotM_emb]
  rw [View.read_apply, View.read_apply, e]

/-- Word x of a run of 1024 of the flat list, the run named through an offset of value b0, is word b0 + x of the list. -/
theorem run_emb {off : Fin 1 → ℕ} (inb : ∀ a, off a + S1024.size a ≤ S3276800.size a) {b0 : ℕ} (hoff : off = ![b0]) (x : S1024.Idx)
    (h : b0 + (x 0).val < 3276800) :
    ((iV).slice (Rect.unit (s := S3276800) off S1024.size inb) (fun _ => rfl)).view.emb x = ix1 ⟨b0 + (x 0).val, h⟩ := by
  subst hoff
  show (Rect.unit (s := S3276800) ![b0] S1024.size inb).emb x = _
  funext a
  refine Fin.ext ?_
  rw [Rect.emb_apply]
  match a with
  | ⟨0, _⟩ =>
    show b0 + 1 * (x 0).val = b0 + (x 0).val
    omega

/-- THE BLOCK AFTER ITS COPY: a block filled by the copy of a run of the flat list starting at word b0 reads, at x, word
    b0 + x of the list. -/
theorem slot_value (bb : Fin 2) (d : Dev nD) (c : Fin τ.nSC) (j : Fin τ.nSub) (a0 : Buf (Elt F) ((ibV).view.loc (V d c j)))
    (fi' : S3276800.Idx → BitVec 32) {off : Fin 1 → ℕ} (inb : ∀ a, off a + S1024.size a ≤ S3276800.size a) {b0 : ℕ} (hoff : off = ![b0])
    (x : S1024.Idx) :
    ∃ h : b0 + (x 0).val < 3276800,
      ((slotM bb).view.read (Elt F) ((slotM bb).view.writes (Elt F) a0 [⟨Rect.whole S1024, ReadAs.same.apply (View.read (Elt F)
        ((iV).slice (Rect.unit (s := S3276800) off S1024.size inb) (fun _ => rfl)).view fi')⟩]) x : BitVec 32)
        = fi' (ix1 ⟨b0 + (x 0).val, h⟩) := by
  have h : b0 + (x 0).val < 3276800 := by
    have h0 : off 0 + 1024 ≤ 3276800 := inb 0
    have hx : (x 0).val < 1024 := (x 0).isLt
    rw [hoff] at h0
    have e : (![b0] : Fin 1 → ℕ) 0 = b0 := rfl
    rw [e] at h0
    omega
  refine ⟨h, ?_⟩
  rw [View.read_writes_whole (Val := Elt F) (slotM bb).view a0]
  show View.read (Elt F) ((iV).slice (Rect.unit (s := S3276800) off S1024.size inb) (fun _ => rfl)).view fi' x = _
  rw [View.read_apply, run_emb inb hoff x h]
  rfl

/-! ## The table as a gather reads it -/

/-- The shared copy of the table read through the slice a gather names (all of it, from its origin) is its contents. -/
theorem tab_read (d : Dev nD) (ft' : Buf (Elt F) (tabLoc d)) :
    View.read (Elt F) ((shV).slice (Rect.unit (s := S3x128) ![0, 0] S3x128.size inb_S3x128_S3x128_0_0) (fun _ => rfl)).view ft' = ft' := by
  funext x
  have e : ((shV).slice (Rect.unit (s := S3x128) ![0, 0] S3x128.size inb_S3x128_S3x128_0_0) (fun _ => rfl)).view.emb x = x := by
    show (Rect.unit (s := S3x128) ![0, 0] S3x128.size inb_S3x128_S3x128_0_0).emb x = x
    funext a
    refine Fin.ext ?_
    rw [Rect.emb_apply]
    match a with
    | ⟨0, _⟩ =>
      show 0 + 1 * (x 0).val = (x 0).val
      omega
    | ⟨1, _⟩ =>
      show 0 + 1 * (x 1).val = (x 1).val
      omega
  rw [View.read_apply, e]
  rfl

/-! ## A quarter after its gather -/

/-- THE QUARTER AFTER ITS GATHER: filled by the gather of the table along a list that is words 128 b … 128 b + 127 of the
    flat list of row numbers, the quarter reads block b of the lookup. -/
theorem quarter_value (pp s : Fin 2) (d : Dev nD) (c : Fin τ.nSC) (j : Fin τ.nSub) (a0 : Buf (Elt F) ((rwV).view.loc (V d c j)))
    (tab : S3x128.Idx → Elt F .f32) (fi' : S3276800.Idx → BitVec 32) (w : S128.Idx → BitVec 32)
    (hn : S128.numel = S128x128.size gathers_S3x128_S128x128.axis')
    (hin : ∀ x, (w x).toNat < S3x128.size gathers_S3x128_S128x128.axis)
    (H : ∀ x, 0 ≤ (w x).toInt ∧ (w x).toInt ≤ 2) (b : Fin 25600)
    (hw : ∀ r : Fin 128, w (ix1 r) = fi' (ix1 ⟨b.val * 128 + r.val, by have := b.isLt; have := r.isLt; omega⟩)) (r q : Fin 128) :
    (quarterM pp s).view.read (Elt F) ((quarterM pp s).view.writes (Elt F) a0 [⟨Rect.whole S128x128,
        SparseCore.gatherPayload (F := F) gathers_S3x128_S128x128 tab (SparseCore.rows (F := F) w hn hin)⟩]) (ix2 r q)
      = Cert.Spec.look fi' tab (ix3 b r q) := by
  rw [View.read_writes_whole (Val := Elt F) (quarterM pp s).view a0]
  exact gatherPayload_chunk gathers_S3x128_S128x128 tab fi' w hn hin H b hw r q

/-! ## A pair of result blocks after its copy-out -/

/-- Entry (t, r, q) of a half of the buffer of gathered rows, the half named through an offset: at the offset's slot,
    the offset's block plus t, row r, column q. -/
theorem halfLit_emb {off : Fin 4 → ℕ} (inb : ∀ a, off a + S1x2x128x128.size a ≤ S2x2x128x128.size a) (t : Fin 2) (r q : Fin 128) (a : Fin 4) :
    (((((rwV).slice (Rect.unit (s := S2x2x128x128) off S1x2x128x128.size inb) (fun _ => rfl)).squeeze S2x128x128 squeezes_S1x2x128x128_S2x128x128).view.emb (ix3 t r q)) a).val
      = off a + (match a with | ⟨0, _⟩ => 0 | ⟨1, _⟩ => t.val | ⟨2, _⟩ => r.val | ⟨3, _⟩ => q.val) := by
  show ((Rect.unit (s := S2x2x128x128) off S1x2x128x128.size inb).emb (Shape.reshapeEquiv _ (ix3 t r q)) a).val = _
  rw [Rect.emb_apply, reshapeEquiv_ix3_1abc]
  match a with
  | ⟨0, _⟩ => rfl
  | ⟨1, _⟩ =>
    show off 1 + 1 * t.val = off 1 + t.val
    omega
  | ⟨2, _⟩ =>
    show off 2 + 1 * r.val = off 2 + r.val
    omega
  | ⟨3, _⟩ =>
    show off 3 + 1 * q.val = off 3 + q.val
    omega

/-- The same for a quarter: entry (r, q) is at the offset's slot and block, row r, column q. -/
theorem quarterLit_emb {off : Fin 4 → ℕ} (inb : ∀ a, off a + S1x1x128x128.size a ≤ S2x2x128x128.size a) (r q : Fin 128) (a : Fin 4) :
    (((((rwV).slice (Rect.unit (s := S2x2x128x128) off S1x1x128x128.size inb) (fun _ => rfl)).squeeze S128x128 squeezes_S1x1x128x128_S128x128).view.emb (ix2 r q)) a).val
      = off a + (match a with | ⟨0, _⟩ => 0 | ⟨1, _⟩ => 0 | ⟨2, _⟩ => r.val | ⟨3, _⟩ => q.val) := by
  show ((Rect.unit (s := S2x2x128x128) off S1x1x128x128.size inb).emb (Shape.reshapeEquiv _ (ix2 r q)) a).val = _
  rw [Rect.emb_apply, reshapeEquiv_ix2_11ab]
  match a with
  | ⟨0, _⟩ => rfl
  | ⟨1, _⟩ => rfl
  | ⟨2, _⟩ =>
    show off 2 + 1 * r.val = off 2 + r.val
    omega
  | ⟨3, _⟩ =>
    show off 3 + 1 * q.val = off 3 + q.val
    omega

/-- Entry (t, r, q) of half pp is entry (pp, t, r, q) of the buffer of gathered rows. -/
theorem halfM_emb (pp : Fin 2) (t : Fin 2) (r q : Fin 128) (a : Fin 4) :
    ((halfM pp).view.emb (ix3 t r q) a).val = (match a with | ⟨0, _⟩ => pp.val | ⟨1, _⟩ => t.val | ⟨2, _⟩ => r.val | ⟨3, _⟩ => q.val) := by
  fin_cases pp
  · exact (halfLit_emb inb_S2x2x128x128_S1x2x128x128_0_0_0_0 t r q a).trans (by
      match a with
      | ⟨0, _⟩ => exact Nat.add_zero _
      | ⟨1, _⟩ => exact Nat.zero_add _
      | ⟨2, _⟩ => exact Nat.zero_add _
      | ⟨3, _⟩ => exact Nat.zero_add _)
  · exact (halfLit_emb inb_S2x2x128x128_S1x2x128x128_1_0_0_0 t r q a).trans (by
      match a with
      | ⟨0, _⟩ => exact Nat.add_zero _
      | ⟨1, _⟩ => exact Nat.zero_add _
      | ⟨2, _⟩ => exact Nat.zero_add _
      | ⟨3, _⟩ => exact Nat.zero_add _)

/-- Entry (r, q) of quarter s of half pp is entry (pp, s, r, q) of the buffer of gathered rows. -/
theorem quarterM_emb (pp s : Fin 2) (r q : Fin 128) (a : Fin 4) :
    ((quarterM pp s).view.emb (ix2 r q) a).val = (match a with | ⟨0, _⟩ => pp.val | ⟨1, _⟩ => s.val | ⟨2, _⟩ => r.val | ⟨3, _⟩ => q.val) := by
  fin_cases pp <;> fin_cases s
  · exact (quarterLit_emb inb_S2x2x128x128_S1x1x128x128_0_0_0_0 r q a).trans (by
      match a with
      | ⟨0, _⟩ => exact Nat.add_zero _
      | ⟨1, _⟩ => exact Nat.add_zero _
      | ⟨2, _⟩ => exact Nat.zero_add _
      | ⟨3, _⟩ => exact Nat.zero_add _)
  · exact (quarterLit_emb inb_S2x2x128x128_S1x1x128x128_0_1_0_0 r q a).trans (by
      match a with
      | ⟨0, _⟩ => exact Nat.add_zero _
      | ⟨1, _⟩ => exact Nat.add_zero _
      | ⟨2, _⟩ => exact Nat.zero_add _
      | ⟨3, _⟩ => exact Nat.zero_add _)
  · exact (quarterLit_emb inb_S2x2x128x128_S1x1x128x128_1_0_0_0 r q a).trans (by
      match a with
      | ⟨0, _⟩ => exact Nat.add_zero _
      | ⟨1, _⟩ => exact Nat.add_zero _
      | ⟨2, _⟩ => exact Nat.zero_add _
      | ⟨3, _⟩ => exact Nat.zero_add _)
  · exact (quarterLit_emb inb_S2x2x128x128_S1x1x128x128_1_1_0_0 r q a).trans (by
      match a with
      | ⟨0, _⟩ => exact Nat.add_zero _
      | ⟨1, _⟩ => exact Nat.add_zero _
      | ⟨2, _⟩ => exact Nat.zero_add _
      | ⟨3, _⟩ => exact Nat.zero_add _)

/-- Block t of a half is the half's quarter t. -/
theorem half_quarter_emb (pp t : Fin 2) (r q : Fin 128) : (halfM pp).view.emb (ix3 t r q) = (quarterM pp t).view.emb (ix2 r q) := by
  funext a
  refine Fin.ext ?_
  rw [halfM_emb, quarterM_emb]

/-- Entry (t, r, q) of a pair of result blocks named through an offset of value (b0, 0, 0) is entry (b0 + t, r, q) of the
    result. -/
theorem pair_emb {off : Fin 3 → ℕ} (inb : ∀ a, off a + S2x128x128.size a ≤ S25600x128x128.size a) {b0 : ℕ} (hoff : off = ![b0, 0, 0])
    (t : Fin 2) (r q : Fin 128) (h : b0 + t.val < 25600) :
    ((oV).slice (Rect.unit (s := S25600x128x128) off S2x128x128.size inb) (fun _ => rfl)).view.emb (ix3 t r q) = ix3 ⟨b0 + t.val, h⟩ r q := by
  subst hoff
  show (Rect.unit (s := S25600x128x128) ![b0, 0, 0] S2x128x128.size inb).emb (ix3 t r q) = _
  funext a
  refine Fin.ext ?_
  rw [Rect.emb_apply]
  match a with
  | ⟨0, _⟩ =>
    show b0 + 1 * t.val = b0 + t.val
    omega
  | ⟨1, _⟩ =>
    show 0 + 1 * r.val = r.val
    omega
  | ⟨2, _⟩ =>
    show 0 + 1 * q.val = q.val
    omega

/-- THE PAIR AFTER ITS COPY-OUT: when the two quarters of a half read blocks b0 and b0 + 1 of a function G of the result's
    indices, the pair of result blocks at b0 filled by the copy of the half holds G on its elements. -/
theorem pair_value (pp : Fin 2) (d : Dev nD) (c : Fin τ.nSC) (j : Fin τ.nSub) (A B : Buf (Elt F) ((rwV).view.loc (V d c j)))
    (G : S25600x128x128.Idx → Elt F .f32) {off : Fin 3 → ℕ} (inb : ∀ a, off a + S2x128x128.size a ≤ S25600x128x128.size a) {b0 : ℕ}
    (hoff : off = ![b0, 0, 0]) (hb0 : b0 + 2 ≤ 25600)
    (hA : ∀ r q : Fin 128, (quarterM pp 0).view.read (Elt F) A (ix2 r q) = G (ix3 ⟨b0, by omega⟩ r q))
    (hB : ∀ r q : Fin 128, (quarterM pp 1).view.read (Elt F) B (ix2 r q) = G (ix3 ⟨b0 + 1, by omega⟩ r q))
    (fo' : Buf (Elt F) (oLoc d)) :
    ∀ i ∈ ((oV).slice (Rect.unit (s := S25600x128x128) off S2x128x128.size inb) (fun _ => rfl)).view.set,
      (((oV).slice (Rect.unit (s := S25600x128x128) off S2x128x128.size inb) (fun _ => rfl)).view.writes (Elt F) fo' [⟨Rect.whole (Rect.unit (s := S25600x128x128) off S2x128x128.size inb).shape,
        ReadAs.same.apply (View.read (Elt F) (halfM pp).view ((quarterM pp 0).view.set.piecewise A B))⟩]) i = G i := by
  intro i hi
  obtain ⟨y, -, rfl⟩ := Finset.mem_map.mp hi
  obtain ⟨t, r, q, rfl⟩ : ∃ (t : Fin 2) (r q : Fin 128), y = ix3 t r q := ⟨y 0, y 1, y 2, eq_ix3 y⟩
  have ht : t.val < 2 := t.isLt
  have h1 := congrFun (View.read_writes_whole (Val := Elt F) ((oV).slice (Rect.unit (s := S25600x128x128) off S2x128x128.size inb) (fun _ => rfl)).view fo'
    (ReadAs.same.apply (View.read (Elt F) (halfM pp).view ((quarterM pp 0).view.set.piecewise A B)))) (ix3 t r q)
  rw [View.read_apply] at h1
  refine ((cast_eq _ _).symm.trans h1).trans ?_
  rw [ReadAs.apply_same, View.read_apply, half_quarter_emb, pair_emb inb hoff t r q (by omega)]
  refine (cast_eq _ _).trans ?_
  have ht' : t = 0 ∨ t = 1 := by
    rcases (show t.val = 0 ∨ t.val = 1 by omega) with h | h
    · exact Or.inl (Fin.ext h)
    · exact Or.inr (Fin.ext h)
  rcases ht' with rfl | rfl
  · have hm : (quarterM pp 0).view.emb (ix2 r q) ∈ (quarterM pp 0).view.set := View.emb_mem_set _ _
    refine (Finset.piecewise_eq_of_mem _ _ _ hm).trans ?_
    have h2 := hA r q
    rw [View.read_apply] at h2
    exact (cast_eq _ _).symm.trans h2
  · have hm : (quarterM pp 1).view.emb (ix2 r q) ∈ (quarterM pp 1).view.set := View.emb_mem_set _ _
    refine (Finset.piecewise_eq_of_notMem _ _ _ (Finset.disjoint_right.mp (quarterM_disjoint pp) hm)).trans ?_
    have h2 := hB r q
    rw [View.read_apply] at h2
    exact (cast_eq _ _).symm.trans h2

end Cert.Proof.KI

end
-- ==== Proof.KClean.lean ====
/-
  An outstanding transfer held with the delivery the machine states — the destination at what was written over its old
  contents, the source back — is the transfer held with the delivery said in the tile's own words: a block whose words are
  a run of the flat list, a quarter whose rows are a block of the lookup. The two deliveries differ only in how the
  destination's contents are described, and what a transfer delivers may be weakened.
-/
import proofs.«205114_g12446815224155_cont_fleet_488_32_alg».proof.Proof.KInv
import proofs.«205114_g12446815224155_cont_fleet_488_32_alg».proof.Proof.KValue

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (shareTok shareDrop)

variable {F : FTy → Type}
local notation "𝕄" => MT nD τ sig (HIx 1) (Elt F) ℕ UU ℕ
local notation "iV" => (Memref.whole Cert.KernelIdeal.main_v0_scv : Memref Cert.KernelIdeal.sig Kind.scVector Space.hbm Cert.KernelIdeal.S3276800 EltTy.i32)
local notation "oV" => (Memref.whole Cert.KernelIdeal.main_v1_scv : Memref Cert.KernelIdeal.sig Kind.scVector Space.hbm Cert.KernelIdeal.S25600x128x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)

variable (fi : (d : Dev nD) → Buf (Elt F) (idxLoc d)) (ft : (d : Dev nD) → Buf (Elt F) (tabLoc d))
variable [FloatOps F]

/-! ## What a gather leaves -/

/-- A word of a list of a block that holds run g of the worker's part of the list is the flat list's word 128 s further
    on in the run. -/
theorem list_word (d : Dev nD) (L : grid0.Coords) (bb : Fin 2) (s : Fin 8) (g : ℕ) (f : Buf (Elt F) ((ibV).view.loc (V d (cV L) (jV L))))
    (hslot : SlotIs fi d L bb g f) (r : Fin 128) :
    ∃ h : 102400 * (wL L).val + 1024 * g + 128 * s.val + r.val < 3276800,
      ((listM bb s).view.read (Elt F) f (ix1 r) : BitVec 32) = fi d (ix1 ⟨102400 * (wL L).val + 1024 * g + 128 * s.val + r.val, h⟩) := by
  have hs : s.val < 8 := s.isLt
  have hr' : r.val < 128 := r.isLt
  obtain ⟨h, e⟩ := hslot (ix1 ⟨128 * s.val + r.val, by omega⟩)
  have h' : 102400 * (wL L).val + 1024 * g + 128 * s.val + r.val < 3276800 := by
    have e0 : ((ix1 (⟨128 * s.val + r.val, by omega⟩ : Fin 1024) : S1024.Idx) 0).val = 128 * s.val + r.val := rfl
    rw [e0] at h
    omega
  refine ⟨h', (list_of_slot bb s d (cV L) (jV L) f (ix1 r)).trans (e.trans (congrArg (fi d) (congrArg ix1 (Fin.ext ?_))))⟩
  show 102400 * (wL L).val + 1024 * g + (128 * s.val + r.val) = 102400 * (wL L).val + 1024 * g + 128 * s.val + r.val
  omega

/-- When every word of the flat list is between 0 and 2, so is every word of such a list. -/
theorem list_range (hr : InRange fi) (d : Dev nD) (L : grid0.Coords) (bb : Fin 2) (s : Fin 8) (g : ℕ)
    (f : Buf (Elt F) ((ibV).view.loc (V d (cV L) (jV L)))) (hslot : SlotIs fi d L bb g f) :
    ∀ x, 0 ≤ (((listM bb s).view.read (Elt F) f x : BitVec 32)).toInt ∧ (((listM bb s).view.read (Elt F) f x : BitVec 32)).toInt ≤ 2 := by
  intro x
  obtain ⟨r, rfl⟩ : ∃ r : Fin 128, x = ix1 r := ⟨x 0, eq_ix1 x⟩
  obtain ⟨h, e⟩ := list_word fi d L bb s g f hslot r
  rw [e]
  exact hr d _

/-- When every word of the flat list is between 0 and 2, so is every word of a block that holds a run of it. -/
theorem slot_range (hr : InRange fi) (d : Dev nD) (L : grid0.Coords) (bb : Fin 2) (g : ℕ)
    (f : Buf (Elt F) ((ibV).view.loc (V d (cV L) (jV L)))) (hs : SlotIs fi d L bb g f) :
    ∀ x, 0 ≤ (((slotM bb).view.read (Elt F) f x : BitVec 32)).toInt ∧ (((slotM bb).view.read (Elt F) f x : BitVec 32)).toInt ≤ 2 := by
  intro x
  obtain ⟨h, e⟩ := hs x
  rw [e]
  exact hr d _

/-- WHAT A GATHER LEAVES: a quarter filled by the gather of the table along list s of a block that holds run g of the
    worker's part of the list reads block 8 g + s of the worker's slice of the lookup, whatever the quarter held before. -/
theorem gather_fact (hr : InRange fi) (d : Dev nD) (L : grid0.Coords) (bb : Fin 2) (s : Fin 8) (pp sq : Fin 2) (g : ℕ) (hg : g < 100)
    (f : Buf (Elt F) ((ibV).view.loc (V d (cV L) (jV L)))) (hs : SlotIs fi d L bb g f) (a0 : Buf (Elt F) ((rwV).view.loc (V d (cV L) (jV L))))
    (hn : S128.numel = S128x128.size gathers_S3x128_S128x128.axis')
    (hin : ∀ x, ((View.read (Elt F) (listM bb s).view f x : BitVec 32)).toNat < S3x128.size gathers_S3x128_S128x128.axis) :
    QuarterIs fi ft d L pp sq (8 * g + s.val) ((quarterM pp sq).view.writes (Elt F) a0 [⟨Rect.whole S128x128,
      SparseCore.gatherPayload (F := F) gathers_S3x128_S128x128 (View.read (Elt F) (shAll).view (ft d))
        (SparseCore.rows (F := F) (View.read (Elt F) (listM bb s).view f) hn hin)⟩]) := by
  have hw32 : (wL L).val < 32 := (wL L).isLt
  have hs8 : s.val < 8 := s.isLt
  have hb : 800 * (wL L).val + (8 * g + s.val) < 25600 := by omega
  intro r q
  refine ⟨hb, ?_⟩
  rw [tab_read]
  refine quarter_value pp sq d (cV L) (jV L) a0 (ft d) (fi d) (View.read (Elt F) (listM bb s).view f) hn hin
    (list_range fi hr d L bb s g f hs) ⟨800 * (wL L).val + (8 * g + s.val), hb⟩ (fun r' => ?_) r q
  obtain ⟨h, e⟩ := list_word fi d L bb s g f hs r'
  refine e.trans (congrArg (fi d) (congrArg ix1 (Fin.ext ?_)))
  show 102400 * (wL L).val + 1024 * g + 128 * s.val + r'.val = (800 * (wL L).val + (8 * g + s.val)) * 128 + r'.val
  omega

/-! ## The copy of a run of the list into a block -/

/-- The copy of run g of the worker's part of the list into block 0, held with the machine's delivery, is held with the
    block at the run's words. -/
theorem idx_clean0 (_hr : InRange fi) (d : Dev nD) (L : grid0.Coords) (sm : SemLoc sig) (ι : HIx 1) (N : ℕ)
    (a0 : Buf (Elt F) ((ibV).view.loc (V d (cV L) (jV L)))) {off : Fin 1 → ℕ} (inb : ∀ a, off a + S1024.size a ≤ S3276800.size a)
    (g : ℕ) (hg : g < 100) (hoff : off = ![102400 * (wL L).val + 1024 * g]) :
    (Transfers.Flight countersEmb (V d (cV L) (jV L)) sm ι N
        iprop(((((ibV).slice (Rect.unit (s := S2x1024) ![0, 0] S1x1024.size inb_S2x1024_S1x1024_0_0) (fun _ => rfl)).squeeze S1024 squeezes_S1x1024_S1024).view.loc (V d (cV L) (jV L)) ↦[(((ibV).slice (Rect.unit (s := S2x1024) ![0, 0] S1x1024.size inb_S2x1024_S1x1024_0_0) (fun _ => rfl)).squeeze S1024 squeezes_S1x1024_S1024).view.set]{fullShare}
              ((((ibV).slice (Rect.unit (s := S2x1024) ![0, 0] S1x1024.size inb_S2x1024_S1x1024_0_0) (fun _ => rfl)).squeeze S1024 squeezes_S1x1024_S1024).view.writes (Elt F) a0 [⟨Rect.whole S1024, ReadAs.same.apply (View.read (Elt F) ((iV).slice (Rect.unit (s := S3276800) off S1024.size inb) (fun _ => rfl)).view (fi d))⟩]))
          ∗ ((iV).view.loc (V d (cV L) (jV L)) ↦[((iV).slice (Rect.unit (s := S3276800) off S1024.size inb) (fun _ => rfl)).view.set]{iTok (wL L)} fi d)) : sProp 𝕄)
      ⊢ Transfers.Flight countersEmb (V d (cV L) (jV L)) sm ι N (IdxD0 fi d L g hg) := by
  refine Transfers.Flight_mono countersEmb (V d (cV L) (jV L)) ?_
  subst hoff
  iintro ⟨H1, H2⟩
  isplitl [H1]
  · iexists _
    isplitl [H1]; · iexact H1
    ipureintro
    intro x
    exact slot_value 0 d (cV L) (jV L) a0 (fi d) inb rfl x
  · iexact H2

/-- What the copy of run g of the worker's part of the list into block 1 delivers: the block at the run's words, and the
    list's share back. -/
abbrev IdxD1 (d : Dev nD) (L : grid0.Coords) (g : ℕ) (hg : g < 100) : sProp 𝕄 :=
  iprop((∃ f : Buf (Elt F) ((ibV).view.loc (V d (cV L) (jV L))), ((((ibV).slice (Rect.unit (s := S2x1024) ![1, 0] S1x1024.size inb_S2x1024_S1x1024_1_0) (fun _ => rfl)).squeeze S1024 squeezes_S1x1024_S1024).view.loc (V d (cV L) (jV L)) ↦[(((ibV).slice (Rect.unit (s := S2x1024) ![1, 0] S1x1024.size inb_S2x1024_S1x1024_1_0) (fun _ => rfl)).squeeze S1024 squeezes_S1x1024_S1024).view.set]{fullShare} f) ∗ ⌜SlotIs fi d L 1 g f⌝)
    ∗ ((iV).view.loc (V d (cV L) (jV L)) ↦[(idxBlk L g hg).view.set]{iTok (wL L)} fi d))

/-- The same copy into block 1. -/
theorem idx_clean1 (_hr : InRange fi) (d : Dev nD) (L : grid0.Coords) (sm : SemLoc sig) (ι : HIx 1) (N : ℕ)
    (a0 : Buf (Elt F) ((ibV).view.loc (V d (cV L) (jV L)))) {off : Fin 1 → ℕ} (inb : ∀ a, off a + S1024.size a ≤ S3276800.size a)
    (g : ℕ) (hg : g < 100) (hoff : off = ![102400 * (wL L).val + 1024 * g]) :
    (Transfers.Flight countersEmb (V d (cV L) (jV L)) sm ι N
        iprop(((((ibV).slice (Rect.unit (s := S2x1024) ![1, 0] S1x1024.size inb_S2x1024_S1x1024_1_0) (fun _ => rfl)).squeeze S1024 squeezes_S1x1024_S1024).view.loc (V d (cV L) (jV L)) ↦[(((ibV).slice (Rect.unit (s := S2x1024) ![1, 0] S1x1024.size inb_S2x1024_S1x1024_1_0) (fun _ => rfl)).squeeze S1024 squeezes_S1x1024_S1024).view.set]{fullShare}
              ((((ibV).slice (Rect.unit (s := S2x1024) ![1, 0] S1x1024.size inb_S2x1024_S1x1024_1_0) (fun _ => rfl)).squeeze S1024 squeezes_S1x1024_S1024).view.writes (Elt F) a0 [⟨Rect.whole S1024, ReadAs.same.apply (View.read (Elt F) ((iV).slice (Rect.unit (s := S3276800) off S1024.size inb) (fun _ => rfl)).view (fi d))⟩]))
          ∗ ((iV).view.loc (V d (cV L) (jV L)) ↦[((iV).slice (Rect.unit (s := S3276800) off S1024.size inb) (fun _ => rfl)).view.set]{iTok (wL L)} fi d)) : sProp 𝕄)
      ⊢ Transfers.Flight countersEmb (V d (cV L) (jV L)) sm ι N (IdxD1 fi d L g hg) := by
  refine Transfers.Flight_mono countersEmb (V d (cV L) (jV L)) ?_
  subst hoff
  iintro ⟨H1, H2⟩
  isplitl [H1]
  · iexists _
    isplitl [H1]; · iexact H1
    ipureintro
    intro x
    exact slot_value 1 d (cV L) (jV L) a0 (fi d) inb rfl x
  · iexact H2

/-- What is left of the worker's share of the list beside the run, said with the run as the copy names it and as the
    invariant names it. -/
theorem idx_rest (d : Dev nD) (L : grid0.Coords) {off : Fin 1 → ℕ} (inb : ∀ a, off a + S1024.size a ≤ S3276800.size a)
    (g : ℕ) (hg : g < 100) (hoff : off = ![102400 * (wL L).val + 1024 * g]) :
    ((iV).view.loc (V d (cV L) (jV L)) ↦[(iV).view.set \ ((iV).slice (Rect.unit (s := S3276800) off S1024.size inb) (fun _ => rfl)).view.set]{iTok (wL L)} fi d : sProp 𝕄)
      = ((iV).view.loc (V d (cV L) (jV L)) ↦[(iV).view.set \ (idxBlk L g hg).view.set]{iTok (wL L)} fi d) := by
  subst hoff
  rfl

/-! ## The gathers of the last two lists of block 1 -/

theorem gath_clean10 (hr : InRange fi) (d : Dev nD) (L : grid0.Coords) (sm : SemLoc sig) (ι : HIx 1) (N : ℕ)
    (a0 : Buf (Elt F) ((rwV).view.loc (V d (cV L) (jV L)))) (f : Buf (Elt F) ((ibV).view.loc (V d (cV L) (jV L)))) (g : ℕ) (hg : g < 100)
    (hslot : SlotIs fi d L 1 g f)
    (hn : S128.numel = S128x128.size gathers_S3x128_S128x128.axis')
    (hin : ∀ x, ((View.read (Elt F) (((ibV).slice (Rect.unit (s := S2x1024) ![1, 768] S1x128.size inb_S2x1024_S1x128_1_768) (fun _ => rfl)).squeeze S128 squeezes_S1x128_S128).view f x : BitVec 32)).toNat < S3x128.size gathers_S3x128_S128x128.axis) :
    (Transfers.Flight countersEmb (V d (cV L) (jV L)) sm ι N
        iprop((((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare}
              ((((rwV).slice (Rect.unit (s := S2x2x128x128) ![1, 0, 0, 0] S1x1x128x128.size inb_S2x2x128x128_S1x1x128x128_1_0_0_0) (fun _ => rfl)).squeeze S128x128 squeezes_S1x1x128x128_S128x128).view.writes (Elt F) a0 [⟨Rect.whole S128x128, SparseCore.gatherPayload (F := F) gathers_S3x128_S128x128
                (View.read (Elt F) (shAll).view (ft d)) (SparseCore.rows (F := F) (View.read (Elt F) (((ibV).slice (Rect.unit (s := S2x1024) ![1, 768] S1x128.size inb_S2x1024_S1x128_1_768) (fun _ => rfl)).squeeze S128 squeezes_S1x128_S128).view f) hn hin)⟩]))
            ∗ ((((ibV).slice (Rect.unit (s := S2x1024) ![1, 768] S1x128.size inb_S2x1024_S1x128_1_768) (fun _ => rfl)).squeeze S128 squeezes_S1x128_S128).view.loc (V d (cV L) (jV L)) ↦[(((ibV).slice (Rect.unit (s := S2x1024) ![1, 768] S1x128.size inb_S2x1024_S1x128_1_768) (fun _ => rfl)).squeeze S128 squeezes_S1x128_S128).view.set]{fullShare} f))
          ∗ ((shV).view.loc (V d (cV L) (jV L)) ↦[(shAll).view.set]{shareTok (shTok (jV L)) 9 4} ft d)) : sProp 𝕄)
      ⊢ Transfers.Flight countersEmb (V d (cV L) (jV L)) sm ι N (GathD10 fi ft d L (8 * g + 6) f) := by
  refine Transfers.Flight_mono countersEmb (V d (cV L) (jV L)) ?_
  have hw32 : (wL L).val < 32 := (wL L).isLt
  have hb : 800 * (wL L).val + (8 * g + 6) < 25600 := by omega
  iintro ⟨⟨H1, H2⟩, H3⟩
  isplitr [H3]
  · isplitl [H1]
    · iexists _
      isplitl [H1]; · iexact H1
      ipureintro
      intro r q
      refine ⟨hb, ?_⟩
      rw [tab_read]
      refine quarter_value 1 0 d (cV L) (jV L) a0 (ft d) (fi d) (View.read (Elt F) (((ibV).slice (Rect.unit (s := S2x1024) ![1, 768] S1x128.size inb_S2x1024_S1x128_1_768) (fun _ => rfl)).squeeze S128 squeezes_S1x128_S128).view f) hn hin
        (list_range fi hr d L 1 6 g f hslot) ⟨800 * (wL L).val + (8 * g + 6), hb⟩ (fun r' => ?_) r q
      obtain ⟨h, e⟩ := list_word fi d L 1 6 g f hslot r'
      refine e.trans (congrArg (fi d) (congrArg ix1 (Fin.ext ?_)))
      show 102400 * (wL L).val + 1024 * g + 128 * 6 + r'.val = (800 * (wL L).val + (8 * g + 6)) * 128 + r'.val
      omega
    · iexact H2
  · iexact H3

theorem gath_clean11 (hr : InRange fi) (d : Dev nD) (L : grid0.Coords) (sm : SemLoc sig) (ι : HIx 1) (N : ℕ)
    (a0 : Buf (Elt F) ((rwV).view.loc (V d (cV L) (jV L)))) (f : Buf (Elt F) ((ibV).view.loc (V d (cV L) (jV L)))) (g : ℕ) (hg : g < 100)
    (hslot : SlotIs fi d L 1 g f)
    (hn : S128.numel = S128x128.size gathers_S3x128_S128x128.axis')
    (hin : ∀ x, ((View.read (Elt F) (((ibV).slice (Rect.unit (s := S2x1024) ![1, 896] S1x128.size inb_S2x1024_S1x128_1_896) (fun _ => rfl)).squeeze S128 squeezes_S1x128_S128).view f x : BitVec 32)).toNat < S3x128.size gathers_S3x128_S128x128.axis) :
    (Transfers.Flight countersEmb (V d (cV L) (jV L)) sm ι N
        iprop((((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare}
              ((((rwV).slice (Rect.unit (s := S2x2x128x128) ![1, 1, 0, 0] S1x1x128x128.size inb_S2x2x128x128_S1x1x128x128_1_1_0_0) (fun _ => rfl)).squeeze S128x128 squeezes_S1x1x128x128_S128x128).view.writes (Elt F) a0 [⟨Rect.whole S128x128, SparseCore.gatherPayload (F := F) gathers_S3x128_S128x128
                (View.read (Elt F) (shAll).view (ft d)) (SparseCore.rows (F := F) (View.read (Elt F) (((ibV).slice (Rect.unit (s := S2x1024) ![1, 896] S1x128.size inb_S2x1024_S1x128_1_896) (fun _ => rfl)).squeeze S128 squeezes_S1x128_S128).view f) hn hin)⟩]))
            ∗ ((((ibV).slice (Rect.unit (s := S2x1024) ![1, 896] S1x128.size inb_S2x1024_S1x128_1_896) (fun _ => rfl)).squeeze S128 squeezes_S1x128_S128).view.loc (V d (cV L) (jV L)) ↦[(((ibV).slice (Rect.unit (s := S2x1024) ![1, 896] S1x128.size inb_S2x1024_S1x128_1_896) (fun _ => rfl)).squeeze S128 squeezes_S1x128_S128).view.set]{fullShare} f))
          ∗ ((shV).view.loc (V d (cV L) (jV L)) ↦[(shAll).view.set]{shareTok (shTok (jV L)) 9 5} ft d)) : sProp 𝕄)
      ⊢ Transfers.Flight countersEmb (V d (cV L) (jV L)) sm ι N (GathD11 fi ft d L (8 * g + 7) f) := by
  refine Transfers.Flight_mono countersEmb (V d (cV L) (jV L)) ?_
  have hw32 : (wL L).val < 32 := (wL L).isLt
  have hb : 800 * (wL L).val + (8 * g + 7) < 25600 := by omega
  iintro ⟨⟨H1, H2⟩, H3⟩
  isplitr [H3]
  · isplitl [H1]
    · iexists _
      isplitl [H1]; · iexact H1
      ipureintro
      intro r q
      refine ⟨hb, ?_⟩
      rw [tab_read]
      refine quarter_value 1 1 d (cV L) (jV L) a0 (ft d) (fi d) (View.read (Elt F) (((ibV).slice (Rect.unit (s := S2x1024) ![1, 896] S1x128.size inb_S2x1024_S1x128_1_896) (fun _ => rfl)).squeeze S128 squeezes_S1x128_S128).view f) hn hin
        (list_range fi hr d L 1 7 g f hslot) ⟨800 * (wL L).val + (8 * g + 7), hb⟩ (fun r' => ?_) r q
      obtain ⟨h, e⟩ := list_word fi d L 1 7 g f hslot r'
      refine e.trans (congrArg (fi d) (congrArg ix1 (Fin.ext ?_)))
      show 102400 * (wL L).val + 1024 * g + 128 * 7 + r'.val = (800 * (wL L).val + (8 * g + 7)) * 128 + r'.val
      omega
    · iexact H2
  · iexact H3

end Cert.Proof.KI

end
-- ==== Proof.KGen.lean ====
/-
  A quarter of the rows buffer a gather has filled holds SOME contents whose rows, read through the quarter, are the
  lookup's rows of the result block the list names: the gather's prior contents and the evidence it carried are forgotten.
-/
import proofs.«205114_g12446815224155_cont_fleet_488_32_alg».proof.Proof.KClean

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}
local notation "𝕄" => MT nD τ sig (HIx 1) (Elt F) ℕ UU ℕ
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)

variable (fi : (d : Dev nD) → Buf (Elt F) (idxLoc d)) (ft : (d : Dev nD) → Buf (Elt F) (tabLoc d))
variable [FloatOps F]

/-- The same quarter fact, the result block named by an equal number. -/
theorem QuarterIs_cast {d : Dev nD} {L : grid0.Coords} {pp s : Fin 2} {blk blk' : ℕ} (h : blk = blk') {a : Buf (Elt F) ((rwV).view.loc (V d (cV L) (jV L)))}
    (hq : QuarterIs fi ft d L pp s blk a) : QuarterIs fi ft d L pp s blk' a := h ▸ hq

/-- Whatever a piece of a buffer holds can be named: the piece at some contents, and that contents is the one it held. -/
theorem pts_name {ℓ : Loc nD τ sig} (S : Finset (Idx ℓ)) (q : PosShare TreeShare) (c : Buf (Elt F) ℓ) :
    (ℓ ↦[S]{q} c : sProp 𝕄) ⊢ iprop(∃ a : Buf (Elt F) ℓ, (ℓ ↦[S]{q} a) ∗ ⌜a = c⌝) := by
  iintro H
  iexists c
  isplitl [H]; · iexact H
  ipureintro; rfl

/-- A transfer outstanding with one delivery is as good as the same transfer with any delivery the first entails, in
    whatever remains to be shown. -/
theorem flight_conv {c : Thread nD τ} {sm : SemLoc sig} {ι : HIx 1} {N : ℕ} {D D' R : sProp 𝕄} (h : D ⊢ D') :
    iprop(Transfers.Flight countersEmb c sm ι N D ∗ (Transfers.Flight countersEmb c sm ι N D' -∗ R)) ⊢ R := by
  iintro ⟨HF, HR⟩
  iapply HR
  iapply (Transfers.Flight_mono countersEmb c h) $$ HF

/-- Whatever an outstanding transfer will deliver can be named. -/
theorem flight_name {c : Thread nD τ} {sm : SemLoc sig} {ι : HIx 1} {N : ℕ} (D : sProp 𝕄) :
    (Transfers.Flight countersEmb c sm ι N D : sProp 𝕄) ⊢ iprop(∃ D₀ : sProp 𝕄, Transfers.Flight countersEmb c sm ι N D₀ ∗ ⌜D₀ = D⌝) := by
  iintro H
  iexists D
  isplitl [H]; · iexact H
  ipureintro; rfl

/-- The first six lists of slot 1, one by one. -/
theorem six_lists (d : Dev nD) (c : Fin τ.nSC) (j : Fin τ.nSub) (f : Buf (Elt F) ((ibV).view.loc (V d c j))) :
    (bigSep (((Finset.univ : Finset (Fin 8)).erase 6).erase 7) fun s : Fin 8 => ((listM 1 s).view.loc (V d c j) ↦[(listM 1 s).view.set]{fullShare} f : sProp 𝕄))
      = iprop(((listM 1 0).view.loc (V d c j) ↦[(listM 1 0).view.set]{fullShare} f) ∗ ((listM 1 1).view.loc (V d c j) ↦[(listM 1 1).view.set]{fullShare} f)
          ∗ ((listM 1 2).view.loc (V d c j) ↦[(listM 1 2).view.set]{fullShare} f) ∗ ((listM 1 3).view.loc (V d c j) ↦[(listM 1 3).view.set]{fullShare} f)
          ∗ ((listM 1 4).view.loc (V d c j) ↦[(listM 1 4).view.set]{fullShare} f) ∗ ((listM 1 5).view.loc (V d c j) ↦[(listM 1 5).view.set]{fullShare} f)) := by
  rw [show (((Finset.univ : Finset (Fin 8)).erase 6).erase 7) = {0, 1, 2, 3, 4, 5} by decide,
    SparseCore.bigSep_insert' (by decide), SparseCore.bigSep_insert' (by decide), SparseCore.bigSep_insert' (by decide), SparseCore.bigSep_insert' (by decide),
    SparseCore.bigSep_insert' (by decide), bigSep_singleton]

theorem quarter_gen_0_0 (hr : InRange (F := F) fi) (d : Dev nD) (L : grid0.Coords) (g : ℕ) (hg : g < 100) (f : Buf (Elt F) ((ibV).view.loc (V d (cV L) (jV L)))) (hs : SlotIs fi d L 0 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![0, 0] S1x128.size inb_S2x1024_S1x128_0_0) (fun _ => rfl)).squeeze S128 squeezes_S1x128_S128).view f x : BitVec 32)).toNat < S3x128.size gathers_S3x128_S128x128.axis) :
    ((((rwV).slice (Rect.unit (s := S2x2x128x128) ![0, 0, 0, 0] S1x1x128x128.size inb_S2x2x128x128_S1x1x128x128_0_0_0_0) (fun _ => rfl)).squeeze S128x128 squeezes_S1x1x128x128_S128x128).view.loc (V d (cV L) (jV L)) ↦[(((rwV).slice (Rect.unit (s := S2x2x128x128) ![0, 0, 0, 0] S1x1x128x128.size inb_S2x2x128x128_S1x1x128x128_0_0_0_0) (fun _ => rfl)).squeeze S128x128 squeezes_S1x1x128x128_S128x128).view.set]{fullShare} ((((rwV).slice (Rect.unit (s := S2x2x128x128) ![0, 0, 0, 0] S1x1x128x128.size inb_S2x2x128x128_S1x1x128x128_0_0_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![0, 0] S1x128.size inb_S2x1024_S1x128_0_0) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![0, 0, 0, 0] S1x1x128x128.size inb_S2x2x128x128_S1x1x128x128_0_0_0_0) (fun _ => rfl)).squeeze S128x128 squeezes_S1x1x128x128_S128x128).view.loc (V d (cV L) (jV L)) ↦[(((rwV).slice (Rect.unit (s := S2x2x128x128) ![0, 0, 0, 0] S1x1x128x128.size inb_S2x2x128x128_S1x1x128x128_0_0_0_0) (fun _ => rfl)).squeeze S128x128 squeezes_S1x1x128x128_S128x128).view.set]{fullShare} a) ∗ ⌜QuarterIs fi ft d L 0 0 (8 * g + 0) a⌝) := by
  iintro H
  iexists _
  isplitl [H]; · iexact H
  ipureintro
  exact gather_fact (F := F) fi ft hr d L 0 0 0 0 g hg f hs a0 hn hin

theorem quarter_gen_0_1 (hr : InRange (F := F) fi) (d : Dev nD) (L : grid0.Coords) (g : ℕ) (hg : g < 100) (f : Buf (Elt F) ((ibV).view.loc (V d (cV L) (jV L)))) (hs : SlotIs fi d L 0 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![0, 128] S1x128.size inb_S2x1024_S1x128_0_128) (fun _ => rfl)).squeeze S128 squeezes_S1x128_S128).view f x : BitVec 32)).toNat < S3x128.size gathers_S3x128_S128x128.axis) :
    ((((rwV).slice (Rect.unit (s := S2x2x128x128) ![0, 1, 0, 0] S1x1x128x128.size inb_S2x2x128x128_S1x1x128x128_0_1_0_0) (fun _ => rfl)).squeeze S128x128 squeezes_S1x1x128x128_S128x128).view.loc (V d (cV L) (jV L)) ↦[(((rwV).slice (Rect.unit (s := S2x2x128x128) ![0, 1, 0, 0] S1x1x128x128.size inb_S2x2x128x128_S1x1x128x128_0_1_0_0) (fun _ => rfl)).squeeze S128x128 squeezes_S1x1x128x128_S128x128).view.set]{fullShare} ((((rwV).slice (Rect.unit (s := S2x2x128x128) ![0, 1, 0, 0] S1x1x128x128.size inb_S2x2x128x128_S1x1x128x128_0_1_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![0, 128] S1x128.size inb_S2x1024_S1x128_0_128) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![0, 1, 0, 0] S1x1x128x128.size inb_S2x2x128x128_S1x1x128x128_0_1_0_0) (fun _ => rfl)).squeeze S128x128 squeezes_S1x1x128x128_S128x128).view.loc (V d (cV L) (jV L)) ↦[(((rwV).slice (Rect.unit (s := S2x2x128x128) ![0, 1, 0, 0] S1x1x128x128.size inb_S2x2x128x128_S1x1x128x128_0_1_0_0) (fun _ => rfl)).squeeze S128x128 squeezes_S1x1x128x128_S128x128).view.set]{fullShare} a) ∗ ⌜QuarterIs fi ft d L 0 1 (8 * g + 1) a⌝) := by
  iintro H
  iexists _
  isplitl [H]; · iexact H
  ipureintro
  exact gather_fact (F := F) fi ft hr d L 0 1 0 1 g hg f hs a0 hn hin

theorem quarter_gen_0_2 (hr : InRange (F := F) fi) (d : Dev nD) (L : grid0.Coords) (g : ℕ) (hg : g < 100) (f : Buf (Elt F) ((ibV).view.loc (V d (cV L) (jV L)))) (hs : SlotIs fi d L 0 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![0, 256] S1x128.size inb_S2x1024_S1x128_0_256) (fun _ => rfl)).squeeze S128 squeezes_S1x128_S128).view f x : BitVec 32)).toNat < S3x128.size gathers_S3x128_S128x128.axis) :
    ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} ((((rwV).slice (Rect.unit (s := S2x2x128x128) ![1, 0, 0, 0] S1x1x128x128.size inb_S2x2x128x128_S1x1x128x128_1_0_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![0, 256] S1x128.size inb_S2x1024_S1x128_0_256) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} a) ∗ ⌜QuarterIs fi ft d L 1 0 (8 * g + 2) a⌝) := by
  iintro H
  iexists _
  isplitl [H]; · iexact H
  ipureintro
  exact gather_fact (F := F) fi ft hr d L 0 2 1 0 g hg f hs a0 hn hin

theorem quarter_gen_0_3 (hr : InRange (F := F) fi) (d : Dev nD) (L : grid0.Coords) (g : ℕ) (hg : g < 100) (f : Buf (Elt F) ((ibV).view.loc (V d (cV L) (jV L)))) (hs : SlotIs fi d L 0 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![0, 384] S1x128.size inb_S2x1024_S1x128_0_384) (fun _ => rfl)).squeeze S128 squeezes_S1x128_S128).view f x : BitVec 32)).toNat < S3x128.size gathers_S3x128_S128x128.axis) :
    ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} ((((rwV).slice (Rect.unit (s := S2x2x128x128) ![1, 1, 0, 0] S1x1x128x128.size inb_S2x2x128x128_S1x1x128x128_1_1_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![0, 384] S1x128.size inb_S2x1024_S1x128_0_384) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} a) ∗ ⌜QuarterIs fi ft d L 1 1 (8 * g + 3) a⌝) := by
  iintro H
  iexists _
  isplitl [H]; · iexact H
  ipureintro
  exact gather_fact (F := F) fi ft hr d L 0 3 1 1 g hg f hs a0 hn hin

theorem quarter_gen_0_4 (hr : InRange (F := F) fi) (d : Dev nD) (L : grid0.Coords) (g : ℕ) (hg : g < 100) (f : Buf (Elt F) ((ibV).view.loc (V d (cV L) (jV L)))) (hs : SlotIs fi d L 0 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![0, 512] S1x128.size inb_S2x1024_S1x128_0_512) (fun _ => rfl)).squeeze S128 squeezes_S1x128_S128).view f x : BitVec 32)).toNat < S3x128.size gathers_S3x128_S128x128.axis) :
    ((((rwV).slice (Rect.unit (s := S2x2x128x128) ![0, 0, 0, 0] S1x1x128x128.size inb_S2x2x128x128_S1x1x128x128_0_0_0_0) (fun _ => rfl)).squeeze S128x128 squeezes_S1x1x128x128_S128x128).view.loc (V d (cV L) (jV L)) ↦[(((rwV).slice (Rect.unit (s := S2x2x128x128) ![0, 0, 0, 0] S1x1x128x128.size inb_S2x2x128x128_S1x1x128x128_0_0_0_0) (fun _ => rfl)).squeeze S128x128 squeezes_S1x1x128x128_S128x128).view.set]{fullShare} ((((rwV).slice (Rect.unit (s := S2x2x128x128) ![0, 0, 0, 0] S1x1x128x128.size inb_S2x2x128x128_S1x1x128x128_0_0_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![0, 512] S1x128.size inb_S2x1024_S1x128_0_512) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![0, 0, 0, 0] S1x1x128x128.size inb_S2x2x128x128_S1x1x128x128_0_0_0_0) (fun _ => rfl)).squeeze S128x128 squeezes_S1x1x128x128_S128x128).view.loc (V d (cV L) (jV L)) ↦[(((rwV).slice (Rect.unit (s := S2x2x128x128) ![0, 0, 0, 0] S1x1x128x128.size inb_S2x2x128x128_S1x1x128x128_0_0_0_0) (fun _ => rfl)).squeeze S128x128 squeezes_S1x1x128x128_S128x128).view.set]{fullShare} a) ∗ ⌜QuarterIs fi ft d L 0 0 (8 * g + 4) a⌝) := by
  iintro H
  iexists _
  isplitl [H]; · iexact H
  ipureintro
  exact gather_fact (F := F) fi ft hr d L 0 4 0 0 g hg f hs a0 hn hin

theorem quarter_gen_0_5 (hr : InRange (F := F) fi) (d : Dev nD) (L : grid0.Coords) (g : ℕ) (hg : g < 100) (f : Buf (Elt F) ((ibV).view.loc (V d (cV L) (jV L)))) (hs : SlotIs fi d L 0 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![0, 640] S1x128.size inb_S2x1024_S1x128_0_640) (fun _ => rfl)).squeeze S128 squeezes_S1x128_S128).view f x : BitVec 32)).toNat < S3x128.size gathers_S3x128_S128x128.axis) :
    ((((rwV).slice (Rect.unit (s := S2x2x128x128) ![0, 1, 0, 0] S1x1x128x128.size inb_S2x2x128x128_S1x1x128x128_0_1_0_0) (fun _ => rfl)).squeeze S128x128 squeezes_S1x1x128x128_S128x128).view.loc (V d (cV L) (jV L)) ↦[(((rwV).slice (Rect.unit (s := S2x2x128x128) ![0, 1, 0, 0] S1x1x128x128.size inb_S2x2x128x128_S1x1x128x128_0_1_0_0) (fun _ => rfl)).squeeze S128x128 squeezes_S1x1x128x128_S128x128).view.set]{fullShare} ((((rwV).slice (Rect.unit (s := S2x2x128x128) ![0, 1, 0, 0] S1x1x128x128.size inb_S2x2x128x128_S1x1x128x128_0_1_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![0, 640] S1x128.size inb_S2x1024_S1x128_0_640) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![0, 1, 0, 0] S1x1x128x128.size inb_S2x2x128x128_S1x1x128x128_0_1_0_0) (fun _ => rfl)).squeeze S128x128 squeezes_S1x1x128x128_S128x128).view.loc (V d (cV L) (jV L)) ↦[(((rwV).slice (Rect.unit (s := S2x2x128x128) ![0, 1, 0, 0] S1x1x128x128.size inb_S2x2x128x128_S1x1x128x128_0_1_0_0) (fun _ => rfl)).squeeze S128x128 squeezes_S1x1x128x128_S128x128).view.set]{fullShare} a) ∗ ⌜QuarterIs fi ft d L 0 1 (8 * g + 5) a⌝) := by
  iintro H
  iexists _
  isplitl [H]; · iexact H
  ipureintro
  exact gather_fact (F := F) fi ft hr d L 0 5 0 1 g hg f hs a0 hn hin

theorem quarter_gen_0_6 (hr : InRange (F := F) fi) (d : Dev nD) (L : grid0.Coords) (g : ℕ) (hg : g < 100) (f : Buf (Elt F) ((ibV).view.loc (V d (cV L) (jV L)))) (hs : SlotIs fi d L 0 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![0, 768] S1x128.size inb_S2x1024_S1x128_0_768) (fun _ => rfl)).squeeze S128 squeezes_S1x128_S128).view f x : BitVec 32)).toNat < S3x128.size gathers_S3x128_S128x128.axis) :
    ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} ((((rwV).slice (Rect.unit (s := S2x2x128x128) ![1, 0, 0, 0] S1x1x128x128.size inb_S2x2x128x128_S1x1x128x128_1_0_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![0, 768] S1x128.size inb_S2x1024_S1x128_0_768) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} a) ∗ ⌜QuarterIs fi ft d L 1 0 (8 * g + 6) a⌝) := by
  iintro H
  iexists _
  isplitl [H]; · iexact H
  ipureintro
  exact gather_fact (F := F) fi ft hr d L 0 6 1 0 g hg f hs a0 hn hin

theorem quarter_gen_0_7 (hr : InRange (F := F) fi) (d : Dev nD) (L : grid0.Coords) (g : ℕ) (hg : g < 100) (f : Buf (Elt F) ((ibV).view.loc (V d (cV L) (jV L)))) (hs : SlotIs fi d L 0 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![0, 896] S1x128.size inb_S2x1024_S1x128_0_896) (fun _ => rfl)).squeeze S128 squeezes_S1x128_S128).view f x : BitVec 32)).toNat < S3x128.size gathers_S3x128_S128x128.axis) :
    ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} ((((rwV).slice (Rect.unit (s := S2x2x128x128) ![1, 1, 0, 0] S1x1x128x128.size inb_S2x2x128x128_S1x1x128x128_1_1_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![0, 896] S1x128.size inb_S2x1024_S1x128_0_896) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} a) ∗ ⌜QuarterIs fi ft d L 1 1 (8 * g + 7) a⌝) := by
  iintro H
  iexists _
  isplitl [H]; · iexact H
  ipureintro
  exact gather_fact (F := F) fi ft hr d L 0 7 1 1 g hg f hs a0 hn hin

theorem quarter_gen_1_0 (hr : InRange (F := F) fi) (d : Dev nD) (L : grid0.Coords) (g : ℕ) (hg : g < 100) (f : Buf (Elt F) ((ibV).view.loc (V d (cV L) (jV L)))) (hs : SlotIs fi d L 1 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![1, 0] S1x128.size inb_S2x1024_S1x128_1_0) (fun _ => rfl)).squeeze S128 squeezes_S1x128_S128).view f x : BitVec 32)).toNat < S3x128.size gathers_S3x128_S128x128.axis) :
    ((((rwV).slice (Rect.unit (s := S2x2x128x128) ![0, 0, 0, 0] S1x1x128x128.size inb_S2x2x128x128_S1x1x128x128_0_0_0_0) (fun _ => rfl)).squeeze S128x128 squeezes_S1x1x128x128_S128x128).view.loc (V d (cV L) (jV L)) ↦[(((rwV).slice (Rect.unit (s := S2x2x128x128) ![0, 0, 0, 0] S1x1x128x128.size inb_S2x2x128x128_S1x1x128x128_0_0_0_0) (fun _ => rfl)).squeeze S128x128 squeezes_S1x1x128x128_S128x128).view.set]{fullShare} ((((rwV).slice (Rect.unit (s := S2x2x128x128) ![0, 0, 0, 0] S1x1x128x128.size inb_S2x2x128x128_S1x1x128x128_0_0_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![1, 0] S1x128.size inb_S2x1024_S1x128_1_0) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![0, 0, 0, 0] S1x1x128x128.size inb_S2x2x128x128_S1x1x128x128_0_0_0_0) (fun _ => rfl)).squeeze S128x128 squeezes_S1x1x128x128_S128x128).view.loc (V d (cV L) (jV L)) ↦[(((rwV).slice (Rect.unit (s := S2x2x128x128) ![0, 0, 0, 0] S1x1x128x128.size inb_S2x2x128x128_S1x1x128x128_0_0_0_0) (fun _ => rfl)).squeeze S128x128 squeezes_S1x1x128x128_S128x128).view.set]{fullShare} a) ∗ ⌜QuarterIs fi ft d L 0 0 (8 * g + 0) a⌝) := by
  iintro H
  iexists _
  isplitl [H]; · iexact H
  ipureintro
  exact gather_fact (F := F) fi ft hr d L 1 0 0 0 g hg f hs a0 hn hin

theorem quarter_gen_1_1 (hr : InRange (F := F) fi) (d : Dev nD) (L : grid0.Coords) (g : ℕ) (hg : g < 100) (f : Buf (Elt F) ((ibV).view.loc (V d (cV L) (jV L)))) (hs : SlotIs fi d L 1 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![1, 128] S1x128.size inb_S2x1024_S1x128_1_128) (fun _ => rfl)).squeeze S128 squeezes_S1x128_S128).view f x : BitVec 32)).toNat < S3x128.size gathers_S3x128_S128x128.axis) :
    ((((rwV).slice (Rect.unit (s := S2x2x128x128) ![0, 1, 0, 0] S1x1x128x128.size inb_S2x2x128x128_S1x1x128x128_0_1_0_0) (fun _ => rfl)).squeeze S128x128 squeezes_S1x1x128x128_S128x128).view.loc (V d (cV L) (jV L)) ↦[(((rwV).slice (Rect.unit (s := S2x2x128x128) ![0, 1, 0, 0] S1x1x128x128.size inb_S2x2x128x128_S1x1x128x128_0_1_0_0) (fun _ => rfl)).squeeze S128x128 squeezes_S1x1x128x128_S128x128).view.set]{fullShare} ((((rwV).slice (Rect.unit (s := S2x2x128x128) ![0, 1, 0, 0] S1x1x128x128.size inb_S2x2x128x128_S1x1x128x128_0_1_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![1, 128] S1x128.size inb_S2x1024_S1x128_1_128) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![0, 1, 0, 0] S1x1x128x128.size inb_S2x2x128x128_S1x1x128x128_0_1_0_0) (fun _ => rfl)).squeeze S128x128 squeezes_S1x1x128x128_S128x128).view.loc (V d (cV L) (jV L)) ↦[(((rwV).slice (Rect.unit (s := S2x2x128x128) ![0, 1, 0, 0] S1x1x128x128.size inb_S2x2x128x128_S1x1x128x128_0_1_0_0) (fun _ => rfl)).squeeze S128x128 squeezes_S1x1x128x128_S128x128).view.set]{fullShare} a) ∗ ⌜QuarterIs fi ft d L 0 1 (8 * g + 1) a⌝) := by
  iintro H
  iexists _
  isplitl [H]; · iexact H
  ipureintro
  exact gather_fact (F := F) fi ft hr d L 1 1 0 1 g hg f hs a0 hn hin

theorem quarter_gen_1_2 (hr : InRange (F := F) fi) (d : Dev nD) (L : grid0.Coords) (g : ℕ) (hg : g < 100) (f : Buf (Elt F) ((ibV).view.loc (V d (cV L) (jV L)))) (hs : SlotIs fi d L 1 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![1, 256] S1x128.size inb_S2x1024_S1x128_1_256) (fun _ => rfl)).squeeze S128 squeezes_S1x128_S128).view f x : BitVec 32)).toNat < S3x128.size gathers_S3x128_S128x128.axis) :
    ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} ((((rwV).slice (Rect.unit (s := S2x2x128x128) ![1, 0, 0, 0] S1x1x128x128.size inb_S2x2x128x128_S1x1x128x128_1_0_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![1, 256] S1x128.size inb_S2x1024_S1x128_1_256) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} a) ∗ ⌜QuarterIs fi ft d L 1 0 (8 * g + 2) a⌝) := by
  iintro H
  iexists _
  isplitl [H]; · iexact H
  ipureintro
  exact gather_fact (F := F) fi ft hr d L 1 2 1 0 g hg f hs a0 hn hin

theorem quarter_gen_1_3 (hr : InRange (F := F) fi) (d : Dev nD) (L : grid0.Coords) (g : ℕ) (hg : g < 100) (f : Buf (Elt F) ((ibV).view.loc (V d (cV L) (jV L)))) (hs : SlotIs fi d L 1 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![1, 384] S1x128.size inb_S2x1024_S1x128_1_384) (fun _ => rfl)).squeeze S128 squeezes_S1x128_S128).view f x : BitVec 32)).toNat < S3x128.size gathers_S3x128_S128x128.axis) :
    ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} ((((rwV).slice (Rect.unit (s := S2x2x128x128) ![1, 1, 0, 0] S1x1x128x128.size inb_S2x2x128x128_S1x1x128x128_1_1_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![1, 384] S1x128.size inb_S2x1024_S1x128_1_384) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} a) ∗ ⌜QuarterIs fi ft d L 1 1 (8 * g + 3) a⌝) := by
  iintro H
  iexists _
  isplitl [H]; · iexact H
  ipureintro
  exact gather_fact (F := F) fi ft hr d L 1 3 1 1 g hg f hs a0 hn hin

theorem quarter_gen_1_4 (hr : InRange (F := F) fi) (d : Dev nD) (L : grid0.Coords) (g : ℕ) (hg : g < 100) (f : Buf (Elt F) ((ibV).view.loc (V d (cV L) (jV L)))) (hs : SlotIs fi d L 1 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![1, 512] S1x128.size inb_S2x1024_S1x128_1_512) (fun _ => rfl)).squeeze S128 squeezes_S1x128_S128).view f x : BitVec 32)).toNat < S3x128.size gathers_S3x128_S128x128.axis) :
    ((((rwV).slice (Rect.unit (s := S2x2x128x128) ![0, 0, 0, 0] S1x1x128x128.size inb_S2x2x128x128_S1x1x128x128_0_0_0_0) (fun _ => rfl)).squeeze S128x128 squeezes_S1x1x128x128_S128x128).view.loc (V d (cV L) (jV L)) ↦[(((rwV).slice (Rect.unit (s := S2x2x128x128) ![0, 0, 0, 0] S1x1x128x128.size inb_S2x2x128x128_S1x1x128x128_0_0_0_0) (fun _ => rfl)).squeeze S128x128 squeezes_S1x1x128x128_S128x128).view.set]{fullShare} ((((rwV).slice (Rect.unit (s := S2x2x128x128) ![0, 0, 0, 0] S1x1x128x128.size inb_S2x2x128x128_S1x1x128x128_0_0_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![1, 512] S1x128.size inb_S2x1024_S1x128_1_512) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![0, 0, 0, 0] S1x1x128x128.size inb_S2x2x128x128_S1x1x128x128_0_0_0_0) (fun _ => rfl)).squeeze S128x128 squeezes_S1x1x128x128_S128x128).view.loc (V d (cV L) (jV L)) ↦[(((rwV).slice (Rect.unit (s := S2x2x128x128) ![0, 0, 0, 0] S1x1x128x128.size inb_S2x2x128x128_S1x1x128x128_0_0_0_0) (fun _ => rfl)).squeeze S128x128 squeezes_S1x1x128x128_S128x128).view.set]{fullShare} a) ∗ ⌜QuarterIs fi ft d L 0 0 (8 * g + 4) a⌝) := by
  iintro H
  iexists _
  isplitl [H]; · iexact H
  ipureintro
  exact gather_fact (F := F) fi ft hr d L 1 4 0 0 g hg f hs a0 hn hin

theorem quarter_gen_1_5 (hr : InRange (F := F) fi) (d : Dev nD) (L : grid0.Coords) (g : ℕ) (hg : g < 100) (f : Buf (Elt F) ((ibV).view.loc (V d (cV L) (jV L)))) (hs : SlotIs fi d L 1 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![1, 640] S1x128.size inb_S2x1024_S1x128_1_640) (fun _ => rfl)).squeeze S128 squeezes_S1x128_S128).view f x : BitVec 32)).toNat < S3x128.size gathers_S3x128_S128x128.axis) :
    ((((rwV).slice (Rect.unit (s := S2x2x128x128) ![0, 1, 0, 0] S1x1x128x128.size inb_S2x2x128x128_S1x1x128x128_0_1_0_0) (fun _ => rfl)).squeeze S128x128 squeezes_S1x1x128x128_S128x128).view.loc (V d (cV L) (jV L)) ↦[(((rwV).slice (Rect.unit (s := S2x2x128x128) ![0, 1, 0, 0] S1x1x128x128.size inb_S2x2x128x128_S1x1x128x128_0_1_0_0) (fun _ => rfl)).squeeze S128x128 squeezes_S1x1x128x128_S128x128).view.set]{fullShare} ((((rwV).slice (Rect.unit (s := S2x2x128x128) ![0, 1, 0, 0] S1x1x128x128.size inb_S2x2x128x128_S1x1x128x128_0_1_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![1, 640] S1x128.size inb_S2x1024_S1x128_1_640) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![0, 1, 0, 0] S1x1x128x128.size inb_S2x2x128x128_S1x1x128x128_0_1_0_0) (fun _ => rfl)).squeeze S128x128 squeezes_S1x1x128x128_S128x128).view.loc (V d (cV L) (jV L)) ↦[(((rwV).slice (Rect.unit (s := S2x2x128x128) ![0, 1, 0, 0] S1x1x128x128.size inb_S2x2x128x128_S1x1x128x128_0_1_0_0) (fun _ => rfl)).squeeze S128x128 squeezes_S1x1x128x128_S128x128).view.set]{fullShare} a) ∗ ⌜QuarterIs fi ft d L 0 1 (8 * g + 5) a⌝) := by
  iintro H
  iexists _
  isplitl [H]; · iexact H
  ipureintro
  exact gather_fact (F := F) fi ft hr d L 1 5 0 1 g hg f hs a0 hn hin

theorem quarter_gen_1_6 (hr : InRange (F := F) fi) (d : Dev nD) (L : grid0.Coords) (g : ℕ) (hg : g < 100) (f : Buf (Elt F) ((ibV).view.loc (V d (cV L) (jV L)))) (hs : SlotIs fi d L 1 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![1, 768] S1x128.size inb_S2x1024_S1x128_1_768) (fun _ => rfl)).squeeze S128 squeezes_S1x128_S128).view f x : BitVec 32)).toNat < S3x128.size gathers_S3x128_S128x128.axis) :
    ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} ((((rwV).slice (Rect.unit (s := S2x2x128x128) ![1, 0, 0, 0] S1x1x128x128.size inb_S2x2x128x128_S1x1x128x128_1_0_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![1, 768] S1x128.size inb_S2x1024_S1x128_1_768) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} a) ∗ ⌜QuarterIs fi ft d L 1 0 (8 * g + 6) a⌝) := by
  iintro H
  iexists _
  isplitl [H]; · iexact H
  ipureintro
  exact gather_fact (F := F) fi ft hr d L 1 6 1 0 g hg f hs a0 hn hin

theorem quarter_gen_1_7 (hr : InRange (F := F) fi) (d : Dev nD) (L : grid0.Coords) (g : ℕ) (hg : g < 100) (f : Buf (Elt F) ((ibV).view.loc (V d (cV L) (jV L)))) (hs : SlotIs fi d L 1 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![1, 896] S1x128.size inb_S2x1024_S1x128_1_896) (fun _ => rfl)).squeeze S128 squeezes_S1x128_S128).view f x : BitVec 32)).toNat < S3x128.size gathers_S3x128_S128x128.axis) :
    ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} ((((rwV).slice (Rect.unit (s := S2x2x128x128) ![1, 1, 0, 0] S1x1x128x128.size inb_S2x2x128x128_S1x1x128x128_1_1_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![1, 896] S1x128.size inb_S2x1024_S1x128_1_896) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} a) ∗ ⌜QuarterIs fi ft d L 1 1 (8 * g + 7) a⌝) := by
  iintro H
  iexists _
  isplitl [H]; · iexact H
  ipureintro
  exact gather_fact (F := F) fi ft hr d L 1 7 1 1 g hg f hs a0 hn hin

end Cert.Proof.KI

end
-- ==== Proof.KCleanOut.lean ====
/-
  An outstanding copy-out, said in the tile's own words. A copy of a half of the buffer of gathered rows to a pair of
  result blocks is held, while outstanding, with what it will deliver: the pair at what the half holds written over what
  the pair held, and the half back. When the half's two quarters read two consecutive blocks of the lookup, what the
  pair will hold is the lookup on the pair's elements, so the same outstanding copy may be held with the delivery "the
  pair at some contents that is the lookup on it, and the half at the contents it had".
-/
import proofs.«205114_g12446815224155_cont_fleet_488_32_alg».proof.Proof.KInv
import proofs.«205114_g12446815224155_cont_fleet_488_32_alg».proof.Proof.KValue

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (shareTok shareDrop)

variable {F : FTy → Type}
local notation "𝕄" => MT nD τ sig (HIx 1) (Elt F) ℕ UU ℕ
local notation "iV" => (Memref.whole Cert.KernelIdeal.main_v0_scv : Memref Cert.KernelIdeal.sig Kind.scVector Space.hbm Cert.KernelIdeal.S3276800 EltTy.i32)
local notation "oV" => (Memref.whole Cert.KernelIdeal.main_v1_scv : Memref Cert.KernelIdeal.sig Kind.scVector Space.hbm Cert.KernelIdeal.S25600x128x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)

variable (fi : (d : Dev nD) → Buf (Elt F) (idxLoc d)) (ft : (d : Dev nD) → Buf (Elt F) (tabLoc d)) (fo : (d : Dev nD) → Buf (Elt F) (oLoc d))
variable [FloatOps F]

section CleanOut

variable (d : Dev nD) (L : grid0.Coords)

/-- THE PAIR A COPY-OUT WRITES: when the two quarters of a half read blocks lo and lo + 1 of the lookup's part of the
    worker, the pair of result blocks at the worker's block lo, written with the half's contents over anything, holds
    the lookup on its elements. -/
theorem pair_fact (pp : Fin 2) (A B : Buf (Elt F) ((rwV).view.loc (V d (cV L) (jV L)))) {off : Fin 3 → ℕ}
    (inb : ∀ a, off a + S2x128x128.size a ≤ S25600x128x128.size a) (lo : ℕ) (hlo : lo + 2 ≤ 800)
    (hoff : off = ![800 * (wL L).val + lo, 0, 0]) (hA : QuarterIs fi ft d L pp 0 lo A) (hB : QuarterIs fi ft d L pp 1 (lo + 1) B)
    (fo' : Buf (Elt F) (oLoc d)) :
    ∀ i ∈ ((oV).slice (Rect.unit (s := S25600x128x128) off S2x128x128.size inb) (fun _ => rfl)).view.set,
      (((oV).slice (Rect.unit (s := S25600x128x128) off S2x128x128.size inb) (fun _ => rfl)).view.writes (Elt F) fo' [⟨Rect.whole (Rect.unit (s := S25600x128x128) off S2x128x128.size inb).shape,
        ReadAs.same.apply (View.read (Elt F) (halfM pp).view ((quarterM pp 0).view.set.piecewise A B))⟩]) i = oDone fi ft d i := by
  have hA' : ∀ r q : Fin 128, (quarterM pp 0).view.read (Elt F) A (ix2 r q)
      = oDone fi ft d (ix3 ⟨800 * (wL L).val + lo, by have := (wL L).isLt; omega⟩ r q) := fun r q => by
    obtain ⟨_, e⟩ := hA r q
    exact e
  have hB' : ∀ r q : Fin 128, (quarterM pp 1).view.read (Elt F) B (ix2 r q)
      = oDone fi ft d (ix3 ⟨800 * (wL L).val + lo + 1, by have := (wL L).isLt; omega⟩ r q) := fun r q => by
    obtain ⟨_, e⟩ := hB r q
    exact e
  exact pair_value (F := F) pp d (cV L) (jV L) A B (oDone fi ft d) inb hoff (by have := (wL L).isLt; omega) hA' hB' fo'

/-- What the copy-out of the second half of the rows buffer to the result blocks lo, lo + 1 of the worker's slice
    delivers: the two blocks at the lookup, and the half back. -/
abbrev OutD1 (lo : ℕ) (hb : ∀ a, (![800 * (wL L).val + lo, 0, 0] : Fin 3 → ℕ) a + S2x128x128.size a ≤ S25600x128x128.size a)
    (h : Buf (Elt F) ((rwV).view.loc (V d (cV L) (jV L)))) : sProp 𝕄 :=
  iprop((∃ g : Buf (Elt F) (oLoc d), ((pairM (800 * (wL L).val + lo) hb).view.loc (V d (cV L) (jV L)) ↦[(pairM (800 * (wL L).val + lo) hb).view.set]{fullShare} g)
        ∗ ⌜∀ i ∈ (pairM (800 * (wL L).val + lo) hb).view.set, g i = oDone fi ft d i⌝)
    ∗ ((((rwV).slice (Rect.unit (s := S2x2x128x128) ![1, 0, 0, 0] S1x2x128x128.size inb_S2x2x128x128_S1x2x128x128_1_0_0_0) (fun _ => rfl)).squeeze S2x128x128 squeezes_S1x2x128x128_S2x128x128).view.loc (V d (cV L) (jV L)) ↦[(((rwV).slice (Rect.unit (s := S2x2x128x128) ![1, 0, 0, 0] S1x2x128x128.size inb_S2x2x128x128_S1x2x128x128_1_0_0_0) (fun _ => rfl)).squeeze S2x128x128 squeezes_S1x2x128x128_S2x128x128).view.set]{fullShare} h))

/-- An outstanding copy-out of the first half of the rows buffer, held with its delivery as the copy itself writes it —
    the pair of result blocks at the half's contents written over what was there, and the half back — is the copy-out
    held with its delivery in the tile's own words: when the half's quarters read blocks lo and lo + 1 of the lookup,
    the pair it writes holds the lookup. -/
theorem out_clean0 (sm : SemLoc sig) (ι : HIx 1) (N : ℕ) (fo' : Buf (Elt F) (oLoc d))
    (A B : Buf (Elt F) ((rwV).view.loc (V d (cV L) (jV L)))) {off : Fin 3 → ℕ}
    (inb : ∀ a, off a + S2x128x128.size a ≤ S25600x128x128.size a) (lo : ℕ) (hlo : lo + 2 ≤ 800)
    (hoff : off = ![800 * (wL L).val + lo, 0, 0]) (hA : QuarterIs fi ft d L 0 0 lo A) (hB : QuarterIs fi ft d L 0 1 (lo + 1) B) :
    (Transfers.Flight countersEmb (V d (cV L) (jV L)) sm ι N
        iprop((((oV).slice (Rect.unit (s := S25600x128x128) off S2x128x128.size inb) (fun _ => rfl)).view.loc (V d (cV L) (jV L)) ↦[((oV).slice (Rect.unit (s := S25600x128x128) off S2x128x128.size inb) (fun _ => rfl)).view.set]{fullShare}
              (((oV).slice (Rect.unit (s := S25600x128x128) off S2x128x128.size inb) (fun _ => rfl)).view.writes (Elt F) fo' [⟨Rect.whole (Rect.unit (s := S25600x128x128) off S2x128x128.size inb).shape,
                ReadAs.same.apply (View.read (Elt F) (((rwV).slice (Rect.unit (s := S2x2x128x128) ![0, 0, 0, 0] S1x2x128x128.size inb_S2x2x128x128_S1x2x128x128_0_0_0_0) (fun _ => rfl)).squeeze S2x128x128 squeezes_S1x2x128x128_S2x128x128).view ((quarterM 0 0).view.set.piecewise A B))⟩]))
          ∗ ((((rwV).slice (Rect.unit (s := S2x2x128x128) ![0, 0, 0, 0] S1x2x128x128.size inb_S2x2x128x128_S1x2x128x128_0_0_0_0) (fun _ => rfl)).squeeze S2x128x128 squeezes_S1x2x128x128_S2x128x128).view.loc (V d (cV L) (jV L)) ↦[(((rwV).slice (Rect.unit (s := S2x2x128x128) ![0, 0, 0, 0] S1x2x128x128.size inb_S2x2x128x128_S1x2x128x128_0_0_0_0) (fun _ => rfl)).squeeze S2x128x128 squeezes_S1x2x128x128_S2x128x128).view.set]{fullShare} ((quarterM 0 0).view.set.piecewise A B))) : sProp 𝕄)
      ⊢ Transfers.Flight countersEmb (V d (cV L) (jV L)) sm ι N (OutD0 fi ft d L lo (pairIn L lo hlo) ((quarterM 0 0).view.set.piecewise A B)) := by
  refine Transfers.Flight_mono countersEmb (V d (cV L) (jV L)) ?_
  iintro ⟨Hp, Hh⟩
  isplitl [Hp]
  · subst hoff
    iexists _
    isplitl [Hp]; · iexact Hp
    ipureintro
    exact pair_fact (F := F) fi ft d L 0 A B inb lo hlo rfl hA hB fo'
  · iexact Hh

/-- The same for a copy-out of the second half. -/
theorem out_clean1 (sm : SemLoc sig) (ι : HIx 1) (N : ℕ) (fo' : Buf (Elt F) (oLoc d))
    (A B : Buf (Elt F) ((rwV).view.loc (V d (cV L) (jV L)))) {off : Fin 3 → ℕ}
    (inb : ∀ a, off a + S2x128x128.size a ≤ S25600x128x128.size a) (lo : ℕ) (hlo : lo + 2 ≤ 800)
    (hoff : off = ![800 * (wL L).val + lo, 0, 0]) (hA : QuarterIs fi ft d L 1 0 lo A) (hB : QuarterIs fi ft d L 1 1 (lo + 1) B) :
    (Transfers.Flight countersEmb (V d (cV L) (jV L)) sm ι N
        iprop((((oV).slice (Rect.unit (s := S25600x128x128) off S2x128x128.size inb) (fun _ => rfl)).view.loc (V d (cV L) (jV L)) ↦[((oV).slice (Rect.unit (s := S25600x128x128) off S2x128x128.size inb) (fun _ => rfl)).view.set]{fullShare}
              (((oV).slice (Rect.unit (s := S25600x128x128) off S2x128x128.size inb) (fun _ => rfl)).view.writes (Elt F) fo' [⟨Rect.whole (Rect.unit (s := S25600x128x128) off S2x128x128.size inb).shape,
                ReadAs.same.apply (View.read (Elt F) (((rwV).slice (Rect.unit (s := S2x2x128x128) ![1, 0, 0, 0] S1x2x128x128.size inb_S2x2x128x128_S1x2x128x128_1_0_0_0) (fun _ => rfl)).squeeze S2x128x128 squeezes_S1x2x128x128_S2x128x128).view ((quarterM 1 0).view.set.piecewise A B))⟩]))
          ∗ ((((rwV).slice (Rect.unit (s := S2x2x128x128) ![1, 0, 0, 0] S1x2x128x128.size inb_S2x2x128x128_S1x2x128x128_1_0_0_0) (fun _ => rfl)).squeeze S2x128x128 squeezes_S1x2x128x128_S2x128x128).view.loc (V d (cV L) (jV L)) ↦[(((rwV).slice (Rect.unit (s := S2x2x128x128) ![1, 0, 0, 0] S1x2x128x128.size inb_S2x2x128x128_S1x2x128x128_1_0_0_0) (fun _ => rfl)).squeeze S2x128x128 squeezes_S1x2x128x128_S2x128x128).view.set]{fullShare} ((quarterM 1 0).view.set.piecewise A B))) : sProp 𝕄)
      ⊢ Transfers.Flight countersEmb (V d (cV L) (jV L)) sm ι N (OutD1 fi ft d L lo (pairIn L lo hlo) ((quarterM 1 0).view.set.piecewise A B)) := by
  refine Transfers.Flight_mono countersEmb (V d (cV L) (jV L)) ?_
  iintro ⟨Hp, Hh⟩
  isplitl [Hp]
  · subst hoff
    iexists _
    isplitl [Hp]; · iexact Hp
    ipureintro
    exact pair_fact (F := F) fi ft d L 1 A B inb lo hlo rfl hA hB fo'
  · iexact Hh

end CleanOut

end Cert.Proof.KI

end
-- ==== Proof.KRejoin.lean ====
/-
  Rejoining what a tile's task took apart. The task ends holding its two scratch buffers in pieces — the buffer of
  gathered rows as four quarters, the buffer of row numbers as sixteen lists — each piece at whatever it last held, and
  its read share of the shared memory as a remainder and nine smaller shares. Pieces that are pairwise disjoint and
  cover a buffer are the buffer at the contents that agree with each piece on its own elements; the shares of one array
  at one contents add up to the share they were cut from.
-/
import proofs.«205114_g12446815224155_cont_fleet_488_32_alg».proof.Proof.KJoin

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)

variable {F : FTy → Type}
local notation "𝕄" => MT nD τ sig (HIx 1) (Elt F) ℕ UU ℕ
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)
local notation "shV" => (Memref.whole Cert.KernelIdeal.cc0_scratch0 : Memref Cert.KernelIdeal.sig Kind.scVector Space.shared Cert.KernelIdeal.S3x128 EltTy.f32)

/-! ## The buffer of gathered rows -/

/-- The two halves of the buffer of gathered rows share no element, said of the halves as the copies name them. -/
theorem halfM_disjoint : Disjoint (halfM 0).view.set (halfM 1).view.set := by
  rw [set_halfM, set_halfM]; exact halves_disjoint

/-- Two halves, each at its own contents, are the buffer at the contents that is the first's on the first half's
    elements and the second's elsewhere. -/
theorem rowHalves_join (d : Dev nD) (c : Fin τ.nSC) (j : Fin τ.nSub) (a b : Buf (Elt F) ((rwV).view.loc (V d c j))) :
    iprop(((halfM 0).view.loc (V d c j) ↦[(halfM 0).view.set]{fullShare} a)
        ∗ ((halfM 1).view.loc (V d c j) ↦[(halfM 1).view.set]{fullShare} b))
      ⊢ ((rwV).view.loc (V d c j) ↦[(rwV).view.set]{fullShare} ((halfM 0).view.set.piecewise a b) : sProp 𝕄) := by
  rw [rw_halves (F := F) d c j ((halfM 0).view.set.piecewise a b)]
  have ha : ((halfM 0).view.loc (V d c j) ↦[(halfM 0).view.set]{fullShare} a : sProp 𝕄)
      = ((halfM 0).view.loc (V d c j) ↦[(halfM 0).view.set]{fullShare} ((halfM 0).view.set.piecewise a b)) :=
    pointsTo_congr fun i hi => (Finset.piecewise_eq_of_mem _ _ _ hi).symm
  have hb : ((halfM 1).view.loc (V d c j) ↦[(halfM 1).view.set]{fullShare} b : sProp 𝕄)
      = ((halfM 1).view.loc (V d c j) ↦[(halfM 1).view.set]{fullShare} ((halfM 0).view.set.piecewise a b)) :=
    pointsTo_congr fun i hi => (Finset.piecewise_eq_of_notMem _ _ _ (Finset.disjoint_right.mp halfM_disjoint hi)).symm
  rw [ha, hb]

/-- The four quarters, each at its own contents, are the buffer of gathered rows at the contents pieced from them. -/
theorem rows_whole_at (d : Dev nD) (c : Fin τ.nSC) (j : Fin τ.nSub) (q00 q01 q10 q11 : Buf (Elt F) ((rwV).view.loc (V d c j))) :
    iprop(((quarterM 0 0).view.loc (V d c j) ↦[(quarterM 0 0).view.set]{fullShare} q00)
        ∗ ((quarterM 0 1).view.loc (V d c j) ↦[(quarterM 0 1).view.set]{fullShare} q01)
        ∗ ((quarterM 1 0).view.loc (V d c j) ↦[(quarterM 1 0).view.set]{fullShare} q10)
        ∗ ((quarterM 1 1).view.loc (V d c j) ↦[(quarterM 1 1).view.set]{fullShare} q11))
      ⊢ ((rwV).view.loc (V d c j) ↦[(rwV).view.set]{fullShare}
          ((halfM 0).view.set.piecewise ((quarterM 0 0).view.set.piecewise q00 q01) ((quarterM 1 0).view.set.piecewise q10 q11)) : sProp 𝕄) := by
  iintro ⟨H00, H01, H10, H11⟩
  ihave Ha := (quarters_join (F := F) d c j 0 q00 q01) $$ [H00 H01]
  · isplitl [H00]; · iexact H00
    iexact H01
  ihave Hb := (quarters_join (F := F) d c j 1 q10 q11) $$ [H10 H11]
  · isplitl [H10]; · iexact H10
    iexact H11
  iapply (rowHalves_join (F := F) d c j ((quarterM 0 0).view.set.piecewise q00 q01) ((quarterM 1 0).view.set.piecewise q10 q11))
  isplitl [Ha]; · iexact Ha
  iexact Hb

/-- The four quarters, each at its own contents, are the tile's buffer of gathered rows whole at some contents. -/
theorem rows_whole (d : Dev nD) (c : Fin τ.nSC) (j : Fin τ.nSub) (q00 q01 q10 q11 : Buf (Elt F) ((rwV).view.loc (V d c j))) :
    iprop(((quarterM 0 0).view.loc (V d c j) ↦[(quarterM 0 0).view.set]{fullShare} q00)
        ∗ ((quarterM 0 1).view.loc (V d c j) ↦[(quarterM 0 1).view.set]{fullShare} q01)
        ∗ ((quarterM 1 0).view.loc (V d c j) ↦[(quarterM 1 0).view.set]{fullShare} q10)
        ∗ ((quarterM 1 1).view.loc (V d c j) ↦[(quarterM 1 1).view.set]{fullShare} q11))
      ⊢ (iprop(∃ f, (V d c j).loc cc0_scratch2 ↦{fullShare} f) : sProp 𝕄) :=
  ((rows_whole_at (F := F) d c j q00 q01 q10 q11).trans (Entails.of_eq (pts_rwV (F := F) d c j fullShare _))).trans
    (exists_intro (Φ := fun f => ((V d c j).loc cc0_scratch2 ↦{fullShare} f : sProp 𝕄)) _)

/-! ## The buffer of row numbers -/

/-- Two lists of one block share no element, said of the lists as the gathers name them. -/
theorem listM_disjoint (bb : Fin 2) {s t : Fin 8} (h : s ≠ t) : Disjoint (listM bb s).view.set (listM bb t).view.set := by
  rw [set_listM, set_listM]; exact lists_disjoint bb s (Finset.mem_univ _) t (Finset.mem_univ _) h

/-- The two blocks share no element, said of the blocks as the copies name them. -/
theorem slotM_disjoint : Disjoint (slotM 0).view.set (slotM 1).view.set := by
  rw [set_slotM, set_slotM]; exact slots_disjoint

/-- The contents that is the s-th given one on list s of block bb, for each of the eight lists. -/
def join8 (bb : Fin 2) (d : Dev nD) (c : Fin τ.nSC) (j : Fin τ.nSub) (f0 f1 f2 f3 f4 f5 f6 f7 : Buf (Elt F) ((ibV).view.loc (V d c j))) :
    Buf (Elt F) ((ibV).view.loc (V d c j)) :=
  ((listM bb 0).view.set.piecewise f0 ((listM bb 1).view.set.piecewise f1 ((listM bb 2).view.set.piecewise f2 ((listM bb 3).view.set.piecewise f3 ((listM bb 4).view.set.piecewise f4 ((listM bb 5).view.set.piecewise f5 ((listM bb 6).view.set.piecewise f6 f7)))))))

set_option maxHeartbeats 1600000 in
/-- The eight lists of a block, each at its own contents, are the block at the contents that agrees with each on its own
    elements: the lists are pairwise disjoint and cover the block. -/
theorem lists_join_at (bb : Fin 2) (d : Dev nD) (c : Fin τ.nSC) (j : Fin τ.nSub) (f0 f1 f2 f3 f4 f5 f6 f7 : Buf (Elt F) ((ibV).view.loc (V d c j))) :
    iprop(((listM bb 0).view.loc (V d c j) ↦[(listM bb 0).view.set]{fullShare} f0)
        ∗ ((listM bb 1).view.loc (V d c j) ↦[(listM bb 1).view.set]{fullShare} f1)
        ∗ ((listM bb 2).view.loc (V d c j) ↦[(listM bb 2).view.set]{fullShare} f2)
        ∗ ((listM bb 3).view.loc (V d c j) ↦[(listM bb 3).view.set]{fullShare} f3)
        ∗ ((listM bb 4).view.loc (V d c j) ↦[(listM bb 4).view.set]{fullShare} f4)
        ∗ ((listM bb 5).view.loc (V d c j) ↦[(listM bb 5).view.set]{fullShare} f5)
        ∗ ((listM bb 6).view.loc (V d c j) ↦[(listM bb 6).view.set]{fullShare} f6)
        ∗ ((listM bb 7).view.loc (V d c j) ↦[(listM bb 7).view.set]{fullShare} f7))
      ⊢ ((slotM bb).view.loc (V d c j) ↦[(slotM bb).view.set]{fullShare} (join8 bb d c j f0 f1 f2 f3 f4 f5 f6 f7) : sProp 𝕄) := by
  have nm : ∀ {s t : Fin 8}, s ≠ t → ∀ {i}, i ∈ (listM bb s).view.set → i ∉ (listM bb t).view.set :=
    fun {s t} h {i} hi => Finset.disjoint_left.mp (listM_disjoint bb (s := s) (t := t) h) hi
  have h0 : (((listM bb 0).view.loc (V d c j) ↦[(listM bb 0).view.set]{fullShare} f0) : sProp 𝕄)
      = ((listM bb 0).view.loc (V d c j) ↦[(listM bb 0).view.set]{fullShare} (join8 bb d c j f0 f1 f2 f3 f4 f5 f6 f7)) :=
    pointsTo_congr fun i hi => by
      show f0 i = ((listM bb 0).view.set.piecewise f0 ((listM bb 1).view.set.piecewise f1 ((listM bb 2).view.set.piecewise f2 ((listM bb 3).view.set.piecewise f3 ((listM bb 4).view.set.piecewise f4 ((listM bb 5).view.set.piecewise f5 ((listM bb 6).view.set.piecewise f6 f7))))))) i
      rw [Finset.piecewise_eq_of_mem _ _ _ hi]
  have h1 : (((listM bb 1).view.loc (V d c j) ↦[(listM bb 1).view.set]{fullShare} f1) : sProp 𝕄)
      = ((listM bb 1).view.loc (V d c j) ↦[(listM bb 1).view.set]{fullShare} (join8 bb d c j f0 f1 f2 f3 f4 f5 f6 f7)) :=
    pointsTo_congr fun i hi => by
      show f1 i = ((listM bb 0).view.set.piecewise f0 ((listM bb 1).view.set.piecewise f1 ((listM bb 2).view.set.piecewise f2 ((listM bb 3).view.set.piecewise f3 ((listM bb 4).view.set.piecewise f4 ((listM bb 5).view.set.piecewise f5 ((listM bb 6).view.set.piecewise f6 f7))))))) i
      rw [Finset.piecewise_eq_of_notMem _ _ _ (nm (s := 1) (t := 0) (by decide) hi),
        Finset.piecewise_eq_of_mem _ _ _ hi]
  have h2 : (((listM bb 2).view.loc (V d c j) ↦[(listM bb 2).view.set]{fullShare} f2) : sProp 𝕄)
      = ((listM bb 2).view.loc (V d c j) ↦[(listM bb 2).view.set]{fullShare} (join8 bb d c j f0 f1 f2 f3 f4 f5 f6 f7)) :=
    pointsTo_congr fun i hi => by
      show f2 i = ((listM bb 0).view.set.piecewise f0 ((listM bb 1).view.set.piecewise f1 ((listM bb 2).view.set.piecewise f2 ((listM bb 3).view.set.piecewise f3 ((listM bb 4).view.set.piecewise f4 ((listM bb 5).view.set.piecewise f5 ((listM bb 6).view.set.piecewise f6 f7))))))) i
      rw [Finset.piecewise_eq_of_notMem _ _ _ (nm (s := 2) (t := 0) (by decide) hi),
        Finset.piecewise_eq_of_notMem _ _ _ (nm (s := 2) (t := 1) (by decide) hi),
        Finset.piecewise_eq_of_mem _ _ _ hi]
  have h3 : (((listM bb 3).view.loc (V d c j) ↦[(listM bb 3).view.set]{fullShare} f3) : sProp 𝕄)
      = ((listM bb 3).view.loc (V d c j) ↦[(listM bb 3).view.set]{fullShare} (join8 bb d c j f0 f1 f2 f3 f4 f5 f6 f7)) :=
    pointsTo_congr fun i hi => by
      show f3 i = ((listM bb 0).view.set.piecewise f0 ((listM bb 1).view.set.piecewise f1 ((listM bb 2).view.set.piecewise f2 ((listM bb 3).view.set.piecewise f3 ((listM bb 4).view.set.piecewise f4 ((listM bb 5).view.set.piecewise f5 ((listM bb 6).view.set.piecewise f6 f7))))))) i
      rw [Finset.piecewise_eq_of_notMem _ _ _ (nm (s := 3) (t := 0) (by decide) hi),
        Finset.piecewise_eq_of_notMem _ _ _ (nm (s := 3) (t := 1) (by decide) hi),
        Finset.piecewise_eq_of_notMem _ _ _ (nm (s := 3) (t := 2) (by decide) hi),
        Finset.piecewise_eq_of_mem _ _ _ hi]
  have h4 : (((listM bb 4).view.loc (V d c j) ↦[(listM bb 4).view.set]{fullShare} f4) : sProp 𝕄)
      = ((listM bb 4).view.loc (V d c j) ↦[(listM bb 4).view.set]{fullShare} (join8 bb d c j f0 f1 f2 f3 f4 f5 f6 f7)) :=
    pointsTo_congr fun i hi => by
      show f4 i = ((listM bb 0).view.set.piecewise f0 ((listM bb 1).view.set.piecewise f1 ((listM bb 2).view.set.piecewise f2 ((listM bb 3).view.set.piecewise f3 ((listM bb 4).view.set.piecewise f4 ((listM bb 5).view.set.piecewise f5 ((listM bb 6).view.set.piecewise f6 f7))))))) i
      rw [Finset.piecewise_eq_of_notMem _ _ _ (nm (s := 4) (t := 0) (by decide) hi),
        Finset.piecewise_eq_of_notMem _ _ _ (nm (s := 4) (t := 1) (by decide) hi),
        Finset.piecewise_eq_of_notMem _ _ _ (nm (s := 4) (t := 2) (by decide) hi),
        Finset.piecewise_eq_of_notMem _ _ _ (nm (s := 4) (t := 3) (by decide) hi),
        Finset.piecewise_eq_of_mem _ _ _ hi]
  have h5 : (((listM bb 5).view.loc (V d c j) ↦[(listM bb 5).view.set]{fullShare} f5) : sProp 𝕄)
      = ((listM bb 5).view.loc (V d c j) ↦[(listM bb 5).view.set]{fullShare} (join8 bb d c j f0 f1 f2 f3 f4 f5 f6 f7)) :=
    pointsTo_congr fun i hi => by
      show f5 i = ((listM bb 0).view.set.piecewise f0 ((listM bb 1).view.set.piecewise f1 ((listM bb 2).view.set.piecewise f2 ((listM bb 3).view.set.piecewise f3 ((listM bb 4).view.set.piecewise f4 ((listM bb 5).view.set.piecewise f5 ((listM bb 6).view.set.piecewise f6 f7))))))) i
      rw [Finset.piecewise_eq_of_notMem _ _ _ (nm (s := 5) (t := 0) (by decide) hi),
        Finset.piecewise_eq_of_notMem _ _ _ (nm (s := 5) (t := 1) (by decide) hi),
        Finset.piecewise_eq_of_notMem _ _ _ (nm (s := 5) (t := 2) (by decide) hi),
        Finset.piecewise_eq_of_notMem _ _ _ (nm (s := 5) (t := 3) (by decide) hi),
        Finset.piecewise_eq_of_notMem _ _ _ (nm (s := 5) (t := 4) (by decide) hi),
        Finset.piecewise_eq_of_mem _ _ _ hi]
  have h6 : (((listM bb 6).view.loc (V d c j) ↦[(listM bb 6).view.set]{fullShare} f6) : sProp 𝕄)
      = ((listM bb 6).view.loc (V d c j) ↦[(listM bb 6).view.set]{fullShare} (join8 bb d c j f0 f1 f2 f3 f4 f5 f6 f7)) :=
    pointsTo_congr fun i hi => by
      show f6 i = ((listM bb 0).view.set.piecewise f0 ((listM bb 1).view.set.piecewise f1 ((listM bb 2).view.set.piecewise f2 ((listM bb 3).view.set.piecewise f3 ((listM bb 4).view.set.piecewise f4 ((listM bb 5).view.set.piecewise f5 ((listM bb 6).view.set.piecewise f6 f7))))))) i
      rw [Finset.piecewise_eq_of_notMem _ _ _ (nm (s := 6) (t := 0) (by decide) hi),
        Finset.piecewise_eq_of_notMem _ _ _ (nm (s := 6) (t := 1) (by decide) hi),
        Finset.piecewise_eq_of_notMem _ _ _ (nm (s := 6) (t := 2) (by decide) hi),
        Finset.piecewise_eq_of_notMem _ _ _ (nm (s := 6) (t := 3) (by decide) hi),
        Finset.piecewise_eq_of_notMem _ _ _ (nm (s := 6) (t := 4) (by decide) hi),
        Finset.piecewise_eq_of_notMem _ _ _ (nm (s := 6) (t := 5) (by decide) hi),
        Finset.piecewise_eq_of_mem _ _ _ hi]
  have h7 : (((listM bb 7).view.loc (V d c j) ↦[(listM bb 7).view.set]{fullShare} f7) : sProp 𝕄)
      = ((listM bb 7).view.loc (V d c j) ↦[(listM bb 7).view.set]{fullShare} (join8 bb d c j f0 f1 f2 f3 f4 f5 f6 f7)) :=
    pointsTo_congr fun i hi => by
      show f7 i = ((listM bb 0).view.set.piecewise f0 ((listM bb 1).view.set.piecewise f1 ((listM bb 2).view.set.piecewise f2 ((listM bb 3).view.set.piecewise f3 ((listM bb 4).view.set.piecewise f4 ((listM bb 5).view.set.piecewise f5 ((listM bb 6).view.set.piecewise f6 f7))))))) i
      rw [Finset.piecewise_eq_of_notMem _ _ _ (nm (s := 7) (t := 0) (by decide) hi),
        Finset.piecewise_eq_of_notMem _ _ _ (nm (s := 7) (t := 1) (by decide) hi),
        Finset.piecewise_eq_of_notMem _ _ _ (nm (s := 7) (t := 2) (by decide) hi),
        Finset.piecewise_eq_of_notMem _ _ _ (nm (s := 7) (t := 3) (by decide) hi),
        Finset.piecewise_eq_of_notMem _ _ _ (nm (s := 7) (t := 4) (by decide) hi),
        Finset.piecewise_eq_of_notMem _ _ _ (nm (s := 7) (t := 5) (by decide) hi),
        Finset.piecewise_eq_of_notMem _ _ _ (nm (s := 7) (t := 6) (by decide) hi)]
  rw [h0, h1, h2, h3, h4, h5, h6, h7, ← slot_lists8 (F := F) d c j bb (join8 bb d c j f0 f1 f2 f3 f4 f5 f6 f7)]

/-- The eight lists of a block, each at its own contents, are the block at some contents. -/
theorem lists_join (bb : Fin 2) (d : Dev nD) (c : Fin τ.nSC) (j : Fin τ.nSub) (f0 f1 f2 f3 f4 f5 f6 f7 : Buf (Elt F) ((ibV).view.loc (V d c j))) :
    iprop(((listM bb 0).view.loc (V d c j) ↦[(listM bb 0).view.set]{fullShare} f0)
        ∗ ((listM bb 1).view.loc (V d c j) ↦[(listM bb 1).view.set]{fullShare} f1)
        ∗ ((listM bb 2).view.loc (V d c j) ↦[(listM bb 2).view.set]{fullShare} f2)
        ∗ ((listM bb 3).view.loc (V d c j) ↦[(listM bb 3).view.set]{fullShare} f3)
        ∗ ((listM bb 4).view.loc (V d c j) ↦[(listM bb 4).view.set]{fullShare} f4)
        ∗ ((listM bb 5).view.loc (V d c j) ↦[(listM bb 5).view.set]{fullShare} f5)
        ∗ ((listM bb 6).view.loc (V d c j) ↦[(listM bb 6).view.set]{fullShare} f6)
        ∗ ((listM bb 7).view.loc (V d c j) ↦[(listM bb 7).view.set]{fullShare} f7))
      ⊢ (iprop(∃ f, (slotM bb).view.loc (V d c j) ↦[(slotM bb).view.set]{fullShare} f) : sProp 𝕄) :=
  (lists_join_at (F := F) bb d c j f0 f1 f2 f3 f4 f5 f6 f7).trans (exists_intro (Φ := fun f => ((slotM bb).view.loc (V d c j) ↦[(slotM bb).view.set]{fullShare} f : sProp 𝕄)) _)

/-- The two blocks, each at its own contents, are the buffer of row numbers at the contents that is the first's on the
    first block's elements and the second's elsewhere. -/
theorem slots_join_at (d : Dev nD) (c : Fin τ.nSC) (j : Fin τ.nSub) (a b : Buf (Elt F) ((ibV).view.loc (V d c j))) :
    iprop(((slotM 0).view.loc (V d c j) ↦[(slotM 0).view.set]{fullShare} a)
        ∗ ((slotM 1).view.loc (V d c j) ↦[(slotM 1).view.set]{fullShare} b))
      ⊢ ((ibV).view.loc (V d c j) ↦[(ibV).view.set]{fullShare} ((slotM 0).view.set.piecewise a b) : sProp 𝕄) := by
  rw [ib_slots (F := F) d c j ((slotM 0).view.set.piecewise a b)]
  have ha : ((slotM 0).view.loc (V d c j) ↦[(slotM 0).view.set]{fullShare} a : sProp 𝕄)
      = ((slotM 0).view.loc (V d c j) ↦[(slotM 0).view.set]{fullShare} ((slotM 0).view.set.piecewise a b)) :=
    pointsTo_congr fun i hi => (Finset.piecewise_eq_of_mem _ _ _ hi).symm
  have hb : ((slotM 1).view.loc (V d c j) ↦[(slotM 1).view.set]{fullShare} b : sProp 𝕄)
      = ((slotM 1).view.loc (V d c j) ↦[(slotM 1).view.set]{fullShare} ((slotM 0).view.set.piecewise a b)) :=
    pointsTo_congr fun i hi => (Finset.piecewise_eq_of_notMem _ _ _ (Finset.disjoint_right.mp slotM_disjoint hi)).symm
  rw [ha, hb]

/-- The two blocks, each at its own contents, are the buffer of row numbers whole at some contents. -/
theorem slots_join (d : Dev nD) (c : Fin τ.nSC) (j : Fin τ.nSub) (a b : Buf (Elt F) ((ibV).view.loc (V d c j))) :
    iprop(((slotM 0).view.loc (V d c j) ↦[(slotM 0).view.set]{fullShare} a)
        ∗ ((slotM 1).view.loc (V d c j) ↦[(slotM 1).view.set]{fullShare} b))
      ⊢ (iprop(∃ f, (ibV).view.loc (V d c j) ↦[(ibV).view.set]{fullShare} f) : sProp 𝕄) :=
  (slots_join_at (F := F) d c j a b).trans (exists_intro (Φ := fun f => ((ibV).view.loc (V d c j) ↦[(ibV).view.set]{fullShare} f : sProp 𝕄)) _)

/-- The sixteen lists, each at its own contents, are the buffer of row numbers at the contents pieced from them. -/
theorem idxb_whole_at (d : Dev nD) (c : Fin τ.nSC) (j : Fin τ.nSub)
    (a0 a1 a2 a3 a4 a5 a6 a7 b0 b1 b2 b3 b4 b5 b6 b7 : Buf (Elt F) ((ibV).view.loc (V d c j))) :
    iprop(((listM 0 0).view.loc (V d c j) ↦[(listM 0 0).view.set]{fullShare} a0)
        ∗ ((listM 0 1).view.loc (V d c j) ↦[(listM 0 1).view.set]{fullShare} a1)
        ∗ ((listM 0 2).view.loc (V d c j) ↦[(listM 0 2).view.set]{fullShare} a2)
        ∗ ((listM 0 3).view.loc (V d c j) ↦[(listM 0 3).view.set]{fullShare} a3)
        ∗ ((listM 0 4).view.loc (V d c j) ↦[(listM 0 4).view.set]{fullShare} a4)
        ∗ ((listM 0 5).view.loc (V d c j) ↦[(listM 0 5).view.set]{fullShare} a5)
        ∗ ((listM 0 6).view.loc (V d c j) ↦[(listM 0 6).view.set]{fullShare} a6)
        ∗ ((listM 0 7).view.loc (V d c j) ↦[(listM 0 7).view.set]{fullShare} a7)
        ∗ ((listM 1 0).view.loc (V d c j) ↦[(listM 1 0).view.set]{fullShare} b0)
        ∗ ((listM 1 1).view.loc (V d c j) ↦[(listM 1 1).view.set]{fullShare} b1)
        ∗ ((listM 1 2).view.loc (V d c j) ↦[(listM 1 2).view.set]{fullShare} b2)
        ∗ ((listM 1 3).view.loc (V d c j) ↦[(listM 1 3).view.set]{fullShare} b3)
        ∗ ((listM 1 4).view.loc (V d c j) ↦[(listM 1 4).view.set]{fullShare} b4)
        ∗ ((listM 1 5).view.loc (V d c j) ↦[(listM 1 5).view.set]{fullShare} b5)
        ∗ ((listM 1 6).view.loc (V d c j) ↦[(listM 1 6).view.set]{fullShare} b6)
        ∗ ((listM 1 7).view.loc (V d c j) ↦[(listM 1 7).view.set]{fullShare} b7))
      ⊢ ((ibV).view.loc (V d c j) ↦[(ibV).view.set]{fullShare}
          ((slotM 0).view.set.piecewise (join8 0 d c j a0 a1 a2 a3 a4 a5 a6 a7) (join8 1 d c j b0 b1 b2 b3 b4 b5 b6 b7)) : sProp 𝕄) := by
  iintro ⟨A0, A1, A2, A3, A4, A5, A6, A7, B0, B1, B2, B3, B4, B5, B6, B7⟩
  ihave Ha := (lists_join_at (F := F) 0 d c j a0 a1 a2 a3 a4 a5 a6 a7) $$ [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  ihave Hb := (lists_join_at (F := F) 1 d c j b0 b1 b2 b3 b4 b5 b6 b7) $$ [B0 B1 B2 B3 B4 B5 B6 B7]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  iapply (slots_join_at (F := F) d c j (join8 0 d c j a0 a1 a2 a3 a4 a5 a6 a7) (join8 1 d c j b0 b1 b2 b3 b4 b5 b6 b7))
  isplitl [Ha]; · iexact Ha
  iexact Hb

/-- The sixteen lists, each at its own contents, are the tile's buffer of row numbers whole at some contents. -/
theorem idxb_whole (d : Dev nD) (c : Fin τ.nSC) (j : Fin τ.nSub)
    (a0 a1 a2 a3 a4 a5 a6 a7 b0 b1 b2 b3 b4 b5 b6 b7 : Buf (Elt F) ((ibV).view.loc (V d c j))) :
    iprop(((listM 0 0).view.loc (V d c j) ↦[(listM 0 0).view.set]{fullShare} a0)
        ∗ ((listM 0 1).view.loc (V d c j) ↦[(listM 0 1).view.set]{fullShare} a1)
        ∗ ((listM 0 2).view.loc (V d c j) ↦[(listM 0 2).view.set]{fullShare} a2)
        ∗ ((listM 0 3).view.loc (V d c j) ↦[(listM 0 3).view.set]{fullShare} a3)
        ∗ ((listM 0 4).view.loc (V d c j) ↦[(listM 0 4).view.set]{fullShare} a4)
        ∗ ((listM 0 5).view.loc (V d c j) ↦[(listM 0 5).view.set]{fullShare} a5)
        ∗ ((listM 0 6).view.loc (V d c j) ↦[(listM 0 6).view.set]{fullShare} a6)
        ∗ ((listM 0 7).view.loc (V d c j) ↦[(listM 0 7).view.set]{fullShare} a7)
        ∗ ((listM 1 0).view.loc (V d c j) ↦[(listM 1 0).view.set]{fullShare} b0)
        ∗ ((listM 1 1).view.loc (V d c j) ↦[(listM 1 1).view.set]{fullShare} b1)
        ∗ ((listM 1 2).view.loc (V d c j) ↦[(listM 1 2).view.set]{fullShare} b2)
        ∗ ((listM 1 3).view.loc (V d c j) ↦[(listM 1 3).view.set]{fullShare} b3)
        ∗ ((listM 1 4).view.loc (V d c j) ↦[(listM 1 4).view.set]{fullShare} b4)
        ∗ ((listM 1 5).view.loc (V d c j) ↦[(listM 1 5).view.set]{fullShare} b5)
        ∗ ((listM 1 6).view.loc (V d c j) ↦[(listM 1 6).view.set]{fullShare} b6)
        ∗ ((listM 1 7).view.loc (V d c j) ↦[(listM 1 7).view.set]{fullShare} b7))
      ⊢ (iprop(∃ f, (V d c j).loc cc0_scratch1 ↦{fullShare} f) : sProp 𝕄) :=
  ((idxb_whole_at (F := F) d c j a0 a1 a2 a3 a4 a5 a6 a7 b0 b1 b2 b3 b4 b5 b6 b7).trans (Entails.of_eq (pts_ibV (F := F) d c j fullShare _))).trans
    (exists_intro (Φ := fun f => ((V d c j).loc cc0_scratch1 ↦{fullShare} f : sProp 𝕄)) _)

/-! ## The read share of the shared memory -/

/-- The remainder and the nine smaller shares of a tile's read share of the shared memory, four of them held apart from
    the other five, all at one contents, are the tile's read share at that contents. -/
theorem toks_back (d : Dev nD) (c : Fin τ.nSC) (j : Fin τ.nSub) (f : Buf (Elt F) ((shV).view.loc (V d c j))) :
    iprop(((shV).view.loc (V d c j) ↦[(shV).view.set]{shareDrop (shTok j) 9} f)
        ∗ ((shV).view.loc (V d c j) ↦[(shV).view.set]{shareTok (shTok j) 9 2} f)
        ∗ ((shV).view.loc (V d c j) ↦[(shV).view.set]{shareTok (shTok j) 9 3} f)
        ∗ ((shV).view.loc (V d c j) ↦[(shV).view.set]{shareTok (shTok j) 9 4} f)
        ∗ ((shV).view.loc (V d c j) ↦[(shV).view.set]{shareTok (shTok j) 9 5} f)
        ∗ bigSep (((((Finset.univ : Finset (Fin 9)).erase 2).erase 3).erase 4).erase 5)
            (fun i : Fin 9 => ((shV).view.loc (V d c j) ↦[(shV).view.set]{shareTok (shTok j) 9 i} f : sProp 𝕄)))
      ⊢ ((shV).view.loc (V d c j) ↦[(shV).view.set]{shTok j} f : sProp 𝕄) := by
  have h := Transfers.pointsTo_toks_join (Ix := HIx 1) (Val := Elt F) (Name := ℕ) (U := UU) (Lvl := ℕ)
    (ℓ := (shV).view.loc (V d c j)) (S := (shV).view.set) (f := f) (shTok j) 9
  rw [SparseCore.bigSep_erase' (i := (2 : Fin 9)) (Finset.mem_univ _),
    SparseCore.bigSep_erase' (i := (3 : Fin 9)) (s := (Finset.univ : Finset (Fin 9)).erase 2) (by decide),
    SparseCore.bigSep_erase' (i := (4 : Fin 9)) (s := ((Finset.univ : Finset (Fin 9)).erase 2).erase 3) (by decide),
    SparseCore.bigSep_erase' (i := (5 : Fin 9)) (s := (((Finset.univ : Finset (Fin 9)).erase 2).erase 3).erase 4) (by decide)] at h
  exact h

/-- The same, the read share said as the launch says it: some contents of the shared memory at the tile's share. -/
theorem toks_back_ex (d : Dev nD) (c : Fin τ.nSC) (j : Fin τ.nSub) (f : Buf (Elt F) ((shV).view.loc (V d c j))) :
    iprop(((shV).view.loc (V d c j) ↦[(shV).view.set]{shareDrop (shTok j) 9} f)
        ∗ ((shV).view.loc (V d c j) ↦[(shV).view.set]{shareTok (shTok j) 9 2} f)
        ∗ ((shV).view.loc (V d c j) ↦[(shV).view.set]{shareTok (shTok j) 9 3} f)
        ∗ ((shV).view.loc (V d c j) ↦[(shV).view.set]{shareTok (shTok j) 9 4} f)
        ∗ ((shV).view.loc (V d c j) ↦[(shV).view.set]{shareTok (shTok j) 9 5} f)
        ∗ bigSep (((((Finset.univ : Finset (Fin 9)).erase 2).erase 3).erase 4).erase 5)
            (fun i : Fin 9 => ((shV).view.loc (V d c j) ↦[(shV).view.set]{shareTok (shTok j) 9 i} f : sProp 𝕄)))
      ⊢ (iprop(∃ g, shTokPts d c j g) : sProp 𝕄) :=
  ((toks_back (F := F) d c j f).trans (Entails.of_eq (pts_shV (F := F) d c j (shTok j) f))).trans
    (exists_intro (Φ := fun g => (shTokPts d c j g : sProp 𝕄)) f)

/-! ## The tile's own semaphores and buffers -/

/-- Transfer semaphore number 0 of a tile, as the task's waits name it, is the cell of the pieces. -/
theorem dcell_eq_0 (d : Dev nD) (c : Fin τ.nSC) (j : Fin τ.nSub) (h : 0 < sig.nDmaSem) :
    ((V d c j, SemLoc.dma ⟨0, h⟩) : GSem nD τ sig) = dcell d c j cc0_scratch3 := rfl
/-- Transfer semaphore number 1 of a tile, as the task's waits name it, is the cell of the pieces. -/
theorem dcell_eq_1 (d : Dev nD) (c : Fin τ.nSC) (j : Fin τ.nSub) (h : 1 < sig.nDmaSem) :
    ((V d c j, SemLoc.dma ⟨1, h⟩) : GSem nD τ sig) = dcell d c j cc0_scratch4 := rfl
/-- Transfer semaphore number 2 of a tile, as the task's waits name it, is the cell of the pieces. -/
theorem dcell_eq_2 (d : Dev nD) (c : Fin τ.nSC) (j : Fin τ.nSub) (h : 2 < sig.nDmaSem) :
    ((V d c j, SemLoc.dma ⟨2, h⟩) : GSem nD τ sig) = dcell d c j cc0_scratch5 := rfl
/-- Transfer semaphore number 3 of a tile, as the task's waits name it, is the cell of the pieces. -/
theorem dcell_eq_3 (d : Dev nD) (c : Fin τ.nSC) (j : Fin τ.nSub) (h : 3 < sig.nDmaSem) :
    ((V d c j, SemLoc.dma ⟨3, h⟩) : GSem nD τ sig) = dcell d c j cc0_scratch6 := rfl
/-- Transfer semaphore number 4 of a tile, as the task's waits name it, is the cell of the pieces. -/
theorem dcell_eq_4 (d : Dev nD) (c : Fin τ.nSC) (j : Fin τ.nSub) (h : 4 < sig.nDmaSem) :
    ((V d c j, SemLoc.dma ⟨4, h⟩) : GSem nD τ sig) = dcell d c j cc0_scratch7 := rfl
/-- Transfer semaphore number 5 of a tile, as the task's waits name it, is the cell of the pieces. -/
theorem dcell_eq_5 (d : Dev nD) (c : Fin τ.nSC) (j : Fin τ.nSub) (h : 5 < sig.nDmaSem) :
    ((V d c j, SemLoc.dma ⟨5, h⟩) : GSem nD τ sig) = dcell d c j cc0_scratch8 := rfl
/-- Transfer semaphore number 6 of a tile, as the task's waits name it, is the cell of the pieces. -/
theorem dcell_eq_6 (d : Dev nD) (c : Fin τ.nSC) (j : Fin τ.nSub) (h : 6 < sig.nDmaSem) :
    ((V d c j, SemLoc.dma ⟨6, h⟩) : GSem nD τ sig) = dcell d c j cc0_scratch9 := rfl
/-- Transfer semaphore number 7 of a tile, as the task's waits name it, is the cell of the pieces. -/
theorem dcell_eq_7 (d : Dev nD) (c : Fin τ.nSC) (j : Fin τ.nSub) (h : 7 < sig.nDmaSem) :
    ((V d c j, SemLoc.dma ⟨7, h⟩) : GSem nD τ sig) = dcell d c j cc0_scratch10 := rfl
/-- Transfer semaphore number 8 of a tile, as the task's waits name it, is the cell of the pieces. -/
theorem dcell_eq_8 (d : Dev nD) (c : Fin τ.nSC) (j : Fin τ.nSub) (h : 8 < sig.nDmaSem) :
    ((V d c j, SemLoc.dma ⟨8, h⟩) : GSem nD τ sig) = dcell d c j cc0_scoped0 := rfl

/-- The nine transfer semaphores of the task, each at zero, and the rest of the tile's own at zero are all the tile's
    own semaphores at zero. -/
theorem sems_back (d : Dev nD) (c : Fin τ.nSC) (j : Fin τ.nSub) :
    iprop(semVal (dcell d c j cc0_scratch3) 0 ∗ semVal (dcell d c j cc0_scratch4) 0 ∗ semVal (dcell d c j cc0_scratch5) 0 ∗ semVal (dcell d c j cc0_scratch6) 0 ∗ semVal (dcell d c j cc0_scratch7) 0 ∗ semVal (dcell d c j cc0_scratch8) 0 ∗ semVal (dcell d c j cc0_scratch9) 0 ∗ semVal (dcell d c j cc0_scratch10) 0 ∗ semVal (dcell d c j cc0_scoped0) 0
        ∗ bigSep ((((((((((ownCells (V d c j)).erase (dcell d c j cc0_scratch3)).erase (dcell d c j cc0_scratch4)).erase (dcell d c j cc0_scratch5)).erase (dcell d c j cc0_scratch6)).erase (dcell d c j cc0_scratch7)).erase (dcell d c j cc0_scratch8)).erase (dcell d c j cc0_scratch9)).erase (dcell d c j cc0_scratch10)).erase (dcell d c j cc0_scoped0)) fun g => semVal g 0)
      ⊢ (ownSems0 (V d c j) : sProp 𝕄) :=
  Entails.of_eq (ownSems0_V (F := F) d c j).symm

/-- The two scratch buffers, each whole at some contents, and the rest of the tile's own buffers are all the tile's own
    buffers. -/
theorem bufs_back (d : Dev nD) (c : Fin τ.nSC) (j : Fin τ.nSub) :
    iprop((∃ f, (V d c j).loc cc0_scratch1 ↦{fullShare} f) ∗ (∃ f, (V d c j).loc cc0_scratch2 ↦{fullShare} f)
        ∗ bigSep (((ownRefs (τ := τ) (.scVector c j)).erase ((Proc.scVector c j).devRef cc0_scratch1)).erase ((Proc.scVector c j).devRef cc0_scratch2))
            fun b => iprop(∃ f, ((d, b) : Loc nD τ sig) ↦{fullShare} f))
      ⊢ (ownBufs (V d c j) : sProp 𝕄) :=
  Entails.of_eq (ownBufs_V (F := F) d c j).symm

/-- The same, the tile's own semaphores said as the semaphores in its scope. -/
theorem sems_back_scoped (d : Dev nD) (c : Fin τ.nSC) (j : Fin τ.nSub) :
    iprop(semVal (dcell d c j cc0_scratch3) 0 ∗ semVal (dcell d c j cc0_scratch4) 0 ∗ semVal (dcell d c j cc0_scratch5) 0 ∗ semVal (dcell d c j cc0_scratch6) 0 ∗ semVal (dcell d c j cc0_scratch7) 0 ∗ semVal (dcell d c j cc0_scratch8) 0 ∗ semVal (dcell d c j cc0_scratch9) 0 ∗ semVal (dcell d c j cc0_scratch10) 0 ∗ semVal (dcell d c j cc0_scoped0) 0
        ∗ bigSep ((((((((((ownCells (V d c j)).erase (dcell d c j cc0_scratch3)).erase (dcell d c j cc0_scratch4)).erase (dcell d c j cc0_scratch5)).erase (dcell d c j cc0_scratch6)).erase (dcell d c j cc0_scratch7)).erase (dcell d c j cc0_scratch8)).erase (dcell d c j cc0_scratch9)).erase (dcell d c j cc0_scratch10)).erase (dcell d c j cc0_scoped0)) fun g => semVal g 0)
      ⊢ (scopedSems0 (V d c j) : sProp 𝕄) :=
  (sems_back (F := F) d c j).trans (Entails.of_eq (SparseCore.Cfg.scopedSems0_V d c j).symm)

/-- The same, the tile's own buffers said as the buffers in its scope. -/
theorem bufs_back_scoped (hF : (K (F := F)).Facts) (d : Dev nD) (c : Fin τ.nSC) (j : Fin τ.nSub) :
    iprop((∃ f, (V d c j).loc cc0_scratch1 ↦{fullShare} f) ∗ (∃ f, (V d c j).loc cc0_scratch2 ↦{fullShare} f)
        ∗ bigSep (((ownRefs (τ := τ) (.scVector c j)).erase ((Proc.scVector c j).devRef cc0_scratch1)).erase ((Proc.scVector c j).devRef cc0_scratch2))
            fun b => iprop(∃ f, ((d, b) : Loc nD τ sig) ↦{fullShare} f))
      ⊢ (scopedBufs (V d c j) : sProp 𝕄) :=
  (bufs_back (F := F) d c j).trans (Entails.of_eq ((K (F := F)).scopedBufs_V hF d c j).symm)

end Cert.Proof.KI

end
-- ==== Proof.KEpilogue.lean ====
/-
  The end of a tile's task. When the main loop is over, two gathers and one copy-out are still outstanding. The task
  waits for the two gathers — the second half of the buffer of gathered rows then reads the worker's last two blocks of
  the lookup —, copies that half out to the worker's last pair of blocks, and waits for both copy-outs. What it then
  holds is everything the launch handed over, in pieces: the pieces are joined back (the sixteen lists into the buffer
  of row numbers, the two halves into the buffer of gathered rows, the nine smaller shares and the remainder into the
  tile's read share of the shared memory, the intervals of blocks into the worker's slice), the slice at the lookup.
-/
import proofs.«205114_g12446815224155_cont_fleet_488_32_alg».proof.Proof.KInv
import proofs.«205114_g12446815224155_cont_fleet_488_32_alg».proof.Proof.KCleanOut
import proofs.«205114_g12446815224155_cont_fleet_488_32_alg».proof.Proof.KRejoin

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}
local notation "𝕄" => MT nD τ sig (HIx 1) (Elt F) ℕ UU ℕ
local notation "iV" => (Memref.whole Cert.KernelIdeal.main_v0_scv : Memref Cert.KernelIdeal.sig Kind.scVector Space.hbm Cert.KernelIdeal.S3276800 EltTy.i32)
local notation "tV" => (Memref.whole Cert.KernelIdeal.main_arg1_scv : Memref Cert.KernelIdeal.sig Kind.scVector Space.hbm Cert.KernelIdeal.S3x128 EltTy.f32)
local notation "oV" => (Memref.whole Cert.KernelIdeal.main_v1_scv : Memref Cert.KernelIdeal.sig Kind.scVector Space.hbm Cert.KernelIdeal.S25600x128x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)

variable (fi : (d : Dev nD) → Buf (Elt F) (idxLoc d)) (ft : (d : Dev nD) → Buf (Elt F) (tabLoc d)) (fo : (d : Dev nD) → Buf (Elt F) (oLoc d))
variable [FloatOps F]

/-- What the task runs after its main loop: the wait for the gather into the third quarter, the rest of the body's last
    part (the wait for the gather into the fourth quarter, the last copy-out, the wait for the first copy-out
    semaphore), and the wait for the second copy-out semaphore. -/
noncomputable def tailProg (L : grid0.Coords) (v6 : BitVec 32) :
    Prog (TpuEff nD τ sig (Elt F) Λ₀ (.scVector ((L 0).castLE hcore0) ((L 1).castLE hsub0))) PUnit := do
  let v6 ← (do
    SparseCore.waitIndirectGather (cc0_scratch7).sem ((shV).slice (Rect.unit (s := S3x128) ![0, 0] S3x128.size inb_S3x128_S3x128_0_0) (fun _ => rfl)) (((rwV).slice (Rect.unit (s := S2x2x128x128) ![1, 0, 0, 0] S1x1x128x128.size inb_S2x2x128x128_S1x1x128x128_1_0_0_0) (fun _ => rfl)).squeeze S128x128 squeezes_S1x1x128x128_S128x128) (View.wordExact_bits rfl) ((View.wordExact_bits rfl).reshape _ _)
    pure v6)
  k0_part15 (F := F) L iV (Memref.isWhole_whole _) tV (Memref.isWhole_whole _) oV (Memref.isWhole_whole _) shV (Memref.isWhole_whole _)
      ibV (Memref.isWhole_whole _) rwV (Memref.isWhole_whole _)
      cc0_scratch3 cc0_scratch4 cc0_scratch5 cc0_scratch6 cc0_scratch7 cc0_scratch8 cc0_scratch9 cc0_scratch10 cc0_scoped0 v6
  Prog.lift (.waitDma2 (cc0_scratch10).sem (((rwV).slice (Rect.unit (s := S2x2x128x128) ![0, 0, 0, 0] S1x2x128x128.size inb_S2x2x128x128_S1x2x128x128_0_0_0_0) (fun _ => rfl)).squeeze S2x128x128 squeezes_S1x2x128x128_S2x128x128) ((oV).slice (Rect.unit (s := S25600x128x128) (k0_off29 L 0#32) S2x128x128.size (k0_off29_inb L 0)) (fun _ => rfl)) ((View.wordExact_bits rfl).reshape _ _) (View.wordExact_bits rfl))
  pure ⟨⟩

section Finish

variable (d : Dev nD) (L : grid0.Coords) (O : CellTallies nD τ sig (HIx 1)) (W : Waits sig (HIx 1))

/-- A wait of the task's own, at the call's index, recorded on top of waits that are the ones the task began with or its own. -/
theorem waitsOK_insert {W' : Waits sig (HIx 1)} (h : WaitsOK W W') (sm : SemLoc sig) : WaitsOK W (insert (sm, (default : HIx 1)) W') := by
  intro p hp
  rcases Finset.mem_insert.mp hp with rfl | hp
  · exact Or.inr (Or.inl rfl)
  · exact h p hp

/-- The first six lists of the second block and its last two, all at one contents, are the block at that contents. -/
theorem slot1_back (c : Fin τ.nSC) (j : Fin τ.nSub) (f : Buf (Elt F) ((ibV).view.loc (V d c j))) :
    iprop((bigSep (((Finset.univ : Finset (Fin 8)).erase 6).erase 7) fun s : Fin 8 => ((listM 1 s).view.loc (V d c j) ↦[(listM 1 s).view.set]{fullShare} f : sProp 𝕄))
        ∗ ((listM 1 6).view.loc (V d c j) ↦[(listM 1 6).view.set]{fullShare} f)
        ∗ ((listM 1 7).view.loc (V d c j) ↦[(listM 1 7).view.set]{fullShare} f))
      ⊢ ((slotM 1).view.loc (V d c j) ↦[(slotM 1).view.set]{fullShare} f : sProp 𝕄) := by
  rw [slot_lists (F := F) d c j 1 f, SparseCore.bigSep_erase' (i := (6 : Fin 8)) (Finset.mem_univ _),
    SparseCore.bigSep_erase' (i := (7 : Fin 8)) (s := (Finset.univ : Finset (Fin 8)).erase 6) (by decide)]
  iintro ⟨Hr, H6, H7⟩
  isplitl [H6]; · iexact H6
  isplitl [H7]; · iexact H7
  iexact Hr

/-- What the task holds when its last wait returns, beside what it never touched: its read share of the list, its
    slice of the result at the lookup, its read share of the shared memory, its two scratch buffers whole, its eight
    transfer semaphores at zero, and its debt with the waits recorded. -/
def EpiPost : sProp 𝕄 :=
  iprop(iPts fi d (wL L) ∗ oPts d (wL L) (oDone fi ft d) ∗ (∃ f, shTokPts d (cV L) (jV L) f)
    ∗ (∃ f, (V d (cV L) (jV L)).loc cc0_scratch1 ↦{fullShare} f) ∗ (∃ f, (V d (cV L) (jV L)).loc cc0_scratch2 ↦{fullShare} f)
    ∗ semVal (dcell d (cV L) (jV L) cc0_scratch3) 0 ∗ semVal (dcell d (cV L) (jV L) cc0_scratch4) 0 ∗ semVal (dcell d (cV L) (jV L) cc0_scratch5) 0 ∗ semVal (dcell d (cV L) (jV L) cc0_scratch6) 0 ∗ semVal (dcell d (cV L) (jV L) cc0_scratch7) 0 ∗ semVal (dcell d (cV L) (jV L) cc0_scratch8) 0 ∗ semVal (dcell d (cV L) (jV L) cc0_scratch9) 0 ∗ semVal (dcell d (cV L) (jV L) cc0_scratch10) 0
    ∗ ∃ W', ⌜WaitsOK W W'⌝ ∗ owes (V d (cV L) (jV L)) O W')

end Finish

set_option maxHeartbeats 4000000 in
/-- THE END OF THE TASK. From the main loop's invariant after its last trip, the rest of the task — the waits for the
    last two gathers, the copy-out of the last pair of blocks, the waits for both copy-outs — runs to its end and leaves
    the worker's slice at the lookup, every piece rejoined into what the launch handed over, every transfer semaphore at
    zero. -/
theorem epilogue (d : Dev nD) (L : grid0.Coords) (O : CellTallies nD τ sig (HIx 1)) (W : Waits sig (HIx 1)) (v6 : BitVec 32) :
    (Inv fi ft fo d L O W 50 () : sProp 𝕄)
      ⊢ wp frame (wpE (defs₀ (F := F)) 𝒱₀ (V d (cV L) (jV L)) none) Set.univ (tailProg (F := F) L v6) (fun _ => EpiPost fi ft d L O W) := by
  unfold Inv IdxPart
  rw [dif_neg (by omega : ¬ ((50 : ℕ) < 50)), dif_neg (by omega : ¬ ((50 : ℕ) = 0)), dif_pos (le_refl 50)]
  unfold Steady Base
  unfold GathD10 GathD11 OutD0 shAll
  iintro ⟨%hk, ⟨#Hmw, HOw, Hs4, Hs5, Hs6, Hs10, Htok2, Htok3, Htoks9, Htrem⟩, ⟨Hs3, Hi, Hsl0⟩, ⟨%f2, %hf2, Hm05, HG10, HG11, Hr4, Hr5, ⟨%h0, HO0⟩, Hdone, Hrest⟩⟩
  icases HOw with ⟨%W', %hW', HO⟩
  sl_unfold [tailProg]
  sl_exec
  -- the last two gathers have landed: the two quarters of the second half read the lookup's last two blocks
  icases HG10_dst with ⟨⟨%a10, Hq10, %ha10⟩, Hl6⟩
  icases HG11_dst with ⟨⟨%a11, Hq11, %ha11⟩, Hl7⟩
  ihave Hq10 := (Entails.of_eq (quarter_lit_1_0 (F := F) d (cV L) (jV L) a10)) $$ Hq10
  ihave Hq11 := (Entails.of_eq (quarter_lit_1_1 (F := F) d (cV L) (jV L) a11)) $$ Hq11
  ihave Hh1 := (quarters_join (F := F) d (cV L) (jV L) 1 a10 a11) $$ [Hq10 Hq11]
  · isplitl [Hq10] <;> iassumption
  ihave Hh1 := (Entails.of_eq (half_lit_1 (F := F) d (cV L) (jV L) _).symm) $$ Hh1
  -- the last pair of the worker's blocks, split off what is left of its slice
  have hoffE : k0_off29 L 798#32 = ![800 * (wL L).val + 798, 0, 0] := by
    refine (k0_off29_eq L ⟨1, by decide⟩).trans ?_
    have e : 1600 * (L 1).val + 800 * (L 0).val + 798 * ((⟨1, by decide⟩ : Fin 2) : ℕ) = 800 * (wL L).val + 798 := by
      show 1600 * (L 1).val + 800 * (L 0).val + 798 * 1 = 800 * ((L 1).val * 2 + (L 0).val) + 798
      omega
    rw [e]
  ihave Hp := (rest_take (F := F) d (cV L) (jV L) (wL L) (k0_off29_inb L 1) (lo := 798) hoffE (by omega) (fo d)) $$ Hrest
  icases Hp with ⟨Hp7, Hrest⟩
  sl_exec
  -- the first copy-out has delivered its pair at the lookup and handed the first half back
  icases HO0_dst with ⟨%g6, Hp6, %hg6⟩
  rw [wp_ret]; imodintro
  unfold EpiPost
  -- the list's read share, as the launch names it
  ihave Hi := (Entails.of_eq (pts_iV (F := F) d (cV L) (jV L) (iTok (wL L)) (fi d))) $$ Hi
  -- the worker's slice: the blocks done before, the pair the first copy-out delivered, the pair the last one wrote
  ihave Hdone := (done_add (F := F) d (cV L) (jV L) (wL L) (pairIn L 796 (by omega)) (lo := 796) rfl g6 (oDone fi ft d) hg6) $$ [Hdone Hp6]
  · isplitl [Hdone]; · iexact Hdone
    iexact Hp6
  have hg7 := pair_fact (F := F) fi ft d L 1 a10 a11 (k0_off29_inb L 1) 798 (by omega) hoffE ha10 ha11 (fo d)
  ihave Hdone := (done_add (F := F) d (cV L) (jV L) (wL L) (k0_off29_inb L 1) (lo := 798) hoffE _ (oDone fi ft d) hg7) $$ [Hdone Hp7]
  · isplitl [Hdone]; · iexact Hdone
    iexact Hp7
  ihave Hdone := (Entails.of_eq (show (oLoc d ↦[rowsIn (wL L) 0 (798 + 2)]{fullShare} oDone fi ft d : sProp 𝕄) = oPts d (wL L) (oDone fi ft d) from by
    show _ = (oLoc d ↦[oSet (wL L)]{fullShare} oDone fi ft d : sProp 𝕄)
    rw [oSet_eq_rows])) $$ Hdone
  ihave He := (Entails.of_eq (rows_none (F := F) d (wL L) 800 fullShare (fo d))) $$ Hrest
  -- the read share of the shared memory
  ihave Hsh := (toks_back_ex (F := F) d (cV L) (jV L) (ft d)) $$ [Htrem Htok2 Htok3 Hr4 Hr5 Htoks9]
  · isplitl [Htrem]; · iexact Htrem
    isplitl [Htok2]; · iexact Htok2
    isplitl [Htok3]; · iexact Htok3
    isplitl [Hr4]; · iexact Hr4
    isplitl [Hr5]; · iexact Hr5
    iexact Htoks9
  -- the buffer of gathered rows
  ihave Hh0 := (Entails.of_eq (half_lit_0 (F := F) d (cV L) (jV L) h0)) $$ HO0_src
  ihave Hh1 := (Entails.of_eq (half_lit_1 (F := F) d (cV L) (jV L) _)) $$ Hh1
  ihave Hrw := (rowHalves_join (F := F) d (cV L) (jV L) h0 _) $$ [Hh0 Hh1]
  · isplitl [Hh0] <;> iassumption
  ihave Hrw := (Entails.of_eq (pts_rwV (F := F) d (cV L) (jV L) fullShare _)) $$ Hrw
  -- the buffer of row numbers
  icases Hsl0 with ⟨%f0, Hsl0⟩
  ihave Hsl0 := (Entails.of_eq (slot_lists (F := F) d (cV L) (jV L) 0 f0).symm) $$ Hsl0
  ihave Hl6 := (Entails.of_eq (list_lit_1_6 (F := F) d (cV L) (jV L) f2)) $$ Hl6
  ihave Hl7 := (Entails.of_eq (list_lit_1_7 (F := F) d (cV L) (jV L) f2)) $$ Hl7
  ihave Hsl1 := (slot1_back (F := F) d (cV L) (jV L) f2) $$ [Hm05 Hl6 Hl7]
  · isplitl [Hm05]; · iexact Hm05
    isplitl [Hl6] <;> iassumption
  ihave Hib := (slots_join_at (F := F) d (cV L) (jV L) f0 f2) $$ [Hsl0 Hsl1]
  · isplitl [Hsl0] <;> iassumption
  ihave Hib := (Entails.of_eq (pts_ibV (F := F) d (cV L) (jV L) fullShare _)) $$ Hib
  -- everything, in the order of the statement
  isplitl [Hi]; · iexact Hi
  isplitl [Hdone]; · iexact Hdone
  isplitl [Hsh]; · iexact Hsh
  isplitl [Hib]; · iexists _; iexact Hib
  isplitl [Hrw]; · iexists _; iexact Hrw
  isplitl [Hs3]; · iexact Hs3
  isplitl [Hs4]; · iexact Hs4
  isplitl [Hs5]; · iexact Hs5
  isplitl [Hs6]; · iexact Hs6
  isplitl [HG10]; · iexact HG10
  isplitl [HG11]; · iexact HG11
  isplitl [HO0]; · iexact HO0
  isplitl [Hs10]; · iexact Hs10
  iexists _
  isplitl [He]
  rotate_left
  · iexact HO
  · iclear He
    ipureintro
    exact waitsOK_insert W (waitsOK_insert W (waitsOK_insert W (waitsOK_insert W hW' _) _) _) _
-- ==== Proof.KTripFirst.lean ====
/-
  The first trip of a tile's main loop.
  Only the copy of block 0 of the tile's row numbers is outstanding when it starts, and nothing has been written. The trip
  takes block 0 through slot 0 and block 1 through slot 1: each block's eight lists are reduced modulo 3 (the identity
  here), each list gathers its 128 rows of the table into a quarter of the rows buffer, and each pair of gathered quarters
  is copied out to two blocks of the tile's slice of the result. A gathered quarter holds the lookup's rows of the block
  its list names, so each pair copied out holds the lookup. At the trip's end the copy of block 2, the last two gathers of
  block 1 and the copy-out of blocks 12 and 13 are outstanding, which is what the invariant says of trip 1.
-/
import proofs.«205114_g12446815224155_cont_fleet_488_32_alg».proof.Proof.KWrap
import proofs.«205114_g12446815224155_cont_fleet_488_32_alg».proof.Proof.KBarrier
import proofs.«205114_g12446815224155_cont_fleet_488_32_alg».proof.Proof.KPieces
import proofs.«205114_g12446815224155_cont_fleet_488_32_alg».proof.Proof.KWrapLoops
import proofs.«205114_g12446815224155_cont_fleet_488_32_alg».proof.Proof.KGather
import proofs.«205114_g12446815224155_cont_fleet_488_32_alg».proof.Proof.KJoin
import proofs.«205114_g12446815224155_cont_fleet_488_32_alg».proof.Proof.KInv
import proofs.«205114_g12446815224155_cont_fleet_488_32_alg».proof.Proof.KGen
import proofs.«205114_g12446815224155_cont_fleet_488_32_alg».proof.Proof.KCleanOut
import proofs.«205114_g12446815224155_cont_fleet_488_32_alg».proof.Proof.KEpilogue

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}
local notation "𝕄" => MT nD τ sig (HIx 1) (Elt F) ℕ UU ℕ
local notation "iV" => (Memref.whole Cert.KernelIdeal.main_v0_scv : Memref Cert.KernelIdeal.sig Kind.scVector Space.hbm Cert.KernelIdeal.S3276800 EltTy.i32)
local notation "tV" => (Memref.whole Cert.KernelIdeal.main_arg1_scv : Memref Cert.KernelIdeal.sig Kind.scVector Space.hbm Cert.KernelIdeal.S3x128 EltTy.f32)
local notation "oV" => (Memref.whole Cert.KernelIdeal.main_v1_scv : Memref Cert.KernelIdeal.sig Kind.scVector Space.hbm Cert.KernelIdeal.S25600x128x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)

open Idealize.ShloMosaic.ValueIdx

variable (fi : (d : Dev nD) → Buf (Elt F) (idxLoc d)) (ft : (d : Dev nD) → Buf (Elt F) (tabLoc d)) (fo : (d : Dev nD) → Buf (Elt F) (oLoc d))
variable [FloatOps F]

set_option maxHeartbeats 32000000 in
theorem trip_first (hr : InRange (F := F) fi) (d : Dev nD) (L : grid0.Coords) (O : CellTallies nD τ sig (HIx 1)) (W : Waits sig (HIx 1))
    (v5 v6 : BitVec 32) (k : Fin k0_t1_loop.trips) (hk : k.val = 0) (acc : Unit) :
    Inv (F := F) fi ft fo d L O W k.val acc
      ⊢ wp frame (wpE (defs₀ (F := F)) 𝒱₀ (V d (cV L) (jV L)) none) Set.univ
          (k0_t1_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k acc)
          (Inv (F := F) fi ft fo d L O W (k.val + 1)) := by
  unfold Inv
  rw [dif_pos hk]
  unfold Base IdxPart First
  rw [dif_pos (by omega : k.val < 50)]
  iintro ⟨%hk50, ⟨#Hmw2, ⟨%W0, %hW0, HO⟩, Hs4, Hs5, Hs6, Hs10, Htok2, Htok3, Htoks9, Htrem⟩, ⟨HF0, Hi'⟩, ⟨%f0, Hsl1⟩, ⟨%frw, Hrw'⟩, Hs7, Hs8, Hs9, Htok4, Htok5, Ho, Hdone⟩
  have hg0 : 2 * k.val < 100 := by omega
  unfold IdxD0 idxBlk
  sl_unfold [k0_t1_body]
  sl_exec (disch := (clear * - k hk; decide +kernel +revert))
  -- block 2k of row numbers has landed in slot 0
  icases HF0_dst with ⟨%f1, Hsl0, %hs1⟩
  have hf1 := slot_range (F := F) fi hr d L 0 _ f1 hs1
  ihave Hsl0 := (Entails.of_eq (slot_lit_0 (F := F) d (cV L) (jV L) f1)) $$ Hsl0
  ihave Hls := (Entails.of_eq (slot_lists8 (F := F) d (cV L) (jV L) 0 f1)) $$ Hsl0
  icases Hls with ⟨Hl0, Hl1, Hl2, Hl3, Hl4, Hl5, Hl6, Hl7⟩
  ihave Hl0 := (Entails.of_eq (list_lit_0_0 (F := F) d (cV L) (jV L) f1).symm) $$ Hl0
  ihave Hl1 := (Entails.of_eq (list_lit_0_1 (F := F) d (cV L) (jV L) f1).symm) $$ Hl1
  ihave Hl2 := (Entails.of_eq (list_lit_0_2 (F := F) d (cV L) (jV L) f1).symm) $$ Hl2
  ihave Hl3 := (Entails.of_eq (list_lit_0_3 (F := F) d (cV L) (jV L) f1).symm) $$ Hl3
  ihave Hl4 := (Entails.of_eq (list_lit_0_4 (F := F) d (cV L) (jV L) f1).symm) $$ Hl4
  ihave Hl5 := (Entails.of_eq (list_lit_0_5 (F := F) d (cV L) (jV L) f1).symm) $$ Hl5
  ihave Hl6 := (Entails.of_eq (list_lit_0_6 (F := F) d (cV L) (jV L) f1).symm) $$ Hl6
  ihave Hl7 := (Entails.of_eq (list_lit_0_7 (F := F) d (cV L) (jV L) f1).symm) $$ Hl7
  -- the rows buffer by its four quarters
  ihave Hh := (Entails.of_eq (rw_halves (F := F) d (cV L) (jV L) frw)) $$ Hrw'
  icases Hh with ⟨Hh0, Hh1⟩
  ihave Hqa := (Entails.of_eq (half_quarters (F := F) d (cV L) (jV L) 0 frw)) $$ Hh0
  icases Hqa with ⟨Hq00, Hq01⟩
  ihave Hqb := (Entails.of_eq (half_quarters (F := F) d (cV L) (jV L) 1 frw)) $$ Hh1
  icases Hqb with ⟨Hq10, Hq11⟩
  ihave Hq00 := (Entails.of_eq (quarter_lit_0_0 (F := F) d (cV L) (jV L) frw).symm) $$ Hq00
  ihave Hq01 := (Entails.of_eq (quarter_lit_0_1 (F := F) d (cV L) (jV L) frw).symm) $$ Hq01
  ihave Hq10 := (Entails.of_eq (quarter_lit_1_0 (F := F) d (cV L) (jV L) frw).symm) $$ Hq10
  ihave Hq11 := (Entails.of_eq (quarter_lit_1_1 (F := F) d (cV L) (jV L) frw).symm) $$ Hq11
  -- the slot 1 as the next block's copy names it
  ihave Hsl1 := (Entails.of_eq (slot_lit_1 (F := F) d (cV L) (jV L) f0).symm) $$ Hsl1
  -- the bounds of the slice's two intervals, said through the trip's number
  ihave Ho := (Entails.of_eq (show (oLoc d ↦[rowsIn (wL L) 0 800]{fullShare} fo d : sProp 𝕄) = (oLoc d ↦[rowsIn (wL L) (16 * k.val) 800]{fullShare} fo d) from by rw [hk])) $$ Ho
  ihave Hdone := (Entails.of_eq (show (oLoc d ↦[rowsIn (wL L) 0 0]{fullShare} oDone fi ft d : sProp 𝕄) = (oLoc d ↦[rowsIn (wL L) 0 (16 * k.val)]{fullShare} oDone fi ft d) from by rw [hk])) $$ Hdone
  -- reduction of the list 0 of slot 0: each step stores back what it loaded
  have hfl0 : ListOK (F := F) 0 0 d (cV L) (jV L) f1 := listOK_of_slot (F := F) 0 d (cV L) (jV L) f1 hf1 0
  first
    | sl_for (inv_t2 (F := F) d L f1) $$ [Hl0]
    | (sl_rw [Idealize.SL.Sem.Prog.bind_assoc]; sl_for (inv_t2 (F := F) d L f1) $$ [Hl0])
  · intro k2 acc
    exact step_t2 (F := F) d L v5 v6 (0#32) (1#32) k f1 hfl0 k2 acc
  · iapply (Entails.of_eq (show ((((ibV).slice (Rect.unit (s := S2x1024) ![0, 0] S1x128.size inb_S2x1024_S1x128_0_0) (fun _ => rfl)).squeeze S128 squeezes_S1x128_S128).view.loc (V d (cV L) (jV L)) ↦[(((ibV).slice (Rect.unit (s := S2x1024) ![0, 0] S1x128.size inb_S2x1024_S1x128_0_0) (fun _ => rfl)).squeeze S128 squeezes_S1x128_S128).view.set]{fullShare} f1 : sProp 𝕄) = inv_t2 (F := F) d L f1 0 PUnit.unit from rfl)) $$ Hl0
  iintro %acc2 Hl0
  ihave Hl0 := (Entails.of_eq (show inv_t2 (F := F) d L f1 (Scf.trips k0_t2_loop.lb k0_t2_loop.ub k0_t2_loop.st) acc2 = ((((ibV).slice (Rect.unit (s := S2x1024) ![0, 0] S1x128.size inb_S2x1024_S1x128_0_0) (fun _ => rfl)).squeeze S128 squeezes_S1x128_S128).view.loc (V d (cV L) (jV L)) ↦[(((ibV).slice (Rect.unit (s := S2x1024) ![0, 0] S1x128.size inb_S2x1024_S1x128_0_0) (fun _ => rfl)).squeeze S128 squeezes_S1x128_S128).view.set]{fullShare} f1 : sProp 𝕄) from rfl)) $$ Hl0
  sl_exec (disch := (clear * - k hk; decide +kernel +revert))
  -- reduction of the list 1 of slot 0: each step stores back what it loaded
  have hfl1 : ListOK (F := F) 0 1 d (cV L) (jV L) f1 := listOK_of_slot (F := F) 0 d (cV L) (jV L) f1 hf1 1
  first
    | sl_for (inv_t3 (F := F) d L f1) $$ [Hl1]
    | (sl_rw [Idealize.SL.Sem.Prog.bind_assoc]; sl_for (inv_t3 (F := F) d L f1) $$ [Hl1])
  · intro k2 acc
    exact step_t3 (F := F) d L v5 v6 (0#32) (1#32) k f1 hfl1 k2 acc
  · iapply (Entails.of_eq (show ((((ibV).slice (Rect.unit (s := S2x1024) ![0, 128] S1x128.size inb_S2x1024_S1x128_0_128) (fun _ => rfl)).squeeze S128 squeezes_S1x128_S128).view.loc (V d (cV L) (jV L)) ↦[(((ibV).slice (Rect.unit (s := S2x1024) ![0, 128] S1x128.size inb_S2x1024_S1x128_0_128) (fun _ => rfl)).squeeze S128 squeezes_S1x128_S128).view.set]{fullShare} f1 : sProp 𝕄) = inv_t3 (F := F) d L f1 0 PUnit.unit from rfl)) $$ Hl1
  iintro %acc3 Hl1
  ihave Hl1 := (Entails.of_eq (show inv_t3 (F := F) d L f1 (Scf.trips k0_t3_loop.lb k0_t3_loop.ub k0_t3_loop.st) acc3 = ((((ibV).slice (Rect.unit (s := S2x1024) ![0, 128] S1x128.size inb_S2x1024_S1x128_0_128) (fun _ => rfl)).squeeze S128 squeezes_S1x128_S128).view.loc (V d (cV L) (jV L)) ↦[(((ibV).slice (Rect.unit (s := S2x1024) ![0, 128] S1x128.size inb_S2x1024_S1x128_0_128) (fun _ => rfl)).squeeze S128 squeezes_S1x128_S128).view.set]{fullShare} f1 : sProp 𝕄) from rfl)) $$ Hl1
  have hin0 : ∀ x, (((((ibV).slice (Rect.unit (s := S2x1024) ![0, 0] S1x128.size inb_S2x1024_S1x128_0_0) (fun _ => rfl)).squeeze S128 squeezes_S1x128_S128).view.read (Elt F) f1 x : BitVec 32)).toNat < S3x128.size (gathers_S3x128_S128x128).axis :=
    gather_hin gathers_S3x128_S128x128 _ hfl0
  sl_exec (disch := (clear * - k hk; decide +kernel +revert))
  -- reduction of the list 2 of slot 0: each step stores back what it loaded
  have hfl2 : ListOK (F := F) 0 2 d (cV L) (jV L) f1 := listOK_of_slot (F := F) 0 d (cV L) (jV L) f1 hf1 2
  first
    | sl_for (inv_t4 (F := F) d L f1) $$ [Hl2]
    | (sl_rw [Idealize.SL.Sem.Prog.bind_assoc]; sl_for (inv_t4 (F := F) d L f1) $$ [Hl2])
  · intro k2 acc
    exact step_t4 (F := F) d L v5 v6 (0#32) (1#32) k f1 hfl2 k2 acc
  · iapply (Entails.of_eq (show ((((ibV).slice (Rect.unit (s := S2x1024) ![0, 256] S1x128.size inb_S2x1024_S1x128_0_256) (fun _ => rfl)).squeeze S128 squeezes_S1x128_S128).view.loc (V d (cV L) (jV L)) ↦[(((ibV).slice (Rect.unit (s := S2x1024) ![0, 256] S1x128.size inb_S2x1024_S1x128_0_256) (fun _ => rfl)).squeeze S128 squeezes_S1x128_S128).view.set]{fullShare} f1 : sProp 𝕄) = inv_t4 (F := F) d L f1 0 PUnit.unit from rfl)) $$ Hl2
  iintro %acc4 Hl2
  ihave Hl2 := (Entails.of_eq (show inv_t4 (F := F) d L f1 (Scf.trips k0_t4_loop.lb k0_t4_loop.ub k0_t4_loop.st) acc4 = ((((ibV).slice (Rect.unit (s := S2x1024) ![0, 256] S1x128.size inb_S2x1024_S1x128_0_256) (fun _ => rfl)).squeeze S128 squeezes_S1x128_S128).view.loc (V d (cV L) (jV L)) ↦[(((ibV).slice (Rect.unit (s := S2x1024) ![0, 256] S1x128.size inb_S2x1024_S1x128_0_256) (fun _ => rfl)).squeeze S128 squeezes_S1x128_S128).view.set]{fullShare} f1 : sProp 𝕄) from rfl)) $$ Hl2
  have hin1 : ∀ x, (((((ibV).slice (Rect.unit (s := S2x1024) ![0, 128] S1x128.size inb_S2x1024_S1x128_0_128) (fun _ => rfl)).squeeze S128 squeezes_S1x128_S128).view.read (Elt F) f1 x : BitVec 32)).toNat < S3x128.size (gathers_S3x128_S128x128).axis :=
    gather_hin gathers_S3x128_S128x128 _ hfl1
  sl_exec (disch := (clear * - k hk; decide +kernel +revert))
  -- reduction of the list 3 of slot 0: each step stores back what it loaded
  have hfl3 : ListOK (F := F) 0 3 d (cV L) (jV L) f1 := listOK_of_slot (F := F) 0 d (cV L) (jV L) f1 hf1 3
  first
    | sl_for (inv_t5 (F := F) d L f1) $$ [Hl3]
    | (sl_rw [Idealize.SL.Sem.Prog.bind_assoc]; sl_for (inv_t5 (F := F) d L f1) $$ [Hl3])
  · intro k2 acc
    exact step_t5 (F := F) d L v5 v6 k (0#32) (0#1) f1 hfl3 k2 acc
  · iapply (Entails.of_eq (show ((((ibV).slice (Rect.unit (s := S2x1024) ![0, 384] S1x128.size inb_S2x1024_S1x128_0_384) (fun _ => rfl)).squeeze S128 squeezes_S1x128_S128).view.loc (V d (cV L) (jV L)) ↦[(((ibV).slice (Rect.unit (s := S2x1024) ![0, 384] S1x128.size inb_S2x1024_S1x128_0_384) (fun _ => rfl)).squeeze S128 squeezes_S1x128_S128).view.set]{fullShare} f1 : sProp 𝕄) = inv_t5 (F := F) d L f1 0 PUnit.unit from rfl)) $$ Hl3
  iintro %acc5 Hl3
  ihave Hl3 := (Entails.of_eq (show inv_t5 (F := F) d L f1 (Scf.trips k0_t5_loop.lb k0_t5_loop.ub k0_t5_loop.st) acc5 = ((((ibV).slice (Rect.unit (s := S2x1024) ![0, 384] S1x128.size inb_S2x1024_S1x128_0_384) (fun _ => rfl)).squeeze S128 squeezes_S1x128_S128).view.loc (V d (cV L) (jV L)) ↦[(((ibV).slice (Rect.unit (s := S2x1024) ![0, 384] S1x128.size inb_S2x1024_S1x128_0_384) (fun _ => rfl)).squeeze S128 squeezes_S1x128_S128).view.set]{fullShare} f1 : sProp 𝕄) from rfl)) $$ Hl3
  have hin2 : ∀ x, (((((ibV).slice (Rect.unit (s := S2x1024) ![0, 256] S1x128.size inb_S2x1024_S1x128_0_256) (fun _ => rfl)).squeeze S128 squeezes_S1x128_S128).view.read (Elt F) f1 x : BitVec 32)).toNat < S3x128.size (gathers_S3x128_S128x128).axis :=
    gather_hin gathers_S3x128_S128x128 _ hfl2
  sl_exec (disch := (clear * - k hk; decide +kernel +revert))
  have hg1 : 2 * k.val + 1 < 100 := by omega
  have hoffI1 : _ = (![102400 * (wL L).val + 1024 * (2 * k.val + 1)] : Fin 1 → ℕ) := (k0_off9_eq L k).trans (congrArg (fun n => (![n] : Fin 1 → ℕ)) (by show _ = 102400 * ((L 1).val * 2 + (L 0).val) + 1024 * (2 * k.val + 1); omega))
  sl_unfold_run_names
  ihave Hs4 := (idx_clean1 (F := F) fi hr d L _ _ _ _ _ (2 * k.val + 1) hg1 hoffI1) $$ Hs4
  ihave Hi' := (Entails.of_eq (idx_rest (F := F) fi d L _ (2 * k.val + 1) hg1 hoffI1)) $$ Hi'
  -- reduction of the list 4 of slot 0: each step stores back what it loaded
  have hfl4 : ListOK (F := F) 0 4 d (cV L) (jV L) f1 := listOK_of_slot (F := F) 0 d (cV L) (jV L) f1 hf1 4
  first
    | sl_for (inv_t6 (F := F) d L f1) $$ [Hl4]
    | (sl_rw [Idealize.SL.Sem.Prog.bind_assoc]; sl_for (inv_t6 (F := F) d L f1) $$ [Hl4])
  · intro k2 acc
    exact step_t6 (F := F) d L v5 v6 k (0#32) (0#1) f1 hfl4 k2 acc
  · iapply (Entails.of_eq (show ((((ibV).slice (Rect.unit (s := S2x1024) ![0, 512] S1x128.size inb_S2x1024_S1x128_0_512) (fun _ => rfl)).squeeze S128 squeezes_S1x128_S128).view.loc (V d (cV L) (jV L)) ↦[(((ibV).slice (Rect.unit (s := S2x1024) ![0, 512] S1x128.size inb_S2x1024_S1x128_0_512) (fun _ => rfl)).squeeze S128 squeezes_S1x128_S128).view.set]{fullShare} f1 : sProp 𝕄) = inv_t6 (F := F) d L f1 0 PUnit.unit from rfl)) $$ Hl4
  iintro %acc6 Hl4
  ihave Hl4 := (Entails.of_eq (show inv_t6 (F := F) d L f1 (Scf.trips k0_t6_loop.lb k0_t6_loop.ub k0_t6_loop.st) acc6 = ((((ibV).slice (Rect.unit (s := S2x1024) ![0, 512] S1x128.size inb_S2x1024_S1x128_0_512) (fun _ => rfl)).squeeze S128 squeezes_S1x128_S128).view.loc (V d (cV L) (jV L)) ↦[(((ibV).slice (Rect.unit (s := S2x1024) ![0, 512] S1x128.size inb_S2x1024_S1x128_0_512) (fun _ => rfl)).squeeze S128 squeezes_S1x128_S128).view.set]{fullShare} f1 : sProp 𝕄) from rfl)) $$ Hl4
  sl_exec (disch := (clear * - k hk; decide +kernel +revert))
  ihave Hg := (pts_name (F := F) _ _ _) $$ Hq00
  icases Hg with ⟨%a0_0, Hq00, %ea0_0⟩
  have hqa0_0 : QuarterIs fi ft d L 0 0 (8 * (2 * k.val) + 0) a0_0 := by
    rw [ea0_0]; exact gather_fact (F := F) fi ft hr d L 0 0 0 0 (2 * k.val) hg0 f1 hs1 _ _ _
  ihave Hg := (pts_name (F := F) _ _ _) $$ Hq01
  icases Hg with ⟨%a0_1, Hq01, %ea0_1⟩
  have hqa0_1 : QuarterIs fi ft d L 0 1 (8 * (2 * k.val) + 1) a0_1 := by
    rw [ea0_1]; exact gather_fact (F := F) fi ft hr d L 0 1 0 1 (2 * k.val) hg0 f1 hs1 _ _ _
  -- the two gathered quarters of half 0, joined into the half the copy-out reads
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 _ _) $$ [Hq00 Hq01]
  · isplitl [Hq00] <;> iassumption
  ihave Hh0 := (Entails.of_eq (half_lit_0 (F := F) d (cV L) (jV L) _).symm) $$ Hh0
  have hoff0 : _ = (![800 * (wL L).val + (16 * k.val), 0, 0] : Fin 3 → ℕ) := (k0_off12_eq L k 0 0).trans (congrArg (fun n => (![n, 0, 0] : Fin 3 → ℕ)) (by show _ = 800 * ((L 1).val * 2 + (L 0).val) + (16 * k.val); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 0 0) (lo := 16 * k.val) hoff0 (by omega) (fo d)) $$ Ho
  icases Hp with ⟨Hp0, Ho⟩
  sl_exec (disch := (clear * - k hk; decide +kernel +revert))
  sl_unfold_run_names
  ihave Hs9 := (out_clean0 (F := F) fi ft d L _ _ _ (fo d) a0_0 a0_1 (k0_off12_inb L k 0 0) (16 * k.val) (by omega) hoff0 (QuarterIs_cast (F := F) fi ft (by omega) hqa0_0) (QuarterIs_cast (F := F) fi ft (by omega) hqa0_1)) $$ Hs9
  unfold OutD0
  have hin3 : ∀ x, (((((ibV).slice (Rect.unit (s := S2x1024) ![0, 384] S1x128.size inb_S2x1024_S1x128_0_384) (fun _ => rfl)).squeeze S128 squeezes_S1x128_S128).view.read (Elt F) f1 x : BitVec 32)).toNat < S3x128.size (gathers_S3x128_S128x128).axis :=
    gather_hin gathers_S3x128_S128x128 _ hfl3
  sl_exec (disch := (clear * - k hk; decide +kernel +revert))
  -- reduction of the list 5 of slot 0: each step stores back what it loaded
  have hfl5 : ListOK (F := F) 0 5 d (cV L) (jV L) f1 := listOK_of_slot (F := F) 0 d (cV L) (jV L) f1 hf1 5
  first
    | sl_for (inv_t7 (F := F) d L f1) $$ [Hl5]
    | (sl_rw [Idealize.SL.Sem.Prog.bind_assoc]; sl_for (inv_t7 (F := F) d L f1) $$ [Hl5])
  · intro k2 acc
    exact step_t7 (F := F) d L v6 f1 hfl5 k2 acc
  · iapply (Entails.of_eq (show ((((ibV).slice (Rect.unit (s := S2x1024) ![0, 640] S1x128.size inb_S2x1024_S1x128_0_640) (fun _ => rfl)).squeeze S128 squeezes_S1x128_S128).view.loc (V d (cV L) (jV L)) ↦[(((ibV).slice (Rect.unit (s := S2x1024) ![0, 640] S1x128.size inb_S2x1024_S1x128_0_640) (fun _ => rfl)).squeeze S128 squeezes_S1x128_S128).view.set]{fullShare} f1 : sProp 𝕄) = inv_t7 (F := F) d L f1 0 PUnit.unit from rfl)) $$ Hl5
  iintro %acc7 Hl5
  ihave Hl5 := (Entails.of_eq (show inv_t7 (F := F) d L f1 (Scf.trips k0_t7_loop.lb k0_t7_loop.ub k0_t7_loop.st) acc7 = ((((ibV).slice (Rect.unit (s := S2x1024) ![0, 640] S1x128.size inb_S2x1024_S1x128_0_640) (fun _ => rfl)).squeeze S128 squeezes_S1x128_S128).view.loc (V d (cV L) (jV L)) ↦[(((ibV).slice (Rect.unit (s := S2x1024) ![0, 640] S1x128.size inb_S2x1024_S1x128_0_640) (fun _ => rfl)).squeeze S128 squeezes_S1x128_S128).view.set]{fullShare} f1 : sProp 𝕄) from rfl)) $$ Hl5
  sl_exec (disch := (clear * - k hk; decide +kernel +revert))
  icases Hs9_dst with ⟨%gp0, Hp0, %hgp0⟩
  ihave Hdone := (done_add (F := F) d (cV L) (jV L) (wL L) (pairIn L (16 * k.val) (by omega)) (lo := 16 * k.val) rfl gp0 (oDone fi ft d) hgp0) $$ [Hdone Hp0]
  · isplitl [Hdone] <;> iassumption
  ihave Hh0 := (Entails.of_eq (half_lit_0 (F := F) d (cV L) (jV L) _)) $$ Hs9_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  have hin4 : ∀ x, (((((ibV).slice (Rect.unit (s := S2x1024) ![0, 512] S1x128.size inb_S2x1024_S1x128_0_512) (fun _ => rfl)).squeeze S128 squeezes_S1x128_S128).view.read (Elt F) f1 x : BitVec 32)).toNat < S3x128.size (gathers_S3x128_S128x128).axis :=
    gather_hin gathers_S3x128_S128x128 _ hfl4
  sl_exec (disch := (clear * - k hk; decide +kernel +revert))
  -- reduction of the list 6 of slot 0: each step stores back what it loaded
  have hfl6 : ListOK (F := F) 0 6 d (cV L) (jV L) f1 := listOK_of_slot (F := F) 0 d (cV L) (jV L) f1 hf1 6
  first
    | sl_for (inv_t8 (F := F) d L f1) $$ [Hl6]
    | (sl_rw [Idealize.SL.Sem.Prog.bind_assoc]; sl_for (inv_t8 (F := F) d L f1) $$ [Hl6])
  · intro k2 acc
    exact step_t8 (F := F) d L v6 f1 hfl6 k2 acc
  · iapply (Entails.of_eq (show ((((ibV).slice (Rect.unit (s := S2x1024) ![0, 768] S1x128.size inb_S2x1024_S1x128_0_768) (fun _ => rfl)).squeeze S128 squeezes_S1x128_S128).view.loc (V d (cV L) (jV L)) ↦[(((ibV).slice (Rect.unit (s := S2x1024) ![0, 768] S1x128.size inb_S2x1024_S1x128_0_768) (fun _ => rfl)).squeeze S128 squeezes_S1x128_S128).view.set]{fullShare} f1 : sProp 𝕄) = inv_t8 (F := F) d L f1 0 PUnit.unit from rfl)) $$ Hl6
  iintro %acc8 Hl6
  ihave Hl6 := (Entails.of_eq (show inv_t8 (F := F) d L f1 (Scf.trips k0_t8_loop.lb k0_t8_loop.ub k0_t8_loop.st) acc8 = ((((ibV).slice (Rect.unit (s := S2x1024) ![0, 768] S1x128.size inb_S2x1024_S1x128_0_768) (fun _ => rfl)).squeeze S128 squeezes_S1x128_S128).view.loc (V d (cV L) (jV L)) ↦[(((ibV).slice (Rect.unit (s := S2x1024) ![0, 768] S1x128.size inb_S2x1024_S1x128_0_768) (fun _ => rfl)).squeeze S128 squeezes_S1x128_S128).view.set]{fullShare} f1 : sProp 𝕄) from rfl)) $$ Hl6
  sl_exec (disch := (clear * - k hk; decide +kernel +revert))
  ihave Hg := (pts_name (F := F) _ _ _) $$ Hq10
  icases Hg with ⟨%a0_2, Hq10, %ea0_2⟩
  have hqa0_2 : QuarterIs fi ft d L 1 0 (8 * (2 * k.val) + 2) a0_2 := by
    rw [ea0_2]; exact gather_fact (F := F) fi ft hr d L 0 2 1 0 (2 * k.val) hg0 f1 hs1 _ _ _
  ihave Hg := (pts_name (F := F) _ _ _) $$ Hq11
  icases Hg with ⟨%a0_3, Hq11, %ea0_3⟩
  have hqa0_3 : QuarterIs fi ft d L 1 1 (8 * (2 * k.val) + 3) a0_3 := by
    rw [ea0_3]; exact gather_fact (F := F) fi ft hr d L 0 3 1 1 (2 * k.val) hg0 f1 hs1 _ _ _
  -- the two gathered quarters of half 1, joined into the half the copy-out reads
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 _ _) $$ [Hq10 Hq11]
  · isplitl [Hq10] <;> iassumption
  ihave Hh1 := (Entails.of_eq (half_lit_1 (F := F) d (cV L) (jV L) _).symm) $$ Hh1
  have hoff1 : _ = (![800 * (wL L).val + (16 * k.val + 2), 0, 0] : Fin 3 → ℕ) := (k0_off12_eq L k 0 1).trans (congrArg (fun n => (![n, 0, 0] : Fin 3 → ℕ)) (by show _ = 800 * ((L 1).val * 2 + (L 0).val) + (16 * k.val + 2); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 0 1) (lo := 16 * k.val + 2) hoff1 (by omega) (fo d)) $$ Ho
  icases Hp with ⟨Hp1, Ho⟩
  ihave Ho := (Entails.of_eq (show (oLoc d ↦[rowsIn (wL L) (16 * k.val + 2 + 2) 800]{fullShare} fo d : sProp 𝕄) = (oLoc d ↦[rowsIn (wL L) (16 * k.val + 4) 800]{fullShare} fo d) from by rw [show 16 * k.val + 2 + 2 = 16 * k.val + 4 from by omega])) $$ Ho
  sl_exec (disch := (clear * - k hk; decide +kernel +revert))
  sl_unfold_run_names
  ihave Hs10 := (out_clean1 (F := F) fi ft d L _ _ _ (fo d) a0_2 a0_3 (k0_off12_inb L k 0 1) (16 * k.val + 2) (by omega) hoff1 (QuarterIs_cast (F := F) fi ft (by omega) hqa0_2) (QuarterIs_cast (F := F) fi ft (by omega) hqa0_3)) $$ Hs10
  unfold OutD1
  have hin5 : ∀ x, (((((ibV).slice (Rect.unit (s := S2x1024) ![0, 640] S1x128.size inb_S2x1024_S1x128_0_640) (fun _ => rfl)).squeeze S128 squeezes_S1x128_S128).view.read (Elt F) f1 x : BitVec 32)).toNat < S3x128.size (gathers_S3x128_S128x128).axis :=
    gather_hin gathers_S3x128_S128x128 _ hfl5
  sl_exec (disch := (clear * - k hk; decide +kernel +revert))
  -- reduction of the list 7 of slot 0: each step stores back what it loaded
  have hfl7 : ListOK (F := F) 0 7 d (cV L) (jV L) f1 := listOK_of_slot (F := F) 0 d (cV L) (jV L) f1 hf1 7
  first
    | sl_for (inv_t9 (F := F) d L f1) $$ [Hl7]
    | (sl_rw [Idealize.SL.Sem.Prog.bind_assoc]; sl_for (inv_t9 (F := F) d L f1) $$ [Hl7])
  · intro k2 acc
    exact step_t9 (F := F) d L v6 (0#32) f1 hfl7 k2 acc
  · iapply (Entails.of_eq (show ((((ibV).slice (Rect.unit (s := S2x1024) ![0, 896] S1x128.size inb_S2x1024_S1x128_0_896) (fun _ => rfl)).squeeze S128 squeezes_S1x128_S128).view.loc (V d (cV L) (jV L)) ↦[(((ibV).slice (Rect.unit (s := S2x1024) ![0, 896] S1x128.size inb_S2x1024_S1x128_0_896) (fun _ => rfl)).squeeze S128 squeezes_S1x128_S128).view.set]{fullShare} f1 : sProp 𝕄) = inv_t9 (F := F) d L f1 0 PUnit.unit from rfl)) $$ Hl7
  iintro %acc9 Hl7
  ihave Hl7 := (Entails.of_eq (show inv_t9 (F := F) d L f1 (Scf.trips k0_t9_loop.lb k0_t9_loop.ub k0_t9_loop.st) acc9 = ((((ibV).slice (Rect.unit (s := S2x1024) ![0, 896] S1x128.size inb_S2x1024_S1x128_0_896) (fun _ => rfl)).squeeze S128 squeezes_S1x128_S128).view.loc (V d (cV L) (jV L)) ↦[(((ibV).slice (Rect.unit (s := S2x1024) ![0, 896] S1x128.size inb_S2x1024_S1x128_0_896) (fun _ => rfl)).squeeze S128 squeezes_S1x128_S128).view.set]{fullShare} f1 : sProp 𝕄) from rfl)) $$ Hl7
  sl_exec (disch := (clear * - k hk; decide +kernel +revert))
  icases Hs10_dst with ⟨%gp1, Hp1, %hgp1⟩
  ihave Hdone := (done_add (F := F) d (cV L) (jV L) (wL L) (pairIn L (16 * k.val + 2) (by omega)) (lo := 16 * k.val + 2) rfl gp1 (oDone fi ft d) hgp1) $$ [Hdone Hp1]
  · isplitl [Hdone] <;> iassumption
  ihave Hdone := (Entails.of_eq (show (oLoc d ↦[rowsIn (wL L) 0 (16 * k.val + 2 + 2)]{fullShare} oDone fi ft d : sProp 𝕄) = (oLoc d ↦[rowsIn (wL L) 0 (16 * k.val + 4)]{fullShare} oDone fi ft d) from by rw [show 16 * k.val + 2 + 2 = 16 * k.val + 4 from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  have hin6 : ∀ x, (((((ibV).slice (Rect.unit (s := S2x1024) ![0, 768] S1x128.size inb_S2x1024_S1x128_0_768) (fun _ => rfl)).squeeze S128 squeezes_S1x128_S128).view.read (Elt F) f1 x : BitVec 32)).toNat < S3x128.size (gathers_S3x128_S128x128).axis :=
    gather_hin gathers_S3x128_S128x128 _ hfl6
  sl_exec (disch := (clear * - k hk; decide +kernel +revert))
  ihave Hg := (pts_name (F := F) _ _ _) $$ Hq00
  icases Hg with ⟨%a0_4, Hq00, %ea0_4⟩
  have hqa0_4 : QuarterIs fi ft d L 0 0 (8 * (2 * k.val) + 4) a0_4 := by
    rw [ea0_4]; exact gather_fact (F := F) fi ft hr d L 0 4 0 0 (2 * k.val) hg0 f1 hs1 _ _ _
  ihave Hg := (pts_name (F := F) _ _ _) $$ Hq01
  icases Hg with ⟨%a0_5, Hq01, %ea0_5⟩
  have hqa0_5 : QuarterIs fi ft d L 0 1 (8 * (2 * k.val) + 5) a0_5 := by
    rw [ea0_5]; exact gather_fact (F := F) fi ft hr d L 0 5 0 1 (2 * k.val) hg0 f1 hs1 _ _ _
  -- the two gathered quarters of half 0, joined into the half the copy-out reads
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 _ _) $$ [Hq00 Hq01]
  · isplitl [Hq00] <;> iassumption
  ihave Hh0 := (Entails.of_eq (half_lit_0 (F := F) d (cV L) (jV L) _).symm) $$ Hh0
  have hoff2 : _ = (![800 * (wL L).val + (16 * k.val + 4), 0, 0] : Fin 3 → ℕ) := (k0_off12_eq L k 0 2).trans (congrArg (fun n => (![n, 0, 0] : Fin 3 → ℕ)) (by show _ = 800 * ((L 1).val * 2 + (L 0).val) + (16 * k.val + 4); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 0 2) (lo := 16 * k.val + 4) hoff2 (by omega) (fo d)) $$ Ho
  icases Hp with ⟨Hp2, Ho⟩
  ihave Ho := (Entails.of_eq (show (oLoc d ↦[rowsIn (wL L) (16 * k.val + 4 + 2) 800]{fullShare} fo d : sProp 𝕄) = (oLoc d ↦[rowsIn (wL L) (16 * k.val + 6) 800]{fullShare} fo d) from by rw [show 16 * k.val + 4 + 2 = 16 * k.val + 6 from by omega])) $$ Ho
  sl_exec (disch := (clear * - k hk; decide +kernel +revert))
  sl_unfold_run_names
  ihave Hs9 := (out_clean0 (F := F) fi ft d L _ _ _ (fo d) a0_4 a0_5 (k0_off12_inb L k 0 2) (16 * k.val + 4) (by omega) hoff2 (QuarterIs_cast (F := F) fi ft (by omega) hqa0_4) (QuarterIs_cast (F := F) fi ft (by omega) hqa0_5)) $$ Hs9
  unfold OutD0
  have hin7 : ∀ x, (((((ibV).slice (Rect.unit (s := S2x1024) ![0, 896] S1x128.size inb_S2x1024_S1x128_0_896) (fun _ => rfl)).squeeze S128 squeezes_S1x128_S128).view.read (Elt F) f1 x : BitVec 32)).toNat < S3x128.size (gathers_S3x128_S128x128).axis :=
    gather_hin gathers_S3x128_S128x128 _ hfl7
  unfold IdxD1 idxBlk
  sl_exec (disch := (clear * - k hk; decide +kernel +revert))
  -- block 2k+1 of row numbers has landed in slot 1
  icases Hs4_dst with ⟨%f2, Hsl1, %hs2⟩
  have hf2 := slot_range (F := F) fi hr d L 1 _ f2 hs2
  ihave Hsl1 := (Entails.of_eq (slot_lit_1 (F := F) d (cV L) (jV L) f2)) $$ Hsl1
  ihave Hls := (Entails.of_eq (slot_lists8 (F := F) d (cV L) (jV L) 1 f2)) $$ Hsl1
  icases Hls with ⟨Hm0, Hm1, Hm2, Hm3, Hm4, Hm5, Hm6, Hm7⟩
  ihave Hm0 := (Entails.of_eq (list_lit_1_0 (F := F) d (cV L) (jV L) f2).symm) $$ Hm0
  ihave Hm1 := (Entails.of_eq (list_lit_1_1 (F := F) d (cV L) (jV L) f2).symm) $$ Hm1
  ihave Hm2 := (Entails.of_eq (list_lit_1_2 (F := F) d (cV L) (jV L) f2).symm) $$ Hm2
  ihave Hm3 := (Entails.of_eq (list_lit_1_3 (F := F) d (cV L) (jV L) f2).symm) $$ Hm3
  ihave Hm4 := (Entails.of_eq (list_lit_1_4 (F := F) d (cV L) (jV L) f2).symm) $$ Hm4
  ihave Hm5 := (Entails.of_eq (list_lit_1_5 (F := F) d (cV L) (jV L) f2).symm) $$ Hm5
  ihave Hm6 := (Entails.of_eq (list_lit_1_6 (F := F) d (cV L) (jV L) f2).symm) $$ Hm6
  ihave Hm7 := (Entails.of_eq (list_lit_1_7 (F := F) d (cV L) (jV L) f2).symm) $$ Hm7
  -- reduction of the list 0 of slot 1: each step stores back what it loaded
  have hfm0 : ListOK (F := F) 1 0 d (cV L) (jV L) f2 := listOK_of_slot (F := F) 1 d (cV L) (jV L) f2 hf2 0
  first
    | sl_for (inv_t10 (F := F) d L f2) $$ [Hm0]
    | (sl_rw [Idealize.SL.Sem.Prog.bind_assoc]; sl_for (inv_t10 (F := F) d L f2) $$ [Hm0])
  · intro k2 acc
    exact step_t10 (F := F) d L v6 k (0#32) (0#32) f2 hfm0 k2 acc
  · iapply (Entails.of_eq (show ((((ibV).slice (Rect.unit (s := S2x1024) ![1, 0] S1x128.size inb_S2x1024_S1x128_1_0) (fun _ => rfl)).squeeze S128 squeezes_S1x128_S128).view.loc (V d (cV L) (jV L)) ↦[(((ibV).slice (Rect.unit (s := S2x1024) ![1, 0] S1x128.size inb_S2x1024_S1x128_1_0) (fun _ => rfl)).squeeze S128 squeezes_S1x128_S128).view.set]{fullShare} f2 : sProp 𝕄) = inv_t10 (F := F) d L f2 0 PUnit.unit from rfl)) $$ Hm0
  iintro %acc10 Hm0
  ihave Hm0 := (Entails.of_eq (show inv_t10 (F := F) d L f2 (Scf.trips k0_t10_loop.lb k0_t10_loop.ub k0_t10_loop.st) acc10 = ((((ibV).slice (Rect.unit (s := S2x1024) ![1, 0] S1x128.size inb_S2x1024_S1x128_1_0) (fun _ => rfl)).squeeze S128 squeezes_S1x128_S128).view.loc (V d (cV L) (jV L)) ↦[(((ibV).slice (Rect.unit (s := S2x1024) ![1, 0] S1x128.size inb_S2x1024_S1x128_1_0) (fun _ => rfl)).squeeze S128 squeezes_S1x128_S128).view.set]{fullShare} f2 : sProp 𝕄) from rfl)) $$ Hm0
  sl_exec (disch := (clear * - k hk; decide +kernel +revert))
  -- reduction of the list 1 of slot 1: each step stores back what it loaded
  have hfm1 : ListOK (F := F) 1 1 d (cV L) (jV L) f2 := listOK_of_slot (F := F) 1 d (cV L) (jV L) f2 hf2 1
  first
    | sl_for (inv_t11 (F := F) d L f2) $$ [Hm1]
    | (sl_rw [Idealize.SL.Sem.Prog.bind_assoc]; sl_for (inv_t11 (F := F) d L f2) $$ [Hm1])
  · intro k2 acc
    exact step_t11 (F := F) d L v6 k (0#32) (0#32) f2 hfm1 k2 acc
  · iapply (Entails.of_eq (show ((((ibV).slice (Rect.unit (s := S2x1024) ![1, 128] S1x128.size inb_S2x1024_S1x128_1_128) (fun _ => rfl)).squeeze S128 squeezes_S1x128_S128).view.loc (V d (cV L) (jV L)) ↦[(((ibV).slice (Rect.unit (s := S2x1024) ![1, 128] S1x128.size inb_S2x1024_S1x128_1_128) (fun _ => rfl)).squeeze S128 squeezes_S1x128_S128).view.set]{fullShare} f2 : sProp 𝕄) = inv_t11 (F := F) d L f2 0 PUnit.unit from rfl)) $$ Hm1
  iintro %acc11 Hm1
  ihave Hm1 := (Entails.of_eq (show inv_t11 (F := F) d L f2 (Scf.trips k0_t11_loop.lb k0_t11_loop.ub k0_t11_loop.st) acc11 = ((((ibV).slice (Rect.unit (s := S2x1024) ![1, 128] S1x128.size inb_S2x1024_S1x128_1_128) (fun _ => rfl)).squeeze S128 squeezes_S1x128_S128).view.loc (V d (cV L) (jV L)) ↦[(((ibV).slice (Rect.unit (s := S2x1024) ![1, 128] S1x128.size inb_S2x1024_S1x128_1_128) (fun _ => rfl)).squeeze S128 squeezes_S1x128_S128).view.set]{fullShare} f2 : sProp 𝕄) from rfl)) $$ Hm1
  sl_exec (disch := (clear * - k hk; decide +kernel +revert))
  icases Hs9_dst with ⟨%gp2, Hp2, %hgp2⟩
  ihave Hdone := (done_add (F := F) d (cV L) (jV L) (wL L) (pairIn L (16 * k.val + 4) (by omega)) (lo := 16 * k.val + 4) rfl gp2 (oDone fi ft d) hgp2) $$ [Hdone Hp2]
  · isplitl [Hdone] <;> iassumption
  ihave Hdone := (Entails.of_eq (show (oLoc d ↦[rowsIn (wL L) 0 (16 * k.val + 4 + 2)]{fullShare} oDone fi ft d : sProp 𝕄) = (oLoc d ↦[rowsIn (wL L) 0 (16 * k.val + 6)]{fullShare} oDone fi ft d) from by rw [show 16 * k.val + 4 + 2 = 16 * k.val + 6 from by omega])) $$ Hdone
  ihave Hh0 := (Entails.of_eq (half_lit_0 (F := F) d (cV L) (jV L) _)) $$ Hs9_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  have him0 : ∀ x, (((((ibV).slice (Rect.unit (s := S2x1024) ![1, 0] S1x128.size inb_S2x1024_S1x128_1_0) (fun _ => rfl)).squeeze S128 squeezes_S1x128_S128).view.read (Elt F) f2 x : BitVec 32)).toNat < S3x128.size (gathers_S3x128_S128x128).axis :=
    gather_hin gathers_S3x128_S128x128 _ hfm0
  sl_exec (disch := (clear * - k hk; decide +kernel +revert))
  -- reduction of the list 2 of slot 1: each step stores back what it loaded
  have hfm2 : ListOK (F := F) 1 2 d (cV L) (jV L) f2 := listOK_of_slot (F := F) 1 d (cV L) (jV L) f2 hf2 2
  first
    | sl_for (inv_t12 (F := F) d L f2) $$ [Hm2]
    | (sl_rw [Idealize.SL.Sem.Prog.bind_assoc]; sl_for (inv_t12 (F := F) d L f2) $$ [Hm2])
  · intro k2 acc
    exact step_t12 (F := F) d L v6 k (0#32) (0#32) f2 hfm2 k2 acc
  · iapply (Entails.of_eq (show ((((ibV).slice (Rect.unit (s := S2x1024) ![1, 256] S1x128.size inb_S2x1024_S1x128_1_256) (fun _ => rfl)).squeeze S128 squeezes_S1x128_S128).view.loc (V d (cV L) (jV L)) ↦[(((ibV).slice (Rect.unit (s := S2x1024) ![1, 256] S1x128.size inb_S2x1024_S1x128_1_256) (fun _ => rfl)).squeeze S128 squeezes_S1x128_S128).view.set]{fullShare} f2 : sProp 𝕄) = inv_t12 (F := F) d L f2 0 PUnit.unit from rfl)) $$ Hm2
  iintro %acc12 Hm2
  ihave Hm2 := (Entails.of_eq (show inv_t12 (F := F) d L f2 (Scf.trips k0_t12_loop.lb k0_t12_loop.ub k0_t12_loop.st) acc12 = ((((ibV).slice (Rect.unit (s := S2x1024) ![1, 256] S1x128.size inb_S2x1024_S1x128_1_256) (fun _ => rfl)).squeeze S128 squeezes_S1x128_S128).view.loc (V d (cV L) (jV L)) ↦[(((ibV).slice (Rect.unit (s := S2x1024) ![1, 256] S1x128.size inb_S2x1024_S1x128_1_256) (fun _ => rfl)).squeeze S128 squeezes_S1x128_S128).view.set]{fullShare} f2 : sProp 𝕄) from rfl)) $$ Hm2
  sl_exec (disch := (clear * - k hk; decide +kernel +revert))
  have hc7 : k0_cond7 k = 1#1 := (by decide +kernel : ∀ k : Fin k0_t1_loop.trips, k0_cond7 k = 1#1) k
  ihave Hg := (pts_name (F := F) _ _ _) $$ Hq10
  icases Hg with ⟨%a0_6, Hq10, %ea0_6⟩
  have hqa0_6 : QuarterIs fi ft d L 1 0 (8 * (2 * k.val) + 6) a0_6 := by
    rw [ea0_6]; exact gather_fact (F := F) fi ft hr d L 0 6 1 0 (2 * k.val) hg0 f1 hs1 _ _ _
  ihave Hg := (pts_name (F := F) _ _ _) $$ Hq11
  icases Hg with ⟨%a0_7, Hq11, %ea0_7⟩
  have hqa0_7 : QuarterIs fi ft d L 1 1 (8 * (2 * k.val) + 7) a0_7 := by
    rw [ea0_7]; exact gather_fact (F := F) fi ft hr d L 0 7 1 1 (2 * k.val) hg0 f1 hs1 _ _ _
  -- the two gathered quarters of half 1, joined into the half the copy-out reads
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 _ _) $$ [Hq10 Hq11]
  · isplitl [Hq10] <;> iassumption
  ihave Hh1 := (Entails.of_eq (half_lit_1 (F := F) d (cV L) (jV L) _).symm) $$ Hh1
  have hoff3 : _ = (![800 * (wL L).val + (16 * k.val + 6), 0, 0] : Fin 3 → ℕ) := (k0_off21_eq L k).trans (congrArg (fun n => (![n, 0, 0] : Fin 3 → ℕ)) (by show _ = 800 * ((L 1).val * 2 + (L 0).val) + (16 * k.val + 6); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off21_inb L k hc7) (lo := 16 * k.val + 6) hoff3 (by omega) (fo d)) $$ Ho
  icases Hp with ⟨Hp3, Ho⟩
  ihave Ho := (Entails.of_eq (show (oLoc d ↦[rowsIn (wL L) (16 * k.val + 6 + 2) 800]{fullShare} fo d : sProp 𝕄) = (oLoc d ↦[rowsIn (wL L) (16 * k.val + 8) 800]{fullShare} fo d) from by rw [show 16 * k.val + 6 + 2 = 16 * k.val + 8 from by omega])) $$ Ho
  sl_exec (disch := (clear * - k hk; decide +kernel +revert))
  sl_unfold_run_names
  ihave Hs10 := (out_clean1 (F := F) fi ft d L _ _ _ (fo d) a0_6 a0_7 (k0_off21_inb L k hc7) (16 * k.val + 6) (by omega) hoff3 (QuarterIs_cast (F := F) fi ft (by omega) hqa0_6) (QuarterIs_cast (F := F) fi ft (by omega) hqa0_7)) $$ Hs10
  unfold OutD1
  have him1 : ∀ x, (((((ibV).slice (Rect.unit (s := S2x1024) ![1, 128] S1x128.size inb_S2x1024_S1x128_1_128) (fun _ => rfl)).squeeze S128 squeezes_S1x128_S128).view.read (Elt F) f2 x : BitVec 32)).toNat < S3x128.size (gathers_S3x128_S128x128).axis :=
    gather_hin gathers_S3x128_S128x128 _ hfm1
  sl_exec (disch := (clear * - k hk; decide +kernel +revert))
  -- reduction of the list 3 of slot 1: each step stores back what it loaded
  have hfm3 : ListOK (F := F) 1 3 d (cV L) (jV L) f2 := listOK_of_slot (F := F) 1 d (cV L) (jV L) f2 hf2 3
  first
    | sl_for (inv_t13 (F := F) d L f2) $$ [Hm3]
    | (sl_rw [Idealize.SL.Sem.Prog.bind_assoc]; sl_for (inv_t13 (F := F) d L f2) $$ [Hm3])
  · intro k2 acc
    exact step_t13 (F := F) d L v5 v6 k (0#32) f2 hfm3 k2 acc
  · iapply (Entails.of_eq (show ((((ibV).slice (Rect.unit (s := S2x1024) ![1, 384] S1x128.size inb_S2x1024_S1x128_1_384) (fun _ => rfl)).squeeze S128 squeezes_S1x128_S128).view.loc (V d (cV L) (jV L)) ↦[(((ibV).slice (Rect.unit (s := S2x1024) ![1, 384] S1x128.size inb_S2x1024_S1x128_1_384) (fun _ => rfl)).squeeze S128 squeezes_S1x128_S128).view.set]{fullShare} f2 : sProp 𝕄) = inv_t13 (F := F) d L f2 0 PUnit.unit from rfl)) $$ Hm3
  iintro %acc13 Hm3
  ihave Hm3 := (Entails.of_eq (show inv_t13 (F := F) d L f2 (Scf.trips k0_t13_loop.lb k0_t13_loop.ub k0_t13_loop.st) acc13 = ((((ibV).slice (Rect.unit (s := S2x1024) ![1, 384] S1x128.size inb_S2x1024_S1x128_1_384) (fun _ => rfl)).squeeze S128 squeezes_S1x128_S128).view.loc (V d (cV L) (jV L)) ↦[(((ibV).slice (Rect.unit (s := S2x1024) ![1, 384] S1x128.size inb_S2x1024_S1x128_1_384) (fun _ => rfl)).squeeze S128 squeezes_S1x128_S128).view.set]{fullShare} f2 : sProp 𝕄) from rfl)) $$ Hm3
  sl_exec (disch := (clear * - k hk; decide +kernel +revert))
  -- the next block's copy of row numbers lands in slot 0: its eight lists, all at the same contents, are the slot again
  ihave Hl0 := (Entails.of_eq (list_lit_0_0 (F := F) d (cV L) (jV L) f1)) $$ Hl0
  ihave Hl1 := (Entails.of_eq (list_lit_0_1 (F := F) d (cV L) (jV L) f1)) $$ Hl1
  ihave Hl2 := (Entails.of_eq (list_lit_0_2 (F := F) d (cV L) (jV L) f1)) $$ Hl2
  ihave Hl3 := (Entails.of_eq (list_lit_0_3 (F := F) d (cV L) (jV L) f1)) $$ Hl3
  ihave Hl4 := (Entails.of_eq (list_lit_0_4 (F := F) d (cV L) (jV L) f1)) $$ Hl4
  ihave Hl5 := (Entails.of_eq (list_lit_0_5 (F := F) d (cV L) (jV L) f1)) $$ Hl5
  ihave Hl6 := (Entails.of_eq (list_lit_0_6 (F := F) d (cV L) (jV L) f1)) $$ Hl6
  ihave Hl7 := (Entails.of_eq (list_lit_0_7 (F := F) d (cV L) (jV L) f1)) $$ Hl7
  ihave Hsl0 := (Entails.of_eq (slot_lists8 (F := F) d (cV L) (jV L) 0 f1).symm) $$ [Hl0 Hl1 Hl2 Hl3 Hl4 Hl5 Hl6 Hl7]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hl7
  ihave Hsl0 := (Entails.of_eq (slot_lit_0 (F := F) d (cV L) (jV L) f1).symm) $$ Hsl0
  sl_exec (disch := (clear * - k hk; decide +kernel +revert))
  have hg2 : 2 * (k.val + 1) < 100 := by omega
  have hoffI2 : _ = (![102400 * (wL L).val + 1024 * (2 * (k.val + 1))] : Fin 1 → ℕ) := (k0_off23_eq L k).trans (congrArg (fun n => (![n] : Fin 1 → ℕ)) (by show _ = 102400 * ((L 1).val * 2 + (L 0).val) + 1024 * (2 * (k.val + 1)); omega))
  sl_unfold_run_names
  ihave HF0 := (idx_clean0 (F := F) fi hr d L _ _ _ _ _ (2 * (k.val + 1)) hg2 hoffI2) $$ HF0
  ihave Hi' := (Entails.of_eq (idx_rest (F := F) fi d L _ (2 * (k.val + 1)) hg2 hoffI2)) $$ Hi'
  icases Hs10_dst with ⟨%gp3, Hp3, %hgp3⟩
  ihave Hdone := (done_add (F := F) d (cV L) (jV L) (wL L) (pairIn L (16 * k.val + 6) (by omega)) (lo := 16 * k.val + 6) rfl gp3 (oDone fi ft d) hgp3) $$ [Hdone Hp3]
  · isplitl [Hdone] <;> iassumption
  ihave Hdone := (Entails.of_eq (show (oLoc d ↦[rowsIn (wL L) 0 (16 * k.val + 6 + 2)]{fullShare} oDone fi ft d : sProp 𝕄) = (oLoc d ↦[rowsIn (wL L) 0 (16 * k.val + 8)]{fullShare} oDone fi ft d) from by rw [show 16 * k.val + 6 + 2 = 16 * k.val + 8 from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  have him2 : ∀ x, (((((ibV).slice (Rect.unit (s := S2x1024) ![1, 256] S1x128.size inb_S2x1024_S1x128_1_256) (fun _ => rfl)).squeeze S128 squeezes_S1x128_S128).view.read (Elt F) f2 x : BitVec 32)).toNat < S3x128.size (gathers_S3x128_S128x128).axis :=
    gather_hin gathers_S3x128_S128x128 _ hfm2
  sl_exec (disch := (clear * - k hk; decide +kernel +revert))
  -- reduction of the list 4 of slot 1: each step stores back what it loaded
  have hfm4 : ListOK (F := F) 1 4 d (cV L) (jV L) f2 := listOK_of_slot (F := F) 1 d (cV L) (jV L) f2 hf2 4
  first
    | sl_for (inv_t14 (F := F) d L f2) $$ [Hm4]
    | (sl_rw [Idealize.SL.Sem.Prog.bind_assoc]; sl_for (inv_t14 (F := F) d L f2) $$ [Hm4])
  · intro k2 acc
    exact step_t14 (F := F) d L v5 v6 k (0#32) f2 hfm4 k2 acc
  · iapply (Entails.of_eq (show ((((ibV).slice (Rect.unit (s := S2x1024) ![1, 512] S1x128.size inb_S2x1024_S1x128_1_512) (fun _ => rfl)).squeeze S128 squeezes_S1x128_S128).view.loc (V d (cV L) (jV L)) ↦[(((ibV).slice (Rect.unit (s := S2x1024) ![1, 512] S1x128.size inb_S2x1024_S1x128_1_512) (fun _ => rfl)).squeeze S128 squeezes_S1x128_S128).view.set]{fullShare} f2 : sProp 𝕄) = inv_t14 (F := F) d L f2 0 PUnit.unit from rfl)) $$ Hm4
  iintro %acc14 Hm4
  ihave Hm4 := (Entails.of_eq (show inv_t14 (F := F) d L f2 (Scf.trips k0_t14_loop.lb k0_t14_loop.ub k0_t14_loop.st) acc14 = ((((ibV).slice (Rect.unit (s := S2x1024) ![1, 512] S1x128.size inb_S2x1024_S1x128_1_512) (fun _ => rfl)).squeeze S128 squeezes_S1x128_S128).view.loc (V d (cV L) (jV L)) ↦[(((ibV).slice (Rect.unit (s := S2x1024) ![1, 512] S1x128.size inb_S2x1024_S1x128_1_512) (fun _ => rfl)).squeeze S128 squeezes_S1x128_S128).view.set]{fullShare} f2 : sProp 𝕄) from rfl)) $$ Hm4
  sl_exec (disch := (clear * - k hk; decide +kernel +revert))
  ihave Hg := (pts_name (F := F) _ _ _) $$ Hq00
  icases Hg with ⟨%a1_0, Hq00, %ea1_0⟩
  have hqa1_0 : QuarterIs fi ft d L 0 0 (8 * (2 * k.val + 1) + 0) a1_0 := by
    rw [ea1_0]; exact gather_fact (F := F) fi ft hr d L 1 0 0 0 (2 * k.val + 1) hg1 f2 hs2 _ _ _
  ihave Hg := (pts_name (F := F) _ _ _) $$ Hq01
  icases Hg with ⟨%a1_1, Hq01, %ea1_1⟩
  have hqa1_1 : QuarterIs fi ft d L 0 1 (8 * (2 * k.val + 1) + 1) a1_1 := by
    rw [ea1_1]; exact gather_fact (F := F) fi ft hr d L 1 1 0 1 (2 * k.val + 1) hg1 f2 hs2 _ _ _
  -- the two gathered quarters of half 0, joined into the half the copy-out reads
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 _ _) $$ [Hq00 Hq01]
  · isplitl [Hq00] <;> iassumption
  ihave Hh0 := (Entails.of_eq (half_lit_0 (F := F) d (cV L) (jV L) _).symm) $$ Hh0
  have hoff4 : _ = (![800 * (wL L).val + (16 * k.val + 8), 0, 0] : Fin 3 → ℕ) := (k0_off12_eq L k 1 0).trans (congrArg (fun n => (![n, 0, 0] : Fin 3 → ℕ)) (by show _ = 800 * ((L 1).val * 2 + (L 0).val) + (16 * k.val + 8); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 1 0) (lo := 16 * k.val + 8) hoff4 (by omega) (fo d)) $$ Ho
  icases Hp with ⟨Hp4, Ho⟩
  ihave Ho := (Entails.of_eq (show (oLoc d ↦[rowsIn (wL L) (16 * k.val + 8 + 2) 800]{fullShare} fo d : sProp 𝕄) = (oLoc d ↦[rowsIn (wL L) (16 * k.val + 10) 800]{fullShare} fo d) from by rw [show 16 * k.val + 8 + 2 = 16 * k.val + 10 from by omega])) $$ Ho
  sl_exec (disch := (clear * - k hk; decide +kernel +revert))
  sl_unfold_run_names
  ihave Hs9 := (out_clean0 (F := F) fi ft d L _ _ _ (fo d) a1_0 a1_1 (k0_off12_inb L k 1 0) (16 * k.val + 8) (by omega) hoff4 (QuarterIs_cast (F := F) fi ft (by omega) hqa1_0) (QuarterIs_cast (F := F) fi ft (by omega) hqa1_1)) $$ Hs9
  unfold OutD0
  have him3 : ∀ x, (((((ibV).slice (Rect.unit (s := S2x1024) ![1, 384] S1x128.size inb_S2x1024_S1x128_1_384) (fun _ => rfl)).squeeze S128 squeezes_S1x128_S128).view.read (Elt F) f2 x : BitVec 32)).toNat < S3x128.size (gathers_S3x128_S128x128).axis :=
    gather_hin gathers_S3x128_S128x128 _ hfm3
  sl_exec (disch := (clear * - k hk; decide +kernel +revert))
  -- reduction of the list 5 of slot 1: each step stores back what it loaded
  have hfm5 : ListOK (F := F) 1 5 d (cV L) (jV L) f2 := listOK_of_slot (F := F) 1 d (cV L) (jV L) f2 hf2 5
  first
    | sl_for (inv_t15 (F := F) d L f2) $$ [Hm5]
    | (sl_rw [Idealize.SL.Sem.Prog.bind_assoc]; sl_for (inv_t15 (F := F) d L f2) $$ [Hm5])
  · intro k2 acc
    exact step_t15 (F := F) d L v6 k (0#32) f2 hfm5 k2 acc
  · iapply (Entails.of_eq (show ((((ibV).slice (Rect.unit (s := S2x1024) ![1, 640] S1x128.size inb_S2x1024_S1x128_1_640) (fun _ => rfl)).squeeze S128 squeezes_S1x128_S128).view.loc (V d (cV L) (jV L)) ↦[(((ibV).slice (Rect.unit (s := S2x1024) ![1, 640] S1x128.size inb_S2x1024_S1x128_1_640) (fun _ => rfl)).squeeze S128 squeezes_S1x128_S128).view.set]{fullShare} f2 : sProp 𝕄) = inv_t15 (F := F) d L f2 0 PUnit.unit from rfl)) $$ Hm5
  iintro %acc15 Hm5
  ihave Hm5 := (Entails.of_eq (show inv_t15 (F := F) d L f2 (Scf.trips k0_t15_loop.lb k0_t15_loop.ub k0_t15_loop.st) acc15 = ((((ibV).slice (Rect.unit (s := S2x1024) ![1, 640] S1x128.size inb_S2x1024_S1x128_1_640) (fun _ => rfl)).squeeze S128 squeezes_S1x128_S128).view.loc (V d (cV L) (jV L)) ↦[(((ibV).slice (Rect.unit (s := S2x1024) ![1, 640] S1x128.size inb_S2x1024_S1x128_1_640) (fun _ => rfl)).squeeze S128 squeezes_S1x128_S128).view.set]{fullShare} f2 : sProp 𝕄) from rfl)) $$ Hm5
  sl_exec (disch := (clear * - k hk; decide +kernel +revert))
  icases Hs9_dst with ⟨%gp4, Hp4, %hgp4⟩
  ihave Hdone := (done_add (F := F) d (cV L) (jV L) (wL L) (pairIn L (16 * k.val + 8) (by omega)) (lo := 16 * k.val + 8) rfl gp4 (oDone fi ft d) hgp4) $$ [Hdone Hp4]
  · isplitl [Hdone] <;> iassumption
  ihave Hdone := (Entails.of_eq (show (oLoc d ↦[rowsIn (wL L) 0 (16 * k.val + 8 + 2)]{fullShare} oDone fi ft d : sProp 𝕄) = (oLoc d ↦[rowsIn (wL L) 0 (16 * k.val + 10)]{fullShare} oDone fi ft d) from by rw [show 16 * k.val + 8 + 2 = 16 * k.val + 10 from by omega])) $$ Hdone
  ihave Hh0 := (Entails.of_eq (half_lit_0 (F := F) d (cV L) (jV L) _)) $$ Hs9_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  have him4 : ∀ x, (((((ibV).slice (Rect.unit (s := S2x1024) ![1, 512] S1x128.size inb_S2x1024_S1x128_1_512) (fun _ => rfl)).squeeze S128 squeezes_S1x128_S128).view.read (Elt F) f2 x : BitVec 32)).toNat < S3x128.size (gathers_S3x128_S128x128).axis :=
    gather_hin gathers_S3x128_S128x128 _ hfm4
  sl_exec (disch := (clear * - k hk; decide +kernel +revert))
  -- reduction of the list 6 of slot 1: each step stores back what it loaded
  have hfm6 : ListOK (F := F) 1 6 d (cV L) (jV L) f2 := listOK_of_slot (F := F) 1 d (cV L) (jV L) f2 hf2 6
  first
    | sl_for (inv_t16 (F := F) d L f2) $$ [Hm6]
    | (sl_rw [Idealize.SL.Sem.Prog.bind_assoc]; sl_for (inv_t16 (F := F) d L f2) $$ [Hm6])
  · intro k2 acc
    exact step_t16 (F := F) d L  f2 hfm6 k2 acc
  · iapply (Entails.of_eq (show ((((ibV).slice (Rect.unit (s := S2x1024) ![1, 768] S1x128.size inb_S2x1024_S1x128_1_768) (fun _ => rfl)).squeeze S128 squeezes_S1x128_S128).view.loc (V d (cV L) (jV L)) ↦[(((ibV).slice (Rect.unit (s := S2x1024) ![1, 768] S1x128.size inb_S2x1024_S1x128_1_768) (fun _ => rfl)).squeeze S128 squeezes_S1x128_S128).view.set]{fullShare} f2 : sProp 𝕄) = inv_t16 (F := F) d L f2 0 PUnit.unit from rfl)) $$ Hm6
  iintro %acc16 Hm6
  ihave Hm6 := (Entails.of_eq (show inv_t16 (F := F) d L f2 (Scf.trips k0_t16_loop.lb k0_t16_loop.ub k0_t16_loop.st) acc16 = ((((ibV).slice (Rect.unit (s := S2x1024) ![1, 768] S1x128.size inb_S2x1024_S1x128_1_768) (fun _ => rfl)).squeeze S128 squeezes_S1x128_S128).view.loc (V d (cV L) (jV L)) ↦[(((ibV).slice (Rect.unit (s := S2x1024) ![1, 768] S1x128.size inb_S2x1024_S1x128_1_768) (fun _ => rfl)).squeeze S128 squeezes_S1x128_S128).view.set]{fullShare} f2 : sProp 𝕄) from rfl)) $$ Hm6
  sl_exec (disch := (clear * - k hk; decide +kernel +revert))
  ihave Hg := (pts_name (F := F) _ _ _) $$ Hq10
  icases Hg with ⟨%a1_2, Hq10, %ea1_2⟩
  have hqa1_2 : QuarterIs fi ft d L 1 0 (8 * (2 * k.val + 1) + 2) a1_2 := by
    rw [ea1_2]; exact gather_fact (F := F) fi ft hr d L 1 2 1 0 (2 * k.val + 1) hg1 f2 hs2 _ _ _
  ihave Hg := (pts_name (F := F) _ _ _) $$ Hq11
  icases Hg with ⟨%a1_3, Hq11, %ea1_3⟩
  have hqa1_3 : QuarterIs fi ft d L 1 1 (8 * (2 * k.val + 1) + 3) a1_3 := by
    rw [ea1_3]; exact gather_fact (F := F) fi ft hr d L 1 3 1 1 (2 * k.val + 1) hg1 f2 hs2 _ _ _
  -- the two gathered quarters of half 1, joined into the half the copy-out reads
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 _ _) $$ [Hq10 Hq11]
  · isplitl [Hq10] <;> iassumption
  ihave Hh1 := (Entails.of_eq (half_lit_1 (F := F) d (cV L) (jV L) _).symm) $$ Hh1
  have hoff5 : _ = (![800 * (wL L).val + (16 * k.val + 10), 0, 0] : Fin 3 → ℕ) := (k0_off12_eq L k 1 1).trans (congrArg (fun n => (![n, 0, 0] : Fin 3 → ℕ)) (by show _ = 800 * ((L 1).val * 2 + (L 0).val) + (16 * k.val + 10); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 1 1) (lo := 16 * k.val + 10) hoff5 (by omega) (fo d)) $$ Ho
  icases Hp with ⟨Hp5, Ho⟩
  ihave Ho := (Entails.of_eq (show (oLoc d ↦[rowsIn (wL L) (16 * k.val + 10 + 2) 800]{fullShare} fo d : sProp 𝕄) = (oLoc d ↦[rowsIn (wL L) (16 * k.val + 12) 800]{fullShare} fo d) from by rw [show 16 * k.val + 10 + 2 = 16 * k.val + 12 from by omega])) $$ Ho
  sl_exec (disch := (clear * - k hk; decide +kernel +revert))
  sl_unfold_run_names
  ihave Hs10 := (out_clean1 (F := F) fi ft d L _ _ _ (fo d) a1_2 a1_3 (k0_off12_inb L k 1 1) (16 * k.val + 10) (by omega) hoff5 (QuarterIs_cast (F := F) fi ft (by omega) hqa1_2) (QuarterIs_cast (F := F) fi ft (by omega) hqa1_3)) $$ Hs10
  unfold OutD1
  have him5 : ∀ x, (((((ibV).slice (Rect.unit (s := S2x1024) ![1, 640] S1x128.size inb_S2x1024_S1x128_1_640) (fun _ => rfl)).squeeze S128 squeezes_S1x128_S128).view.read (Elt F) f2 x : BitVec 32)).toNat < S3x128.size (gathers_S3x128_S128x128).axis :=
    gather_hin gathers_S3x128_S128x128 _ hfm5
  sl_exec (disch := (clear * - k hk; decide +kernel +revert))
  -- reduction of the list 7 of slot 1: each step stores back what it loaded
  have hfm7 : ListOK (F := F) 1 7 d (cV L) (jV L) f2 := listOK_of_slot (F := F) 1 d (cV L) (jV L) f2 hf2 7
  first
    | sl_for (inv_t17 (F := F) d L f2) $$ [Hm7]
    | (sl_rw [Idealize.SL.Sem.Prog.bind_assoc]; sl_for (inv_t17 (F := F) d L f2) $$ [Hm7])
  · intro k2 acc
    exact step_t17 (F := F) d L v6 k (0#32) f2 hfm7 k2 acc
  · iapply (Entails.of_eq (show ((((ibV).slice (Rect.unit (s := S2x1024) ![1, 896] S1x128.size inb_S2x1024_S1x128_1_896) (fun _ => rfl)).squeeze S128 squeezes_S1x128_S128).view.loc (V d (cV L) (jV L)) ↦[(((ibV).slice (Rect.unit (s := S2x1024) ![1, 896] S1x128.size inb_S2x1024_S1x128_1_896) (fun _ => rfl)).squeeze S128 squeezes_S1x128_S128).view.set]{fullShare} f2 : sProp 𝕄) = inv_t17 (F := F) d L f2 0 PUnit.unit from rfl)) $$ Hm7
  iintro %acc17 Hm7
  ihave Hm7 := (Entails.of_eq (show inv_t17 (F := F) d L f2 (Scf.trips k0_t17_loop.lb k0_t17_loop.ub k0_t17_loop.st) acc17 = ((((ibV).slice (Rect.unit (s := S2x1024) ![1, 896] S1x128.size inb_S2x1024_S1x128_1_896) (fun _ => rfl)).squeeze S128 squeezes_S1x128_S128).view.loc (V d (cV L) (jV L)) ↦[(((ibV).slice (Rect.unit (s := S2x1024) ![1, 896] S1x128.size inb_S2x1024_S1x128_1_896) (fun _ => rfl)).squeeze S128 squeezes_S1x128_S128).view.set]{fullShare} f2 : sProp 𝕄) from rfl)) $$ Hm7
  sl_exec (disch := (clear * - k hk; decide +kernel +revert))
  icases Hs10_dst with ⟨%gp5, Hp5, %hgp5⟩
  ihave Hdone := (done_add (F := F) d (cV L) (jV L) (wL L) (pairIn L (16 * k.val + 10) (by omega)) (lo := 16 * k.val + 10) rfl gp5 (oDone fi ft d) hgp5) $$ [Hdone Hp5]
  · isplitl [Hdone] <;> iassumption
  ihave Hdone := (Entails.of_eq (show (oLoc d ↦[rowsIn (wL L) 0 (16 * k.val + 10 + 2)]{fullShare} oDone fi ft d : sProp 𝕄) = (oLoc d ↦[rowsIn (wL L) 0 (16 * k.val + 12)]{fullShare} oDone fi ft d) from by rw [show 16 * k.val + 10 + 2 = 16 * k.val + 12 from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  have him6 : ∀ x, (((((ibV).slice (Rect.unit (s := S2x1024) ![1, 768] S1x128.size inb_S2x1024_S1x128_1_768) (fun _ => rfl)).squeeze S128 squeezes_S1x128_S128).view.read (Elt F) f2 x : BitVec 32)).toNat < S3x128.size (gathers_S3x128_S128x128).axis :=
    gather_hin gathers_S3x128_S128x128 _ hfm6
  sl_exec (disch := (clear * - k hk; decide +kernel +revert))
  ihave Ho := (Entails.of_eq (show (oLoc d ↦[rowsIn (wL L) (16 * k.val + 12) 800]{fullShare} fo d : sProp 𝕄) = (oLoc d ↦[rowsIn (wL L) (16 * (k.val + 1) - 4) 800]{fullShare} fo d) from by rw [show 16 * k.val + 12 = 16 * (k.val + 1) - 4 from by omega])) $$ Ho
  ihave Hg := (pts_name (F := F) _ _ _) $$ Hq00
  icases Hg with ⟨%a1_4, Hq00, %ea1_4⟩
  have hqa1_4 : QuarterIs fi ft d L 0 0 (8 * (2 * k.val + 1) + 4) a1_4 := by
    rw [ea1_4]; exact gather_fact (F := F) fi ft hr d L 1 4 0 0 (2 * k.val + 1) hg1 f2 hs2 _ _ _
  ihave Hg := (pts_name (F := F) _ _ _) $$ Hq01
  icases Hg with ⟨%a1_5, Hq01, %ea1_5⟩
  have hqa1_5 : QuarterIs fi ft d L 0 1 (8 * (2 * k.val + 1) + 5) a1_5 := by
    rw [ea1_5]; exact gather_fact (F := F) fi ft hr d L 1 5 0 1 (2 * k.val + 1) hg1 f2 hs2 _ _ _
  -- the two gathered quarters of half 0, joined into the half the copy-out reads
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 _ _) $$ [Hq00 Hq01]
  · isplitl [Hq00] <;> iassumption
  ihave Hh0 := (Entails.of_eq (half_lit_0 (F := F) d (cV L) (jV L) _).symm) $$ Hh0
  have hoff6 : _ = (![800 * (wL L).val + (16 * (k.val + 1) - 4), 0, 0] : Fin 3 → ℕ) := (k0_off12_eq L k 1 2).trans (congrArg (fun n => (![n, 0, 0] : Fin 3 → ℕ)) (by show _ = 800 * ((L 1).val * 2 + (L 0).val) + (16 * (k.val + 1) - 4); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 1 2) (lo := 16 * (k.val + 1) - 4) hoff6 (by omega) (fo d)) $$ Ho
  icases Hp with ⟨Hp6, Ho⟩
  ihave Ho := (Entails.of_eq (show (oLoc d ↦[rowsIn (wL L) (16 * (k.val + 1) - 4 + 2) 800]{fullShare} fo d : sProp 𝕄) = (oLoc d ↦[rowsIn (wL L) (16 * (k.val + 1) - 2) 800]{fullShare} fo d) from by rw [show 16 * (k.val + 1) - 4 + 2 = 16 * (k.val + 1) - 2 from by omega])) $$ Ho
  sl_exec (disch := (clear * - k hk; decide +kernel +revert))
  sl_unfold_run_names
  ihave Hs9 := (out_clean0 (F := F) fi ft d L _ _ _ (fo d) a1_4 a1_5 (k0_off12_inb L k 1 2) (16 * (k.val + 1) - 4) (by omega) hoff6 (QuarterIs_cast (F := F) fi ft (by omega) hqa1_4) (QuarterIs_cast (F := F) fi ft (by omega) hqa1_5)) $$ Hs9
  unfold OutD0
  have him7 : ∀ x, (((((ibV).slice (Rect.unit (s := S2x1024) ![1, 896] S1x128.size inb_S2x1024_S1x128_1_896) (fun _ => rfl)).squeeze S128 squeezes_S1x128_S128).view.read (Elt F) f2 x : BitVec 32)).toNat < S3x128.size (gathers_S3x128_S128x128).axis :=
    gather_hin gathers_S3x128_S128x128 _ hfm7
  sl_exec (disch := (clear * - k hk; decide +kernel +revert))
  -- the two gathers outstanding across the trip's end, held with what they will deliver
  ihave Hn := (flight_name (F := F) _) $$ Hs7
  icases Hn with ⟨%D10, Hs7, %eD10⟩
  have c10 : D10 ⊢ GathD10 fi ft d L (16 * (k.val + 1) - 2) f2 := by
    rw [eD10]
    iintro ⟨⟨Hq, Hl⟩, Ht⟩
    ihave Hg := (pts_name (F := F) _ _ _) $$ Hq
    icases Hg with ⟨%a, Hq, %ea⟩
    isplitl [Hq Hl]
    · isplitl [Hq]
      · iexists a
        isplitl [Hq]; · iexact Hq
        ipureintro
        rw [ea]
        exact QuarterIs_cast (F := F) fi ft (by omega) (gather_fact (F := F) fi ft hr d L 1 6 1 0 (2 * k.val + 1) hg1 f2 hs2 _ _ _)
      · iexact Hl
    · iexact Ht
  ihave Hs7 := (Transfers.Flight_mono countersEmb (V d (cV L) (jV L)) c10) $$ Hs7
  ihave Hn := (flight_name (F := F) _) $$ Hs8
  icases Hn with ⟨%D11, Hs8, %eD11⟩
  have c11 : D11 ⊢ GathD11 fi ft d L (16 * (k.val + 1) - 1) f2 := by
    rw [eD11]
    iintro ⟨⟨Hq, Hl⟩, Ht⟩
    ihave Hg := (pts_name (F := F) _ _ _) $$ Hq
    icases Hg with ⟨%a, Hq, %ea⟩
    isplitl [Hq Hl]
    · isplitl [Hq]
      · iexists a
        isplitl [Hq]; · iexact Hq
        ipureintro
        rw [ea]
        exact QuarterIs_cast (F := F) fi ft (by omega) (gather_fact (F := F) fi ft hr d L 1 7 1 1 (2 * k.val + 1) hg1 f2 hs2 _ _ _)
      · iexact Hl
    · iexact Ht
  ihave Hs8 := (Transfers.Flight_mono countersEmb (V d (cV L) (jV L)) c11) $$ Hs8
  -- the invariant at the next trip
  ihave Hdone := (Entails.of_eq (show (oLoc d ↦[rowsIn (wL L) 0 (16 * k.val + 12)]{fullShare} oDone fi ft d : sProp 𝕄) = (oLoc d ↦[rowsIn (wL L) 0 (16 * (k.val + 1) - 4)]{fullShare} oDone fi ft d) from by rw [show 16 * k.val + 12 = 16 * (k.val + 1) - 4 from by omega])) $$ Hdone
  sl_step
  rw [dif_neg (by omega : ¬ (k.val + 1 = 0)), dif_pos (by omega : k.val + 1 ≤ 50), dif_pos (by omega : k.val + 1 < 50)]
  unfold Steady
  isplitr; · ipureintro; omega
  isplitl [HO Hs4 Hs5 Hs6 Hs10 Htok2 Htok3 Htoks9 Htrem]
  · isplitr; · iexact Hmw2
    isplitl [HO]
    · iexists _
      isplitr
      swap; · iexact HO
      ipureintro
      repeat (first | exact hW0 | apply waitsOK_insert)
    isplitl [Hs4]; · iexact Hs4
    isplitl [Hs5]; · iexact Hs5
    isplitl [Hs6]; · iexact Hs6
    isplitl [Hs10]; · iexact Hs10
    isplitl [Htok2]; · iexact Htok2
    isplitl [Htok3]; · iexact Htok3
    isplitl [Htoks9]; · iexact Htoks9
    iexact Htrem
  isplitl [HF0 Hi']
  · isplitl [HF0]; · iexact HF0
    iexact Hi'
  iexists f2
  isplitr
  · ipureintro
    exact (show SlotIs fi d L 1 (2 * (k.val + 1) - 1) f2 from (show 2 * k.val + 1 = 2 * (k.val + 1) - 1 from by omega) ▸ hs2)
  isplitl [Hm0 Hm1 Hm2 Hm3 Hm4 Hm5]
  · iapply (Entails.of_eq (six_lists (F := F) d (cV L) (jV L) f2).symm)
    isplitl [Hm0]; · iapply (Entails.of_eq (list_lit_1_0 (F := F) d (cV L) (jV L) f2)) $$ Hm0
    isplitl [Hm1]; · iapply (Entails.of_eq (list_lit_1_1 (F := F) d (cV L) (jV L) f2)) $$ Hm1
    isplitl [Hm2]; · iapply (Entails.of_eq (list_lit_1_2 (F := F) d (cV L) (jV L) f2)) $$ Hm2
    isplitl [Hm3]; · iapply (Entails.of_eq (list_lit_1_3 (F := F) d (cV L) (jV L) f2)) $$ Hm3
    isplitl [Hm4]; · iapply (Entails.of_eq (list_lit_1_4 (F := F) d (cV L) (jV L) f2)) $$ Hm4
    iapply (Entails.of_eq (list_lit_1_5 (F := F) d (cV L) (jV L) f2)) $$ Hm5
  isplitl [Hs7]; · iexact Hs7
  isplitl [Hs8]; · iexact Hs8
  isplitl [Htok4]; · iexact Htok4
  isplitl [Htok5]; · iexact Htok5
  isplitl [Hs9]; · iexists _; iexact Hs9
  isplitl [Hdone]; · iexact Hdone
  iexact Ho

end Cert.Proof.KI

end
-- ==== Proof.KTripSteady.lean ====
/-
  A trip of the main loop from the second on. At the head of trip k ≥ 1 the copy of block 2k of row numbers, the last
  two gathers of block 2k - 1 and the copy-out of rows 16k - 4, 16k - 3 are outstanding. The trip handles blocks 2k
  and 2k + 1 the same way: wait for the block; reduce its eight lists; for each list gather its rows into a quarter of
  the rows buffer; every two gathers later wait for them — the two quarters then read two consecutive blocks of the
  lookup —, join them into their half and copy it out to that pair of the worker's blocks; before a half is gathered
  into again wait for its copy-out and add its pair to the interval of blocks done. After the first gather of a block
  the other slot is free and the next block is copied into it, except after the last block. At the end of the trip the
  same three kinds of transfers are outstanding, two blocks of row numbers further on: the invariant at k + 1.
-/
import proofs.«205114_g12446815224155_cont_fleet_488_32_alg».proof.Proof.KWrap
import proofs.«205114_g12446815224155_cont_fleet_488_32_alg».proof.Proof.KBarrier
import proofs.«205114_g12446815224155_cont_fleet_488_32_alg».proof.Proof.KPieces
import proofs.«205114_g12446815224155_cont_fleet_488_32_alg».proof.Proof.KWrapLoops
import proofs.«205114_g12446815224155_cont_fleet_488_32_alg».proof.Proof.KGather
import proofs.«205114_g12446815224155_cont_fleet_488_32_alg».proof.Proof.KJoin
import proofs.«205114_g12446815224155_cont_fleet_488_32_alg».proof.Proof.KInv
import proofs.«205114_g12446815224155_cont_fleet_488_32_alg».proof.Proof.KGen
import proofs.«205114_g12446815224155_cont_fleet_488_32_alg».proof.Proof.KClean
import proofs.«205114_g12446815224155_cont_fleet_488_32_alg».proof.Proof.KCleanOut
import proofs.«205114_g12446815224155_cont_fleet_488_32_alg».proof.Proof.KRejoin
import proofs.«205114_g12446815224155_cont_fleet_488_32_alg».proof.Proof.KEpilogue

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}
local notation "𝕄" => MT nD τ sig (HIx 1) (Elt F) ℕ UU ℕ
local notation "iV" => (Memref.whole Cert.KernelIdeal.main_v0_scv : Memref Cert.KernelIdeal.sig Kind.scVector Space.hbm Cert.KernelIdeal.S3276800 EltTy.i32)
local notation "tV" => (Memref.whole Cert.KernelIdeal.main_arg1_scv : Memref Cert.KernelIdeal.sig Kind.scVector Space.hbm Cert.KernelIdeal.S3x128 EltTy.f32)
local notation "oV" => (Memref.whole Cert.KernelIdeal.main_v1_scv : Memref Cert.KernelIdeal.sig Kind.scVector Space.hbm Cert.KernelIdeal.S25600x128x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)

variable (fi : (d : Dev nD) → Buf (Elt F) (idxLoc d)) (ft : (d : Dev nD) → Buf (Elt F) (tabLoc d)) (fo : (d : Dev nD) → Buf (Elt F) (oLoc d))
variable [FloatOps F]

set_option maxHeartbeats 64000000 in
/-- Trip k of the main loop, 1 ≤ k < 49: from the invariant at k to the invariant at k + 1. -/
theorem trip_mid (hr : InRange (F := F) fi) (d : Dev nD) (L : grid0.Coords) (O : CellTallies nD τ sig (HIx 1)) (W : Waits sig (HIx 1))
    (v5 v6 : BitVec 32) (k : Fin k0_t1_loop.trips) (hk1 : 1 ≤ k.val) (hlt : k.val < 49) (acc : Unit) :
    Inv (F := F) fi ft fo d L O W k.val acc
      ⊢ wp frame (wpE (defs₀ (F := F)) 𝒱₀ (V d (cV L) (jV L)) none) Set.univ
          (k0_t1_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k acc)
          (Inv (F := F) fi ft fo d L O W (k.val + 1)) := by
  have hk50 : k.val < 50 := k.isLt
  unfold Inv
  rw [dif_neg (by omega : ¬ (k.val = 0)), dif_pos (by omega : k.val ≤ 50)]
  unfold Base IdxPart Steady
  rw [dif_pos hk50]
  unfold IdxD0 idxBlk GathD10 GathD11 OutD0 shAll
  iintro ⟨%hk50', ⟨#Hmw2, ⟨%W0, %hW0, HO⟩, Hs4, Hs5, Hs6, Hs10, Htok2, Htok3, Htoks9, Htrem⟩, ⟨HF0, Hi'⟩, ⟨%f2, %hf2, Hm05, HG10, HG11, Hr4, Hr5, ⟨%h0, HO0⟩, Hdone, Hrest⟩⟩
  have hg0 : 2 * k.val < 100 := by omega
  sl_unfold [k0_t1_body]
  sl_exec (disch := (clear * - k hk1 hlt; decide +kernel +revert))
  -- block 2k of row numbers has landed in slot 0
  icases HF0_dst with ⟨%f1, Hsl0, %hs1⟩
  have hf1 := slot_range (F := F) fi hr d L 0 _ f1 hs1
  ihave Hsl0 := (Entails.of_eq (slot_lit_0 (F := F) d (cV L) (jV L) f1)) $$ Hsl0
  ihave Hls := (Entails.of_eq (slot_lists8 (F := F) d (cV L) (jV L) 0 f1)) $$ Hsl0
  icases Hls with ⟨Hl0, Hl1, Hl2, Hl3, Hl4, Hl5, Hl6, Hl7⟩
  ihave Hl0 := (Entails.of_eq (list_lit_0_0 (F := F) d (cV L) (jV L) f1).symm) $$ Hl0
  ihave Hl1 := (Entails.of_eq (list_lit_0_1 (F := F) d (cV L) (jV L) f1).symm) $$ Hl1
  ihave Hl2 := (Entails.of_eq (list_lit_0_2 (F := F) d (cV L) (jV L) f1).symm) $$ Hl2
  ihave Hl3 := (Entails.of_eq (list_lit_0_3 (F := F) d (cV L) (jV L) f1).symm) $$ Hl3
  ihave Hl4 := (Entails.of_eq (list_lit_0_4 (F := F) d (cV L) (jV L) f1).symm) $$ Hl4
  ihave Hl5 := (Entails.of_eq (list_lit_0_5 (F := F) d (cV L) (jV L) f1).symm) $$ Hl5
  ihave Hl6 := (Entails.of_eq (list_lit_0_6 (F := F) d (cV L) (jV L) f1).symm) $$ Hl6
  ihave Hl7 := (Entails.of_eq (list_lit_0_7 (F := F) d (cV L) (jV L) f1).symm) $$ Hl7
  -- reduction of the list 0 of slot 0: each step stores back what it loaded
  have hfl0 : ListOK (F := F) 0 0 d (cV L) (jV L) f1 := listOK_of_slot (F := F) 0 d (cV L) (jV L) f1 hf1 0
  first
    | sl_for (inv_t2 (F := F) d L f1) $$ [Hl0]
    | (sl_rw [Idealize.SL.Sem.Prog.bind_assoc]; sl_for (inv_t2 (F := F) d L f1) $$ [Hl0])
  · intro k2 acc
    exact step_t2 (F := F) d L v5 v6 (0#32) (1#32) k f1 hfl0 k2 acc
  · iapply (Entails.of_eq (show ((((ibV).slice (Rect.unit (s := S2x1024) ![0, 0] S1x128.size inb_S2x1024_S1x128_0_0) (fun _ => rfl)).squeeze S128 squeezes_S1x128_S128).view.loc (V d (cV L) (jV L)) ↦[(((ibV).slice (Rect.unit (s := S2x1024) ![0, 0] S1x128.size inb_S2x1024_S1x128_0_0) (fun _ => rfl)).squeeze S128 squeezes_S1x128_S128).view.set]{fullShare} f1 : sProp 𝕄) = inv_t2 (F := F) d L f1 0 PUnit.unit from rfl)) $$ Hl0
  iintro %acc2 Hl0
  ihave Hl0 := (Entails.of_eq (show inv_t2 (F := F) d L f1 (Scf.trips k0_t2_loop.lb k0_t2_loop.ub k0_t2_loop.st) acc2 = ((((ibV).slice (Rect.unit (s := S2x1024) ![0, 0] S1x128.size inb_S2x1024_S1x128_0_0) (fun _ => rfl)).squeeze S128 squeezes_S1x128_S128).view.loc (V d (cV L) (jV L)) ↦[(((ibV).slice (Rect.unit (s := S2x1024) ![0, 0] S1x128.size inb_S2x1024_S1x128_0_0) (fun _ => rfl)).squeeze S128 squeezes_S1x128_S128).view.set]{fullShare} f1 : sProp 𝕄) from rfl)) $$ Hl0
  sl_exec (disch := (clear * - k hk1 hlt; decide +kernel +revert))
  -- reduction of the list 1 of slot 0: each step stores back what it loaded
  have hfl1 : ListOK (F := F) 0 1 d (cV L) (jV L) f1 := listOK_of_slot (F := F) 0 d (cV L) (jV L) f1 hf1 1
  first
    | sl_for (inv_t3 (F := F) d L f1) $$ [Hl1]
    | (sl_rw [Idealize.SL.Sem.Prog.bind_assoc]; sl_for (inv_t3 (F := F) d L f1) $$ [Hl1])
  · intro k2 acc
    exact step_t3 (F := F) d L v5 v6 (0#32) (1#32) k f1 hfl1 k2 acc
  · iapply (Entails.of_eq (show ((((ibV).slice (Rect.unit (s := S2x1024) ![0, 128] S1x128.size inb_S2x1024_S1x128_0_128) (fun _ => rfl)).squeeze S128 squeezes_S1x128_S128).view.loc (V d (cV L) (jV L)) ↦[(((ibV).slice (Rect.unit (s := S2x1024) ![0, 128] S1x128.size inb_S2x1024_S1x128_0_128) (fun _ => rfl)).squeeze S128 squeezes_S1x128_S128).view.set]{fullShare} f1 : sProp 𝕄) = inv_t3 (F := F) d L f1 0 PUnit.unit from rfl)) $$ Hl1
  iintro %acc3 Hl1
  ihave Hl1 := (Entails.of_eq (show inv_t3 (F := F) d L f1 (Scf.trips k0_t3_loop.lb k0_t3_loop.ub k0_t3_loop.st) acc3 = ((((ibV).slice (Rect.unit (s := S2x1024) ![0, 128] S1x128.size inb_S2x1024_S1x128_0_128) (fun _ => rfl)).squeeze S128 squeezes_S1x128_S128).view.loc (V d (cV L) (jV L)) ↦[(((ibV).slice (Rect.unit (s := S2x1024) ![0, 128] S1x128.size inb_S2x1024_S1x128_0_128) (fun _ => rfl)).squeeze S128 squeezes_S1x128_S128).view.set]{fullShare} f1 : sProp 𝕄) from rfl)) $$ Hl1
  have hin0 : ∀ x, (((((ibV).slice (Rect.unit (s := S2x1024) ![0, 0] S1x128.size inb_S2x1024_S1x128_0_0) (fun _ => rfl)).squeeze S128 squeezes_S1x128_S128).view.read (Elt F) f1 x : BitVec 32)).toNat < S3x128.size (gathers_S3x128_S128x128).axis :=
    gather_hin gathers_S3x128_S128x128 _ hfl0
  sl_exec (disch := (clear * - k hk1 hlt; decide +kernel +revert))
  -- the copy-out of half 0 has delivered its pair at the lookup: the done interval grows by two blocks; the half is two quarters again
  icases HO0_dst with ⟨%gA, HpA, %hgA⟩
  ihave Hdone := (done_add (F := F) d (cV L) (jV L) (wL L) (pairIn L (16 * k.val - 4) (by omega)) (lo := 16 * k.val - 4) rfl gA (oDone fi ft d) hgA) $$ [Hdone HpA]
  · isplitl [Hdone]; · iexact Hdone
    iexact HpA
  ihave Hdone := (Entails.of_eq (show (oLoc d ↦[rowsIn (wL L) 0 (16 * k.val - 4 + 2)]{fullShare} oDone fi ft d : sProp 𝕄) = (oLoc d ↦[rowsIn (wL L) 0 (16 * k.val - 2)]{fullShare} oDone fi ft d) from by rw [show 16 * k.val - 4 + 2 = 16 * k.val - 2 from by omega])) $$ Hdone
  ihave Hh0 := (Entails.of_eq (half_lit_0 (F := F) d (cV L) (jV L) _)) $$ HO0_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  sl_exec (disch := (clear * - k hk1 hlt; decide +kernel +revert))
  -- reduction of the list 2 of slot 0: each step stores back what it loaded
  have hfl2 : ListOK (F := F) 0 2 d (cV L) (jV L) f1 := listOK_of_slot (F := F) 0 d (cV L) (jV L) f1 hf1 2
  first
    | sl_for (inv_t4 (F := F) d L f1) $$ [Hl2]
    | (sl_rw [Idealize.SL.Sem.Prog.bind_assoc]; sl_for (inv_t4 (F := F) d L f1) $$ [Hl2])
  · intro k2 acc
    exact step_t4 (F := F) d L v5 v6 (0#32) (1#32) k f1 hfl2 k2 acc
  · iapply (Entails.of_eq (show ((((ibV).slice (Rect.unit (s := S2x1024) ![0, 256] S1x128.size inb_S2x1024_S1x128_0_256) (fun _ => rfl)).squeeze S128 squeezes_S1x128_S128).view.loc (V d (cV L) (jV L)) ↦[(((ibV).slice (Rect.unit (s := S2x1024) ![0, 256] S1x128.size inb_S2x1024_S1x128_0_256) (fun _ => rfl)).squeeze S128 squeezes_S1x128_S128).view.set]{fullShare} f1 : sProp 𝕄) = inv_t4 (F := F) d L f1 0 PUnit.unit from rfl)) $$ Hl2
  iintro %acc4 Hl2
  ihave Hl2 := (Entails.of_eq (show inv_t4 (F := F) d L f1 (Scf.trips k0_t4_loop.lb k0_t4_loop.ub k0_t4_loop.st) acc4 = ((((ibV).slice (Rect.unit (s := S2x1024) ![0, 256] S1x128.size inb_S2x1024_S1x128_0_256) (fun _ => rfl)).squeeze S128 squeezes_S1x128_S128).view.loc (V d (cV L) (jV L)) ↦[(((ibV).slice (Rect.unit (s := S2x1024) ![0, 256] S1x128.size inb_S2x1024_S1x128_0_256) (fun _ => rfl)).squeeze S128 squeezes_S1x128_S128).view.set]{fullShare} f1 : sProp 𝕄) from rfl)) $$ Hl2
  have hin1 : ∀ x, (((((ibV).slice (Rect.unit (s := S2x1024) ![0, 128] S1x128.size inb_S2x1024_S1x128_0_128) (fun _ => rfl)).squeeze S128 squeezes_S1x128_S128).view.read (Elt F) f1 x : BitVec 32)).toNat < S3x128.size (gathers_S3x128_S128x128).axis :=
    gather_hin gathers_S3x128_S128x128 _ hfl1
  sl_exec (disch := (clear * - k hk1 hlt; decide +kernel +revert))
  -- the last two gathers of the previous block have landed: the second half reads blocks 16k-2, 16k-1 of the lookup
  icases HG10_dst with ⟨⟨%b10, Hq10, %hb10⟩, Hn6⟩
  icases HG11_dst with ⟨⟨%b11, Hq11, %hb11⟩, Hn7⟩
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 b10 b11) $$ [Hq10 Hq11]
  · isplitl [Hq10] <;> iassumption
  ihave Hh1 := (Entails.of_eq (half_lit_1 (F := F) d (cV L) (jV L) _).symm) $$ Hh1
  have hc3 : k0_cond3 k = 1#1 := (by decide +kernel : ∀ k : Fin k0_t1_loop.trips, 1 ≤ k.val → k0_cond3 k = 1#1) k hk1
  have hoff7 : _ = (![800 * (wL L).val + (16 * k.val - 2), 0, 0] : Fin 3 → ℕ) := ((by decide +kernel : ∀ (i : grid0.Coords) (k : Fin k0_t1_loop.trips), 1 ≤ k.val → k0_off7 i k = ![1600 * (i 1).val + 800 * (i 0).val + 16 * k.val - 2, 0, 0]) L k hk1).trans (congrArg (fun n => (![n, 0, 0] : Fin 3 → ℕ)) (by show _ = 800 * ((L 1).val * 2 + (L 0).val) + (16 * k.val - 2); omega))
  ihave Hp := (rest_take (F := F) d (cV L) (jV L) (wL L) (k0_off7_inb L k hc3) (lo := 16 * k.val - 2) hoff7 (by omega) (fo d)) $$ Hrest
  icases Hp with ⟨HpB, Hrest⟩
  ihave Hrest := (Entails.of_eq (show (oLoc d ↦[rowsIn (wL L) (16 * k.val - 2 + 2) 800]{fullShare} fo d : sProp 𝕄) = (oLoc d ↦[rowsIn (wL L) (16 * k.val) 800]{fullShare} fo d) from by rw [show 16 * k.val - 2 + 2 = 16 * k.val from by omega])) $$ Hrest
  sl_exec (disch := (clear * - k hk1 hlt; decide +kernel +revert))
  sl_unfold_run_names
  ihave Hs10 := (out_clean1 (F := F) fi ft d L _ _ _ (fo d) b10 b11 (k0_off7_inb L k hc3) (16 * k.val - 2) (by omega) hoff7 (QuarterIs_cast (F := F) fi ft (by omega) hb10) (QuarterIs_cast (F := F) fi ft (by omega) hb11)) $$ Hs10
  unfold OutD1
  -- reduction of the list 3 of slot 0: each step stores back what it loaded
  have hfl3 : ListOK (F := F) 0 3 d (cV L) (jV L) f1 := listOK_of_slot (F := F) 0 d (cV L) (jV L) f1 hf1 3
  first
    | sl_for (inv_t5 (F := F) d L f1) $$ [Hl3]
    | (sl_rw [Idealize.SL.Sem.Prog.bind_assoc]; sl_for (inv_t5 (F := F) d L f1) $$ [Hl3])
  · intro k2 acc
    exact step_t5 (F := F) d L v5 v6 k (0#32) (0#1) f1 hfl3 k2 acc
  · iapply (Entails.of_eq (show ((((ibV).slice (Rect.unit (s := S2x1024) ![0, 384] S1x128.size inb_S2x1024_S1x128_0_384) (fun _ => rfl)).squeeze S128 squeezes_S1x128_S128).view.loc (V d (cV L) (jV L)) ↦[(((ibV).slice (Rect.unit (s := S2x1024) ![0, 384] S1x128.size inb_S2x1024_S1x128_0_384) (fun _ => rfl)).squeeze S128 squeezes_S1x128_S128).view.set]{fullShare} f1 : sProp 𝕄) = inv_t5 (F := F) d L f1 0 PUnit.unit from rfl)) $$ Hl3
  iintro %acc5 Hl3
  ihave Hl3 := (Entails.of_eq (show inv_t5 (F := F) d L f1 (Scf.trips k0_t5_loop.lb k0_t5_loop.ub k0_t5_loop.st) acc5 = ((((ibV).slice (Rect.unit (s := S2x1024) ![0, 384] S1x128.size inb_S2x1024_S1x128_0_384) (fun _ => rfl)).squeeze S128 squeezes_S1x128_S128).view.loc (V d (cV L) (jV L)) ↦[(((ibV).slice (Rect.unit (s := S2x1024) ![0, 384] S1x128.size inb_S2x1024_S1x128_0_384) (fun _ => rfl)).squeeze S128 squeezes_S1x128_S128).view.set]{fullShare} f1 : sProp 𝕄) from rfl)) $$ Hl3
  have hin2 : ∀ x, (((((ibV).slice (Rect.unit (s := S2x1024) ![0, 256] S1x128.size inb_S2x1024_S1x128_0_256) (fun _ => rfl)).squeeze S128 squeezes_S1x128_S128).view.read (Elt F) f1 x : BitVec 32)).toNat < S3x128.size (gathers_S3x128_S128x128).axis :=
    gather_hin gathers_S3x128_S128x128 _ hfl2
  -- the second slot is free again: its first six lists and the two the gathers handed back are the slot the next block is copied into
  ihave Hn6 := (Entails.of_eq (list_lit_1_6 (F := F) d (cV L) (jV L) f2)) $$ Hn6
  ihave Hn7 := (Entails.of_eq (list_lit_1_7 (F := F) d (cV L) (jV L) f2)) $$ Hn7
  ihave Hsl1 := (slot1_back (F := F) d (cV L) (jV L) f2) $$ [Hm05 Hn6 Hn7]
  · isplitl [Hm05]; · iexact Hm05
    isplitl [Hn6] <;> iassumption
  ihave Hsl1 := (Entails.of_eq (slot_lit_1 (F := F) d (cV L) (jV L) f2).symm) $$ Hsl1
  sl_exec (disch := (clear * - k hk1 hlt; decide +kernel +revert))
  have hg1 : 2 * k.val + 1 < 100 := by omega
  have hoffI1 : _ = (![102400 * (wL L).val + 1024 * (2 * k.val + 1)] : Fin 1 → ℕ) := (k0_off9_eq L k).trans (congrArg (fun n => (![n] : Fin 1 → ℕ)) (by show _ = 102400 * ((L 1).val * 2 + (L 0).val) + 1024 * (2 * k.val + 1); omega))
  sl_unfold_run_names
  ihave Hs4 := (idx_clean1 (F := F) fi hr d L _ _ _ _ _ (2 * k.val + 1) hg1 hoffI1) $$ Hs4
  unfold IdxD1 idxBlk
  ihave Hi' := (Entails.of_eq (idx_rest (F := F) fi d L _ (2 * k.val + 1) hg1 hoffI1)) $$ Hi'
  -- the copy-out of half 1 has delivered its pair at the lookup: the done interval grows by two blocks; the half is two quarters again
  icases Hs10_dst with ⟨%gB2, HpB2, %hgB2⟩
  ihave Hdone := (done_add (F := F) d (cV L) (jV L) (wL L) (pairIn L (16 * k.val - 2) (by omega)) (lo := 16 * k.val - 2) rfl gB2 (oDone fi ft d) hgB2) $$ [Hdone HpB2]
  · isplitl [Hdone]; · iexact Hdone
    iexact HpB2
  ihave Hdone := (Entails.of_eq (show (oLoc d ↦[rowsIn (wL L) 0 (16 * k.val - 2 + 2)]{fullShare} oDone fi ft d : sProp 𝕄) = (oLoc d ↦[rowsIn (wL L) 0 (16 * k.val)]{fullShare} oDone fi ft d) from by rw [show 16 * k.val - 2 + 2 = 16 * k.val from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  sl_exec (disch := (clear * - k hk1 hlt; decide +kernel +revert))
  -- reduction of the list 4 of slot 0: each step stores back what it loaded
  have hfl4 : ListOK (F := F) 0 4 d (cV L) (jV L) f1 := listOK_of_slot (F := F) 0 d (cV L) (jV L) f1 hf1 4
  first
    | sl_for (inv_t6 (F := F) d L f1) $$ [Hl4]
    | (sl_rw [Idealize.SL.Sem.Prog.bind_assoc]; sl_for (inv_t6 (F := F) d L f1) $$ [Hl4])
  · intro k2 acc
    exact step_t6 (F := F) d L v5 v6 k (0#32) (0#1) f1 hfl4 k2 acc
  · iapply (Entails.of_eq (show ((((ibV).slice (Rect.unit (s := S2x1024) ![0, 512] S1x128.size inb_S2x1024_S1x128_0_512) (fun _ => rfl)).squeeze S128 squeezes_S1x128_S128).view.loc (V d (cV L) (jV L)) ↦[(((ibV).slice (Rect.unit (s := S2x1024) ![0, 512] S1x128.size inb_S2x1024_S1x128_0_512) (fun _ => rfl)).squeeze S128 squeezes_S1x128_S128).view.set]{fullShare} f1 : sProp 𝕄) = inv_t6 (F := F) d L f1 0 PUnit.unit from rfl)) $$ Hl4
  iintro %acc6 Hl4
  ihave Hl4 := (Entails.of_eq (show inv_t6 (F := F) d L f1 (Scf.trips k0_t6_loop.lb k0_t6_loop.ub k0_t6_loop.st) acc6 = ((((ibV).slice (Rect.unit (s := S2x1024) ![0, 512] S1x128.size inb_S2x1024_S1x128_0_512) (fun _ => rfl)).squeeze S128 squeezes_S1x128_S128).view.loc (V d (cV L) (jV L)) ↦[(((ibV).slice (Rect.unit (s := S2x1024) ![0, 512] S1x128.size inb_S2x1024_S1x128_0_512) (fun _ => rfl)).squeeze S128 squeezes_S1x128_S128).view.set]{fullShare} f1 : sProp 𝕄) from rfl)) $$ Hl4
  have hin3 : ∀ x, (((((ibV).slice (Rect.unit (s := S2x1024) ![0, 384] S1x128.size inb_S2x1024_S1x128_0_384) (fun _ => rfl)).squeeze S128 squeezes_S1x128_S128).view.read (Elt F) f1 x : BitVec 32)).toNat < S3x128.size (gathers_S3x128_S128x128).axis :=
    gather_hin gathers_S3x128_S128x128 _ hfl3
  sl_exec (disch := (clear * - k hk1 hlt; decide +kernel +revert))
  -- the two gathered quarters of half 0 read blocks 16 * k.val, 16 * k.val + 1 of the lookup; joined, they are copied out to that pair of the worker's blocks
  ihave Hg := (pts_name (F := F) _ _ _) $$ Hq00
  icases Hg with ⟨%aP00, Hq00, %eaP00⟩
  have hqaP00 : QuarterIs fi ft d L 0 0 (8 * (2 * k.val) + 0) aP00 := by
    rw [eaP00]; exact gather_fact (F := F) fi ft hr d L 0 0 0 0 (2 * k.val) hg0 f1 hs1 _ _ _
  ihave Hg := (pts_name (F := F) _ _ _) $$ Hq01
  icases Hg with ⟨%aP01, Hq01, %eaP01⟩
  have hqaP01 : QuarterIs fi ft d L 0 1 (8 * (2 * k.val) + 1) aP01 := by
    rw [eaP01]; exact gather_fact (F := F) fi ft hr d L 0 1 0 1 (2 * k.val) hg0 f1 hs1 _ _ _
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 aP00 aP01) $$ [Hq00 Hq01]
  · isplitl [Hq00] <;> iassumption
  ihave Hh0 := (Entails.of_eq (half_lit_0 (F := F) d (cV L) (jV L) _).symm) $$ Hh0
  have hoffP0 : _ = (![800 * (wL L).val + (16 * k.val), 0, 0] : Fin 3 → ℕ) := (k0_off12_eq L k 0 0).trans (congrArg (fun n => (![n, 0, 0] : Fin 3 → ℕ)) (by show _ = 800 * ((L 1).val * 2 + (L 0).val) + (16 * k.val); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 0 0) (lo := 16 * k.val) hoffP0 (by omega) (fo d)) $$ Hrest
  icases Hp with ⟨HpP0, Hrest⟩
  ihave Hrest := (Entails.of_eq (show (oLoc d ↦[rowsIn (wL L) (16 * k.val + 2) 800]{fullShare} fo d : sProp 𝕄) = (oLoc d ↦[rowsIn (wL L) (16 * k.val + 2) 800]{fullShare} fo d) from by rw [show 16 * k.val + 2 = 16 * k.val + 2 from by omega])) $$ Hrest
  sl_exec (disch := (clear * - k hk1 hlt; decide +kernel +revert))
  sl_unfold_run_names
  ihave HO0 := (out_clean0 (F := F) fi ft d L _ _ _ (fo d) aP00 aP01 (k0_off12_inb L k 0 0) (16 * k.val) (by omega) hoffP0 (QuarterIs_cast (F := F) fi ft (by omega) hqaP00) (QuarterIs_cast (F := F) fi ft (by omega) hqaP01)) $$ HO0
  unfold OutD0
  -- reduction of the list 5 of slot 0: each step stores back what it loaded
  have hfl5 : ListOK (F := F) 0 5 d (cV L) (jV L) f1 := listOK_of_slot (F := F) 0 d (cV L) (jV L) f1 hf1 5
  first
    | sl_for (inv_t7 (F := F) d L f1) $$ [Hl5]
    | (sl_rw [Idealize.SL.Sem.Prog.bind_assoc]; sl_for (inv_t7 (F := F) d L f1) $$ [Hl5])
  · intro k2 acc
    exact step_t7 (F := F) d L v6 f1 hfl5 k2 acc
  · iapply (Entails.of_eq (show ((((ibV).slice (Rect.unit (s := S2x1024) ![0, 640] S1x128.size inb_S2x1024_S1x128_0_640) (fun _ => rfl)).squeeze S128 squeezes_S1x128_S128).view.loc (V d (cV L) (jV L)) ↦[(((ibV).slice (Rect.unit (s := S2x1024) ![0, 640] S1x128.size inb_S2x1024_S1x128_0_640) (fun _ => rfl)).squeeze S128 squeezes_S1x128_S128).view.set]{fullShare} f1 : sProp 𝕄) = inv_t7 (F := F) d L f1 0 PUnit.unit from rfl)) $$ Hl5
  iintro %acc7 Hl5
  ihave Hl5 := (Entails.of_eq (show inv_t7 (F := F) d L f1 (Scf.trips k0_t7_loop.lb k0_t7_loop.ub k0_t7_loop.st) acc7 = ((((ibV).slice (Rect.unit (s := S2x1024) ![0, 640] S1x128.size inb_S2x1024_S1x128_0_640) (fun _ => rfl)).squeeze S128 squeezes_S1x128_S128).view.loc (V d (cV L) (jV L)) ↦[(((ibV).slice (Rect.unit (s := S2x1024) ![0, 640] S1x128.size inb_S2x1024_S1x128_0_640) (fun _ => rfl)).squeeze S128 squeezes_S1x128_S128).view.set]{fullShare} f1 : sProp 𝕄) from rfl)) $$ Hl5
  have hin4 : ∀ x, (((((ibV).slice (Rect.unit (s := S2x1024) ![0, 512] S1x128.size inb_S2x1024_S1x128_0_512) (fun _ => rfl)).squeeze S128 squeezes_S1x128_S128).view.read (Elt F) f1 x : BitVec 32)).toNat < S3x128.size (gathers_S3x128_S128x128).axis :=
    gather_hin gathers_S3x128_S128x128 _ hfl4
  sl_exec (disch := (clear * - k hk1 hlt; decide +kernel +revert))
  -- the copy-out of half 0 has delivered its pair at the lookup: the done interval grows by two blocks; the half is two quarters again
  icases HO0_dst with ⟨%gM0, HpM0, %hgM0⟩
  ihave Hdone := (done_add (F := F) d (cV L) (jV L) (wL L) (pairIn L (16 * k.val) (by omega)) (lo := 16 * k.val) rfl gM0 (oDone fi ft d) hgM0) $$ [Hdone HpM0]
  · isplitl [Hdone]; · iexact Hdone
    iexact HpM0
  ihave Hdone := (Entails.of_eq (show (oLoc d ↦[rowsIn (wL L) 0 (16 * k.val + 2)]{fullShare} oDone fi ft d : sProp 𝕄) = (oLoc d ↦[rowsIn (wL L) 0 (16 * k.val + 2)]{fullShare} oDone fi ft d) from by rw [show 16 * k.val + 2 = 16 * k.val + 2 from by omega])) $$ Hdone
  ihave Hh0 := (Entails.of_eq (half_lit_0 (F := F) d (cV L) (jV L) _)) $$ HO0_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  sl_exec (disch := (clear * - k hk1 hlt; decide +kernel +revert))
  -- reduction of the list 6 of slot 0: each step stores back what it loaded
  have hfl6 : ListOK (F := F) 0 6 d (cV L) (jV L) f1 := listOK_of_slot (F := F) 0 d (cV L) (jV L) f1 hf1 6
  first
    | sl_for (inv_t8 (F := F) d L f1) $$ [Hl6]
    | (sl_rw [Idealize.SL.Sem.Prog.bind_assoc]; sl_for (inv_t8 (F := F) d L f1) $$ [Hl6])
  · intro k2 acc
    exact step_t8 (F := F) d L v6 f1 hfl6 k2 acc
  · iapply (Entails.of_eq (show ((((ibV).slice (Rect.unit (s := S2x1024) ![0, 768] S1x128.size inb_S2x1024_S1x128_0_768) (fun _ => rfl)).squeeze S128 squeezes_S1x128_S128).view.loc (V d (cV L) (jV L)) ↦[(((ibV).slice (Rect.unit (s := S2x1024) ![0, 768] S1x128.size inb_S2x1024_S1x128_0_768) (fun _ => rfl)).squeeze S128 squeezes_S1x128_S128).view.set]{fullShare} f1 : sProp 𝕄) = inv_t8 (F := F) d L f1 0 PUnit.unit from rfl)) $$ Hl6
  iintro %acc8 Hl6
  ihave Hl6 := (Entails.of_eq (show inv_t8 (F := F) d L f1 (Scf.trips k0_t8_loop.lb k0_t8_loop.ub k0_t8_loop.st) acc8 = ((((ibV).slice (Rect.unit (s := S2x1024) ![0, 768] S1x128.size inb_S2x1024_S1x128_0_768) (fun _ => rfl)).squeeze S128 squeezes_S1x128_S128).view.loc (V d (cV L) (jV L)) ↦[(((ibV).slice (Rect.unit (s := S2x1024) ![0, 768] S1x128.size inb_S2x1024_S1x128_0_768) (fun _ => rfl)).squeeze S128 squeezes_S1x128_S128).view.set]{fullShare} f1 : sProp 𝕄) from rfl)) $$ Hl6
  have hin5 : ∀ x, (((((ibV).slice (Rect.unit (s := S2x1024) ![0, 640] S1x128.size inb_S2x1024_S1x128_0_640) (fun _ => rfl)).squeeze S128 squeezes_S1x128_S128).view.read (Elt F) f1 x : BitVec 32)).toNat < S3x128.size (gathers_S3x128_S128x128).axis :=
    gather_hin gathers_S3x128_S128x128 _ hfl5
  sl_exec (disch := (clear * - k hk1 hlt; decide +kernel +revert))
  -- the two gathered quarters of half 1 read blocks 16 * k.val + 2, 16 * k.val + 2 + 1 of the lookup; joined, they are copied out to that pair of the worker's blocks
  ihave Hg := (pts_name (F := F) _ _ _) $$ Hq10
  icases Hg with ⟨%aP10, Hq10, %eaP10⟩
  have hqaP10 : QuarterIs fi ft d L 1 0 (8 * (2 * k.val) + 2) aP10 := by
    rw [eaP10]; exact gather_fact (F := F) fi ft hr d L 0 2 1 0 (2 * k.val) hg0 f1 hs1 _ _ _
  ihave Hg := (pts_name (F := F) _ _ _) $$ Hq11
  icases Hg with ⟨%aP11, Hq11, %eaP11⟩
  have hqaP11 : QuarterIs fi ft d L 1 1 (8 * (2 * k.val) + 3) aP11 := by
    rw [eaP11]; exact gather_fact (F := F) fi ft hr d L 0 3 1 1 (2 * k.val) hg0 f1 hs1 _ _ _
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 aP10 aP11) $$ [Hq10 Hq11]
  · isplitl [Hq10] <;> iassumption
  ihave Hh1 := (Entails.of_eq (half_lit_1 (F := F) d (cV L) (jV L) _).symm) $$ Hh1
  have hoffP1 : _ = (![800 * (wL L).val + (16 * k.val + 2), 0, 0] : Fin 3 → ℕ) := (k0_off12_eq L k 0 1).trans (congrArg (fun n => (![n, 0, 0] : Fin 3 → ℕ)) (by show _ = 800 * ((L 1).val * 2 + (L 0).val) + (16 * k.val + 2); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 0 1) (lo := 16 * k.val + 2) hoffP1 (by omega) (fo d)) $$ Hrest
  icases Hp with ⟨HpP1, Hrest⟩
  ihave Hrest := (Entails.of_eq (show (oLoc d ↦[rowsIn (wL L) (16 * k.val + 2 + 2) 800]{fullShare} fo d : sProp 𝕄) = (oLoc d ↦[rowsIn (wL L) (16 * k.val + 4) 800]{fullShare} fo d) from by rw [show 16 * k.val + 2 + 2 = 16 * k.val + 4 from by omega])) $$ Hrest
  sl_exec (disch := (clear * - k hk1 hlt; decide +kernel +revert))
  sl_unfold_run_names
  ihave Hs10 := (out_clean1 (F := F) fi ft d L _ _ _ (fo d) aP10 aP11 (k0_off12_inb L k 0 1) (16 * k.val + 2) (by omega) hoffP1 (QuarterIs_cast (F := F) fi ft (by omega) hqaP10) (QuarterIs_cast (F := F) fi ft (by omega) hqaP11)) $$ Hs10
  unfold OutD1
  -- reduction of the list 7 of slot 0: each step stores back what it loaded
  have hfl7 : ListOK (F := F) 0 7 d (cV L) (jV L) f1 := listOK_of_slot (F := F) 0 d (cV L) (jV L) f1 hf1 7
  first
    | sl_for (inv_t9 (F := F) d L f1) $$ [Hl7]
    | (sl_rw [Idealize.SL.Sem.Prog.bind_assoc]; sl_for (inv_t9 (F := F) d L f1) $$ [Hl7])
  · intro k2 acc
    exact step_t9 (F := F) d L v6 (0#32) f1 hfl7 k2 acc
  · iapply (Entails.of_eq (show ((((ibV).slice (Rect.unit (s := S2x1024) ![0, 896] S1x128.size inb_S2x1024_S1x128_0_896) (fun _ => rfl)).squeeze S128 squeezes_S1x128_S128).view.loc (V d (cV L) (jV L)) ↦[(((ibV).slice (Rect.unit (s := S2x1024) ![0, 896] S1x128.size inb_S2x1024_S1x128_0_896) (fun _ => rfl)).squeeze S128 squeezes_S1x128_S128).view.set]{fullShare} f1 : sProp 𝕄) = inv_t9 (F := F) d L f1 0 PUnit.unit from rfl)) $$ Hl7
  iintro %acc9 Hl7
  ihave Hl7 := (Entails.of_eq (show inv_t9 (F := F) d L f1 (Scf.trips k0_t9_loop.lb k0_t9_loop.ub k0_t9_loop.st) acc9 = ((((ibV).slice (Rect.unit (s := S2x1024) ![0, 896] S1x128.size inb_S2x1024_S1x128_0_896) (fun _ => rfl)).squeeze S128 squeezes_S1x128_S128).view.loc (V d (cV L) (jV L)) ↦[(((ibV).slice (Rect.unit (s := S2x1024) ![0, 896] S1x128.size inb_S2x1024_S1x128_0_896) (fun _ => rfl)).squeeze S128 squeezes_S1x128_S128).view.set]{fullShare} f1 : sProp 𝕄) from rfl)) $$ Hl7
  have hin6 : ∀ x, (((((ibV).slice (Rect.unit (s := S2x1024) ![0, 768] S1x128.size inb_S2x1024_S1x128_0_768) (fun _ => rfl)).squeeze S128 squeezes_S1x128_S128).view.read (Elt F) f1 x : BitVec 32)).toNat < S3x128.size (gathers_S3x128_S128x128).axis :=
    gather_hin gathers_S3x128_S128x128 _ hfl6
  have hin7 : ∀ x, (((((ibV).slice (Rect.unit (s := S2x1024) ![0, 896] S1x128.size inb_S2x1024_S1x128_0_896) (fun _ => rfl)).squeeze S128 squeezes_S1x128_S128).view.read (Elt F) f1 x : BitVec 32)).toNat < S3x128.size (gathers_S3x128_S128x128).axis :=
    gather_hin gathers_S3x128_S128x128 _ hfl7
  sl_exec (disch := (clear * - k hk1 hlt; decide +kernel +revert))
  -- the copy-out of half 1 has delivered its pair at the lookup: the done interval grows by two blocks; the half is two quarters again
  icases Hs10_dst with ⟨%gM1, HpM1, %hgM1⟩
  ihave Hdone := (done_add (F := F) d (cV L) (jV L) (wL L) (pairIn L (16 * k.val + 2) (by omega)) (lo := 16 * k.val + 2) rfl gM1 (oDone fi ft d) hgM1) $$ [Hdone HpM1]
  · isplitl [Hdone]; · iexact Hdone
    iexact HpM1
  ihave Hdone := (Entails.of_eq (show (oLoc d ↦[rowsIn (wL L) 0 (16 * k.val + 2 + 2)]{fullShare} oDone fi ft d : sProp 𝕄) = (oLoc d ↦[rowsIn (wL L) 0 (16 * k.val + 4)]{fullShare} oDone fi ft d) from by rw [show 16 * k.val + 2 + 2 = 16 * k.val + 4 from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  sl_exec (disch := (clear * - k hk1 hlt; decide +kernel +revert))
  -- the two gathered quarters of half 0 read blocks 16 * k.val + 4, 16 * k.val + 4 + 1 of the lookup; joined, they are copied out to that pair of the worker's blocks
  ihave Hg := (pts_name (F := F) _ _ _) $$ Hq00
  icases Hg with ⟨%aP20, Hq00, %eaP20⟩
  have hqaP20 : QuarterIs fi ft d L 0 0 (8 * (2 * k.val) + 4) aP20 := by
    rw [eaP20]; exact gather_fact (F := F) fi ft hr d L 0 4 0 0 (2 * k.val) hg0 f1 hs1 _ _ _
  ihave Hg := (pts_name (F := F) _ _ _) $$ Hq01
  icases Hg with ⟨%aP21, Hq01, %eaP21⟩
  have hqaP21 : QuarterIs fi ft d L 0 1 (8 * (2 * k.val) + 5) aP21 := by
    rw [eaP21]; exact gather_fact (F := F) fi ft hr d L 0 5 0 1 (2 * k.val) hg0 f1 hs1 _ _ _
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 aP20 aP21) $$ [Hq00 Hq01]
  · isplitl [Hq00] <;> iassumption
  ihave Hh0 := (Entails.of_eq (half_lit_0 (F := F) d (cV L) (jV L) _).symm) $$ Hh0
  have hoffP2 : _ = (![800 * (wL L).val + (16 * k.val + 4), 0, 0] : Fin 3 → ℕ) := (k0_off12_eq L k 0 2).trans (congrArg (fun n => (![n, 0, 0] : Fin 3 → ℕ)) (by show _ = 800 * ((L 1).val * 2 + (L 0).val) + (16 * k.val + 4); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 0 2) (lo := 16 * k.val + 4) hoffP2 (by omega) (fo d)) $$ Hrest
  icases Hp with ⟨HpP2, Hrest⟩
  ihave Hrest := (Entails.of_eq (show (oLoc d ↦[rowsIn (wL L) (16 * k.val + 4 + 2) 800]{fullShare} fo d : sProp 𝕄) = (oLoc d ↦[rowsIn (wL L) (16 * k.val + 6) 800]{fullShare} fo d) from by rw [show 16 * k.val + 4 + 2 = 16 * k.val + 6 from by omega])) $$ Hrest
  sl_exec (disch := (clear * - k hk1 hlt; decide +kernel +revert))
  sl_unfold_run_names
  ihave HO0 := (out_clean0 (F := F) fi ft d L _ _ _ (fo d) aP20 aP21 (k0_off12_inb L k 0 2) (16 * k.val + 4) (by omega) hoffP2 (QuarterIs_cast (F := F) fi ft (by omega) hqaP20) (QuarterIs_cast (F := F) fi ft (by omega) hqaP21)) $$ HO0
  unfold OutD0
  -- block 2k+1 of row numbers has landed in slot 1
  icases Hs4_dst with ⟨%f3, Hsl1, %hs3⟩
  have hf3 := slot_range (F := F) fi hr d L 1 _ f3 hs3
  ihave Hsl1 := (Entails.of_eq (slot_lit_1 (F := F) d (cV L) (jV L) f3)) $$ Hsl1
  ihave Hls := (Entails.of_eq (slot_lists8 (F := F) d (cV L) (jV L) 1 f3)) $$ Hsl1
  icases Hls with ⟨Hm0, Hm1, Hm2, Hm3, Hm4, Hm5, Hm6, Hm7⟩
  ihave Hm0 := (Entails.of_eq (list_lit_1_0 (F := F) d (cV L) (jV L) f3).symm) $$ Hm0
  ihave Hm1 := (Entails.of_eq (list_lit_1_1 (F := F) d (cV L) (jV L) f3).symm) $$ Hm1
  ihave Hm2 := (Entails.of_eq (list_lit_1_2 (F := F) d (cV L) (jV L) f3).symm) $$ Hm2
  ihave Hm3 := (Entails.of_eq (list_lit_1_3 (F := F) d (cV L) (jV L) f3).symm) $$ Hm3
  ihave Hm4 := (Entails.of_eq (list_lit_1_4 (F := F) d (cV L) (jV L) f3).symm) $$ Hm4
  ihave Hm5 := (Entails.of_eq (list_lit_1_5 (F := F) d (cV L) (jV L) f3).symm) $$ Hm5
  ihave Hm6 := (Entails.of_eq (list_lit_1_6 (F := F) d (cV L) (jV L) f3).symm) $$ Hm6
  ihave Hm7 := (Entails.of_eq (list_lit_1_7 (F := F) d (cV L) (jV L) f3).symm) $$ Hm7
  -- reduction of the list 0 of slot 1: each step stores back what it loaded
  have hfm0 : ListOK (F := F) 1 0 d (cV L) (jV L) f3 := listOK_of_slot (F := F) 1 d (cV L) (jV L) f3 hf3 0
  first
    | sl_for (inv_t10 (F := F) d L f3) $$ [Hm0]
    | (sl_rw [Idealize.SL.Sem.Prog.bind_assoc]; sl_for (inv_t10 (F := F) d L f3) $$ [Hm0])
  · intro k2 acc
    exact step_t10 (F := F) d L v6 k (0#32) (0#32) f3 hfm0 k2 acc
  · iapply (Entails.of_eq (show ((((ibV).slice (Rect.unit (s := S2x1024) ![1, 0] S1x128.size inb_S2x1024_S1x128_1_0) (fun _ => rfl)).squeeze S128 squeezes_S1x128_S128).view.loc (V d (cV L) (jV L)) ↦[(((ibV).slice (Rect.unit (s := S2x1024) ![1, 0] S1x128.size inb_S2x1024_S1x128_1_0) (fun _ => rfl)).squeeze S128 squeezes_S1x128_S128).view.set]{fullShare} f3 : sProp 𝕄) = inv_t10 (F := F) d L f3 0 PUnit.unit from rfl)) $$ Hm0
  iintro %acc10 Hm0
  ihave Hm0 := (Entails.of_eq (show inv_t10 (F := F) d L f3 (Scf.trips k0_t10_loop.lb k0_t10_loop.ub k0_t10_loop.st) acc10 = ((((ibV).slice (Rect.unit (s := S2x1024) ![1, 0] S1x128.size inb_S2x1024_S1x128_1_0) (fun _ => rfl)).squeeze S128 squeezes_S1x128_S128).view.loc (V d (cV L) (jV L)) ↦[(((ibV).slice (Rect.unit (s := S2x1024) ![1, 0] S1x128.size inb_S2x1024_S1x128_1_0) (fun _ => rfl)).squeeze S128 squeezes_S1x128_S128).view.set]{fullShare} f3 : sProp 𝕄) from rfl)) $$ Hm0
  sl_exec (disch := (clear * - k hk1 hlt; decide +kernel +revert))
  -- reduction of the list 1 of slot 1: each step stores back what it loaded
  have hfm1 : ListOK (F := F) 1 1 d (cV L) (jV L) f3 := listOK_of_slot (F := F) 1 d (cV L) (jV L) f3 hf3 1
  first
    | sl_for (inv_t11 (F := F) d L f3) $$ [Hm1]
    | (sl_rw [Idealize.SL.Sem.Prog.bind_assoc]; sl_for (inv_t11 (F := F) d L f3) $$ [Hm1])
  · intro k2 acc
    exact step_t11 (F := F) d L v6 k (0#32) (0#32) f3 hfm1 k2 acc
  · iapply (Entails.of_eq (show ((((ibV).slice (Rect.unit (s := S2x1024) ![1, 128] S1x128.size inb_S2x1024_S1x128_1_128) (fun _ => rfl)).squeeze S128 squeezes_S1x128_S128).view.loc (V d (cV L) (jV L)) ↦[(((ibV).slice (Rect.unit (s := S2x1024) ![1, 128] S1x128.size inb_S2x1024_S1x128_1_128) (fun _ => rfl)).squeeze S128 squeezes_S1x128_S128).view.set]{fullShare} f3 : sProp 𝕄) = inv_t11 (F := F) d L f3 0 PUnit.unit from rfl)) $$ Hm1
  iintro %acc11 Hm1
  ihave Hm1 := (Entails.of_eq (show inv_t11 (F := F) d L f3 (Scf.trips k0_t11_loop.lb k0_t11_loop.ub k0_t11_loop.st) acc11 = ((((ibV).slice (Rect.unit (s := S2x1024) ![1, 128] S1x128.size inb_S2x1024_S1x128_1_128) (fun _ => rfl)).squeeze S128 squeezes_S1x128_S128).view.loc (V d (cV L) (jV L)) ↦[(((ibV).slice (Rect.unit (s := S2x1024) ![1, 128] S1x128.size inb_S2x1024_S1x128_1_128) (fun _ => rfl)).squeeze S128 squeezes_S1x128_S128).view.set]{fullShare} f3 : sProp 𝕄) from rfl)) $$ Hm1
  have him0 : ∀ x, (((((ibV).slice (Rect.unit (s := S2x1024) ![1, 0] S1x128.size inb_S2x1024_S1x128_1_0) (fun _ => rfl)).squeeze S128 squeezes_S1x128_S128).view.read (Elt F) f3 x : BitVec 32)).toNat < S3x128.size (gathers_S3x128_S128x128).axis :=
    gather_hin gathers_S3x128_S128x128 _ hfm0
  sl_exec (disch := (clear * - k hk1 hlt; decide +kernel +revert))
  -- the copy-out of half 0 has delivered its pair at the lookup: the done interval grows by two blocks; the half is two quarters again
  icases HO0_dst with ⟨%gN0, HpN0, %hgN0⟩
  ihave Hdone := (done_add (F := F) d (cV L) (jV L) (wL L) (pairIn L (16 * k.val + 4) (by omega)) (lo := 16 * k.val + 4) rfl gN0 (oDone fi ft d) hgN0) $$ [Hdone HpN0]
  · isplitl [Hdone]; · iexact Hdone
    iexact HpN0
  ihave Hdone := (Entails.of_eq (show (oLoc d ↦[rowsIn (wL L) 0 (16 * k.val + 4 + 2)]{fullShare} oDone fi ft d : sProp 𝕄) = (oLoc d ↦[rowsIn (wL L) 0 (16 * k.val + 6)]{fullShare} oDone fi ft d) from by rw [show 16 * k.val + 4 + 2 = 16 * k.val + 6 from by omega])) $$ Hdone
  ihave Hh0 := (Entails.of_eq (half_lit_0 (F := F) d (cV L) (jV L) _)) $$ HO0_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  sl_exec (disch := (clear * - k hk1 hlt; decide +kernel +revert))
  -- reduction of the list 2 of slot 1: each step stores back what it loaded
  have hfm2 : ListOK (F := F) 1 2 d (cV L) (jV L) f3 := listOK_of_slot (F := F) 1 d (cV L) (jV L) f3 hf3 2
  first
    | sl_for (inv_t12 (F := F) d L f3) $$ [Hm2]
    | (sl_rw [Idealize.SL.Sem.Prog.bind_assoc]; sl_for (inv_t12 (F := F) d L f3) $$ [Hm2])
  · intro k2 acc
    exact step_t12 (F := F) d L v6 k (0#32) (0#32) f3 hfm2 k2 acc
  · iapply (Entails.of_eq (show ((((ibV).slice (Rect.unit (s := S2x1024) ![1, 256] S1x128.size inb_S2x1024_S1x128_1_256) (fun _ => rfl)).squeeze S128 squeezes_S1x128_S128).view.loc (V d (cV L) (jV L)) ↦[(((ibV).slice (Rect.unit (s := S2x1024) ![1, 256] S1x128.size inb_S2x1024_S1x128_1_256) (fun _ => rfl)).squeeze S128 squeezes_S1x128_S128).view.set]{fullShare} f3 : sProp 𝕄) = inv_t12 (F := F) d L f3 0 PUnit.unit from rfl)) $$ Hm2
  iintro %acc12 Hm2
  ihave Hm2 := (Entails.of_eq (show inv_t12 (F := F) d L f3 (Scf.trips k0_t12_loop.lb k0_t12_loop.ub k0_t12_loop.st) acc12 = ((((ibV).slice (Rect.unit (s := S2x1024) ![1, 256] S1x128.size inb_S2x1024_S1x128_1_256) (fun _ => rfl)).squeeze S128 squeezes_S1x128_S128).view.loc (V d (cV L) (jV L)) ↦[(((ibV).slice (Rect.unit (s := S2x1024) ![1, 256] S1x128.size inb_S2x1024_S1x128_1_256) (fun _ => rfl)).squeeze S128 squeezes_S1x128_S128).view.set]{fullShare} f3 : sProp 𝕄) from rfl)) $$ Hm2
  have him1 : ∀ x, (((((ibV).slice (Rect.unit (s := S2x1024) ![1, 128] S1x128.size inb_S2x1024_S1x128_1_128) (fun _ => rfl)).squeeze S128 squeezes_S1x128_S128).view.read (Elt F) f3 x : BitVec 32)).toNat < S3x128.size (gathers_S3x128_S128x128).axis :=
    gather_hin gathers_S3x128_S128x128 _ hfm1
  sl_exec (disch := (clear * - k hk1 hlt; decide +kernel +revert))
  have hc7 : k0_cond7 k = 1#1 := (by decide +kernel : ∀ k : Fin k0_t1_loop.trips, k0_cond7 k = 1#1) k
  -- the two gathered quarters of half 1 read blocks 16 * k.val + 6, 16 * k.val + 6 + 1 of the lookup; joined, they are copied out to that pair of the worker's blocks
  ihave Hg := (pts_name (F := F) _ _ _) $$ Hq10
  icases Hg with ⟨%aQ00, Hq10, %eaQ00⟩
  have hqaQ00 : QuarterIs fi ft d L 1 0 (8 * (2 * k.val) + 6) aQ00 := by
    rw [eaQ00]; exact gather_fact (F := F) fi ft hr d L 0 6 1 0 (2 * k.val) hg0 f1 hs1 _ _ _
  ihave Hg := (pts_name (F := F) _ _ _) $$ Hq11
  icases Hg with ⟨%aQ01, Hq11, %eaQ01⟩
  have hqaQ01 : QuarterIs fi ft d L 1 1 (8 * (2 * k.val) + 7) aQ01 := by
    rw [eaQ01]; exact gather_fact (F := F) fi ft hr d L 0 7 1 1 (2 * k.val) hg0 f1 hs1 _ _ _
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 aQ00 aQ01) $$ [Hq10 Hq11]
  · isplitl [Hq10] <;> iassumption
  ihave Hh1 := (Entails.of_eq (half_lit_1 (F := F) d (cV L) (jV L) _).symm) $$ Hh1
  have hoffQ0 : _ = (![800 * (wL L).val + (16 * k.val + 6), 0, 0] : Fin 3 → ℕ) := (k0_off21_eq L k).trans (congrArg (fun n => (![n, 0, 0] : Fin 3 → ℕ)) (by show _ = 800 * ((L 1).val * 2 + (L 0).val) + (16 * k.val + 6); omega))
  ihave Hp := (rest_take (F := F) d (cV L) (jV L) (wL L) (k0_off21_inb L k hc7) (lo := 16 * k.val + 6) hoffQ0 (by omega) (fo d)) $$ Hrest
  icases Hp with ⟨HpQ0, Hrest⟩
  ihave Hrest := (Entails.of_eq (show (oLoc d ↦[rowsIn (wL L) (16 * k.val + 6 + 2) 800]{fullShare} fo d : sProp 𝕄) = (oLoc d ↦[rowsIn (wL L) (16 * k.val + 8) 800]{fullShare} fo d) from by rw [show 16 * k.val + 6 + 2 = 16 * k.val + 8 from by omega])) $$ Hrest
  sl_exec (disch := (clear * - k hk1 hlt; decide +kernel +revert))
  sl_unfold_run_names
  ihave Hs10 := (out_clean1 (F := F) fi ft d L _ _ _ (fo d) aQ00 aQ01 (k0_off21_inb L k hc7) (16 * k.val + 6) (by omega) hoffQ0 (QuarterIs_cast (F := F) fi ft (by omega) hqaQ00) (QuarterIs_cast (F := F) fi ft (by omega) hqaQ01)) $$ Hs10
  unfold OutD1
  -- reduction of the list 3 of slot 1: each step stores back what it loaded
  have hfm3 : ListOK (F := F) 1 3 d (cV L) (jV L) f3 := listOK_of_slot (F := F) 1 d (cV L) (jV L) f3 hf3 3
  first
    | sl_for (inv_t13 (F := F) d L f3) $$ [Hm3]
    | (sl_rw [Idealize.SL.Sem.Prog.bind_assoc]; sl_for (inv_t13 (F := F) d L f3) $$ [Hm3])
  · intro k2 acc
    exact step_t13 (F := F) d L v5 v6 k (0#32) f3 hfm3 k2 acc
  · iapply (Entails.of_eq (show ((((ibV).slice (Rect.unit (s := S2x1024) ![1, 384] S1x128.size inb_S2x1024_S1x128_1_384) (fun _ => rfl)).squeeze S128 squeezes_S1x128_S128).view.loc (V d (cV L) (jV L)) ↦[(((ibV).slice (Rect.unit (s := S2x1024) ![1, 384] S1x128.size inb_S2x1024_S1x128_1_384) (fun _ => rfl)).squeeze S128 squeezes_S1x128_S128).view.set]{fullShare} f3 : sProp 𝕄) = inv_t13 (F := F) d L f3 0 PUnit.unit from rfl)) $$ Hm3
  iintro %acc13 Hm3
  ihave Hm3 := (Entails.of_eq (show inv_t13 (F := F) d L f3 (Scf.trips k0_t13_loop.lb k0_t13_loop.ub k0_t13_loop.st) acc13 = ((((ibV).slice (Rect.unit (s := S2x1024) ![1, 384] S1x128.size inb_S2x1024_S1x128_1_384) (fun _ => rfl)).squeeze S128 squeezes_S1x128_S128).view.loc (V d (cV L) (jV L)) ↦[(((ibV).slice (Rect.unit (s := S2x1024) ![1, 384] S1x128.size inb_S2x1024_S1x128_1_384) (fun _ => rfl)).squeeze S128 squeezes_S1x128_S128).view.set]{fullShare} f3 : sProp 𝕄) from rfl)) $$ Hm3
  have him2 : ∀ x, (((((ibV).slice (Rect.unit (s := S2x1024) ![1, 256] S1x128.size inb_S2x1024_S1x128_1_256) (fun _ => rfl)).squeeze S128 squeezes_S1x128_S128).view.read (Elt F) f3 x : BitVec 32)).toNat < S3x128.size (gathers_S3x128_S128x128).axis :=
    gather_hin gathers_S3x128_S128x128 _ hfm2
  -- the first slot is free: its eight lists, all at the same contents, are the slot the block after next is copied into
  ihave Hl0 := (Entails.of_eq (list_lit_0_0 (F := F) d (cV L) (jV L) f1)) $$ Hl0
  ihave Hl1 := (Entails.of_eq (list_lit_0_1 (F := F) d (cV L) (jV L) f1)) $$ Hl1
  ihave Hl2 := (Entails.of_eq (list_lit_0_2 (F := F) d (cV L) (jV L) f1)) $$ Hl2
  ihave Hl3 := (Entails.of_eq (list_lit_0_3 (F := F) d (cV L) (jV L) f1)) $$ Hl3
  ihave Hl4 := (Entails.of_eq (list_lit_0_4 (F := F) d (cV L) (jV L) f1)) $$ Hl4
  ihave Hl5 := (Entails.of_eq (list_lit_0_5 (F := F) d (cV L) (jV L) f1)) $$ Hl5
  ihave Hl6 := (Entails.of_eq (list_lit_0_6 (F := F) d (cV L) (jV L) f1)) $$ Hl6
  ihave Hl7 := (Entails.of_eq (list_lit_0_7 (F := F) d (cV L) (jV L) f1)) $$ Hl7
  ihave Hsl0 := (Entails.of_eq (slot_lists8 (F := F) d (cV L) (jV L) 0 f1).symm) $$ [Hl0 Hl1 Hl2 Hl3 Hl4 Hl5 Hl6 Hl7]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hl7
  ihave Hsl0 := (Entails.of_eq (slot_lit_0 (F := F) d (cV L) (jV L) f1).symm) $$ Hsl0
  sl_exec (disch := (clear * - k hk1 hlt; decide +kernel +revert))
  have hg2 : 2 * k.val + 2 < 100 := by omega
  have hoffI0 : _ = (![102400 * (wL L).val + 1024 * (2 * k.val + 2)] : Fin 1 → ℕ) := (k0_off23_eq L k).trans (congrArg (fun n => (![n] : Fin 1 → ℕ)) (by show _ = 102400 * ((L 1).val * 2 + (L 0).val) + 1024 * (2 * k.val + 2); omega))
  sl_unfold_run_names
  ihave HF0 := (idx_clean0 (F := F) fi hr d L _ _ _ _ _ (2 * k.val + 2) hg2 hoffI0) $$ HF0
  ihave Hi' := (Entails.of_eq (idx_rest (F := F) fi d L _ (2 * k.val + 2) hg2 hoffI0)) $$ Hi'
  -- the copy-out of half 1 has delivered its pair at the lookup: the done interval grows by two blocks; the half is two quarters again
  icases Hs10_dst with ⟨%gN1, HpN1, %hgN1⟩
  ihave Hdone := (done_add (F := F) d (cV L) (jV L) (wL L) (pairIn L (16 * k.val + 6) (by omega)) (lo := 16 * k.val + 6) rfl gN1 (oDone fi ft d) hgN1) $$ [Hdone HpN1]
  · isplitl [Hdone]; · iexact Hdone
    iexact HpN1
  ihave Hdone := (Entails.of_eq (show (oLoc d ↦[rowsIn (wL L) 0 (16 * k.val + 6 + 2)]{fullShare} oDone fi ft d : sProp 𝕄) = (oLoc d ↦[rowsIn (wL L) 0 (16 * k.val + 8)]{fullShare} oDone fi ft d) from by rw [show 16 * k.val + 6 + 2 = 16 * k.val + 8 from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  sl_exec (disch := (clear * - k hk1 hlt; decide +kernel +revert))
  -- reduction of the list 4 of slot 1: each step stores back what it loaded
  have hfm4 : ListOK (F := F) 1 4 d (cV L) (jV L) f3 := listOK_of_slot (F := F) 1 d (cV L) (jV L) f3 hf3 4
  first
    | sl_for (inv_t14 (F := F) d L f3) $$ [Hm4]
    | (sl_rw [Idealize.SL.Sem.Prog.bind_assoc]; sl_for (inv_t14 (F := F) d L f3) $$ [Hm4])
  · intro k2 acc
    exact step_t14 (F := F) d L v5 v6 k (0#32) f3 hfm4 k2 acc
  · iapply (Entails.of_eq (show ((((ibV).slice (Rect.unit (s := S2x1024) ![1, 512] S1x128.size inb_S2x1024_S1x128_1_512) (fun _ => rfl)).squeeze S128 squeezes_S1x128_S128).view.loc (V d (cV L) (jV L)) ↦[(((ibV).slice (Rect.unit (s := S2x1024) ![1, 512] S1x128.size inb_S2x1024_S1x128_1_512) (fun _ => rfl)).squeeze S128 squeezes_S1x128_S128).view.set]{fullShare} f3 : sProp 𝕄) = inv_t14 (F := F) d L f3 0 PUnit.unit from rfl)) $$ Hm4
  iintro %acc14 Hm4
  ihave Hm4 := (Entails.of_eq (show inv_t14 (F := F) d L f3 (Scf.trips k0_t14_loop.lb k0_t14_loop.ub k0_t14_loop.st) acc14 = ((((ibV).slice (Rect.unit (s := S2x1024) ![1, 512] S1x128.size inb_S2x1024_S1x128_1_512) (fun _ => rfl)).squeeze S128 squeezes_S1x128_S128).view.loc (V d (cV L) (jV L)) ↦[(((ibV).slice (Rect.unit (s := S2x1024) ![1, 512] S1x128.size inb_S2x1024_S1x128_1_512) (fun _ => rfl)).squeeze S128 squeezes_S1x128_S128).view.set]{fullShare} f3 : sProp 𝕄) from rfl)) $$ Hm4
  have him3 : ∀ x, (((((ibV).slice (Rect.unit (s := S2x1024) ![1, 384] S1x128.size inb_S2x1024_S1x128_1_384) (fun _ => rfl)).squeeze S128 squeezes_S1x128_S128).view.read (Elt F) f3 x : BitVec 32)).toNat < S3x128.size (gathers_S3x128_S128x128).axis :=
    gather_hin gathers_S3x128_S128x128 _ hfm3
  sl_exec (disch := (clear * - k hk1 hlt; decide +kernel +revert))
  -- the two gathered quarters of half 0 read blocks 16 * k.val + 8, 16 * k.val + 8 + 1 of the lookup; joined, they are copied out to that pair of the worker's blocks
  ihave Hg := (pts_name (F := F) _ _ _) $$ Hq00
  icases Hg with ⟨%aQ10, Hq00, %eaQ10⟩
  have hqaQ10 : QuarterIs fi ft d L 0 0 (8 * (2 * k.val + 1) + 0) aQ10 := by
    rw [eaQ10]; exact gather_fact (F := F) fi ft hr d L 1 0 0 0 (2 * k.val + 1) hg1 f3 hs3 _ _ _
  ihave Hg := (pts_name (F := F) _ _ _) $$ Hq01
  icases Hg with ⟨%aQ11, Hq01, %eaQ11⟩
  have hqaQ11 : QuarterIs fi ft d L 0 1 (8 * (2 * k.val + 1) + 1) aQ11 := by
    rw [eaQ11]; exact gather_fact (F := F) fi ft hr d L 1 1 0 1 (2 * k.val + 1) hg1 f3 hs3 _ _ _
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 aQ10 aQ11) $$ [Hq00 Hq01]
  · isplitl [Hq00] <;> iassumption
  ihave Hh0 := (Entails.of_eq (half_lit_0 (F := F) d (cV L) (jV L) _).symm) $$ Hh0
  have hoffQ1 : _ = (![800 * (wL L).val + (16 * k.val + 8), 0, 0] : Fin 3 → ℕ) := (k0_off12_eq L k 1 0).trans (congrArg (fun n => (![n, 0, 0] : Fin 3 → ℕ)) (by show _ = 800 * ((L 1).val * 2 + (L 0).val) + (16 * k.val + 8); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 1 0) (lo := 16 * k.val + 8) hoffQ1 (by omega) (fo d)) $$ Hrest
  icases Hp with ⟨HpQ1, Hrest⟩
  ihave Hrest := (Entails.of_eq (show (oLoc d ↦[rowsIn (wL L) (16 * k.val + 8 + 2) 800]{fullShare} fo d : sProp 𝕄) = (oLoc d ↦[rowsIn (wL L) (16 * k.val + 10) 800]{fullShare} fo d) from by rw [show 16 * k.val + 8 + 2 = 16 * k.val + 10 from by omega])) $$ Hrest
  sl_exec (disch := (clear * - k hk1 hlt; decide +kernel +revert))
  sl_unfold_run_names
  ihave HO0 := (out_clean0 (F := F) fi ft d L _ _ _ (fo d) aQ10 aQ11 (k0_off12_inb L k 1 0) (16 * k.val + 8) (by omega) hoffQ1 (QuarterIs_cast (F := F) fi ft (by omega) hqaQ10) (QuarterIs_cast (F := F) fi ft (by omega) hqaQ11)) $$ HO0
  unfold OutD0
  -- reduction of the list 5 of slot 1: each step stores back what it loaded
  have hfm5 : ListOK (F := F) 1 5 d (cV L) (jV L) f3 := listOK_of_slot (F := F) 1 d (cV L) (jV L) f3 hf3 5
  first
    | sl_for (inv_t15 (F := F) d L f3) $$ [Hm5]
    | (sl_rw [Idealize.SL.Sem.Prog.bind_assoc]; sl_for (inv_t15 (F := F) d L f3) $$ [Hm5])
  · intro k2 acc
    exact step_t15 (F := F) d L v6 k (0#32) f3 hfm5 k2 acc
  · iapply (Entails.of_eq (show ((((ibV).slice (Rect.unit (s := S2x1024) ![1, 640] S1x128.size inb_S2x1024_S1x128_1_640) (fun _ => rfl)).squeeze S128 squeezes_S1x128_S128).view.loc (V d (cV L) (jV L)) ↦[(((ibV).slice (Rect.unit (s := S2x1024) ![1, 640] S1x128.size inb_S2x1024_S1x128_1_640) (fun _ => rfl)).squeeze S128 squeezes_S1x128_S128).view.set]{fullShare} f3 : sProp 𝕄) = inv_t15 (F := F) d L f3 0 PUnit.unit from rfl)) $$ Hm5
  iintro %acc15 Hm5
  ihave Hm5 := (Entails.of_eq (show inv_t15 (F := F) d L f3 (Scf.trips k0_t15_loop.lb k0_t15_loop.ub k0_t15_loop.st) acc15 = ((((ibV).slice (Rect.unit (s := S2x1024) ![1, 640] S1x128.size inb_S2x1024_S1x128_1_640) (fun _ => rfl)).squeeze S128 squeezes_S1x128_S128).view.loc (V d (cV L) (jV L)) ↦[(((ibV).slice (Rect.unit (s := S2x1024) ![1, 640] S1x128.size inb_S2x1024_S1x128_1_640) (fun _ => rfl)).squeeze S128 squeezes_S1x128_S128).view.set]{fullShare} f3 : sProp 𝕄) from rfl)) $$ Hm5
  have him4 : ∀ x, (((((ibV).slice (Rect.unit (s := S2x1024) ![1, 512] S1x128.size inb_S2x1024_S1x128_1_512) (fun _ => rfl)).squeeze S128 squeezes_S1x128_S128).view.read (Elt F) f3 x : BitVec 32)).toNat < S3x128.size (gathers_S3x128_S128x128).axis :=
    gather_hin gathers_S3x128_S128x128 _ hfm4
  sl_exec (disch := (clear * - k hk1 hlt; decide +kernel +revert))
  -- the copy-out of half 0 has delivered its pair at the lookup: the done interval grows by two blocks; the half is two quarters again
  icases HO0_dst with ⟨%gN2, HpN2, %hgN2⟩
  ihave Hdone := (done_add (F := F) d (cV L) (jV L) (wL L) (pairIn L (16 * k.val + 8) (by omega)) (lo := 16 * k.val + 8) rfl gN2 (oDone fi ft d) hgN2) $$ [Hdone HpN2]
  · isplitl [Hdone]; · iexact Hdone
    iexact HpN2
  ihave Hdone := (Entails.of_eq (show (oLoc d ↦[rowsIn (wL L) 0 (16 * k.val + 8 + 2)]{fullShare} oDone fi ft d : sProp 𝕄) = (oLoc d ↦[rowsIn (wL L) 0 (16 * k.val + 10)]{fullShare} oDone fi ft d) from by rw [show 16 * k.val + 8 + 2 = 16 * k.val + 10 from by omega])) $$ Hdone
  ihave Hh0 := (Entails.of_eq (half_lit_0 (F := F) d (cV L) (jV L) _)) $$ HO0_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  sl_exec (disch := (clear * - k hk1 hlt; decide +kernel +revert))
  -- reduction of the list 6 of slot 1: each step stores back what it loaded
  have hfm6 : ListOK (F := F) 1 6 d (cV L) (jV L) f3 := listOK_of_slot (F := F) 1 d (cV L) (jV L) f3 hf3 6
  first
    | sl_for (inv_t16 (F := F) d L f3) $$ [Hm6]
    | (sl_rw [Idealize.SL.Sem.Prog.bind_assoc]; sl_for (inv_t16 (F := F) d L f3) $$ [Hm6])
  · intro k2 acc
    exact step_t16 (F := F) d L  f3 hfm6 k2 acc
  · iapply (Entails.of_eq (show ((((ibV).slice (Rect.unit (s := S2x1024) ![1, 768] S1x128.size inb_S2x1024_S1x128_1_768) (fun _ => rfl)).squeeze S128 squeezes_S1x128_S128).view.loc (V d (cV L) (jV L)) ↦[(((ibV).slice (Rect.unit (s := S2x1024) ![1, 768] S1x128.size inb_S2x1024_S1x128_1_768) (fun _ => rfl)).squeeze S128 squeezes_S1x128_S128).view.set]{fullShare} f3 : sProp 𝕄) = inv_t16 (F := F) d L f3 0 PUnit.unit from rfl)) $$ Hm6
  iintro %acc16 Hm6
  ihave Hm6 := (Entails.of_eq (show inv_t16 (F := F) d L f3 (Scf.trips k0_t16_loop.lb k0_t16_loop.ub k0_t16_loop.st) acc16 = ((((ibV).slice (Rect.unit (s := S2x1024) ![1, 768] S1x128.size inb_S2x1024_S1x128_1_768) (fun _ => rfl)).squeeze S128 squeezes_S1x128_S128).view.loc (V d (cV L) (jV L)) ↦[(((ibV).slice (Rect.unit (s := S2x1024) ![1, 768] S1x128.size inb_S2x1024_S1x128_1_768) (fun _ => rfl)).squeeze S128 squeezes_S1x128_S128).view.set]{fullShare} f3 : sProp 𝕄) from rfl)) $$ Hm6
  have him5 : ∀ x, (((((ibV).slice (Rect.unit (s := S2x1024) ![1, 640] S1x128.size inb_S2x1024_S1x128_1_640) (fun _ => rfl)).squeeze S128 squeezes_S1x128_S128).view.read (Elt F) f3 x : BitVec 32)).toNat < S3x128.size (gathers_S3x128_S128x128).axis :=
    gather_hin gathers_S3x128_S128x128 _ hfm5
  sl_exec (disch := (clear * - k hk1 hlt; decide +kernel +revert))
  -- the two gathered quarters of half 1 read blocks 16 * k.val + 10, 16 * k.val + 10 + 1 of the lookup; joined, they are copied out to that pair of the worker's blocks
  ihave Hg := (pts_name (F := F) _ _ _) $$ Hq10
  icases Hg with ⟨%aQ20, Hq10, %eaQ20⟩
  have hqaQ20 : QuarterIs fi ft d L 1 0 (8 * (2 * k.val + 1) + 2) aQ20 := by
    rw [eaQ20]; exact gather_fact (F := F) fi ft hr d L 1 2 1 0 (2 * k.val + 1) hg1 f3 hs3 _ _ _
  ihave Hg := (pts_name (F := F) _ _ _) $$ Hq11
  icases Hg with ⟨%aQ21, Hq11, %eaQ21⟩
  have hqaQ21 : QuarterIs fi ft d L 1 1 (8 * (2 * k.val + 1) + 3) aQ21 := by
    rw [eaQ21]; exact gather_fact (F := F) fi ft hr d L 1 3 1 1 (2 * k.val + 1) hg1 f3 hs3 _ _ _
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 aQ20 aQ21) $$ [Hq10 Hq11]
  · isplitl [Hq10] <;> iassumption
  ihave Hh1 := (Entails.of_eq (half_lit_1 (F := F) d (cV L) (jV L) _).symm) $$ Hh1
  have hoffQ2 : _ = (![800 * (wL L).val + (16 * k.val + 10), 0, 0] : Fin 3 → ℕ) := (k0_off12_eq L k 1 1).trans (congrArg (fun n => (![n, 0, 0] : Fin 3 → ℕ)) (by show _ = 800 * ((L 1).val * 2 + (L 0).val) + (16 * k.val + 10); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 1 1) (lo := 16 * k.val + 10) hoffQ2 (by omega) (fo d)) $$ Hrest
  icases Hp with ⟨HpQ2, Hrest⟩
  ihave Hrest := (Entails.of_eq (show (oLoc d ↦[rowsIn (wL L) (16 * k.val + 10 + 2) 800]{fullShare} fo d : sProp 𝕄) = (oLoc d ↦[rowsIn (wL L) (16 * (k.val + 1) - 4) 800]{fullShare} fo d) from by rw [show 16 * k.val + 10 + 2 = 16 * (k.val + 1) - 4 from by omega])) $$ Hrest
  sl_exec (disch := (clear * - k hk1 hlt; decide +kernel +revert))
  sl_unfold_run_names
  ihave Hs10 := (out_clean1 (F := F) fi ft d L _ _ _ (fo d) aQ20 aQ21 (k0_off12_inb L k 1 1) (16 * k.val + 10) (by omega) hoffQ2 (QuarterIs_cast (F := F) fi ft (by omega) hqaQ20) (QuarterIs_cast (F := F) fi ft (by omega) hqaQ21)) $$ Hs10
  unfold OutD1
  -- reduction of the list 7 of slot 1: each step stores back what it loaded
  have hfm7 : ListOK (F := F) 1 7 d (cV L) (jV L) f3 := listOK_of_slot (F := F) 1 d (cV L) (jV L) f3 hf3 7
  first
    | sl_for (inv_t17 (F := F) d L f3) $$ [Hm7]
    | (sl_rw [Idealize.SL.Sem.Prog.bind_assoc]; sl_for (inv_t17 (F := F) d L f3) $$ [Hm7])
  · intro k2 acc
    exact step_t17 (F := F) d L v6 k (0#32) f3 hfm7 k2 acc
  · iapply (Entails.of_eq (show ((((ibV).slice (Rect.unit (s := S2x1024) ![1, 896] S1x128.size inb_S2x1024_S1x128_1_896) (fun _ => rfl)).squeeze S128 squeezes_S1x128_S128).view.loc (V d (cV L) (jV L)) ↦[(((ibV).slice (Rect.unit (s := S2x1024) ![1, 896] S1x128.size inb_S2x1024_S1x128_1_896) (fun _ => rfl)).squeeze S128 squeezes_S1x128_S128).view.set]{fullShare} f3 : sProp 𝕄) = inv_t17 (F := F) d L f3 0 PUnit.unit from rfl)) $$ Hm7
  iintro %acc17 Hm7
  ihave Hm7 := (Entails.of_eq (show inv_t17 (F := F) d L f3 (Scf.trips k0_t17_loop.lb k0_t17_loop.ub k0_t17_loop.st) acc17 = ((((ibV).slice (Rect.unit (s := S2x1024) ![1, 896] S1x128.size inb_S2x1024_S1x128_1_896) (fun _ => rfl)).squeeze S128 squeezes_S1x128_S128).view.loc (V d (cV L) (jV L)) ↦[(((ibV).slice (Rect.unit (s := S2x1024) ![1, 896] S1x128.size inb_S2x1024_S1x128_1_896) (fun _ => rfl)).squeeze S128 squeezes_S1x128_S128).view.set]{fullShare} f3 : sProp 𝕄) from rfl)) $$ Hm7
  have him6 : ∀ x, (((((ibV).slice (Rect.unit (s := S2x1024) ![1, 768] S1x128.size inb_S2x1024_S1x128_1_768) (fun _ => rfl)).squeeze S128 squeezes_S1x128_S128).view.read (Elt F) f3 x : BitVec 32)).toNat < S3x128.size (gathers_S3x128_S128x128).axis :=
    gather_hin gathers_S3x128_S128x128 _ hfm6
  have him7 : ∀ x, (((((ibV).slice (Rect.unit (s := S2x1024) ![1, 896] S1x128.size inb_S2x1024_S1x128_1_896) (fun _ => rfl)).squeeze S128 squeezes_S1x128_S128).view.read (Elt F) f3 x : BitVec 32)).toNat < S3x128.size (gathers_S3x128_S128x128).axis :=
    gather_hin gathers_S3x128_S128x128 _ hfm7
  sl_exec (disch := (clear * - k hk1 hlt; decide +kernel +revert))
  -- the copy-out of half 1 has delivered its pair at the lookup: the done interval grows by two blocks; the half is two quarters again
  icases Hs10_dst with ⟨%gN3, HpN3, %hgN3⟩
  ihave Hdone := (done_add (F := F) d (cV L) (jV L) (wL L) (pairIn L (16 * k.val + 10) (by omega)) (lo := 16 * k.val + 10) rfl gN3 (oDone fi ft d) hgN3) $$ [Hdone HpN3]
  · isplitl [Hdone]; · iexact Hdone
    iexact HpN3
  ihave Hdone := (Entails.of_eq (show (oLoc d ↦[rowsIn (wL L) 0 (16 * k.val + 10 + 2)]{fullShare} oDone fi ft d : sProp 𝕄) = (oLoc d ↦[rowsIn (wL L) 0 (16 * k.val + 12)]{fullShare} oDone fi ft d) from by rw [show 16 * k.val + 10 + 2 = 16 * k.val + 12 from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  sl_exec (disch := (clear * - k hk1 hlt; decide +kernel +revert))
  -- the two gathered quarters of half 0 read blocks 16 * (k.val + 1) - 4, 16 * (k.val + 1) - 4 + 1 of the lookup; joined, they are copied out to that pair of the worker's blocks
  ihave Hg := (pts_name (F := F) _ _ _) $$ Hq00
  icases Hg with ⟨%aQ30, Hq00, %eaQ30⟩
  have hqaQ30 : QuarterIs fi ft d L 0 0 (8 * (2 * k.val + 1) + 4) aQ30 := by
    rw [eaQ30]; exact gather_fact (F := F) fi ft hr d L 1 4 0 0 (2 * k.val + 1) hg1 f3 hs3 _ _ _
  ihave Hg := (pts_name (F := F) _ _ _) $$ Hq01
  icases Hg with ⟨%aQ31, Hq01, %eaQ31⟩
  have hqaQ31 : QuarterIs fi ft d L 0 1 (8 * (2 * k.val + 1) + 5) aQ31 := by
    rw [eaQ31]; exact gather_fact (F := F) fi ft hr d L 1 5 0 1 (2 * k.val + 1) hg1 f3 hs3 _ _ _
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 aQ30 aQ31) $$ [Hq00 Hq01]
  · isplitl [Hq00] <;> iassumption
  ihave Hh0 := (Entails.of_eq (half_lit_0 (F := F) d (cV L) (jV L) _).symm) $$ Hh0
  have hoffQ3 : _ = (![800 * (wL L).val + (16 * (k.val + 1) - 4), 0, 0] : Fin 3 → ℕ) := (k0_off12_eq L k 1 2).trans (congrArg (fun n => (![n, 0, 0] : Fin 3 → ℕ)) (by show _ = 800 * ((L 1).val * 2 + (L 0).val) + (16 * (k.val + 1) - 4); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 1 2) (lo := 16 * (k.val + 1) - 4) hoffQ3 (by omega) (fo d)) $$ Hrest
  icases Hp with ⟨HpQ3, Hrest⟩
  ihave Hrest := (Entails.of_eq (show (oLoc d ↦[rowsIn (wL L) (16 * (k.val + 1) - 4 + 2) 800]{fullShare} fo d : sProp 𝕄) = (oLoc d ↦[rowsIn (wL L) (16 * (k.val + 1) - 2) 800]{fullShare} fo d) from by rw [show 16 * (k.val + 1) - 4 + 2 = 16 * (k.val + 1) - 2 from by omega])) $$ Hrest
  sl_exec (disch := (clear * - k hk1 hlt; decide +kernel +revert))
  sl_unfold_run_names
  ihave HO0 := (out_clean0 (F := F) fi ft d L _ _ _ (fo d) aQ30 aQ31 (k0_off12_inb L k 1 2) (16 * (k.val + 1) - 4) (by omega) hoffQ3 (QuarterIs_cast (F := F) fi ft (by omega) hqaQ30) (QuarterIs_cast (F := F) fi ft (by omega) hqaQ31)) $$ HO0
  unfold OutD0
  -- the two gathers outstanding across the trip's end, held with what they will deliver
  ihave Hn := (flight_name (F := F) _) $$ HG10
  icases Hn with ⟨%D10, HG10, %eD10⟩
  have cD10 : D10 ⊢ GathD10 fi ft d L (16 * (k.val + 1) - 2) f3 := by
    rw [eD10]
    iintro ⟨⟨Hq, Hl⟩, Ht⟩
    ihave Hg := (pts_name (F := F) _ _ _) $$ Hq
    icases Hg with ⟨%a, Hq, %ea⟩
    isplitl [Hq Hl]
    · isplitl [Hq]
      · iexists a
        isplitl [Hq]; · iexact Hq
        ipureintro
        rw [ea]
        exact QuarterIs_cast (F := F) fi ft (by omega) (gather_fact (F := F) fi ft hr d L 1 6 1 0 (2 * k.val + 1) hg1 f3 hs3 _ _ _)
      · iexact Hl
    · iexact Ht
  ihave HG10 := (Transfers.Flight_mono countersEmb (V d (cV L) (jV L)) cD10) $$ HG10
  ihave Hn := (flight_name (F := F) _) $$ HG11
  icases Hn with ⟨%D11, HG11, %eD11⟩
  have cD11 : D11 ⊢ GathD11 fi ft d L (16 * (k.val + 1) - 1) f3 := by
    rw [eD11]
    iintro ⟨⟨Hq, Hl⟩, Ht⟩
    ihave Hg := (pts_name (F := F) _ _ _) $$ Hq
    icases Hg with ⟨%a, Hq, %ea⟩
    isplitl [Hq Hl]
    · isplitl [Hq]
      · iexists a
        isplitl [Hq]; · iexact Hq
        ipureintro
        rw [ea]
        exact QuarterIs_cast (F := F) fi ft (by omega) (gather_fact (F := F) fi ft hr d L 1 7 1 1 (2 * k.val + 1) hg1 f3 hs3 _ _ _)
      · iexact Hl
    · iexact Ht
  ihave HG11 := (Transfers.Flight_mono countersEmb (V d (cV L) (jV L)) cD11) $$ HG11
  -- the invariant at the next trip
  ihave Hdone := (Entails.of_eq (show (oLoc d ↦[rowsIn (wL L) 0 (16 * k.val + 12)]{fullShare} oDone fi ft d : sProp 𝕄) = (oLoc d ↦[rowsIn (wL L) 0 (16 * (k.val + 1) - 4)]{fullShare} oDone fi ft d) from by rw [show 16 * k.val + 12 = 16 * (k.val + 1) - 4 from by omega])) $$ Hdone
  sl_step
  rw [dif_neg (by omega : ¬ (k.val + 1 = 0)), dif_pos (by omega : k.val + 1 ≤ 50), dif_pos (by omega : k.val + 1 < 50)]
  isplitr; · ipureintro; omega
  isplitl [HO Hs4 Hs5 Hs6 Hs10 Htok2 Htok3 Htoks9 Htrem]
  · isplitr; · iexact Hmw2
    isplitl [HO]
    · iexists _
      isplitr
      swap
      · iexact HO
      ipureintro
      repeat (first | exact hW0 | apply waitsOK_insert)
    isplitl [Hs4]; · iexact Hs4
    isplitl [Hs5]; · iexact Hs5
    isplitl [Hs6]; · iexact Hs6
    isplitl [Hs10]; · iexact Hs10
    isplitl [Htok2]; · iexact Htok2
    isplitl [Htok3]; · iexact Htok3
    isplitl [Htoks9]; · iexact Htoks9
    iexact Htrem
  isplitl [HF0 Hi']
  · isplitl [HF0]; · iexact HF0
    iexact Hi'
  iexists f3
  isplitr
  · ipureintro
    exact (show SlotIs fi d L 1 (2 * (k.val + 1) - 1) f3 from (show 2 * k.val + 1 = 2 * (k.val + 1) - 1 from by omega) ▸ hs3)
  isplitl [Hm0 Hm1 Hm2 Hm3 Hm4 Hm5]
  · iapply (Entails.of_eq (six_lists (F := F) d (cV L) (jV L) f3).symm)
    isplitl [Hm0]; · iapply (Entails.of_eq (list_lit_1_0 (F := F) d (cV L) (jV L) f3)) $$ Hm0
    isplitl [Hm1]; · iapply (Entails.of_eq (list_lit_1_1 (F := F) d (cV L) (jV L) f3)) $$ Hm1
    isplitl [Hm2]; · iapply (Entails.of_eq (list_lit_1_2 (F := F) d (cV L) (jV L) f3)) $$ Hm2
    isplitl [Hm3]; · iapply (Entails.of_eq (list_lit_1_3 (F := F) d (cV L) (jV L) f3)) $$ Hm3
    isplitl [Hm4]; · iapply (Entails.of_eq (list_lit_1_4 (F := F) d (cV L) (jV L) f3)) $$ Hm4
    iapply (Entails.of_eq (list_lit_1_5 (F := F) d (cV L) (jV L) f3)) $$ Hm5
  isplitl [HG10]; · iexact HG10
  isplitl [HG11]; · iexact HG11
  isplitl [Hr4]; · iexact Hr4
  isplitl [Hr5]; · iexact Hr5
  isplitl [HO0]; · iexists _; iexact HO0
  isplitl [Hdone]; · iexact Hdone
  iexact Hrest

set_option maxHeartbeats 64000000 in
/-- The last trip, k = 49: the same, without the copy of a next block; after it no copy of row numbers is outstanding. -/
theorem trip_last (hr : InRange (F := F) fi) (d : Dev nD) (L : grid0.Coords) (O : CellTallies nD τ sig (HIx 1)) (W : Waits sig (HIx 1))
    (v5 v6 : BitVec 32) (k : Fin k0_t1_loop.trips) (hk49 : k.val = 49) (acc : Unit) :
    Inv (F := F) fi ft fo d L O W k.val acc
      ⊢ wp frame (wpE (defs₀ (F := F)) 𝒱₀ (V d (cV L) (jV L)) none) Set.univ
          (k0_t1_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k acc)
          (Inv (F := F) fi ft fo d L O W (k.val + 1)) := by
  have hk1 : 1 ≤ k.val := by omega
  have hk50 : k.val < 50 := k.isLt
  unfold Inv
  rw [dif_neg (by omega : ¬ (k.val = 0)), dif_pos (by omega : k.val ≤ 50)]
  unfold Base IdxPart Steady
  rw [dif_pos hk50]
  unfold IdxD0 idxBlk GathD10 GathD11 OutD0 shAll
  iintro ⟨%hk50', ⟨#Hmw2, ⟨%W0, %hW0, HO⟩, Hs4, Hs5, Hs6, Hs10, Htok2, Htok3, Htoks9, Htrem⟩, ⟨HF0, Hi'⟩, ⟨%f2, %hf2, Hm05, HG10, HG11, Hr4, Hr5, ⟨%h0, HO0⟩, Hdone, Hrest⟩⟩
  have hg0 : 2 * k.val < 100 := by omega
  sl_unfold [k0_t1_body]
  sl_exec (disch := (clear * - k hk49; decide +kernel +revert))
  -- block 2k of row numbers has landed in slot 0
  icases HF0_dst with ⟨%f1, Hsl0, %hs1⟩
  have hf1 := slot_range (F := F) fi hr d L 0 _ f1 hs1
  ihave Hsl0 := (Entails.of_eq (slot_lit_0 (F := F) d (cV L) (jV L) f1)) $$ Hsl0
  ihave Hls := (Entails.of_eq (slot_lists8 (F := F) d (cV L) (jV L) 0 f1)) $$ Hsl0
  icases Hls with ⟨Hl0, Hl1, Hl2, Hl3, Hl4, Hl5, Hl6, Hl7⟩
  ihave Hl0 := (Entails.of_eq (list_lit_0_0 (F := F) d (cV L) (jV L) f1).symm) $$ Hl0
  ihave Hl1 := (Entails.of_eq (list_lit_0_1 (F := F) d (cV L) (jV L) f1).symm) $$ Hl1
  ihave Hl2 := (Entails.of_eq (list_lit_0_2 (F := F) d (cV L) (jV L) f1).symm) $$ Hl2
  ihave Hl3 := (Entails.of_eq (list_lit_0_3 (F := F) d (cV L) (jV L) f1).symm) $$ Hl3
  ihave Hl4 := (Entails.of_eq (list_lit_0_4 (F := F) d (cV L) (jV L) f1).symm) $$ Hl4
  ihave Hl5 := (Entails.of_eq (list_lit_0_5 (F := F) d (cV L) (jV L) f1).symm) $$ Hl5
  ihave Hl6 := (Entails.of_eq (list_lit_0_6 (F := F) d (cV L) (jV L) f1).symm) $$ Hl6
  ihave Hl7 := (Entails.of_eq (list_lit_0_7 (F := F) d (cV L) (jV L) f1).symm) $$ Hl7
  -- reduction of the list 0 of slot 0: each step stores back what it loaded
  have hfl0 : ListOK (F := F) 0 0 d (cV L) (jV L) f1 := listOK_of_slot (F := F) 0 d (cV L) (jV L) f1 hf1 0
  first
    | sl_for (inv_t2 (F := F) d L f1) $$ [Hl0]
    | (sl_rw [Idealize.SL.Sem.Prog.bind_assoc]; sl_for (inv_t2 (F := F) d L f1) $$ [Hl0])
  · intro k2 acc
    exact step_t2 (F := F) d L v5 v6 (0#32) (1#32) k f1 hfl0 k2 acc
  · iapply (Entails.of_eq (show ((((ibV).slice (Rect.unit (s := S2x1024) ![0, 0] S1x128.size inb_S2x1024_S1x128_0_0) (fun _ => rfl)).squeeze S128 squeezes_S1x128_S128).view.loc (V d (cV L) (jV L)) ↦[(((ibV).slice (Rect.unit (s := S2x1024) ![0, 0] S1x128.size inb_S2x1024_S1x128_0_0) (fun _ => rfl)).squeeze S128 squeezes_S1x128_S128).view.set]{fullShare} f1 : sProp 𝕄) = inv_t2 (F := F) d L f1 0 PUnit.unit from rfl)) $$ Hl0
  iintro %acc2 Hl0
  ihave Hl0 := (Entails.of_eq (show inv_t2 (F := F) d L f1 (Scf.trips k0_t2_loop.lb k0_t2_loop.ub k0_t2_loop.st) acc2 = ((((ibV).slice (Rect.unit (s := S2x1024) ![0, 0] S1x128.size inb_S2x1024_S1x128_0_0) (fun _ => rfl)).squeeze S128 squeezes_S1x128_S128).view.loc (V d (cV L) (jV L)) ↦[(((ibV).slice (Rect.unit (s := S2x1024) ![0, 0] S1x128.size inb_S2x1024_S1x128_0_0) (fun _ => rfl)).squeeze S128 squeezes_S1x128_S128).view.set]{fullShare} f1 : sProp 𝕄) from rfl)) $$ Hl0
  sl_exec (disch := (clear * - k hk49; decide +kernel +revert))
  -- reduction of the list 1 of slot 0: each step stores back what it loaded
  have hfl1 : ListOK (F := F) 0 1 d (cV L) (jV L) f1 := listOK_of_slot (F := F) 0 d (cV L) (jV L) f1 hf1 1
  first
    | sl_for (inv_t3 (F := F) d L f1) $$ [Hl1]
    | (sl_rw [Idealize.SL.Sem.Prog.bind_assoc]; sl_for (inv_t3 (F := F) d L f1) $$ [Hl1])
  · intro k2 acc
    exact step_t3 (F := F) d L v5 v6 (0#32) (1#32) k f1 hfl1 k2 acc
  · iapply (Entails.of_eq (show ((((ibV).slice (Rect.unit (s := S2x1024) ![0, 128] S1x128.size inb_S2x1024_S1x128_0_128) (fun _ => rfl)).squeeze S128 squeezes_S1x128_S128).view.loc (V d (cV L) (jV L)) ↦[(((ibV).slice (Rect.unit (s := S2x1024) ![0, 128] S1x128.size inb_S2x1024_S1x128_0_128) (fun _ => rfl)).squeeze S128 squeezes_S1x128_S128).view.set]{fullShare} f1 : sProp 𝕄) = inv_t3 (F := F) d L f1 0 PUnit.unit from rfl)) $$ Hl1
  iintro %acc3 Hl1
  ihave Hl1 := (Entails.of_eq (show inv_t3 (F := F) d L f1 (Scf.trips k0_t3_loop.lb k0_t3_loop.ub k0_t3_loop.st) acc3 = ((((ibV).slice (Rect.unit (s := S2x1024) ![0, 128] S1x128.size inb_S2x1024_S1x128_0_128) (fun _ => rfl)).squeeze S128 squeezes_S1x128_S128).view.loc (V d (cV L) (jV L)) ↦[(((ibV).slice (Rect.unit (s := S2x1024) ![0, 128] S1x128.size inb_S2x1024_S1x128_0_128) (fun _ => rfl)).squeeze S128 squeezes_S1x128_S128).view.set]{fullShare} f1 : sProp 𝕄) from rfl)) $$ Hl1
  have hin0 : ∀ x, (((((ibV).slice (Rect.unit (s := S2x1024) ![0, 0] S1x128.size inb_S2x1024_S1x128_0_0) (fun _ => rfl)).squeeze S128 squeezes_S1x128_S128).view.read (Elt F) f1 x : BitVec 32)).toNat < S3x128.size (gathers_S3x128_S128x128).axis :=
    gather_hin gathers_S3x128_S128x128 _ hfl0
  sl_exec (disch := (clear * - k hk49; decide +kernel +revert))
  -- the copy-out of half 0 has delivered its pair at the lookup: the done interval grows by two blocks; the half is two quarters again
  icases HO0_dst with ⟨%gA, HpA, %hgA⟩
  ihave Hdone := (done_add (F := F) d (cV L) (jV L) (wL L) (pairIn L (16 * k.val - 4) (by omega)) (lo := 16 * k.val - 4) rfl gA (oDone fi ft d) hgA) $$ [Hdone HpA]
  · isplitl [Hdone]; · iexact Hdone
    iexact HpA
  ihave Hdone := (Entails.of_eq (show (oLoc d ↦[rowsIn (wL L) 0 (16 * k.val - 4 + 2)]{fullShare} oDone fi ft d : sProp 𝕄) = (oLoc d ↦[rowsIn (wL L) 0 (16 * k.val - 2)]{fullShare} oDone fi ft d) from by rw [show 16 * k.val - 4 + 2 = 16 * k.val - 2 from by omega])) $$ Hdone
  ihave Hh0 := (Entails.of_eq (half_lit_0 (F := F) d (cV L) (jV L) _)) $$ HO0_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  sl_exec (disch := (clear * - k hk49; decide +kernel +revert))
  -- reduction of the list 2 of slot 0: each step stores back what it loaded
  have hfl2 : ListOK (F := F) 0 2 d (cV L) (jV L) f1 := listOK_of_slot (F := F) 0 d (cV L) (jV L) f1 hf1 2
  first
    | sl_for (inv_t4 (F := F) d L f1) $$ [Hl2]
    | (sl_rw [Idealize.SL.Sem.Prog.bind_assoc]; sl_for (inv_t4 (F := F) d L f1) $$ [Hl2])
  · intro k2 acc
    exact step_t4 (F := F) d L v5 v6 (0#32) (1#32) k f1 hfl2 k2 acc
  · iapply (Entails.of_eq (show ((((ibV).slice (Rect.unit (s := S2x1024) ![0, 256] S1x128.size inb_S2x1024_S1x128_0_256) (fun _ => rfl)).squeeze S128 squeezes_S1x128_S128).view.loc (V d (cV L) (jV L)) ↦[(((ibV).slice (Rect.unit (s := S2x1024) ![0, 256] S1x128.size inb_S2x1024_S1x128_0_256) (fun _ => rfl)).squeeze S128 squeezes_S1x128_S128).view.set]{fullShare} f1 : sProp 𝕄) = inv_t4 (F := F) d L f1 0 PUnit.unit from rfl)) $$ Hl2
  iintro %acc4 Hl2
  ihave Hl2 := (Entails.of_eq (show inv_t4 (F := F) d L f1 (Scf.trips k0_t4_loop.lb k0_t4_loop.ub k0_t4_loop.st) acc4 = ((((ibV).slice (Rect.unit (s := S2x1024) ![0, 256] S1x128.size inb_S2x1024_S1x128_0_256) (fun _ => rfl)).squeeze S128 squeezes_S1x128_S128).view.loc (V d (cV L) (jV L)) ↦[(((ibV).slice (Rect.unit (s := S2x1024) ![0, 256] S1x128.size inb_S2x1024_S1x128_0_256) (fun _ => rfl)).squeeze S128 squeezes_S1x128_S128).view.set]{fullShare} f1 : sProp 𝕄) from rfl)) $$ Hl2
  have hin1 : ∀ x, (((((ibV).slice (Rect.unit (s := S2x1024) ![0, 128] S1x128.size inb_S2x1024_S1x128_0_128) (fun _ => rfl)).squeeze S128 squeezes_S1x128_S128).view.read (Elt F) f1 x : BitVec 32)).toNat < S3x128.size (gathers_S3x128_S128x128).axis :=
    gather_hin gathers_S3x128_S128x128 _ hfl1
  sl_exec (disch := (clear * - k hk49; decide +kernel +revert))
  -- the last two gathers of the previous block have landed: the second half reads blocks 16k-2, 16k-1 of the lookup
  icases HG10_dst with ⟨⟨%b10, Hq10, %hb10⟩, Hn6⟩
  icases HG11_dst with ⟨⟨%b11, Hq11, %hb11⟩, Hn7⟩
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 b10 b11) $$ [Hq10 Hq11]
  · isplitl [Hq10] <;> iassumption
  ihave Hh1 := (Entails.of_eq (half_lit_1 (F := F) d (cV L) (jV L) _).symm) $$ Hh1
  have hc3 : k0_cond3 k = 1#1 := (by decide +kernel : ∀ k : Fin k0_t1_loop.trips, 1 ≤ k.val → k0_cond3 k = 1#1) k hk1
  have hoff7 : _ = (![800 * (wL L).val + (16 * k.val - 2), 0, 0] : Fin 3 → ℕ) := ((by decide +kernel : ∀ (i : grid0.Coords) (k : Fin k0_t1_loop.trips), 1 ≤ k.val → k0_off7 i k = ![1600 * (i 1).val + 800 * (i 0).val + 16 * k.val - 2, 0, 0]) L k hk1).trans (congrArg (fun n => (![n, 0, 0] : Fin 3 → ℕ)) (by show _ = 800 * ((L 1).val * 2 + (L 0).val) + (16 * k.val - 2); omega))
  ihave Hp := (rest_take (F := F) d (cV L) (jV L) (wL L) (k0_off7_inb L k hc3) (lo := 16 * k.val - 2) hoff7 (by omega) (fo d)) $$ Hrest
  icases Hp with ⟨HpB, Hrest⟩
  ihave Hrest := (Entails.of_eq (show (oLoc d ↦[rowsIn (wL L) (16 * k.val - 2 + 2) 800]{fullShare} fo d : sProp 𝕄) = (oLoc d ↦[rowsIn (wL L) (16 * k.val) 800]{fullShare} fo d) from by rw [show 16 * k.val - 2 + 2 = 16 * k.val from by omega])) $$ Hrest
  sl_exec (disch := (clear * - k hk49; decide +kernel +revert))
  sl_unfold_run_names
  ihave Hs10 := (out_clean1 (F := F) fi ft d L _ _ _ (fo d) b10 b11 (k0_off7_inb L k hc3) (16 * k.val - 2) (by omega) hoff7 (QuarterIs_cast (F := F) fi ft (by omega) hb10) (QuarterIs_cast (F := F) fi ft (by omega) hb11)) $$ Hs10
  unfold OutD1
  -- reduction of the list 3 of slot 0: each step stores back what it loaded
  have hfl3 : ListOK (F := F) 0 3 d (cV L) (jV L) f1 := listOK_of_slot (F := F) 0 d (cV L) (jV L) f1 hf1 3
  first
    | sl_for (inv_t5 (F := F) d L f1) $$ [Hl3]
    | (sl_rw [Idealize.SL.Sem.Prog.bind_assoc]; sl_for (inv_t5 (F := F) d L f1) $$ [Hl3])
  · intro k2 acc
    exact step_t5 (F := F) d L v5 v6 k (0#32) (0#1) f1 hfl3 k2 acc
  · iapply (Entails.of_eq (show ((((ibV).slice (Rect.unit (s := S2x1024) ![0, 384] S1x128.size inb_S2x1024_S1x128_0_384) (fun _ => rfl)).squeeze S128 squeezes_S1x128_S128).view.loc (V d (cV L) (jV L)) ↦[(((ibV).slice (Rect.unit (s := S2x1024) ![0, 384] S1x128.size inb_S2x1024_S1x128_0_384) (fun _ => rfl)).squeeze S128 squeezes_S1x128_S128).view.set]{fullShare} f1 : sProp 𝕄) = inv_t5 (F := F) d L f1 0 PUnit.unit from rfl)) $$ Hl3
  iintro %acc5 Hl3
  ihave Hl3 := (Entails.of_eq (show inv_t5 (F := F) d L f1 (Scf.trips k0_t5_loop.lb k0_t5_loop.ub k0_t5_loop.st) acc5 = ((((ibV).slice (Rect.unit (s := S2x1024) ![0, 384] S1x128.size inb_S2x1024_S1x128_0_384) (fun _ => rfl)).squeeze S128 squeezes_S1x128_S128).view.loc (V d (cV L) (jV L)) ↦[(((ibV).slice (Rect.unit (s := S2x1024) ![0, 384] S1x128.size inb_S2x1024_S1x128_0_384) (fun _ => rfl)).squeeze S128 squeezes_S1x128_S128).view.set]{fullShare} f1 : sProp 𝕄) from rfl)) $$ Hl3
  have hin2 : ∀ x, (((((ibV).slice (Rect.unit (s := S2x1024) ![0, 256] S1x128.size inb_S2x1024_S1x128_0_256) (fun _ => rfl)).squeeze S128 squeezes_S1x128_S128).view.read (Elt F) f1 x : BitVec 32)).toNat < S3x128.size (gathers_S3x128_S128x128).axis :=
    gather_hin gathers_S3x128_S128x128 _ hfl2
  -- the second slot is free again: its first six lists and the two the gathers handed back are the slot the next block is copied into
  ihave Hn6 := (Entails.of_eq (list_lit_1_6 (F := F) d (cV L) (jV L) f2)) $$ Hn6
  ihave Hn7 := (Entails.of_eq (list_lit_1_7 (F := F) d (cV L) (jV L) f2)) $$ Hn7
  ihave Hsl1 := (slot1_back (F := F) d (cV L) (jV L) f2) $$ [Hm05 Hn6 Hn7]
  · isplitl [Hm05]; · iexact Hm05
    isplitl [Hn6] <;> iassumption
  ihave Hsl1 := (Entails.of_eq (slot_lit_1 (F := F) d (cV L) (jV L) f2).symm) $$ Hsl1
  sl_exec (disch := (clear * - k hk49; decide +kernel +revert))
  have hg1 : 2 * k.val + 1 < 100 := by omega
  have hoffI1 : _ = (![102400 * (wL L).val + 1024 * (2 * k.val + 1)] : Fin 1 → ℕ) := (k0_off9_eq L k).trans (congrArg (fun n => (![n] : Fin 1 → ℕ)) (by show _ = 102400 * ((L 1).val * 2 + (L 0).val) + 1024 * (2 * k.val + 1); omega))
  sl_unfold_run_names
  ihave Hs4 := (idx_clean1 (F := F) fi hr d L _ _ _ _ _ (2 * k.val + 1) hg1 hoffI1) $$ Hs4
  unfold IdxD1 idxBlk
  ihave Hi' := (Entails.of_eq (idx_rest (F := F) fi d L _ (2 * k.val + 1) hg1 hoffI1)) $$ Hi'
  -- the copy-out of half 1 has delivered its pair at the lookup: the done interval grows by two blocks; the half is two quarters again
  icases Hs10_dst with ⟨%gB2, HpB2, %hgB2⟩
  ihave Hdone := (done_add (F := F) d (cV L) (jV L) (wL L) (pairIn L (16 * k.val - 2) (by omega)) (lo := 16 * k.val - 2) rfl gB2 (oDone fi ft d) hgB2) $$ [Hdone HpB2]
  · isplitl [Hdone]; · iexact Hdone
    iexact HpB2
  ihave Hdone := (Entails.of_eq (show (oLoc d ↦[rowsIn (wL L) 0 (16 * k.val - 2 + 2)]{fullShare} oDone fi ft d : sProp 𝕄) = (oLoc d ↦[rowsIn (wL L) 0 (16 * k.val)]{fullShare} oDone fi ft d) from by rw [show 16 * k.val - 2 + 2 = 16 * k.val from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  sl_exec (disch := (clear * - k hk49; decide +kernel +revert))
  -- reduction of the list 4 of slot 0: each step stores back what it loaded
  have hfl4 : ListOK (F := F) 0 4 d (cV L) (jV L) f1 := listOK_of_slot (F := F) 0 d (cV L) (jV L) f1 hf1 4
  first
    | sl_for (inv_t6 (F := F) d L f1) $$ [Hl4]
    | (sl_rw [Idealize.SL.Sem.Prog.bind_assoc]; sl_for (inv_t6 (F := F) d L f1) $$ [Hl4])
  · intro k2 acc
    exact step_t6 (F := F) d L v5 v6 k (0#32) (0#1) f1 hfl4 k2 acc
  · iapply (Entails.of_eq (show ((((ibV).slice (Rect.unit (s := S2x1024) ![0, 512] S1x128.size inb_S2x1024_S1x128_0_512) (fun _ => rfl)).squeeze S128 squeezes_S1x128_S128).view.loc (V d (cV L) (jV L)) ↦[(((ibV).slice (Rect.unit (s := S2x1024) ![0, 512] S1x128.size inb_S2x1024_S1x128_0_512) (fun _ => rfl)).squeeze S128 squeezes_S1x128_S128).view.set]{fullShare} f1 : sProp 𝕄) = inv_t6 (F := F) d L f1 0 PUnit.unit from rfl)) $$ Hl4
  iintro %acc6 Hl4
  ihave Hl4 := (Entails.of_eq (show inv_t6 (F := F) d L f1 (Scf.trips k0_t6_loop.lb k0_t6_loop.ub k0_t6_loop.st) acc6 = ((((ibV).slice (Rect.unit (s := S2x1024) ![0, 512] S1x128.size inb_S2x1024_S1x128_0_512) (fun _ => rfl)).squeeze S128 squeezes_S1x128_S128).view.loc (V d (cV L) (jV L)) ↦[(((ibV).slice (Rect.unit (s := S2x1024) ![0, 512] S1x128.size inb_S2x1024_S1x128_0_512) (fun _ => rfl)).squeeze S128 squeezes_S1x128_S128).view.set]{fullShare} f1 : sProp 𝕄) from rfl)) $$ Hl4
  have hin3 : ∀ x, (((((ibV).slice (Rect.unit (s := S2x1024) ![0, 384] S1x128.size inb_S2x1024_S1x128_0_384) (fun _ => rfl)).squeeze S128 squeezes_S1x128_S128).view.read (Elt F) f1 x : BitVec 32)).toNat < S3x128.size (gathers_S3x128_S128x128).axis :=
    gather_hin gathers_S3x128_S128x128 _ hfl3
  sl_exec (disch := (clear * - k hk49; decide +kernel +revert))
  -- the two gathered quarters of half 0 read blocks 16 * k.val, 16 * k.val + 1 of the lookup; joined, they are copied out to that pair of the worker's blocks
  ihave Hg := (pts_name (F := F) _ _ _) $$ Hq00
  icases Hg with ⟨%aP00, Hq00, %eaP00⟩
  have hqaP00 : QuarterIs fi ft d L 0 0 (8 * (2 * k.val) + 0) aP00 := by
    rw [eaP00]; exact gather_fact (F := F) fi ft hr d L 0 0 0 0 (2 * k.val) hg0 f1 hs1 _ _ _
  ihave Hg := (pts_name (F := F) _ _ _) $$ Hq01
  icases Hg with ⟨%aP01, Hq01, %eaP01⟩
  have hqaP01 : QuarterIs fi ft d L 0 1 (8 * (2 * k.val) + 1) aP01 := by
    rw [eaP01]; exact gather_fact (F := F) fi ft hr d L 0 1 0 1 (2 * k.val) hg0 f1 hs1 _ _ _
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 aP00 aP01) $$ [Hq00 Hq01]
  · isplitl [Hq00] <;> iassumption
  ihave Hh0 := (Entails.of_eq (half_lit_0 (F := F) d (cV L) (jV L) _).symm) $$ Hh0
  have hoffP0 : _ = (![800 * (wL L).val + (16 * k.val), 0, 0] : Fin 3 → ℕ) := (k0_off12_eq L k 0 0).trans (congrArg (fun n => (![n, 0, 0] : Fin 3 → ℕ)) (by show _ = 800 * ((L 1).val * 2 + (L 0).val) + (16 * k.val); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 0 0) (lo := 16 * k.val) hoffP0 (by omega) (fo d)) $$ Hrest
  icases Hp with ⟨HpP0, Hrest⟩
  ihave Hrest := (Entails.of_eq (show (oLoc d ↦[rowsIn (wL L) (16 * k.val + 2) 800]{fullShare} fo d : sProp 𝕄) = (oLoc d ↦[rowsIn (wL L) (16 * k.val + 2) 800]{fullShare} fo d) from by rw [show 16 * k.val + 2 = 16 * k.val + 2 from by omega])) $$ Hrest
  sl_exec (disch := (clear * - k hk49; decide +kernel +revert))
  sl_unfold_run_names
  ihave HO0 := (out_clean0 (F := F) fi ft d L _ _ _ (fo d) aP00 aP01 (k0_off12_inb L k 0 0) (16 * k.val) (by omega) hoffP0 (QuarterIs_cast (F := F) fi ft (by omega) hqaP00) (QuarterIs_cast (F := F) fi ft (by omega) hqaP01)) $$ HO0
  unfold OutD0
  -- reduction of the list 5 of slot 0: each step stores back what it loaded
  have hfl5 : ListOK (F := F) 0 5 d (cV L) (jV L) f1 := listOK_of_slot (F := F) 0 d (cV L) (jV L) f1 hf1 5
  first
    | sl_for (inv_t7 (F := F) d L f1) $$ [Hl5]
    | (sl_rw [Idealize.SL.Sem.Prog.bind_assoc]; sl_for (inv_t7 (F := F) d L f1) $$ [Hl5])
  · intro k2 acc
    exact step_t7 (F := F) d L v6 f1 hfl5 k2 acc
  · iapply (Entails.of_eq (show ((((ibV).slice (Rect.unit (s := S2x1024) ![0, 640] S1x128.size inb_S2x1024_S1x128_0_640) (fun _ => rfl)).squeeze S128 squeezes_S1x128_S128).view.loc (V d (cV L) (jV L)) ↦[(((ibV).slice (Rect.unit (s := S2x1024) ![0, 640] S1x128.size inb_S2x1024_S1x128_0_640) (fun _ => rfl)).squeeze S128 squeezes_S1x128_S128).view.set]{fullShare} f1 : sProp 𝕄) = inv_t7 (F := F) d L f1 0 PUnit.unit from rfl)) $$ Hl5
  iintro %acc7 Hl5
  ihave Hl5 := (Entails.of_eq (show inv_t7 (F := F) d L f1 (Scf.trips k0_t7_loop.lb k0_t7_loop.ub k0_t7_loop.st) acc7 = ((((ibV).slice (Rect.unit (s := S2x1024) ![0, 640] S1x128.size inb_S2x1024_S1x128_0_640) (fun _ => rfl)).squeeze S128 squeezes_S1x128_S128).view.loc (V d (cV L) (jV L)) ↦[(((ibV).slice (Rect.unit (s := S2x1024) ![0, 640] S1x128.size inb_S2x1024_S1x128_0_640) (fun _ => rfl)).squeeze S128 squeezes_S1x128_S128).view.set]{fullShare} f1 : sProp 𝕄) from rfl)) $$ Hl5
  have hin4 : ∀ x, (((((ibV).slice (Rect.unit (s := S2x1024) ![0, 512] S1x128.size inb_S2x1024_S1x128_0_512) (fun _ => rfl)).squeeze S128 squeezes_S1x128_S128).view.read (Elt F) f1 x : BitVec 32)).toNat < S3x128.size (gathers_S3x128_S128x128).axis :=
    gather_hin gathers_S3x128_S128x128 _ hfl4
  sl_exec (disch := (clear * - k hk49; decide +kernel +revert))
  -- the copy-out of half 0 has delivered its pair at the lookup: the done interval grows by two blocks; the half is two quarters again
  icases HO0_dst with ⟨%gM0, HpM0, %hgM0⟩
  ihave Hdone := (done_add (F := F) d (cV L) (jV L) (wL L) (pairIn L (16 * k.val) (by omega)) (lo := 16 * k.val) rfl gM0 (oDone fi ft d) hgM0) $$ [Hdone HpM0]
  · isplitl [Hdone]; · iexact Hdone
    iexact HpM0
  ihave Hdone := (Entails.of_eq (show (oLoc d ↦[rowsIn (wL L) 0 (16 * k.val + 2)]{fullShare} oDone fi ft d : sProp 𝕄) = (oLoc d ↦[rowsIn (wL L) 0 (16 * k.val + 2)]{fullShare} oDone fi ft d) from by rw [show 16 * k.val + 2 = 16 * k.val + 2 from by omega])) $$ Hdone
  ihave Hh0 := (Entails.of_eq (half_lit_0 (F := F) d (cV L) (jV L) _)) $$ HO0_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  sl_exec (disch := (clear * - k hk49; decide +kernel +revert))
  -- reduction of the list 6 of slot 0: each step stores back what it loaded
  have hfl6 : ListOK (F := F) 0 6 d (cV L) (jV L) f1 := listOK_of_slot (F := F) 0 d (cV L) (jV L) f1 hf1 6
  first
    | sl_for (inv_t8 (F := F) d L f1) $$ [Hl6]
    | (sl_rw [Idealize.SL.Sem.Prog.bind_assoc]; sl_for (inv_t8 (F := F) d L f1) $$ [Hl6])
  · intro k2 acc
    exact step_t8 (F := F) d L v6 f1 hfl6 k2 acc
  · iapply (Entails.of_eq (show ((((ibV).slice (Rect.unit (s := S2x1024) ![0, 768] S1x128.size inb_S2x1024_S1x128_0_768) (fun _ => rfl)).squeeze S128 squeezes_S1x128_S128).view.loc (V d (cV L) (jV L)) ↦[(((ibV).slice (Rect.unit (s := S2x1024) ![0, 768] S1x128.size inb_S2x1024_S1x128_0_768) (fun _ => rfl)).squeeze S128 squeezes_S1x128_S128).view.set]{fullShare} f1 : sProp 𝕄) = inv_t8 (F := F) d L f1 0 PUnit.unit from rfl)) $$ Hl6
  iintro %acc8 Hl6
  ihave Hl6 := (Entails.of_eq (show inv_t8 (F := F) d L f1 (Scf.trips k0_t8_loop.lb k0_t8_loop.ub k0_t8_loop.st) acc8 = ((((ibV).slice (Rect.unit (s := S2x1024) ![0, 768] S1x128.size inb_S2x1024_S1x128_0_768) (fun _ => rfl)).squeeze S128 squeezes_S1x128_S128).view.loc (V d (cV L) (jV L)) ↦[(((ibV).slice (Rect.unit (s := S2x1024) ![0, 768] S1x128.size inb_S2x1024_S1x128_0_768) (fun _ => rfl)).squeeze S128 squeezes_S1x128_S128).view.set]{fullShare} f1 : sProp 𝕄) from rfl)) $$ Hl6
  have hin5 : ∀ x, (((((ibV).slice (Rect.unit (s := S2x1024) ![0, 640] S1x128.size inb_S2x1024_S1x128_0_640) (fun _ => rfl)).squeeze S128 squeezes_S1x128_S128).view.read (Elt F) f1 x : BitVec 32)).toNat < S3x128.size (gathers_S3x128_S128x128).axis :=
    gather_hin gathers_S3x128_S128x128 _ hfl5
  sl_exec (disch := (clear * - k hk49; decide +kernel +revert))
  -- the two gathered quarters of half 1 read blocks 16 * k.val + 2, 16 * k.val + 2 + 1 of the lookup; joined, they are copied out to that pair of the worker's blocks
  ihave Hg := (pts_name (F := F) _ _ _) $$ Hq10
  icases Hg with ⟨%aP10, Hq10, %eaP10⟩
  have hqaP10 : QuarterIs fi ft d L 1 0 (8 * (2 * k.val) + 2) aP10 := by
    rw [eaP10]; exact gather_fact (F := F) fi ft hr d L 0 2 1 0 (2 * k.val) hg0 f1 hs1 _ _ _
  ihave Hg := (pts_name (F := F) _ _ _) $$ Hq11
  icases Hg with ⟨%aP11, Hq11, %eaP11⟩
  have hqaP11 : QuarterIs fi ft d L 1 1 (8 * (2 * k.val) + 3) aP11 := by
    rw [eaP11]; exact gather_fact (F := F) fi ft hr d L 0 3 1 1 (2 * k.val) hg0 f1 hs1 _ _ _
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 aP10 aP11) $$ [Hq10 Hq11]
  · isplitl [Hq10] <;> iassumption
  ihave Hh1 := (Entails.of_eq (half_lit_1 (F := F) d (cV L) (jV L) _).symm) $$ Hh1
  have hoffP1 : _ = (![800 * (wL L).val + (16 * k.val + 2), 0, 0] : Fin 3 → ℕ) := (k0_off12_eq L k 0 1).trans (congrArg (fun n => (![n, 0, 0] : Fin 3 → ℕ)) (by show _ = 800 * ((L 1).val * 2 + (L 0).val) + (16 * k.val + 2); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 0 1) (lo := 16 * k.val + 2) hoffP1 (by omega) (fo d)) $$ Hrest
  icases Hp with ⟨HpP1, Hrest⟩
  ihave Hrest := (Entails.of_eq (show (oLoc d ↦[rowsIn (wL L) (16 * k.val + 2 + 2) 800]{fullShare} fo d : sProp 𝕄) = (oLoc d ↦[rowsIn (wL L) (16 * k.val + 4) 800]{fullShare} fo d) from by rw [show 16 * k.val + 2 + 2 = 16 * k.val + 4 from by omega])) $$ Hrest
  sl_exec (disch := (clear * - k hk49; decide +kernel +revert))
  sl_unfold_run_names
  ihave Hs10 := (out_clean1 (F := F) fi ft d L _ _ _ (fo d) aP10 aP11 (k0_off12_inb L k 0 1) (16 * k.val + 2) (by omega) hoffP1 (QuarterIs_cast (F := F) fi ft (by omega) hqaP10) (QuarterIs_cast (F := F) fi ft (by omega) hqaP11)) $$ Hs10
  unfold OutD1
  -- reduction of the list 7 of slot 0: each step stores back what it loaded
  have hfl7 : ListOK (F := F) 0 7 d (cV L) (jV L) f1 := listOK_of_slot (F := F) 0 d (cV L) (jV L) f1 hf1 7
  first
    | sl_for (inv_t9 (F := F) d L f1) $$ [Hl7]
    | (sl_rw [Idealize.SL.Sem.Prog.bind_assoc]; sl_for (inv_t9 (F := F) d L f1) $$ [Hl7])
  · intro k2 acc
    exact step_t9 (F := F) d L v6 (0#32) f1 hfl7 k2 acc
  · iapply (Entails.of_eq (show ((((ibV).slice (Rect.unit (s := S2x1024) ![0, 896] S1x128.size inb_S2x1024_S1x128_0_896) (fun _ => rfl)).squeeze S128 squeezes_S1x128_S128).view.loc (V d (cV L) (jV L)) ↦[(((ibV).slice (Rect.unit (s := S2x1024) ![0, 896] S1x128.size inb_S2x1024_S1x128_0_896) (fun _ => rfl)).squeeze S128 squeezes_S1x128_S128).view.set]{fullShare} f1 : sProp 𝕄) = inv_t9 (F := F) d L f1 0 PUnit.unit from rfl)) $$ Hl7
  iintro %acc9 Hl7
  ihave Hl7 := (Entails.of_eq (show inv_t9 (F := F) d L f1 (Scf.trips k0_t9_loop.lb k0_t9_loop.ub k0_t9_loop.st) acc9 = ((((ibV).slice (Rect.unit (s := S2x1024) ![0, 896] S1x128.size inb_S2x1024_S1x128_0_896) (fun _ => rfl)).squeeze S128 squeezes_S1x128_S128).view.loc (V d (cV L) (jV L)) ↦[(((ibV).slice (Rect.unit (s := S2x1024) ![0, 896] S1x128.size inb_S2x1024_S1x128_0_896) (fun _ => rfl)).squeeze S128 squeezes_S1x128_S128).view.set]{fullShare} f1 : sProp 𝕄) from rfl)) $$ Hl7
  have hin6 : ∀ x, (((((ibV).slice (Rect.unit (s := S2x1024) ![0, 768] S1x128.size inb_S2x1024_S1x128_0_768) (fun _ => rfl)).squeeze S128 squeezes_S1x128_S128).view.read (Elt F) f1 x : BitVec 32)).toNat < S3x128.size (gathers_S3x128_S128x128).axis :=
    gather_hin gathers_S3x128_S128x128 _ hfl6
  have hin7 : ∀ x, (((((ibV).slice (Rect.unit (s := S2x1024) ![0, 896] S1x128.size inb_S2x1024_S1x128_0_896) (fun _ => rfl)).squeeze S128 squeezes_S1x128_S128).view.read (Elt F) f1 x : BitVec 32)).toNat < S3x128.size (gathers_S3x128_S128x128).axis :=
    gather_hin gathers_S3x128_S128x128 _ hfl7
  sl_exec (disch := (clear * - k hk49; decide +kernel +revert))
  -- the copy-out of half 1 has delivered its pair at the lookup: the done interval grows by two blocks; the half is two quarters again
  icases Hs10_dst with ⟨%gM1, HpM1, %hgM1⟩
  ihave Hdone := (done_add (F := F) d (cV L) (jV L) (wL L) (pairIn L (16 * k.val + 2) (by omega)) (lo := 16 * k.val + 2) rfl gM1 (oDone fi ft d) hgM1) $$ [Hdone HpM1]
  · isplitl [Hdone]; · iexact Hdone
    iexact HpM1
  ihave Hdone := (Entails.of_eq (show (oLoc d ↦[rowsIn (wL L) 0 (16 * k.val + 2 + 2)]{fullShare} oDone fi ft d : sProp 𝕄) = (oLoc d ↦[rowsIn (wL L) 0 (16 * k.val + 4)]{fullShare} oDone fi ft d) from by rw [show 16 * k.val + 2 + 2 = 16 * k.val + 4 from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  sl_exec (disch := (clear * - k hk49; decide +kernel +revert))
  -- the two gathered quarters of half 0 read blocks 16 * k.val + 4, 16 * k.val + 4 + 1 of the lookup; joined, they are copied out to that pair of the worker's blocks
  ihave Hg := (pts_name (F := F) _ _ _) $$ Hq00
  icases Hg with ⟨%aP20, Hq00, %eaP20⟩
  have hqaP20 : QuarterIs fi ft d L 0 0 (8 * (2 * k.val) + 4) aP20 := by
    rw [eaP20]; exact gather_fact (F := F) fi ft hr d L 0 4 0 0 (2 * k.val) hg0 f1 hs1 _ _ _
  ihave Hg := (pts_name (F := F) _ _ _) $$ Hq01
  icases Hg with ⟨%aP21, Hq01, %eaP21⟩
  have hqaP21 : QuarterIs fi ft d L 0 1 (8 * (2 * k.val) + 5) aP21 := by
    rw [eaP21]; exact gather_fact (F := F) fi ft hr d L 0 5 0 1 (2 * k.val) hg0 f1 hs1 _ _ _
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 aP20 aP21) $$ [Hq00 Hq01]
  · isplitl [Hq00] <;> iassumption
  ihave Hh0 := (Entails.of_eq (half_lit_0 (F := F) d (cV L) (jV L) _).symm) $$ Hh0
  have hoffP2 : _ = (![800 * (wL L).val + (16 * k.val + 4), 0, 0] : Fin 3 → ℕ) := (k0_off12_eq L k 0 2).trans (congrArg (fun n => (![n, 0, 0] : Fin 3 → ℕ)) (by show _ = 800 * ((L 1).val * 2 + (L 0).val) + (16 * k.val + 4); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 0 2) (lo := 16 * k.val + 4) hoffP2 (by omega) (fo d)) $$ Hrest
  icases Hp with ⟨HpP2, Hrest⟩
  ihave Hrest := (Entails.of_eq (show (oLoc d ↦[rowsIn (wL L) (16 * k.val + 4 + 2) 800]{fullShare} fo d : sProp 𝕄) = (oLoc d ↦[rowsIn (wL L) (16 * k.val + 6) 800]{fullShare} fo d) from by rw [show 16 * k.val + 4 + 2 = 16 * k.val + 6 from by omega])) $$ Hrest
  sl_exec (disch := (clear * - k hk49; decide +kernel +revert))
  sl_unfold_run_names
  ihave HO0 := (out_clean0 (F := F) fi ft d L _ _ _ (fo d) aP20 aP21 (k0_off12_inb L k 0 2) (16 * k.val + 4) (by omega) hoffP2 (QuarterIs_cast (F := F) fi ft (by omega) hqaP20) (QuarterIs_cast (F := F) fi ft (by omega) hqaP21)) $$ HO0
  unfold OutD0
  -- block 2k+1 of row numbers has landed in slot 1
  icases Hs4_dst with ⟨%f3, Hsl1, %hs3⟩
  have hf3 := slot_range (F := F) fi hr d L 1 _ f3 hs3
  ihave Hsl1 := (Entails.of_eq (slot_lit_1 (F := F) d (cV L) (jV L) f3)) $$ Hsl1
  ihave Hls := (Entails.of_eq (slot_lists8 (F := F) d (cV L) (jV L) 1 f3)) $$ Hsl1
  icases Hls with ⟨Hm0, Hm1, Hm2, Hm3, Hm4, Hm5, Hm6, Hm7⟩
  ihave Hm0 := (Entails.of_eq (list_lit_1_0 (F := F) d (cV L) (jV L) f3).symm) $$ Hm0
  ihave Hm1 := (Entails.of_eq (list_lit_1_1 (F := F) d (cV L) (jV L) f3).symm) $$ Hm1
  ihave Hm2 := (Entails.of_eq (list_lit_1_2 (F := F) d (cV L) (jV L) f3).symm) $$ Hm2
  ihave Hm3 := (Entails.of_eq (list_lit_1_3 (F := F) d (cV L) (jV L) f3).symm) $$ Hm3
  ihave Hm4 := (Entails.of_eq (list_lit_1_4 (F := F) d (cV L) (jV L) f3).symm) $$ Hm4
  ihave Hm5 := (Entails.of_eq (list_lit_1_5 (F := F) d (cV L) (jV L) f3).symm) $$ Hm5
  ihave Hm6 := (Entails.of_eq (list_lit_1_6 (F := F) d (cV L) (jV L) f3).symm) $$ Hm6
  ihave Hm7 := (Entails.of_eq (list_lit_1_7 (F := F) d (cV L) (jV L) f3).symm) $$ Hm7
  -- reduction of the list 0 of slot 1: each step stores back what it loaded
  have hfm0 : ListOK (F := F) 1 0 d (cV L) (jV L) f3 := listOK_of_slot (F := F) 1 d (cV L) (jV L) f3 hf3 0
  first
    | sl_for (inv_t10 (F := F) d L f3) $$ [Hm0]
    | (sl_rw [Idealize.SL.Sem.Prog.bind_assoc]; sl_for (inv_t10 (F := F) d L f3) $$ [Hm0])
  · intro k2 acc
    exact step_t10 (F := F) d L v6 k (0#32) (0#32) f3 hfm0 k2 acc
  · iapply (Entails.of_eq (show ((((ibV).slice (Rect.unit (s := S2x1024) ![1, 0] S1x128.size inb_S2x1024_S1x128_1_0) (fun _ => rfl)).squeeze S128 squeezes_S1x128_S128).view.loc (V d (cV L) (jV L)) ↦[(((ibV).slice (Rect.unit (s := S2x1024) ![1, 0] S1x128.size inb_S2x1024_S1x128_1_0) (fun _ => rfl)).squeeze S128 squeezes_S1x128_S128).view.set]{fullShare} f3 : sProp 𝕄) = inv_t10 (F := F) d L f3 0 PUnit.unit from rfl)) $$ Hm0
  iintro %acc10 Hm0
  ihave Hm0 := (Entails.of_eq (show inv_t10 (F := F) d L f3 (Scf.trips k0_t10_loop.lb k0_t10_loop.ub k0_t10_loop.st) acc10 = ((((ibV).slice (Rect.unit (s := S2x1024) ![1, 0] S1x128.size inb_S2x1024_S1x128_1_0) (fun _ => rfl)).squeeze S128 squeezes_S1x128_S128).view.loc (V d (cV L) (jV L)) ↦[(((ibV).slice (Rect.unit (s := S2x1024) ![1, 0] S1x128.size inb_S2x1024_S1x128_1_0) (fun _ => rfl)).squeeze S128 squeezes_S1x128_S128).view.set]{fullShare} f3 : sProp 𝕄) from rfl)) $$ Hm0
  sl_exec (disch := (clear * - k hk49; decide +kernel +revert))
  -- reduction of the list 1 of slot 1: each step stores back what it loaded
  have hfm1 : ListOK (F := F) 1 1 d (cV L) (jV L) f3 := listOK_of_slot (F := F) 1 d (cV L) (jV L) f3 hf3 1
  first
    | sl_for (inv_t11 (F := F) d L f3) $$ [Hm1]
    | (sl_rw [Idealize.SL.Sem.Prog.bind_assoc]; sl_for (inv_t11 (F := F) d L f3) $$ [Hm1])
  · intro k2 acc
    exact step_t11 (F := F) d L v6 k (0#32) (0#32) f3 hfm1 k2 acc
  · iapply (Entails.of_eq (show ((((ibV).slice (Rect.unit (s := S2x1024) ![1, 128] S1x128.size inb_S2x1024_S1x128_1_128) (fun _ => rfl)).squeeze S128 squeezes_S1x128_S128).view.loc (V d (cV L) (jV L)) ↦[(((ibV).slice (Rect.unit (s := S2x1024) ![1, 128] S1x128.size inb_S2x1024_S1x128_1_128) (fun _ => rfl)).squeeze S128 squeezes_S1x128_S128).view.set]{fullShare} f3 : sProp 𝕄) = inv_t11 (F := F) d L f3 0 PUnit.unit from rfl)) $$ Hm1
  iintro %acc11 Hm1
  ihave Hm1 := (Entails.of_eq (show inv_t11 (F := F) d L f3 (Scf.trips k0_t11_loop.lb k0_t11_loop.ub k0_t11_loop.st) acc11 = ((((ibV).slice (Rect.unit (s := S2x1024) ![1, 128] S1x128.size inb_S2x1024_S1x128_1_128) (fun _ => rfl)).squeeze S128 squeezes_S1x128_S128).view.loc (V d (cV L) (jV L)) ↦[(((ibV).slice (Rect.unit (s := S2x1024) ![1, 128] S1x128.size inb_S2x1024_S1x128_1_128) (fun _ => rfl)).squeeze S128 squeezes_S1x128_S128).view.set]{fullShare} f3 : sProp 𝕄) from rfl)) $$ Hm1
  have him0 : ∀ x, (((((ibV).slice (Rect.unit (s := S2x1024) ![1, 0] S1x128.size inb_S2x1024_S1x128_1_0) (fun _ => rfl)).squeeze S128 squeezes_S1x128_S128).view.read (Elt F) f3 x : BitVec 32)).toNat < S3x128.size (gathers_S3x128_S128x128).axis :=
    gather_hin gathers_S3x128_S128x128 _ hfm0
  sl_exec (disch := (clear * - k hk49; decide +kernel +revert))
  -- the copy-out of half 0 has delivered its pair at the lookup: the done interval grows by two blocks; the half is two quarters again
  icases HO0_dst with ⟨%gN0, HpN0, %hgN0⟩
  ihave Hdone := (done_add (F := F) d (cV L) (jV L) (wL L) (pairIn L (16 * k.val + 4) (by omega)) (lo := 16 * k.val + 4) rfl gN0 (oDone fi ft d) hgN0) $$ [Hdone HpN0]
  · isplitl [Hdone]; · iexact Hdone
    iexact HpN0
  ihave Hdone := (Entails.of_eq (show (oLoc d ↦[rowsIn (wL L) 0 (16 * k.val + 4 + 2)]{fullShare} oDone fi ft d : sProp 𝕄) = (oLoc d ↦[rowsIn (wL L) 0 (16 * k.val + 6)]{fullShare} oDone fi ft d) from by rw [show 16 * k.val + 4 + 2 = 16 * k.val + 6 from by omega])) $$ Hdone
  ihave Hh0 := (Entails.of_eq (half_lit_0 (F := F) d (cV L) (jV L) _)) $$ HO0_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  sl_exec (disch := (clear * - k hk49; decide +kernel +revert))
  -- reduction of the list 2 of slot 1: each step stores back what it loaded
  have hfm2 : ListOK (F := F) 1 2 d (cV L) (jV L) f3 := listOK_of_slot (F := F) 1 d (cV L) (jV L) f3 hf3 2
  first
    | sl_for (inv_t12 (F := F) d L f3) $$ [Hm2]
    | (sl_rw [Idealize.SL.Sem.Prog.bind_assoc]; sl_for (inv_t12 (F := F) d L f3) $$ [Hm2])
  · intro k2 acc
    exact step_t12 (F := F) d L v6 k (0#32) (0#32) f3 hfm2 k2 acc
  · iapply (Entails.of_eq (show ((((ibV).slice (Rect.unit (s := S2x1024) ![1, 256] S1x128.size inb_S2x1024_S1x128_1_256) (fun _ => rfl)).squeeze S128 squeezes_S1x128_S128).view.loc (V d (cV L) (jV L)) ↦[(((ibV).slice (Rect.unit (s := S2x1024) ![1, 256] S1x128.size inb_S2x1024_S1x128_1_256) (fun _ => rfl)).squeeze S128 squeezes_S1x128_S128).view.set]{fullShare} f3 : sProp 𝕄) = inv_t12 (F := F) d L f3 0 PUnit.unit from rfl)) $$ Hm2
  iintro %acc12 Hm2
  ihave Hm2 := (Entails.of_eq (show inv_t12 (F := F) d L f3 (Scf.trips k0_t12_loop.lb k0_t12_loop.ub k0_t12_loop.st) acc12 = ((((ibV).slice (Rect.unit (s := S2x1024) ![1, 256] S1x128.size inb_S2x1024_S1x128_1_256) (fun _ => rfl)).squeeze S128 squeezes_S1x128_S128).view.loc (V d (cV L) (jV L)) ↦[(((ibV).slice (Rect.unit (s := S2x1024) ![1, 256] S1x128.size inb_S2x1024_S1x128_1_256) (fun _ => rfl)).squeeze S128 squeezes_S1x128_S128).view.set]{fullShare} f3 : sProp 𝕄) from rfl)) $$ Hm2
  have him1 : ∀ x, (((((ibV).slice (Rect.unit (s := S2x1024) ![1, 128] S1x128.size inb_S2x1024_S1x128_1_128) (fun _ => rfl)).squeeze S128 squeezes_S1x128_S128).view.read (Elt F) f3 x : BitVec 32)).toNat < S3x128.size (gathers_S3x128_S128x128).axis :=
    gather_hin gathers_S3x128_S128x128 _ hfm1
  sl_exec (disch := (clear * - k hk49; decide +kernel +revert))
  have hc7 : k0_cond7 k = 1#1 := (by decide +kernel : ∀ k : Fin k0_t1_loop.trips, k0_cond7 k = 1#1) k
  -- the two gathered quarters of half 1 read blocks 16 * k.val + 6, 16 * k.val + 6 + 1 of the lookup; joined, they are copied out to that pair of the worker's blocks
  ihave Hg := (pts_name (F := F) _ _ _) $$ Hq10
  icases Hg with ⟨%aQ00, Hq10, %eaQ00⟩
  have hqaQ00 : QuarterIs fi ft d L 1 0 (8 * (2 * k.val) + 6) aQ00 := by
    rw [eaQ00]; exact gather_fact (F := F) fi ft hr d L 0 6 1 0 (2 * k.val) hg0 f1 hs1 _ _ _
  ihave Hg := (pts_name (F := F) _ _ _) $$ Hq11
  icases Hg with ⟨%aQ01, Hq11, %eaQ01⟩
  have hqaQ01 : QuarterIs fi ft d L 1 1 (8 * (2 * k.val) + 7) aQ01 := by
    rw [eaQ01]; exact gather_fact (F := F) fi ft hr d L 0 7 1 1 (2 * k.val) hg0 f1 hs1 _ _ _
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 aQ00 aQ01) $$ [Hq10 Hq11]
  · isplitl [Hq10] <;> iassumption
  ihave Hh1 := (Entails.of_eq (half_lit_1 (F := F) d (cV L) (jV L) _).symm) $$ Hh1
  have hoffQ0 : _ = (![800 * (wL L).val + (16 * k.val + 6), 0, 0] : Fin 3 → ℕ) := (k0_off21_eq L k).trans (congrArg (fun n => (![n, 0, 0] : Fin 3 → ℕ)) (by show _ = 800 * ((L 1).val * 2 + (L 0).val) + (16 * k.val + 6); omega))
  ihave Hp := (rest_take (F := F) d (cV L) (jV L) (wL L) (k0_off21_inb L k hc7) (lo := 16 * k.val + 6) hoffQ0 (by omega) (fo d)) $$ Hrest
  icases Hp with ⟨HpQ0, Hrest⟩
  ihave Hrest := (Entails.of_eq (show (oLoc d ↦[rowsIn (wL L) (16 * k.val + 6 + 2) 800]{fullShare} fo d : sProp 𝕄) = (oLoc d ↦[rowsIn (wL L) (16 * k.val + 8) 800]{fullShare} fo d) from by rw [show 16 * k.val + 6 + 2 = 16 * k.val + 8 from by omega])) $$ Hrest
  sl_exec (disch := (clear * - k hk49; decide +kernel +revert))
  sl_unfold_run_names
  ihave Hs10 := (out_clean1 (F := F) fi ft d L _ _ _ (fo d) aQ00 aQ01 (k0_off21_inb L k hc7) (16 * k.val + 6) (by omega) hoffQ0 (QuarterIs_cast (F := F) fi ft (by omega) hqaQ00) (QuarterIs_cast (F := F) fi ft (by omega) hqaQ01)) $$ Hs10
  unfold OutD1
  -- reduction of the list 3 of slot 1: each step stores back what it loaded
  have hfm3 : ListOK (F := F) 1 3 d (cV L) (jV L) f3 := listOK_of_slot (F := F) 1 d (cV L) (jV L) f3 hf3 3
  first
    | sl_for (inv_t13 (F := F) d L f3) $$ [Hm3]
    | (sl_rw [Idealize.SL.Sem.Prog.bind_assoc]; sl_for (inv_t13 (F := F) d L f3) $$ [Hm3])
  · intro k2 acc
    exact step_t13 (F := F) d L v5 v6 k (0#32) f3 hfm3 k2 acc
  · iapply (Entails.of_eq (show ((((ibV).slice (Rect.unit (s := S2x1024) ![1, 384] S1x128.size inb_S2x1024_S1x128_1_384) (fun _ => rfl)).squeeze S128 squeezes_S1x128_S128).view.loc (V d (cV L) (jV L)) ↦[(((ibV).slice (Rect.unit (s := S2x1024) ![1, 384] S1x128.size inb_S2x1024_S1x128_1_384) (fun _ => rfl)).squeeze S128 squeezes_S1x128_S128).view.set]{fullShare} f3 : sProp 𝕄) = inv_t13 (F := F) d L f3 0 PUnit.unit from rfl)) $$ Hm3
  iintro %acc13 Hm3
  ihave Hm3 := (Entails.of_eq (show inv_t13 (F := F) d L f3 (Scf.trips k0_t13_loop.lb k0_t13_loop.ub k0_t13_loop.st) acc13 = ((((ibV).slice (Rect.unit (s := S2x1024) ![1, 384] S1x128.size inb_S2x1024_S1x128_1_384) (fun _ => rfl)).squeeze S128 squeezes_S1x128_S128).view.loc (V d (cV L) (jV L)) ↦[(((ibV).slice (Rect.unit (s := S2x1024) ![1, 384] S1x128.size inb_S2x1024_S1x128_1_384) (fun _ => rfl)).squeeze S128 squeezes_S1x128_S128).view.set]{fullShare} f3 : sProp 𝕄) from rfl)) $$ Hm3
  have him2 : ∀ x, (((((ibV).slice (Rect.unit (s := S2x1024) ![1, 256] S1x128.size inb_S2x1024_S1x128_1_256) (fun _ => rfl)).squeeze S128 squeezes_S1x128_S128).view.read (Elt F) f3 x : BitVec 32)).toNat < S3x128.size (gathers_S3x128_S128x128).axis :=
    gather_hin gathers_S3x128_S128x128 _ hfm2
  sl_exec (disch := (clear * - k hk49; decide +kernel +revert))
  -- the copy-out of half 1 has delivered its pair at the lookup: the done interval grows by two blocks; the half is two quarters again
  icases Hs10_dst with ⟨%gN1, HpN1, %hgN1⟩
  ihave Hdone := (done_add (F := F) d (cV L) (jV L) (wL L) (pairIn L (16 * k.val + 6) (by omega)) (lo := 16 * k.val + 6) rfl gN1 (oDone fi ft d) hgN1) $$ [Hdone HpN1]
  · isplitl [Hdone]; · iexact Hdone
    iexact HpN1
  ihave Hdone := (Entails.of_eq (show (oLoc d ↦[rowsIn (wL L) 0 (16 * k.val + 6 + 2)]{fullShare} oDone fi ft d : sProp 𝕄) = (oLoc d ↦[rowsIn (wL L) 0 (16 * k.val + 8)]{fullShare} oDone fi ft d) from by rw [show 16 * k.val + 6 + 2 = 16 * k.val + 8 from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  sl_exec (disch := (clear * - k hk49; decide +kernel +revert))
  -- reduction of the list 4 of slot 1: each step stores back what it loaded
  have hfm4 : ListOK (F := F) 1 4 d (cV L) (jV L) f3 := listOK_of_slot (F := F) 1 d (cV L) (jV L) f3 hf3 4
  first
    | sl_for (inv_t14 (F := F) d L f3) $$ [Hm4]
    | (sl_rw [Idealize.SL.Sem.Prog.bind_assoc]; sl_for (inv_t14 (F := F) d L f3) $$ [Hm4])
  · intro k2 acc
    exact step_t14 (F := F) d L v5 v6 k (0#32) f3 hfm4 k2 acc
  · iapply (Entails.of_eq (show ((((ibV).slice (Rect.unit (s := S2x1024) ![1, 512] S1x128.size inb_S2x1024_S1x128_1_512) (fun _ => rfl)).squeeze S128 squeezes_S1x128_S128).view.loc (V d (cV L) (jV L)) ↦[(((ibV).slice (Rect.unit (s := S2x1024) ![1, 512] S1x128.size inb_S2x1024_S1x128_1_512) (fun _ => rfl)).squeeze S128 squeezes_S1x128_S128).view.set]{fullShare} f3 : sProp 𝕄) = inv_t14 (F := F) d L f3 0 PUnit.unit from rfl)) $$ Hm4
  iintro %acc14 Hm4
  ihave Hm4 := (Entails.of_eq (show inv_t14 (F := F) d L f3 (Scf.trips k0_t14_loop.lb k0_t14_loop.ub k0_t14_loop.st) acc14 = ((((ibV).slice (Rect.unit (s := S2x1024) ![1, 512] S1x128.size inb_S2x1024_S1x128_1_512) (fun _ => rfl)).squeeze S128 squeezes_S1x128_S128).view.loc (V d (cV L) (jV L)) ↦[(((ibV).slice (Rect.unit (s := S2x1024) ![1, 512] S1x128.size inb_S2x1024_S1x128_1_512) (fun _ => rfl)).squeeze S128 squeezes_S1x128_S128).view.set]{fullShare} f3 : sProp 𝕄) from rfl)) $$ Hm4
  have him3 : ∀ x, (((((ibV).slice (Rect.unit (s := S2x1024) ![1, 384] S1x128.size inb_S2x1024_S1x128_1_384) (fun _ => rfl)).squeeze S128 squeezes_S1x128_S128).view.read (Elt F) f3 x : BitVec 32)).toNat < S3x128.size (gathers_S3x128_S128x128).axis :=
    gather_hin gathers_S3x128_S128x128 _ hfm3
  sl_exec (disch := (clear * - k hk49; decide +kernel +revert))
  -- the two gathered quarters of half 0 read blocks 16 * k.val + 8, 16 * k.val + 8 + 1 of the lookup; joined, they are copied out to that pair of the worker's blocks
  ihave Hg := (pts_name (F := F) _ _ _) $$ Hq00
  icases Hg with ⟨%aQ10, Hq00, %eaQ10⟩
  have hqaQ10 : QuarterIs fi ft d L 0 0 (8 * (2 * k.val + 1) + 0) aQ10 := by
    rw [eaQ10]; exact gather_fact (F := F) fi ft hr d L 1 0 0 0 (2 * k.val + 1) hg1 f3 hs3 _ _ _
  ihave Hg := (pts_name (F := F) _ _ _) $$ Hq01
  icases Hg with ⟨%aQ11, Hq01, %eaQ11⟩
  have hqaQ11 : QuarterIs fi ft d L 0 1 (8 * (2 * k.val + 1) + 1) aQ11 := by
    rw [eaQ11]; exact gather_fact (F := F) fi ft hr d L 1 1 0 1 (2 * k.val + 1) hg1 f3 hs3 _ _ _
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 aQ10 aQ11) $$ [Hq00 Hq01]
  · isplitl [Hq00] <;> iassumption
  ihave Hh0 := (Entails.of_eq (half_lit_0 (F := F) d (cV L) (jV L) _).symm) $$ Hh0
  have hoffQ1 : _ = (![800 * (wL L).val + (16 * k.val + 8), 0, 0] : Fin 3 → ℕ) := (k0_off12_eq L k 1 0).trans (congrArg (fun n => (![n, 0, 0] : Fin 3 → ℕ)) (by show _ = 800 * ((L 1).val * 2 + (L 0).val) + (16 * k.val + 8); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 1 0) (lo := 16 * k.val + 8) hoffQ1 (by omega) (fo d)) $$ Hrest
  icases Hp with ⟨HpQ1, Hrest⟩
  ihave Hrest := (Entails.of_eq (show (oLoc d ↦[rowsIn (wL L) (16 * k.val + 8 + 2) 800]{fullShare} fo d : sProp 𝕄) = (oLoc d ↦[rowsIn (wL L) (16 * k.val + 10) 800]{fullShare} fo d) from by rw [show 16 * k.val + 8 + 2 = 16 * k.val + 10 from by omega])) $$ Hrest
  sl_exec (disch := (clear * - k hk49; decide +kernel +revert))
  sl_unfold_run_names
  ihave HO0 := (out_clean0 (F := F) fi ft d L _ _ _ (fo d) aQ10 aQ11 (k0_off12_inb L k 1 0) (16 * k.val + 8) (by omega) hoffQ1 (QuarterIs_cast (F := F) fi ft (by omega) hqaQ10) (QuarterIs_cast (F := F) fi ft (by omega) hqaQ11)) $$ HO0
  unfold OutD0
  -- reduction of the list 5 of slot 1: each step stores back what it loaded
  have hfm5 : ListOK (F := F) 1 5 d (cV L) (jV L) f3 := listOK_of_slot (F := F) 1 d (cV L) (jV L) f3 hf3 5
  first
    | sl_for (inv_t15 (F := F) d L f3) $$ [Hm5]
    | (sl_rw [Idealize.SL.Sem.Prog.bind_assoc]; sl_for (inv_t15 (F := F) d L f3) $$ [Hm5])
  · intro k2 acc
    exact step_t15 (F := F) d L v6 k (0#32) f3 hfm5 k2 acc
  · iapply (Entails.of_eq (show ((((ibV).slice (Rect.unit (s := S2x1024) ![1, 640] S1x128.size inb_S2x1024_S1x128_1_640) (fun _ => rfl)).squeeze S128 squeezes_S1x128_S128).view.loc (V d (cV L) (jV L)) ↦[(((ibV).slice (Rect.unit (s := S2x1024) ![1, 640] S1x128.size inb_S2x1024_S1x128_1_640) (fun _ => rfl)).squeeze S128 squeezes_S1x128_S128).view.set]{fullShare} f3 : sProp 𝕄) = inv_t15 (F := F) d L f3 0 PUnit.unit from rfl)) $$ Hm5
  iintro %acc15 Hm5
  ihave Hm5 := (Entails.of_eq (show inv_t15 (F := F) d L f3 (Scf.trips k0_t15_loop.lb k0_t15_loop.ub k0_t15_loop.st) acc15 = ((((ibV).slice (Rect.unit (s := S2x1024) ![1, 640] S1x128.size inb_S2x1024_S1x128_1_640) (fun _ => rfl)).squeeze S128 squeezes_S1x128_S128).view.loc (V d (cV L) (jV L)) ↦[(((ibV).slice (Rect.unit (s := S2x1024) ![1, 640] S1x128.size inb_S2x1024_S1x128_1_640) (fun _ => rfl)).squeeze S128 squeezes_S1x128_S128).view.set]{fullShare} f3 : sProp 𝕄) from rfl)) $$ Hm5
  have him4 : ∀ x, (((((ibV).slice (Rect.unit (s := S2x1024) ![1, 512] S1x128.size inb_S2x1024_S1x128_1_512) (fun _ => rfl)).squeeze S128 squeezes_S1x128_S128).view.read (Elt F) f3 x : BitVec 32)).toNat < S3x128.size (gathers_S3x128_S128x128).axis :=
    gather_hin gathers_S3x128_S128x128 _ hfm4
  sl_exec (disch := (clear * - k hk49; decide +kernel +revert))
  -- the copy-out of half 0 has delivered its pair at the lookup: the done interval grows by two blocks; the half is two quarters again
  icases HO0_dst with ⟨%gN2, HpN2, %hgN2⟩
  ihave Hdone := (done_add (F := F) d (cV L) (jV L) (wL L) (pairIn L (16 * k.val + 8) (by omega)) (lo := 16 * k.val + 8) rfl gN2 (oDone fi ft d) hgN2) $$ [Hdone HpN2]
  · isplitl [Hdone]; · iexact Hdone
    iexact HpN2
  ihave Hdone := (Entails.of_eq (show (oLoc d ↦[rowsIn (wL L) 0 (16 * k.val + 8 + 2)]{fullShare} oDone fi ft d : sProp 𝕄) = (oLoc d ↦[rowsIn (wL L) 0 (16 * k.val + 10)]{fullShare} oDone fi ft d) from by rw [show 16 * k.val + 8 + 2 = 16 * k.val + 10 from by omega])) $$ Hdone
  ihave Hh0 := (Entails.of_eq (half_lit_0 (F := F) d (cV L) (jV L) _)) $$ HO0_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  sl_exec (disch := (clear * - k hk49; decide +kernel +revert))
  -- reduction of the list 6 of slot 1: each step stores back what it loaded
  have hfm6 : ListOK (F := F) 1 6 d (cV L) (jV L) f3 := listOK_of_slot (F := F) 1 d (cV L) (jV L) f3 hf3 6
  first
    | sl_for (inv_t16 (F := F) d L f3) $$ [Hm6]
    | (sl_rw [Idealize.SL.Sem.Prog.bind_assoc]; sl_for (inv_t16 (F := F) d L f3) $$ [Hm6])
  · intro k2 acc
    exact step_t16 (F := F) d L  f3 hfm6 k2 acc
  · iapply (Entails.of_eq (show ((((ibV).slice (Rect.unit (s := S2x1024) ![1, 768] S1x128.size inb_S2x1024_S1x128_1_768) (fun _ => rfl)).squeeze S128 squeezes_S1x128_S128).view.loc (V d (cV L) (jV L)) ↦[(((ibV).slice (Rect.unit (s := S2x1024) ![1, 768] S1x128.size inb_S2x1024_S1x128_1_768) (fun _ => rfl)).squeeze S128 squeezes_S1x128_S128).view.set]{fullShare} f3 : sProp 𝕄) = inv_t16 (F := F) d L f3 0 PUnit.unit from rfl)) $$ Hm6
  iintro %acc16 Hm6
  ihave Hm6 := (Entails.of_eq (show inv_t16 (F := F) d L f3 (Scf.trips k0_t16_loop.lb k0_t16_loop.ub k0_t16_loop.st) acc16 = ((((ibV).slice (Rect.unit (s := S2x1024) ![1, 768] S1x128.size inb_S2x1024_S1x128_1_768) (fun _ => rfl)).squeeze S128 squeezes_S1x128_S128).view.loc (V d (cV L) (jV L)) ↦[(((ibV).slice (Rect.unit (s := S2x1024) ![1, 768] S1x128.size inb_S2x1024_S1x128_1_768) (fun _ => rfl)).squeeze S128 squeezes_S1x128_S128).view.set]{fullShare} f3 : sProp 𝕄) from rfl)) $$ Hm6
  have him5 : ∀ x, (((((ibV).slice (Rect.unit (s := S2x1024) ![1, 640] S1x128.size inb_S2x1024_S1x128_1_640) (fun _ => rfl)).squeeze S128 squeezes_S1x128_S128).view.read (Elt F) f3 x : BitVec 32)).toNat < S3x128.size (gathers_S3x128_S128x128).axis :=
    gather_hin gathers_S3x128_S128x128 _ hfm5
  sl_exec (disch := (clear * - k hk49; decide +kernel +revert))
  -- the two gathered quarters of half 1 read blocks 16 * k.val + 10, 16 * k.val + 10 + 1 of the lookup; joined, they are copied out to that pair of the worker's blocks
  ihave Hg := (pts_name (F := F) _ _ _) $$ Hq10
  icases Hg with ⟨%aQ20, Hq10, %eaQ20⟩
  have hqaQ20 : QuarterIs fi ft d L 1 0 (8 * (2 * k.val + 1) + 2) aQ20 := by
    rw [eaQ20]; exact gather_fact (F := F) fi ft hr d L 1 2 1 0 (2 * k.val + 1) hg1 f3 hs3 _ _ _
  ihave Hg := (pts_name (F := F) _ _ _) $$ Hq11
  icases Hg with ⟨%aQ21, Hq11, %eaQ21⟩
  have hqaQ21 : QuarterIs fi ft d L 1 1 (8 * (2 * k.val + 1) + 3) aQ21 := by
    rw [eaQ21]; exact gather_fact (F := F) fi ft hr d L 1 3 1 1 (2 * k.val + 1) hg1 f3 hs3 _ _ _
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 aQ20 aQ21) $$ [Hq10 Hq11]
  · isplitl [Hq10] <;> iassumption
  ihave Hh1 := (Entails.of_eq (half_lit_1 (F := F) d (cV L) (jV L) _).symm) $$ Hh1
  have hoffQ2 : _ = (![800 * (wL L).val + (16 * k.val + 10), 0, 0] : Fin 3 → ℕ) := (k0_off12_eq L k 1 1).trans (congrArg (fun n => (![n, 0, 0] : Fin 3 → ℕ)) (by show _ = 800 * ((L 1).val * 2 + (L 0).val) + (16 * k.val + 10); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 1 1) (lo := 16 * k.val + 10) hoffQ2 (by omega) (fo d)) $$ Hrest
  icases Hp with ⟨HpQ2, Hrest⟩
  ihave Hrest := (Entails.of_eq (show (oLoc d ↦[rowsIn (wL L) (16 * k.val + 10 + 2) 800]{fullShare} fo d : sProp 𝕄) = (oLoc d ↦[rowsIn (wL L) (16 * (k.val + 1) - 4) 800]{fullShare} fo d) from by rw [show 16 * k.val + 10 + 2 = 16 * (k.val + 1) - 4 from by omega])) $$ Hrest
  sl_exec (disch := (clear * - k hk49; decide +kernel +revert))
  sl_unfold_run_names
  ihave Hs10 := (out_clean1 (F := F) fi ft d L _ _ _ (fo d) aQ20 aQ21 (k0_off12_inb L k 1 1) (16 * k.val + 10) (by omega) hoffQ2 (QuarterIs_cast (F := F) fi ft (by omega) hqaQ20) (QuarterIs_cast (F := F) fi ft (by omega) hqaQ21)) $$ Hs10
  unfold OutD1
  -- reduction of the list 7 of slot 1: each step stores back what it loaded
  have hfm7 : ListOK (F := F) 1 7 d (cV L) (jV L) f3 := listOK_of_slot (F := F) 1 d (cV L) (jV L) f3 hf3 7
  first
    | sl_for (inv_t17 (F := F) d L f3) $$ [Hm7]
    | (sl_rw [Idealize.SL.Sem.Prog.bind_assoc]; sl_for (inv_t17 (F := F) d L f3) $$ [Hm7])
  · intro k2 acc
    exact step_t17 (F := F) d L v6 k (0#32) f3 hfm7 k2 acc
  · iapply (Entails.of_eq (show ((((ibV).slice (Rect.unit (s := S2x1024) ![1, 896] S1x128.size inb_S2x1024_S1x128_1_896) (fun _ => rfl)).squeeze S128 squeezes_S1x128_S128).view.loc (V d (cV L) (jV L)) ↦[(((ibV).slice (Rect.unit (s := S2x1024) ![1, 896] S1x128.size inb_S2x1024_S1x128_1_896) (fun _ => rfl)).squeeze S128 squeezes_S1x128_S128).view.set]{fullShare} f3 : sProp 𝕄) = inv_t17 (F := F) d L f3 0 PUnit.unit from rfl)) $$ Hm7
  iintro %acc17 Hm7
  ihave Hm7 := (Entails.of_eq (show inv_t17 (F := F) d L f3 (Scf.trips k0_t17_loop.lb k0_t17_loop.ub k0_t17_loop.st) acc17 = ((((ibV).slice (Rect.unit (s := S2x1024) ![1, 896] S1x128.size inb_S2x1024_S1x128_1_896) (fun _ => rfl)).squeeze S128 squeezes_S1x128_S128).view.loc (V d (cV L) (jV L)) ↦[(((ibV).slice (Rect.unit (s := S2x1024) ![1, 896] S1x128.size inb_S2x1024_S1x128_1_896) (fun _ => rfl)).squeeze S128 squeezes_S1x128_S128).view.set]{fullShare} f3 : sProp 𝕄) from rfl)) $$ Hm7
  have him6 : ∀ x, (((((ibV).slice (Rect.unit (s := S2x1024) ![1, 768] S1x128.size inb_S2x1024_S1x128_1_768) (fun _ => rfl)).squeeze S128 squeezes_S1x128_S128).view.read (Elt F) f3 x : BitVec 32)).toNat < S3x128.size (gathers_S3x128_S128x128).axis :=
    gather_hin gathers_S3x128_S128x128 _ hfm6
  have him7 : ∀ x, (((((ibV).slice (Rect.unit (s := S2x1024) ![1, 896] S1x128.size inb_S2x1024_S1x128_1_896) (fun _ => rfl)).squeeze S128 squeezes_S1x128_S128).view.read (Elt F) f3 x : BitVec 32)).toNat < S3x128.size (gathers_S3x128_S128x128).axis :=
    gather_hin gathers_S3x128_S128x128 _ hfm7
  sl_exec (disch := (clear * - k hk49; decide +kernel +revert))
  -- the copy-out of half 1 has delivered its pair at the lookup: the done interval grows by two blocks; the half is two quarters again
  icases Hs10_dst with ⟨%gN3, HpN3, %hgN3⟩
  ihave Hdone := (done_add (F := F) d (cV L) (jV L) (wL L) (pairIn L (16 * k.val + 10) (by omega)) (lo := 16 * k.val + 10) rfl gN3 (oDone fi ft d) hgN3) $$ [Hdone HpN3]
  · isplitl [Hdone]; · iexact Hdone
    iexact HpN3
  ihave Hdone := (Entails.of_eq (show (oLoc d ↦[rowsIn (wL L) 0 (16 * k.val + 10 + 2)]{fullShare} oDone fi ft d : sProp 𝕄) = (oLoc d ↦[rowsIn (wL L) 0 (16 * k.val + 12)]{fullShare} oDone fi ft d) from by rw [show 16 * k.val + 10 + 2 = 16 * k.val + 12 from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  sl_exec (disch := (clear * - k hk49; decide +kernel +revert))
  -- the two gathered quarters of half 0 read blocks 16 * (k.val + 1) - 4, 16 * (k.val + 1) - 4 + 1 of the lookup; joined, they are copied out to that pair of the worker's blocks
  ihave Hg := (pts_name (F := F) _ _ _) $$ Hq00
  icases Hg with ⟨%aQ30, Hq00, %eaQ30⟩
  have hqaQ30 : QuarterIs fi ft d L 0 0 (8 * (2 * k.val + 1) + 4) aQ30 := by
    rw [eaQ30]; exact gather_fact (F := F) fi ft hr d L 1 4 0 0 (2 * k.val + 1) hg1 f3 hs3 _ _ _
  ihave Hg := (pts_name (F := F) _ _ _) $$ Hq01
  icases Hg with ⟨%aQ31, Hq01, %eaQ31⟩
  have hqaQ31 : QuarterIs fi ft d L 0 1 (8 * (2 * k.val + 1) + 5) aQ31 := by
    rw [eaQ31]; exact gather_fact (F := F) fi ft hr d L 1 5 0 1 (2 * k.val + 1) hg1 f3 hs3 _ _ _
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 aQ30 aQ31) $$ [Hq00 Hq01]
  · isplitl [Hq00] <;> iassumption
  ihave Hh0 := (Entails.of_eq (half_lit_0 (F := F) d (cV L) (jV L) _).symm) $$ Hh0
  have hoffQ3 : _ = (![800 * (wL L).val + (16 * (k.val + 1) - 4), 0, 0] : Fin 3 → ℕ) := (k0_off12_eq L k 1 2).trans (congrArg (fun n => (![n, 0, 0] : Fin 3 → ℕ)) (by show _ = 800 * ((L 1).val * 2 + (L 0).val) + (16 * (k.val + 1) - 4); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 1 2) (lo := 16 * (k.val + 1) - 4) hoffQ3 (by omega) (fo d)) $$ Hrest
  icases Hp with ⟨HpQ3, Hrest⟩
  ihave Hrest := (Entails.of_eq (show (oLoc d ↦[rowsIn (wL L) (16 * (k.val + 1) - 4 + 2) 800]{fullShare} fo d : sProp 𝕄) = (oLoc d ↦[rowsIn (wL L) (16 * (k.val + 1) - 2) 800]{fullShare} fo d) from by rw [show 16 * (k.val + 1) - 4 + 2 = 16 * (k.val + 1) - 2 from by omega])) $$ Hrest
  sl_exec (disch := (clear * - k hk49; decide +kernel +revert))
  sl_unfold_run_names
  ihave HO0 := (out_clean0 (F := F) fi ft d L _ _ _ (fo d) aQ30 aQ31 (k0_off12_inb L k 1 2) (16 * (k.val + 1) - 4) (by omega) hoffQ3 (QuarterIs_cast (F := F) fi ft (by omega) hqaQ30) (QuarterIs_cast (F := F) fi ft (by omega) hqaQ31)) $$ HO0
  unfold OutD0
  -- the two gathers outstanding across the trip's end, held with what they will deliver
  ihave Hn := (flight_name (F := F) _) $$ HG10
  icases Hn with ⟨%D10, HG10, %eD10⟩
  have cD10 : D10 ⊢ GathD10 fi ft d L (16 * (k.val + 1) - 2) f3 := by
    rw [eD10]
    iintro ⟨⟨Hq, Hl⟩, Ht⟩
    ihave Hg := (pts_name (F := F) _ _ _) $$ Hq
    icases Hg with ⟨%a, Hq, %ea⟩
    isplitl [Hq Hl]
    · isplitl [Hq]
      · iexists a
        isplitl [Hq]; · iexact Hq
        ipureintro
        rw [ea]
        exact QuarterIs_cast (F := F) fi ft (by omega) (gather_fact (F := F) fi ft hr d L 1 6 1 0 (2 * k.val + 1) hg1 f3 hs3 _ _ _)
      · iexact Hl
    · iexact Ht
  ihave HG10 := (Transfers.Flight_mono countersEmb (V d (cV L) (jV L)) cD10) $$ HG10
  ihave Hn := (flight_name (F := F) _) $$ HG11
  icases Hn with ⟨%D11, HG11, %eD11⟩
  have cD11 : D11 ⊢ GathD11 fi ft d L (16 * (k.val + 1) - 1) f3 := by
    rw [eD11]
    iintro ⟨⟨Hq, Hl⟩, Ht⟩
    ihave Hg := (pts_name (F := F) _ _ _) $$ Hq
    icases Hg with ⟨%a, Hq, %ea⟩
    isplitl [Hq Hl]
    · isplitl [Hq]
      · iexists a
        isplitl [Hq]; · iexact Hq
        ipureintro
        rw [ea]
        exact QuarterIs_cast (F := F) fi ft (by omega) (gather_fact (F := F) fi ft hr d L 1 7 1 1 (2 * k.val + 1) hg1 f3 hs3 _ _ _)
      · iexact Hl
    · iexact Ht
  ihave HG11 := (Transfers.Flight_mono countersEmb (V d (cV L) (jV L)) cD11) $$ HG11
  -- the invariant at the next trip
  ihave Hdone := (Entails.of_eq (show (oLoc d ↦[rowsIn (wL L) 0 (16 * k.val + 12)]{fullShare} oDone fi ft d : sProp 𝕄) = (oLoc d ↦[rowsIn (wL L) 0 (16 * (k.val + 1) - 4)]{fullShare} oDone fi ft d) from by rw [show 16 * k.val + 12 = 16 * (k.val + 1) - 4 from by omega])) $$ Hdone
  sl_step
  rw [dif_neg (by omega : ¬ (k.val + 1 = 0)), dif_pos (by omega : k.val + 1 ≤ 50), dif_neg (by omega : ¬ (k.val + 1 < 50))]
  isplitr; · ipureintro; omega
  isplitl [HO Hs4 Hs5 Hs6 Hs10 Htok2 Htok3 Htoks9 Htrem]
  · isplitr; · iexact Hmw2
    isplitl [HO]
    · iexists _
      isplitr
      swap
      · iexact HO
      ipureintro
      repeat (first | exact hW0 | apply waitsOK_insert)
    isplitl [Hs4]; · iexact Hs4
    isplitl [Hs5]; · iexact Hs5
    isplitl [Hs6]; · iexact Hs6
    isplitl [Hs10]; · iexact Hs10
    isplitl [Htok2]; · iexact Htok2
    isplitl [Htok3]; · iexact Htok3
    isplitl [Htoks9]; · iexact Htoks9
    iexact Htrem
  isplitl [HF0 Hi' Hl0 Hl1 Hl2 Hl3 Hl4 Hl5 Hl6 Hl7]
  · isplitl [HF0]; · iexact HF0
    isplitl [Hi']; · iexact Hi'
    iexists f1
    ihave Hl0 := (Entails.of_eq (list_lit_0_0 (F := F) d (cV L) (jV L) f1)) $$ Hl0
    ihave Hl1 := (Entails.of_eq (list_lit_0_1 (F := F) d (cV L) (jV L) f1)) $$ Hl1
    ihave Hl2 := (Entails.of_eq (list_lit_0_2 (F := F) d (cV L) (jV L) f1)) $$ Hl2
    ihave Hl3 := (Entails.of_eq (list_lit_0_3 (F := F) d (cV L) (jV L) f1)) $$ Hl3
    ihave Hl4 := (Entails.of_eq (list_lit_0_4 (F := F) d (cV L) (jV L) f1)) $$ Hl4
    ihave Hl5 := (Entails.of_eq (list_lit_0_5 (F := F) d (cV L) (jV L) f1)) $$ Hl5
    ihave Hl6 := (Entails.of_eq (list_lit_0_6 (F := F) d (cV L) (jV L) f1)) $$ Hl6
    ihave Hl7 := (Entails.of_eq (list_lit_0_7 (F := F) d (cV L) (jV L) f1)) $$ Hl7
    ihave Hsl0 := (Entails.of_eq (slot_lists8 (F := F) d (cV L) (jV L) 0 f1).symm) $$ [Hl0 Hl1 Hl2 Hl3 Hl4 Hl5 Hl6 Hl7]
    · isplitl [Hl0]; · iexact Hl0
      isplitl [Hl1]; · iexact Hl1
      isplitl [Hl2]; · iexact Hl2
      isplitl [Hl3]; · iexact Hl3
      isplitl [Hl4]; · iexact Hl4
      isplitl [Hl5]; · iexact Hl5
      isplitl [Hl6]; · iexact Hl6
      iexact Hl7
    iapply (Entails.of_eq (slot_lists (F := F) d (cV L) (jV L) 0 f1)) $$ Hsl0
  iexists f3
  isplitr
  · ipureintro
    exact (show SlotIs fi d L 1 (2 * (k.val + 1) - 1) f3 from (show 2 * k.val + 1 = 2 * (k.val + 1) - 1 from by omega) ▸ hs3)
  isplitl [Hm0 Hm1 Hm2 Hm3 Hm4 Hm5]
  · iapply (Entails.of_eq (six_lists (F := F) d (cV L) (jV L) f3).symm)
    isplitl [Hm0]; · iapply (Entails.of_eq (list_lit_1_0 (F := F) d (cV L) (jV L) f3)) $$ Hm0
    isplitl [Hm1]; · iapply (Entails.of_eq (list_lit_1_1 (F := F) d (cV L) (jV L) f3)) $$ Hm1
    isplitl [Hm2]; · iapply (Entails.of_eq (list_lit_1_2 (F := F) d (cV L) (jV L) f3)) $$ Hm2
    isplitl [Hm3]; · iapply (Entails.of_eq (list_lit_1_3 (F := F) d (cV L) (jV L) f3)) $$ Hm3
    isplitl [Hm4]; · iapply (Entails.of_eq (list_lit_1_4 (F := F) d (cV L) (jV L) f3)) $$ Hm4
    iapply (Entails.of_eq (list_lit_1_5 (F := F) d (cV L) (jV L) f3)) $$ Hm5
  isplitl [HG10]; · iexact HG10
  isplitl [HG11]; · iexact HG11
  isplitl [Hr4]; · iexact Hr4
  isplitl [Hr5]; · iexact Hr5
  isplitl [HO0]; · iexists _; iexact HO0
  isplitl [Hdone]; · iexact Hdone
  iexact Hrest

/-- Every trip of the main loop from the second on takes the invariant at k to the invariant at k + 1. -/
theorem trip_steady (hr : InRange (F := F) fi) (d : Dev nD) (L : grid0.Coords) (O : CellTallies nD τ sig (HIx 1)) (W : Waits sig (HIx 1))
    (v5 v6 : BitVec 32) (k : Fin k0_t1_loop.trips) (hk1 : 1 ≤ k.val) (acc : Unit) :
    Inv (F := F) fi ft fo d L O W k.val acc
      ⊢ wp frame (wpE (defs₀ (F := F)) 𝒱₀ (V d (cV L) (jV L)) none) Set.univ
          (k0_t1_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k acc)
          (Inv (F := F) fi ft fo d L O W (k.val + 1)) := by
  by_cases h : k.val < 49
  · exact trip_mid (F := F) fi ft fo hr d L O W v5 v6 k hk1 h acc
  · exact trip_last (F := F) fi ft fo hr d L O W v5 v6 k (by have h50 : k.val < 50 := k.isLt; omega) acc

end Cert.Proof.KI

end
-- ==== Proof.KFinish.lean ====
/-
  From what the end of the task holds to what the launch is owed. The task's last wait leaves the worker's read share
  of the list, its slice of the result at the lookup, its read share of the shared memory, its two scratch buffers
  whole and its eight transfer semaphores at zero; beside them the tile still holds what the task never touched — the
  semaphore of the table's copy at zero, the rest of its own semaphores at zero, the rest of its own buffers, and what
  tile 0 hands back of the table. Together they are the postcondition of the tile's task.
-/
import proofs.«205114_g12446815224155_cont_fleet_488_32_alg».proof.Proof.KEpilogue

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}
local notation "𝕄" => MT nD τ sig (HIx 1) (Elt F) ℕ UU ℕ
local notation "iV" => (Memref.whole Cert.KernelIdeal.main_v0_scv : Memref Cert.KernelIdeal.sig Kind.scVector Space.hbm Cert.KernelIdeal.S3276800 EltTy.i32)
local notation "tV" => (Memref.whole Cert.KernelIdeal.main_arg1_scv : Memref Cert.KernelIdeal.sig Kind.scVector Space.hbm Cert.KernelIdeal.S3x128 EltTy.f32)
local notation "oV" => (Memref.whole Cert.KernelIdeal.main_v1_scv : Memref Cert.KernelIdeal.sig Kind.scVector Space.hbm Cert.KernelIdeal.S25600x128x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)

variable (fi : (d : Dev nD) → Buf (Elt F) (idxLoc d)) (ft : (d : Dev nD) → Buf (Elt F) (tabLoc d)) (fo : (d : Dev nD) → Buf (Elt F) (oLoc d))
variable [FloatOps F]

section Glue

variable (d : Dev nD) (L : grid0.Coords) (O : CellTallies nD τ sig (HIx 1)) (W : Waits sig (HIx 1))

/-- What the end of the task holds, with what the task never touched, is what the tile's task owes at its end. -/
theorem epi_glue (hF : (K (F := F)).Facts) :
    iprop(EpiPost fi ft d L O W ∗ tdExtra ft d (cV L) (jV L) ∗ semVal (dcell d (cV L) (jV L) cc0_scoped0) 0
        ∗ (bigSep ((((((((((ownCells (V d (cV L) (jV L))).erase (dcell d (cV L) (jV L) cc0_scratch3)).erase (dcell d (cV L) (jV L) cc0_scratch4)).erase (dcell d (cV L) (jV L) cc0_scratch5)).erase (dcell d (cV L) (jV L) cc0_scratch6)).erase (dcell d (cV L) (jV L) cc0_scratch7)).erase (dcell d (cV L) (jV L) cc0_scratch8)).erase (dcell d (cV L) (jV L) cc0_scratch9)).erase (dcell d (cV L) (jV L) cc0_scratch10)).erase (dcell d (cV L) (jV L) cc0_scoped0)) fun g => semVal g 0)
        ∗ (bigSep (((ownRefs (τ := τ) (.scVector (cV L) (jV L))).erase ((Proc.scVector (cV L) (jV L)).devRef cc0_scratch1)).erase ((Proc.scVector (cV L) (jV L)).devRef cc0_scratch2)) fun b => iprop(∃ f, ((d, b) : Loc nD τ sig) ↦{fullShare} f)))
      ⊢ (iprop((iPts fi d (wL L) ∗ oPts d (wL L) (oDone fi ft d) ∗ tdExtra ft d (cV L) (jV L) ∗ ∃ f, shTokPts d (cV L) (jV L) f)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') : sProp 𝕄) := by
  unfold EpiPost
  iintro ⟨⟨Hi, Ho, Hsh, Hb1, Hb2, Hs3, Hs4, Hs5, Hs6, Hs7, Hs8, Hs9, Hs10, HW⟩, Htd, Hs11, Hsr, Hbr⟩
  isplitl [Hi Ho Htd Hsh]
  · isplitl [Hi]; · iexact Hi
    isplitl [Ho]; · iexact Ho
    isplitl [Htd]; · iexact Htd
    iexact Hsh
  isplitl [Hb1 Hb2 Hbr]
  · iapply (bufs_back_scoped (F := F) hF d (cV L) (jV L))
    isplitl [Hb1]; · iexact Hb1
    isplitl [Hb2]; · iexact Hb2
    iexact Hbr
  isplitl [Hs3 Hs4 Hs5 Hs6 Hs7 Hs8 Hs9 Hs10 Hs11 Hsr]
  · iapply (sems_back_scoped (F := F) d (cV L) (jV L))
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    iexact Hsr
  icases HW with ⟨%W', %hW', HO⟩
  iexists W'
  isplitr [HO]
  · ipureintro; exact hW'
  · iexact HO

end Glue

end Cert.Proof.KI

end
-- ==== Proof.KTail.lean ====
/-
  The rest of the task after the main loop's last trip, with what the task never touched carried around it: from the
  loop's invariant after its last trip and those untouched resources, the rest of the task runs to its end and leaves
  what the tile's task owes.
-/
import proofs.«205114_g12446815224155_cont_fleet_488_32_alg».proof.Proof.KFinish

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}
local notation "𝕄" => MT nD τ sig (HIx 1) (Elt F) ℕ UU ℕ
local notation "iV" => (Memref.whole Cert.KernelIdeal.main_v0_scv : Memref Cert.KernelIdeal.sig Kind.scVector Space.hbm Cert.KernelIdeal.S3276800 EltTy.i32)
local notation "tV" => (Memref.whole Cert.KernelIdeal.main_arg1_scv : Memref Cert.KernelIdeal.sig Kind.scVector Space.hbm Cert.KernelIdeal.S3x128 EltTy.f32)
local notation "oV" => (Memref.whole Cert.KernelIdeal.main_v1_scv : Memref Cert.KernelIdeal.sig Kind.scVector Space.hbm Cert.KernelIdeal.S25600x128x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)

variable (fi : (d : Dev nD) → Buf (Elt F) (idxLoc d)) (ft : (d : Dev nD) → Buf (Elt F) (tabLoc d)) (fo : (d : Dev nD) → Buf (Elt F) (oLoc d))
variable [FloatOps F]

section Tail

variable (d : Dev nD) (L : grid0.Coords) (O : CellTallies nD τ sig (HIx 1)) (W : Waits sig (HIx 1))

/-- THE TASK'S TAIL: what the end of the task needs beside the loop's invariant is only carried along — it is framed
    around the run of the task's last part, and joined with what that run leaves into what the tile's task owes. -/
theorem tail_ok (hF : (K (F := F)).Facts) (v6 : BitVec 32) :
    iprop(Inv fi ft fo d L O W 50 () ∗ tdExtra ft d (cV L) (jV L) ∗ semVal (dcell d (cV L) (jV L) cc0_scoped0) 0
        ∗ (bigSep ((((((((((ownCells (V d (cV L) (jV L))).erase (dcell d (cV L) (jV L) cc0_scratch3)).erase (dcell d (cV L) (jV L) cc0_scratch4)).erase (dcell d (cV L) (jV L) cc0_scratch5)).erase (dcell d (cV L) (jV L) cc0_scratch6)).erase (dcell d (cV L) (jV L) cc0_scratch7)).erase (dcell d (cV L) (jV L) cc0_scratch8)).erase (dcell d (cV L) (jV L) cc0_scratch9)).erase (dcell d (cV L) (jV L) cc0_scratch10)).erase (dcell d (cV L) (jV L) cc0_scoped0)) fun g => semVal g 0)
        ∗ (bigSep (((ownRefs (τ := τ) (.scVector (cV L) (jV L))).erase ((Proc.scVector (cV L) (jV L)).devRef cc0_scratch1)).erase ((Proc.scVector (cV L) (jV L)).devRef cc0_scratch2)) fun b => iprop(∃ f, ((d, b) : Loc nD τ sig) ↦{fullShare} f)))
      ⊢ wp frame (wpE (defs₀ (F := F)) 𝒱₀ (V d (cV L) (jV L)) none) Set.univ (tailProg (F := F) L v6)
          (fun _ => (iprop((iPts fi d (wL L) ∗ oPts d (wL L) (oDone fi ft d) ∗ tdExtra ft d (cV L) (jV L) ∗ ∃ f, shTokPts d (cV L) (jV L) f)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') : sProp 𝕄)) :=
  ((sep_mono_left (epilogue fi ft fo d L O W v6)).trans (wp_frame_r _ _ _)).trans
    (wp_mono _ _ _ fun _ => epi_glue fi ft d L O W hF)

end Tail

end Cert.Proof.KI

end
-- ==== Proof.KBody.lean ====
/-
  One tile's task, whole. Tile 0 of a SparseCore first copies the table into the shared memory; every tile then meets the
  others at the barrier, across which tile 0 hands each a read share of that copy. The first block of the tile's row
  numbers is sent for; the fifty trips of the main loop run by the invariant (Proof/KInv.lean): the first trip
  (Proof/KTripFirst.lean), every later one (Proof/KTripSteady.lean); the transfers still outstanding are drained and the
  buffers, shares and semaphores the launch handed over are put back (Proof/KEpilogue.lean, Proof/KTail.lean). The tile's
  slice of the result then holds the lookup.
-/
import proofs.«205114_g12446815224155_cont_fleet_488_32_alg».proof.Proof.KBarrier
import proofs.«205114_g12446815224155_cont_fleet_488_32_alg».proof.Proof.KTripFirst
import proofs.«205114_g12446815224155_cont_fleet_488_32_alg».proof.Proof.KTripSteady
import proofs.«205114_g12446815224155_cont_fleet_488_32_alg».proof.Proof.KTail

set_option maxRecDepth 16384

noncomputable section

namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}
local notation "𝕄" => MT nD τ sig (HIx 1) (Elt F) ℕ UU ℕ
local notation "iV" => (Memref.whole Cert.KernelIdeal.main_v0_scv : Memref Cert.KernelIdeal.sig Kind.scVector Space.hbm Cert.KernelIdeal.S3276800 EltTy.i32)
local notation "tV" => (Memref.whole Cert.KernelIdeal.main_arg1_scv : Memref Cert.KernelIdeal.sig Kind.scVector Space.hbm Cert.KernelIdeal.S3x128 EltTy.f32)
local notation "oV" => (Memref.whole Cert.KernelIdeal.main_v1_scv : Memref Cert.KernelIdeal.sig Kind.scVector Space.hbm Cert.KernelIdeal.S25600x128x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scratch1 : Memref Cert.KernelIdeal.sig Kind.scVector Space.vmem Cert.KernelIdeal.S2x1024 EltTy.i32)
local notation "rwV" => (Memref.whole Cert.KernelIdeal.cc0_scratch2 : Memref Cert.KernelIdeal.sig Kind.scVector Space.vmem Cert.KernelIdeal.S2x2x128x128 EltTy.f32)

open Idealize.ShloMosaic.ValueIdx

variable (fi : (d : Dev nD) → Buf (Elt F) (idxLoc d)) (ft : (d : Dev nD) → Buf (Elt F) (tabLoc d)) (fo : (d : Dev nD) → Buf (Elt F) (oLoc d))
variable [FloatOps F]

set_option maxHeartbeats 16000000 in
/-- One tile's task: from its read share of the list, its slice of the result and its barrier kit, the body runs to the
    end and leaves the slice at the lookup. -/
theorem tile_body (hr : InRange (F := F) fi) : TileBody (F := F) fi ft fo := by
  intro d L hF O W hO hOlev
  unfold bkit
  have hO' : ∀ g, (O + oxV d (cV L)) g none = 0 := fun g => by rw [Pi.add_apply, Finsupp.add_apply, hO g, oxV_none]
  by_cases hj : (L 1).val = 0
  · -- tile 0: the table into the shared memory first
    rw [show goExtra (F := F) ft d (cV L) (jV L) = iprop(tPts ft d (cV L) ∗ ∃ f, shLoc d (cV L) ↦{fullShare} f) from if_pos hj]
    iintro ⟨#Hlv, ⟨⟨%κ, #Hinv⟩, Htoks, #Hrch, Hat, Hcred⟩, ⟨Hi, Ho, Ht, %fsh, Hsh⟩, Hb0, Hz0, HO⟩
    ihave Hb0 := (Entails.of_eq (((K (F := F)).scopedBufs_V hF d (cV L) (jV L)).trans (ownBufs_V (F := F) d (cV L) (jV L)))) $$ Hb0
    icases Hb0 with ⟨⟨%fib, Hib⟩, ⟨%frw, Hrw⟩, Hbufs⟩
    ihave Hz0 := (Entails.of_eq ((SparseCore.Cfg.scopedSems0_V (Val := Elt F) d (cV L) (jV L)).trans (ownSems0_V (F := F) d (cV L) (jV L)))) $$ Hz0
    icases Hz0 with ⟨Hs3, Hs4, Hs5, Hs6, Hs7, Hs8, Hs9, Hs10, HsS, Hsems⟩
    ihave Hmw1 := (show levAts (K (F := F)).L (K (F := F)).lev ⊢ Transfers.MayWaits (V d (cV L) (jV L)) (default : HIx 1) (O + oxV d (cV L)) from
      (K (F := F)).mayWaits_none (thr := V d (cV L) (jV L)) hO') $$ Hlv
    ihave Hmw2 := (show levAts (K (F := F)).L (K (F := F)).lev ⊢ Transfers.MayWaits (V d (cV L) (jV L)) (default : HIx 1) O from
      (K (F := F)).mayWaits_none (thr := V d (cV L) (jV L)) hO) $$ Hlv
    ihave Hi' := (Entails.of_eq (pts_iV (F := F) d (cV L) (jV L) _ _).symm) $$ Hi
    ihave Hib' := (Entails.of_eq (pts_ibV (F := F) d (cV L) (jV L) _ _).symm) $$ Hib
    ihave Hrw' := (Entails.of_eq (pts_rwV (F := F) d (cV L) (jV L) _ _).symm) $$ Hrw
    ihave Ht' := (Entails.of_eq (pts_tV (F := F) d (cV L) (jV L) _ _).symm) $$ Ht
    ihave Hsh' := (Entails.of_eq (pts_shV (F := F) d (cV L) (jV L) _ _).symm) $$ Hsh
    sl_unfold [cc0__body]
    sl_unfold [k0_part14]
    sl_exec (disch := (clear * - L hj; decide +kernel +revert))
    -- the shared memory now holds the table: sixteen read shares of it, one per tile, and the remainder
    have hcont : (Memref.whole cc0_scratch0).view.writes (Elt F) fsh [⟨Rect.whole cc0_scratch0.ty.shape, tile_body.sl.dma0 ft d⟩] = tabAt ft d (cV L) :=
      View.read_writes_whole (Val := Elt F) (View.whole cc0_scratch0) fsh _
    rw [hcont]
    ihave Hsh2 := (Entails.of_eq (pts_shV (F := F) d (cV L) (jV L) _ _)) $$ Hsh'
    ihave Hsp := (Transfers.pointsTo_toks_split (ℓ := shLoc d (cV L)) (S := Finset.univ) (f := tabAt ft d (cV L)) fullShare 16) $$ Hsh2
    icases Hsp with ⟨Hrem, Htk⟩
    ihave Hpays := (pays_tile0 (F := F) ft d L hj) $$ Htk
    sl_rw [Idealize.SL.Sem.Prog.bind_assoc]
    iapply (SparseCore.wp_subcoreBarrier 𝒱₀ none EB (bRd (F := F) ft) d (sc := cV L) (i := jV L) sc_bar0 (grid0.bound 1) hsub0 (L 1) rfl κ (fun _ => 0) (jV L).val
        (fun j => bRd_mem₀ ft d _ _ _) (fun _ => rfl) (bRd_expect ft d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hmy := (got_tok (F := F) ft d (cV L) (jV L)) $$ Hgot
    ihave Hmy' := (Entails.of_eq (pts_shV (F := F) d (cV L) (jV L) _ _).symm) $$ Hmy
    -- the buffer of row numbers by its two slots, the table's share by tokens, the slice as an interval of blocks
    ihave Hsl := (Entails.of_eq (ib_slots (F := F) d (cV L) (jV L) fib)) $$ Hib'
    icases Hsl with ⟨Hsl0, Hsl1⟩
    ihave Hsl0 := (Entails.of_eq (slot_lit_0 (F := F) d (cV L) (jV L) fib).symm) $$ Hsl0
    ihave Htk := (Transfers.pointsTo_toks_split (ℓ := (shV).view.loc (V d (cV L) (jV L))) (S := (shV).view.set) (f := tabAt ft d (cV L)) (shTok (jV L)) 9) $$ Hmy'
    icases Htk with ⟨Htrem, Htoks9⟩
    ihave Hx := (Entails.of_eq (SparseCore.bigSep_erase' (show (2 : Fin 9) ∈ (Finset.univ : Finset (Fin 9)) from by decide))) $$ Htoks9
    icases Hx with ⟨Htok2, Htoks9⟩
    ihave Hx := (Entails.of_eq (SparseCore.bigSep_erase' (show (3 : Fin 9) ∈ ((Finset.univ : Finset (Fin 9)).erase 2) from by decide))) $$ Htoks9
    icases Hx with ⟨Htok3, Htoks9⟩
    ihave Hx := (Entails.of_eq (SparseCore.bigSep_erase' (show (4 : Fin 9) ∈ (((Finset.univ : Finset (Fin 9)).erase 2).erase 3) from by decide))) $$ Htoks9
    icases Hx with ⟨Htok4, Htoks9⟩
    ihave Hx := (Entails.of_eq (SparseCore.bigSep_erase' (show (5 : Fin 9) ∈ ((((Finset.univ : Finset (Fin 9)).erase 2).erase 3).erase 4) from by decide))) $$ Htoks9
    icases Hx with ⟨Htok5, Htoks9⟩
    ihave Ho := (Entails.of_eq (show (oPts d (wL L) (fo d) : sProp 𝕄) = (oLoc d ↦[rowsIn (wL L) 0 800]{fullShare} fo d) from by rw [← oSet_eq_rows])) $$ Ho
    -- the first copy of row numbers goes out; it is held with what it will deliver
    sl_exec
    have hoffI0 : _ = (![102400 * (wL L).val + 1024 * (2 * 0)] : Fin 1 → ℕ) := (k0_off1_eq L).trans (congrArg (fun n => (![n] : Fin 1 → ℕ)) (by show _ = 102400 * ((L 1).val * 2 + (L 0).val) + 1024 * (2 * 0); omega))
    sl_unfold_run_names
    ihave Hs3 := (idx_clean0 (F := F) fi hr d L _ _ _ _ _ (2 * 0) (by omega) hoffI0) $$ Hs3
    ihave Hi' := (Entails.of_eq (idx_rest (F := F) fi d L _ (2 * 0) (by omega) hoffI0)) $$ Hi'
    -- the main loop, by its invariant
    first
      | sl_for (Inv (F := F) fi ft fo d L O W) $$ [HO Hs4 Hs5 Hs6 Hs10 Htok2 Htok3 Htoks9 Htrem Hs3 Hi' Hsl1 Hrw' Hs7 Hs8 Hs9 Htok4 Htok5 Ho]
      | (sl_rw [Idealize.SL.Sem.Prog.bind_assoc]; sl_for (Inv (F := F) fi ft fo d L O W) $$ [HO Hs4 Hs5 Hs6 Hs10 Htok2 Htok3 Htoks9 Htrem Hs3 Hi' Hsl1 Hrw' Hs7 Hs8 Hs9 Htok4 Htok5 Ho])
    · intro k acc
      by_cases h0 : k.val = 0
      · exact trip_first (F := F) fi ft fo hr d L O W _ _ k h0 acc
      · exact trip_steady (F := F) fi ft fo hr d L O W _ _ k (by omega) acc
    · unfold Inv
      rw [dif_pos rfl]
      unfold Base IdxPart First
      rw [dif_pos (by decide : (0 : ℕ) < 50)]
      isplitr; · ipureintro; omega
      isplitl [HO Hs4 Hs5 Hs6 Hs10 Htok2 Htok3 Htoks9 Htrem]
      · isplitr; · iexact Hmw2
        isplitl [HO]
        · iexists _
          isplitr
          swap; · iexact HO
          ipureintro
          unfold WaitsOK
          intro p hp
          rcases Finset.mem_insert.mp hp with h | hp
          · subst h; first | exact .inr (.inl rfl) | exact .inr (.inr rfl)
          rcases Finset.mem_insert.mp hp with h | hp
          · subst h; first | exact .inr (.inl rfl) | exact .inr (.inr rfl)
          exact .inl hp
        isplitl [Hs4]; · iexact Hs4
        isplitl [Hs5]; · iexact Hs5
        isplitl [Hs6]; · iexact Hs6
        isplitl [Hs10]; · iexact Hs10
        isplitl [Htok2]; · iexact Htok2
        isplitl [Htok3]; · iexact Htok3
        isplitl [Htoks9]; · iexact Htoks9
        iexact Htrem
      isplitl [Hs3 Hi']
      · isplitl [Hs3]; · iexact Hs3
        iexact Hi'
      isplitl [Hsl1]; · iexists _; iexact Hsl1
      isplitl [Hrw']; · iexists _; iexact Hrw'
      isplitl [Hs7]; · iexact Hs7
      isplitl [Hs8]; · iexact Hs8
      isplitl [Hs9]; · iexact Hs9
      isplitl [Htok4]; · iexact Htok4
      isplitl [Htok5]; · iexact Htok5
      isplitl [Ho]; · iexact Ho
      rw [rows_none]; iempintro
    -- after the loop: the last transfers drained, everything the launch handed over put back
    iintro %accE HI
    ihave HI := (Entails.of_eq (show Inv (F := F) fi ft fo d L O W (Scf.trips k0_t1_loop.lb k0_t1_loop.ub k0_t1_loop.st) accE = Inv (F := F) fi ft fo d L O W 50 () from rfl)) $$ HI
    iapply (tail_ok (F := F) fi ft fo d L O W hF _)
    isplitl [HI]; · iexact HI
    isplitl [Ht' Hrem]
    · rw [show tdExtra (F := F) ft d (cV L) (jV L) = iprop(tPts ft d (cV L) ∗ ∃ f, shLoc d (cV L) ↦{shareDrop fullShare 16} f) from if_pos hj]
      isplitl [Ht']; · iapply (Entails.of_eq (pts_tV (F := F) d (cV L) (jV L) _ _)) $$ Ht'
      iexists _; iexact Hrem
    isplitl [HsS]; · iexact HsS
    isplitl [Hsems]; · iexact Hsems
    iexact Hbufs
  · -- any other tile: nothing to do before the barrier, and nothing to hand over at it
    rw [show goExtra (F := F) ft d (cV L) (jV L) = iprop(emp) from if_neg hj]
    iintro ⟨#Hlv, ⟨⟨%κ, #Hinv⟩, Htoks, #Hrch, Hat, Hcred⟩, ⟨Hi, Ho, -⟩, Hb0, Hz0, HO⟩
    ihave Hb0 := (Entails.of_eq (((K (F := F)).scopedBufs_V hF d (cV L) (jV L)).trans (ownBufs_V (F := F) d (cV L) (jV L)))) $$ Hb0
    icases Hb0 with ⟨⟨%fib, Hib⟩, ⟨%frw, Hrw⟩, Hbufs⟩
    ihave Hz0 := (Entails.of_eq ((SparseCore.Cfg.scopedSems0_V (Val := Elt F) d (cV L) (jV L)).trans (ownSems0_V (F := F) d (cV L) (jV L)))) $$ Hz0
    icases Hz0 with ⟨Hs3, Hs4, Hs5, Hs6, Hs7, Hs8, Hs9, Hs10, HsS, Hsems⟩
    ihave Hmw1 := (show levAts (K (F := F)).L (K (F := F)).lev ⊢ Transfers.MayWaits (V d (cV L) (jV L)) (default : HIx 1) (O + oxV d (cV L)) from
      (K (F := F)).mayWaits_none (thr := V d (cV L) (jV L)) hO') $$ Hlv
    ihave Hmw2 := (show levAts (K (F := F)).L (K (F := F)).lev ⊢ Transfers.MayWaits (V d (cV L) (jV L)) (default : HIx 1) O from
      (K (F := F)).mayWaits_none (thr := V d (cV L) (jV L)) hO) $$ Hlv
    ihave Hi' := (Entails.of_eq (pts_iV (F := F) d (cV L) (jV L) _ _).symm) $$ Hi
    ihave Hib' := (Entails.of_eq (pts_ibV (F := F) d (cV L) (jV L) _ _).symm) $$ Hib
    ihave Hrw' := (Entails.of_eq (pts_rwV (F := F) d (cV L) (jV L) _ _).symm) $$ Hrw
    sl_unfold [cc0__body]
    sl_unfold [k0_part14]
    sl_exec (disch := (clear * - L hj; decide +kernel +revert))
    sl_rw [Idealize.SL.Sem.Prog.bind_assoc]
    iapply (SparseCore.wp_subcoreBarrier 𝒱₀ none EB (bRd (F := F) ft) d (sc := cV L) (i := jV L) sc_bar0 (grid0.bound 1) hsub0 (L 1) rfl κ (fun _ => 0) (jV L).val
        (fun j => bRd_mem₀ ft d _ _ _) (fun _ => rfl) (bRd_expect ft d _ _) (some 0) O _) $$ [HO Htoks Hcred Hat]
    · isplitr; · iexact Hinv
      isplitl [HO]; · iexact HO
      isplitl [Htoks]
      · rw [bigSep_sep', bigSep_sep']
        isplitl [Htoks]; · iexact Htoks
        isplitr; · iapply (pays_other (F := F) ft d L hj); iempintro
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hmy := (got_tok (F := F) ft d (cV L) (jV L)) $$ Hgot
    ihave Hmy' := (Entails.of_eq (pts_shV (F := F) d (cV L) (jV L) _ _).symm) $$ Hmy
    -- the buffer of row numbers by its two slots, the table's share by tokens, the slice as an interval of blocks
    ihave Hsl := (Entails.of_eq (ib_slots (F := F) d (cV L) (jV L) fib)) $$ Hib'
    icases Hsl with ⟨Hsl0, Hsl1⟩
    ihave Hsl0 := (Entails.of_eq (slot_lit_0 (F := F) d (cV L) (jV L) fib).symm) $$ Hsl0
    ihave Htk := (Transfers.pointsTo_toks_split (ℓ := (shV).view.loc (V d (cV L) (jV L))) (S := (shV).view.set) (f := tabAt ft d (cV L)) (shTok (jV L)) 9) $$ Hmy'
    icases Htk with ⟨Htrem, Htoks9⟩
    ihave Hx := (Entails.of_eq (SparseCore.bigSep_erase' (show (2 : Fin 9) ∈ (Finset.univ : Finset (Fin 9)) from by decide))) $$ Htoks9
    icases Hx with ⟨Htok2, Htoks9⟩
    ihave Hx := (Entails.of_eq (SparseCore.bigSep_erase' (show (3 : Fin 9) ∈ ((Finset.univ : Finset (Fin 9)).erase 2) from by decide))) $$ Htoks9
    icases Hx with ⟨Htok3, Htoks9⟩
    ihave Hx := (Entails.of_eq (SparseCore.bigSep_erase' (show (4 : Fin 9) ∈ (((Finset.univ : Finset (Fin 9)).erase 2).erase 3) from by decide))) $$ Htoks9
    icases Hx with ⟨Htok4, Htoks9⟩
    ihave Hx := (Entails.of_eq (SparseCore.bigSep_erase' (show (5 : Fin 9) ∈ ((((Finset.univ : Finset (Fin 9)).erase 2).erase 3).erase 4) from by decide))) $$ Htoks9
    icases Hx with ⟨Htok5, Htoks9⟩
    ihave Ho := (Entails.of_eq (show (oPts d (wL L) (fo d) : sProp 𝕄) = (oLoc d ↦[rowsIn (wL L) 0 800]{fullShare} fo d) from by rw [← oSet_eq_rows])) $$ Ho
    -- the first copy of row numbers goes out; it is held with what it will deliver
    sl_exec
    have hoffI0 : _ = (![102400 * (wL L).val + 1024 * (2 * 0)] : Fin 1 → ℕ) := (k0_off1_eq L).trans (congrArg (fun n => (![n] : Fin 1 → ℕ)) (by show _ = 102400 * ((L 1).val * 2 + (L 0).val) + 1024 * (2 * 0); omega))
    sl_unfold_run_names
    ihave Hs3 := (idx_clean0 (F := F) fi hr d L _ _ _ _ _ (2 * 0) (by omega) hoffI0) $$ Hs3
    ihave Hi' := (Entails.of_eq (idx_rest (F := F) fi d L _ (2 * 0) (by omega) hoffI0)) $$ Hi'
    -- the main loop, by its invariant
    first
      | sl_for (Inv (F := F) fi ft fo d L O W) $$ [HO Hs4 Hs5 Hs6 Hs10 Htok2 Htok3 Htoks9 Htrem Hs3 Hi' Hsl1 Hrw' Hs7 Hs8 Hs9 Htok4 Htok5 Ho]
      | (sl_rw [Idealize.SL.Sem.Prog.bind_assoc]; sl_for (Inv (F := F) fi ft fo d L O W) $$ [HO Hs4 Hs5 Hs6 Hs10 Htok2 Htok3 Htoks9 Htrem Hs3 Hi' Hsl1 Hrw' Hs7 Hs8 Hs9 Htok4 Htok5 Ho])
    · intro k acc
      by_cases h0 : k.val = 0
      · exact trip_first (F := F) fi ft fo hr d L O W _ _ k h0 acc
      · exact trip_steady (F := F) fi ft fo hr d L O W _ _ k (by omega) acc
    · unfold Inv
      rw [dif_pos rfl]
      unfold Base IdxPart First
      rw [dif_pos (by decide : (0 : ℕ) < 50)]
      isplitr; · ipureintro; omega
      isplitl [HO Hs4 Hs5 Hs6 Hs10 Htok2 Htok3 Htoks9 Htrem]
      · isplitr; · iexact Hmw2
        isplitl [HO]
        · iexists _
          isplitr
          swap; · iexact HO
          ipureintro
          unfold WaitsOK
          intro p hp
          rcases Finset.mem_insert.mp hp with h | hp
          · subst h; first | exact .inr (.inl rfl) | exact .inr (.inr rfl)
          exact .inl hp
        isplitl [Hs4]; · iexact Hs4
        isplitl [Hs5]; · iexact Hs5
        isplitl [Hs6]; · iexact Hs6
        isplitl [Hs10]; · iexact Hs10
        isplitl [Htok2]; · iexact Htok2
        isplitl [Htok3]; · iexact Htok3
        isplitl [Htoks9]; · iexact Htoks9
        iexact Htrem
      isplitl [Hs3 Hi']
      · isplitl [Hs3]; · iexact Hs3
        iexact Hi'
      isplitl [Hsl1]; · iexists _; iexact Hsl1
      isplitl [Hrw']; · iexists _; iexact Hrw'
      isplitl [Hs7]; · iexact Hs7
      isplitl [Hs8]; · iexact Hs8
      isplitl [Hs9]; · iexact Hs9
      isplitl [Htok4]; · iexact Htok4
      isplitl [Htok5]; · iexact Htok5
      isplitl [Ho]; · iexact Ho
      rw [rows_none]; iempintro
    -- after the loop: the last transfers drained, everything the launch handed over put back
    iintro %accE HI
    ihave HI := (Entails.of_eq (show Inv (F := F) fi ft fo d L O W (Scf.trips k0_t1_loop.lb k0_t1_loop.ub k0_t1_loop.st) accE = Inv (F := F) fi ft fo d L O W 50 () from rfl)) $$ HI
    iapply (tail_ok (F := F) fi ft fo d L O W hF _)
    isplitl [HI]; · iexact HI
    isplitr
    · rw [show tdExtra (F := F) ft d (cV L) (jV L) = iprop(emp) from if_neg hj]; iempintro
    isplitl [HsS]; · iexact HsS
    isplitl [Hsems]; · iexact Hsems
    iexact Hbufs

end Cert.Proof.KI

end
-- ==== Proof.BCells.lean ====
/-
  A tile's own scratch, by name. Its scoped semaphores at zero are the nine transfer semaphores of the task — the two
  the list's blocks arrive on, the four the gathers complete on, the two the result's blocks leave on, and the one the
  table's copy into the shared memory uses — each at zero, and the rest; its scoped buffers are the two-block buffer of
  row numbers and the two-by-two buffer of gathered rows, each whole at some contents, and the rest.
-/
import proofs.«205114_g12446815224155_cont_fleet_488_32_alg».proof.Proof.BSetup

set_option maxRecDepth 16384

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ

/-- The cell of one of a tile's transfer semaphores. -/
abbrev dcell (d : Dev nD) (c : Fin τ.nSC) (i : Fin τ.nSub) (s : DmaSems sig S_) : GSem nD τ sig := (V d c i, .dma s.sem)

theorem ownSems0_V (d : Dev nD) (c : Fin τ.nSC) (i : Fin τ.nSub) :
    (ownSems0 (V d c i) : sProp 𝕄)
      = iprop(semVal (dcell d c i cc0_scratch3) 0 ∗ semVal (dcell d c i cc0_scratch4) 0 ∗ semVal (dcell d c i cc0_scratch5) 0 ∗ semVal (dcell d c i cc0_scratch6) 0 ∗ semVal (dcell d c i cc0_scratch7) 0 ∗ semVal (dcell d c i cc0_scratch8) 0 ∗ semVal (dcell d c i cc0_scratch9) 0 ∗ semVal (dcell d c i cc0_scratch10) 0 ∗ semVal (dcell d c i cc0_scoped0) 0 ∗ bigSep ((((((((((ownCells (V d c i)).erase (dcell d c i cc0_scratch3)).erase (dcell d c i cc0_scratch4)).erase (dcell d c i cc0_scratch5)).erase (dcell d c i cc0_scratch6)).erase (dcell d c i cc0_scratch7)).erase (dcell d c i cc0_scratch8)).erase (dcell d c i cc0_scratch9)).erase (dcell d c i cc0_scratch10)).erase (dcell d c i cc0_scoped0)) fun g => semVal g 0) := by
  unfold SparseCore.Cfg.ownSems0
  rw [SparseCore.bigSep_erase' ((mem_ownCells (g := dcell d c i cc0_scratch3)).mpr ⟨rfl, by show (SemLoc.dma cc0_scratch3.sem : SemLoc sig).isScoped .scVector = true; decide⟩),
    SparseCore.bigSep_erase' (Finset.mem_erase.mpr ⟨(fun e => absurd (congrArg (fun g : GSem nD τ sig => g.2) e) (by show (SemLoc.dma cc0_scratch4.sem : SemLoc sig) ≠ SemLoc.dma cc0_scratch3.sem; decide)), (mem_ownCells (g := dcell d c i cc0_scratch4)).mpr ⟨rfl, by show (SemLoc.dma cc0_scratch4.sem : SemLoc sig).isScoped .scVector = true; decide⟩⟩),
    SparseCore.bigSep_erase' (Finset.mem_erase.mpr ⟨(fun e => absurd (congrArg (fun g : GSem nD τ sig => g.2) e) (by show (SemLoc.dma cc0_scratch5.sem : SemLoc sig) ≠ SemLoc.dma cc0_scratch4.sem; decide)), Finset.mem_erase.mpr ⟨(fun e => absurd (congrArg (fun g : GSem nD τ sig => g.2) e) (by show (SemLoc.dma cc0_scratch5.sem : SemLoc sig) ≠ SemLoc.dma cc0_scratch3.sem; decide)), (mem_ownCells (g := dcell d c i cc0_scratch5)).mpr ⟨rfl, by show (SemLoc.dma cc0_scratch5.sem : SemLoc sig).isScoped .scVector = true; decide⟩⟩⟩),
    SparseCore.bigSep_erase' (Finset.mem_erase.mpr ⟨(fun e => absurd (congrArg (fun g : GSem nD τ sig => g.2) e) (by show (SemLoc.dma cc0_scratch6.sem : SemLoc sig) ≠ SemLoc.dma cc0_scratch5.sem; decide)), Finset.mem_erase.mpr ⟨(fun e => absurd (congrArg (fun g : GSem nD τ sig => g.2) e) (by show (SemLoc.dma cc0_scratch6.sem : SemLoc sig) ≠ SemLoc.dma cc0_scratch4.sem; decide)), Finset.mem_erase.mpr ⟨(fun e => absurd (congrArg (fun g : GSem nD τ sig => g.2) e) (by show (SemLoc.dma cc0_scratch6.sem : SemLoc sig) ≠ SemLoc.dma cc0_scratch3.sem; decide)), (mem_ownCells (g := dcell d c i cc0_scratch6)).mpr ⟨rfl, by show (SemLoc.dma cc0_scratch6.sem : SemLoc sig).isScoped .scVector = true; decide⟩⟩⟩⟩),
    SparseCore.bigSep_erase' (Finset.mem_erase.mpr ⟨(fun e => absurd (congrArg (fun g : GSem nD τ sig => g.2) e) (by show (SemLoc.dma cc0_scratch7.sem : SemLoc sig) ≠ SemLoc.dma cc0_scratch6.sem; decide)), Finset.mem_erase.mpr ⟨(fun e => absurd (congrArg (fun g : GSem nD τ sig => g.2) e) (by show (SemLoc.dma cc0_scratch7.sem : SemLoc sig) ≠ SemLoc.dma cc0_scratch5.sem; decide)), Finset.mem_erase.mpr ⟨(fun e => absurd (congrArg (fun g : GSem nD τ sig => g.2) e) (by show (SemLoc.dma cc0_scratch7.sem : SemLoc sig) ≠ SemLoc.dma cc0_scratch4.sem; decide)), Finset.mem_erase.mpr ⟨(fun e => absurd (congrArg (fun g : GSem nD τ sig => g.2) e) (by show (SemLoc.dma cc0_scratch7.sem : SemLoc sig) ≠ SemLoc.dma cc0_scratch3.sem; decide)), (mem_ownCells (g := dcell d c i cc0_scratch7)).mpr ⟨rfl, by show (SemLoc.dma cc0_scratch7.sem : SemLoc sig).isScoped .scVector = true; decide⟩⟩⟩⟩⟩),
    SparseCore.bigSep_erase' (Finset.mem_erase.mpr ⟨(fun e => absurd (congrArg (fun g : GSem nD τ sig => g.2) e) (by show (SemLoc.dma cc0_scratch8.sem : SemLoc sig) ≠ SemLoc.dma cc0_scratch7.sem; decide)), Finset.mem_erase.mpr ⟨(fun e => absurd (congrArg (fun g : GSem nD τ sig => g.2) e) (by show (SemLoc.dma cc0_scratch8.sem : SemLoc sig) ≠ SemLoc.dma cc0_scratch6.sem; decide)), Finset.mem_erase.mpr ⟨(fun e => absurd (congrArg (fun g : GSem nD τ sig => g.2) e) (by show (SemLoc.dma cc0_scratch8.sem : SemLoc sig) ≠ SemLoc.dma cc0_scratch5.sem; decide)), Finset.mem_erase.mpr ⟨(fun e => absurd (congrArg (fun g : GSem nD τ sig => g.2) e) (by show (SemLoc.dma cc0_scratch8.sem : SemLoc sig) ≠ SemLoc.dma cc0_scratch4.sem; decide)), Finset.mem_erase.mpr ⟨(fun e => absurd (congrArg (fun g : GSem nD τ sig => g.2) e) (by show (SemLoc.dma cc0_scratch8.sem : SemLoc sig) ≠ SemLoc.dma cc0_scratch3.sem; decide)), (mem_ownCells (g := dcell d c i cc0_scratch8)).mpr ⟨rfl, by show (SemLoc.dma cc0_scratch8.sem : SemLoc sig).isScoped .scVector = true; decide⟩⟩⟩⟩⟩⟩),
    SparseCore.bigSep_erase' (Finset.mem_erase.mpr ⟨(fun e => absurd (congrArg (fun g : GSem nD τ sig => g.2) e) (by show (SemLoc.dma cc0_scratch9.sem : SemLoc sig) ≠ SemLoc.dma cc0_scratch8.sem; decide)), Finset.mem_erase.mpr ⟨(fun e => absurd (congrArg (fun g : GSem nD τ sig => g.2) e) (by show (SemLoc.dma cc0_scratch9.sem : SemLoc sig) ≠ SemLoc.dma cc0_scratch7.sem; decide)), Finset.mem_erase.mpr ⟨(fun e => absurd (congrArg (fun g : GSem nD τ sig => g.2) e) (by show (SemLoc.dma cc0_scratch9.sem : SemLoc sig) ≠ SemLoc.dma cc0_scratch6.sem; decide)), Finset.mem_erase.mpr ⟨(fun e => absurd (congrArg (fun g : GSem nD τ sig => g.2) e) (by show (SemLoc.dma cc0_scratch9.sem : SemLoc sig) ≠ SemLoc.dma cc0_scratch5.sem; decide)), Finset.mem_erase.mpr ⟨(fun e => absurd (congrArg (fun g : GSem nD τ sig => g.2) e) (by show (SemLoc.dma cc0_scratch9.sem : SemLoc sig) ≠ SemLoc.dma cc0_scratch4.sem; decide)), Finset.mem_erase.mpr ⟨(fun e => absurd (congrArg (fun g : GSem nD τ sig => g.2) e) (by show (SemLoc.dma cc0_scratch9.sem : SemLoc sig) ≠ SemLoc.dma cc0_scratch3.sem; decide)), (mem_ownCells (g := dcell d c i cc0_scratch9)).mpr ⟨rfl, by show (SemLoc.dma cc0_scratch9.sem : SemLoc sig).isScoped .scVector = true; decide⟩⟩⟩⟩⟩⟩⟩),
    SparseCore.bigSep_erase' (Finset.mem_erase.mpr ⟨(fun e => absurd (congrArg (fun g : GSem nD τ sig => g.2) e) (by show (SemLoc.dma cc0_scratch10.sem : SemLoc sig) ≠ SemLoc.dma cc0_scratch9.sem; decide)), Finset.mem_erase.mpr ⟨(fun e => absurd (congrArg (fun g : GSem nD τ sig => g.2) e) (by show (SemLoc.dma cc0_scratch10.sem : SemLoc sig) ≠ SemLoc.dma cc0_scratch8.sem; decide)), Finset.mem_erase.mpr ⟨(fun e => absurd (congrArg (fun g : GSem nD τ sig => g.2) e) (by show (SemLoc.dma cc0_scratch10.sem : SemLoc sig) ≠ SemLoc.dma cc0_scratch7.sem; decide)), Finset.mem_erase.mpr ⟨(fun e => absurd (congrArg (fun g : GSem nD τ sig => g.2) e) (by show (SemLoc.dma cc0_scratch10.sem : SemLoc sig) ≠ SemLoc.dma cc0_scratch6.sem; decide)), Finset.mem_erase.mpr ⟨(fun e => absurd (congrArg (fun g : GSem nD τ sig => g.2) e) (by show (SemLoc.dma cc0_scratch10.sem : SemLoc sig) ≠ SemLoc.dma cc0_scratch5.sem; decide)), Finset.mem_erase.mpr ⟨(fun e => absurd (congrArg (fun g : GSem nD τ sig => g.2) e) (by show (SemLoc.dma cc0_scratch10.sem : SemLoc sig) ≠ SemLoc.dma cc0_scratch4.sem; decide)), Finset.mem_erase.mpr ⟨(fun e => absurd (congrArg (fun g : GSem nD τ sig => g.2) e) (by show (SemLoc.dma cc0_scratch10.sem : SemLoc sig) ≠ SemLoc.dma cc0_scratch3.sem; decide)), (mem_ownCells (g := dcell d c i cc0_scratch10)).mpr ⟨rfl, by show (SemLoc.dma cc0_scratch10.sem : SemLoc sig).isScoped .scVector = true; decide⟩⟩⟩⟩⟩⟩⟩⟩),
    SparseCore.bigSep_erase' (Finset.mem_erase.mpr ⟨(fun e => absurd (congrArg (fun g : GSem nD τ sig => g.2) e) (by show (SemLoc.dma cc0_scoped0.sem : SemLoc sig) ≠ SemLoc.dma cc0_scratch10.sem; decide)), Finset.mem_erase.mpr ⟨(fun e => absurd (congrArg (fun g : GSem nD τ sig => g.2) e) (by show (SemLoc.dma cc0_scoped0.sem : SemLoc sig) ≠ SemLoc.dma cc0_scratch9.sem; decide)), Finset.mem_erase.mpr ⟨(fun e => absurd (congrArg (fun g : GSem nD τ sig => g.2) e) (by show (SemLoc.dma cc0_scoped0.sem : SemLoc sig) ≠ SemLoc.dma cc0_scratch8.sem; decide)), Finset.mem_erase.mpr ⟨(fun e => absurd (congrArg (fun g : GSem nD τ sig => g.2) e) (by show (SemLoc.dma cc0_scoped0.sem : SemLoc sig) ≠ SemLoc.dma cc0_scratch7.sem; decide)), Finset.mem_erase.mpr ⟨(fun e => absurd (congrArg (fun g : GSem nD τ sig => g.2) e) (by show (SemLoc.dma cc0_scoped0.sem : SemLoc sig) ≠ SemLoc.dma cc0_scratch6.sem; decide)), Finset.mem_erase.mpr ⟨(fun e => absurd (congrArg (fun g : GSem nD τ sig => g.2) e) (by show (SemLoc.dma cc0_scoped0.sem : SemLoc sig) ≠ SemLoc.dma cc0_scratch5.sem; decide)), Finset.mem_erase.mpr ⟨(fun e => absurd (congrArg (fun g : GSem nD τ sig => g.2) e) (by show (SemLoc.dma cc0_scoped0.sem : SemLoc sig) ≠ SemLoc.dma cc0_scratch4.sem; decide)), Finset.mem_erase.mpr ⟨(fun e => absurd (congrArg (fun g : GSem nD τ sig => g.2) e) (by show (SemLoc.dma cc0_scoped0.sem : SemLoc sig) ≠ SemLoc.dma cc0_scratch3.sem; decide)), (mem_ownCells (g := dcell d c i cc0_scoped0)).mpr ⟨rfl, by show (SemLoc.dma cc0_scoped0.sem : SemLoc sig).isScoped .scVector = true; decide⟩⟩⟩⟩⟩⟩⟩⟩⟩)]

/-- The two scratch buffers are among the tile's own. -/
theorem ownBufs_V (d : Dev nD) (c : Fin τ.nSC) (i : Fin τ.nSub) :
    (ownBufs (V d c i) : sProp 𝕄)
      = iprop((∃ f, (V d c i).loc cc0_scratch1 ↦{fullShare} f) ∗ (∃ f, (V d c i).loc cc0_scratch2 ↦{fullShare} f)
          ∗ bigSep (((ownRefs (τ := τ) (.scVector c i)).erase ((Proc.scVector c i).devRef cc0_scratch1)).erase ((Proc.scVector c i).devRef cc0_scratch2))
              fun b => iprop(∃ f, ((d, b) : Loc nD τ sig) ↦{fullShare} f)) := by
  unfold SparseCore.Cfg.ownBufs
  rw [SparseCore.bigSep_erase' (SparseCore.Cfg.mem_ownRefs_of_owner (p := Proc.scVector c i) (b := (Proc.scVector c i).devRef cc0_scratch1) rfl),
    SparseCore.bigSep_erase' (Finset.mem_erase.mpr ⟨fun e => absurd (show (1 : ℕ) = 0 from congrArg (fun b : DevRef τ sig => b.idx.val) e) (by decide), SparseCore.Cfg.mem_ownRefs_of_owner (p := Proc.scVector c i) (b := (Proc.scVector c i).devRef cc0_scratch2) rfl⟩)]

end Cert.Proof.KB

end
-- ==== Proof.BSpell.lean ====
/-
  The same arrays in the two spellings. The launch hands a tile the list, the table and the shared memory as the
  TensorCore names them; the task's own copies and gathers name them through the kernel's operands at the tile. The two
  are one location and, for a whole array, one set of elements.
-/
import proofs.«205114_g12446815224155_cont_fleet_488_32_alg».proof.Proof.BCells

set_option maxRecDepth 16384

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "iV" => (Memref.whole Cert.Kernel.main_v0_scv : Memref Cert.Kernel.sig Kind.scVector Space.hbm Cert.Kernel.S3276800 EltTy.i32)
local notation "tV" => (Memref.whole Cert.Kernel.main_arg1_scv : Memref Cert.Kernel.sig Kind.scVector Space.hbm Cert.Kernel.S3x128 EltTy.f32)
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)
local notation "shV" => (Memref.whole Cert.Kernel.cc0_scratch0 : Memref Cert.Kernel.sig Kind.scVector Space.shared Cert.Kernel.S3x128 EltTy.f32)

/-- The table, as the tile's copy names it. -/
theorem pts_tV (d : Dev nD) (c : Fin τ.nSC) (j : Fin τ.nSub) (q : PosShare TreeShare) (f : Buf (Elt F) (tabLoc d)) :
    ((tV).view.loc (V d c j) ↦[(tV).view.set]{q} f : sProp 𝕄) = (tabLoc d ↦{q} f) := by
  rw [(Memref.isWhole_whole _).set_eq_univ]

/-- The SparseCore's shared memory, as the tile's copy and gathers name it. -/
theorem pts_shV (d : Dev nD) (c : Fin τ.nSC) (j : Fin τ.nSub) (q : PosShare TreeShare) (f : Buf (Elt F) (shLoc d c)) :
    ((shV).view.loc (V d c j) ↦[(shV).view.set]{q} f : sProp 𝕄) = (shLoc d c ↦{q} f) := by
  rw [(Memref.isWhole_whole _).set_eq_univ]; rfl

/-- The list of row numbers, as the tile's copies name it. -/
theorem pts_iV (d : Dev nD) (c : Fin τ.nSC) (j : Fin τ.nSub) (q : PosShare TreeShare) (f : Buf (Elt F) (idxLoc d)) :
    ((iV).view.loc (V d c j) ↦[(iV).view.set]{q} f : sProp 𝕄) = (idxLoc d ↦{q} f) := by
  rw [(Memref.isWhole_whole _).set_eq_univ]

/-- The tile's buffer of row numbers, as its copies, loads and stores name it. -/
theorem pts_ibV (d : Dev nD) (c : Fin τ.nSC) (j : Fin τ.nSub) (q : PosShare TreeShare) (f : Buf (Elt F) ((V d c j).loc cc0_scratch1)) :
    ((ibV).view.loc (V d c j) ↦[(ibV).view.set]{q} f : sProp 𝕄) = ((V d c j).loc cc0_scratch1 ↦{q} f) := by
  rw [(Memref.isWhole_whole _).set_eq_univ]; try rfl

/-- The tile's buffer of gathered rows, as its gathers and copies name it. -/
theorem pts_rwV (d : Dev nD) (c : Fin τ.nSC) (j : Fin τ.nSub) (q : PosShare TreeShare) (f : Buf (Elt F) ((V d c j).loc cc0_scratch2)) :
    ((rwV).view.loc (V d c j) ↦[(rwV).view.set]{q} f : sProp 𝕄) = ((V d c j).loc cc0_scratch2 ↦{q} f) := by
  rw [(Memref.isWhole_whole _).set_eq_univ]; try rfl

end Cert.Proof.KB

end
-- ==== Proof.BBarrier.lean ====
/-
  What crosses the barrier. Tile 0's arrival at tile j's barrier cell carries tile j's read share of the shared copy of
  the table; every other tile's arrival carries nothing. So tile 0 pays its sixteen arrivals with the sixteen read
  shares, any other tile pays with nothing, and what a tile reads off its own round once all sixteen have arrived is
  its own read share, at the table's contents.
-/
import proofs.«205114_g12446815224155_cont_fleet_488_32_alg».proof.Proof.BSpell

set_option maxRecDepth 16384

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}
local notation "𝕄" => MT nD τ sig (HIx 1) (Elt F) ℕ UU ℕ

variable (ft : (d : Dev nD) → Buf (Elt F) (tabLoc d))
variable [FloatOps F]

/-- Tile 0 pays its arrival at every tile's cell with that tile's read share. -/
theorem pays_tile0 (d : Dev nD) (L : grid0.Coords) (hj : (L 1).val = 0) :
    (bigSep Finset.univ fun i : Fin 16 => (shLoc d (cV L) ↦{shareTok fullShare 16 i} tabAt ft d (cV L) : sProp 𝕄))
      ⊢ bigSep Finset.univ fun j : Fin (grid0.bound 1) => (bRd (F := F) ft).payload (bcell d (cV L) (j.castLE hsub0)) 0 (jV L).val := by
  refine Entails.of_eq ?_
  show _ = bigSep (Finset.univ : Finset (Fin 16)) _
  congr 1; funext j
  show _ = bPay ft (bcell d (cV L) (j.castLE hsub0)) (jV L).val
  unfold bPay
  dsimp only
  rw [if_pos (show (jV L).val = 0 from hj)]
  rfl

/-- Any other tile pays its arrivals with nothing. -/
theorem pays_other (d : Dev nD) (L : grid0.Coords) (hj : (L 1).val ≠ 0) :
    (iprop(emp) : sProp 𝕄)
      ⊢ bigSep Finset.univ fun j : Fin (grid0.bound 1) => (bRd (F := F) ft).payload (bcell d (cV L) (j.castLE hsub0)) 0 (jV L).val := by
  have e : (fun j : Fin (grid0.bound 1) => (bRd (F := F) ft).payload (bcell d (cV L) (j.castLE hsub0)) 0 (jV L).val) = fun _ => (iprop(emp) : sProp 𝕄) := by
    funext j
    show bPay ft (bcell d (cV L) (j.castLE hsub0)) (jV L).val = _
    unfold bPay
    dsimp only
    rw [if_neg (show ¬ (jV L).val = 0 from hj)]
  rw [e, bigSep_emp']

/-- Once all sixteen have arrived, a tile reads its own read share off its round, at the table's contents. -/
theorem got_tok (d : Dev nD) (c : Fin τ.nSC) (j : Fin τ.nSub) :
    (bigSep ((bRd (F := F) ft).duties (bcell d c j) 0 \ ∅) fun n => (bRd (F := F) ft).payload (bcell d c j) 0 n)
      ⊢ shTokPts d c j (tabAt ft d c) := by
  rw [Finset.sdiff_empty, bRd_duties₀]
  have h0 : (0 : ℕ) ∈ (Finset.univ : Finset (Fin τ.nSub)).image Fin.val :=
    Finset.mem_image.mpr ⟨⟨0, by decide⟩, Finset.mem_univ _, rfl⟩
  rw [SparseCore.bigSep_erase' h0]
  iintro ⟨H, -⟩
  iapply (Entails.of_eq (show (bRd (F := F) ft).payload (bcell d c j) 0 0 = shTokPts d c j (tabAt ft d c) from by
    show bPay ft (bcell d c j) 0 = _
    unfold bPay
    dsimp only
    rw [if_pos rfl]))
  iexact H

end Cert.Proof.KB

end
-- ==== Proof.BWrap.lean ====
/-
  Reducing a row number modulo 3 in place. A row number between 0 and 2 is its own remainder on division by 3, so on the
  inputs the claim speaks of each sixteen-lane step of the reduction stores back exactly the words it loaded: the buffer
  of row numbers is left as the copy from the list filled it.
-/
import proofs.«205114_g12446815224155_cont_fleet_488_32_alg».proof.Proof.Gen.Kernel.Skeleton
import Idealize.ShloMosaic.Lib.Pipeline.Value
import Idealize.ShloMosaic.Lib.ValueIdx

noncomputable section

namespace Cert.Proof.KB

open Cert.Kernel Cert.Kernel.Gen
open Idealize.ShloMosaic

variable {F : FTy → Type} [FloatOps F]

/-- A 32-bit word between 0 and 2, read signed, is one of the three literals. -/
theorem word_cases {w : BitVec 32} (h0 : 0 ≤ w.toInt) (h2 : w.toInt ≤ 2) : w = 0#32 ∨ w = 1#32 ∨ w = 2#32 := by
  have e : w.toInt = (w.toNat : Int) := by
    rcases BitVec.toInt_eq_toNat_cond w with h
    rw [h] at h0 h2 ⊢
    split_ifs at h0 h2 ⊢ with hlt
    · rfl
    · exfalso; have := w.isLt; omega
  rw [e] at h2
  have e0 : w.toNat = 0 ∨ w.toNat = 1 ∨ w.toNat = 2 := by omega
  rcases e0 with e | e | e
  · exact .inl (BitVec.eq_of_toNat_eq (by rw [e]; rfl))
  · exact .inr (.inl (BitVec.eq_of_toNat_eq (by rw [e]; rfl)))
  · exact .inr (.inr (BitVec.eq_of_toNat_eq (by rw [e]; rfl)))

/-- Its remainder on division by 3 is the word itself. -/
theorem rem3_fixed {w : BitVec 32} (h0 : 0 ≤ w.toInt) (h2 : w.toInt ≤ 2) : IntOp.remsi .vector w 3#32 = w := by
  rcases word_cases h0 h2 with rfl | rfl | rfl <;> decide

/-- One sixteen-lane step: the words reshaped to a row, reduced modulo 3 and reshaped back are the words. -/
theorem wrap_fixed (v : IVec S1x16 32) (hv : ∀ x, 0 ≤ (v x).toInt ∧ (v x).toInt ≤ 2)
    (h : S1x16.ShapeCasts S16) (h' : S16.ShapeCasts S1x16) :
    shapeCast S1x16 (remsi (shapeCast S16 v h) (broadcast S16 3#32)) h' = v := by
  have e : remsi (shapeCast S16 v h) (broadcast S16 3#32) = shapeCast S16 v h :=
    funext fun x => rem3_fixed (hv _).1 (hv _).2
  rw [e, shapeCast_shapeCast]

theorem pay1_fixed (v : Vec F S1x16 .i32) (hv : ∀ x, 0 ≤ ((v x : BitVec 32)).toInt ∧ ((v x : BitVec 32)).toInt ≤ 2) : k0_pay1 (F := F) v = v := by
  unfold k0_pay1
  exact wrap_fixed v hv _ _

theorem pay2_fixed (v : Vec F S1x16 .i32) (hv : ∀ x, 0 ≤ ((v x : BitVec 32)).toInt ∧ ((v x : BitVec 32)).toInt ≤ 2) : k0_pay2 (F := F) v = v := by
  unfold k0_pay2
  exact wrap_fixed v hv _ _

theorem pay3_fixed (v : Vec F S1x16 .i32) (hv : ∀ x, 0 ≤ ((v x : BitVec 32)).toInt ∧ ((v x : BitVec 32)).toInt ≤ 2) : k0_pay3 (F := F) v = v := by
  unfold k0_pay3
  exact wrap_fixed v hv _ _

theorem pay4_fixed (v : Vec F S1x16 .i32) (hv : ∀ x, 0 ≤ ((v x : BitVec 32)).toInt ∧ ((v x : BitVec 32)).toInt ≤ 2) : k0_pay4 (F := F) v = v := by
  unfold k0_pay4
  exact wrap_fixed v hv _ _

theorem pay5_fixed (v : Vec F S1x16 .i32) (hv : ∀ x, 0 ≤ ((v x : BitVec 32)).toInt ∧ ((v x : BitVec 32)).toInt ≤ 2) : k0_pay5 (F := F) v = v := by
  unfold k0_pay5
  exact wrap_fixed v hv _ _

theorem pay6_fixed (v : Vec F S1x16 .i32) (hv : ∀ x, 0 ≤ ((v x : BitVec 32)).toInt ∧ ((v x : BitVec 32)).toInt ≤ 2) : k0_pay6 (F := F) v = v := by
  unfold k0_pay6
  exact wrap_fixed v hv _ _

theorem pay7_fixed (v : Vec F S1x16 .i32) (hv : ∀ x, 0 ≤ ((v x : BitVec 32)).toInt ∧ ((v x : BitVec 32)).toInt ≤ 2) : k0_pay7 (F := F) v = v := by
  unfold k0_pay7
  exact wrap_fixed v hv _ _

theorem pay8_fixed (v : Vec F S1x16 .i32) (hv : ∀ x, 0 ≤ ((v x : BitVec 32)).toInt ∧ ((v x : BitVec 32)).toInt ≤ 2) : k0_pay8 (F := F) v = v := by
  unfold k0_pay8
  exact wrap_fixed v hv _ _

theorem pay9_fixed (v : Vec F S1x16 .i32) (hv : ∀ x, 0 ≤ ((v x : BitVec 32)).toInt ∧ ((v x : BitVec 32)).toInt ≤ 2) : k0_pay9 (F := F) v = v := by
  unfold k0_pay9
  exact wrap_fixed v hv _ _

theorem pay10_fixed (v : Vec F S1x16 .i32) (hv : ∀ x, 0 ≤ ((v x : BitVec 32)).toInt ∧ ((v x : BitVec 32)).toInt ≤ 2) : k0_pay10 (F := F) v = v := by
  unfold k0_pay10
  exact wrap_fixed v hv _ _

theorem pay11_fixed (v : Vec F S1x16 .i32) (hv : ∀ x, 0 ≤ ((v x : BitVec 32)).toInt ∧ ((v x : BitVec 32)).toInt ≤ 2) : k0_pay11 (F := F) v = v := by
  unfold k0_pay11
  exact wrap_fixed v hv _ _

theorem pay12_fixed (v : Vec F S1x16 .i32) (hv : ∀ x, 0 ≤ ((v x : BitVec 32)).toInt ∧ ((v x : BitVec 32)).toInt ≤ 2) : k0_pay12 (F := F) v = v := by
  unfold k0_pay12
  exact wrap_fixed v hv _ _

theorem pay13_fixed (v : Vec F S1x16 .i32) (hv : ∀ x, 0 ≤ ((v x : BitVec 32)).toInt ∧ ((v x : BitVec 32)).toInt ≤ 2) : k0_pay13 (F := F) v = v := by
  unfold k0_pay13
  exact wrap_fixed v hv _ _

theorem pay14_fixed (v : Vec F S1x16 .i32) (hv : ∀ x, 0 ≤ ((v x : BitVec 32)).toInt ∧ ((v x : BitVec 32)).toInt ≤ 2) : k0_pay14 (F := F) v = v := by
  unfold k0_pay14
  exact wrap_fixed v hv _ _

theorem pay15_fixed (v : Vec F S1x16 .i32) (hv : ∀ x, 0 ≤ ((v x : BitVec 32)).toInt ∧ ((v x : BitVec 32)).toInt ≤ 2) : k0_pay15 (F := F) v = v := by
  unfold k0_pay15
  exact wrap_fixed v hv _ _

theorem pay16_fixed (v : Vec F S1x16 .i32) (hv : ∀ x, 0 ≤ ((v x : BitVec 32)).toInt ∧ ((v x : BitVec 32)).toInt ≤ 2) : k0_pay16 (F := F) v = v := by
  unfold k0_pay16
  exact wrap_fixed v hv _ _

end Cert.Proof.KB

end
-- ==== Proof.BPieces.lean ====
/-
  The tile's two scratch buffers in pieces. The buffer of row numbers is two blocks of 1024, and a block is eight lists of
  128; the buffer of gathered rows is two halves, and a half is two quarters of 128 rows. A piece is a rectangle of the
  buffer; the pieces of a buffer, or of a piece, are disjoint and cover it, so holding it is holding them.
-/
import proofs.«205114_g12446815224155_cont_fleet_488_32_alg».proof.Proof.BSpell

set_option maxRecDepth 16384

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)

/-! ## Rectangles of a buffer, by their coordinates -/

theorem mem_unit2 {d : Fin 2 → ℕ} (off sz : Fin 2 → ℕ) (inb : ∀ a, off a + sz a ≤ (⟨2, d⟩ : Shape).size a) (i : (⟨2, d⟩ : Shape).Idx) :
    i ∈ (Rect.unit (s := ⟨2, d⟩) off sz inb).set
      ↔ (off 0 ≤ (i 0).val ∧ (i 0).val < off 0 + sz 0) ∧ (off 1 ≤ (i 1).val ∧ (i 1).val < off 1 + sz 1) := by
  rw [Rect.mem_set_unit]; exact Fin.forall_fin_two

theorem forall_fin_four {P : Fin 4 → Prop} : (∀ a, P a) ↔ P 0 ∧ P 1 ∧ P 2 ∧ P 3 :=
  ⟨fun h => ⟨h 0, h 1, h 2, h 3⟩, fun ⟨h0, h1, h2, h3⟩ a => by fin_cases a <;> assumption⟩

theorem mem_unit4 {d : Fin 4 → ℕ} (off sz : Fin 4 → ℕ) (inb : ∀ a, off a + sz a ≤ (⟨4, d⟩ : Shape).size a) (i : (⟨4, d⟩ : Shape).Idx) :
    i ∈ (Rect.unit (s := ⟨4, d⟩) off sz inb).set
      ↔ (off 0 ≤ (i 0).val ∧ (i 0).val < off 0 + sz 0) ∧ (off 1 ≤ (i 1).val ∧ (i 1).val < off 1 + sz 1)
        ∧ (off 2 ≤ (i 2).val ∧ (i 2).val < off 2 + sz 2) ∧ (off 3 ≤ (i 3).val ∧ (i 3).val < off 3 + sz 3) := by
  rw [Rect.mem_set_unit]; exact forall_fin_four

/-! ## The buffer of row numbers: two blocks, each eight lists -/

/-- Block bb of the buffer of row numbers: row bb, all 1024 words. -/
def slotR : Fin 2 → Rect S2x1024
  | 0 => Rect.unit (s := S2x1024) ![0, 0] S1x1024.size inb_S2x1024_S1x1024_0_0
  | 1 => Rect.unit (s := S2x1024) ![1, 0] S1x1024.size inb_S2x1024_S1x1024_1_0
  | ⟨_ + 2, h⟩ => absurd h (by omega)
/-- List s of block bb: words 128 s … 128 s + 127 of row bb. -/
def listR : Fin 2 → Fin 8 → Rect S2x1024
  | 0 => fun
    | 0 => Rect.unit (s := S2x1024) ![0, 0] S1x128.size inb_S2x1024_S1x128_0_0
    | 1 => Rect.unit (s := S2x1024) ![0, 128] S1x128.size inb_S2x1024_S1x128_0_128
    | 2 => Rect.unit (s := S2x1024) ![0, 256] S1x128.size inb_S2x1024_S1x128_0_256
    | 3 => Rect.unit (s := S2x1024) ![0, 384] S1x128.size inb_S2x1024_S1x128_0_384
    | 4 => Rect.unit (s := S2x1024) ![0, 512] S1x128.size inb_S2x1024_S1x128_0_512
    | 5 => Rect.unit (s := S2x1024) ![0, 640] S1x128.size inb_S2x1024_S1x128_0_640
    | 6 => Rect.unit (s := S2x1024) ![0, 768] S1x128.size inb_S2x1024_S1x128_0_768
    | 7 => Rect.unit (s := S2x1024) ![0, 896] S1x128.size inb_S2x1024_S1x128_0_896
    | ⟨_ + 8, h⟩ => absurd h (by omega)
  | 1 => fun
    | 0 => Rect.unit (s := S2x1024) ![1, 0] S1x128.size inb_S2x1024_S1x128_1_0
    | 1 => Rect.unit (s := S2x1024) ![1, 128] S1x128.size inb_S2x1024_S1x128_1_128
    | 2 => Rect.unit (s := S2x1024) ![1, 256] S1x128.size inb_S2x1024_S1x128_1_256
    | 3 => Rect.unit (s := S2x1024) ![1, 384] S1x128.size inb_S2x1024_S1x128_1_384
    | 4 => Rect.unit (s := S2x1024) ![1, 512] S1x128.size inb_S2x1024_S1x128_1_512
    | 5 => Rect.unit (s := S2x1024) ![1, 640] S1x128.size inb_S2x1024_S1x128_1_640
    | 6 => Rect.unit (s := S2x1024) ![1, 768] S1x128.size inb_S2x1024_S1x128_1_768
    | 7 => Rect.unit (s := S2x1024) ![1, 896] S1x128.size inb_S2x1024_S1x128_1_896
    | ⟨_ + 8, h⟩ => absurd h (by omega)
  | ⟨_ + 2, h⟩ => absurd h (by omega)

theorem slotR_stride (bb : Fin 2) : ∀ a, (slotR bb).stride a = 1 := by fin_cases bb <;> exact fun _ => rfl
theorem slotR_shape (bb : Fin 2) : (slotR bb).shape = S1x1024 := by fin_cases bb <;> rfl
theorem listR_stride (bb : Fin 2) (s : Fin 8) : ∀ a, (listR bb s).stride a = 1 := by fin_cases bb <;> fin_cases s <;> exact fun _ => rfl
theorem listR_shape (bb : Fin 2) (s : Fin 8) : (listR bb s).shape = S1x128 := by fin_cases bb <;> fin_cases s <;> rfl

/-- A block of 1024 row numbers, as the task's copies of the list name it. -/
abbrev slotM (bb : Fin 2) : Memref sig .scVector .vmem S1024 .i32 :=
  ((ibV).slice (slotR bb) (slotR_stride bb)).squeeze S1024 (slotR_shape bb ▸ squeezes_S1x1024_S1024)
/-- A list of 128 row numbers, as the task's gathers name it. -/
abbrev listM (bb : Fin 2) (s : Fin 8) : Memref sig .scVector .vmem S128 .i32 :=
  ((ibV).slice (listR bb s) (listR_stride bb s)).squeeze S128 (listR_shape bb s ▸ squeezes_S1x128_S128)

theorem slotM_0 : slotM 0 = ((ibV).slice (Rect.unit (s := S2x1024) ![0, 0] S1x1024.size inb_S2x1024_S1x1024_0_0) (fun _ => rfl)).squeeze S1024 squeezes_S1x1024_S1024 := rfl
theorem slotM_1 : slotM 1 = ((ibV).slice (Rect.unit (s := S2x1024) ![1, 0] S1x1024.size inb_S2x1024_S1x1024_1_0) (fun _ => rfl)).squeeze S1024 squeezes_S1x1024_S1024 := rfl
theorem listM_0_0 : listM 0 0 = ((ibV).slice (Rect.unit (s := S2x1024) ![0, 0] S1x128.size inb_S2x1024_S1x128_0_0) (fun _ => rfl)).squeeze S128 squeezes_S1x128_S128 := rfl
theorem listM_0_1 : listM 0 1 = ((ibV).slice (Rect.unit (s := S2x1024) ![0, 128] S1x128.size inb_S2x1024_S1x128_0_128) (fun _ => rfl)).squeeze S128 squeezes_S1x128_S128 := rfl
theorem listM_0_2 : listM 0 2 = ((ibV).slice (Rect.unit (s := S2x1024) ![0, 256] S1x128.size inb_S2x1024_S1x128_0_256) (fun _ => rfl)).squeeze S128 squeezes_S1x128_S128 := rfl
theorem listM_0_3 : listM 0 3 = ((ibV).slice (Rect.unit (s := S2x1024) ![0, 384] S1x128.size inb_S2x1024_S1x128_0_384) (fun _ => rfl)).squeeze S128 squeezes_S1x128_S128 := rfl
theorem listM_0_4 : listM 0 4 = ((ibV).slice (Rect.unit (s := S2x1024) ![0, 512] S1x128.size inb_S2x1024_S1x128_0_512) (fun _ => rfl)).squeeze S128 squeezes_S1x128_S128 := rfl
theorem listM_0_5 : listM 0 5 = ((ibV).slice (Rect.unit (s := S2x1024) ![0, 640] S1x128.size inb_S2x1024_S1x128_0_640) (fun _ => rfl)).squeeze S128 squeezes_S1x128_S128 := rfl
theorem listM_0_6 : listM 0 6 = ((ibV).slice (Rect.unit (s := S2x1024) ![0, 768] S1x128.size inb_S2x1024_S1x128_0_768) (fun _ => rfl)).squeeze S128 squeezes_S1x128_S128 := rfl
theorem listM_0_7 : listM 0 7 = ((ibV).slice (Rect.unit (s := S2x1024) ![0, 896] S1x128.size inb_S2x1024_S1x128_0_896) (fun _ => rfl)).squeeze S128 squeezes_S1x128_S128 := rfl
theorem listM_1_0 : listM 1 0 = ((ibV).slice (Rect.unit (s := S2x1024) ![1, 0] S1x128.size inb_S2x1024_S1x128_1_0) (fun _ => rfl)).squeeze S128 squeezes_S1x128_S128 := rfl
theorem listM_1_1 : listM 1 1 = ((ibV).slice (Rect.unit (s := S2x1024) ![1, 128] S1x128.size inb_S2x1024_S1x128_1_128) (fun _ => rfl)).squeeze S128 squeezes_S1x128_S128 := rfl
theorem listM_1_2 : listM 1 2 = ((ibV).slice (Rect.unit (s := S2x1024) ![1, 256] S1x128.size inb_S2x1024_S1x128_1_256) (fun _ => rfl)).squeeze S128 squeezes_S1x128_S128 := rfl
theorem listM_1_3 : listM 1 3 = ((ibV).slice (Rect.unit (s := S2x1024) ![1, 384] S1x128.size inb_S2x1024_S1x128_1_384) (fun _ => rfl)).squeeze S128 squeezes_S1x128_S128 := rfl
theorem listM_1_4 : listM 1 4 = ((ibV).slice (Rect.unit (s := S2x1024) ![1, 512] S1x128.size inb_S2x1024_S1x128_1_512) (fun _ => rfl)).squeeze S128 squeezes_S1x128_S128 := rfl
theorem listM_1_5 : listM 1 5 = ((ibV).slice (Rect.unit (s := S2x1024) ![1, 640] S1x128.size inb_S2x1024_S1x128_1_640) (fun _ => rfl)).squeeze S128 squeezes_S1x128_S128 := rfl
theorem listM_1_6 : listM 1 6 = ((ibV).slice (Rect.unit (s := S2x1024) ![1, 768] S1x128.size inb_S2x1024_S1x128_1_768) (fun _ => rfl)).squeeze S128 squeezes_S1x128_S128 := rfl
theorem listM_1_7 : listM 1 7 = ((ibV).slice (Rect.unit (s := S2x1024) ![1, 896] S1x128.size inb_S2x1024_S1x128_1_896) (fun _ => rfl)).squeeze S128 squeezes_S1x128_S128 := rfl

/-- Which words a block holds, and which a list. -/
theorem mem_slotR (bb : Fin 2) (i : S2x1024.Idx) : i ∈ (slotR bb).set ↔ (i 0).val = bb.val := by
  have h1 : (i 1).val < 1024 := (i 1).isLt
  fin_cases bb
  · exact (mem_unit2 _ _ inb_S2x1024_S1x1024_0_0 i).trans (show (0 ≤ (i 0).val ∧ (i 0).val < 0 + 1) ∧ (0 ≤ (i 1).val ∧ (i 1).val < 0 + 1024) ↔ (i 0).val = 0 by omega)
  · exact (mem_unit2 _ _ inb_S2x1024_S1x1024_1_0 i).trans (show (1 ≤ (i 0).val ∧ (i 0).val < 1 + 1) ∧ (0 ≤ (i 1).val ∧ (i 1).val < 0 + 1024) ↔ (i 0).val = 1 by omega)
theorem mem_listR (bb : Fin 2) (s : Fin 8) (i : S2x1024.Idx) :
    i ∈ (listR bb s).set ↔ (i 0).val = bb.val ∧ 128 * s.val ≤ (i 1).val ∧ (i 1).val < 128 * s.val + 128 := by
  fin_cases bb <;> fin_cases s
  · exact (mem_unit2 _ _ inb_S2x1024_S1x128_0_0 i).trans (show (0 ≤ (i 0).val ∧ (i 0).val < 0 + 1) ∧ (0 ≤ (i 1).val ∧ (i 1).val < 0 + 128)
      ↔ (i 0).val = 0 ∧ 128 * 0 ≤ (i 1).val ∧ (i 1).val < 128 * 0 + 128 by omega)
  · exact (mem_unit2 _ _ inb_S2x1024_S1x128_0_128 i).trans (show (0 ≤ (i 0).val ∧ (i 0).val < 0 + 1) ∧ (128 ≤ (i 1).val ∧ (i 1).val < 128 + 128)
      ↔ (i 0).val = 0 ∧ 128 * 1 ≤ (i 1).val ∧ (i 1).val < 128 * 1 + 128 by omega)
  · exact (mem_unit2 _ _ inb_S2x1024_S1x128_0_256 i).trans (show (0 ≤ (i 0).val ∧ (i 0).val < 0 + 1) ∧ (256 ≤ (i 1).val ∧ (i 1).val < 256 + 128)
      ↔ (i 0).val = 0 ∧ 128 * 2 ≤ (i 1).val ∧ (i 1).val < 128 * 2 + 128 by omega)
  · exact (mem_unit2 _ _ inb_S2x1024_S1x128_0_384 i).trans (show (0 ≤ (i 0).val ∧ (i 0).val < 0 + 1) ∧ (384 ≤ (i 1).val ∧ (i 1).val < 384 + 128)
      ↔ (i 0).val = 0 ∧ 128 * 3 ≤ (i 1).val ∧ (i 1).val < 128 * 3 + 128 by omega)
  · exact (mem_unit2 _ _ inb_S2x1024_S1x128_0_512 i).trans (show (0 ≤ (i 0).val ∧ (i 0).val < 0 + 1) ∧ (512 ≤ (i 1).val ∧ (i 1).val < 512 + 128)
      ↔ (i 0).val = 0 ∧ 128 * 4 ≤ (i 1).val ∧ (i 1).val < 128 * 4 + 128 by omega)
  · exact (mem_unit2 _ _ inb_S2x1024_S1x128_0_640 i).trans (show (0 ≤ (i 0).val ∧ (i 0).val < 0 + 1) ∧ (640 ≤ (i 1).val ∧ (i 1).val < 640 + 128)
      ↔ (i 0).val = 0 ∧ 128 * 5 ≤ (i 1).val ∧ (i 1).val < 128 * 5 + 128 by omega)
  · exact (mem_unit2 _ _ inb_S2x1024_S1x128_0_768 i).trans (show (0 ≤ (i 0).val ∧ (i 0).val < 0 + 1) ∧ (768 ≤ (i 1).val ∧ (i 1).val < 768 + 128)
      ↔ (i 0).val = 0 ∧ 128 * 6 ≤ (i 1).val ∧ (i 1).val < 128 * 6 + 128 by omega)
  · exact (mem_unit2 _ _ inb_S2x1024_S1x128_0_896 i).trans (show (0 ≤ (i 0).val ∧ (i 0).val < 0 + 1) ∧ (896 ≤ (i 1).val ∧ (i 1).val < 896 + 128)
      ↔ (i 0).val = 0 ∧ 128 * 7 ≤ (i 1).val ∧ (i 1).val < 128 * 7 + 128 by omega)
  · exact (mem_unit2 _ _ inb_S2x1024_S1x128_1_0 i).trans (show (1 ≤ (i 0).val ∧ (i 0).val < 1 + 1) ∧ (0 ≤ (i 1).val ∧ (i 1).val < 0 + 128)
      ↔ (i 0).val = 1 ∧ 128 * 0 ≤ (i 1).val ∧ (i 1).val < 128 * 0 + 128 by omega)
  · exact (mem_unit2 _ _ inb_S2x1024_S1x128_1_128 i).trans (show (1 ≤ (i 0).val ∧ (i 0).val < 1 + 1) ∧ (128 ≤ (i 1).val ∧ (i 1).val < 128 + 128)
      ↔ (i 0).val = 1 ∧ 128 * 1 ≤ (i 1).val ∧ (i 1).val < 128 * 1 + 128 by omega)
  · exact (mem_unit2 _ _ inb_S2x1024_S1x128_1_256 i).trans (show (1 ≤ (i 0).val ∧ (i 0).val < 1 + 1) ∧ (256 ≤ (i 1).val ∧ (i 1).val < 256 + 128)
      ↔ (i 0).val = 1 ∧ 128 * 2 ≤ (i 1).val ∧ (i 1).val < 128 * 2 + 128 by omega)
  · exact (mem_unit2 _ _ inb_S2x1024_S1x128_1_384 i).trans (show (1 ≤ (i 0).val ∧ (i 0).val < 1 + 1) ∧ (384 ≤ (i 1).val ∧ (i 1).val < 384 + 128)
      ↔ (i 0).val = 1 ∧ 128 * 3 ≤ (i 1).val ∧ (i 1).val < 128 * 3 + 128 by omega)
  · exact (mem_unit2 _ _ inb_S2x1024_S1x128_1_512 i).trans (show (1 ≤ (i 0).val ∧ (i 0).val < 1 + 1) ∧ (512 ≤ (i 1).val ∧ (i 1).val < 512 + 128)
      ↔ (i 0).val = 1 ∧ 128 * 4 ≤ (i 1).val ∧ (i 1).val < 128 * 4 + 128 by omega)
  · exact (mem_unit2 _ _ inb_S2x1024_S1x128_1_640 i).trans (show (1 ≤ (i 0).val ∧ (i 0).val < 1 + 1) ∧ (640 ≤ (i 1).val ∧ (i 1).val < 640 + 128)
      ↔ (i 0).val = 1 ∧ 128 * 5 ≤ (i 1).val ∧ (i 1).val < 128 * 5 + 128 by omega)
  · exact (mem_unit2 _ _ inb_S2x1024_S1x128_1_768 i).trans (show (1 ≤ (i 0).val ∧ (i 0).val < 1 + 1) ∧ (768 ≤ (i 1).val ∧ (i 1).val < 768 + 128)
      ↔ (i 0).val = 1 ∧ 128 * 6 ≤ (i 1).val ∧ (i 1).val < 128 * 6 + 128 by omega)
  · exact (mem_unit2 _ _ inb_S2x1024_S1x128_1_896 i).trans (show (1 ≤ (i 0).val ∧ (i 0).val < 1 + 1) ∧ (896 ≤ (i 1).val ∧ (i 1).val < 896 + 128)
      ↔ (i 0).val = 1 ∧ 128 * 7 ≤ (i 1).val ∧ (i 1).val < 128 * 7 + 128 by omega)

theorem set_slotM (bb : Fin 2) : (slotM bb).view.set = (slotR bb).set := by
  show (((View.whole (cc0_scratch1 : Ref sig .scVector)).slice (slotR bb)).reshape S1024 _).set = _
  rw [View.set_reshape, View.set_slice_whole]
theorem set_listM (bb : Fin 2) (s : Fin 8) : (listM bb s).view.set = (listR bb s).set := by
  show (((View.whole (cc0_scratch1 : Ref sig .scVector)).slice (listR bb s)).reshape S128 _).set = _
  rw [View.set_reshape, View.set_slice_whole]

theorem slots_disjoint : Disjoint (slotR 0).set (slotR 1).set :=
  Finset.disjoint_left.mpr fun i h0 h1 => by
    have e0 : (i 0).val = 0 := (mem_slotR 0 i).mp h0
    have e1 : (i 0).val = 1 := (mem_slotR 1 i).mp h1
    omega
theorem slots_cover : (slotR 0).set ∪ (slotR 1).set = Finset.univ := by
  ext i
  simp only [Finset.mem_union, mem_slotR, Finset.mem_univ, iff_true]
  have h0 : (i 0).val < 2 := (i 0).isLt
  show (i 0).val = 0 ∨ (i 0).val = 1
  omega
theorem lists_disjoint (bb : Fin 2) : ∀ s ∈ (Finset.univ : Finset (Fin 8)), ∀ s' ∈ (Finset.univ : Finset (Fin 8)), s ≠ s' →
    Disjoint (listR bb s).set (listR bb s').set := fun s _ s' _ hne =>
  Finset.disjoint_left.mpr fun i h h' => by
    have e := (mem_listR bb s i).mp h
    have e' := (mem_listR bb s' i).mp h'
    have : s.val ≠ s'.val := fun e => hne (Fin.ext e)
    omega
theorem lists_cover (bb : Fin 2) : (Finset.univ : Finset (Fin 8)).biUnion (fun s => (listR bb s).set) = (slotR bb).set := by
  ext i
  simp only [Finset.mem_biUnion, Finset.mem_univ, true_and, mem_listR, mem_slotR]
  have h1 : (i 1).val < 1024 := (i 1).isLt
  constructor
  · rintro ⟨s, e, -⟩; exact e
  · intro e
    exact ⟨⟨(i 1).val / 128, by omega⟩, e, by show 128 * ((i 1).val / 128) ≤ (i 1).val; omega, by show (i 1).val < 128 * ((i 1).val / 128) + 128; omega⟩

section IbPts

variable (d : Dev nD) (c : Fin τ.nSC) (j : Fin τ.nSub)

/-- The buffer of row numbers is its two blocks. -/
theorem ib_slots (f : Buf (Elt F) ((ibV).view.loc (V d c j))) :
    ((ibV).view.loc (V d c j) ↦[(ibV).view.set]{fullShare} f : sProp 𝕄)
      = iprop(((slotM 0).view.loc (V d c j) ↦[(slotM 0).view.set]{fullShare} f) ∗ ((slotM 1).view.loc (V d c j) ↦[(slotM 1).view.set]{fullShare} f)) := by
  rw [(Memref.isWhole_whole _).set_eq_univ, set_slotM, set_slotM]
  show ((ibV).view.loc (V d c j) ↦[Finset.univ]{fullShare} f : sProp 𝕄)
    = iprop(((ibV).view.loc (V d c j) ↦[(slotR 0).set]{fullShare} f) ∗ ((ibV).view.loc (V d c j) ↦[(slotR 1).set]{fullShare} f))
  rw [← slots_cover]
  have hu : ((ibV).view.loc (V d c j) ↦[(slotR 0).set ∪ (slotR 1).set]{fullShare} f : sProp 𝕄)
      ⊣⊢ iprop(((ibV).view.loc (V d c j) ↦[(slotR 0).set]{fullShare} f) ∗ ((ibV).view.loc (V d c j) ↦[(slotR 1).set]{fullShare} f)) := pointsTo_union slots_disjoint
  exact equiv_iff.mp ⟨hu.1, hu.2⟩

/-- A block is its eight lists. -/
theorem slot_lists (bb : Fin 2) (f : Buf (Elt F) ((ibV).view.loc (V d c j))) :
    ((slotM bb).view.loc (V d c j) ↦[(slotM bb).view.set]{fullShare} f : sProp 𝕄)
      = bigSep Finset.univ fun s : Fin 8 => (listM bb s).view.loc (V d c j) ↦[(listM bb s).view.set]{fullShare} f := by
  rw [set_slotM, ← lists_cover bb]
  show ((ibV).view.loc (V d c j) ↦[(Finset.univ : Finset (Fin 8)).biUnion (fun s => (listR bb s).set)]{fullShare} f : sProp 𝕄) = _
  rw [pointsTo_biUnion Finset.univ (ℓ := (ibV).view.loc (V d c j)) (fun s => (listR bb s).set) (lists_disjoint bb)]
  exact bigSep_congr fun s _ => by rw [set_listM]

/-- The same, the eight lists written out. -/
theorem slot_lists8 (bb : Fin 2) (f : Buf (Elt F) ((ibV).view.loc (V d c j))) :
    ((slotM bb).view.loc (V d c j) ↦[(slotM bb).view.set]{fullShare} f : sProp 𝕄)
      = iprop(((listM bb 0).view.loc (V d c j) ↦[(listM bb 0).view.set]{fullShare} f) ∗ ((listM bb 1).view.loc (V d c j) ↦[(listM bb 1).view.set]{fullShare} f)
        ∗ ((listM bb 2).view.loc (V d c j) ↦[(listM bb 2).view.set]{fullShare} f) ∗ ((listM bb 3).view.loc (V d c j) ↦[(listM bb 3).view.set]{fullShare} f)
        ∗ ((listM bb 4).view.loc (V d c j) ↦[(listM bb 4).view.set]{fullShare} f) ∗ ((listM bb 5).view.loc (V d c j) ↦[(listM bb 5).view.set]{fullShare} f)
        ∗ ((listM bb 6).view.loc (V d c j) ↦[(listM bb 6).view.set]{fullShare} f) ∗ ((listM bb 7).view.loc (V d c j) ↦[(listM bb 7).view.set]{fullShare} f)) := by
  rw [slot_lists, show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

end IbPts

/-! ## The buffer of gathered rows: two halves, each two quarters -/

/-- Half pp of the buffer of gathered rows: both blocks of 128 rows of slot pp. -/
def halfR : Fin 2 → Rect S2x2x128x128
  | 0 => Rect.unit (s := S2x2x128x128) ![0, 0, 0, 0] S1x2x128x128.size inb_S2x2x128x128_S1x2x128x128_0_0_0_0
  | 1 => Rect.unit (s := S2x2x128x128) ![1, 0, 0, 0] S1x2x128x128.size inb_S2x2x128x128_S1x2x128x128_1_0_0_0
  | ⟨_ + 2, h⟩ => absurd h (by omega)
/-- Quarter s of half pp: block s of 128 rows of slot pp. -/
def quarterR : Fin 2 → Fin 2 → Rect S2x2x128x128
  | 0 => fun
    | 0 => Rect.unit (s := S2x2x128x128) ![0, 0, 0, 0] S1x1x128x128.size inb_S2x2x128x128_S1x1x128x128_0_0_0_0
    | 1 => Rect.unit (s := S2x2x128x128) ![0, 1, 0, 0] S1x1x128x128.size inb_S2x2x128x128_S1x1x128x128_0_1_0_0
    | ⟨_ + 2, h⟩ => absurd h (by omega)
  | 1 => fun
    | 0 => Rect.unit (s := S2x2x128x128) ![1, 0, 0, 0] S1x1x128x128.size inb_S2x2x128x128_S1x1x128x128_1_0_0_0
    | 1 => Rect.unit (s := S2x2x128x128) ![1, 1, 0, 0] S1x1x128x128.size inb_S2x2x128x128_S1x1x128x128_1_1_0_0
    | ⟨_ + 2, h⟩ => absurd h (by omega)
  | ⟨_ + 2, h⟩ => absurd h (by omega)

theorem halfR_stride (pp : Fin 2) : ∀ a, (halfR pp).stride a = 1 := by fin_cases pp <;> exact fun _ => rfl
theorem halfR_shape (pp : Fin 2) : (halfR pp).shape = S1x2x128x128 := by fin_cases pp <;> rfl
theorem quarterR_stride (pp s : Fin 2) : ∀ a, (quarterR pp s).stride a = 1 := by fin_cases pp <;> fin_cases s <;> exact fun _ => rfl
theorem quarterR_shape (pp s : Fin 2) : (quarterR pp s).shape = S1x1x128x128 := by fin_cases pp <;> fin_cases s <;> rfl

/-- Half a buffer of gathered rows, as the task's copies to the result name it. -/
abbrev halfM (pp : Fin 2) : Memref sig .scVector .vmem S2x128x128 .f32 :=
  ((rwV).slice (halfR pp) (halfR_stride pp)).squeeze S2x128x128 (halfR_shape pp ▸ squeezes_S1x2x128x128_S2x128x128)
/-- A block of 128 gathered rows, as the task's gathers name it. -/
abbrev quarterM (pp s : Fin 2) : Memref sig .scVector .vmem S128x128 .f32 :=
  ((rwV).slice (quarterR pp s) (quarterR_stride pp s)).squeeze S128x128 (quarterR_shape pp s ▸ squeezes_S1x1x128x128_S128x128)

theorem halfM_0 : halfM 0 = ((rwV).slice (Rect.unit (s := S2x2x128x128) ![0, 0, 0, 0] S1x2x128x128.size inb_S2x2x128x128_S1x2x128x128_0_0_0_0) (fun _ => rfl)).squeeze S2x128x128 squeezes_S1x2x128x128_S2x128x128 := rfl
theorem halfM_1 : halfM 1 = ((rwV).slice (Rect.unit (s := S2x2x128x128) ![1, 0, 0, 0] S1x2x128x128.size inb_S2x2x128x128_S1x2x128x128_1_0_0_0) (fun _ => rfl)).squeeze S2x128x128 squeezes_S1x2x128x128_S2x128x128 := rfl
theorem quarterM_0_0 : quarterM 0 0 = ((rwV).slice (Rect.unit (s := S2x2x128x128) ![0, 0, 0, 0] S1x1x128x128.size inb_S2x2x128x128_S1x1x128x128_0_0_0_0) (fun _ => rfl)).squeeze S128x128 squeezes_S1x1x128x128_S128x128 := rfl
theorem quarterM_0_1 : quarterM 0 1 = ((rwV).slice (Rect.unit (s := S2x2x128x128) ![0, 1, 0, 0] S1x1x128x128.size inb_S2x2x128x128_S1x1x128x128_0_1_0_0) (fun _ => rfl)).squeeze S128x128 squeezes_S1x1x128x128_S128x128 := rfl
theorem quarterM_1_0 : quarterM 1 0 = ((rwV).slice (Rect.unit (s := S2x2x128x128) ![1, 0, 0, 0] S1x1x128x128.size inb_S2x2x128x128_S1x1x128x128_1_0_0_0) (fun _ => rfl)).squeeze S128x128 squeezes_S1x1x128x128_S128x128 := rfl
theorem quarterM_1_1 : quarterM 1 1 = ((rwV).slice (Rect.unit (s := S2x2x128x128) ![1, 1, 0, 0] S1x1x128x128.size inb_S2x2x128x128_S1x1x128x128_1_1_0_0) (fun _ => rfl)).squeeze S128x128 squeezes_S1x1x128x128_S128x128 := rfl

/-- Which entries a half holds, and which a quarter. -/
theorem mem_halfR (pp : Fin 2) (i : S2x2x128x128.Idx) : i ∈ (halfR pp).set ↔ (i 0).val = pp.val := by
  have h1 : (i 1).val < 2 := (i 1).isLt
  have h2 : (i 2).val < 128 := (i 2).isLt
  have h3 : (i 3).val < 128 := (i 3).isLt
  fin_cases pp
  · exact (mem_unit4 _ _ inb_S2x2x128x128_S1x2x128x128_0_0_0_0 i).trans (show (0 ≤ (i 0).val ∧ (i 0).val < 0 + 1) ∧ (0 ≤ (i 1).val ∧ (i 1).val < 0 + 2)
      ∧ (0 ≤ (i 2).val ∧ (i 2).val < 0 + 128) ∧ (0 ≤ (i 3).val ∧ (i 3).val < 0 + 128) ↔ (i 0).val = 0 by omega)
  · exact (mem_unit4 _ _ inb_S2x2x128x128_S1x2x128x128_1_0_0_0 i).trans (show (1 ≤ (i 0).val ∧ (i 0).val < 1 + 1) ∧ (0 ≤ (i 1).val ∧ (i 1).val < 0 + 2)
      ∧ (0 ≤ (i 2).val ∧ (i 2).val < 0 + 128) ∧ (0 ≤ (i 3).val ∧ (i 3).val < 0 + 128) ↔ (i 0).val = 1 by omega)
theorem mem_quarterR (pp s : Fin 2) (i : S2x2x128x128.Idx) : i ∈ (quarterR pp s).set ↔ (i 0).val = pp.val ∧ (i 1).val = s.val := by
  have h2 : (i 2).val < 128 := (i 2).isLt
  have h3 : (i 3).val < 128 := (i 3).isLt
  fin_cases pp <;> fin_cases s
  · exact (mem_unit4 _ _ inb_S2x2x128x128_S1x1x128x128_0_0_0_0 i).trans (show (0 ≤ (i 0).val ∧ (i 0).val < 0 + 1) ∧ (0 ≤ (i 1).val ∧ (i 1).val < 0 + 1)
      ∧ (0 ≤ (i 2).val ∧ (i 2).val < 0 + 128) ∧ (0 ≤ (i 3).val ∧ (i 3).val < 0 + 128) ↔ (i 0).val = 0 ∧ (i 1).val = 0 by omega)
  · exact (mem_unit4 _ _ inb_S2x2x128x128_S1x1x128x128_0_1_0_0 i).trans (show (0 ≤ (i 0).val ∧ (i 0).val < 0 + 1) ∧ (1 ≤ (i 1).val ∧ (i 1).val < 1 + 1)
      ∧ (0 ≤ (i 2).val ∧ (i 2).val < 0 + 128) ∧ (0 ≤ (i 3).val ∧ (i 3).val < 0 + 128) ↔ (i 0).val = 0 ∧ (i 1).val = 1 by omega)
  · exact (mem_unit4 _ _ inb_S2x2x128x128_S1x1x128x128_1_0_0_0 i).trans (show (1 ≤ (i 0).val ∧ (i 0).val < 1 + 1) ∧ (0 ≤ (i 1).val ∧ (i 1).val < 0 + 1)
      ∧ (0 ≤ (i 2).val ∧ (i 2).val < 0 + 128) ∧ (0 ≤ (i 3).val ∧ (i 3).val < 0 + 128) ↔ (i 0).val = 1 ∧ (i 1).val = 0 by omega)
  · exact (mem_unit4 _ _ inb_S2x2x128x128_S1x1x128x128_1_1_0_0 i).trans (show (1 ≤ (i 0).val ∧ (i 0).val < 1 + 1) ∧ (1 ≤ (i 1).val ∧ (i 1).val < 1 + 1)
      ∧ (0 ≤ (i 2).val ∧ (i 2).val < 0 + 128) ∧ (0 ≤ (i 3).val ∧ (i 3).val < 0 + 128) ↔ (i 0).val = 1 ∧ (i 1).val = 1 by omega)

theorem set_halfM (pp : Fin 2) : (halfM pp).view.set = (halfR pp).set := by
  show (((View.whole (cc0_scratch2 : Ref sig .scVector)).slice (halfR pp)).reshape S2x128x128 _).set = _
  rw [View.set_reshape, View.set_slice_whole]
theorem set_quarterM (pp s : Fin 2) : (quarterM pp s).view.set = (quarterR pp s).set := by
  show (((View.whole (cc0_scratch2 : Ref sig .scVector)).slice (quarterR pp s)).reshape S128x128 _).set = _
  rw [View.set_reshape, View.set_slice_whole]

theorem halves_disjoint : Disjoint (halfR 0).set (halfR 1).set :=
  Finset.disjoint_left.mpr fun i h0 h1 => by
    have e0 : (i 0).val = 0 := (mem_halfR 0 i).mp h0
    have e1 : (i 0).val = 1 := (mem_halfR 1 i).mp h1
    omega
theorem halves_cover : (halfR 0).set ∪ (halfR 1).set = Finset.univ := by
  ext i
  simp only [Finset.mem_union, mem_halfR, Finset.mem_univ, iff_true]
  have h0 : (i 0).val < 2 := (i 0).isLt
  show (i 0).val = 0 ∨ (i 0).val = 1
  omega
theorem quarters_disjoint (pp : Fin 2) : Disjoint (quarterR pp 0).set (quarterR pp 1).set :=
  Finset.disjoint_left.mpr fun i h0 h1 => by
    have e0 : (i 1).val = 0 := ((mem_quarterR pp 0 i).mp h0).2
    have e1 : (i 1).val = 1 := ((mem_quarterR pp 1 i).mp h1).2
    omega
theorem quarters_cover (pp : Fin 2) : (quarterR pp 0).set ∪ (quarterR pp 1).set = (halfR pp).set := by
  ext i
  simp only [Finset.mem_union, mem_quarterR, mem_halfR]
  have h1 : (i 1).val < 2 := (i 1).isLt
  show ((i 0).val = pp.val ∧ (i 1).val = 0) ∨ ((i 0).val = pp.val ∧ (i 1).val = 1) ↔ (i 0).val = pp.val
  omega

section RwPts

variable (d : Dev nD) (c : Fin τ.nSC) (j : Fin τ.nSub)

/-- The buffer of gathered rows is its two halves. -/
theorem rw_halves (f : Buf (Elt F) ((rwV).view.loc (V d c j))) :
    ((rwV).view.loc (V d c j) ↦[(rwV).view.set]{fullShare} f : sProp 𝕄)
      = iprop(((halfM 0).view.loc (V d c j) ↦[(halfM 0).view.set]{fullShare} f) ∗ ((halfM 1).view.loc (V d c j) ↦[(halfM 1).view.set]{fullShare} f)) := by
  rw [(Memref.isWhole_whole _).set_eq_univ, set_halfM, set_halfM]
  show ((rwV).view.loc (V d c j) ↦[Finset.univ]{fullShare} f : sProp 𝕄)
    = iprop(((rwV).view.loc (V d c j) ↦[(halfR 0).set]{fullShare} f) ∗ ((rwV).view.loc (V d c j) ↦[(halfR 1).set]{fullShare} f))
  rw [← halves_cover]
  have hu : ((rwV).view.loc (V d c j) ↦[(halfR 0).set ∪ (halfR 1).set]{fullShare} f : sProp 𝕄)
      ⊣⊢ iprop(((rwV).view.loc (V d c j) ↦[(halfR 0).set]{fullShare} f) ∗ ((rwV).view.loc (V d c j) ↦[(halfR 1).set]{fullShare} f)) := pointsTo_union halves_disjoint
  exact equiv_iff.mp ⟨hu.1, hu.2⟩

/-- A half is its two quarters. -/
theorem half_quarters (pp : Fin 2) (f : Buf (Elt F) ((rwV).view.loc (V d c j))) :
    ((halfM pp).view.loc (V d c j) ↦[(halfM pp).view.set]{fullShare} f : sProp 𝕄)
      = iprop(((quarterM pp 0).view.loc (V d c j) ↦[(quarterM pp 0).view.set]{fullShare} f) ∗ ((quarterM pp 1).view.loc (V d c j) ↦[(quarterM pp 1).view.set]{fullShare} f)) := by
  rw [set_halfM, set_quarterM, set_quarterM]
  show ((rwV).view.loc (V d c j) ↦[(halfR pp).set]{fullShare} f : sProp 𝕄)
    = iprop(((rwV).view.loc (V d c j) ↦[(quarterR pp 0).set]{fullShare} f) ∗ ((rwV).view.loc (V d c j) ↦[(quarterR pp 1).set]{fullShare} f))
  rw [← quarters_cover]
  have hu : ((rwV).view.loc (V d c j) ↦[(quarterR pp 0).set ∪ (quarterR pp 1).set]{fullShare} f : sProp 𝕄)
      ⊣⊢ iprop(((rwV).view.loc (V d c j) ↦[(quarterR pp 0).set]{fullShare} f) ∗ ((rwV).view.loc (V d c j) ↦[(quarterR pp 1).set]{fullShare} f)) := pointsTo_union (quarters_disjoint pp)
  exact equiv_iff.mp ⟨hu.1, hu.2⟩

end RwPts

/-! ## A part of what is held, and the rest -/

/-- Holding a set of an array's elements is holding any part of it and the rest. -/
theorem pts_split {ℓ : Loc nD τ sig} {A B : Finset (Idx ℓ)} (h : B ⊆ A) (q : PosShare TreeShare) (f : Buf (Elt F) ℓ) :
    (ℓ ↦[A]{q} f : sProp 𝕄) = iprop((ℓ ↦[B]{q} f) ∗ ℓ ↦[A \ B]{q} f) := by
  have hu : (ℓ ↦[A]{q} f : sProp 𝕄) ⊣⊢ iprop((ℓ ↦[B]{q} f) ∗ ℓ ↦[A \ B]{q} f) := pointsTo_split_subset h
  exact equiv_iff.mp ⟨hu.1, hu.2⟩

end Cert.Proof.KB

end
-- ==== Proof.BWrapLoops.lean ====
import proofs.«205114_g12446815224155_cont_fleet_488_32_alg».proof.Proof.BWrap
import proofs.«205114_g12446815224155_cont_fleet_488_32_alg».proof.Proof.BSpell
import proofs.«205114_g12446815224155_cont_fleet_488_32_alg».proof.Proof.BPieces

/-!
  The sixteen reduction loops. Each reduces one list of 128 row numbers modulo 3, sixteen words a trip: a trip loads
  sixteen words and stores their remainders where it loaded them. On words between 0 and 2 the remainder is the word, so
  a trip leaves the list as it found it; the list held whole at its contents is each loop's invariant.
-/

set_option maxRecDepth 16384
set_option warn.classDefReducibility false

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}
local notation "𝕄" => MT nD τ sig (HIx 1) (Elt F) ℕ UU ℕ
local notation "iV" => (Memref.whole Cert.Kernel.main_v0_scv : Memref Cert.Kernel.sig Kind.scVector Space.hbm Cert.Kernel.S3276800 EltTy.i32)
local notation "tV" => (Memref.whole Cert.Kernel.main_arg1_scv : Memref Cert.Kernel.sig Kind.scVector Space.hbm Cert.Kernel.S3x128 EltTy.f32)
local notation "oV" => (Memref.whole Cert.Kernel.main_v1_scv : Memref Cert.Kernel.sig Kind.scVector Space.hbm Cert.Kernel.S25600x128x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)

variable [FloatOps F]

/-! ## One trip leaves the list as it found it -/

/-- Every word of list s of block bb is between 0 and 2, read signed. -/
def ListOK (bb : Fin 2) (s : Fin 8) (d : Dev nD) (c : Fin τ.nSC) (j : Fin τ.nSub) (f : Buf (Elt F) ((listM bb s).view.loc (V d c j))) : Prop :=
  ∀ y, 0 ≤ (((listM bb s).view.read (Elt F) f y : BitVec 32)).toInt ∧ (((listM bb s).view.read (Elt F) f y : BitVec 32)).toInt ≤ 2

/-- Sixteen words loaded from inside such a list are between 0 and 2. -/
theorem box_words_ok (bb : Fin 2) (s : Fin 8) (d : Dev nD) (c : Fin τ.nSC) (j : Fin τ.nSub)
    (f : Buf (Elt F) ((listM bb s).view.loc (V d c j))) (hf : ListOK bb s d c j f)
    (box : Rect S2x1024) (hbox : ((ibV).access box).set ⊆ (listM bb s).view.set) :
    ∀ x, 0 ≤ ((((ibV).access box).read (Elt F) f x : BitVec 32)).toInt ∧ ((((ibV).access box).read (Elt F) f x : BitVec 32)).toInt ≤ 2 := by
  intro x
  obtain ⟨y, -, hy⟩ := Finset.mem_map.mp (hbox (View.emb_mem_set _ x))
  have h := hf y
  rw [View.read_apply, hy] at h
  exact h

/-- A trip's store of the reduced words it loaded leaves the contents as they were. -/
theorem trip_fixed (bb : Fin 2) (s : Fin 8) (d : Dev nD) (c : Fin τ.nSC) (j : Fin τ.nSub)
    (f : Buf (Elt F) ((listM bb s).view.loc (V d c j))) (hf : ListOK bb s d c j f)
    (box : Rect S2x1024) (hbox : ((ibV).access box).set ⊆ (listM bb s).view.set)
    (pay : Vec F box.shape .i32 → Vec F box.shape .i32)
    (hpay : ∀ v : Vec F box.shape .i32, (∀ x, 0 ≤ ((v x : BitVec 32)).toInt ∧ ((v x : BitVec 32)).toInt ≤ 2) → pay v = v) :
    View.write (Elt F) ((ibV).access box) f (pay (View.readAt (Elt F) (ibV).view box.toLoadRect f)) Finset.univ = f := by
  have hv := box_words_ok bb s d c j f hf box hbox
  rw [show View.readAt (Elt F) (ibV).view box.toLoadRect f = ((ibV).access box).read (Elt F) f from rfl, hpay _ hv]
  rw [View.write_read_eq_piecewise]
  exact Finset.piecewise_same _ _

/-- A box of sixteen words at (row, col) lies in list s of block bb when row = bb and col … col + 15 lie in 128 s … 128 s + 127. -/
theorem box_sub_list (bb : Fin 2) (s : Fin 8) (off : Fin 2 → ℕ) (inb : ∀ a, off a + S1x16.size a ≤ S2x1024.size a)
    (h0 : off 0 = bb.val) (h1 : 128 * s.val ≤ off 1) (h2 : off 1 + 16 ≤ 128 * s.val + 128) :
    ((ibV).access (Rect.unit (s := S2x1024) off S1x16.size inb)).set ⊆ (listM bb s).view.set := by
  intro i hi
  rw [set_listM, mem_listR]
  have hi' : i ∈ (Rect.unit (s := S2x1024) off S1x16.size inb).set := by
    rwa [show ((ibV).access (Rect.unit (s := S2x1024) off S1x16.size inb)).set = _ from View.set_slice_whole _ _] at hi
  have h := (mem_unit2 _ _ inb i).mp hi'
  have s0 : S1x16.size 0 = 1 := rfl
  have s1 : S1x16.size 1 = 16 := rfl
  rw [s0, s1] at h
  omega

/-- A list of a block whose every word is between 0 and 2 has its words between 0 and 2: a list's word is one of the
    block's. -/
theorem listOK_of_slot (bb : Fin 2) (d : Dev nD) (c : Fin τ.nSC) (j : Fin τ.nSub) (f : Buf (Elt F) ((ibV).view.loc (V d c j)))
    (h : ∀ x, 0 ≤ (((slotM bb).view.read (Elt F) f x : BitVec 32)).toInt ∧ (((slotM bb).view.read (Elt F) f x : BitVec 32)).toInt ≤ 2)
    (s : Fin 8) : ListOK bb s d c j f := by
  intro y
  have hm : (listM bb s).view.emb y ∈ (slotM bb).view.set := by
    rw [set_slotM, mem_slotR]
    have hy := View.emb_mem_set (listM bb s).view y
    rw [set_listM, mem_listR] at hy
    exact hy.1
  obtain ⟨x, -, hx⟩ := Finset.mem_map.mp hm
  have hh := h x
  rw [View.read_apply, hx] at hh
  exact hh

/-! ## Loop 2: list 0 of block 0 -/

/-- The boxes of loop 2 lie in list 0 of block 0. -/
theorem hbox_t2 (k : Fin k0_t2_loop.trips) :
    ((ibV).access (Rect.unit (s := S2x1024) (k0_off3 k) S1x16.size (k0_off3_inb k))).set ⊆ (listM 0 0).view.set := by
  have e := k0_off3_eq k
  have hk : k.val < 8 := k.isLt
  refine box_sub_list 0 0 _ _ (by rw [e]; rfl) ?_ ?_
  · rw [e]; show 128 * 0 ≤ 16 * k.val + 0; omega
  · rw [e]; show 16 * k.val + 0 + 16 ≤ 128 * 0 + 128; omega

/-- The invariant of loop 2: list 0 of block 0 held whole at f. -/
def inv_t2 (d : Dev nD) (L : grid0.Coords) (f : Buf (Elt F) ((listM 0 0).view.loc (V d (cV L) (jV L)))) (_ : ℕ) (_ : Unit) : sProp 𝕄 :=
  (listM 0 0).view.loc (V d (cV L) (jV L)) ↦[(listM 0 0).view.set]{fullShare} f

/-- One trip of loop 2 keeps it, when the list's words are between 0 and 2. -/
theorem step_t2 (d : Dev nD) (L : grid0.Coords) (v5 v6 c0 c1 : BitVec 32) (k1 : Fin k0_t1_loop.trips)
    (f : Buf (Elt F) ((listM 0 0).view.loc (V d (cV L) (jV L)))) (hf : ListOK 0 0 d (cV L) (jV L) f) (k : Fin k0_t2_loop.trips) (acc : Unit) :
    inv_t2 d L f k acc
      ⊢ wp frame (wpE (defs₀ (F := F)) 𝒱₀ (V d (cV L) (jV L)) none) Set.univ
          (k0_t2_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 c0 c1 k1 k acc)
          (inv_t2 d L f (k.val + 1)) := by
  have hbox := hbox_t2 k
  unfold inv_t2
  iintro H
  sl_unfold [k0_t2_body]
  sl_exec
  have e : step_t2.sl.H_w1 d L f k = f :=
    trip_fixed 0 0 d (cV L) (jV L) f hf _ hbox (k0_pay1 (F := F)) (fun v hv => pay1_fixed v hv)
  rw [e]
  sl_step
  iexact H

/-- Loop 2 by its invariant. -/
def loopInv_t2 (d : Dev nD) (L : grid0.Coords) (v5 v6 c0 c1 : BitVec 32) (k1 : Fin k0_t1_loop.trips)
    (f : Buf (Elt F) ((listM 0 0).view.loc (V d (cV L) (jV L)))) (hf : ListOK 0 0 d (cV L) (jV L) f) :
    LoopInv (M := 𝕄) frame (wpE (defs₀ (F := F)) 𝒱₀ (V d (cV L) (jV L)) none) Set.univ k0_t2_loop.lb k0_t2_loop.ub k0_t2_loop.st k0_t2_ok ⟨⟩
      (k0_t2_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 c0 c1 k1) where
  inv := inv_t2 d L f
  step := step_t2 d L v5 v6 c0 c1 k1 f hf

/-! ## Loop 3: list 1 of block 0 -/

/-- The boxes of loop 3 lie in list 1 of block 0. -/
theorem hbox_t3 (k : Fin k0_t3_loop.trips) :
    ((ibV).access (Rect.unit (s := S2x1024) (k0_off4 k) S1x16.size (k0_off4_inb k))).set ⊆ (listM 0 1).view.set := by
  have e := k0_off4_eq k
  have hk : k.val < 8 := k.isLt
  refine box_sub_list 0 1 _ _ (by rw [e]; rfl) ?_ ?_
  · rw [e]; show 128 * 1 ≤ 16 * k.val + 128; omega
  · rw [e]; show 16 * k.val + 128 + 16 ≤ 128 * 1 + 128; omega

/-- The invariant of loop 3: list 1 of block 0 held whole at f. -/
def inv_t3 (d : Dev nD) (L : grid0.Coords) (f : Buf (Elt F) ((listM 0 1).view.loc (V d (cV L) (jV L)))) (_ : ℕ) (_ : Unit) : sProp 𝕄 :=
  (listM 0 1).view.loc (V d (cV L) (jV L)) ↦[(listM 0 1).view.set]{fullShare} f

/-- One trip of loop 3 keeps it, when the list's words are between 0 and 2. -/
theorem step_t3 (d : Dev nD) (L : grid0.Coords) (v5 v6 c0 c1 : BitVec 32) (k1 : Fin k0_t1_loop.trips)
    (f : Buf (Elt F) ((listM 0 1).view.loc (V d (cV L) (jV L)))) (hf : ListOK 0 1 d (cV L) (jV L) f) (k : Fin k0_t3_loop.trips) (acc : Unit) :
    inv_t3 d L f k acc
      ⊢ wp frame (wpE (defs₀ (F := F)) 𝒱₀ (V d (cV L) (jV L)) none) Set.univ
          (k0_t3_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 c0 c1 k1 k acc)
          (inv_t3 d L f (k.val + 1)) := by
  have hbox := hbox_t3 k
  unfold inv_t3
  iintro H
  sl_unfold [k0_t3_body]
  sl_exec
  have e : step_t3.sl.H_w1 d L f k = f :=
    trip_fixed 0 1 d (cV L) (jV L) f hf _ hbox (k0_pay2 (F := F)) (fun v hv => pay2_fixed v hv)
  rw [e]
  sl_step
  iexact H

/-- Loop 3 by its invariant. -/
def loopInv_t3 (d : Dev nD) (L : grid0.Coords) (v5 v6 c0 c1 : BitVec 32) (k1 : Fin k0_t1_loop.trips)
    (f : Buf (Elt F) ((listM 0 1).view.loc (V d (cV L) (jV L)))) (hf : ListOK 0 1 d (cV L) (jV L) f) :
    LoopInv (M := 𝕄) frame (wpE (defs₀ (F := F)) 𝒱₀ (V d (cV L) (jV L)) none) Set.univ k0_t3_loop.lb k0_t3_loop.ub k0_t3_loop.st k0_t3_ok ⟨⟩
      (k0_t3_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 c0 c1 k1) where
  inv := inv_t3 d L f
  step := step_t3 d L v5 v6 c0 c1 k1 f hf

/-! ## Loop 4: list 2 of block 0 -/

/-- The boxes of loop 4 lie in list 2 of block 0. -/
theorem hbox_t4 (k : Fin k0_t4_loop.trips) :
    ((ibV).access (Rect.unit (s := S2x1024) (k0_off6 k) S1x16.size (k0_off6_inb k))).set ⊆ (listM 0 2).view.set := by
  have e := k0_off6_eq k
  have hk : k.val < 8 := k.isLt
  refine box_sub_list 0 2 _ _ (by rw [e]; rfl) ?_ ?_
  · rw [e]; show 128 * 2 ≤ 16 * k.val + 256; omega
  · rw [e]; show 16 * k.val + 256 + 16 ≤ 128 * 2 + 128; omega

/-- The invariant of loop 4: list 2 of block 0 held whole at f. -/
def inv_t4 (d : Dev nD) (L : grid0.Coords) (f : Buf (Elt F) ((listM 0 2).view.loc (V d (cV L) (jV L)))) (_ : ℕ) (_ : Unit) : sProp 𝕄 :=
  (listM 0 2).view.loc (V d (cV L) (jV L)) ↦[(listM 0 2).view.set]{fullShare} f

/-- One trip of loop 4 keeps it, when the list's words are between 0 and 2. -/
theorem step_t4 (d : Dev nD) (L : grid0.Coords) (v5 v6 c0 c1 : BitVec 32) (k1 : Fin k0_t1_loop.trips)
    (f : Buf (Elt F) ((listM 0 2).view.loc (V d (cV L) (jV L)))) (hf : ListOK 0 2 d (cV L) (jV L) f) (k : Fin k0_t4_loop.trips) (acc : Unit) :
    inv_t4 d L f k acc
      ⊢ wp frame (wpE (defs₀ (F := F)) 𝒱₀ (V d (cV L) (jV L)) none) Set.univ
          (k0_t4_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 c0 c1 k1 k acc)
          (inv_t4 d L f (k.val + 1)) := by
  have hbox := hbox_t4 k
  unfold inv_t4
  iintro H
  sl_unfold [k0_t4_body]
  sl_exec
  have e : step_t4.sl.H_w1 d L f k = f :=
    trip_fixed 0 2 d (cV L) (jV L) f hf _ hbox (k0_pay3 (F := F)) (fun v hv => pay3_fixed v hv)
  rw [e]
  sl_step
  iexact H

/-- Loop 4 by its invariant. -/
def loopInv_t4 (d : Dev nD) (L : grid0.Coords) (v5 v6 c0 c1 : BitVec 32) (k1 : Fin k0_t1_loop.trips)
    (f : Buf (Elt F) ((listM 0 2).view.loc (V d (cV L) (jV L)))) (hf : ListOK 0 2 d (cV L) (jV L) f) :
    LoopInv (M := 𝕄) frame (wpE (defs₀ (F := F)) 𝒱₀ (V d (cV L) (jV L)) none) Set.univ k0_t4_loop.lb k0_t4_loop.ub k0_t4_loop.st k0_t4_ok ⟨⟩
      (k0_t4_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 c0 c1 k1) where
  inv := inv_t4 d L f
  step := step_t4 d L v5 v6 c0 c1 k1 f hf

/-! ## Loop 5: list 3 of block 0 -/

/-- The boxes of loop 5 lie in list 3 of block 0. -/
theorem hbox_t5 (k : Fin k0_t5_loop.trips) :
    ((ibV).access (Rect.unit (s := S2x1024) (k0_off8 k) S1x16.size (k0_off8_inb k))).set ⊆ (listM 0 3).view.set := by
  have e := k0_off8_eq k
  have hk : k.val < 8 := k.isLt
  refine box_sub_list 0 3 _ _ (by rw [e]; rfl) ?_ ?_
  · rw [e]; show 128 * 3 ≤ 16 * k.val + 384; omega
  · rw [e]; show 16 * k.val + 384 + 16 ≤ 128 * 3 + 128; omega

/-- The invariant of loop 5: list 3 of block 0 held whole at f. -/
def inv_t5 (d : Dev nD) (L : grid0.Coords) (f : Buf (Elt F) ((listM 0 3).view.loc (V d (cV L) (jV L)))) (_ : ℕ) (_ : Unit) : sProp 𝕄 :=
  (listM 0 3).view.loc (V d (cV L) (jV L)) ↦[(listM 0 3).view.set]{fullShare} f

/-- One trip of loop 5 keeps it, when the list's words are between 0 and 2. -/
theorem step_t5 (d : Dev nD) (L : grid0.Coords) (v5 v6 : BitVec 32) (k1 : Fin k0_t1_loop.trips) (v47 : BitVec 32) (v66 : BitVec 1)
    (f : Buf (Elt F) ((listM 0 3).view.loc (V d (cV L) (jV L)))) (hf : ListOK 0 3 d (cV L) (jV L) f) (k : Fin k0_t5_loop.trips) (acc : Unit) :
    inv_t5 d L f k acc
      ⊢ wp frame (wpE (defs₀ (F := F)) 𝒱₀ (V d (cV L) (jV L)) none) Set.univ
          (k0_t5_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k1 v47 v66 k acc)
          (inv_t5 d L f (k.val + 1)) := by
  have hbox := hbox_t5 k
  unfold inv_t5
  iintro H
  sl_unfold [k0_t5_body]
  sl_exec
  have e : step_t5.sl.H_w1 d L f k = f :=
    trip_fixed 0 3 d (cV L) (jV L) f hf _ hbox (k0_pay4 (F := F)) (fun v hv => pay4_fixed v hv)
  rw [e]
  sl_step
  iexact H

/-- Loop 5 by its invariant. -/
def loopInv_t5 (d : Dev nD) (L : grid0.Coords) (v5 v6 : BitVec 32) (k1 : Fin k0_t1_loop.trips) (v47 : BitVec 32) (v66 : BitVec 1)
    (f : Buf (Elt F) ((listM 0 3).view.loc (V d (cV L) (jV L)))) (hf : ListOK 0 3 d (cV L) (jV L) f) :
    LoopInv (M := 𝕄) frame (wpE (defs₀ (F := F)) 𝒱₀ (V d (cV L) (jV L)) none) Set.univ k0_t5_loop.lb k0_t5_loop.ub k0_t5_loop.st k0_t5_ok ⟨⟩
      (k0_t5_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k1 v47 v66) where
  inv := inv_t5 d L f
  step := step_t5 d L v5 v6 k1 v47 v66 f hf

/-! ## Loop 6: list 4 of block 0 -/

/-- The boxes of loop 6 lie in list 4 of block 0. -/
theorem hbox_t6 (k : Fin k0_t6_loop.trips) :
    ((ibV).access (Rect.unit (s := S2x1024) (k0_off11 k) S1x16.size (k0_off11_inb k))).set ⊆ (listM 0 4).view.set := by
  have e := k0_off11_eq k
  have hk : k.val < 8 := k.isLt
  refine box_sub_list 0 4 _ _ (by rw [e]; rfl) ?_ ?_
  · rw [e]; show 128 * 4 ≤ 16 * k.val + 512; omega
  · rw [e]; show 16 * k.val + 512 + 16 ≤ 128 * 4 + 128; omega

/-- The invariant of loop 6: list 4 of block 0 held whole at f. -/
def inv_t6 (d : Dev nD) (L : grid0.Coords) (f : Buf (Elt F) ((listM 0 4).view.loc (V d (cV L) (jV L)))) (_ : ℕ) (_ : Unit) : sProp 𝕄 :=
  (listM 0 4).view.loc (V d (cV L) (jV L)) ↦[(listM 0 4).view.set]{fullShare} f

/-- One trip of loop 6 keeps it, when the list's words are between 0 and 2. -/
theorem step_t6 (d : Dev nD) (L : grid0.Coords) (v5 v6 : BitVec 32) (k1 : Fin k0_t1_loop.trips) (v47 : BitVec 32) (v66 : BitVec 1)
    (f : Buf (Elt F) ((listM 0 4).view.loc (V d (cV L) (jV L)))) (hf : ListOK 0 4 d (cV L) (jV L) f) (k : Fin k0_t6_loop.trips) (acc : Unit) :
    inv_t6 d L f k acc
      ⊢ wp frame (wpE (defs₀ (F := F)) 𝒱₀ (V d (cV L) (jV L)) none) Set.univ
          (k0_t6_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k1 v47 v66 k acc)
          (inv_t6 d L f (k.val + 1)) := by
  have hbox := hbox_t6 k
  unfold inv_t6
  iintro H
  sl_unfold [k0_t6_body]
  sl_exec
  have e : step_t6.sl.H_w1 d L f k = f :=
    trip_fixed 0 4 d (cV L) (jV L) f hf _ hbox (k0_pay5 (F := F)) (fun v hv => pay5_fixed v hv)
  rw [e]
  sl_step
  iexact H

/-- Loop 6 by its invariant. -/
def loopInv_t6 (d : Dev nD) (L : grid0.Coords) (v5 v6 : BitVec 32) (k1 : Fin k0_t1_loop.trips) (v47 : BitVec 32) (v66 : BitVec 1)
    (f : Buf (Elt F) ((listM 0 4).view.loc (V d (cV L) (jV L)))) (hf : ListOK 0 4 d (cV L) (jV L) f) :
    LoopInv (M := 𝕄) frame (wpE (defs₀ (F := F)) 𝒱₀ (V d (cV L) (jV L)) none) Set.univ k0_t6_loop.lb k0_t6_loop.ub k0_t6_loop.st k0_t6_ok ⟨⟩
      (k0_t6_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k1 v47 v66) where
  inv := inv_t6 d L f
  step := step_t6 d L v5 v6 k1 v47 v66 f hf

/-! ## Loop 7: list 5 of block 0 -/

/-- The boxes of loop 7 lie in list 5 of block 0. -/
theorem hbox_t7 (k : Fin k0_t7_loop.trips) :
    ((ibV).access (Rect.unit (s := S2x1024) (k0_off13 k) S1x16.size (k0_off13_inb k))).set ⊆ (listM 0 5).view.set := by
  have e := k0_off13_eq k
  have hk : k.val < 8 := k.isLt
  refine box_sub_list 0 5 _ _ (by rw [e]; rfl) ?_ ?_
  · rw [e]; show 128 * 5 ≤ 16 * k.val + 640; omega
  · rw [e]; show 16 * k.val + 640 + 16 ≤ 128 * 5 + 128; omega

/-- The invariant of loop 7: list 5 of block 0 held whole at f. -/
def inv_t7 (d : Dev nD) (L : grid0.Coords) (f : Buf (Elt F) ((listM 0 5).view.loc (V d (cV L) (jV L)))) (_ : ℕ) (_ : Unit) : sProp 𝕄 :=
  (listM 0 5).view.loc (V d (cV L) (jV L)) ↦[(listM 0 5).view.set]{fullShare} f

/-- One trip of loop 7 keeps it, when the list's words are between 0 and 2. -/
theorem step_t7 (d : Dev nD) (L : grid0.Coords) (v6 : BitVec 32)
    (f : Buf (Elt F) ((listM 0 5).view.loc (V d (cV L) (jV L)))) (hf : ListOK 0 5 d (cV L) (jV L) f) (k : Fin k0_t7_loop.trips) (acc : Unit) :
    inv_t7 d L f k acc
      ⊢ wp frame (wpE (defs₀ (F := F)) 𝒱₀ (V d (cV L) (jV L)) none) Set.univ
          (k0_t7_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k acc)
          (inv_t7 d L f (k.val + 1)) := by
  have hbox := hbox_t7 k
  unfold inv_t7
  iintro H
  sl_unfold [k0_t7_body]
  sl_exec
  have e : step_t7.sl.H_w1 d L f k = f :=
    trip_fixed 0 5 d (cV L) (jV L) f hf _ hbox (k0_pay6 (F := F)) (fun v hv => pay6_fixed v hv)
  rw [e]
  sl_step
  iexact H

/-- Loop 7 by its invariant. -/
def loopInv_t7 (d : Dev nD) (L : grid0.Coords) (v6 : BitVec 32)
    (f : Buf (Elt F) ((listM 0 5).view.loc (V d (cV L) (jV L)))) (hf : ListOK 0 5 d (cV L) (jV L) f) :
    LoopInv (M := 𝕄) frame (wpE (defs₀ (F := F)) 𝒱₀ (V d (cV L) (jV L)) none) Set.univ k0_t7_loop.lb k0_t7_loop.ub k0_t7_loop.st k0_t7_ok ⟨⟩
      (k0_t7_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6) where
  inv := inv_t7 d L f
  step := step_t7 d L v6 f hf

/-! ## Loop 8: list 6 of block 0 -/

/-- The boxes of loop 8 lie in list 6 of block 0. -/
theorem hbox_t8 (k : Fin k0_t8_loop.trips) :
    ((ibV).access (Rect.unit (s := S2x1024) (k0_off15 k) S1x16.size (k0_off15_inb k))).set ⊆ (listM 0 6).view.set := by
  have e := k0_off15_eq k
  have hk : k.val < 8 := k.isLt
  refine box_sub_list 0 6 _ _ (by rw [e]; rfl) ?_ ?_
  · rw [e]; show 128 * 6 ≤ 16 * k.val + 768; omega
  · rw [e]; show 16 * k.val + 768 + 16 ≤ 128 * 6 + 128; omega

/-- The invariant of loop 8: list 6 of block 0 held whole at f. -/
def inv_t8 (d : Dev nD) (L : grid0.Coords) (f : Buf (Elt F) ((listM 0 6).view.loc (V d (cV L) (jV L)))) (_ : ℕ) (_ : Unit) : sProp 𝕄 :=
  (listM 0 6).view.loc (V d (cV L) (jV L)) ↦[(listM 0 6).view.set]{fullShare} f

/-- One trip of loop 8 keeps it, when the list's words are between 0 and 2. -/
theorem step_t8 (d : Dev nD) (L : grid0.Coords) (v6 : BitVec 32)
    (f : Buf (Elt F) ((listM 0 6).view.loc (V d (cV L) (jV L)))) (hf : ListOK 0 6 d (cV L) (jV L) f) (k : Fin k0_t8_loop.trips) (acc : Unit) :
    inv_t8 d L f k acc
      ⊢ wp frame (wpE (defs₀ (F := F)) 𝒱₀ (V d (cV L) (jV L)) none) Set.univ
          (k0_t8_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k acc)
          (inv_t8 d L f (k.val + 1)) := by
  have hbox := hbox_t8 k
  unfold inv_t8
  iintro H
  sl_unfold [k0_t8_body]
  sl_exec
  have e : step_t8.sl.H_w1 d L f k = f :=
    trip_fixed 0 6 d (cV L) (jV L) f hf _ hbox (k0_pay7 (F := F)) (fun v hv => pay7_fixed v hv)
  rw [e]
  sl_step
  iexact H

/-- Loop 8 by its invariant. -/
def loopInv_t8 (d : Dev nD) (L : grid0.Coords) (v6 : BitVec 32)
    (f : Buf (Elt F) ((listM 0 6).view.loc (V d (cV L) (jV L)))) (hf : ListOK 0 6 d (cV L) (jV L) f) :
    LoopInv (M := 𝕄) frame (wpE (defs₀ (F := F)) 𝒱₀ (V d (cV L) (jV L)) none) Set.univ k0_t8_loop.lb k0_t8_loop.ub k0_t8_loop.st k0_t8_ok ⟨⟩
      (k0_t8_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6) where
  inv := inv_t8 d L f
  step := step_t8 d L v6 f hf

/-! ## Loop 9: list 7 of block 0 -/

/-- The boxes of loop 9 lie in list 7 of block 0. -/
theorem hbox_t9 (k : Fin k0_t9_loop.trips) :
    ((ibV).access (Rect.unit (s := S2x1024) (k0_off16 k) S1x16.size (k0_off16_inb k))).set ⊆ (listM 0 7).view.set := by
  have e := k0_off16_eq k
  have hk : k.val < 8 := k.isLt
  refine box_sub_list 0 7 _ _ (by rw [e]; rfl) ?_ ?_
  · rw [e]; show 128 * 7 ≤ 16 * k.val + 896; omega
  · rw [e]; show 16 * k.val + 896 + 16 ≤ 128 * 7 + 128; omega

/-- The invariant of loop 9: list 7 of block 0 held whole at f. -/
def inv_t9 (d : Dev nD) (L : grid0.Coords) (f : Buf (Elt F) ((listM 0 7).view.loc (V d (cV L) (jV L)))) (_ : ℕ) (_ : Unit) : sProp 𝕄 :=
  (listM 0 7).view.loc (V d (cV L) (jV L)) ↦[(listM 0 7).view.set]{fullShare} f

/-- One trip of loop 9 keeps it, when the list's words are between 0 and 2. -/
theorem step_t9 (d : Dev nD) (L : grid0.Coords) (v6 c0 : BitVec 32)
    (f : Buf (Elt F) ((listM 0 7).view.loc (V d (cV L) (jV L)))) (hf : ListOK 0 7 d (cV L) (jV L) f) (k : Fin k0_t9_loop.trips) (acc : Unit) :
    inv_t9 d L f k acc
      ⊢ wp frame (wpE (defs₀ (F := F)) 𝒱₀ (V d (cV L) (jV L)) none) Set.univ
          (k0_t9_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 c0 k acc)
          (inv_t9 d L f (k.val + 1)) := by
  have hbox := hbox_t9 k
  unfold inv_t9
  iintro H
  sl_unfold [k0_t9_body]
  sl_exec
  have e : step_t9.sl.H_w1 d L f k = f :=
    trip_fixed 0 7 d (cV L) (jV L) f hf _ hbox (k0_pay8 (F := F)) (fun v hv => pay8_fixed v hv)
  rw [e]
  sl_step
  iexact H

/-- Loop 9 by its invariant. -/
def loopInv_t9 (d : Dev nD) (L : grid0.Coords) (v6 c0 : BitVec 32)
    (f : Buf (Elt F) ((listM 0 7).view.loc (V d (cV L) (jV L)))) (hf : ListOK 0 7 d (cV L) (jV L) f) :
    LoopInv (M := 𝕄) frame (wpE (defs₀ (F := F)) 𝒱₀ (V d (cV L) (jV L)) none) Set.univ k0_t9_loop.lb k0_t9_loop.ub k0_t9_loop.st k0_t9_ok ⟨⟩
      (k0_t9_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 c0) where
  inv := inv_t9 d L f
  step := step_t9 d L v6 c0 f hf

/-! ## Loop 10: list 0 of block 1 -/

/-- The boxes of loop 10 lie in list 0 of block 1. -/
theorem hbox_t10 (k : Fin k0_t10_loop.trips) :
    ((ibV).access (Rect.unit (s := S2x1024) (k0_off17 k) S1x16.size (k0_off17_inb k))).set ⊆ (listM 1 0).view.set := by
  have e := k0_off17_eq k
  have hk : k.val < 8 := k.isLt
  refine box_sub_list 1 0 _ _ (by rw [e]; rfl) ?_ ?_
  · rw [e]; show 128 * 0 ≤ 16 * k.val + 0; omega
  · rw [e]; show 16 * k.val + 0 + 16 ≤ 128 * 0 + 128; omega

/-- The invariant of loop 10: list 0 of block 1 held whole at f. -/
def inv_t10 (d : Dev nD) (L : grid0.Coords) (f : Buf (Elt F) ((listM 1 0).view.loc (V d (cV L) (jV L)))) (_ : ℕ) (_ : Unit) : sProp 𝕄 :=
  (listM 1 0).view.loc (V d (cV L) (jV L)) ↦[(listM 1 0).view.set]{fullShare} f

/-- One trip of loop 10 keeps it, when the list's words are between 0 and 2. -/
theorem step_t10 (d : Dev nD) (L : grid0.Coords) (v6 : BitVec 32) (k1 : Fin k0_t1_loop.trips) (v187 c0 : BitVec 32)
    (f : Buf (Elt F) ((listM 1 0).view.loc (V d (cV L) (jV L)))) (hf : ListOK 1 0 d (cV L) (jV L) f) (k : Fin k0_t10_loop.trips) (acc : Unit) :
    inv_t10 d L f k acc
      ⊢ wp frame (wpE (defs₀ (F := F)) 𝒱₀ (V d (cV L) (jV L)) none) Set.univ
          (k0_t10_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187 c0 k acc)
          (inv_t10 d L f (k.val + 1)) := by
  have hbox := hbox_t10 k
  unfold inv_t10
  iintro H
  sl_unfold [k0_t10_body]
  sl_exec
  have e : step_t10.sl.H_w1 d L f k = f :=
    trip_fixed 1 0 d (cV L) (jV L) f hf _ hbox (k0_pay9 (F := F)) (fun v hv => pay9_fixed v hv)
  rw [e]
  sl_step
  iexact H

/-- Loop 10 by its invariant. -/
def loopInv_t10 (d : Dev nD) (L : grid0.Coords) (v6 : BitVec 32) (k1 : Fin k0_t1_loop.trips) (v187 c0 : BitVec 32)
    (f : Buf (Elt F) ((listM 1 0).view.loc (V d (cV L) (jV L)))) (hf : ListOK 1 0 d (cV L) (jV L) f) :
    LoopInv (M := 𝕄) frame (wpE (defs₀ (F := F)) 𝒱₀ (V d (cV L) (jV L)) none) Set.univ k0_t10_loop.lb k0_t10_loop.ub k0_t10_loop.st k0_t10_ok ⟨⟩
      (k0_t10_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187 c0) where
  inv := inv_t10 d L f
  step := step_t10 d L v6 k1 v187 c0 f hf

/-! ## Loop 11: list 1 of block 1 -/

/-- The boxes of loop 11 lie in list 1 of block 1. -/
theorem hbox_t11 (k : Fin k0_t11_loop.trips) :
    ((ibV).access (Rect.unit (s := S2x1024) (k0_off18 k) S1x16.size (k0_off18_inb k))).set ⊆ (listM 1 1).view.set := by
  have e := k0_off18_eq k
  have hk : k.val < 8 := k.isLt
  refine box_sub_list 1 1 _ _ (by rw [e]; rfl) ?_ ?_
  · rw [e]; show 128 * 1 ≤ 16 * k.val + 128; omega
  · rw [e]; show 16 * k.val + 128 + 16 ≤ 128 * 1 + 128; omega

/-- The invariant of loop 11: list 1 of block 1 held whole at f. -/
def inv_t11 (d : Dev nD) (L : grid0.Coords) (f : Buf (Elt F) ((listM 1 1).view.loc (V d (cV L) (jV L)))) (_ : ℕ) (_ : Unit) : sProp 𝕄 :=
  (listM 1 1).view.loc (V d (cV L) (jV L)) ↦[(listM 1 1).view.set]{fullShare} f

/-- One trip of loop 11 keeps it, when the list's words are between 0 and 2. -/
theorem step_t11 (d : Dev nD) (L : grid0.Coords) (v6 : BitVec 32) (k1 : Fin k0_t1_loop.trips) (v187 c0 : BitVec 32)
    (f : Buf (Elt F) ((listM 1 1).view.loc (V d (cV L) (jV L)))) (hf : ListOK 1 1 d (cV L) (jV L) f) (k : Fin k0_t11_loop.trips) (acc : Unit) :
    inv_t11 d L f k acc
      ⊢ wp frame (wpE (defs₀ (F := F)) 𝒱₀ (V d (cV L) (jV L)) none) Set.univ
          (k0_t11_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187 c0 k acc)
          (inv_t11 d L f (k.val + 1)) := by
  have hbox := hbox_t11 k
  unfold inv_t11
  iintro H
  sl_unfold [k0_t11_body]
  sl_exec
  have e : step_t11.sl.H_w1 d L f k = f :=
    trip_fixed 1 1 d (cV L) (jV L) f hf _ hbox (k0_pay10 (F := F)) (fun v hv => pay10_fixed v hv)
  rw [e]
  sl_step
  iexact H

/-- Loop 11 by its invariant. -/
def loopInv_t11 (d : Dev nD) (L : grid0.Coords) (v6 : BitVec 32) (k1 : Fin k0_t1_loop.trips) (v187 c0 : BitVec 32)
    (f : Buf (Elt F) ((listM 1 1).view.loc (V d (cV L) (jV L)))) (hf : ListOK 1 1 d (cV L) (jV L) f) :
    LoopInv (M := 𝕄) frame (wpE (defs₀ (F := F)) 𝒱₀ (V d (cV L) (jV L)) none) Set.univ k0_t11_loop.lb k0_t11_loop.ub k0_t11_loop.st k0_t11_ok ⟨⟩
      (k0_t11_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187 c0) where
  inv := inv_t11 d L f
  step := step_t11 d L v6 k1 v187 c0 f hf

/-! ## Loop 12: list 2 of block 1 -/

/-- The boxes of loop 12 lie in list 2 of block 1. -/
theorem hbox_t12 (k : Fin k0_t12_loop.trips) :
    ((ibV).access (Rect.unit (s := S2x1024) (k0_off20 k) S1x16.size (k0_off20_inb k))).set ⊆ (listM 1 2).view.set := by
  have e := k0_off20_eq k
  have hk : k.val < 8 := k.isLt
  refine box_sub_list 1 2 _ _ (by rw [e]; rfl) ?_ ?_
  · rw [e]; show 128 * 2 ≤ 16 * k.val + 256; omega
  · rw [e]; show 16 * k.val + 256 + 16 ≤ 128 * 2 + 128; omega

/-- The invariant of loop 12: list 2 of block 1 held whole at f. -/
def inv_t12 (d : Dev nD) (L : grid0.Coords) (f : Buf (Elt F) ((listM 1 2).view.loc (V d (cV L) (jV L)))) (_ : ℕ) (_ : Unit) : sProp 𝕄 :=
  (listM 1 2).view.loc (V d (cV L) (jV L)) ↦[(listM 1 2).view.set]{fullShare} f

/-- One trip of loop 12 keeps it, when the list's words are between 0 and 2. -/
theorem step_t12 (d : Dev nD) (L : grid0.Coords) (v6 : BitVec 32) (k1 : Fin k0_t1_loop.trips) (v187 c0 : BitVec 32)
    (f : Buf (Elt F) ((listM 1 2).view.loc (V d (cV L) (jV L)))) (hf : ListOK 1 2 d (cV L) (jV L) f) (k : Fin k0_t12_loop.trips) (acc : Unit) :
    inv_t12 d L f k acc
      ⊢ wp frame (wpE (defs₀ (F := F)) 𝒱₀ (V d (cV L) (jV L)) none) Set.univ
          (k0_t12_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187 c0 k acc)
          (inv_t12 d L f (k.val + 1)) := by
  have hbox := hbox_t12 k
  unfold inv_t12
  iintro H
  sl_unfold [k0_t12_body]
  sl_exec
  have e : step_t12.sl.H_w1 d L f k = f :=
    trip_fixed 1 2 d (cV L) (jV L) f hf _ hbox (k0_pay11 (F := F)) (fun v hv => pay11_fixed v hv)
  rw [e]
  sl_step
  iexact H

/-- Loop 12 by its invariant. -/
def loopInv_t12 (d : Dev nD) (L : grid0.Coords) (v6 : BitVec 32) (k1 : Fin k0_t1_loop.trips) (v187 c0 : BitVec 32)
    (f : Buf (Elt F) ((listM 1 2).view.loc (V d (cV L) (jV L)))) (hf : ListOK 1 2 d (cV L) (jV L) f) :
    LoopInv (M := 𝕄) frame (wpE (defs₀ (F := F)) 𝒱₀ (V d (cV L) (jV L)) none) Set.univ k0_t12_loop.lb k0_t12_loop.ub k0_t12_loop.st k0_t12_ok ⟨⟩
      (k0_t12_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187 c0) where
  inv := inv_t12 d L f
  step := step_t12 d L v6 k1 v187 c0 f hf

/-! ## Loop 13: list 3 of block 1 -/

/-- The boxes of loop 13 lie in list 3 of block 1. -/
theorem hbox_t13 (k : Fin k0_t13_loop.trips) :
    ((ibV).access (Rect.unit (s := S2x1024) (k0_off22 k) S1x16.size (k0_off22_inb k))).set ⊆ (listM 1 3).view.set := by
  have e := k0_off22_eq k
  have hk : k.val < 8 := k.isLt
  refine box_sub_list 1 3 _ _ (by rw [e]; rfl) ?_ ?_
  · rw [e]; show 128 * 3 ≤ 16 * k.val + 384; omega
  · rw [e]; show 16 * k.val + 384 + 16 ≤ 128 * 3 + 128; omega

/-- The invariant of loop 13: list 3 of block 1 held whole at f. -/
def inv_t13 (d : Dev nD) (L : grid0.Coords) (f : Buf (Elt F) ((listM 1 3).view.loc (V d (cV L) (jV L)))) (_ : ℕ) (_ : Unit) : sProp 𝕄 :=
  (listM 1 3).view.loc (V d (cV L) (jV L)) ↦[(listM 1 3).view.set]{fullShare} f

/-- One trip of loop 13 keeps it, when the list's words are between 0 and 2. -/
theorem step_t13 (d : Dev nD) (L : grid0.Coords) (v5 v6 : BitVec 32) (k1 : Fin k0_t1_loop.trips) (v187 : BitVec 32)
    (f : Buf (Elt F) ((listM 1 3).view.loc (V d (cV L) (jV L)))) (hf : ListOK 1 3 d (cV L) (jV L) f) (k : Fin k0_t13_loop.trips) (acc : Unit) :
    inv_t13 d L f k acc
      ⊢ wp frame (wpE (defs₀ (F := F)) 𝒱₀ (V d (cV L) (jV L)) none) Set.univ
          (k0_t13_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k1 v187 k acc)
          (inv_t13 d L f (k.val + 1)) := by
  have hbox := hbox_t13 k
  unfold inv_t13
  iintro H
  sl_unfold [k0_t13_body]
  sl_exec
  have e : step_t13.sl.H_w1 d L f k = f :=
    trip_fixed 1 3 d (cV L) (jV L) f hf _ hbox (k0_pay12 (F := F)) (fun v hv => pay12_fixed v hv)
  rw [e]
  sl_step
  iexact H

/-- Loop 13 by its invariant. -/
def loopInv_t13 (d : Dev nD) (L : grid0.Coords) (v5 v6 : BitVec 32) (k1 : Fin k0_t1_loop.trips) (v187 : BitVec 32)
    (f : Buf (Elt F) ((listM 1 3).view.loc (V d (cV L) (jV L)))) (hf : ListOK 1 3 d (cV L) (jV L) f) :
    LoopInv (M := 𝕄) frame (wpE (defs₀ (F := F)) 𝒱₀ (V d (cV L) (jV L)) none) Set.univ k0_t13_loop.lb k0_t13_loop.ub k0_t13_loop.st k0_t13_ok ⟨⟩
      (k0_t13_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k1 v187) where
  inv := inv_t13 d L f
  step := step_t13 d L v5 v6 k1 v187 f hf

/-! ## Loop 14: list 4 of block 1 -/

/-- The boxes of loop 14 lie in list 4 of block 1. -/
theorem hbox_t14 (k : Fin k0_t14_loop.trips) :
    ((ibV).access (Rect.unit (s := S2x1024) (k0_off25 k) S1x16.size (k0_off25_inb k))).set ⊆ (listM 1 4).view.set := by
  have e := k0_off25_eq k
  have hk : k.val < 8 := k.isLt
  refine box_sub_list 1 4 _ _ (by rw [e]; rfl) ?_ ?_
  · rw [e]; show 128 * 4 ≤ 16 * k.val + 512; omega
  · rw [e]; show 16 * k.val + 512 + 16 ≤ 128 * 4 + 128; omega

/-- The invariant of loop 14: list 4 of block 1 held whole at f. -/
def inv_t14 (d : Dev nD) (L : grid0.Coords) (f : Buf (Elt F) ((listM 1 4).view.loc (V d (cV L) (jV L)))) (_ : ℕ) (_ : Unit) : sProp 𝕄 :=
  (listM 1 4).view.loc (V d (cV L) (jV L)) ↦[(listM 1 4).view.set]{fullShare} f

/-- One trip of loop 14 keeps it, when the list's words are between 0 and 2. -/
theorem step_t14 (d : Dev nD) (L : grid0.Coords) (v5 v6 : BitVec 32) (k1 : Fin k0_t1_loop.trips) (v187 : BitVec 32)
    (f : Buf (Elt F) ((listM 1 4).view.loc (V d (cV L) (jV L)))) (hf : ListOK 1 4 d (cV L) (jV L) f) (k : Fin k0_t14_loop.trips) (acc : Unit) :
    inv_t14 d L f k acc
      ⊢ wp frame (wpE (defs₀ (F := F)) 𝒱₀ (V d (cV L) (jV L)) none) Set.univ
          (k0_t14_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k1 v187 k acc)
          (inv_t14 d L f (k.val + 1)) := by
  have hbox := hbox_t14 k
  unfold inv_t14
  iintro H
  sl_unfold [k0_t14_body]
  sl_exec
  have e : step_t14.sl.H_w1 d L f k = f :=
    trip_fixed 1 4 d (cV L) (jV L) f hf _ hbox (k0_pay13 (F := F)) (fun v hv => pay13_fixed v hv)
  rw [e]
  sl_step
  iexact H

/-- Loop 14 by its invariant. -/
def loopInv_t14 (d : Dev nD) (L : grid0.Coords) (v5 v6 : BitVec 32) (k1 : Fin k0_t1_loop.trips) (v187 : BitVec 32)
    (f : Buf (Elt F) ((listM 1 4).view.loc (V d (cV L) (jV L)))) (hf : ListOK 1 4 d (cV L) (jV L) f) :
    LoopInv (M := 𝕄) frame (wpE (defs₀ (F := F)) 𝒱₀ (V d (cV L) (jV L)) none) Set.univ k0_t14_loop.lb k0_t14_loop.ub k0_t14_loop.st k0_t14_ok ⟨⟩
      (k0_t14_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k1 v187) where
  inv := inv_t14 d L f
  step := step_t14 d L v5 v6 k1 v187 f hf

/-! ## Loop 15: list 5 of block 1 -/

/-- The boxes of loop 15 lie in list 5 of block 1. -/
theorem hbox_t15 (k : Fin k0_t15_loop.trips) :
    ((ibV).access (Rect.unit (s := S2x1024) (k0_off26 k) S1x16.size (k0_off26_inb k))).set ⊆ (listM 1 5).view.set := by
  have e := k0_off26_eq k
  have hk : k.val < 8 := k.isLt
  refine box_sub_list 1 5 _ _ (by rw [e]; rfl) ?_ ?_
  · rw [e]; show 128 * 5 ≤ 16 * k.val + 640; omega
  · rw [e]; show 16 * k.val + 640 + 16 ≤ 128 * 5 + 128; omega

/-- The invariant of loop 15: list 5 of block 1 held whole at f. -/
def inv_t15 (d : Dev nD) (L : grid0.Coords) (f : Buf (Elt F) ((listM 1 5).view.loc (V d (cV L) (jV L)))) (_ : ℕ) (_ : Unit) : sProp 𝕄 :=
  (listM 1 5).view.loc (V d (cV L) (jV L)) ↦[(listM 1 5).view.set]{fullShare} f

/-- One trip of loop 15 keeps it, when the list's words are between 0 and 2. -/
theorem step_t15 (d : Dev nD) (L : grid0.Coords) (v6 : BitVec 32) (k1 : Fin k0_t1_loop.trips) (v187 : BitVec 32)
    (f : Buf (Elt F) ((listM 1 5).view.loc (V d (cV L) (jV L)))) (hf : ListOK 1 5 d (cV L) (jV L) f) (k : Fin k0_t15_loop.trips) (acc : Unit) :
    inv_t15 d L f k acc
      ⊢ wp frame (wpE (defs₀ (F := F)) 𝒱₀ (V d (cV L) (jV L)) none) Set.univ
          (k0_t15_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187 k acc)
          (inv_t15 d L f (k.val + 1)) := by
  have hbox := hbox_t15 k
  unfold inv_t15
  iintro H
  sl_unfold [k0_t15_body]
  sl_exec
  have e : step_t15.sl.H_w1 d L f k = f :=
    trip_fixed 1 5 d (cV L) (jV L) f hf _ hbox (k0_pay14 (F := F)) (fun v hv => pay14_fixed v hv)
  rw [e]
  sl_step
  iexact H

/-- Loop 15 by its invariant. -/
def loopInv_t15 (d : Dev nD) (L : grid0.Coords) (v6 : BitVec 32) (k1 : Fin k0_t1_loop.trips) (v187 : BitVec 32)
    (f : Buf (Elt F) ((listM 1 5).view.loc (V d (cV L) (jV L)))) (hf : ListOK 1 5 d (cV L) (jV L) f) :
    LoopInv (M := 𝕄) frame (wpE (defs₀ (F := F)) 𝒱₀ (V d (cV L) (jV L)) none) Set.univ k0_t15_loop.lb k0_t15_loop.ub k0_t15_loop.st k0_t15_ok ⟨⟩
      (k0_t15_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187) where
  inv := inv_t15 d L f
  step := step_t15 d L v6 k1 v187 f hf

/-! ## Loop 16: list 6 of block 1 -/

/-- The boxes of loop 16 lie in list 6 of block 1. -/
theorem hbox_t16 (k : Fin k0_t16_loop.trips) :
    ((ibV).access (Rect.unit (s := S2x1024) (k0_off27 k) S1x16.size (k0_off27_inb k))).set ⊆ (listM 1 6).view.set := by
  have e := k0_off27_eq k
  have hk : k.val < 8 := k.isLt
  refine box_sub_list 1 6 _ _ (by rw [e]; rfl) ?_ ?_
  · rw [e]; show 128 * 6 ≤ 16 * k.val + 768; omega
  · rw [e]; show 16 * k.val + 768 + 16 ≤ 128 * 6 + 128; omega

/-- The invariant of loop 16: list 6 of block 1 held whole at f. -/
def inv_t16 (d : Dev nD) (L : grid0.Coords) (f : Buf (Elt F) ((listM 1 6).view.loc (V d (cV L) (jV L)))) (_ : ℕ) (_ : Unit) : sProp 𝕄 :=
  (listM 1 6).view.loc (V d (cV L) (jV L)) ↦[(listM 1 6).view.set]{fullShare} f

/-- One trip of loop 16 keeps it, when the list's words are between 0 and 2. -/
theorem step_t16 (d : Dev nD) (L : grid0.Coords)
    (f : Buf (Elt F) ((listM 1 6).view.loc (V d (cV L) (jV L)))) (hf : ListOK 1 6 d (cV L) (jV L) f) (k : Fin k0_t16_loop.trips) (acc : Unit) :
    inv_t16 d L f k acc
      ⊢ wp frame (wpE (defs₀ (F := F)) 𝒱₀ (V d (cV L) (jV L)) none) Set.univ
          (k0_t16_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 k acc)
          (inv_t16 d L f (k.val + 1)) := by
  have hbox := hbox_t16 k
  unfold inv_t16
  iintro H
  sl_unfold [k0_t16_body]
  sl_exec
  have e : step_t16.sl.H_w1 d L f k = f :=
    trip_fixed 1 6 d (cV L) (jV L) f hf _ hbox (k0_pay15 (F := F)) (fun v hv => pay15_fixed v hv)
  rw [e]
  sl_step
  iexact H

/-- Loop 16 by its invariant. -/
def loopInv_t16 (d : Dev nD) (L : grid0.Coords)
    (f : Buf (Elt F) ((listM 1 6).view.loc (V d (cV L) (jV L)))) (hf : ListOK 1 6 d (cV L) (jV L) f) :
    LoopInv (M := 𝕄) frame (wpE (defs₀ (F := F)) 𝒱₀ (V d (cV L) (jV L)) none) Set.univ k0_t16_loop.lb k0_t16_loop.ub k0_t16_loop.st k0_t16_ok ⟨⟩
      (k0_t16_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0) where
  inv := inv_t16 d L f
  step := step_t16 d L f hf

/-! ## Loop 17: list 7 of block 1 -/

/-- The boxes of loop 17 lie in list 7 of block 1. -/
theorem hbox_t17 (k : Fin k0_t17_loop.trips) :
    ((ibV).access (Rect.unit (s := S2x1024) (k0_off28 k) S1x16.size (k0_off28_inb k))).set ⊆ (listM 1 7).view.set := by
  have e := k0_off28_eq k
  have hk : k.val < 8 := k.isLt
  refine box_sub_list 1 7 _ _ (by rw [e]; rfl) ?_ ?_
  · rw [e]; show 128 * 7 ≤ 16 * k.val + 896; omega
  · rw [e]; show 16 * k.val + 896 + 16 ≤ 128 * 7 + 128; omega

/-- The invariant of loop 17: list 7 of block 1 held whole at f. -/
def inv_t17 (d : Dev nD) (L : grid0.Coords) (f : Buf (Elt F) ((listM 1 7).view.loc (V d (cV L) (jV L)))) (_ : ℕ) (_ : Unit) : sProp 𝕄 :=
  (listM 1 7).view.loc (V d (cV L) (jV L)) ↦[(listM 1 7).view.set]{fullShare} f

/-- One trip of loop 17 keeps it, when the list's words are between 0 and 2. -/
theorem step_t17 (d : Dev nD) (L : grid0.Coords) (v6 : BitVec 32) (k1 : Fin k0_t1_loop.trips) (v187 : BitVec 32)
    (f : Buf (Elt F) ((listM 1 7).view.loc (V d (cV L) (jV L)))) (hf : ListOK 1 7 d (cV L) (jV L) f) (k : Fin k0_t17_loop.trips) (acc : Unit) :
    inv_t17 d L f k acc
      ⊢ wp frame (wpE (defs₀ (F := F)) 𝒱₀ (V d (cV L) (jV L)) none) Set.univ
          (k0_t17_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187 k acc)
          (inv_t17 d L f (k.val + 1)) := by
  have hbox := hbox_t17 k
  unfold inv_t17
  iintro H
  sl_unfold [k0_t17_body]
  sl_exec
  have e : step_t17.sl.H_w1 d L f k = f :=
    trip_fixed 1 7 d (cV L) (jV L) f hf _ hbox (k0_pay16 (F := F)) (fun v hv => pay16_fixed v hv)
  rw [e]
  sl_step
  iexact H

/-- Loop 17 by its invariant. -/
def loopInv_t17 (d : Dev nD) (L : grid0.Coords) (v6 : BitVec 32) (k1 : Fin k0_t1_loop.trips) (v187 : BitVec 32)
    (f : Buf (Elt F) ((listM 1 7).view.loc (V d (cV L) (jV L)))) (hf : ListOK 1 7 d (cV L) (jV L) f) :
    LoopInv (M := 𝕄) frame (wpE (defs₀ (F := F)) 𝒱₀ (V d (cV L) (jV L)) none) Set.univ k0_t17_loop.lb k0_t17_loop.ub k0_t17_loop.st k0_t17_ok ⟨⟩
      (k0_t17_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v6 k1 v187) where
  inv := inv_t17 d L f
  step := step_t17 d L v6 k1 v187 f hf

end Cert.Proof.KB

end
-- ==== Proof.BGather.lean ====
import proofs.«205114_g12446815224155_cont_fleet_488_32_alg».proof.Proof.Spec
import Idealize.ShloMosaic.Lib.SparseCore.Stream
import Idealize.ShloMosaic.Lib.ValueIdx

/-!
  What one indirect gather delivers, read at an index. The source is a table of 3 rows of 128 entries, the offsets a
  list of 128 row numbers each between 0 and 2, the destination 128 rows of 128 entries: row r of the destination is
  the table's row named by word r of the list. When the list is a chunk of 128 consecutive words of the flat list of
  row numbers, starting at 128 b, the destination is block b of the lookup on the flat arrays.
-/

noncomputable section

namespace Cert.Proof.KB

open Idealize.ShloMosaic Idealize.ShloMosaic.ValueIdx

variable {F : FTy → Type}

/-- A list of row numbers each between 0 and 2 names rows of the table: what the gather's rule asks of the list. -/
theorem gather_hin (hg : (⟨2, ![3, 128]⟩ : Shape).Gathers 0 ⟨2, ![128, 128]⟩) (w : (⟨1, ![128]⟩ : Shape).Idx → BitVec 32)
    (H : ∀ x, 0 ≤ (w x).toInt ∧ (w x).toInt ≤ 2) : ∀ x, (w x).toNat < (⟨2, ![3, 128]⟩ : Shape).size hg.axis := fun x => by
  have h := Cert.Spec.rowOf_val (H x).1 (H x).2
  have h3 : (Cert.Spec.rowOf (w x)).val < 3 := (Cert.Spec.rowOf (w x)).isLt
  show (w x).toNat < 3
  omega

/-- The word of a list of 128 at row-major position r is word r. -/
theorem rowMajor_symm_128 {n : Nat} (k : Fin n) (h : n = (⟨1, ![128]⟩ : Shape).numel) (r : Fin 128) (hk : k.val = r.val) :
    (⟨1, ![128]⟩ : Shape).rowMajor.symm (k.cast h) = ix1 r := by
  rw [Equiv.symm_apply_eq]
  refine Fin.ext ?_
  rw [Shape.rowMajor_val_one]
  exact hk

/-- THE GATHER READ AT (r, q): the table's entry in column q of the row word r of the list names. -/
theorem gatherPayload_apply (hg : (⟨2, ![3, 128]⟩ : Shape).Gathers 0 ⟨2, ![128, 128]⟩)
    (tab : (⟨2, ![3, 128]⟩ : Shape).Idx → Elt F .f32) (w : (⟨1, ![128]⟩ : Shape).Idx → BitVec 32)
    (hn : (⟨1, ![128]⟩ : Shape).numel = (⟨2, ![128, 128]⟩ : Shape).size hg.axis')
    (hin : ∀ x, (w x).toNat < (⟨2, ![3, 128]⟩ : Shape).size hg.axis)
    (H : ∀ x, 0 ≤ (w x).toInt ∧ (w x).toInt ≤ 2) (r q : Fin 128) :
    SparseCore.gatherPayload (F := F) hg tab (SparseCore.rows (F := F) w hn hin) (ix2 r q)
      = tab (ix2 (Cert.Spec.rowOf (w (ix1 r))) q) := by
  unfold SparseCore.gatherPayload
  congr 1
  funext b
  refine Fin.ext ?_
  match b with
  | ⟨0, hb⟩ =>
    have e : (⟨0, hb⟩ : Fin (⟨2, ![3, 128]⟩ : Shape).rank) = hg.axis := rfl
    rw [e, Shape.Gathers.idx_axis]
    show (w ((⟨1, ![128]⟩ : Shape).rowMajor.symm ((r : Fin 128).cast hn.symm))).toNat = (Cert.Spec.rowOf (w (ix1 r))).val
    rw [rowMajor_symm_128 _ hn.symm r rfl, Cert.Spec.rowOf_val (H _).1 (H _).2]
  | ⟨1, hb⟩ =>
    rw [Shape.Gathers.idx_of_ne hg _ _ ⟨1, hb⟩ (show (1 : Nat) ≠ 0 from Nat.one_ne_zero)]
    rfl

/-- THE GATHER OF A CHUNK: when the list is words 128 b … 128 b + 127 of the flat list of row numbers, the destination
    is block b of the lookup on the flat arrays. -/
theorem gatherPayload_chunk (hg : (⟨2, ![3, 128]⟩ : Shape).Gathers 0 ⟨2, ![128, 128]⟩)
    (tab : (⟨2, ![3, 128]⟩ : Shape).Idx → Elt F .f32) (fi : (⟨1, ![3276800]⟩ : Shape).Idx → BitVec 32)
    (w : (⟨1, ![128]⟩ : Shape).Idx → BitVec 32)
    (hn : (⟨1, ![128]⟩ : Shape).numel = (⟨2, ![128, 128]⟩ : Shape).size hg.axis')
    (hin : ∀ x, (w x).toNat < (⟨2, ![3, 128]⟩ : Shape).size hg.axis)
    (H : ∀ x, 0 ≤ (w x).toInt ∧ (w x).toInt ≤ 2) (b : Fin 25600)
    (hw : ∀ r : Fin 128, w (ix1 r) = fi (ix1 ⟨b.val * 128 + r.val, by have := b.isLt; have := r.isLt; omega⟩))
    (r q : Fin 128) :
    SparseCore.gatherPayload (F := F) hg tab (SparseCore.rows (F := F) w hn hin) (ix2 r q)
      = Cert.Spec.look fi tab (ix3 b r q) := by
  rw [gatherPayload_apply hg tab w hn hin H r q, Cert.Spec.look_apply, hw r]

/-- The same with the chunk's start as a number p0 = 128 b and the list's words given at p0 + r. -/
theorem gatherPayload_chunk_at (hg : (⟨2, ![3, 128]⟩ : Shape).Gathers 0 ⟨2, ![128, 128]⟩)
    (tab : (⟨2, ![3, 128]⟩ : Shape).Idx → Elt F .f32) (fi : (⟨1, ![3276800]⟩ : Shape).Idx → BitVec 32)
    (w : (⟨1, ![128]⟩ : Shape).Idx → BitVec 32)
    (hn : (⟨1, ![128]⟩ : Shape).numel = (⟨2, ![128, 128]⟩ : Shape).size hg.axis')
    (hin : ∀ x, (w x).toNat < (⟨2, ![3, 128]⟩ : Shape).size hg.axis)
    (H : ∀ x, 0 ≤ (w x).toInt ∧ (w x).toInt ≤ 2) (b : Fin 25600) (p0 : Nat) (hp0 : p0 = 128 * b.val)
    (hw : ∀ (r : Fin 128) (h : p0 + r.val < 3276800), w (ix1 r) = fi (ix1 ⟨p0 + r.val, h⟩))
    (r q : Fin 128) :
    SparseCore.gatherPayload (F := F) hg tab (SparseCore.rows (F := F) w hn hin) (ix2 r q)
      = Cert.Spec.look fi tab (ix3 b r q) := by
  refine gatherPayload_chunk hg tab fi w hn hin H b (fun r' => ?_) r q
  have hb := b.isLt
  have hr := r'.isLt
  have h : p0 + r'.val < 3276800 := by omega
  rw [hw r' h]
  congr 2
  refine Fin.ext ?_
  show p0 + r'.val = b.val * 128 + r'.val
  omega

end Cert.Proof.KB

end
-- ==== Proof.BOut.lean ====
import proofs.«205114_g12446815224155_cont_fleet_488_32_alg».proof.Proof.BSpell

/-!
  The result array's bookkeeping. A worker owns 800 consecutive blocks of the result; every copy out of the tile writes
  a pair of consecutive blocks. A pair is the elements whose block number is one of its two; a worker's 800 blocks are
  its 400 pairs, disjoint, so holding the 400 pairs is holding the worker's blocks, and one pair comes off any region
  that contains it.
-/

set_option maxRecDepth 16384

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "oV" => (Memref.whole Cert.Kernel.main_v1_scv : Memref Cert.Kernel.sig Kind.scVector Space.hbm Cert.Kernel.S25600x128x128 EltTy.f32)

/-! ## A pair of blocks -/

/-- Blocks b and b + 1 of the result, as a copy's destination names them. -/
abbrev pairM (b : ℕ) (hb : ∀ a, (![b, 0, 0] : Fin 3 → ℕ) a + S2x128x128.size a ≤ S25600x128x128.size a) :
    Memref sig .scVector .hbm S2x128x128 .f32 :=
  (oV).slice (Rect.unit (s := S25600x128x128) ![b, 0, 0] S2x128x128.size hb) (fun _ => rfl)

/-- A pair of blocks inside the result lies inside it on every axis. -/
theorem pair_inb {b : ℕ} (h : b + 2 ≤ 25600) : ∀ a, (![b, 0, 0] : Fin 3 → ℕ) a + S2x128x128.size a ≤ S25600x128x128.size a := fun a =>
  match a with
  | ⟨0, _⟩ => h
  | ⟨1, _⟩ => show (0 : ℕ) + 128 ≤ 128 from Nat.le_refl _
  | ⟨2, _⟩ => show (0 : ℕ) + 128 ≤ 128 from Nat.le_refl _

/-- The pair's elements: those of block b or b + 1. -/
theorem mem_pairM {b : ℕ} {hb : ∀ a, (![b, 0, 0] : Fin 3 → ℕ) a + S2x128x128.size a ≤ S25600x128x128.size a} {i : S25600x128x128.Idx} :
    i ∈ (pairM b hb).view.set ↔ b ≤ (i 0).val ∧ (i 0).val < b + 2 := by
  show i ∈ ((View.whole main_v1_scv).slice (Rect.unit (s := S25600x128x128) ![b, 0, 0] S2x128x128.size hb)).set ↔ _
  rw [View.set_slice_whole, Rect.mem_set_unit]
  constructor
  · intro h; exact h 0
  · intro h a
    match a with
    | ⟨0, _⟩ => exact h
    | ⟨1, _⟩ => exact ⟨Nat.zero_le _, by have h1 : (i 1).val < 128 := (i 1).isLt; show (i 1).val < 0 + 128; omega⟩
    | ⟨2, _⟩ => exact ⟨Nat.zero_le _, by have h2 : (i 2).val < 128 := (i 2).isLt; show (i 2).val < 0 + 128; omega⟩

/-- A worker's elements: those of its 800 blocks. -/
theorem mem_oSet {w : Fin 32} {i : S25600x128x128.Idx} :
    i ∈ oSet w ↔ 800 * w.val ≤ (i 0).val ∧ (i 0).val < 800 * w.val + 800 := by
  show i ∈ ((View.whole main_v1_scv).slice (oPart w)).set ↔ _
  rw [View.set_slice_whole, Rect.mem_set_unit]
  constructor
  · intro h
    have h0 := h 0
    have e1 : S25600x128x128.partIx 0 w.val 0 = w.val := rfl
    have e2 : S25600x128x128.partSize 0 32 0 = 800 := rfl
    rw [e1, e2] at h0
    omega
  · intro h a
    match a with
    | ⟨0, _⟩ =>
      show w.val * 800 ≤ (i 0).val ∧ (i 0).val < w.val * 800 + 800
      omega
    | ⟨1, _⟩ => exact ⟨Nat.zero_le _, by have h1 : (i 1).val < 128 := (i 1).isLt; show (i 1).val < 0 * 128 + 128; omega⟩
    | ⟨2, _⟩ => exact ⟨Nat.zero_le _, by have h2 : (i 2).val < 128 := (i 2).isLt; show (i 2).val < 0 * 128 + 128; omega⟩

/-! ## A worker's 400 pairs -/

/-- Pair p of worker w lies inside the result. -/
theorem pairW_inb (w : Fin 32) (p : Fin 400) :
    ∀ a, (![800 * w.val + 2 * p.val, 0, 0] : Fin 3 → ℕ) a + S2x128x128.size a ≤ S25600x128x128.size a :=
  pair_inb (by have := w.isLt; have := p.isLt; omega)

/-- The elements of worker w's pair p. -/
abbrev pairSet (w : Fin 32) (p : Fin 400) : Finset S25600x128x128.Idx := (pairM (800 * w.val + 2 * p.val) (pairW_inb w p)).view.set

theorem pairSet_disjoint (w : Fin 32) {p p' : Fin 400} (h : p ≠ p') : Disjoint (pairSet w p) (pairSet w p') := by
  rw [Finset.disjoint_left]
  intro i hi hi'
  have h1 := mem_pairM.mp hi
  have h2 := mem_pairM.mp hi'
  exact h (Fin.ext (by omega))

theorem biUnion_pairSet (w : Fin 32) : (Finset.univ : Finset (Fin 400)).biUnion (pairSet w) = oSet w := by
  ext i
  rw [Finset.mem_biUnion, mem_oSet]
  constructor
  · rintro ⟨p, -, hp⟩
    have h1 := mem_pairM.mp hp
    have := p.isLt
    omega
  · intro h
    refine ⟨⟨((i 0).val - 800 * w.val) / 2, by omega⟩, Finset.mem_univ _, mem_pairM.mpr ?_⟩
    show 800 * w.val + 2 * (((i 0).val - 800 * w.val) / 2) ≤ (i 0).val ∧ (i 0).val < 800 * w.val + 2 * (((i 0).val - 800 * w.val) / 2) + 2
    omega

/-- Holding a worker's 400 pairs is holding its blocks. -/
theorem bigSep_pairs (d : Dev nD) (w : Fin 32) (f : Buf (Elt F) (oLoc d)) :
    (bigSep Finset.univ fun p : Fin 400 => (oLoc d ↦[pairSet w p]{fullShare} f : sProp 𝕄)) = (oLoc d ↦[oSet w]{fullShare} f) := by
  rw [← pointsTo_biUnion Finset.univ (ℓ := oLoc d) (pairSet w) (fun p _ p' _ h => pairSet_disjoint w h), biUnion_pairSet]

/-- One pair comes off any region that contains it, at any share. -/
theorem pair_split (d : Dev nD) {b : ℕ} {hb : ∀ a, (![b, 0, 0] : Fin 3 → ℕ) a + S2x128x128.size a ≤ S25600x128x128.size a}
    {R : Finset S25600x128x128.Idx} (h : (pairM b hb).view.set ⊆ R) (q : PosShare TreeShare) (f : Buf (Elt F) (oLoc d)) :
    (oLoc d ↦[R]{q} f : sProp 𝕄) = iprop((oLoc d ↦[(pairM b hb).view.set]{q} f) ∗ (oLoc d ↦[R \ (pairM b hb).view.set]{q} f)) :=
  BI.equiv_iff.mp ⟨(pointsTo_split_subset h).1, (pointsTo_split_subset h).2⟩

/-- A pair's contents may be rewritten to anything that agrees with them on the pair. -/
theorem pair_congr (d : Dev nD) {b : ℕ} {hb : ∀ a, (![b, 0, 0] : Fin 3 → ℕ) a + S2x128x128.size a ≤ S25600x128x128.size a}
    (q : PosShare TreeShare) {g g' : Buf (Elt F) (oLoc d)} (h : ∀ i ∈ (pairM b hb).view.set, g i = g' i) :
    (oLoc d ↦[(pairM b hb).view.set]{q} g : sProp 𝕄) = (oLoc d ↦[(pairM b hb).view.set]{q} g') :=
  pointsTo_congr h

/-- The result array as the tile's copies name it, over any set of its elements. -/
theorem pts_oV_sub (d : Dev nD) (c : Fin τ.nSC) (j : Fin τ.nSub) (Sx : Finset S25600x128x128.Idx) (q : PosShare TreeShare) (f : Buf (Elt F) (oLoc d)) :
    ((oV).view.loc (V d c j) ↦[Sx]{q} f : sProp 𝕄) = (oLoc d ↦[Sx]{q} f) := rfl

end Cert.Proof.KB

end
-- ==== Proof.BJoin.lean ====
/-
  Joining what two gathers left. A copy-out reads a half of the rows buffer, which two gathers filled a quarter each:
  the two quarters, at whatever each holds, are the half at the contents that is the first quarter's on its elements and
  the second's elsewhere. And a pair of result blocks named through a printed offset is the pair at that offset's value.
-/
import proofs.«205114_g12446815224155_cont_fleet_488_32_alg».proof.Proof.BPieces
import proofs.«205114_g12446815224155_cont_fleet_488_32_alg».proof.Proof.BOut

set_option maxRecDepth 16384

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "oV" => (Memref.whole Cert.Kernel.main_v1_scv : Memref Cert.Kernel.sig Kind.scVector Space.hbm Cert.Kernel.S25600x128x128 EltTy.f32)
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)

/-- The two quarters of a half share no element, said of the quarters as the gathers name them. -/
theorem quarterM_disjoint (pp : Fin 2) : Disjoint (quarterM pp 0).view.set (quarterM pp 1).view.set := by
  rw [set_quarterM, set_quarterM]; exact quarters_disjoint pp

/-- Two quarters, each at its own contents, are their half at the contents that is the first's on the first quarter's
    elements and the second's elsewhere. -/
theorem quarters_join (d : Dev nD) (c : Fin τ.nSC) (j : Fin τ.nSub) (pp : Fin 2) (a b : Buf (Elt F) ((rwV).view.loc (V d c j))) :
    iprop(((quarterM pp 0).view.loc (V d c j) ↦[(quarterM pp 0).view.set]{fullShare} a)
        ∗ ((quarterM pp 1).view.loc (V d c j) ↦[(quarterM pp 1).view.set]{fullShare} b))
      ⊢ ((halfM pp).view.loc (V d c j) ↦[(halfM pp).view.set]{fullShare} ((quarterM pp 0).view.set.piecewise a b) : sProp 𝕄) := by
  rw [half_quarters (F := F) d c j pp ((quarterM pp 0).view.set.piecewise a b)]
  have ha : ((quarterM pp 0).view.loc (V d c j) ↦[(quarterM pp 0).view.set]{fullShare} a : sProp 𝕄)
      = ((quarterM pp 0).view.loc (V d c j) ↦[(quarterM pp 0).view.set]{fullShare} ((quarterM pp 0).view.set.piecewise a b)) :=
    pointsTo_congr fun i hi => (Finset.piecewise_eq_of_mem _ _ _ hi).symm
  have hb : ((quarterM pp 1).view.loc (V d c j) ↦[(quarterM pp 1).view.set]{fullShare} b : sProp 𝕄)
      = ((quarterM pp 1).view.loc (V d c j) ↦[(quarterM pp 1).view.set]{fullShare} ((quarterM pp 0).view.set.piecewise a b)) :=
    pointsTo_congr fun i hi => (Finset.piecewise_eq_of_notMem _ _ _ (Finset.disjoint_right.mp (quarterM_disjoint pp) hi)).symm
  rw [ha, hb]

/-- A pair of result blocks named through an offset function whose value is (b, 0, 0) has the elements of the pair at b. -/
theorem set_pair_off {off : Fin 3 → ℕ} (inb : ∀ a, off a + S2x128x128.size a ≤ S25600x128x128.size a) {b : ℕ} (h : off = ![b, 0, 0]) :
    ((oV).slice (Rect.unit (s := S25600x128x128) off S2x128x128.size inb) (fun _ => rfl)).view.set = (pairM b (h ▸ inb)).view.set := by
  subst h; rfl

/-- A pair of result blocks named through an offset of value (b, 0, 0), between a worker's first block and its last, lies
    in the worker's slice. -/
theorem pair_sub_oSet (w : Fin 32) {off : Fin 3 → ℕ} (inb : ∀ a, off a + S2x128x128.size a ≤ S25600x128x128.size a) {b : ℕ}
    (h : off = ![b, 0, 0]) (hlo : 800 * w.val ≤ b) (hhi : b + 2 ≤ 800 * w.val + 800) : ((oV).slice (Rect.unit (s := S25600x128x128) off S2x128x128.size inb) (fun _ => rfl)).view.set ⊆ oSet w := by
  rw [set_pair_off inb h]
  intro i hi
  rw [mem_oSet]
  have := mem_pairM.mp hi
  omega

/-- A pair of result blocks that lies in a part of the result still lies in it once another pair, two blocks away or
    more, is taken out. -/
theorem pair_sub_sdiff {off off' : Fin 3 → ℕ} (inb : ∀ a, off a + S2x128x128.size a ≤ S25600x128x128.size a)
    (inb' : ∀ a, off' a + S2x128x128.size a ≤ S25600x128x128.size a) {b b' : ℕ} (h : off = ![b, 0, 0]) (h' : off' = ![b', 0, 0])
    (hne : b' + 2 ≤ b ∨ b + 2 ≤ b') {R : Finset S25600x128x128.Idx} (hR : ((oV).slice (Rect.unit (s := S25600x128x128) off S2x128x128.size inb) (fun _ => rfl)).view.set ⊆ R) :
    ((oV).slice (Rect.unit (s := S25600x128x128) off S2x128x128.size inb) (fun _ => rfl)).view.set ⊆ R \ ((oV).slice (Rect.unit (s := S25600x128x128) off' S2x128x128.size inb') (fun _ => rfl)).view.set := fun i hi =>
  Finset.mem_sdiff.mpr ⟨hR hi, fun h0 => by
    rw [set_pair_off inb' h'] at h0
    rw [set_pair_off inb h] at hi
    have a := mem_pairM.mp h0
    have c := mem_pairM.mp hi
    omega⟩

/-- A pair of result blocks split off any part of the result that contains it: the pair as the copy-out names it, and the rest. -/
theorem pair_off (d : Dev nD) (c : Fin τ.nSC) (j : Fin τ.nSub) {off : Fin 3 → ℕ} (inb : ∀ a, off a + S2x128x128.size a ≤ S25600x128x128.size a)
    {R : Finset S25600x128x128.Idx} (hsub : ((oV).slice (Rect.unit (s := S25600x128x128) off S2x128x128.size inb) (fun _ => rfl)).view.set ⊆ R) (f : Buf (Elt F) (oLoc d)) :
    (oLoc d ↦[R]{fullShare} f : sProp 𝕄)
      ⊢ iprop((((oV).slice (Rect.unit (s := S25600x128x128) off S2x128x128.size inb) (fun _ => rfl)).view.loc (V d c j) ↦[((oV).slice (Rect.unit (s := S25600x128x128) off S2x128x128.size inb) (fun _ => rfl)).view.set]{fullShare} f)
          ∗ (oLoc d ↦[R \ ((oV).slice (Rect.unit (s := S25600x128x128) off S2x128x128.size inb) (fun _ => rfl)).view.set]{fullShare} f)) :=
  (Entails.of_eq (pts_split (F := F) hsub fullShare f)).trans (Entails.of_eq rfl)

/-- The quarter (0, 0) of the rows buffer as a gather names it is the quarter of the pieces. -/
theorem quarter_lit_0_0 (d : Dev nD) (c : Fin τ.nSC) (j : Fin τ.nSub) (a : Buf (Elt F) ((rwV).view.loc (V d c j))) :
    ((((rwV).slice (Rect.unit (s := S2x2x128x128) ![0, 0, 0, 0] S1x1x128x128.size inb_S2x2x128x128_S1x1x128x128_0_0_0_0) (fun _ => rfl)).squeeze S128x128 squeezes_S1x1x128x128_S128x128).view.loc (V d c j) ↦[(((rwV).slice (Rect.unit (s := S2x2x128x128) ![0, 0, 0, 0] S1x1x128x128.size inb_S2x2x128x128_S1x1x128x128_0_0_0_0) (fun _ => rfl)).squeeze S128x128 squeezes_S1x1x128x128_S128x128).view.set]{fullShare} a : sProp 𝕄)
      = ((quarterM 0 0).view.loc (V d c j) ↦[(quarterM 0 0).view.set]{fullShare} a) := rfl

/-- The quarter (0, 1) of the rows buffer as a gather names it is the quarter of the pieces. -/
theorem quarter_lit_0_1 (d : Dev nD) (c : Fin τ.nSC) (j : Fin τ.nSub) (a : Buf (Elt F) ((rwV).view.loc (V d c j))) :
    ((((rwV).slice (Rect.unit (s := S2x2x128x128) ![0, 1, 0, 0] S1x1x128x128.size inb_S2x2x128x128_S1x1x128x128_0_1_0_0) (fun _ => rfl)).squeeze S128x128 squeezes_S1x1x128x128_S128x128).view.loc (V d c j) ↦[(((rwV).slice (Rect.unit (s := S2x2x128x128) ![0, 1, 0, 0] S1x1x128x128.size inb_S2x2x128x128_S1x1x128x128_0_1_0_0) (fun _ => rfl)).squeeze S128x128 squeezes_S1x1x128x128_S128x128).view.set]{fullShare} a : sProp 𝕄)
      = ((quarterM 0 1).view.loc (V d c j) ↦[(quarterM 0 1).view.set]{fullShare} a) := rfl

/-- The quarter (1, 0) of the rows buffer as a gather names it is the quarter of the pieces. -/
theorem quarter_lit_1_0 (d : Dev nD) (c : Fin τ.nSC) (j : Fin τ.nSub) (a : Buf (Elt F) ((rwV).view.loc (V d c j))) :
    ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d c j) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} a : sProp 𝕄)
      = ((quarterM 1 0).view.loc (V d c j) ↦[(quarterM 1 0).view.set]{fullShare} a) := rfl

/-- The quarter (1, 1) of the rows buffer as a gather names it is the quarter of the pieces. -/
theorem quarter_lit_1_1 (d : Dev nD) (c : Fin τ.nSC) (j : Fin τ.nSub) (a : Buf (Elt F) ((rwV).view.loc (V d c j))) :
    ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d c j) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} a : sProp 𝕄)
      = ((quarterM 1 1).view.loc (V d c j) ↦[(quarterM 1 1).view.set]{fullShare} a) := rfl

/-- The half 0 of the rows buffer as a copy-out names it is the half of the pieces. -/
theorem half_lit_0 (d : Dev nD) (c : Fin τ.nSC) (j : Fin τ.nSub) (a : Buf (Elt F) ((rwV).view.loc (V d c j))) :
    ((((rwV).slice (Rect.unit (s := S2x2x128x128) ![0, 0, 0, 0] S1x2x128x128.size inb_S2x2x128x128_S1x2x128x128_0_0_0_0) (fun _ => rfl)).squeeze S2x128x128 squeezes_S1x2x128x128_S2x128x128).view.loc (V d c j) ↦[(((rwV).slice (Rect.unit (s := S2x2x128x128) ![0, 0, 0, 0] S1x2x128x128.size inb_S2x2x128x128_S1x2x128x128_0_0_0_0) (fun _ => rfl)).squeeze S2x128x128 squeezes_S1x2x128x128_S2x128x128).view.set]{fullShare} a : sProp 𝕄)
      = ((halfM 0).view.loc (V d c j) ↦[(halfM 0).view.set]{fullShare} a) := rfl

/-- The half 1 of the rows buffer as a copy-out names it is the half of the pieces. -/
theorem half_lit_1 (d : Dev nD) (c : Fin τ.nSC) (j : Fin τ.nSub) (a : Buf (Elt F) ((rwV).view.loc (V d c j))) :
    ((((rwV).slice (Rect.unit (s := S2x2x128x128) ![1, 0, 0, 0] S1x2x128x128.size inb_S2x2x128x128_S1x2x128x128_1_0_0_0) (fun _ => rfl)).squeeze S2x128x128 squeezes_S1x2x128x128_S2x128x128).view.loc (V d c j) ↦[(((rwV).slice (Rect.unit (s := S2x2x128x128) ![1, 0, 0, 0] S1x2x128x128.size inb_S2x2x128x128_S1x2x128x128_1_0_0_0) (fun _ => rfl)).squeeze S2x128x128 squeezes_S1x2x128x128_S2x128x128).view.set]{fullShare} a : sProp 𝕄)
      = ((halfM 1).view.loc (V d c j) ↦[(halfM 1).view.set]{fullShare} a) := rfl

/-- A slot the copy from the list has filled holds some contents whose row numbers, read through the slot, are the copy's. -/
theorem landed (bb : Fin 2) (d : Dev nD) (c : Fin τ.nSC) (j : Fin τ.nSub) (g : Buf (Elt F) ((ibV).view.loc (V d c j))) (p : S1024.Idx → Elt F .i32) :
    ((slotM bb).view.loc (V d c j) ↦[(slotM bb).view.set]{fullShare} ((slotM bb).view.writes (Elt F) g [⟨Rect.whole S1024, p⟩]) : sProp 𝕄)
      ⊢ iprop(∃ f : Buf (Elt F) ((ibV).view.loc (V d c j)), ((slotM bb).view.loc (V d c j) ↦[(slotM bb).view.set]{fullShare} f)
          ∗ ⌜∀ x, (slotM bb).view.read (Elt F) f x = p x⌝) := by
  iintro H
  iexists _
  isplitl [H]; · iexact H
  ipureintro
  exact fun x => congrFun (View.read_writes_whole (Val := Elt F) (slotM bb).view g p) x

/-- The same, said of slot 0 as the copy from the list names it. -/
theorem landed_lit_0 (d : Dev nD) (c : Fin τ.nSC) (j : Fin τ.nSub) (g : Buf (Elt F) ((ibV).view.loc (V d c j))) (p : S1024.Idx → Elt F .i32) :
    ((((ibV).slice (Rect.unit (s := S2x1024) ![0, 0] S1x1024.size inb_S2x1024_S1x1024_0_0) (fun _ => rfl)).squeeze S1024 squeezes_S1x1024_S1024).view.loc (V d c j) ↦[(((ibV).slice (Rect.unit (s := S2x1024) ![0, 0] S1x1024.size inb_S2x1024_S1x1024_0_0) (fun _ => rfl)).squeeze S1024 squeezes_S1x1024_S1024).view.set]{fullShare} ((((ibV).slice (Rect.unit (s := S2x1024) ![0, 0] S1x1024.size inb_S2x1024_S1x1024_0_0) (fun _ => rfl)).squeeze S1024 squeezes_S1x1024_S1024).view.writes (Elt F) g [⟨Rect.whole S1024, p⟩]) : sProp 𝕄)
      ⊢ iprop(∃ f : Buf (Elt F) ((ibV).view.loc (V d c j)), ((slotM 0).view.loc (V d c j) ↦[(slotM 0).view.set]{fullShare} f)
          ∗ ⌜∀ x, (slotM 0).view.read (Elt F) f x = p x⌝) :=
  landed (F := F) 0 d c j g p

/-- The same, said of slot 1 as the copy from the list names it. -/
theorem landed_lit_1 (d : Dev nD) (c : Fin τ.nSC) (j : Fin τ.nSub) (g : Buf (Elt F) ((ibV).view.loc (V d c j))) (p : S1024.Idx → Elt F .i32) :
    ((((ibV).slice (Rect.unit (s := S2x1024) ![1, 0] S1x1024.size inb_S2x1024_S1x1024_1_0) (fun _ => rfl)).squeeze S1024 squeezes_S1x1024_S1024).view.loc (V d c j) ↦[(((ibV).slice (Rect.unit (s := S2x1024) ![1, 0] S1x1024.size inb_S2x1024_S1x1024_1_0) (fun _ => rfl)).squeeze S1024 squeezes_S1x1024_S1024).view.set]{fullShare} ((((ibV).slice (Rect.unit (s := S2x1024) ![1, 0] S1x1024.size inb_S2x1024_S1x1024_1_0) (fun _ => rfl)).squeeze S1024 squeezes_S1x1024_S1024).view.writes (Elt F) g [⟨Rect.whole S1024, p⟩]) : sProp 𝕄)
      ⊢ iprop(∃ f : Buf (Elt F) ((ibV).view.loc (V d c j)), ((slotM 1).view.loc (V d c j) ↦[(slotM 1).view.set]{fullShare} f)
          ∗ ⌜∀ x, (slotM 1).view.read (Elt F) f x = p x⌝) :=
  landed (F := F) 1 d c j g p

/-- Slot 0 of the buffer of row numbers as the copy from the list names it is the slot of the pieces. -/
theorem slot_lit_0 (d : Dev nD) (c : Fin τ.nSC) (j : Fin τ.nSub) (a : Buf (Elt F) ((ibV).view.loc (V d c j))) :
    ((((ibV).slice (Rect.unit (s := S2x1024) ![0, 0] S1x1024.size inb_S2x1024_S1x1024_0_0) (fun _ => rfl)).squeeze S1024 squeezes_S1x1024_S1024).view.loc (V d c j) ↦[(((ibV).slice (Rect.unit (s := S2x1024) ![0, 0] S1x1024.size inb_S2x1024_S1x1024_0_0) (fun _ => rfl)).squeeze S1024 squeezes_S1x1024_S1024).view.set]{fullShare} a : sProp 𝕄)
      = ((slotM 0).view.loc (V d c j) ↦[(slotM 0).view.set]{fullShare} a) := rfl

theorem list_lit_0_0 (d : Dev nD) (c : Fin τ.nSC) (j : Fin τ.nSub) (a : Buf (Elt F) ((ibV).view.loc (V d c j))) :
    ((((ibV).slice (Rect.unit (s := S2x1024) ![0, 0] S1x128.size inb_S2x1024_S1x128_0_0) (fun _ => rfl)).squeeze S128 squeezes_S1x128_S128).view.loc (V d c j) ↦[(((ibV).slice (Rect.unit (s := S2x1024) ![0, 0] S1x128.size inb_S2x1024_S1x128_0_0) (fun _ => rfl)).squeeze S128 squeezes_S1x128_S128).view.set]{fullShare} a : sProp 𝕄)
      = ((listM 0 0).view.loc (V d c j) ↦[(listM 0 0).view.set]{fullShare} a) := rfl

theorem list_lit_0_1 (d : Dev nD) (c : Fin τ.nSC) (j : Fin τ.nSub) (a : Buf (Elt F) ((ibV).view.loc (V d c j))) :
    ((((ibV).slice (Rect.unit (s := S2x1024) ![0, 128] S1x128.size inb_S2x1024_S1x128_0_128) (fun _ => rfl)).squeeze S128 squeezes_S1x128_S128).view.loc (V d c j) ↦[(((ibV).slice (Rect.unit (s := S2x1024) ![0, 128] S1x128.size inb_S2x1024_S1x128_0_128) (fun _ => rfl)).squeeze S128 squeezes_S1x128_S128).view.set]{fullShare} a : sProp 𝕄)
      = ((listM 0 1).view.loc (V d c j) ↦[(listM 0 1).view.set]{fullShare} a) := rfl

theorem list_lit_0_2 (d : Dev nD) (c : Fin τ.nSC) (j : Fin τ.nSub) (a : Buf (Elt F) ((ibV).view.loc (V d c j))) :
    ((((ibV).slice (Rect.unit (s := S2x1024) ![0, 256] S1x128.size inb_S2x1024_S1x128_0_256) (fun _ => rfl)).squeeze S128 squeezes_S1x128_S128).view.loc (V d c j) ↦[(((ibV).slice (Rect.unit (s := S2x1024) ![0, 256] S1x128.size inb_S2x1024_S1x128_0_256) (fun _ => rfl)).squeeze S128 squeezes_S1x128_S128).view.set]{fullShare} a : sProp 𝕄)
      = ((listM 0 2).view.loc (V d c j) ↦[(listM 0 2).view.set]{fullShare} a) := rfl

theorem list_lit_0_3 (d : Dev nD) (c : Fin τ.nSC) (j : Fin τ.nSub) (a : Buf (Elt F) ((ibV).view.loc (V d c j))) :
    ((((ibV).slice (Rect.unit (s := S2x1024) ![0, 384] S1x128.size inb_S2x1024_S1x128_0_384) (fun _ => rfl)).squeeze S128 squeezes_S1x128_S128).view.loc (V d c j) ↦[(((ibV).slice (Rect.unit (s := S2x1024) ![0, 384] S1x128.size inb_S2x1024_S1x128_0_384) (fun _ => rfl)).squeeze S128 squeezes_S1x128_S128).view.set]{fullShare} a : sProp 𝕄)
      = ((listM 0 3).view.loc (V d c j) ↦[(listM 0 3).view.set]{fullShare} a) := rfl

theorem list_lit_0_4 (d : Dev nD) (c : Fin τ.nSC) (j : Fin τ.nSub) (a : Buf (Elt F) ((ibV).view.loc (V d c j))) :
    ((((ibV).slice (Rect.unit (s := S2x1024) ![0, 512] S1x128.size inb_S2x1024_S1x128_0_512) (fun _ => rfl)).squeeze S128 squeezes_S1x128_S128).view.loc (V d c j) ↦[(((ibV).slice (Rect.unit (s := S2x1024) ![0, 512] S1x128.size inb_S2x1024_S1x128_0_512) (fun _ => rfl)).squeeze S128 squeezes_S1x128_S128).view.set]{fullShare} a : sProp 𝕄)
      = ((listM 0 4).view.loc (V d c j) ↦[(listM 0 4).view.set]{fullShare} a) := rfl

theorem list_lit_0_5 (d : Dev nD) (c : Fin τ.nSC) (j : Fin τ.nSub) (a : Buf (Elt F) ((ibV).view.loc (V d c j))) :
    ((((ibV).slice (Rect.unit (s := S2x1024) ![0, 640] S1x128.size inb_S2x1024_S1x128_0_640) (fun _ => rfl)).squeeze S128 squeezes_S1x128_S128).view.loc (V d c j) ↦[(((ibV).slice (Rect.unit (s := S2x1024) ![0, 640] S1x128.size inb_S2x1024_S1x128_0_640) (fun _ => rfl)).squeeze S128 squeezes_S1x128_S128).view.set]{fullShare} a : sProp 𝕄)
      = ((listM 0 5).view.loc (V d c j) ↦[(listM 0 5).view.set]{fullShare} a) := rfl

theorem list_lit_0_6 (d : Dev nD) (c : Fin τ.nSC) (j : Fin τ.nSub) (a : Buf (Elt F) ((ibV).view.loc (V d c j))) :
    ((((ibV).slice (Rect.unit (s := S2x1024) ![0, 768] S1x128.size inb_S2x1024_S1x128_0_768) (fun _ => rfl)).squeeze S128 squeezes_S1x128_S128).view.loc (V d c j) ↦[(((ibV).slice (Rect.unit (s := S2x1024) ![0, 768] S1x128.size inb_S2x1024_S1x128_0_768) (fun _ => rfl)).squeeze S128 squeezes_S1x128_S128).view.set]{fullShare} a : sProp 𝕄)
      = ((listM 0 6).view.loc (V d c j) ↦[(listM 0 6).view.set]{fullShare} a) := rfl

theorem list_lit_0_7 (d : Dev nD) (c : Fin τ.nSC) (j : Fin τ.nSub) (a : Buf (Elt F) ((ibV).view.loc (V d c j))) :
    ((((ibV).slice (Rect.unit (s := S2x1024) ![0, 896] S1x128.size inb_S2x1024_S1x128_0_896) (fun _ => rfl)).squeeze S128 squeezes_S1x128_S128).view.loc (V d c j) ↦[(((ibV).slice (Rect.unit (s := S2x1024) ![0, 896] S1x128.size inb_S2x1024_S1x128_0_896) (fun _ => rfl)).squeeze S128 squeezes_S1x128_S128).view.set]{fullShare} a : sProp 𝕄)
      = ((listM 0 7).view.loc (V d c j) ↦[(listM 0 7).view.set]{fullShare} a) := rfl

/-- Slot 1 of the buffer of row numbers as the copy from the list names it is the slot of the pieces. -/
theorem slot_lit_1 (d : Dev nD) (c : Fin τ.nSC) (j : Fin τ.nSub) (a : Buf (Elt F) ((ibV).view.loc (V d c j))) :
    ((((ibV).slice (Rect.unit (s := S2x1024) ![1, 0] S1x1024.size inb_S2x1024_S1x1024_1_0) (fun _ => rfl)).squeeze S1024 squeezes_S1x1024_S1024).view.loc (V d c j) ↦[(((ibV).slice (Rect.unit (s := S2x1024) ![1, 0] S1x1024.size inb_S2x1024_S1x1024_1_0) (fun _ => rfl)).squeeze S1024 squeezes_S1x1024_S1024).view.set]{fullShare} a : sProp 𝕄)
      = ((slotM 1).view.loc (V d c j) ↦[(slotM 1).view.set]{fullShare} a) := rfl

theorem list_lit_1_0 (d : Dev nD) (c : Fin τ.nSC) (j : Fin τ.nSub) (a : Buf (Elt F) ((ibV).view.loc (V d c j))) :
    ((((ibV).slice (Rect.unit (s := S2x1024) ![1, 0] S1x128.size inb_S2x1024_S1x128_1_0) (fun _ => rfl)).squeeze S128 squeezes_S1x128_S128).view.loc (V d c j) ↦[(((ibV).slice (Rect.unit (s := S2x1024) ![1, 0] S1x128.size inb_S2x1024_S1x128_1_0) (fun _ => rfl)).squeeze S128 squeezes_S1x128_S128).view.set]{fullShare} a : sProp 𝕄)
      = ((listM 1 0).view.loc (V d c j) ↦[(listM 1 0).view.set]{fullShare} a) := rfl

theorem list_lit_1_1 (d : Dev nD) (c : Fin τ.nSC) (j : Fin τ.nSub) (a : Buf (Elt F) ((ibV).view.loc (V d c j))) :
    ((((ibV).slice (Rect.unit (s := S2x1024) ![1, 128] S1x128.size inb_S2x1024_S1x128_1_128) (fun _ => rfl)).squeeze S128 squeezes_S1x128_S128).view.loc (V d c j) ↦[(((ibV).slice (Rect.unit (s := S2x1024) ![1, 128] S1x128.size inb_S2x1024_S1x128_1_128) (fun _ => rfl)).squeeze S128 squeezes_S1x128_S128).view.set]{fullShare} a : sProp 𝕄)
      = ((listM 1 1).view.loc (V d c j) ↦[(listM 1 1).view.set]{fullShare} a) := rfl

theorem list_lit_1_2 (d : Dev nD) (c : Fin τ.nSC) (j : Fin τ.nSub) (a : Buf (Elt F) ((ibV).view.loc (V d c j))) :
    ((((ibV).slice (Rect.unit (s := S2x1024) ![1, 256] S1x128.size inb_S2x1024_S1x128_1_256) (fun _ => rfl)).squeeze S128 squeezes_S1x128_S128).view.loc (V d c j) ↦[(((ibV).slice (Rect.unit (s := S2x1024) ![1, 256] S1x128.size inb_S2x1024_S1x128_1_256) (fun _ => rfl)).squeeze S128 squeezes_S1x128_S128).view.set]{fullShare} a : sProp 𝕄)
      = ((listM 1 2).view.loc (V d c j) ↦[(listM 1 2).view.set]{fullShare} a) := rfl

theorem list_lit_1_3 (d : Dev nD) (c : Fin τ.nSC) (j : Fin τ.nSub) (a : Buf (Elt F) ((ibV).view.loc (V d c j))) :
    ((((ibV).slice (Rect.unit (s := S2x1024) ![1, 384] S1x128.size inb_S2x1024_S1x128_1_384) (fun _ => rfl)).squeeze S128 squeezes_S1x128_S128).view.loc (V d c j) ↦[(((ibV).slice (Rect.unit (s := S2x1024) ![1, 384] S1x128.size inb_S2x1024_S1x128_1_384) (fun _ => rfl)).squeeze S128 squeezes_S1x128_S128).view.set]{fullShare} a : sProp 𝕄)
      = ((listM 1 3).view.loc (V d c j) ↦[(listM 1 3).view.set]{fullShare} a) := rfl

theorem list_lit_1_4 (d : Dev nD) (c : Fin τ.nSC) (j : Fin τ.nSub) (a : Buf (Elt F) ((ibV).view.loc (V d c j))) :
    ((((ibV).slice (Rect.unit (s := S2x1024) ![1, 512] S1x128.size inb_S2x1024_S1x128_1_512) (fun _ => rfl)).squeeze S128 squeezes_S1x128_S128).view.loc (V d c j) ↦[(((ibV).slice (Rect.unit (s := S2x1024) ![1, 512] S1x128.size inb_S2x1024_S1x128_1_512) (fun _ => rfl)).squeeze S128 squeezes_S1x128_S128).view.set]{fullShare} a : sProp 𝕄)
      = ((listM 1 4).view.loc (V d c j) ↦[(listM 1 4).view.set]{fullShare} a) := rfl

theorem list_lit_1_5 (d : Dev nD) (c : Fin τ.nSC) (j : Fin τ.nSub) (a : Buf (Elt F) ((ibV).view.loc (V d c j))) :
    ((((ibV).slice (Rect.unit (s := S2x1024) ![1, 640] S1x128.size inb_S2x1024_S1x128_1_640) (fun _ => rfl)).squeeze S128 squeezes_S1x128_S128).view.loc (V d c j) ↦[(((ibV).slice (Rect.unit (s := S2x1024) ![1, 640] S1x128.size inb_S2x1024_S1x128_1_640) (fun _ => rfl)).squeeze S128 squeezes_S1x128_S128).view.set]{fullShare} a : sProp 𝕄)
      = ((listM 1 5).view.loc (V d c j) ↦[(listM 1 5).view.set]{fullShare} a) := rfl

theorem list_lit_1_6 (d : Dev nD) (c : Fin τ.nSC) (j : Fin τ.nSub) (a : Buf (Elt F) ((ibV).view.loc (V d c j))) :
    ((((ibV).slice (Rect.unit (s := S2x1024) ![1, 768] S1x128.size inb_S2x1024_S1x128_1_768) (fun _ => rfl)).squeeze S128 squeezes_S1x128_S128).view.loc (V d c j) ↦[(((ibV).slice (Rect.unit (s := S2x1024) ![1, 768] S1x128.size inb_S2x1024_S1x128_1_768) (fun _ => rfl)).squeeze S128 squeezes_S1x128_S128).view.set]{fullShare} a : sProp 𝕄)
      = ((listM 1 6).view.loc (V d c j) ↦[(listM 1 6).view.set]{fullShare} a) := rfl

theorem list_lit_1_7 (d : Dev nD) (c : Fin τ.nSC) (j : Fin τ.nSub) (a : Buf (Elt F) ((ibV).view.loc (V d c j))) :
    ((((ibV).slice (Rect.unit (s := S2x1024) ![1, 896] S1x128.size inb_S2x1024_S1x128_1_896) (fun _ => rfl)).squeeze S128 squeezes_S1x128_S128).view.loc (V d c j) ↦[(((ibV).slice (Rect.unit (s := S2x1024) ![1, 896] S1x128.size inb_S2x1024_S1x128_1_896) (fun _ => rfl)).squeeze S128 squeezes_S1x128_S128).view.set]{fullShare} a : sProp 𝕄)
      = ((listM 1 7).view.loc (V d c j) ↦[(listM 1 7).view.set]{fullShare} a) := rfl

end Cert.Proof.KB

end
-- ==== Proof.BRows.lean ====
/-
  The result slice of one worker as intervals of block numbers. A worker owns blocks 800 w … 800 w + 799 of the result;
  its copies out deliver the blocks two at a time, lowest first. So at any moment the worker's slice is an interval of
  blocks already holding the lookup and an interval not yet touched: a copy-out takes the two lowest blocks of the
  untouched interval, and a delivered pair extends the done interval by two. The list of row numbers is likewise cut in
  runs of 1024 consecutive words.
-/
import proofs.«205114_g12446815224155_cont_fleet_488_32_alg».proof.Proof.BJoin

set_option maxRecDepth 16384

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "oV" => (Memref.whole Cert.Kernel.main_v1_scv : Memref Cert.Kernel.sig Kind.scVector Space.hbm Cert.Kernel.S25600x128x128 EltTy.f32)
local notation "iV" => (Memref.whole Cert.Kernel.main_v0_scv : Memref Cert.Kernel.sig Kind.scVector Space.hbm Cert.Kernel.S3276800 EltTy.i32)

/-! ## Intervals of a worker's blocks -/

/-- The elements of the result whose block number lies between the worker's block lo and its block hi (hi excluded). -/
def rowsIn (w : Fin 32) (lo hi : ℕ) : Finset S25600x128x128.Idx :=
  Finset.univ.filter fun i => 800 * w.val + lo ≤ (i 0).val ∧ (i 0).val < 800 * w.val + hi

theorem mem_rowsIn {w : Fin 32} {lo hi : ℕ} {i : S25600x128x128.Idx} :
    i ∈ rowsIn w lo hi ↔ 800 * w.val + lo ≤ (i 0).val ∧ (i 0).val < 800 * w.val + hi := by
  unfold rowsIn
  rw [Finset.mem_filter]
  exact ⟨fun h => h.2, fun h => ⟨Finset.mem_univ _, h⟩⟩

/-- A worker's slice is the interval of all its 800 blocks. -/
theorem oSet_eq_rows (w : Fin 32) : oSet w = rowsIn w 0 800 := by
  ext i
  rw [mem_oSet, mem_rowsIn]
  omega

/-- An empty interval has no element. -/
theorem rowsIn_self (w : Fin 32) (lo : ℕ) : rowsIn w lo lo = ∅ := by
  ext i
  rw [mem_rowsIn]
  constructor
  · intro h; omega
  · intro h; exact absurd h (Finset.notMem_empty _)

/-- The pair of blocks at a worker's block lo is the interval of its blocks lo and lo + 1. -/
theorem pairM_rows (w : Fin 32) (lo : ℕ)
    (hb : ∀ a, (![800 * w.val + lo, 0, 0] : Fin 3 → ℕ) a + S2x128x128.size a ≤ S25600x128x128.size a) :
    (pairM (800 * w.val + lo) hb).view.set = rowsIn w lo (lo + 2) := by
  ext i
  rw [mem_pairM, mem_rowsIn]
  omega

/-- An interval is its lower part and its upper part. -/
theorem rowsIn_union (w : Fin 32) {lo mid hi : ℕ} (h1 : lo ≤ mid) (h2 : mid ≤ hi) :
    rowsIn w lo hi = rowsIn w lo mid ∪ rowsIn w mid hi := by
  ext i
  rw [Finset.mem_union, mem_rowsIn, mem_rowsIn, mem_rowsIn]
  omega

theorem rowsIn_disjoint (w : Fin 32) (lo mid hi : ℕ) : Disjoint (rowsIn w lo mid) (rowsIn w mid hi) := by
  rw [Finset.disjoint_left]
  intro i h h'
  rw [mem_rowsIn] at h h'
  omega

/-- An interval less its two lowest blocks is the interval from two blocks higher. -/
theorem rowsIn_sdiff (w : Fin 32) {lo hi : ℕ} :
    rowsIn w lo hi \ rowsIn w lo (lo + 2) = rowsIn w (lo + 2) hi := by
  ext i
  rw [Finset.mem_sdiff, mem_rowsIn, mem_rowsIn, mem_rowsIn]
  omega

/-- The destination of a copy-out whose offset has the value (800 w + lo, 0, 0) is the interval of blocks lo and lo + 1. -/
theorem set_off_rows (w : Fin 32) {off : Fin 3 → ℕ} (inb : ∀ a, off a + S2x128x128.size a ≤ S25600x128x128.size a) {lo : ℕ}
    (hoff : off = ![800 * w.val + lo, 0, 0]) : ((oV).slice (Rect.unit (s := S25600x128x128) off S2x128x128.size inb) (fun _ => rfl)).view.set = rowsIn w lo (lo + 2) := by
  rw [set_pair_off inb hoff, pairM_rows]

/-- A copy-out takes the two lowest blocks of the untouched interval. -/
theorem rest_take (d : Dev nD) (c : Fin τ.nSC) (j : Fin τ.nSub) (w : Fin 32) {off : Fin 3 → ℕ}
    (inb : ∀ a, off a + S2x128x128.size a ≤ S25600x128x128.size a) {lo : ℕ} (hoff : off = ![800 * w.val + lo, 0, 0]) (hlo : lo + 2 ≤ 800)
    (f : Buf (Elt F) (oLoc d)) :
    (oLoc d ↦[rowsIn w lo 800]{fullShare} f : sProp 𝕄)
      ⊢ iprop((((oV).slice (Rect.unit (s := S25600x128x128) off S2x128x128.size inb) (fun _ => rfl)).view.loc (V d c j) ↦[((oV).slice (Rect.unit (s := S25600x128x128) off S2x128x128.size inb) (fun _ => rfl)).view.set]{fullShare} f)
          ∗ (oLoc d ↦[rowsIn w (lo + 2) 800]{fullShare} f)) := by
  have hsub : ((oV).slice (Rect.unit (s := S25600x128x128) off S2x128x128.size inb) (fun _ => rfl)).view.set ⊆ rowsIn w lo 800 := by
    rw [set_off_rows w inb hoff]
    intro i hi
    rw [mem_rowsIn] at hi ⊢
    omega
  refine (pair_off (F := F) d c j inb hsub f).trans (Entails.of_eq ?_)
  rw [set_off_rows w inb hoff, rowsIn_sdiff]

/-- A delivered pair whose contents is the wanted one on its blocks extends the done interval by two. -/
theorem done_add (d : Dev nD) (c : Fin τ.nSC) (j : Fin τ.nSub) (w : Fin 32) {off : Fin 3 → ℕ}
    (inb : ∀ a, off a + S2x128x128.size a ≤ S25600x128x128.size a) {lo : ℕ} (hoff : off = ![800 * w.val + lo, 0, 0])
    (g G : Buf (Elt F) (oLoc d)) (hg : ∀ i ∈ ((oV).slice (Rect.unit (s := S25600x128x128) off S2x128x128.size inb) (fun _ => rfl)).view.set, g i = G i) :
    iprop((oLoc d ↦[rowsIn w 0 lo]{fullShare} G)
        ∗ (((oV).slice (Rect.unit (s := S25600x128x128) off S2x128x128.size inb) (fun _ => rfl)).view.loc (V d c j) ↦[((oV).slice (Rect.unit (s := S25600x128x128) off S2x128x128.size inb) (fun _ => rfl)).view.set]{fullShare} g))
      ⊢ (oLoc d ↦[rowsIn w 0 (lo + 2)]{fullShare} G : sProp 𝕄) := by
  have e : (((oV).slice (Rect.unit (s := S25600x128x128) off S2x128x128.size inb) (fun _ => rfl)).view.loc (V d c j) ↦[((oV).slice (Rect.unit (s := S25600x128x128) off S2x128x128.size inb) (fun _ => rfl)).view.set]{fullShare} g : sProp 𝕄)
      = (oLoc d ↦[rowsIn w lo (lo + 2)]{fullShare} G) := by
    rw [← set_off_rows w inb hoff]
    exact pointsTo_congr hg
  rw [e, rowsIn_union w (Nat.zero_le lo) (Nat.le_add_right lo 2)]
  exact (pointsTo_union (rowsIn_disjoint w 0 lo (lo + 2))).2

/-- Nothing is held of an empty interval: the done interval before the first copy-out costs nothing. -/
theorem rows_none (d : Dev nD) (w : Fin 32) (lo : ℕ) (q : PosShare TreeShare) (f : Buf (Elt F) (oLoc d)) :
    (oLoc d ↦[rowsIn w lo lo]{q} f : sProp 𝕄) = iprop(emp) := by
  rw [rowsIn_self, pointsTo_empty]

/-! ## Runs of the list of row numbers -/

/-- Words 102400 w + 1024 g … 102400 w + 1024 g + 1023 of the flat list of row numbers: run g of worker w. -/
def blockSet (w : Fin 32) (g : ℕ) : Finset S3276800.Idx :=
  Finset.univ.filter fun i => 102400 * w.val + 1024 * g ≤ (i 0).val ∧ (i 0).val < 102400 * w.val + 1024 * g + 1024

theorem mem_blockSet {w : Fin 32} {g : ℕ} {i : S3276800.Idx} :
    i ∈ blockSet w g ↔ 102400 * w.val + 1024 * g ≤ (i 0).val ∧ (i 0).val < 102400 * w.val + 1024 * g + 1024 := by
  unfold blockSet
  rw [Finset.mem_filter]
  exact ⟨fun h => h.2, fun h => ⟨Finset.mem_univ _, h⟩⟩

/-- The source of a copy of row numbers whose offset has the value 102400 w + 1024 g is run g of worker w. -/
theorem set_block_off {off : Fin 1 → ℕ} (inb : ∀ a, off a + S1024.size a ≤ S3276800.size a) {w : Fin 32} {g : ℕ}
    (h : off = ![102400 * w.val + 1024 * g]) :
    ((iV).slice (Rect.unit (s := S3276800) off S1024.size inb) (fun _ => rfl)).view.set = blockSet w g := by
  subst h
  ext i
  show i ∈ ((View.whole main_v0_scv).slice (Rect.unit (s := S3276800) ![102400 * w.val + 1024 * g] S1024.size inb)).set ↔ _
  rw [View.set_slice_whole, Rect.mem_set_unit, mem_blockSet]
  constructor
  · intro h; exact h 0
  · intro h a
    match a with
    | ⟨0, _⟩ => exact h

/-- A run lies in the list. -/
theorem blockSet_sub (w : Fin 32) (g : ℕ) : blockSet w g ⊆ (iV).view.set := by
  rw [(Memref.isWhole_whole _).set_eq_univ]
  exact Finset.subset_univ _

end Cert.Proof.KB

end
-- ==== Proof.BInv.lean ====
/-
  What holds at the head of each trip of a tile's main loop. Trip k handles the blocks of row numbers 2k (through slot 0
  of the buffer of row numbers) and 2k + 1 (through slot 1). Transfers are kept in flight across the trips: at the head
  of trip k >= 1 the copy of block 2k into slot 0 is outstanding, so are the gathers of the last two lists of block
  2k - 1 into the second half of the rows buffer, and so is the copy-out of the first half to result blocks 16k - 4 and
  16k - 3 of the worker's slice. The slice's blocks before 16k - 4 hold the lookup; its blocks from 16k - 2 on are as
  the call found them. At the head of trip 0 only the copy of block 0 is outstanding and nothing is written; after trip
  49 no copy of row numbers is outstanding. Each outstanding transfer is held with what it will deliver said in the
  tile's own words: a slot whose words are the list's block, a quarter whose rows are the lookup's, a pair of result
  blocks at the lookup.
-/
import proofs.«205114_g12446815224155_cont_fleet_488_32_alg».proof.Proof.BRows

set_option maxRecDepth 16384

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (shareTok shareDrop)

variable {F : FTy → Type}
local notation "𝕄" => MT nD τ sig (HIx 1) (Elt F) ℕ UU ℕ
local notation "iV" => (Memref.whole Cert.Kernel.main_v0_scv : Memref Cert.Kernel.sig Kind.scVector Space.hbm Cert.Kernel.S3276800 EltTy.i32)
local notation "oV" => (Memref.whole Cert.Kernel.main_v1_scv : Memref Cert.Kernel.sig Kind.scVector Space.hbm Cert.Kernel.S25600x128x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)

variable (fi : (d : Dev nD) → Buf (Elt F) (idxLoc d)) (ft : (d : Dev nD) → Buf (Elt F) (tabLoc d)) (fo : (d : Dev nD) → Buf (Elt F) (oLoc d))
variable [FloatOps F]

section Deliveries

variable (d : Dev nD) (L : grid0.Coords)

/-- The table's slice a gather reads: all of it. -/
abbrev shAll : Memref sig .scVector .shared S3x128 .f32 := (shV).slice (Rect.unit (s := S3x128) ![0, 0] S3x128.size inb_S3x128_S3x128_0_0) (fun _ => rfl)

/-- Block g of the worker's part of the list fits the list. -/
theorem blk_inb (g : ℕ) (hg : g < 100) : ∀ a, (![102400 * (wL L).val + 1024 * g] : Fin 1 → ℕ) a + S1024.size a ≤ S3276800.size a := fun a => by
  have hw := (wL L).isLt
  have ha : a = 0 := Subsingleton.elim _ _
  subst ha
  show 102400 * (wL L).val + 1024 * g + 1024 ≤ 3276800
  omega

/-- Block g of the worker's part of the list, as a copy into a slot names its source. -/
abbrev idxBlk (g : ℕ) (hg : g < 100) : Memref sig .scVector .hbm S1024 .i32 :=
  (iV).slice (Rect.unit (s := S3276800) ![102400 * (wL L).val + 1024 * g] S1024.size (blk_inb L g hg)) (fun _ => rfl)

/-- The words of slot bb, read through the slot, are block g of the worker's part of the list. -/
def SlotIs (bb : Fin 2) (g : ℕ) (f : Buf (Elt F) ((ibV).view.loc (V d (cV L) (jV L)))) : Prop :=
  ∀ x : S1024.Idx, ∃ h : 102400 * (wL L).val + 1024 * g + (x 0).val < 3276800,
    ((slotM bb).view.read (Elt F) f x : BitVec 32) = fi d (ix1 ⟨102400 * (wL L).val + 1024 * g + (x 0).val, h⟩)

/-- The rows of quarter (pp, s), read through the quarter, are the lookup's rows of result block blk of the worker's slice. -/
def QuarterIs (pp s : Fin 2) (blk : ℕ) (a : Buf (Elt F) ((rwV).view.loc (V d (cV L) (jV L)))) : Prop :=
  ∀ r q : Fin 128, ∃ h : 800 * (wL L).val + blk < 25600,
    (quarterM pp s).view.read (Elt F) a (ix2 r q) = Cert.Spec.look (fi d) (ft d) (ix3 ⟨800 * (wL L).val + blk, h⟩ r q)

/-- What the copy of block g of the list into slot 0 delivers: the slot at the block's words, and the list's share back. -/
abbrev IdxD0 (g : ℕ) (hg : g < 100) : sProp 𝕄 :=
  iprop((∃ f : Buf (Elt F) ((ibV).view.loc (V d (cV L) (jV L))), ((((ibV).slice (Rect.unit (s := S2x1024) ![0, 0] S1x1024.size inb_S2x1024_S1x1024_0_0) (fun _ => rfl)).squeeze S1024 squeezes_S1x1024_S1024).view.loc (V d (cV L) (jV L)) ↦[(((ibV).slice (Rect.unit (s := S2x1024) ![0, 0] S1x1024.size inb_S2x1024_S1x1024_0_0) (fun _ => rfl)).squeeze S1024 squeezes_S1x1024_S1024).view.set]{fullShare} f) ∗ ⌜SlotIs fi d L 0 g f⌝)
    ∗ ((iV).view.loc (V d (cV L) (jV L)) ↦[(idxBlk L g hg).view.set]{iTok (wL L)} fi d))

/-- What the gather of the seventh list of slot 1 into the third quarter of the rows buffer delivers: the quarter at the
    lookup's rows of result block blk, the list back, and the table's token back. -/
abbrev GathD10 (blk : ℕ) (f : Buf (Elt F) ((ibV).view.loc (V d (cV L) (jV L)))) : sProp 𝕄 :=
  iprop(((∃ a : Buf (Elt F) ((rwV).view.loc (V d (cV L) (jV L))), ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} a) ∗ ⌜QuarterIs fi ft d L 1 0 blk a⌝)
      ∗ ((((ibV).slice (Rect.unit (s := S2x1024) ![1, 768] S1x128.size inb_S2x1024_S1x128_1_768) (fun _ => rfl)).squeeze S128 squeezes_S1x128_S128).view.loc (V d (cV L) (jV L)) ↦[(((ibV).slice (Rect.unit (s := S2x1024) ![1, 768] S1x128.size inb_S2x1024_S1x128_1_768) (fun _ => rfl)).squeeze S128 squeezes_S1x128_S128).view.set]{fullShare} f))
    ∗ ((shV).view.loc (V d (cV L) (jV L)) ↦[(shAll).view.set]{shareTok (shTok (jV L)) 9 4} ft d))

/-- The same for the eighth list and the fourth quarter. -/
abbrev GathD11 (blk : ℕ) (f : Buf (Elt F) ((ibV).view.loc (V d (cV L) (jV L)))) : sProp 𝕄 :=
  iprop(((∃ a : Buf (Elt F) ((rwV).view.loc (V d (cV L) (jV L))), ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} a) ∗ ⌜QuarterIs fi ft d L 1 1 blk a⌝)
      ∗ ((((ibV).slice (Rect.unit (s := S2x1024) ![1, 896] S1x128.size inb_S2x1024_S1x128_1_896) (fun _ => rfl)).squeeze S128 squeezes_S1x128_S128).view.loc (V d (cV L) (jV L)) ↦[(((ibV).slice (Rect.unit (s := S2x1024) ![1, 896] S1x128.size inb_S2x1024_S1x128_1_896) (fun _ => rfl)).squeeze S128 squeezes_S1x128_S128).view.set]{fullShare} f))
    ∗ ((shV).view.loc (V d (cV L) (jV L)) ↦[(shAll).view.set]{shareTok (shTok (jV L)) 9 5} ft d))

/-- What the copy-out of the first half of the rows buffer to the result blocks lo, lo + 1 of the worker's slice delivers:
    the two blocks at the lookup, and the half back. -/
abbrev OutD0 (lo : ℕ) (hb : ∀ a, (![800 * (wL L).val + lo, 0, 0] : Fin 3 → ℕ) a + S2x128x128.size a ≤ S25600x128x128.size a)
    (h : Buf (Elt F) ((rwV).view.loc (V d (cV L) (jV L)))) : sProp 𝕄 :=
  iprop((∃ g : Buf (Elt F) (oLoc d), ((pairM (800 * (wL L).val + lo) hb).view.loc (V d (cV L) (jV L)) ↦[(pairM (800 * (wL L).val + lo) hb).view.set]{fullShare} g)
        ∗ ⌜∀ i ∈ (pairM (800 * (wL L).val + lo) hb).view.set, g i = oDone fi ft d i⌝)
    ∗ ((((rwV).slice (Rect.unit (s := S2x2x128x128) ![0, 0, 0, 0] S1x2x128x128.size inb_S2x2x128x128_S1x2x128x128_0_0_0_0) (fun _ => rfl)).squeeze S2x128x128 squeezes_S1x2x128x128_S2x128x128).view.loc (V d (cV L) (jV L)) ↦[(((rwV).slice (Rect.unit (s := S2x2x128x128) ![0, 0, 0, 0] S1x2x128x128.size inb_S2x2x128x128_S1x2x128x128_0_0_0_0) (fun _ => rfl)).squeeze S2x128x128 squeezes_S1x2x128x128_S2x128x128).view.set]{fullShare} h))

end Deliveries

section Invariant

variable (d : Dev nD) (L : grid0.Coords) (O : CellTallies nD τ sig (HIx 1)) (W : Waits sig (HIx 1))

/-- The waits recorded so far are the ones the task began with or the task's own. -/
def WaitsOK (W' : Waits sig (HIx 1)) : Prop := ∀ p ∈ W', p ∈ W ∨ p.2 = none ∨ p.2 = some (0 : Fin 1)

/-- The pair of result blocks lo, lo + 1 of the worker's slice fits the result. -/
theorem pairIn (lo : ℕ) (h : lo + 2 ≤ 800) : ∀ a, (![800 * (wL L).val + lo, 0, 0] : Fin 3 → ℕ) a + S2x128x128.size a ≤ S25600x128x128.size a :=
  pair_inb (by have := (wL L).isLt; omega)

/-- What every trip starts from whatever its number: the waits' evidence, the debt, the four semaphores nothing is
    outstanding on, the table's tokens of the first two gather semaphores, the unused tokens and the remainder. -/
def Base : sProp 𝕄 :=
  iprop(Transfers.MayWaits (V d (cV L) (jV L)) (default : HIx 1) O
    ∗ (∃ W', ⌜WaitsOK W W'⌝ ∗ owes (V d (cV L) (jV L)) O W')
    ∗ semVal (dcell d (cV L) (jV L) cc0_scratch4) 0 ∗ semVal (dcell d (cV L) (jV L) cc0_scratch5) 0
    ∗ semVal (dcell d (cV L) (jV L) cc0_scratch6) 0 ∗ semVal (dcell d (cV L) (jV L) cc0_scratch10) 0
    ∗ ((shV).view.loc (V d (cV L) (jV L)) ↦[(shV).view.set]{shareTok (shTok (jV L)) 9 2} ft d)
    ∗ ((shV).view.loc (V d (cV L) (jV L)) ↦[(shV).view.set]{shareTok (shTok (jV L)) 9 3} ft d)
    ∗ (bigSep (((((Finset.univ : Finset (Fin 9)).erase 2).erase 3).erase 4).erase 5) fun i => ((shV).view.loc (V d (cV L) (jV L)) ↦[(shV).view.set]{shareTok (shTok (jV L)) 9 i} ft d))
    ∗ ((shV).view.loc (V d (cV L) (jV L)) ↦[(shV).view.set]{shareDrop (shTok (jV L)) 9} ft d))

theorem two_lt {k : ℕ} (h : k < 50) : 2 * k < 100 := by omega

/-- The list of row numbers: before trip 50 the copy of block 2k into slot 0 is outstanding; after the last trip nothing
    is, and slot 0's lists rest at some contents. -/
def IdxPart (k : ℕ) : sProp 𝕄 :=
  if h : k < 50 then
    iprop(Transfers.Flight countersEmb (V d (cV L) (jV L)) (SemLoc.dma cc0_scratch3.sem) (default : HIx 1) 32768 (IdxD0 fi d L (2 * k) (two_lt h))
      ∗ ((iV).view.loc (V d (cV L) (jV L)) ↦[(iV).view.set \ (idxBlk L (2 * k) (two_lt h)).view.set]{iTok (wL L)} fi d))
  else
    iprop(semVal (dcell d (cV L) (jV L) cc0_scratch3) 0
      ∗ ((iV).view.loc (V d (cV L) (jV L)) ↦[(iV).view.set]{iTok (wL L)} fi d)
      ∗ (∃ f : Buf (Elt F) ((ibV).view.loc (V d (cV L) (jV L))), bigSep Finset.univ fun s : Fin 8 => ((listM 0 s).view.loc (V d (cV L) (jV L)) ↦[(listM 0 s).view.set]{fullShare} f)))

/-- Before the first trip: slot 1 and the four quarters of the rows buffer rest at some contents, nothing else is
    outstanding, and the worker's slice of the result is as the call found it. -/
def First : sProp 𝕄 :=
  iprop((∃ f : Buf (Elt F) ((ibV).view.loc (V d (cV L) (jV L))), (slotM 1).view.loc (V d (cV L) (jV L)) ↦[(slotM 1).view.set]{fullShare} f)
    ∗ (∃ f : Buf (Elt F) ((rwV).view.loc (V d (cV L) (jV L))), (rwV).view.loc (V d (cV L) (jV L)) ↦[(rwV).view.set]{fullShare} f)
    ∗ semVal (dcell d (cV L) (jV L) cc0_scratch7) 0 ∗ semVal (dcell d (cV L) (jV L) cc0_scratch8) 0 ∗ semVal (dcell d (cV L) (jV L) cc0_scratch9) 0
    ∗ ((shV).view.loc (V d (cV L) (jV L)) ↦[(shV).view.set]{shareTok (shTok (jV L)) 9 4} ft d)
    ∗ ((shV).view.loc (V d (cV L) (jV L)) ↦[(shV).view.set]{shareTok (shTok (jV L)) 9 5} ft d)
    ∗ (oLoc d ↦[rowsIn (wL L) 0 800]{fullShare} fo d)
    ∗ (oLoc d ↦[rowsIn (wL L) 0 0]{fullShare} oDone fi ft d))

/-- Before trip k >= 1: slot 1 holds block 2k - 1, its first six lists rest, its last two are being gathered into the
    second half of the rows buffer; the first half is being copied out to blocks 16k - 4, 16k - 3; the blocks before them
    hold the lookup, the blocks from 16k - 2 on are untouched. -/
def Steady (k : ℕ) (hk : 16 * k + 0 ≤ 800 ∧ 4 ≤ 16 * k) : sProp 𝕄 :=
  iprop(∃ f2 : Buf (Elt F) ((ibV).view.loc (V d (cV L) (jV L))), ⌜SlotIs fi d L 1 (2 * k - 1) f2⌝
    ∗ (bigSep ((((Finset.univ : Finset (Fin 8)).erase 6).erase 7)) fun s : Fin 8 => ((listM 1 s).view.loc (V d (cV L) (jV L)) ↦[(listM 1 s).view.set]{fullShare} f2))
    ∗ Transfers.Flight countersEmb (V d (cV L) (jV L)) (SemLoc.dma cc0_scratch7.sem) (default : HIx 1) 524288 (GathD10 fi ft d L (16 * k - 2) f2)
    ∗ Transfers.Flight countersEmb (V d (cV L) (jV L)) (SemLoc.dma cc0_scratch8.sem) (default : HIx 1) 524288 (GathD11 fi ft d L (16 * k - 1) f2)
    ∗ ((shV).view.loc (V d (cV L) (jV L)) ↦[(shV).view.set \ (shAll).view.set]{shareTok (shTok (jV L)) 9 4} ft d)
    ∗ ((shV).view.loc (V d (cV L) (jV L)) ↦[(shV).view.set \ (shAll).view.set]{shareTok (shTok (jV L)) 9 5} ft d)
    ∗ (∃ h0 : Buf (Elt F) ((rwV).view.loc (V d (cV L) (jV L))), Transfers.Flight countersEmb (V d (cV L) (jV L)) (SemLoc.dma cc0_scratch9.sem) (default : HIx 1) 1048576 (OutD0 fi ft d L (16 * k - 4) (pairIn L (16 * k - 4) (by omega)) h0))
    ∗ (oLoc d ↦[rowsIn (wL L) 0 (16 * k - 4)]{fullShare} oDone fi ft d)
    ∗ (oLoc d ↦[rowsIn (wL L) (16 * k - 2) 800]{fullShare} fo d))

/-- The invariant of the main loop. -/
def Inv (k : ℕ) (_ : Unit) : sProp 𝕄 :=
  iprop(⌜k ≤ 50⌝ ∗ Base ft d L O W ∗ IdxPart fi d L k
    ∗ (if h : k = 0 then First fi ft fo d L else if h' : k ≤ 50 then Steady fi ft fo d L k (by omega) else iprop(emp)))

end Invariant

end Cert.Proof.KB

end
-- ==== Proof.BValue.lean ====
/-
  The values the tile's transfers leave. A block of the buffer of row numbers filled by a copy of a run of the flat list
  reads that run; a list is 128 consecutive words of its block; a quarter of the buffer of gathered rows filled by a
  gather of the table along a list that is a chunk of the flat list reads a block of the lookup; and a pair of result
  blocks filled by the copy of a half whose quarters read two consecutive blocks of the lookup holds the lookup on its
  elements. Each fact is read off where a piece's element sits in its buffer: a piece is a rectangle of the buffer with
  its unit axes dropped, so its element is the rectangle's origin plus the element's own coordinates.
-/
import proofs.«205114_g12446815224155_cont_fleet_488_32_alg».proof.Proof.BRows
import proofs.«205114_g12446815224155_cont_fleet_488_32_alg».proof.Proof.BGather
import Idealize.ShloMosaic.Lib.ValueLayout

set_option maxRecDepth 16384

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "oV" => (Memref.whole Cert.Kernel.main_v1_scv : Memref Cert.Kernel.sig Kind.scVector Space.hbm Cert.Kernel.S25600x128x128 EltTy.f32)
local notation "iV" => (Memref.whole Cert.Kernel.main_v0_scv : Memref Cert.Kernel.sig Kind.scVector Space.hbm Cert.Kernel.S3276800 EltTy.i32)
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)
local notation "shV" => (Memref.whole Cert.Kernel.cc0_scratch0 : Memref Cert.Kernel.sig Kind.scVector Space.shared Cert.Kernel.S3x128 EltTy.f32)
open Idealize.ShloMosaic.ValueIdx

/-! ## Where a piece's element sits in its buffer -/

/-- Element x of a block of 1024 words of the buffer of row numbers, the block named through an offset: on the row the
    offset names, at the offset's word plus x. -/
theorem slotLit_emb {off : Fin 2 → ℕ} (inb : ∀ a, off a + S1x1024.size a ≤ S2x1024.size a) (x : S1024.Idx) (a : Fin 2) :
    (((((ibV).slice (Rect.unit (s := S2x1024) off S1x1024.size inb) (fun _ => rfl)).squeeze S1024 squeezes_S1x1024_S1024).view.emb x) a).val
      = off a + (match a with | ⟨0, _⟩ => 0 | ⟨1, _⟩ => (x 0).val) := by
  show ((Rect.unit (s := S2x1024) off S1x1024.size inb).emb (Shape.reshapeEquiv _ x) a).val = _
  rw [Rect.emb_apply, Shape.reshapeEquiv_cons_one (n := 1) (d := ![1024])]
  match a with
  | ⟨0, _⟩ => rfl
  | ⟨1, _⟩ =>
    show off 1 + 1 * (x 0).val = off 1 + (x 0).val
    omega

/-- The same for a list of 128 words. -/
theorem listLit_emb {off : Fin 2 → ℕ} (inb : ∀ a, off a + S1x128.size a ≤ S2x1024.size a) (x : S128.Idx) (a : Fin 2) :
    (((((ibV).slice (Rect.unit (s := S2x1024) off S1x128.size inb) (fun _ => rfl)).squeeze S128 squeezes_S1x128_S128).view.emb x) a).val
      = off a + (match a with | ⟨0, _⟩ => 0 | ⟨1, _⟩ => (x 0).val) := by
  show ((Rect.unit (s := S2x1024) off S1x128.size inb).emb (Shape.reshapeEquiv _ x) a).val = _
  rw [Rect.emb_apply, Shape.reshapeEquiv_cons_one (n := 1) (d := ![128])]
  match a with
  | ⟨0, _⟩ => rfl
  | ⟨1, _⟩ =>
    show off 1 + 1 * (x 0).val = off 1 + (x 0).val
    omega

/-- Word x of block bb is word x of row bb of the buffer of row numbers. -/
theorem slotM_emb (bb : Fin 2) (x : S1024.Idx) (a : Fin 2) :
    ((slotM bb).view.emb x a).val = (match a with | ⟨0, _⟩ => bb.val | ⟨1, _⟩ => (x 0).val) := by
  fin_cases bb
  · exact (slotLit_emb inb_S2x1024_S1x1024_0_0 x a).trans (by
      match a with
      | ⟨0, _⟩ => exact Nat.add_zero _
      | ⟨1, _⟩ => exact Nat.zero_add _)
  · exact (slotLit_emb inb_S2x1024_S1x1024_1_0 x a).trans (by
      match a with
      | ⟨0, _⟩ => exact Nat.add_zero _
      | ⟨1, _⟩ => exact Nat.zero_add _)

/-- Word x of list s of block bb is word 128 s + x of row bb. -/
theorem listM_emb (bb : Fin 2) (s : Fin 8) (x : S128.Idx) (a : Fin 2) :
    ((listM bb s).view.emb x a).val = (match a with | ⟨0, _⟩ => bb.val | ⟨1, _⟩ => 128 * s.val + (x 0).val) := by
  fin_cases bb <;> fin_cases s
  · exact (listLit_emb inb_S2x1024_S1x128_0_0 x a).trans (by
      match a with
      | ⟨0, _⟩ => exact Nat.add_zero _
      | ⟨1, _⟩ => rfl)
  · exact (listLit_emb inb_S2x1024_S1x128_0_128 x a).trans (by
      match a with
      | ⟨0, _⟩ => exact Nat.add_zero _
      | ⟨1, _⟩ => rfl)
  · exact (listLit_emb inb_S2x1024_S1x128_0_256 x a).trans (by
      match a with
      | ⟨0, _⟩ => exact Nat.add_zero _
      | ⟨1, _⟩ => rfl)
  · exact (listLit_emb inb_S2x1024_S1x128_0_384 x a).trans (by
      match a with
      | ⟨0, _⟩ => exact Nat.add_zero _
      | ⟨1, _⟩ => rfl)
  · exact (listLit_emb inb_S2x1024_S1x128_0_512 x a).trans (by
      match a with
      | ⟨0, _⟩ => exact Nat.add_zero _
      | ⟨1, _⟩ => rfl)
  · exact (listLit_emb inb_S2x1024_S1x128_0_640 x a).trans (by
      match a with
      | ⟨0, _⟩ => exact Nat.add_zero _
      | ⟨1, _⟩ => rfl)
  · exact (listLit_emb inb_S2x1024_S1x128_0_768 x a).trans (by
      match a with
      | ⟨0, _⟩ => exact Nat.add_zero _
      | ⟨1, _⟩ => rfl)
  · exact (listLit_emb inb_S2x1024_S1x128_0_896 x a).trans (by
      match a with
      | ⟨0, _⟩ => exact Nat.add_zero _
      | ⟨1, _⟩ => rfl)
  · exact (listLit_emb inb_S2x1024_S1x128_1_0 x a).trans (by
      match a with
      | ⟨0, _⟩ => exact Nat.add_zero _
      | ⟨1, _⟩ => rfl)
  · exact (listLit_emb inb_S2x1024_S1x128_1_128 x a).trans (by
      match a with
      | ⟨0, _⟩ => exact Nat.add_zero _
      | ⟨1, _⟩ => rfl)
  · exact (listLit_emb inb_S2x1024_S1x128_1_256 x a).trans (by
      match a with
      | ⟨0, _⟩ => exact Nat.add_zero _
      | ⟨1, _⟩ => rfl)
  · exact (listLit_emb inb_S2x1024_S1x128_1_384 x a).trans (by
      match a with
      | ⟨0, _⟩ => exact Nat.add_zero _
      | ⟨1, _⟩ => rfl)
  · exact (listLit_emb inb_S2x1024_S1x128_1_512 x a).trans (by
      match a with
      | ⟨0, _⟩ => exact Nat.add_zero _
      | ⟨1, _⟩ => rfl)
  · exact (listLit_emb inb_S2x1024_S1x128_1_640 x a).trans (by
      match a with
      | ⟨0, _⟩ => exact Nat.add_zero _
      | ⟨1, _⟩ => rfl)
  · exact (listLit_emb inb_S2x1024_S1x128_1_768 x a).trans (by
      match a with
      | ⟨0, _⟩ => exact Nat.add_zero _
      | ⟨1, _⟩ => rfl)
  · exact (listLit_emb inb_S2x1024_S1x128_1_896 x a).trans (by
      match a with
      | ⟨0, _⟩ => exact Nat.add_zero _
      | ⟨1, _⟩ => rfl)

/-! ## A block of row numbers after its copy from the list, and a list inside a block -/

/-- A list's word is the block's word 128 s further on. -/
theorem list_of_slot (bb : Fin 2) (s : Fin 8) (d : Dev nD) (c : Fin τ.nSC) (j : Fin τ.nSub) (f : Buf (Elt F) ((ibV).view.loc (V d c j)))
    (x : S128.Idx) :
    (listM bb s).view.read (Elt F) f x
      = (slotM bb).view.read (Elt F) f (ix1 ⟨128 * s.val + (x 0).val, by
          have hs : s.val < 8 := s.isLt
          have hx : (x 0).val < 128 := (x 0).isLt
          omega⟩) := by
  have e : (listM bb s).view.emb x = (slotM bb).view.emb (ix1 ⟨128 * s.val + (x 0).val, by
          have hs : s.val < 8 := s.isLt
          have hx : (x 0).val < 128 := (x 0).isLt
          omega⟩) := by
    funext a
    refine Fin.ext ?_
    rw [listM_emb, slotM_emb]
  rw [View.read_apply, View.read_apply, e]

/-- Word x of a run of 1024 of the flat list, the run named through an offset of value b0, is word b0 + x of the list. -/
theorem run_emb {off : Fin 1 → ℕ} (inb : ∀ a, off a + S1024.size a ≤ S3276800.size a) {b0 : ℕ} (hoff : off = ![b0]) (x : S1024.Idx)
    (h : b0 + (x 0).val < 3276800) :
    ((iV).slice (Rect.unit (s := S3276800) off S1024.size inb) (fun _ => rfl)).view.emb x = ix1 ⟨b0 + (x 0).val, h⟩ := by
  subst hoff
  show (Rect.unit (s := S3276800) ![b0] S1024.size inb).emb x = _
  funext a
  refine Fin.ext ?_
  rw [Rect.emb_apply]
  match a with
  | ⟨0, _⟩ =>
    show b0 + 1 * (x 0).val = b0 + (x 0).val
    omega

/-- THE BLOCK AFTER ITS COPY: a block filled by the copy of a run of the flat list starting at word b0 reads, at x, word
    b0 + x of the list. -/
theorem slot_value (bb : Fin 2) (d : Dev nD) (c : Fin τ.nSC) (j : Fin τ.nSub) (a0 : Buf (Elt F) ((ibV).view.loc (V d c j)))
    (fi' : S3276800.Idx → BitVec 32) {off : Fin 1 → ℕ} (inb : ∀ a, off a + S1024.size a ≤ S3276800.size a) {b0 : ℕ} (hoff : off = ![b0])
    (x : S1024.Idx) :
    ∃ h : b0 + (x 0).val < 3276800,
      ((slotM bb).view.read (Elt F) ((slotM bb).view.writes (Elt F) a0 [⟨Rect.whole S1024, ReadAs.same.apply (View.read (Elt F)
        ((iV).slice (Rect.unit (s := S3276800) off S1024.size inb) (fun _ => rfl)).view fi')⟩]) x : BitVec 32)
        = fi' (ix1 ⟨b0 + (x 0).val, h⟩) := by
  have h : b0 + (x 0).val < 3276800 := by
    have h0 : off 0 + 1024 ≤ 3276800 := inb 0
    have hx : (x 0).val < 1024 := (x 0).isLt
    rw [hoff] at h0
    have e : (![b0] : Fin 1 → ℕ) 0 = b0 := rfl
    rw [e] at h0
    omega
  refine ⟨h, ?_⟩
  rw [View.read_writes_whole (Val := Elt F) (slotM bb).view a0]
  show View.read (Elt F) ((iV).slice (Rect.unit (s := S3276800) off S1024.size inb) (fun _ => rfl)).view fi' x = _
  rw [View.read_apply, run_emb inb hoff x h]
  rfl

/-! ## The table as a gather reads it -/

/-- The shared copy of the table read through the slice a gather names (all of it, from its origin) is its contents. -/
theorem tab_read (d : Dev nD) (ft' : Buf (Elt F) (tabLoc d)) :
    View.read (Elt F) ((shV).slice (Rect.unit (s := S3x128) ![0, 0] S3x128.size inb_S3x128_S3x128_0_0) (fun _ => rfl)).view ft' = ft' := by
  funext x
  have e : ((shV).slice (Rect.unit (s := S3x128) ![0, 0] S3x128.size inb_S3x128_S3x128_0_0) (fun _ => rfl)).view.emb x = x := by
    show (Rect.unit (s := S3x128) ![0, 0] S3x128.size inb_S3x128_S3x128_0_0).emb x = x
    funext a
    refine Fin.ext ?_
    rw [Rect.emb_apply]
    match a with
    | ⟨0, _⟩ =>
      show 0 + 1 * (x 0).val = (x 0).val
      omega
    | ⟨1, _⟩ =>
      show 0 + 1 * (x 1).val = (x 1).val
      omega
  rw [View.read_apply, e]
  rfl

/-! ## A quarter after its gather -/

/-- THE QUARTER AFTER ITS GATHER: filled by the gather of the table along a list that is words 128 b … 128 b + 127 of the
    flat list of row numbers, the quarter reads block b of the lookup. -/
theorem quarter_value (pp s : Fin 2) (d : Dev nD) (c : Fin τ.nSC) (j : Fin τ.nSub) (a0 : Buf (Elt F) ((rwV).view.loc (V d c j)))
    (tab : S3x128.Idx → Elt F .f32) (fi' : S3276800.Idx → BitVec 32) (w : S128.Idx → BitVec 32)
    (hn : S128.numel = S128x128.size gathers_S3x128_S128x128.axis')
    (hin : ∀ x, (w x).toNat < S3x128.size gathers_S3x128_S128x128.axis)
    (H : ∀ x, 0 ≤ (w x).toInt ∧ (w x).toInt ≤ 2) (b : Fin 25600)
    (hw : ∀ r : Fin 128, w (ix1 r) = fi' (ix1 ⟨b.val * 128 + r.val, by have := b.isLt; have := r.isLt; omega⟩)) (r q : Fin 128) :
    (quarterM pp s).view.read (Elt F) ((quarterM pp s).view.writes (Elt F) a0 [⟨Rect.whole S128x128,
        SparseCore.gatherPayload (F := F) gathers_S3x128_S128x128 tab (SparseCore.rows (F := F) w hn hin)⟩]) (ix2 r q)
      = Cert.Spec.look fi' tab (ix3 b r q) := by
  rw [View.read_writes_whole (Val := Elt F) (quarterM pp s).view a0]
  exact gatherPayload_chunk gathers_S3x128_S128x128 tab fi' w hn hin H b hw r q

/-! ## A pair of result blocks after its copy-out -/

/-- Entry (t, r, q) of a half of the buffer of gathered rows, the half named through an offset: at the offset's slot,
    the offset's block plus t, row r, column q. -/
theorem halfLit_emb {off : Fin 4 → ℕ} (inb : ∀ a, off a + S1x2x128x128.size a ≤ S2x2x128x128.size a) (t : Fin 2) (r q : Fin 128) (a : Fin 4) :
    (((((rwV).slice (Rect.unit (s := S2x2x128x128) off S1x2x128x128.size inb) (fun _ => rfl)).squeeze S2x128x128 squeezes_S1x2x128x128_S2x128x128).view.emb (ix3 t r q)) a).val
      = off a + (match a with | ⟨0, _⟩ => 0 | ⟨1, _⟩ => t.val | ⟨2, _⟩ => r.val | ⟨3, _⟩ => q.val) := by
  show ((Rect.unit (s := S2x2x128x128) off S1x2x128x128.size inb).emb (Shape.reshapeEquiv _ (ix3 t r q)) a).val = _
  rw [Rect.emb_apply, reshapeEquiv_ix3_1abc]
  match a with
  | ⟨0, _⟩ => rfl
  | ⟨1, _⟩ =>
    show off 1 + 1 * t.val = off 1 + t.val
    omega
  | ⟨2, _⟩ =>
    show off 2 + 1 * r.val = off 2 + r.val
    omega
  | ⟨3, _⟩ =>
    show off 3 + 1 * q.val = off 3 + q.val
    omega

/-- The same for a quarter: entry (r, q) is at the offset's slot and block, row r, column q. -/
theorem quarterLit_emb {off : Fin 4 → ℕ} (inb : ∀ a, off a + S1x1x128x128.size a ≤ S2x2x128x128.size a) (r q : Fin 128) (a : Fin 4) :
    (((((rwV).slice (Rect.unit (s := S2x2x128x128) off S1x1x128x128.size inb) (fun _ => rfl)).squeeze S128x128 squeezes_S1x1x128x128_S128x128).view.emb (ix2 r q)) a).val
      = off a + (match a with | ⟨0, _⟩ => 0 | ⟨1, _⟩ => 0 | ⟨2, _⟩ => r.val | ⟨3, _⟩ => q.val) := by
  show ((Rect.unit (s := S2x2x128x128) off S1x1x128x128.size inb).emb (Shape.reshapeEquiv _ (ix2 r q)) a).val = _
  rw [Rect.emb_apply, reshapeEquiv_ix2_11ab]
  match a with
  | ⟨0, _⟩ => rfl
  | ⟨1, _⟩ => rfl
  | ⟨2, _⟩ =>
    show off 2 + 1 * r.val = off 2 + r.val
    omega
  | ⟨3, _⟩ =>
    show off 3 + 1 * q.val = off 3 + q.val
    omega

/-- Entry (t, r, q) of half pp is entry (pp, t, r, q) of the buffer of gathered rows. -/
theorem halfM_emb (pp : Fin 2) (t : Fin 2) (r q : Fin 128) (a : Fin 4) :
    ((halfM pp).view.emb (ix3 t r q) a).val = (match a with | ⟨0, _⟩ => pp.val | ⟨1, _⟩ => t.val | ⟨2, _⟩ => r.val | ⟨3, _⟩ => q.val) := by
  fin_cases pp
  · exact (halfLit_emb inb_S2x2x128x128_S1x2x128x128_0_0_0_0 t r q a).trans (by
      match a with
      | ⟨0, _⟩ => exact Nat.add_zero _
      | ⟨1, _⟩ => exact Nat.zero_add _
      | ⟨2, _⟩ => exact Nat.zero_add _
      | ⟨3, _⟩ => exact Nat.zero_add _)
  · exact (halfLit_emb inb_S2x2x128x128_S1x2x128x128_1_0_0_0 t r q a).trans (by
      match a with
      | ⟨0, _⟩ => exact Nat.add_zero _
      | ⟨1, _⟩ => exact Nat.zero_add _
      | ⟨2, _⟩ => exact Nat.zero_add _
      | ⟨3, _⟩ => exact Nat.zero_add _)

/-- Entry (r, q) of quarter s of half pp is entry (pp, s, r, q) of the buffer of gathered rows. -/
theorem quarterM_emb (pp s : Fin 2) (r q : Fin 128) (a : Fin 4) :
    ((quarterM pp s).view.emb (ix2 r q) a).val = (match a with | ⟨0, _⟩ => pp.val | ⟨1, _⟩ => s.val | ⟨2, _⟩ => r.val | ⟨3, _⟩ => q.val) := by
  fin_cases pp <;> fin_cases s
  · exact (quarterLit_emb inb_S2x2x128x128_S1x1x128x128_0_0_0_0 r q a).trans (by
      match a with
      | ⟨0, _⟩ => exact Nat.add_zero _
      | ⟨1, _⟩ => exact Nat.add_zero _
      | ⟨2, _⟩ => exact Nat.zero_add _
      | ⟨3, _⟩ => exact Nat.zero_add _)
  · exact (quarterLit_emb inb_S2x2x128x128_S1x1x128x128_0_1_0_0 r q a).trans (by
      match a with
      | ⟨0, _⟩ => exact Nat.add_zero _
      | ⟨1, _⟩ => exact Nat.add_zero _
      | ⟨2, _⟩ => exact Nat.zero_add _
      | ⟨3, _⟩ => exact Nat.zero_add _)
  · exact (quarterLit_emb inb_S2x2x128x128_S1x1x128x128_1_0_0_0 r q a).trans (by
      match a with
      | ⟨0, _⟩ => exact Nat.add_zero _
      | ⟨1, _⟩ => exact Nat.add_zero _
      | ⟨2, _⟩ => exact Nat.zero_add _
      | ⟨3, _⟩ => exact Nat.zero_add _)
  · exact (quarterLit_emb inb_S2x2x128x128_S1x1x128x128_1_1_0_0 r q a).trans (by
      match a with
      | ⟨0, _⟩ => exact Nat.add_zero _
      | ⟨1, _⟩ => exact Nat.add_zero _
      | ⟨2, _⟩ => exact Nat.zero_add _
      | ⟨3, _⟩ => exact Nat.zero_add _)

/-- Block t of a half is the half's quarter t. -/
theorem half_quarter_emb (pp t : Fin 2) (r q : Fin 128) : (halfM pp).view.emb (ix3 t r q) = (quarterM pp t).view.emb (ix2 r q) := by
  funext a
  refine Fin.ext ?_
  rw [halfM_emb, quarterM_emb]

/-- Entry (t, r, q) of a pair of result blocks named through an offset of value (b0, 0, 0) is entry (b0 + t, r, q) of the
    result. -/
theorem pair_emb {off : Fin 3 → ℕ} (inb : ∀ a, off a + S2x128x128.size a ≤ S25600x128x128.size a) {b0 : ℕ} (hoff : off = ![b0, 0, 0])
    (t : Fin 2) (r q : Fin 128) (h : b0 + t.val < 25600) :
    ((oV).slice (Rect.unit (s := S25600x128x128) off S2x128x128.size inb) (fun _ => rfl)).view.emb (ix3 t r q) = ix3 ⟨b0 + t.val, h⟩ r q := by
  subst hoff
  show (Rect.unit (s := S25600x128x128) ![b0, 0, 0] S2x128x128.size inb).emb (ix3 t r q) = _
  funext a
  refine Fin.ext ?_
  rw [Rect.emb_apply]
  match a with
  | ⟨0, _⟩ =>
    show b0 + 1 * t.val = b0 + t.val
    omega
  | ⟨1, _⟩ =>
    show 0 + 1 * r.val = r.val
    omega
  | ⟨2, _⟩ =>
    show 0 + 1 * q.val = q.val
    omega

/-- THE PAIR AFTER ITS COPY-OUT: when the two quarters of a half read blocks b0 and b0 + 1 of a function G of the result's
    indices, the pair of result blocks at b0 filled by the copy of the half holds G on its elements. -/
theorem pair_value (pp : Fin 2) (d : Dev nD) (c : Fin τ.nSC) (j : Fin τ.nSub) (A B : Buf (Elt F) ((rwV).view.loc (V d c j)))
    (G : S25600x128x128.Idx → Elt F .f32) {off : Fin 3 → ℕ} (inb : ∀ a, off a + S2x128x128.size a ≤ S25600x128x128.size a) {b0 : ℕ}
    (hoff : off = ![b0, 0, 0]) (hb0 : b0 + 2 ≤ 25600)
    (hA : ∀ r q : Fin 128, (quarterM pp 0).view.read (Elt F) A (ix2 r q) = G (ix3 ⟨b0, by omega⟩ r q))
    (hB : ∀ r q : Fin 128, (quarterM pp 1).view.read (Elt F) B (ix2 r q) = G (ix3 ⟨b0 + 1, by omega⟩ r q))
    (fo' : Buf (Elt F) (oLoc d)) :
    ∀ i ∈ ((oV).slice (Rect.unit (s := S25600x128x128) off S2x128x128.size inb) (fun _ => rfl)).view.set,
      (((oV).slice (Rect.unit (s := S25600x128x128) off S2x128x128.size inb) (fun _ => rfl)).view.writes (Elt F) fo' [⟨Rect.whole (Rect.unit (s := S25600x128x128) off S2x128x128.size inb).shape,
        ReadAs.same.apply (View.read (Elt F) (halfM pp).view ((quarterM pp 0).view.set.piecewise A B))⟩]) i = G i := by
  intro i hi
  obtain ⟨y, -, rfl⟩ := Finset.mem_map.mp hi
  obtain ⟨t, r, q, rfl⟩ : ∃ (t : Fin 2) (r q : Fin 128), y = ix3 t r q := ⟨y 0, y 1, y 2, eq_ix3 y⟩
  have ht : t.val < 2 := t.isLt
  have h1 := congrFun (View.read_writes_whole (Val := Elt F) ((oV).slice (Rect.unit (s := S25600x128x128) off S2x128x128.size inb) (fun _ => rfl)).view fo'
    (ReadAs.same.apply (View.read (Elt F) (halfM pp).view ((quarterM pp 0).view.set.piecewise A B)))) (ix3 t r q)
  rw [View.read_apply] at h1
  refine ((cast_eq _ _).symm.trans h1).trans ?_
  rw [ReadAs.apply_same, View.read_apply, half_quarter_emb, pair_emb inb hoff t r q (by omega)]
  refine (cast_eq _ _).trans ?_
  have ht' : t = 0 ∨ t = 1 := by
    rcases (show t.val = 0 ∨ t.val = 1 by omega) with h | h
    · exact Or.inl (Fin.ext h)
    · exact Or.inr (Fin.ext h)
  rcases ht' with rfl | rfl
  · have hm : (quarterM pp 0).view.emb (ix2 r q) ∈ (quarterM pp 0).view.set := View.emb_mem_set _ _
    refine (Finset.piecewise_eq_of_mem _ _ _ hm).trans ?_
    have h2 := hA r q
    rw [View.read_apply] at h2
    exact (cast_eq _ _).symm.trans h2
  · have hm : (quarterM pp 1).view.emb (ix2 r q) ∈ (quarterM pp 1).view.set := View.emb_mem_set _ _
    refine (Finset.piecewise_eq_of_notMem _ _ _ (Finset.disjoint_right.mp (quarterM_disjoint pp) hm)).trans ?_
    have h2 := hB r q
    rw [View.read_apply] at h2
    exact (cast_eq _ _).symm.trans h2

end Cert.Proof.KB

end
-- ==== Proof.BClean.lean ====
/-
  An outstanding transfer held with the delivery the machine states — the destination at what was written over its old
  contents, the source back — is the transfer held with the delivery said in the tile's own words: a block whose words are
  a run of the flat list, a quarter whose rows are a block of the lookup. The two deliveries differ only in how the
  destination's contents are described, and what a transfer delivers may be weakened.
-/
import proofs.«205114_g12446815224155_cont_fleet_488_32_alg».proof.Proof.BInv
import proofs.«205114_g12446815224155_cont_fleet_488_32_alg».proof.Proof.BValue

set_option maxRecDepth 16384

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (shareTok shareDrop)

variable {F : FTy → Type}
local notation "𝕄" => MT nD τ sig (HIx 1) (Elt F) ℕ UU ℕ
local notation "iV" => (Memref.whole Cert.Kernel.main_v0_scv : Memref Cert.Kernel.sig Kind.scVector Space.hbm Cert.Kernel.S3276800 EltTy.i32)
local notation "oV" => (Memref.whole Cert.Kernel.main_v1_scv : Memref Cert.Kernel.sig Kind.scVector Space.hbm Cert.Kernel.S25600x128x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)

variable (fi : (d : Dev nD) → Buf (Elt F) (idxLoc d)) (ft : (d : Dev nD) → Buf (Elt F) (tabLoc d))
variable [FloatOps F]

/-! ## What a gather leaves -/

/-- A word of a list of a block that holds run g of the worker's part of the list is the flat list's word 128 s further
    on in the run. -/
theorem list_word (d : Dev nD) (L : grid0.Coords) (bb : Fin 2) (s : Fin 8) (g : ℕ) (f : Buf (Elt F) ((ibV).view.loc (V d (cV L) (jV L))))
    (hslot : SlotIs fi d L bb g f) (r : Fin 128) :
    ∃ h : 102400 * (wL L).val + 1024 * g + 128 * s.val + r.val < 3276800,
      ((listM bb s).view.read (Elt F) f (ix1 r) : BitVec 32) = fi d (ix1 ⟨102400 * (wL L).val + 1024 * g + 128 * s.val + r.val, h⟩) := by
  have hs : s.val < 8 := s.isLt
  have hr' : r.val < 128 := r.isLt
  obtain ⟨h, e⟩ := hslot (ix1 ⟨128 * s.val + r.val, by omega⟩)
  have h' : 102400 * (wL L).val + 1024 * g + 128 * s.val + r.val < 3276800 := by
    have e0 : ((ix1 (⟨128 * s.val + r.val, by omega⟩ : Fin 1024) : S1024.Idx) 0).val = 128 * s.val + r.val := rfl
    rw [e0] at h
    omega
  refine ⟨h', (list_of_slot bb s d (cV L) (jV L) f (ix1 r)).trans (e.trans (congrArg (fi d) (congrArg ix1 (Fin.ext ?_))))⟩
  show 102400 * (wL L).val + 1024 * g + (128 * s.val + r.val) = 102400 * (wL L).val + 1024 * g + 128 * s.val + r.val
  omega

/-- When every word of the flat list is between 0 and 2, so is every word of such a list. -/
theorem list_range (hr : InRange fi) (d : Dev nD) (L : grid0.Coords) (bb : Fin 2) (s : Fin 8) (g : ℕ)
    (f : Buf (Elt F) ((ibV).view.loc (V d (cV L) (jV L)))) (hslot : SlotIs fi d L bb g f) :
    ∀ x, 0 ≤ (((listM bb s).view.read (Elt F) f x : BitVec 32)).toInt ∧ (((listM bb s).view.read (Elt F) f x : BitVec 32)).toInt ≤ 2 := by
  intro x
  obtain ⟨r, rfl⟩ : ∃ r : Fin 128, x = ix1 r := ⟨x 0, eq_ix1 x⟩
  obtain ⟨h, e⟩ := list_word fi d L bb s g f hslot r
  rw [e]
  exact hr d _

/-- When every word of the flat list is between 0 and 2, so is every word of a block that holds a run of it. -/
theorem slot_range (hr : InRange fi) (d : Dev nD) (L : grid0.Coords) (bb : Fin 2) (g : ℕ)
    (f : Buf (Elt F) ((ibV).view.loc (V d (cV L) (jV L)))) (hs : SlotIs fi d L bb g f) :
    ∀ x, 0 ≤ (((slotM bb).view.read (Elt F) f x : BitVec 32)).toInt ∧ (((slotM bb).view.read (Elt F) f x : BitVec 32)).toInt ≤ 2 := by
  intro x
  obtain ⟨h, e⟩ := hs x
  rw [e]
  exact hr d _

/-- WHAT A GATHER LEAVES: a quarter filled by the gather of the table along list s of a block that holds run g of the
    worker's part of the list reads block 8 g + s of the worker's slice of the lookup, whatever the quarter held before. -/
theorem gather_fact (hr : InRange fi) (d : Dev nD) (L : grid0.Coords) (bb : Fin 2) (s : Fin 8) (pp sq : Fin 2) (g : ℕ) (hg : g < 100)
    (f : Buf (Elt F) ((ibV).view.loc (V d (cV L) (jV L)))) (hs : SlotIs fi d L bb g f) (a0 : Buf (Elt F) ((rwV).view.loc (V d (cV L) (jV L))))
    (hn : S128.numel = S128x128.size gathers_S3x128_S128x128.axis')
    (hin : ∀ x, ((View.read (Elt F) (listM bb s).view f x : BitVec 32)).toNat < S3x128.size gathers_S3x128_S128x128.axis) :
    QuarterIs fi ft d L pp sq (8 * g + s.val) ((quarterM pp sq).view.writes (Elt F) a0 [⟨Rect.whole S128x128,
      SparseCore.gatherPayload (F := F) gathers_S3x128_S128x128 (View.read (Elt F) (shAll).view (ft d))
        (SparseCore.rows (F := F) (View.read (Elt F) (listM bb s).view f) hn hin)⟩]) := by
  have hw32 : (wL L).val < 32 := (wL L).isLt
  have hs8 : s.val < 8 := s.isLt
  have hb : 800 * (wL L).val + (8 * g + s.val) < 25600 := by omega
  intro r q
  refine ⟨hb, ?_⟩
  rw [tab_read]
  refine quarter_value pp sq d (cV L) (jV L) a0 (ft d) (fi d) (View.read (Elt F) (listM bb s).view f) hn hin
    (list_range fi hr d L bb s g f hs) ⟨800 * (wL L).val + (8 * g + s.val), hb⟩ (fun r' => ?_) r q
  obtain ⟨h, e⟩ := list_word fi d L bb s g f hs r'
  refine e.trans (congrArg (fi d) (congrArg ix1 (Fin.ext ?_)))
  show 102400 * (wL L).val + 1024 * g + 128 * s.val + r'.val = (800 * (wL L).val + (8 * g + s.val)) * 128 + r'.val
  omega

/-! ## The copy of a run of the list into a block -/

/-- The copy of run g of the worker's part of the list into block 0, held with the machine's delivery, is held with the
    block at the run's words. -/
theorem idx_clean0 (_hr : InRange fi) (d : Dev nD) (L : grid0.Coords) (sm : SemLoc sig) (ι : HIx 1) (N : ℕ)
    (a0 : Buf (Elt F) ((ibV).view.loc (V d (cV L) (jV L)))) {off : Fin 1 → ℕ} (inb : ∀ a, off a + S1024.size a ≤ S3276800.size a)
    (g : ℕ) (hg : g < 100) (hoff : off = ![102400 * (wL L).val + 1024 * g]) :
    (Transfers.Flight countersEmb (V d (cV L) (jV L)) sm ι N
        iprop(((((ibV).slice (Rect.unit (s := S2x1024) ![0, 0] S1x1024.size inb_S2x1024_S1x1024_0_0) (fun _ => rfl)).squeeze S1024 squeezes_S1x1024_S1024).view.loc (V d (cV L) (jV L)) ↦[(((ibV).slice (Rect.unit (s := S2x1024) ![0, 0] S1x1024.size inb_S2x1024_S1x1024_0_0) (fun _ => rfl)).squeeze S1024 squeezes_S1x1024_S1024).view.set]{fullShare}
              ((((ibV).slice (Rect.unit (s := S2x1024) ![0, 0] S1x1024.size inb_S2x1024_S1x1024_0_0) (fun _ => rfl)).squeeze S1024 squeezes_S1x1024_S1024).view.writes (Elt F) a0 [⟨Rect.whole S1024, ReadAs.same.apply (View.read (Elt F) ((iV).slice (Rect.unit (s := S3276800) off S1024.size inb) (fun _ => rfl)).view (fi d))⟩]))
          ∗ ((iV).view.loc (V d (cV L) (jV L)) ↦[((iV).slice (Rect.unit (s := S3276800) off S1024.size inb) (fun _ => rfl)).view.set]{iTok (wL L)} fi d)) : sProp 𝕄)
      ⊢ Transfers.Flight countersEmb (V d (cV L) (jV L)) sm ι N (IdxD0 fi d L g hg) := by
  refine Transfers.Flight_mono countersEmb (V d (cV L) (jV L)) ?_
  subst hoff
  iintro ⟨H1, H2⟩
  isplitl [H1]
  · iexists _
    isplitl [H1]; · iexact H1
    ipureintro
    intro x
    exact slot_value 0 d (cV L) (jV L) a0 (fi d) inb rfl x
  · iexact H2

/-- What the copy of run g of the worker's part of the list into block 1 delivers: the block at the run's words, and the
    list's share back. -/
abbrev IdxD1 (d : Dev nD) (L : grid0.Coords) (g : ℕ) (hg : g < 100) : sProp 𝕄 :=
  iprop((∃ f : Buf (Elt F) ((ibV).view.loc (V d (cV L) (jV L))), ((((ibV).slice (Rect.unit (s := S2x1024) ![1, 0] S1x1024.size inb_S2x1024_S1x1024_1_0) (fun _ => rfl)).squeeze S1024 squeezes_S1x1024_S1024).view.loc (V d (cV L) (jV L)) ↦[(((ibV).slice (Rect.unit (s := S2x1024) ![1, 0] S1x1024.size inb_S2x1024_S1x1024_1_0) (fun _ => rfl)).squeeze S1024 squeezes_S1x1024_S1024).view.set]{fullShare} f) ∗ ⌜SlotIs fi d L 1 g f⌝)
    ∗ ((iV).view.loc (V d (cV L) (jV L)) ↦[(idxBlk L g hg).view.set]{iTok (wL L)} fi d))

/-- The same copy into block 1. -/
theorem idx_clean1 (_hr : InRange fi) (d : Dev nD) (L : grid0.Coords) (sm : SemLoc sig) (ι : HIx 1) (N : ℕ)
    (a0 : Buf (Elt F) ((ibV).view.loc (V d (cV L) (jV L)))) {off : Fin 1 → ℕ} (inb : ∀ a, off a + S1024.size a ≤ S3276800.size a)
    (g : ℕ) (hg : g < 100) (hoff : off = ![102400 * (wL L).val + 1024 * g]) :
    (Transfers.Flight countersEmb (V d (cV L) (jV L)) sm ι N
        iprop(((((ibV).slice (Rect.unit (s := S2x1024) ![1, 0] S1x1024.size inb_S2x1024_S1x1024_1_0) (fun _ => rfl)).squeeze S1024 squeezes_S1x1024_S1024).view.loc (V d (cV L) (jV L)) ↦[(((ibV).slice (Rect.unit (s := S2x1024) ![1, 0] S1x1024.size inb_S2x1024_S1x1024_1_0) (fun _ => rfl)).squeeze S1024 squeezes_S1x1024_S1024).view.set]{fullShare}
              ((((ibV).slice (Rect.unit (s := S2x1024) ![1, 0] S1x1024.size inb_S2x1024_S1x1024_1_0) (fun _ => rfl)).squeeze S1024 squeezes_S1x1024_S1024).view.writes (Elt F) a0 [⟨Rect.whole S1024, ReadAs.same.apply (View.read (Elt F) ((iV).slice (Rect.unit (s := S3276800) off S1024.size inb) (fun _ => rfl)).view (fi d))⟩]))
          ∗ ((iV).view.loc (V d (cV L) (jV L)) ↦[((iV).slice (Rect.unit (s := S3276800) off S1024.size inb) (fun _ => rfl)).view.set]{iTok (wL L)} fi d)) : sProp 𝕄)
      ⊢ Transfers.Flight countersEmb (V d (cV L) (jV L)) sm ι N (IdxD1 fi d L g hg) := by
  refine Transfers.Flight_mono countersEmb (V d (cV L) (jV L)) ?_
  subst hoff
  iintro ⟨H1, H2⟩
  isplitl [H1]
  · iexists _
    isplitl [H1]; · iexact H1
    ipureintro
    intro x
    exact slot_value 1 d (cV L) (jV L) a0 (fi d) inb rfl x
  · iexact H2

/-- What is left of the worker's share of the list beside the run, said with the run as the copy names it and as the
    invariant names it. -/
theorem idx_rest (d : Dev nD) (L : grid0.Coords) {off : Fin 1 → ℕ} (inb : ∀ a, off a + S1024.size a ≤ S3276800.size a)
    (g : ℕ) (hg : g < 100) (hoff : off = ![102400 * (wL L).val + 1024 * g]) :
    ((iV).view.loc (V d (cV L) (jV L)) ↦[(iV).view.set \ ((iV).slice (Rect.unit (s := S3276800) off S1024.size inb) (fun _ => rfl)).view.set]{iTok (wL L)} fi d : sProp 𝕄)
      = ((iV).view.loc (V d (cV L) (jV L)) ↦[(iV).view.set \ (idxBlk L g hg).view.set]{iTok (wL L)} fi d) := by
  subst hoff
  rfl

/-! ## The gathers of the last two lists of block 1 -/

theorem gath_clean10 (hr : InRange fi) (d : Dev nD) (L : grid0.Coords) (sm : SemLoc sig) (ι : HIx 1) (N : ℕ)
    (a0 : Buf (Elt F) ((rwV).view.loc (V d (cV L) (jV L)))) (f : Buf (Elt F) ((ibV).view.loc (V d (cV L) (jV L)))) (g : ℕ) (hg : g < 100)
    (hslot : SlotIs fi d L 1 g f)
    (hn : S128.numel = S128x128.size gathers_S3x128_S128x128.axis')
    (hin : ∀ x, ((View.read (Elt F) (((ibV).slice (Rect.unit (s := S2x1024) ![1, 768] S1x128.size inb_S2x1024_S1x128_1_768) (fun _ => rfl)).squeeze S128 squeezes_S1x128_S128).view f x : BitVec 32)).toNat < S3x128.size gathers_S3x128_S128x128.axis) :
    (Transfers.Flight countersEmb (V d (cV L) (jV L)) sm ι N
        iprop((((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare}
              ((((rwV).slice (Rect.unit (s := S2x2x128x128) ![1, 0, 0, 0] S1x1x128x128.size inb_S2x2x128x128_S1x1x128x128_1_0_0_0) (fun _ => rfl)).squeeze S128x128 squeezes_S1x1x128x128_S128x128).view.writes (Elt F) a0 [⟨Rect.whole S128x128, SparseCore.gatherPayload (F := F) gathers_S3x128_S128x128
                (View.read (Elt F) (shAll).view (ft d)) (SparseCore.rows (F := F) (View.read (Elt F) (((ibV).slice (Rect.unit (s := S2x1024) ![1, 768] S1x128.size inb_S2x1024_S1x128_1_768) (fun _ => rfl)).squeeze S128 squeezes_S1x128_S128).view f) hn hin)⟩]))
            ∗ ((((ibV).slice (Rect.unit (s := S2x1024) ![1, 768] S1x128.size inb_S2x1024_S1x128_1_768) (fun _ => rfl)).squeeze S128 squeezes_S1x128_S128).view.loc (V d (cV L) (jV L)) ↦[(((ibV).slice (Rect.unit (s := S2x1024) ![1, 768] S1x128.size inb_S2x1024_S1x128_1_768) (fun _ => rfl)).squeeze S128 squeezes_S1x128_S128).view.set]{fullShare} f))
          ∗ ((shV).view.loc (V d (cV L) (jV L)) ↦[(shAll).view.set]{shareTok (shTok (jV L)) 9 4} ft d)) : sProp 𝕄)
      ⊢ Transfers.Flight countersEmb (V d (cV L) (jV L)) sm ι N (GathD10 fi ft d L (8 * g + 6) f) := by
  refine Transfers.Flight_mono countersEmb (V d (cV L) (jV L)) ?_
  have hw32 : (wL L).val < 32 := (wL L).isLt
  have hb : 800 * (wL L).val + (8 * g + 6) < 25600 := by omega
  iintro ⟨⟨H1, H2⟩, H3⟩
  isplitr [H3]
  · isplitl [H1]
    · iexists _
      isplitl [H1]; · iexact H1
      ipureintro
      intro r q
      refine ⟨hb, ?_⟩
      rw [tab_read]
      refine quarter_value 1 0 d (cV L) (jV L) a0 (ft d) (fi d) (View.read (Elt F) (((ibV).slice (Rect.unit (s := S2x1024) ![1, 768] S1x128.size inb_S2x1024_S1x128_1_768) (fun _ => rfl)).squeeze S128 squeezes_S1x128_S128).view f) hn hin
        (list_range fi hr d L 1 6 g f hslot) ⟨800 * (wL L).val + (8 * g + 6), hb⟩ (fun r' => ?_) r q
      obtain ⟨h, e⟩ := list_word fi d L 1 6 g f hslot r'
      refine e.trans (congrArg (fi d) (congrArg ix1 (Fin.ext ?_)))
      show 102400 * (wL L).val + 1024 * g + 128 * 6 + r'.val = (800 * (wL L).val + (8 * g + 6)) * 128 + r'.val
      omega
    · iexact H2
  · iexact H3

theorem gath_clean11 (hr : InRange fi) (d : Dev nD) (L : grid0.Coords) (sm : SemLoc sig) (ι : HIx 1) (N : ℕ)
    (a0 : Buf (Elt F) ((rwV).view.loc (V d (cV L) (jV L)))) (f : Buf (Elt F) ((ibV).view.loc (V d (cV L) (jV L)))) (g : ℕ) (hg : g < 100)
    (hslot : SlotIs fi d L 1 g f)
    (hn : S128.numel = S128x128.size gathers_S3x128_S128x128.axis')
    (hin : ∀ x, ((View.read (Elt F) (((ibV).slice (Rect.unit (s := S2x1024) ![1, 896] S1x128.size inb_S2x1024_S1x128_1_896) (fun _ => rfl)).squeeze S128 squeezes_S1x128_S128).view f x : BitVec 32)).toNat < S3x128.size gathers_S3x128_S128x128.axis) :
    (Transfers.Flight countersEmb (V d (cV L) (jV L)) sm ι N
        iprop((((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare}
              ((((rwV).slice (Rect.unit (s := S2x2x128x128) ![1, 1, 0, 0] S1x1x128x128.size inb_S2x2x128x128_S1x1x128x128_1_1_0_0) (fun _ => rfl)).squeeze S128x128 squeezes_S1x1x128x128_S128x128).view.writes (Elt F) a0 [⟨Rect.whole S128x128, SparseCore.gatherPayload (F := F) gathers_S3x128_S128x128
                (View.read (Elt F) (shAll).view (ft d)) (SparseCore.rows (F := F) (View.read (Elt F) (((ibV).slice (Rect.unit (s := S2x1024) ![1, 896] S1x128.size inb_S2x1024_S1x128_1_896) (fun _ => rfl)).squeeze S128 squeezes_S1x128_S128).view f) hn hin)⟩]))
            ∗ ((((ibV).slice (Rect.unit (s := S2x1024) ![1, 896] S1x128.size inb_S2x1024_S1x128_1_896) (fun _ => rfl)).squeeze S128 squeezes_S1x128_S128).view.loc (V d (cV L) (jV L)) ↦[(((ibV).slice (Rect.unit (s := S2x1024) ![1, 896] S1x128.size inb_S2x1024_S1x128_1_896) (fun _ => rfl)).squeeze S128 squeezes_S1x128_S128).view.set]{fullShare} f))
          ∗ ((shV).view.loc (V d (cV L) (jV L)) ↦[(shAll).view.set]{shareTok (shTok (jV L)) 9 5} ft d)) : sProp 𝕄)
      ⊢ Transfers.Flight countersEmb (V d (cV L) (jV L)) sm ι N (GathD11 fi ft d L (8 * g + 7) f) := by
  refine Transfers.Flight_mono countersEmb (V d (cV L) (jV L)) ?_
  have hw32 : (wL L).val < 32 := (wL L).isLt
  have hb : 800 * (wL L).val + (8 * g + 7) < 25600 := by omega
  iintro ⟨⟨H1, H2⟩, H3⟩
  isplitr [H3]
  · isplitl [H1]
    · iexists _
      isplitl [H1]; · iexact H1
      ipureintro
      intro r q
      refine ⟨hb, ?_⟩
      rw [tab_read]
      refine quarter_value 1 1 d (cV L) (jV L) a0 (ft d) (fi d) (View.read (Elt F) (((ibV).slice (Rect.unit (s := S2x1024) ![1, 896] S1x128.size inb_S2x1024_S1x128_1_896) (fun _ => rfl)).squeeze S128 squeezes_S1x128_S128).view f) hn hin
        (list_range fi hr d L 1 7 g f hslot) ⟨800 * (wL L).val + (8 * g + 7), hb⟩ (fun r' => ?_) r q
      obtain ⟨h, e⟩ := list_word fi d L 1 7 g f hslot r'
      refine e.trans (congrArg (fi d) (congrArg ix1 (Fin.ext ?_)))
      show 102400 * (wL L).val + 1024 * g + 128 * 7 + r'.val = (800 * (wL L).val + (8 * g + 7)) * 128 + r'.val
      omega
    · iexact H2
  · iexact H3

end Cert.Proof.KB

end
-- ==== Proof.BGen.lean ====
/-
  A quarter of the rows buffer a gather has filled holds SOME contents whose rows, read through the quarter, are the
  lookup's rows of the result block the list names: the gather's prior contents and the evidence it carried are forgotten.
-/
import proofs.«205114_g12446815224155_cont_fleet_488_32_alg».proof.Proof.BClean

set_option maxRecDepth 16384

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}
local notation "𝕄" => MT nD τ sig (HIx 1) (Elt F) ℕ UU ℕ
local notation "shV" => (Memref.whole Cert.Kernel.cc0_scratch0 : Memref Cert.Kernel.sig Kind.scVector Space.shared Cert.Kernel.S3x128 EltTy.f32)
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)

variable (fi : (d : Dev nD) → Buf (Elt F) (idxLoc d)) (ft : (d : Dev nD) → Buf (Elt F) (tabLoc d))
variable [FloatOps F]

/-- The same quarter fact, the result block named by an equal number. -/
theorem QuarterIs_cast {d : Dev nD} {L : grid0.Coords} {pp s : Fin 2} {blk blk' : ℕ} (h : blk = blk') {a : Buf (Elt F) ((rwV).view.loc (V d (cV L) (jV L)))}
    (hq : QuarterIs fi ft d L pp s blk a) : QuarterIs fi ft d L pp s blk' a := h ▸ hq

/-- Whatever a piece of a buffer holds can be named: the piece at some contents, and that contents is the one it held. -/
theorem pts_name {ℓ : Loc nD τ sig} (S : Finset (Idx ℓ)) (q : PosShare TreeShare) (c : Buf (Elt F) ℓ) :
    (ℓ ↦[S]{q} c : sProp 𝕄) ⊢ iprop(∃ a : Buf (Elt F) ℓ, (ℓ ↦[S]{q} a) ∗ ⌜a = c⌝) := by
  iintro H
  iexists c
  isplitl [H]; · iexact H
  ipureintro; rfl

/-- A transfer outstanding with one delivery is as good as the same transfer with any delivery the first entails, in
    whatever remains to be shown. -/
theorem flight_conv {c : Thread nD τ} {sm : SemLoc sig} {ι : HIx 1} {N : ℕ} {D D' R : sProp 𝕄} (h : D ⊢ D') :
    iprop(Transfers.Flight countersEmb c sm ι N D ∗ (Transfers.Flight countersEmb c sm ι N D' -∗ R)) ⊢ R := by
  iintro ⟨HF, HR⟩
  iapply HR
  iapply (Transfers.Flight_mono countersEmb c h) $$ HF

/-- Whatever an outstanding transfer will deliver can be named. -/
theorem flight_name {c : Thread nD τ} {sm : SemLoc sig} {ι : HIx 1} {N : ℕ} (D : sProp 𝕄) :
    (Transfers.Flight countersEmb c sm ι N D : sProp 𝕄) ⊢ iprop(∃ D₀ : sProp 𝕄, Transfers.Flight countersEmb c sm ι N D₀ ∗ ⌜D₀ = D⌝) := by
  iintro H
  iexists D
  isplitl [H]; · iexact H
  ipureintro; rfl

/-- The first six lists of slot 1, one by one. -/
theorem six_lists (d : Dev nD) (c : Fin τ.nSC) (j : Fin τ.nSub) (f : Buf (Elt F) ((ibV).view.loc (V d c j))) :
    (bigSep (((Finset.univ : Finset (Fin 8)).erase 6).erase 7) fun s : Fin 8 => ((listM 1 s).view.loc (V d c j) ↦[(listM 1 s).view.set]{fullShare} f : sProp 𝕄))
      = iprop(((listM 1 0).view.loc (V d c j) ↦[(listM 1 0).view.set]{fullShare} f) ∗ ((listM 1 1).view.loc (V d c j) ↦[(listM 1 1).view.set]{fullShare} f)
          ∗ ((listM 1 2).view.loc (V d c j) ↦[(listM 1 2).view.set]{fullShare} f) ∗ ((listM 1 3).view.loc (V d c j) ↦[(listM 1 3).view.set]{fullShare} f)
          ∗ ((listM 1 4).view.loc (V d c j) ↦[(listM 1 4).view.set]{fullShare} f) ∗ ((listM 1 5).view.loc (V d c j) ↦[(listM 1 5).view.set]{fullShare} f)) := by
  rw [show (((Finset.univ : Finset (Fin 8)).erase 6).erase 7) = {0, 1, 2, 3, 4, 5} by decide,
    SparseCore.bigSep_insert' (by decide), SparseCore.bigSep_insert' (by decide), SparseCore.bigSep_insert' (by decide), SparseCore.bigSep_insert' (by decide),
    SparseCore.bigSep_insert' (by decide), bigSep_singleton]

theorem quarter_gen_0_0 (hr : InRange (F := F) fi) (d : Dev nD) (L : grid0.Coords) (g : ℕ) (hg : g < 100) (f : Buf (Elt F) ((ibV).view.loc (V d (cV L) (jV L)))) (hs : SlotIs fi d L 0 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![0, 0] S1x128.size inb_S2x1024_S1x128_0_0) (fun _ => rfl)).squeeze S128 squeezes_S1x128_S128).view f x : BitVec 32)).toNat < S3x128.size gathers_S3x128_S128x128.axis) :
    ((((rwV).slice (Rect.unit (s := S2x2x128x128) ![0, 0, 0, 0] S1x1x128x128.size inb_S2x2x128x128_S1x1x128x128_0_0_0_0) (fun _ => rfl)).squeeze S128x128 squeezes_S1x1x128x128_S128x128).view.loc (V d (cV L) (jV L)) ↦[(((rwV).slice (Rect.unit (s := S2x2x128x128) ![0, 0, 0, 0] S1x1x128x128.size inb_S2x2x128x128_S1x1x128x128_0_0_0_0) (fun _ => rfl)).squeeze S128x128 squeezes_S1x1x128x128_S128x128).view.set]{fullShare} ((((rwV).slice (Rect.unit (s := S2x2x128x128) ![0, 0, 0, 0] S1x1x128x128.size inb_S2x2x128x128_S1x1x128x128_0_0_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![0, 0] S1x128.size inb_S2x1024_S1x128_0_0) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![0, 0, 0, 0] S1x1x128x128.size inb_S2x2x128x128_S1x1x128x128_0_0_0_0) (fun _ => rfl)).squeeze S128x128 squeezes_S1x1x128x128_S128x128).view.loc (V d (cV L) (jV L)) ↦[(((rwV).slice (Rect.unit (s := S2x2x128x128) ![0, 0, 0, 0] S1x1x128x128.size inb_S2x2x128x128_S1x1x128x128_0_0_0_0) (fun _ => rfl)).squeeze S128x128 squeezes_S1x1x128x128_S128x128).view.set]{fullShare} a) ∗ ⌜QuarterIs fi ft d L 0 0 (8 * g + 0) a⌝) := by
  iintro H
  iexists _
  isplitl [H]; · iexact H
  ipureintro
  exact gather_fact (F := F) fi ft hr d L 0 0 0 0 g hg f hs a0 hn hin

theorem quarter_gen_0_1 (hr : InRange (F := F) fi) (d : Dev nD) (L : grid0.Coords) (g : ℕ) (hg : g < 100) (f : Buf (Elt F) ((ibV).view.loc (V d (cV L) (jV L)))) (hs : SlotIs fi d L 0 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![0, 128] S1x128.size inb_S2x1024_S1x128_0_128) (fun _ => rfl)).squeeze S128 squeezes_S1x128_S128).view f x : BitVec 32)).toNat < S3x128.size gathers_S3x128_S128x128.axis) :
    ((((rwV).slice (Rect.unit (s := S2x2x128x128) ![0, 1, 0, 0] S1x1x128x128.size inb_S2x2x128x128_S1x1x128x128_0_1_0_0) (fun _ => rfl)).squeeze S128x128 squeezes_S1x1x128x128_S128x128).view.loc (V d (cV L) (jV L)) ↦[(((rwV).slice (Rect.unit (s := S2x2x128x128) ![0, 1, 0, 0] S1x1x128x128.size inb_S2x2x128x128_S1x1x128x128_0_1_0_0) (fun _ => rfl)).squeeze S128x128 squeezes_S1x1x128x128_S128x128).view.set]{fullShare} ((((rwV).slice (Rect.unit (s := S2x2x128x128) ![0, 1, 0, 0] S1x1x128x128.size inb_S2x2x128x128_S1x1x128x128_0_1_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![0, 128] S1x128.size inb_S2x1024_S1x128_0_128) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![0, 1, 0, 0] S1x1x128x128.size inb_S2x2x128x128_S1x1x128x128_0_1_0_0) (fun _ => rfl)).squeeze S128x128 squeezes_S1x1x128x128_S128x128).view.loc (V d (cV L) (jV L)) ↦[(((rwV).slice (Rect.unit (s := S2x2x128x128) ![0, 1, 0, 0] S1x1x128x128.size inb_S2x2x128x128_S1x1x128x128_0_1_0_0) (fun _ => rfl)).squeeze S128x128 squeezes_S1x1x128x128_S128x128).view.set]{fullShare} a) ∗ ⌜QuarterIs fi ft d L 0 1 (8 * g + 1) a⌝) := by
  iintro H
  iexists _
  isplitl [H]; · iexact H
  ipureintro
  exact gather_fact (F := F) fi ft hr d L 0 1 0 1 g hg f hs a0 hn hin

theorem quarter_gen_0_2 (hr : InRange (F := F) fi) (d : Dev nD) (L : grid0.Coords) (g : ℕ) (hg : g < 100) (f : Buf (Elt F) ((ibV).view.loc (V d (cV L) (jV L)))) (hs : SlotIs fi d L 0 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![0, 256] S1x128.size inb_S2x1024_S1x128_0_256) (fun _ => rfl)).squeeze S128 squeezes_S1x128_S128).view f x : BitVec 32)).toNat < S3x128.size gathers_S3x128_S128x128.axis) :
    ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} ((((rwV).slice (Rect.unit (s := S2x2x128x128) ![1, 0, 0, 0] S1x1x128x128.size inb_S2x2x128x128_S1x1x128x128_1_0_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![0, 256] S1x128.size inb_S2x1024_S1x128_0_256) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} a) ∗ ⌜QuarterIs fi ft d L 1 0 (8 * g + 2) a⌝) := by
  iintro H
  iexists _
  isplitl [H]; · iexact H
  ipureintro
  exact gather_fact (F := F) fi ft hr d L 0 2 1 0 g hg f hs a0 hn hin

theorem quarter_gen_0_3 (hr : InRange (F := F) fi) (d : Dev nD) (L : grid0.Coords) (g : ℕ) (hg : g < 100) (f : Buf (Elt F) ((ibV).view.loc (V d (cV L) (jV L)))) (hs : SlotIs fi d L 0 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![0, 384] S1x128.size inb_S2x1024_S1x128_0_384) (fun _ => rfl)).squeeze S128 squeezes_S1x128_S128).view f x : BitVec 32)).toNat < S3x128.size gathers_S3x128_S128x128.axis) :
    ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} ((((rwV).slice (Rect.unit (s := S2x2x128x128) ![1, 1, 0, 0] S1x1x128x128.size inb_S2x2x128x128_S1x1x128x128_1_1_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![0, 384] S1x128.size inb_S2x1024_S1x128_0_384) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} a) ∗ ⌜QuarterIs fi ft d L 1 1 (8 * g + 3) a⌝) := by
  iintro H
  iexists _
  isplitl [H]; · iexact H
  ipureintro
  exact gather_fact (F := F) fi ft hr d L 0 3 1 1 g hg f hs a0 hn hin

theorem quarter_gen_0_4 (hr : InRange (F := F) fi) (d : Dev nD) (L : grid0.Coords) (g : ℕ) (hg : g < 100) (f : Buf (Elt F) ((ibV).view.loc (V d (cV L) (jV L)))) (hs : SlotIs fi d L 0 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![0, 512] S1x128.size inb_S2x1024_S1x128_0_512) (fun _ => rfl)).squeeze S128 squeezes_S1x128_S128).view f x : BitVec 32)).toNat < S3x128.size gathers_S3x128_S128x128.axis) :
    ((((rwV).slice (Rect.unit (s := S2x2x128x128) ![0, 0, 0, 0] S1x1x128x128.size inb_S2x2x128x128_S1x1x128x128_0_0_0_0) (fun _ => rfl)).squeeze S128x128 squeezes_S1x1x128x128_S128x128).view.loc (V d (cV L) (jV L)) ↦[(((rwV).slice (Rect.unit (s := S2x2x128x128) ![0, 0, 0, 0] S1x1x128x128.size inb_S2x2x128x128_S1x1x128x128_0_0_0_0) (fun _ => rfl)).squeeze S128x128 squeezes_S1x1x128x128_S128x128).view.set]{fullShare} ((((rwV).slice (Rect.unit (s := S2x2x128x128) ![0, 0, 0, 0] S1x1x128x128.size inb_S2x2x128x128_S1x1x128x128_0_0_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![0, 512] S1x128.size inb_S2x1024_S1x128_0_512) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![0, 0, 0, 0] S1x1x128x128.size inb_S2x2x128x128_S1x1x128x128_0_0_0_0) (fun _ => rfl)).squeeze S128x128 squeezes_S1x1x128x128_S128x128).view.loc (V d (cV L) (jV L)) ↦[(((rwV).slice (Rect.unit (s := S2x2x128x128) ![0, 0, 0, 0] S1x1x128x128.size inb_S2x2x128x128_S1x1x128x128_0_0_0_0) (fun _ => rfl)).squeeze S128x128 squeezes_S1x1x128x128_S128x128).view.set]{fullShare} a) ∗ ⌜QuarterIs fi ft d L 0 0 (8 * g + 4) a⌝) := by
  iintro H
  iexists _
  isplitl [H]; · iexact H
  ipureintro
  exact gather_fact (F := F) fi ft hr d L 0 4 0 0 g hg f hs a0 hn hin

theorem quarter_gen_0_5 (hr : InRange (F := F) fi) (d : Dev nD) (L : grid0.Coords) (g : ℕ) (hg : g < 100) (f : Buf (Elt F) ((ibV).view.loc (V d (cV L) (jV L)))) (hs : SlotIs fi d L 0 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![0, 640] S1x128.size inb_S2x1024_S1x128_0_640) (fun _ => rfl)).squeeze S128 squeezes_S1x128_S128).view f x : BitVec 32)).toNat < S3x128.size gathers_S3x128_S128x128.axis) :
    ((((rwV).slice (Rect.unit (s := S2x2x128x128) ![0, 1, 0, 0] S1x1x128x128.size inb_S2x2x128x128_S1x1x128x128_0_1_0_0) (fun _ => rfl)).squeeze S128x128 squeezes_S1x1x128x128_S128x128).view.loc (V d (cV L) (jV L)) ↦[(((rwV).slice (Rect.unit (s := S2x2x128x128) ![0, 1, 0, 0] S1x1x128x128.size inb_S2x2x128x128_S1x1x128x128_0_1_0_0) (fun _ => rfl)).squeeze S128x128 squeezes_S1x1x128x128_S128x128).view.set]{fullShare} ((((rwV).slice (Rect.unit (s := S2x2x128x128) ![0, 1, 0, 0] S1x1x128x128.size inb_S2x2x128x128_S1x1x128x128_0_1_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![0, 640] S1x128.size inb_S2x1024_S1x128_0_640) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![0, 1, 0, 0] S1x1x128x128.size inb_S2x2x128x128_S1x1x128x128_0_1_0_0) (fun _ => rfl)).squeeze S128x128 squeezes_S1x1x128x128_S128x128).view.loc (V d (cV L) (jV L)) ↦[(((rwV).slice (Rect.unit (s := S2x2x128x128) ![0, 1, 0, 0] S1x1x128x128.size inb_S2x2x128x128_S1x1x128x128_0_1_0_0) (fun _ => rfl)).squeeze S128x128 squeezes_S1x1x128x128_S128x128).view.set]{fullShare} a) ∗ ⌜QuarterIs fi ft d L 0 1 (8 * g + 5) a⌝) := by
  iintro H
  iexists _
  isplitl [H]; · iexact H
  ipureintro
  exact gather_fact (F := F) fi ft hr d L 0 5 0 1 g hg f hs a0 hn hin

theorem quarter_gen_0_6 (hr : InRange (F := F) fi) (d : Dev nD) (L : grid0.Coords) (g : ℕ) (hg : g < 100) (f : Buf (Elt F) ((ibV).view.loc (V d (cV L) (jV L)))) (hs : SlotIs fi d L 0 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![0, 768] S1x128.size inb_S2x1024_S1x128_0_768) (fun _ => rfl)).squeeze S128 squeezes_S1x128_S128).view f x : BitVec 32)).toNat < S3x128.size gathers_S3x128_S128x128.axis) :
    ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} ((((rwV).slice (Rect.unit (s := S2x2x128x128) ![1, 0, 0, 0] S1x1x128x128.size inb_S2x2x128x128_S1x1x128x128_1_0_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![0, 768] S1x128.size inb_S2x1024_S1x128_0_768) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} a) ∗ ⌜QuarterIs fi ft d L 1 0 (8 * g + 6) a⌝) := by
  iintro H
  iexists _
  isplitl [H]; · iexact H
  ipureintro
  exact gather_fact (F := F) fi ft hr d L 0 6 1 0 g hg f hs a0 hn hin

theorem quarter_gen_0_7 (hr : InRange (F := F) fi) (d : Dev nD) (L : grid0.Coords) (g : ℕ) (hg : g < 100) (f : Buf (Elt F) ((ibV).view.loc (V d (cV L) (jV L)))) (hs : SlotIs fi d L 0 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![0, 896] S1x128.size inb_S2x1024_S1x128_0_896) (fun _ => rfl)).squeeze S128 squeezes_S1x128_S128).view f x : BitVec 32)).toNat < S3x128.size gathers_S3x128_S128x128.axis) :
    ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} ((((rwV).slice (Rect.unit (s := S2x2x128x128) ![1, 1, 0, 0] S1x1x128x128.size inb_S2x2x128x128_S1x1x128x128_1_1_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![0, 896] S1x128.size inb_S2x1024_S1x128_0_896) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} a) ∗ ⌜QuarterIs fi ft d L 1 1 (8 * g + 7) a⌝) := by
  iintro H
  iexists _
  isplitl [H]; · iexact H
  ipureintro
  exact gather_fact (F := F) fi ft hr d L 0 7 1 1 g hg f hs a0 hn hin

theorem quarter_gen_1_0 (hr : InRange (F := F) fi) (d : Dev nD) (L : grid0.Coords) (g : ℕ) (hg : g < 100) (f : Buf (Elt F) ((ibV).view.loc (V d (cV L) (jV L)))) (hs : SlotIs fi d L 1 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![1, 0] S1x128.size inb_S2x1024_S1x128_1_0) (fun _ => rfl)).squeeze S128 squeezes_S1x128_S128).view f x : BitVec 32)).toNat < S3x128.size gathers_S3x128_S128x128.axis) :
    ((((rwV).slice (Rect.unit (s := S2x2x128x128) ![0, 0, 0, 0] S1x1x128x128.size inb_S2x2x128x128_S1x1x128x128_0_0_0_0) (fun _ => rfl)).squeeze S128x128 squeezes_S1x1x128x128_S128x128).view.loc (V d (cV L) (jV L)) ↦[(((rwV).slice (Rect.unit (s := S2x2x128x128) ![0, 0, 0, 0] S1x1x128x128.size inb_S2x2x128x128_S1x1x128x128_0_0_0_0) (fun _ => rfl)).squeeze S128x128 squeezes_S1x1x128x128_S128x128).view.set]{fullShare} ((((rwV).slice (Rect.unit (s := S2x2x128x128) ![0, 0, 0, 0] S1x1x128x128.size inb_S2x2x128x128_S1x1x128x128_0_0_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![1, 0] S1x128.size inb_S2x1024_S1x128_1_0) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![0, 0, 0, 0] S1x1x128x128.size inb_S2x2x128x128_S1x1x128x128_0_0_0_0) (fun _ => rfl)).squeeze S128x128 squeezes_S1x1x128x128_S128x128).view.loc (V d (cV L) (jV L)) ↦[(((rwV).slice (Rect.unit (s := S2x2x128x128) ![0, 0, 0, 0] S1x1x128x128.size inb_S2x2x128x128_S1x1x128x128_0_0_0_0) (fun _ => rfl)).squeeze S128x128 squeezes_S1x1x128x128_S128x128).view.set]{fullShare} a) ∗ ⌜QuarterIs fi ft d L 0 0 (8 * g + 0) a⌝) := by
  iintro H
  iexists _
  isplitl [H]; · iexact H
  ipureintro
  exact gather_fact (F := F) fi ft hr d L 1 0 0 0 g hg f hs a0 hn hin

theorem quarter_gen_1_1 (hr : InRange (F := F) fi) (d : Dev nD) (L : grid0.Coords) (g : ℕ) (hg : g < 100) (f : Buf (Elt F) ((ibV).view.loc (V d (cV L) (jV L)))) (hs : SlotIs fi d L 1 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![1, 128] S1x128.size inb_S2x1024_S1x128_1_128) (fun _ => rfl)).squeeze S128 squeezes_S1x128_S128).view f x : BitVec 32)).toNat < S3x128.size gathers_S3x128_S128x128.axis) :
    ((((rwV).slice (Rect.unit (s := S2x2x128x128) ![0, 1, 0, 0] S1x1x128x128.size inb_S2x2x128x128_S1x1x128x128_0_1_0_0) (fun _ => rfl)).squeeze S128x128 squeezes_S1x1x128x128_S128x128).view.loc (V d (cV L) (jV L)) ↦[(((rwV).slice (Rect.unit (s := S2x2x128x128) ![0, 1, 0, 0] S1x1x128x128.size inb_S2x2x128x128_S1x1x128x128_0_1_0_0) (fun _ => rfl)).squeeze S128x128 squeezes_S1x1x128x128_S128x128).view.set]{fullShare} ((((rwV).slice (Rect.unit (s := S2x2x128x128) ![0, 1, 0, 0] S1x1x128x128.size inb_S2x2x128x128_S1x1x128x128_0_1_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![1, 128] S1x128.size inb_S2x1024_S1x128_1_128) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![0, 1, 0, 0] S1x1x128x128.size inb_S2x2x128x128_S1x1x128x128_0_1_0_0) (fun _ => rfl)).squeeze S128x128 squeezes_S1x1x128x128_S128x128).view.loc (V d (cV L) (jV L)) ↦[(((rwV).slice (Rect.unit (s := S2x2x128x128) ![0, 1, 0, 0] S1x1x128x128.size inb_S2x2x128x128_S1x1x128x128_0_1_0_0) (fun _ => rfl)).squeeze S128x128 squeezes_S1x1x128x128_S128x128).view.set]{fullShare} a) ∗ ⌜QuarterIs fi ft d L 0 1 (8 * g + 1) a⌝) := by
  iintro H
  iexists _
  isplitl [H]; · iexact H
  ipureintro
  exact gather_fact (F := F) fi ft hr d L 1 1 0 1 g hg f hs a0 hn hin

theorem quarter_gen_1_2 (hr : InRange (F := F) fi) (d : Dev nD) (L : grid0.Coords) (g : ℕ) (hg : g < 100) (f : Buf (Elt F) ((ibV).view.loc (V d (cV L) (jV L)))) (hs : SlotIs fi d L 1 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![1, 256] S1x128.size inb_S2x1024_S1x128_1_256) (fun _ => rfl)).squeeze S128 squeezes_S1x128_S128).view f x : BitVec 32)).toNat < S3x128.size gathers_S3x128_S128x128.axis) :
    ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} ((((rwV).slice (Rect.unit (s := S2x2x128x128) ![1, 0, 0, 0] S1x1x128x128.size inb_S2x2x128x128_S1x1x128x128_1_0_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![1, 256] S1x128.size inb_S2x1024_S1x128_1_256) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} a) ∗ ⌜QuarterIs fi ft d L 1 0 (8 * g + 2) a⌝) := by
  iintro H
  iexists _
  isplitl [H]; · iexact H
  ipureintro
  exact gather_fact (F := F) fi ft hr d L 1 2 1 0 g hg f hs a0 hn hin

theorem quarter_gen_1_3 (hr : InRange (F := F) fi) (d : Dev nD) (L : grid0.Coords) (g : ℕ) (hg : g < 100) (f : Buf (Elt F) ((ibV).view.loc (V d (cV L) (jV L)))) (hs : SlotIs fi d L 1 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![1, 384] S1x128.size inb_S2x1024_S1x128_1_384) (fun _ => rfl)).squeeze S128 squeezes_S1x128_S128).view f x : BitVec 32)).toNat < S3x128.size gathers_S3x128_S128x128.axis) :
    ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} ((((rwV).slice (Rect.unit (s := S2x2x128x128) ![1, 1, 0, 0] S1x1x128x128.size inb_S2x2x128x128_S1x1x128x128_1_1_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![1, 384] S1x128.size inb_S2x1024_S1x128_1_384) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} a) ∗ ⌜QuarterIs fi ft d L 1 1 (8 * g + 3) a⌝) := by
  iintro H
  iexists _
  isplitl [H]; · iexact H
  ipureintro
  exact gather_fact (F := F) fi ft hr d L 1 3 1 1 g hg f hs a0 hn hin

theorem quarter_gen_1_4 (hr : InRange (F := F) fi) (d : Dev nD) (L : grid0.Coords) (g : ℕ) (hg : g < 100) (f : Buf (Elt F) ((ibV).view.loc (V d (cV L) (jV L)))) (hs : SlotIs fi d L 1 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![1, 512] S1x128.size inb_S2x1024_S1x128_1_512) (fun _ => rfl)).squeeze S128 squeezes_S1x128_S128).view f x : BitVec 32)).toNat < S3x128.size gathers_S3x128_S128x128.axis) :
    ((((rwV).slice (Rect.unit (s := S2x2x128x128) ![0, 0, 0, 0] S1x1x128x128.size inb_S2x2x128x128_S1x1x128x128_0_0_0_0) (fun _ => rfl)).squeeze S128x128 squeezes_S1x1x128x128_S128x128).view.loc (V d (cV L) (jV L)) ↦[(((rwV).slice (Rect.unit (s := S2x2x128x128) ![0, 0, 0, 0] S1x1x128x128.size inb_S2x2x128x128_S1x1x128x128_0_0_0_0) (fun _ => rfl)).squeeze S128x128 squeezes_S1x1x128x128_S128x128).view.set]{fullShare} ((((rwV).slice (Rect.unit (s := S2x2x128x128) ![0, 0, 0, 0] S1x1x128x128.size inb_S2x2x128x128_S1x1x128x128_0_0_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![1, 512] S1x128.size inb_S2x1024_S1x128_1_512) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![0, 0, 0, 0] S1x1x128x128.size inb_S2x2x128x128_S1x1x128x128_0_0_0_0) (fun _ => rfl)).squeeze S128x128 squeezes_S1x1x128x128_S128x128).view.loc (V d (cV L) (jV L)) ↦[(((rwV).slice (Rect.unit (s := S2x2x128x128) ![0, 0, 0, 0] S1x1x128x128.size inb_S2x2x128x128_S1x1x128x128_0_0_0_0) (fun _ => rfl)).squeeze S128x128 squeezes_S1x1x128x128_S128x128).view.set]{fullShare} a) ∗ ⌜QuarterIs fi ft d L 0 0 (8 * g + 4) a⌝) := by
  iintro H
  iexists _
  isplitl [H]; · iexact H
  ipureintro
  exact gather_fact (F := F) fi ft hr d L 1 4 0 0 g hg f hs a0 hn hin

theorem quarter_gen_1_5 (hr : InRange (F := F) fi) (d : Dev nD) (L : grid0.Coords) (g : ℕ) (hg : g < 100) (f : Buf (Elt F) ((ibV).view.loc (V d (cV L) (jV L)))) (hs : SlotIs fi d L 1 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![1, 640] S1x128.size inb_S2x1024_S1x128_1_640) (fun _ => rfl)).squeeze S128 squeezes_S1x128_S128).view f x : BitVec 32)).toNat < S3x128.size gathers_S3x128_S128x128.axis) :
    ((((rwV).slice (Rect.unit (s := S2x2x128x128) ![0, 1, 0, 0] S1x1x128x128.size inb_S2x2x128x128_S1x1x128x128_0_1_0_0) (fun _ => rfl)).squeeze S128x128 squeezes_S1x1x128x128_S128x128).view.loc (V d (cV L) (jV L)) ↦[(((rwV).slice (Rect.unit (s := S2x2x128x128) ![0, 1, 0, 0] S1x1x128x128.size inb_S2x2x128x128_S1x1x128x128_0_1_0_0) (fun _ => rfl)).squeeze S128x128 squeezes_S1x1x128x128_S128x128).view.set]{fullShare} ((((rwV).slice (Rect.unit (s := S2x2x128x128) ![0, 1, 0, 0] S1x1x128x128.size inb_S2x2x128x128_S1x1x128x128_0_1_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![1, 640] S1x128.size inb_S2x1024_S1x128_1_640) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![0, 1, 0, 0] S1x1x128x128.size inb_S2x2x128x128_S1x1x128x128_0_1_0_0) (fun _ => rfl)).squeeze S128x128 squeezes_S1x1x128x128_S128x128).view.loc (V d (cV L) (jV L)) ↦[(((rwV).slice (Rect.unit (s := S2x2x128x128) ![0, 1, 0, 0] S1x1x128x128.size inb_S2x2x128x128_S1x1x128x128_0_1_0_0) (fun _ => rfl)).squeeze S128x128 squeezes_S1x1x128x128_S128x128).view.set]{fullShare} a) ∗ ⌜QuarterIs fi ft d L 0 1 (8 * g + 5) a⌝) := by
  iintro H
  iexists _
  isplitl [H]; · iexact H
  ipureintro
  exact gather_fact (F := F) fi ft hr d L 1 5 0 1 g hg f hs a0 hn hin

theorem quarter_gen_1_6 (hr : InRange (F := F) fi) (d : Dev nD) (L : grid0.Coords) (g : ℕ) (hg : g < 100) (f : Buf (Elt F) ((ibV).view.loc (V d (cV L) (jV L)))) (hs : SlotIs fi d L 1 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![1, 768] S1x128.size inb_S2x1024_S1x128_1_768) (fun _ => rfl)).squeeze S128 squeezes_S1x128_S128).view f x : BitVec 32)).toNat < S3x128.size gathers_S3x128_S128x128.axis) :
    ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} ((((rwV).slice (Rect.unit (s := S2x2x128x128) ![1, 0, 0, 0] S1x1x128x128.size inb_S2x2x128x128_S1x1x128x128_1_0_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![1, 768] S1x128.size inb_S2x1024_S1x128_1_768) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![1, 0, 0, 0] S1x1x128x128.size inb_S2x2x128x128_S1x1x128x128_1_0_0_0) (fun _ => rfl)).squeeze S128x128 squeezes_S1x1x128x128_S128x128).view.loc (V d (cV L) (jV L)) ↦[(((rwV).slice (Rect.unit (s := S2x2x128x128) ![1, 0, 0, 0] S1x1x128x128.size inb_S2x2x128x128_S1x1x128x128_1_0_0_0) (fun _ => rfl)).squeeze S128x128 squeezes_S1x1x128x128_S128x128).view.set]{fullShare} a) ∗ ⌜QuarterIs fi ft d L 1 0 (8 * g + 6) a⌝) := by
  iintro H
  iexists _
  isplitl [H]; · iexact H
  ipureintro
  exact gather_fact (F := F) fi ft hr d L 1 6 1 0 g hg f hs a0 hn hin

theorem quarter_gen_1_7 (hr : InRange (F := F) fi) (d : Dev nD) (L : grid0.Coords) (g : ℕ) (hg : g < 100) (f : Buf (Elt F) ((ibV).view.loc (V d (cV L) (jV L)))) (hs : SlotIs fi d L 1 g f)
    (a0 : Buf (Elt F) ((rwV).view.loc (V d (cV L) (jV L)))) (hn : S128.numel = S128x128.size gathers_S3x128_S128x128.axis')
    (hin : ∀ x, ((View.read (Elt F) (((ibV).slice (Rect.unit (s := S2x1024) ![1, 896] S1x128.size inb_S2x1024_S1x128_1_896) (fun _ => rfl)).squeeze S128 squeezes_S1x128_S128).view f x : BitVec 32)).toNat < S3x128.size gathers_S3x128_S128x128.axis) :
    ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} ((((rwV).slice (Rect.unit (s := S2x2x128x128) ![1, 1, 0, 0] S1x1x128x128.size inb_S2x2x128x128_S1x1x128x128_1_1_0_0) (fun _ => rfl)).squeeze S128x128 squeezes_S1x1x128x128_S128x128).view.writes (Elt F) a0 [⟨Rect.whole S128x128, SparseCore.gatherPayload gathers_S3x128_S128x128 (View.read (Elt F) (shAll).view (ft d)) (SparseCore.rows (View.read (Elt F) (((ibV).slice (Rect.unit (s := S2x1024) ![1, 896] S1x128.size inb_S2x1024_S1x128_1_896) (fun _ => rfl)).squeeze S128 squeezes_S1x128_S128).view f) hn hin)⟩]) : sProp 𝕄)
      ⊢ iprop(∃ a : Buf (Elt F) ((rwV).view.loc (V d (cV L) (jV L))), ((((rwV).slice (Rect.unit (s := S2x2x128x128) ![1, 1, 0, 0] S1x1x128x128.size inb_S2x2x128x128_S1x1x128x128_1_1_0_0) (fun _ => rfl)).squeeze S128x128 squeezes_S1x1x128x128_S128x128).view.loc (V d (cV L) (jV L)) ↦[(((rwV).slice (Rect.unit (s := S2x2x128x128) ![1, 1, 0, 0] S1x1x128x128.size inb_S2x2x128x128_S1x1x128x128_1_1_0_0) (fun _ => rfl)).squeeze S128x128 squeezes_S1x1x128x128_S128x128).view.set]{fullShare} a) ∗ ⌜QuarterIs fi ft d L 1 1 (8 * g + 7) a⌝) := by
  iintro H
  iexists _
  isplitl [H]; · iexact H
  ipureintro
  exact gather_fact (F := F) fi ft hr d L 1 7 1 1 g hg f hs a0 hn hin

end Cert.Proof.KB

end
-- ==== Proof.BCleanOut.lean ====
/-
  An outstanding copy-out, said in the tile's own words. A copy of a half of the buffer of gathered rows to a pair of
  result blocks is held, while outstanding, with what it will deliver: the pair at what the half holds written over what
  the pair held, and the half back. When the half's two quarters read two consecutive blocks of the lookup, what the
  pair will hold is the lookup on the pair's elements, so the same outstanding copy may be held with the delivery "the
  pair at some contents that is the lookup on it, and the half at the contents it had".
-/
import proofs.«205114_g12446815224155_cont_fleet_488_32_alg».proof.Proof.BInv
import proofs.«205114_g12446815224155_cont_fleet_488_32_alg».proof.Proof.BValue

set_option maxRecDepth 16384

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (shareTok shareDrop)

variable {F : FTy → Type}
local notation "𝕄" => MT nD τ sig (HIx 1) (Elt F) ℕ UU ℕ
local notation "iV" => (Memref.whole Cert.Kernel.main_v0_scv : Memref Cert.Kernel.sig Kind.scVector Space.hbm Cert.Kernel.S3276800 EltTy.i32)
local notation "oV" => (Memref.whole Cert.Kernel.main_v1_scv : Memref Cert.Kernel.sig Kind.scVector Space.hbm Cert.Kernel.S25600x128x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)

variable (fi : (d : Dev nD) → Buf (Elt F) (idxLoc d)) (ft : (d : Dev nD) → Buf (Elt F) (tabLoc d)) (fo : (d : Dev nD) → Buf (Elt F) (oLoc d))
variable [FloatOps F]

section CleanOut

variable (d : Dev nD) (L : grid0.Coords)

/-- THE PAIR A COPY-OUT WRITES: when the two quarters of a half read blocks lo and lo + 1 of the lookup's part of the
    worker, the pair of result blocks at the worker's block lo, written with the half's contents over anything, holds
    the lookup on its elements. -/
theorem pair_fact (pp : Fin 2) (A B : Buf (Elt F) ((rwV).view.loc (V d (cV L) (jV L)))) {off : Fin 3 → ℕ}
    (inb : ∀ a, off a + S2x128x128.size a ≤ S25600x128x128.size a) (lo : ℕ) (hlo : lo + 2 ≤ 800)
    (hoff : off = ![800 * (wL L).val + lo, 0, 0]) (hA : QuarterIs fi ft d L pp 0 lo A) (hB : QuarterIs fi ft d L pp 1 (lo + 1) B)
    (fo' : Buf (Elt F) (oLoc d)) :
    ∀ i ∈ ((oV).slice (Rect.unit (s := S25600x128x128) off S2x128x128.size inb) (fun _ => rfl)).view.set,
      (((oV).slice (Rect.unit (s := S25600x128x128) off S2x128x128.size inb) (fun _ => rfl)).view.writes (Elt F) fo' [⟨Rect.whole (Rect.unit (s := S25600x128x128) off S2x128x128.size inb).shape,
        ReadAs.same.apply (View.read (Elt F) (halfM pp).view ((quarterM pp 0).view.set.piecewise A B))⟩]) i = oDone fi ft d i := by
  have hA' : ∀ r q : Fin 128, (quarterM pp 0).view.read (Elt F) A (ix2 r q)
      = oDone fi ft d (ix3 ⟨800 * (wL L).val + lo, by have := (wL L).isLt; omega⟩ r q) := fun r q => by
    obtain ⟨_, e⟩ := hA r q
    exact e
  have hB' : ∀ r q : Fin 128, (quarterM pp 1).view.read (Elt F) B (ix2 r q)
      = oDone fi ft d (ix3 ⟨800 * (wL L).val + lo + 1, by have := (wL L).isLt; omega⟩ r q) := fun r q => by
    obtain ⟨_, e⟩ := hB r q
    exact e
  exact pair_value (F := F) pp d (cV L) (jV L) A B (oDone fi ft d) inb hoff (by have := (wL L).isLt; omega) hA' hB' fo'

/-- What the copy-out of the second half of the rows buffer to the result blocks lo, lo + 1 of the worker's slice
    delivers: the two blocks at the lookup, and the half back. -/
abbrev OutD1 (lo : ℕ) (hb : ∀ a, (![800 * (wL L).val + lo, 0, 0] : Fin 3 → ℕ) a + S2x128x128.size a ≤ S25600x128x128.size a)
    (h : Buf (Elt F) ((rwV).view.loc (V d (cV L) (jV L)))) : sProp 𝕄 :=
  iprop((∃ g : Buf (Elt F) (oLoc d), ((pairM (800 * (wL L).val + lo) hb).view.loc (V d (cV L) (jV L)) ↦[(pairM (800 * (wL L).val + lo) hb).view.set]{fullShare} g)
        ∗ ⌜∀ i ∈ (pairM (800 * (wL L).val + lo) hb).view.set, g i = oDone fi ft d i⌝)
    ∗ ((((rwV).slice (Rect.unit (s := S2x2x128x128) ![1, 0, 0, 0] S1x2x128x128.size inb_S2x2x128x128_S1x2x128x128_1_0_0_0) (fun _ => rfl)).squeeze S2x128x128 squeezes_S1x2x128x128_S2x128x128).view.loc (V d (cV L) (jV L)) ↦[(((rwV).slice (Rect.unit (s := S2x2x128x128) ![1, 0, 0, 0] S1x2x128x128.size inb_S2x2x128x128_S1x2x128x128_1_0_0_0) (fun _ => rfl)).squeeze S2x128x128 squeezes_S1x2x128x128_S2x128x128).view.set]{fullShare} h))

/-- An outstanding copy-out of the first half of the rows buffer, held with its delivery as the copy itself writes it —
    the pair of result blocks at the half's contents written over what was there, and the half back — is the copy-out
    held with its delivery in the tile's own words: when the half's quarters read blocks lo and lo + 1 of the lookup,
    the pair it writes holds the lookup. -/
theorem out_clean0 (sm : SemLoc sig) (ι : HIx 1) (N : ℕ) (fo' : Buf (Elt F) (oLoc d))
    (A B : Buf (Elt F) ((rwV).view.loc (V d (cV L) (jV L)))) {off : Fin 3 → ℕ}
    (inb : ∀ a, off a + S2x128x128.size a ≤ S25600x128x128.size a) (lo : ℕ) (hlo : lo + 2 ≤ 800)
    (hoff : off = ![800 * (wL L).val + lo, 0, 0]) (hA : QuarterIs fi ft d L 0 0 lo A) (hB : QuarterIs fi ft d L 0 1 (lo + 1) B) :
    (Transfers.Flight countersEmb (V d (cV L) (jV L)) sm ι N
        iprop((((oV).slice (Rect.unit (s := S25600x128x128) off S2x128x128.size inb) (fun _ => rfl)).view.loc (V d (cV L) (jV L)) ↦[((oV).slice (Rect.unit (s := S25600x128x128) off S2x128x128.size inb) (fun _ => rfl)).view.set]{fullShare}
              (((oV).slice (Rect.unit (s := S25600x128x128) off S2x128x128.size inb) (fun _ => rfl)).view.writes (Elt F) fo' [⟨Rect.whole (Rect.unit (s := S25600x128x128) off S2x128x128.size inb).shape,
                ReadAs.same.apply (View.read (Elt F) (((rwV).slice (Rect.unit (s := S2x2x128x128) ![0, 0, 0, 0] S1x2x128x128.size inb_S2x2x128x128_S1x2x128x128_0_0_0_0) (fun _ => rfl)).squeeze S2x128x128 squeezes_S1x2x128x128_S2x128x128).view ((quarterM 0 0).view.set.piecewise A B))⟩]))
          ∗ ((((rwV).slice (Rect.unit (s := S2x2x128x128) ![0, 0, 0, 0] S1x2x128x128.size inb_S2x2x128x128_S1x2x128x128_0_0_0_0) (fun _ => rfl)).squeeze S2x128x128 squeezes_S1x2x128x128_S2x128x128).view.loc (V d (cV L) (jV L)) ↦[(((rwV).slice (Rect.unit (s := S2x2x128x128) ![0, 0, 0, 0] S1x2x128x128.size inb_S2x2x128x128_S1x2x128x128_0_0_0_0) (fun _ => rfl)).squeeze S2x128x128 squeezes_S1x2x128x128_S2x128x128).view.set]{fullShare} ((quarterM 0 0).view.set.piecewise A B))) : sProp 𝕄)
      ⊢ Transfers.Flight countersEmb (V d (cV L) (jV L)) sm ι N (OutD0 fi ft d L lo (pairIn L lo hlo) ((quarterM 0 0).view.set.piecewise A B)) := by
  refine Transfers.Flight_mono countersEmb (V d (cV L) (jV L)) ?_
  iintro ⟨Hp, Hh⟩
  isplitl [Hp]
  · subst hoff
    iexists _
    isplitl [Hp]; · iexact Hp
    ipureintro
    exact pair_fact (F := F) fi ft d L 0 A B inb lo hlo rfl hA hB fo'
  · iexact Hh

/-- The same for a copy-out of the second half. -/
theorem out_clean1 (sm : SemLoc sig) (ι : HIx 1) (N : ℕ) (fo' : Buf (Elt F) (oLoc d))
    (A B : Buf (Elt F) ((rwV).view.loc (V d (cV L) (jV L)))) {off : Fin 3 → ℕ}
    (inb : ∀ a, off a + S2x128x128.size a ≤ S25600x128x128.size a) (lo : ℕ) (hlo : lo + 2 ≤ 800)
    (hoff : off = ![800 * (wL L).val + lo, 0, 0]) (hA : QuarterIs fi ft d L 1 0 lo A) (hB : QuarterIs fi ft d L 1 1 (lo + 1) B) :
    (Transfers.Flight countersEmb (V d (cV L) (jV L)) sm ι N
        iprop((((oV).slice (Rect.unit (s := S25600x128x128) off S2x128x128.size inb) (fun _ => rfl)).view.loc (V d (cV L) (jV L)) ↦[((oV).slice (Rect.unit (s := S25600x128x128) off S2x128x128.size inb) (fun _ => rfl)).view.set]{fullShare}
              (((oV).slice (Rect.unit (s := S25600x128x128) off S2x128x128.size inb) (fun _ => rfl)).view.writes (Elt F) fo' [⟨Rect.whole (Rect.unit (s := S25600x128x128) off S2x128x128.size inb).shape,
                ReadAs.same.apply (View.read (Elt F) (((rwV).slice (Rect.unit (s := S2x2x128x128) ![1, 0, 0, 0] S1x2x128x128.size inb_S2x2x128x128_S1x2x128x128_1_0_0_0) (fun _ => rfl)).squeeze S2x128x128 squeezes_S1x2x128x128_S2x128x128).view ((quarterM 1 0).view.set.piecewise A B))⟩]))
          ∗ ((((rwV).slice (Rect.unit (s := S2x2x128x128) ![1, 0, 0, 0] S1x2x128x128.size inb_S2x2x128x128_S1x2x128x128_1_0_0_0) (fun _ => rfl)).squeeze S2x128x128 squeezes_S1x2x128x128_S2x128x128).view.loc (V d (cV L) (jV L)) ↦[(((rwV).slice (Rect.unit (s := S2x2x128x128) ![1, 0, 0, 0] S1x2x128x128.size inb_S2x2x128x128_S1x2x128x128_1_0_0_0) (fun _ => rfl)).squeeze S2x128x128 squeezes_S1x2x128x128_S2x128x128).view.set]{fullShare} ((quarterM 1 0).view.set.piecewise A B))) : sProp 𝕄)
      ⊢ Transfers.Flight countersEmb (V d (cV L) (jV L)) sm ι N (OutD1 fi ft d L lo (pairIn L lo hlo) ((quarterM 1 0).view.set.piecewise A B)) := by
  refine Transfers.Flight_mono countersEmb (V d (cV L) (jV L)) ?_
  iintro ⟨Hp, Hh⟩
  isplitl [Hp]
  · subst hoff
    iexists _
    isplitl [Hp]; · iexact Hp
    ipureintro
    exact pair_fact (F := F) fi ft d L 1 A B inb lo hlo rfl hA hB fo'
  · iexact Hh

end CleanOut

end Cert.Proof.KB

end
-- ==== Proof.BRejoin.lean ====
/-
  Rejoining what a tile's task took apart. The task ends holding its two scratch buffers in pieces — the buffer of
  gathered rows as four quarters, the buffer of row numbers as sixteen lists — each piece at whatever it last held, and
  its read share of the shared memory as a remainder and nine smaller shares. Pieces that are pairwise disjoint and
  cover a buffer are the buffer at the contents that agree with each piece on its own elements; the shares of one array
  at one contents add up to the share they were cut from.
-/
import proofs.«205114_g12446815224155_cont_fleet_488_32_alg».proof.Proof.BJoin

set_option maxRecDepth 16384

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)

variable {F : FTy → Type}
local notation "𝕄" => MT nD τ sig (HIx 1) (Elt F) ℕ UU ℕ
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)
local notation "shV" => (Memref.whole Cert.Kernel.cc0_scratch0 : Memref Cert.Kernel.sig Kind.scVector Space.shared Cert.Kernel.S3x128 EltTy.f32)

/-! ## The buffer of gathered rows -/

/-- The two halves of the buffer of gathered rows share no element, said of the halves as the copies name them. -/
theorem halfM_disjoint : Disjoint (halfM 0).view.set (halfM 1).view.set := by
  rw [set_halfM, set_halfM]; exact halves_disjoint

/-- Two halves, each at its own contents, are the buffer at the contents that is the first's on the first half's
    elements and the second's elsewhere. -/
theorem rowHalves_join (d : Dev nD) (c : Fin τ.nSC) (j : Fin τ.nSub) (a b : Buf (Elt F) ((rwV).view.loc (V d c j))) :
    iprop(((halfM 0).view.loc (V d c j) ↦[(halfM 0).view.set]{fullShare} a)
        ∗ ((halfM 1).view.loc (V d c j) ↦[(halfM 1).view.set]{fullShare} b))
      ⊢ ((rwV).view.loc (V d c j) ↦[(rwV).view.set]{fullShare} ((halfM 0).view.set.piecewise a b) : sProp 𝕄) := by
  rw [rw_halves (F := F) d c j ((halfM 0).view.set.piecewise a b)]
  have ha : ((halfM 0).view.loc (V d c j) ↦[(halfM 0).view.set]{fullShare} a : sProp 𝕄)
      = ((halfM 0).view.loc (V d c j) ↦[(halfM 0).view.set]{fullShare} ((halfM 0).view.set.piecewise a b)) :=
    pointsTo_congr fun i hi => (Finset.piecewise_eq_of_mem _ _ _ hi).symm
  have hb : ((halfM 1).view.loc (V d c j) ↦[(halfM 1).view.set]{fullShare} b : sProp 𝕄)
      = ((halfM 1).view.loc (V d c j) ↦[(halfM 1).view.set]{fullShare} ((halfM 0).view.set.piecewise a b)) :=
    pointsTo_congr fun i hi => (Finset.piecewise_eq_of_notMem _ _ _ (Finset.disjoint_right.mp halfM_disjoint hi)).symm
  rw [ha, hb]

/-- The four quarters, each at its own contents, are the buffer of gathered rows at the contents pieced from them. -/
theorem rows_whole_at (d : Dev nD) (c : Fin τ.nSC) (j : Fin τ.nSub) (q00 q01 q10 q11 : Buf (Elt F) ((rwV).view.loc (V d c j))) :
    iprop(((quarterM 0 0).view.loc (V d c j) ↦[(quarterM 0 0).view.set]{fullShare} q00)
        ∗ ((quarterM 0 1).view.loc (V d c j) ↦[(quarterM 0 1).view.set]{fullShare} q01)
        ∗ ((quarterM 1 0).view.loc (V d c j) ↦[(quarterM 1 0).view.set]{fullShare} q10)
        ∗ ((quarterM 1 1).view.loc (V d c j) ↦[(quarterM 1 1).view.set]{fullShare} q11))
      ⊢ ((rwV).view.loc (V d c j) ↦[(rwV).view.set]{fullShare}
          ((halfM 0).view.set.piecewise ((quarterM 0 0).view.set.piecewise q00 q01) ((quarterM 1 0).view.set.piecewise q10 q11)) : sProp 𝕄) := by
  iintro ⟨H00, H01, H10, H11⟩
  ihave Ha := (quarters_join (F := F) d c j 0 q00 q01) $$ [H00 H01]
  · isplitl [H00]; · iexact H00
    iexact H01
  ihave Hb := (quarters_join (F := F) d c j 1 q10 q11) $$ [H10 H11]
  · isplitl [H10]; · iexact H10
    iexact H11
  iapply (rowHalves_join (F := F) d c j ((quarterM 0 0).view.set.piecewise q00 q01) ((quarterM 1 0).view.set.piecewise q10 q11))
  isplitl [Ha]; · iexact Ha
  iexact Hb

/-- The four quarters, each at its own contents, are the tile's buffer of gathered rows whole at some contents. -/
theorem rows_whole (d : Dev nD) (c : Fin τ.nSC) (j : Fin τ.nSub) (q00 q01 q10 q11 : Buf (Elt F) ((rwV).view.loc (V d c j))) :
    iprop(((quarterM 0 0).view.loc (V d c j) ↦[(quarterM 0 0).view.set]{fullShare} q00)
        ∗ ((quarterM 0 1).view.loc (V d c j) ↦[(quarterM 0 1).view.set]{fullShare} q01)
        ∗ ((quarterM 1 0).view.loc (V d c j) ↦[(quarterM 1 0).view.set]{fullShare} q10)
        ∗ ((quarterM 1 1).view.loc (V d c j) ↦[(quarterM 1 1).view.set]{fullShare} q11))
      ⊢ (iprop(∃ f, (V d c j).loc cc0_scratch2 ↦{fullShare} f) : sProp 𝕄) :=
  ((rows_whole_at (F := F) d c j q00 q01 q10 q11).trans (Entails.of_eq (pts_rwV (F := F) d c j fullShare _))).trans
    (exists_intro (Φ := fun f => ((V d c j).loc cc0_scratch2 ↦{fullShare} f : sProp 𝕄)) _)

/-! ## The buffer of row numbers -/

/-- Two lists of one block share no element, said of the lists as the gathers name them. -/
theorem listM_disjoint (bb : Fin 2) {s t : Fin 8} (h : s ≠ t) : Disjoint (listM bb s).view.set (listM bb t).view.set := by
  rw [set_listM, set_listM]; exact lists_disjoint bb s (Finset.mem_univ _) t (Finset.mem_univ _) h

/-- The two blocks share no element, said of the blocks as the copies name them. -/
theorem slotM_disjoint : Disjoint (slotM 0).view.set (slotM 1).view.set := by
  rw [set_slotM, set_slotM]; exact slots_disjoint

/-- The contents that is the s-th given one on list s of block bb, for each of the eight lists. -/
def join8 (bb : Fin 2) (d : Dev nD) (c : Fin τ.nSC) (j : Fin τ.nSub) (f0 f1 f2 f3 f4 f5 f6 f7 : Buf (Elt F) ((ibV).view.loc (V d c j))) :
    Buf (Elt F) ((ibV).view.loc (V d c j)) :=
  ((listM bb 0).view.set.piecewise f0 ((listM bb 1).view.set.piecewise f1 ((listM bb 2).view.set.piecewise f2 ((listM bb 3).view.set.piecewise f3 ((listM bb 4).view.set.piecewise f4 ((listM bb 5).view.set.piecewise f5 ((listM bb 6).view.set.piecewise f6 f7)))))))

set_option maxHeartbeats 1600000 in
/-- The eight lists of a block, each at its own contents, are the block at the contents that agrees with each on its own
    elements: the lists are pairwise disjoint and cover the block. -/
theorem lists_join_at (bb : Fin 2) (d : Dev nD) (c : Fin τ.nSC) (j : Fin τ.nSub) (f0 f1 f2 f3 f4 f5 f6 f7 : Buf (Elt F) ((ibV).view.loc (V d c j))) :
    iprop(((listM bb 0).view.loc (V d c j) ↦[(listM bb 0).view.set]{fullShare} f0)
        ∗ ((listM bb 1).view.loc (V d c j) ↦[(listM bb 1).view.set]{fullShare} f1)
        ∗ ((listM bb 2).view.loc (V d c j) ↦[(listM bb 2).view.set]{fullShare} f2)
        ∗ ((listM bb 3).view.loc (V d c j) ↦[(listM bb 3).view.set]{fullShare} f3)
        ∗ ((listM bb 4).view.loc (V d c j) ↦[(listM bb 4).view.set]{fullShare} f4)
        ∗ ((listM bb 5).view.loc (V d c j) ↦[(listM bb 5).view.set]{fullShare} f5)
        ∗ ((listM bb 6).view.loc (V d c j) ↦[(listM bb 6).view.set]{fullShare} f6)
        ∗ ((listM bb 7).view.loc (V d c j) ↦[(listM bb 7).view.set]{fullShare} f7))
      ⊢ ((slotM bb).view.loc (V d c j) ↦[(slotM bb).view.set]{fullShare} (join8 bb d c j f0 f1 f2 f3 f4 f5 f6 f7) : sProp 𝕄) := by
  have nm : ∀ {s t : Fin 8}, s ≠ t → ∀ {i}, i ∈ (listM bb s).view.set → i ∉ (listM bb t).view.set :=
    fun {s t} h {i} hi => Finset.disjoint_left.mp (listM_disjoint bb (s := s) (t := t) h) hi
  have h0 : (((listM bb 0).view.loc (V d c j) ↦[(listM bb 0).view.set]{fullShare} f0) : sProp 𝕄)
      = ((listM bb 0).view.loc (V d c j) ↦[(listM bb 0).view.set]{fullShare} (join8 bb d c j f0 f1 f2 f3 f4 f5 f6 f7)) :=
    pointsTo_congr fun i hi => by
      show f0 i = ((listM bb 0).view.set.piecewise f0 ((listM bb 1).view.set.piecewise f1 ((listM bb 2).view.set.piecewise f2 ((listM bb 3).view.set.piecewise f3 ((listM bb 4).view.set.piecewise f4 ((listM bb 5).view.set.piecewise f5 ((listM bb 6).view.set.piecewise f6 f7))))))) i
      rw [Finset.piecewise_eq_of_mem _ _ _ hi]
  have h1 : (((listM bb 1).view.loc (V d c j) ↦[(listM bb 1).view.set]{fullShare} f1) : sProp 𝕄)
      = ((listM bb 1).view.loc (V d c j) ↦[(listM bb 1).view.set]{fullShare} (join8 bb d c j f0 f1 f2 f3 f4 f5 f6 f7)) :=
    pointsTo_congr fun i hi => by
      show f1 i = ((listM bb 0).view.set.piecewise f0 ((listM bb 1).view.set.piecewise f1 ((listM bb 2).view.set.piecewise f2 ((listM bb 3).view.set.piecewise f3 ((listM bb 4).view.set.piecewise f4 ((listM bb 5).view.set.piecewise f5 ((listM bb 6).view.set.piecewise f6 f7))))))) i
      rw [Finset.piecewise_eq_of_notMem _ _ _ (nm (s := 1) (t := 0) (by decide) hi),
        Finset.piecewise_eq_of_mem _ _ _ hi]
  have h2 : (((listM bb 2).view.loc (V d c j) ↦[(listM bb 2).view.set]{fullShare} f2) : sProp 𝕄)
      = ((listM bb 2).view.loc (V d c j) ↦[(listM bb 2).view.set]{fullShare} (join8 bb d c j f0 f1 f2 f3 f4 f5 f6 f7)) :=
    pointsTo_congr fun i hi => by
      show f2 i = ((listM bb 0).view.set.piecewise f0 ((listM bb 1).view.set.piecewise f1 ((listM bb 2).view.set.piecewise f2 ((listM bb 3).view.set.piecewise f3 ((listM bb 4).view.set.piecewise f4 ((listM bb 5).view.set.piecewise f5 ((listM bb 6).view.set.piecewise f6 f7))))))) i
      rw [Finset.piecewise_eq_of_notMem _ _ _ (nm (s := 2) (t := 0) (by decide) hi),
        Finset.piecewise_eq_of_notMem _ _ _ (nm (s := 2) (t := 1) (by decide) hi),
        Finset.piecewise_eq_of_mem _ _ _ hi]
  have h3 : (((listM bb 3).view.loc (V d c j) ↦[(listM bb 3).view.set]{fullShare} f3) : sProp 𝕄)
      = ((listM bb 3).view.loc (V d c j) ↦[(listM bb 3).view.set]{fullShare} (join8 bb d c j f0 f1 f2 f3 f4 f5 f6 f7)) :=
    pointsTo_congr fun i hi => by
      show f3 i = ((listM bb 0).view.set.piecewise f0 ((listM bb 1).view.set.piecewise f1 ((listM bb 2).view.set.piecewise f2 ((listM bb 3).view.set.piecewise f3 ((listM bb 4).view.set.piecewise f4 ((listM bb 5).view.set.piecewise f5 ((listM bb 6).view.set.piecewise f6 f7))))))) i
      rw [Finset.piecewise_eq_of_notMem _ _ _ (nm (s := 3) (t := 0) (by decide) hi),
        Finset.piecewise_eq_of_notMem _ _ _ (nm (s := 3) (t := 1) (by decide) hi),
        Finset.piecewise_eq_of_notMem _ _ _ (nm (s := 3) (t := 2) (by decide) hi),
        Finset.piecewise_eq_of_mem _ _ _ hi]
  have h4 : (((listM bb 4).view.loc (V d c j) ↦[(listM bb 4).view.set]{fullShare} f4) : sProp 𝕄)
      = ((listM bb 4).view.loc (V d c j) ↦[(listM bb 4).view.set]{fullShare} (join8 bb d c j f0 f1 f2 f3 f4 f5 f6 f7)) :=
    pointsTo_congr fun i hi => by
      show f4 i = ((listM bb 0).view.set.piecewise f0 ((listM bb 1).view.set.piecewise f1 ((listM bb 2).view.set.piecewise f2 ((listM bb 3).view.set.piecewise f3 ((listM bb 4).view.set.piecewise f4 ((listM bb 5).view.set.piecewise f5 ((listM bb 6).view.set.piecewise f6 f7))))))) i
      rw [Finset.piecewise_eq_of_notMem _ _ _ (nm (s := 4) (t := 0) (by decide) hi),
        Finset.piecewise_eq_of_notMem _ _ _ (nm (s := 4) (t := 1) (by decide) hi),
        Finset.piecewise_eq_of_notMem _ _ _ (nm (s := 4) (t := 2) (by decide) hi),
        Finset.piecewise_eq_of_notMem _ _ _ (nm (s := 4) (t := 3) (by decide) hi),
        Finset.piecewise_eq_of_mem _ _ _ hi]
  have h5 : (((listM bb 5).view.loc (V d c j) ↦[(listM bb 5).view.set]{fullShare} f5) : sProp 𝕄)
      = ((listM bb 5).view.loc (V d c j) ↦[(listM bb 5).view.set]{fullShare} (join8 bb d c j f0 f1 f2 f3 f4 f5 f6 f7)) :=
    pointsTo_congr fun i hi => by
      show f5 i = ((listM bb 0).view.set.piecewise f0 ((listM bb 1).view.set.piecewise f1 ((listM bb 2).view.set.piecewise f2 ((listM bb 3).view.set.piecewise f3 ((listM bb 4).view.set.piecewise f4 ((listM bb 5).view.set.piecewise f5 ((listM bb 6).view.set.piecewise f6 f7))))))) i
      rw [Finset.piecewise_eq_of_notMem _ _ _ (nm (s := 5) (t := 0) (by decide) hi),
        Finset.piecewise_eq_of_notMem _ _ _ (nm (s := 5) (t := 1) (by decide) hi),
        Finset.piecewise_eq_of_notMem _ _ _ (nm (s := 5) (t := 2) (by decide) hi),
        Finset.piecewise_eq_of_notMem _ _ _ (nm (s := 5) (t := 3) (by decide) hi),
        Finset.piecewise_eq_of_notMem _ _ _ (nm (s := 5) (t := 4) (by decide) hi),
        Finset.piecewise_eq_of_mem _ _ _ hi]
  have h6 : (((listM bb 6).view.loc (V d c j) ↦[(listM bb 6).view.set]{fullShare} f6) : sProp 𝕄)
      = ((listM bb 6).view.loc (V d c j) ↦[(listM bb 6).view.set]{fullShare} (join8 bb d c j f0 f1 f2 f3 f4 f5 f6 f7)) :=
    pointsTo_congr fun i hi => by
      show f6 i = ((listM bb 0).view.set.piecewise f0 ((listM bb 1).view.set.piecewise f1 ((listM bb 2).view.set.piecewise f2 ((listM bb 3).view.set.piecewise f3 ((listM bb 4).view.set.piecewise f4 ((listM bb 5).view.set.piecewise f5 ((listM bb 6).view.set.piecewise f6 f7))))))) i
      rw [Finset.piecewise_eq_of_notMem _ _ _ (nm (s := 6) (t := 0) (by decide) hi),
        Finset.piecewise_eq_of_notMem _ _ _ (nm (s := 6) (t := 1) (by decide) hi),
        Finset.piecewise_eq_of_notMem _ _ _ (nm (s := 6) (t := 2) (by decide) hi),
        Finset.piecewise_eq_of_notMem _ _ _ (nm (s := 6) (t := 3) (by decide) hi),
        Finset.piecewise_eq_of_notMem _ _ _ (nm (s := 6) (t := 4) (by decide) hi),
        Finset.piecewise_eq_of_notMem _ _ _ (nm (s := 6) (t := 5) (by decide) hi),
        Finset.piecewise_eq_of_mem _ _ _ hi]
  have h7 : (((listM bb 7).view.loc (V d c j) ↦[(listM bb 7).view.set]{fullShare} f7) : sProp 𝕄)
      = ((listM bb 7).view.loc (V d c j) ↦[(listM bb 7).view.set]{fullShare} (join8 bb d c j f0 f1 f2 f3 f4 f5 f6 f7)) :=
    pointsTo_congr fun i hi => by
      show f7 i = ((listM bb 0).view.set.piecewise f0 ((listM bb 1).view.set.piecewise f1 ((listM bb 2).view.set.piecewise f2 ((listM bb 3).view.set.piecewise f3 ((listM bb 4).view.set.piecewise f4 ((listM bb 5).view.set.piecewise f5 ((listM bb 6).view.set.piecewise f6 f7))))))) i
      rw [Finset.piecewise_eq_of_notMem _ _ _ (nm (s := 7) (t := 0) (by decide) hi),
        Finset.piecewise_eq_of_notMem _ _ _ (nm (s := 7) (t := 1) (by decide) hi),
        Finset.piecewise_eq_of_notMem _ _ _ (nm (s := 7) (t := 2) (by decide) hi),
        Finset.piecewise_eq_of_notMem _ _ _ (nm (s := 7) (t := 3) (by decide) hi),
        Finset.piecewise_eq_of_notMem _ _ _ (nm (s := 7) (t := 4) (by decide) hi),
        Finset.piecewise_eq_of_notMem _ _ _ (nm (s := 7) (t := 5) (by decide) hi),
        Finset.piecewise_eq_of_notMem _ _ _ (nm (s := 7) (t := 6) (by decide) hi)]
  rw [h0, h1, h2, h3, h4, h5, h6, h7, ← slot_lists8 (F := F) d c j bb (join8 bb d c j f0 f1 f2 f3 f4 f5 f6 f7)]

/-- The eight lists of a block, each at its own contents, are the block at some contents. -/
theorem lists_join (bb : Fin 2) (d : Dev nD) (c : Fin τ.nSC) (j : Fin τ.nSub) (f0 f1 f2 f3 f4 f5 f6 f7 : Buf (Elt F) ((ibV).view.loc (V d c j))) :
    iprop(((listM bb 0).view.loc (V d c j) ↦[(listM bb 0).view.set]{fullShare} f0)
        ∗ ((listM bb 1).view.loc (V d c j) ↦[(listM bb 1).view.set]{fullShare} f1)
        ∗ ((listM bb 2).view.loc (V d c j) ↦[(listM bb 2).view.set]{fullShare} f2)
        ∗ ((listM bb 3).view.loc (V d c j) ↦[(listM bb 3).view.set]{fullShare} f3)
        ∗ ((listM bb 4).view.loc (V d c j) ↦[(listM bb 4).view.set]{fullShare} f4)
        ∗ ((listM bb 5).view.loc (V d c j) ↦[(listM bb 5).view.set]{fullShare} f5)
        ∗ ((listM bb 6).view.loc (V d c j) ↦[(listM bb 6).view.set]{fullShare} f6)
        ∗ ((listM bb 7).view.loc (V d c j) ↦[(listM bb 7).view.set]{fullShare} f7))
      ⊢ (iprop(∃ f, (slotM bb).view.loc (V d c j) ↦[(slotM bb).view.set]{fullShare} f) : sProp 𝕄) :=
  (lists_join_at (F := F) bb d c j f0 f1 f2 f3 f4 f5 f6 f7).trans (exists_intro (Φ := fun f => ((slotM bb).view.loc (V d c j) ↦[(slotM bb).view.set]{fullShare} f : sProp 𝕄)) _)

/-- The two blocks, each at its own contents, are the buffer of row numbers at the contents that is the first's on the
    first block's elements and the second's elsewhere. -/
theorem slots_join_at (d : Dev nD) (c : Fin τ.nSC) (j : Fin τ.nSub) (a b : Buf (Elt F) ((ibV).view.loc (V d c j))) :
    iprop(((slotM 0).view.loc (V d c j) ↦[(slotM 0).view.set]{fullShare} a)
        ∗ ((slotM 1).view.loc (V d c j) ↦[(slotM 1).view.set]{fullShare} b))
      ⊢ ((ibV).view.loc (V d c j) ↦[(ibV).view.set]{fullShare} ((slotM 0).view.set.piecewise a b) : sProp 𝕄) := by
  rw [ib_slots (F := F) d c j ((slotM 0).view.set.piecewise a b)]
  have ha : ((slotM 0).view.loc (V d c j) ↦[(slotM 0).view.set]{fullShare} a : sProp 𝕄)
      = ((slotM 0).view.loc (V d c j) ↦[(slotM 0).view.set]{fullShare} ((slotM 0).view.set.piecewise a b)) :=
    pointsTo_congr fun i hi => (Finset.piecewise_eq_of_mem _ _ _ hi).symm
  have hb : ((slotM 1).view.loc (V d c j) ↦[(slotM 1).view.set]{fullShare} b : sProp 𝕄)
      = ((slotM 1).view.loc (V d c j) ↦[(slotM 1).view.set]{fullShare} ((slotM 0).view.set.piecewise a b)) :=
    pointsTo_congr fun i hi => (Finset.piecewise_eq_of_notMem _ _ _ (Finset.disjoint_right.mp slotM_disjoint hi)).symm
  rw [ha, hb]

/-- The two blocks, each at its own contents, are the buffer of row numbers whole at some contents. -/
theorem slots_join (d : Dev nD) (c : Fin τ.nSC) (j : Fin τ.nSub) (a b : Buf (Elt F) ((ibV).view.loc (V d c j))) :
    iprop(((slotM 0).view.loc (V d c j) ↦[(slotM 0).view.set]{fullShare} a)
        ∗ ((slotM 1).view.loc (V d c j) ↦[(slotM 1).view.set]{fullShare} b))
      ⊢ (iprop(∃ f, (ibV).view.loc (V d c j) ↦[(ibV).view.set]{fullShare} f) : sProp 𝕄) :=
  (slots_join_at (F := F) d c j a b).trans (exists_intro (Φ := fun f => ((ibV).view.loc (V d c j) ↦[(ibV).view.set]{fullShare} f : sProp 𝕄)) _)

/-- The sixteen lists, each at its own contents, are the buffer of row numbers at the contents pieced from them. -/
theorem idxb_whole_at (d : Dev nD) (c : Fin τ.nSC) (j : Fin τ.nSub)
    (a0 a1 a2 a3 a4 a5 a6 a7 b0 b1 b2 b3 b4 b5 b6 b7 : Buf (Elt F) ((ibV).view.loc (V d c j))) :
    iprop(((listM 0 0).view.loc (V d c j) ↦[(listM 0 0).view.set]{fullShare} a0)
        ∗ ((listM 0 1).view.loc (V d c j) ↦[(listM 0 1).view.set]{fullShare} a1)
        ∗ ((listM 0 2).view.loc (V d c j) ↦[(listM 0 2).view.set]{fullShare} a2)
        ∗ ((listM 0 3).view.loc (V d c j) ↦[(listM 0 3).view.set]{fullShare} a3)
        ∗ ((listM 0 4).view.loc (V d c j) ↦[(listM 0 4).view.set]{fullShare} a4)
        ∗ ((listM 0 5).view.loc (V d c j) ↦[(listM 0 5).view.set]{fullShare} a5)
        ∗ ((listM 0 6).view.loc (V d c j) ↦[(listM 0 6).view.set]{fullShare} a6)
        ∗ ((listM 0 7).view.loc (V d c j) ↦[(listM 0 7).view.set]{fullShare} a7)
        ∗ ((listM 1 0).view.loc (V d c j) ↦[(listM 1 0).view.set]{fullShare} b0)
        ∗ ((listM 1 1).view.loc (V d c j) ↦[(listM 1 1).view.set]{fullShare} b1)
        ∗ ((listM 1 2).view.loc (V d c j) ↦[(listM 1 2).view.set]{fullShare} b2)
        ∗ ((listM 1 3).view.loc (V d c j) ↦[(listM 1 3).view.set]{fullShare} b3)
        ∗ ((listM 1 4).view.loc (V d c j) ↦[(listM 1 4).view.set]{fullShare} b4)
        ∗ ((listM 1 5).view.loc (V d c j) ↦[(listM 1 5).view.set]{fullShare} b5)
        ∗ ((listM 1 6).view.loc (V d c j) ↦[(listM 1 6).view.set]{fullShare} b6)
        ∗ ((listM 1 7).view.loc (V d c j) ↦[(listM 1 7).view.set]{fullShare} b7))
      ⊢ ((ibV).view.loc (V d c j) ↦[(ibV).view.set]{fullShare}
          ((slotM 0).view.set.piecewise (join8 0 d c j a0 a1 a2 a3 a4 a5 a6 a7) (join8 1 d c j b0 b1 b2 b3 b4 b5 b6 b7)) : sProp 𝕄) := by
  iintro ⟨A0, A1, A2, A3, A4, A5, A6, A7, B0, B1, B2, B3, B4, B5, B6, B7⟩
  ihave Ha := (lists_join_at (F := F) 0 d c j a0 a1 a2 a3 a4 a5 a6 a7) $$ [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  ihave Hb := (lists_join_at (F := F) 1 d c j b0 b1 b2 b3 b4 b5 b6 b7) $$ [B0 B1 B2 B3 B4 B5 B6 B7]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  iapply (slots_join_at (F := F) d c j (join8 0 d c j a0 a1 a2 a3 a4 a5 a6 a7) (join8 1 d c j b0 b1 b2 b3 b4 b5 b6 b7))
  isplitl [Ha]; · iexact Ha
  iexact Hb

/-- The sixteen lists, each at its own contents, are the tile's buffer of row numbers whole at some contents. -/
theorem idxb_whole (d : Dev nD) (c : Fin τ.nSC) (j : Fin τ.nSub)
    (a0 a1 a2 a3 a4 a5 a6 a7 b0 b1 b2 b3 b4 b5 b6 b7 : Buf (Elt F) ((ibV).view.loc (V d c j))) :
    iprop(((listM 0 0).view.loc (V d c j) ↦[(listM 0 0).view.set]{fullShare} a0)
        ∗ ((listM 0 1).view.loc (V d c j) ↦[(listM 0 1).view.set]{fullShare} a1)
        ∗ ((listM 0 2).view.loc (V d c j) ↦[(listM 0 2).view.set]{fullShare} a2)
        ∗ ((listM 0 3).view.loc (V d c j) ↦[(listM 0 3).view.set]{fullShare} a3)
        ∗ ((listM 0 4).view.loc (V d c j) ↦[(listM 0 4).view.set]{fullShare} a4)
        ∗ ((listM 0 5).view.loc (V d c j) ↦[(listM 0 5).view.set]{fullShare} a5)
        ∗ ((listM 0 6).view.loc (V d c j) ↦[(listM 0 6).view.set]{fullShare} a6)
        ∗ ((listM 0 7).view.loc (V d c j) ↦[(listM 0 7).view.set]{fullShare} a7)
        ∗ ((listM 1 0).view.loc (V d c j) ↦[(listM 1 0).view.set]{fullShare} b0)
        ∗ ((listM 1 1).view.loc (V d c j) ↦[(listM 1 1).view.set]{fullShare} b1)
        ∗ ((listM 1 2).view.loc (V d c j) ↦[(listM 1 2).view.set]{fullShare} b2)
        ∗ ((listM 1 3).view.loc (V d c j) ↦[(listM 1 3).view.set]{fullShare} b3)
        ∗ ((listM 1 4).view.loc (V d c j) ↦[(listM 1 4).view.set]{fullShare} b4)
        ∗ ((listM 1 5).view.loc (V d c j) ↦[(listM 1 5).view.set]{fullShare} b5)
        ∗ ((listM 1 6).view.loc (V d c j) ↦[(listM 1 6).view.set]{fullShare} b6)
        ∗ ((listM 1 7).view.loc (V d c j) ↦[(listM 1 7).view.set]{fullShare} b7))
      ⊢ (iprop(∃ f, (V d c j).loc cc0_scratch1 ↦{fullShare} f) : sProp 𝕄) :=
  ((idxb_whole_at (F := F) d c j a0 a1 a2 a3 a4 a5 a6 a7 b0 b1 b2 b3 b4 b5 b6 b7).trans (Entails.of_eq (pts_ibV (F := F) d c j fullShare _))).trans
    (exists_intro (Φ := fun f => ((V d c j).loc cc0_scratch1 ↦{fullShare} f : sProp 𝕄)) _)

/-! ## The read share of the shared memory -/

/-- The remainder and the nine smaller shares of a tile's read share of the shared memory, four of them held apart from
    the other five, all at one contents, are the tile's read share at that contents. -/
theorem toks_back (d : Dev nD) (c : Fin τ.nSC) (j : Fin τ.nSub) (f : Buf (Elt F) ((shV).view.loc (V d c j))) :
    iprop(((shV).view.loc (V d c j) ↦[(shV).view.set]{shareDrop (shTok j) 9} f)
        ∗ ((shV).view.loc (V d c j) ↦[(shV).view.set]{shareTok (shTok j) 9 2} f)
        ∗ ((shV).view.loc (V d c j) ↦[(shV).view.set]{shareTok (shTok j) 9 3} f)
        ∗ ((shV).view.loc (V d c j) ↦[(shV).view.set]{shareTok (shTok j) 9 4} f)
        ∗ ((shV).view.loc (V d c j) ↦[(shV).view.set]{shareTok (shTok j) 9 5} f)
        ∗ bigSep (((((Finset.univ : Finset (Fin 9)).erase 2).erase 3).erase 4).erase 5)
            (fun i : Fin 9 => ((shV).view.loc (V d c j) ↦[(shV).view.set]{shareTok (shTok j) 9 i} f : sProp 𝕄)))
      ⊢ ((shV).view.loc (V d c j) ↦[(shV).view.set]{shTok j} f : sProp 𝕄) := by
  have h := Transfers.pointsTo_toks_join (Ix := HIx 1) (Val := Elt F) (Name := ℕ) (U := UU) (Lvl := ℕ)
    (ℓ := (shV).view.loc (V d c j)) (S := (shV).view.set) (f := f) (shTok j) 9
  rw [SparseCore.bigSep_erase' (i := (2 : Fin 9)) (Finset.mem_univ _),
    SparseCore.bigSep_erase' (i := (3 : Fin 9)) (s := (Finset.univ : Finset (Fin 9)).erase 2) (by decide),
    SparseCore.bigSep_erase' (i := (4 : Fin 9)) (s := ((Finset.univ : Finset (Fin 9)).erase 2).erase 3) (by decide),
    SparseCore.bigSep_erase' (i := (5 : Fin 9)) (s := (((Finset.univ : Finset (Fin 9)).erase 2).erase 3).erase 4) (by decide)] at h
  exact h

/-- The same, the read share said as the launch says it: some contents of the shared memory at the tile's share. -/
theorem toks_back_ex (d : Dev nD) (c : Fin τ.nSC) (j : Fin τ.nSub) (f : Buf (Elt F) ((shV).view.loc (V d c j))) :
    iprop(((shV).view.loc (V d c j) ↦[(shV).view.set]{shareDrop (shTok j) 9} f)
        ∗ ((shV).view.loc (V d c j) ↦[(shV).view.set]{shareTok (shTok j) 9 2} f)
        ∗ ((shV).view.loc (V d c j) ↦[(shV).view.set]{shareTok (shTok j) 9 3} f)
        ∗ ((shV).view.loc (V d c j) ↦[(shV).view.set]{shareTok (shTok j) 9 4} f)
        ∗ ((shV).view.loc (V d c j) ↦[(shV).view.set]{shareTok (shTok j) 9 5} f)
        ∗ bigSep (((((Finset.univ : Finset (Fin 9)).erase 2).erase 3).erase 4).erase 5)
            (fun i : Fin 9 => ((shV).view.loc (V d c j) ↦[(shV).view.set]{shareTok (shTok j) 9 i} f : sProp 𝕄)))
      ⊢ (iprop(∃ g, shTokPts d c j g) : sProp 𝕄) :=
  ((toks_back (F := F) d c j f).trans (Entails.of_eq (pts_shV (F := F) d c j (shTok j) f))).trans
    (exists_intro (Φ := fun g => (shTokPts d c j g : sProp 𝕄)) f)

/-! ## The tile's own semaphores and buffers -/

/-- Transfer semaphore number 0 of a tile, as the task's waits name it, is the cell of the pieces. -/
theorem dcell_eq_0 (d : Dev nD) (c : Fin τ.nSC) (j : Fin τ.nSub) (h : 0 < sig.nDmaSem) :
    ((V d c j, SemLoc.dma ⟨0, h⟩) : GSem nD τ sig) = dcell d c j cc0_scratch3 := rfl
/-- Transfer semaphore number 1 of a tile, as the task's waits name it, is the cell of the pieces. -/
theorem dcell_eq_1 (d : Dev nD) (c : Fin τ.nSC) (j : Fin τ.nSub) (h : 1 < sig.nDmaSem) :
    ((V d c j, SemLoc.dma ⟨1, h⟩) : GSem nD τ sig) = dcell d c j cc0_scratch4 := rfl
/-- Transfer semaphore number 2 of a tile, as the task's waits name it, is the cell of the pieces. -/
theorem dcell_eq_2 (d : Dev nD) (c : Fin τ.nSC) (j : Fin τ.nSub) (h : 2 < sig.nDmaSem) :
    ((V d c j, SemLoc.dma ⟨2, h⟩) : GSem nD τ sig) = dcell d c j cc0_scratch5 := rfl
/-- Transfer semaphore number 3 of a tile, as the task's waits name it, is the cell of the pieces. -/
theorem dcell_eq_3 (d : Dev nD) (c : Fin τ.nSC) (j : Fin τ.nSub) (h : 3 < sig.nDmaSem) :
    ((V d c j, SemLoc.dma ⟨3, h⟩) : GSem nD τ sig) = dcell d c j cc0_scratch6 := rfl
/-- Transfer semaphore number 4 of a tile, as the task's waits name it, is the cell of the pieces. -/
theorem dcell_eq_4 (d : Dev nD) (c : Fin τ.nSC) (j : Fin τ.nSub) (h : 4 < sig.nDmaSem) :
    ((V d c j, SemLoc.dma ⟨4, h⟩) : GSem nD τ sig) = dcell d c j cc0_scratch7 := rfl
/-- Transfer semaphore number 5 of a tile, as the task's waits name it, is the cell of the pieces. -/
theorem dcell_eq_5 (d : Dev nD) (c : Fin τ.nSC) (j : Fin τ.nSub) (h : 5 < sig.nDmaSem) :
    ((V d c j, SemLoc.dma ⟨5, h⟩) : GSem nD τ sig) = dcell d c j cc0_scratch8 := rfl
/-- Transfer semaphore number 6 of a tile, as the task's waits name it, is the cell of the pieces. -/
theorem dcell_eq_6 (d : Dev nD) (c : Fin τ.nSC) (j : Fin τ.nSub) (h : 6 < sig.nDmaSem) :
    ((V d c j, SemLoc.dma ⟨6, h⟩) : GSem nD τ sig) = dcell d c j cc0_scratch9 := rfl
/-- Transfer semaphore number 7 of a tile, as the task's waits name it, is the cell of the pieces. -/
theorem dcell_eq_7 (d : Dev nD) (c : Fin τ.nSC) (j : Fin τ.nSub) (h : 7 < sig.nDmaSem) :
    ((V d c j, SemLoc.dma ⟨7, h⟩) : GSem nD τ sig) = dcell d c j cc0_scratch10 := rfl
/-- Transfer semaphore number 8 of a tile, as the task's waits name it, is the cell of the pieces. -/
theorem dcell_eq_8 (d : Dev nD) (c : Fin τ.nSC) (j : Fin τ.nSub) (h : 8 < sig.nDmaSem) :
    ((V d c j, SemLoc.dma ⟨8, h⟩) : GSem nD τ sig) = dcell d c j cc0_scoped0 := rfl

/-- The nine transfer semaphores of the task, each at zero, and the rest of the tile's own at zero are all the tile's
    own semaphores at zero. -/
theorem sems_back (d : Dev nD) (c : Fin τ.nSC) (j : Fin τ.nSub) :
    iprop(semVal (dcell d c j cc0_scratch3) 0 ∗ semVal (dcell d c j cc0_scratch4) 0 ∗ semVal (dcell d c j cc0_scratch5) 0 ∗ semVal (dcell d c j cc0_scratch6) 0 ∗ semVal (dcell d c j cc0_scratch7) 0 ∗ semVal (dcell d c j cc0_scratch8) 0 ∗ semVal (dcell d c j cc0_scratch9) 0 ∗ semVal (dcell d c j cc0_scratch10) 0 ∗ semVal (dcell d c j cc0_scoped0) 0
        ∗ bigSep ((((((((((ownCells (V d c j)).erase (dcell d c j cc0_scratch3)).erase (dcell d c j cc0_scratch4)).erase (dcell d c j cc0_scratch5)).erase (dcell d c j cc0_scratch6)).erase (dcell d c j cc0_scratch7)).erase (dcell d c j cc0_scratch8)).erase (dcell d c j cc0_scratch9)).erase (dcell d c j cc0_scratch10)).erase (dcell d c j cc0_scoped0)) fun g => semVal g 0)
      ⊢ (ownSems0 (V d c j) : sProp 𝕄) :=
  Entails.of_eq (ownSems0_V (F := F) d c j).symm

/-- The two scratch buffers, each whole at some contents, and the rest of the tile's own buffers are all the tile's own
    buffers. -/
theorem bufs_back (d : Dev nD) (c : Fin τ.nSC) (j : Fin τ.nSub) :
    iprop((∃ f, (V d c j).loc cc0_scratch1 ↦{fullShare} f) ∗ (∃ f, (V d c j).loc cc0_scratch2 ↦{fullShare} f)
        ∗ bigSep (((ownRefs (τ := τ) (.scVector c j)).erase ((Proc.scVector c j).devRef cc0_scratch1)).erase ((Proc.scVector c j).devRef cc0_scratch2))
            fun b => iprop(∃ f, ((d, b) : Loc nD τ sig) ↦{fullShare} f))
      ⊢ (ownBufs (V d c j) : sProp 𝕄) :=
  Entails.of_eq (ownBufs_V (F := F) d c j).symm

/-- The same, the tile's own semaphores said as the semaphores in its scope. -/
theorem sems_back_scoped (d : Dev nD) (c : Fin τ.nSC) (j : Fin τ.nSub) :
    iprop(semVal (dcell d c j cc0_scratch3) 0 ∗ semVal (dcell d c j cc0_scratch4) 0 ∗ semVal (dcell d c j cc0_scratch5) 0 ∗ semVal (dcell d c j cc0_scratch6) 0 ∗ semVal (dcell d c j cc0_scratch7) 0 ∗ semVal (dcell d c j cc0_scratch8) 0 ∗ semVal (dcell d c j cc0_scratch9) 0 ∗ semVal (dcell d c j cc0_scratch10) 0 ∗ semVal (dcell d c j cc0_scoped0) 0
        ∗ bigSep ((((((((((ownCells (V d c j)).erase (dcell d c j cc0_scratch3)).erase (dcell d c j cc0_scratch4)).erase (dcell d c j cc0_scratch5)).erase (dcell d c j cc0_scratch6)).erase (dcell d c j cc0_scratch7)).erase (dcell d c j cc0_scratch8)).erase (dcell d c j cc0_scratch9)).erase (dcell d c j cc0_scratch10)).erase (dcell d c j cc0_scoped0)) fun g => semVal g 0)
      ⊢ (scopedSems0 (V d c j) : sProp 𝕄) :=
  (sems_back (F := F) d c j).trans (Entails.of_eq (SparseCore.Cfg.scopedSems0_V d c j).symm)

/-- The same, the tile's own buffers said as the buffers in its scope. -/
theorem bufs_back_scoped (hF : (K (F := F)).Facts) (d : Dev nD) (c : Fin τ.nSC) (j : Fin τ.nSub) :
    iprop((∃ f, (V d c j).loc cc0_scratch1 ↦{fullShare} f) ∗ (∃ f, (V d c j).loc cc0_scratch2 ↦{fullShare} f)
        ∗ bigSep (((ownRefs (τ := τ) (.scVector c j)).erase ((Proc.scVector c j).devRef cc0_scratch1)).erase ((Proc.scVector c j).devRef cc0_scratch2))
            fun b => iprop(∃ f, ((d, b) : Loc nD τ sig) ↦{fullShare} f))
      ⊢ (scopedBufs (V d c j) : sProp 𝕄) :=
  (bufs_back (F := F) d c j).trans (Entails.of_eq ((K (F := F)).scopedBufs_V hF d c j).symm)

end Cert.Proof.KB

end
-- ==== Proof.BEpilogue.lean ====
/-
  The end of a tile's task. When the main loop is over, two gathers and one copy-out are still outstanding. The task
  waits for the two gathers — the second half of the buffer of gathered rows then reads the worker's last two blocks of
  the lookup —, copies that half out to the worker's last pair of blocks, and waits for both copy-outs. What it then
  holds is everything the launch handed over, in pieces: the pieces are joined back (the sixteen lists into the buffer
  of row numbers, the two halves into the buffer of gathered rows, the nine smaller shares and the remainder into the
  tile's read share of the shared memory, the intervals of blocks into the worker's slice), the slice at the lookup.
-/
import proofs.«205114_g12446815224155_cont_fleet_488_32_alg».proof.Proof.BInv
import proofs.«205114_g12446815224155_cont_fleet_488_32_alg».proof.Proof.BCleanOut
import proofs.«205114_g12446815224155_cont_fleet_488_32_alg».proof.Proof.BRejoin

set_option maxRecDepth 16384

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}
local notation "𝕄" => MT nD τ sig (HIx 1) (Elt F) ℕ UU ℕ
local notation "iV" => (Memref.whole Cert.Kernel.main_v0_scv : Memref Cert.Kernel.sig Kind.scVector Space.hbm Cert.Kernel.S3276800 EltTy.i32)
local notation "tV" => (Memref.whole Cert.Kernel.main_arg1_scv : Memref Cert.Kernel.sig Kind.scVector Space.hbm Cert.Kernel.S3x128 EltTy.f32)
local notation "oV" => (Memref.whole Cert.Kernel.main_v1_scv : Memref Cert.Kernel.sig Kind.scVector Space.hbm Cert.Kernel.S25600x128x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)

variable (fi : (d : Dev nD) → Buf (Elt F) (idxLoc d)) (ft : (d : Dev nD) → Buf (Elt F) (tabLoc d)) (fo : (d : Dev nD) → Buf (Elt F) (oLoc d))
variable [FloatOps F]

/-- What the task runs after its main loop: the wait for the gather into the third quarter, the rest of the body's last
    part (the wait for the gather into the fourth quarter, the last copy-out, the wait for the first copy-out
    semaphore), and the wait for the second copy-out semaphore. -/
noncomputable def tailProg (L : grid0.Coords) (v6 : BitVec 32) :
    Prog (TpuEff nD τ sig (Elt F) Λ₀ (.scVector ((L 0).castLE hcore0) ((L 1).castLE hsub0))) PUnit := do
  let v6 ← (do
    SparseCore.waitIndirectGather (cc0_scratch7).sem ((shV).slice (Rect.unit (s := S3x128) ![0, 0] S3x128.size inb_S3x128_S3x128_0_0) (fun _ => rfl)) (((rwV).slice (Rect.unit (s := S2x2x128x128) ![1, 0, 0, 0] S1x1x128x128.size inb_S2x2x128x128_S1x1x128x128_1_0_0_0) (fun _ => rfl)).squeeze S128x128 squeezes_S1x1x128x128_S128x128) (View.wordExact_bits rfl) ((View.wordExact_bits rfl).reshape _ _)
    pure v6)
  k0_part15 (F := F) L iV (Memref.isWhole_whole _) tV (Memref.isWhole_whole _) oV (Memref.isWhole_whole _) shV (Memref.isWhole_whole _)
      ibV (Memref.isWhole_whole _) rwV (Memref.isWhole_whole _)
      cc0_scratch3 cc0_scratch4 cc0_scratch5 cc0_scratch6 cc0_scratch7 cc0_scratch8 cc0_scratch9 cc0_scratch10 cc0_scoped0 v6
  Prog.lift (.waitDma2 (cc0_scratch10).sem (((rwV).slice (Rect.unit (s := S2x2x128x128) ![0, 0, 0, 0] S1x2x128x128.size inb_S2x2x128x128_S1x2x128x128_0_0_0_0) (fun _ => rfl)).squeeze S2x128x128 squeezes_S1x2x128x128_S2x128x128) ((oV).slice (Rect.unit (s := S25600x128x128) (k0_off29 L 0#32) S2x128x128.size (k0_off29_inb L 0)) (fun _ => rfl)) ((View.wordExact_bits rfl).reshape _ _) (View.wordExact_bits rfl))
  pure ⟨⟩

section Finish

variable (d : Dev nD) (L : grid0.Coords) (O : CellTallies nD τ sig (HIx 1)) (W : Waits sig (HIx 1))

/-- A wait of the task's own, at the call's index, recorded on top of waits that are the ones the task began with or its own. -/
theorem waitsOK_insert {W' : Waits sig (HIx 1)} (h : WaitsOK W W') (sm : SemLoc sig) : WaitsOK W (insert (sm, (default : HIx 1)) W') := by
  intro p hp
  rcases Finset.mem_insert.mp hp with rfl | hp
  · exact Or.inr (Or.inl rfl)
  · exact h p hp

/-- The first six lists of the second block and its last two, all at one contents, are the block at that contents. -/
theorem slot1_back (c : Fin τ.nSC) (j : Fin τ.nSub) (f : Buf (Elt F) ((ibV).view.loc (V d c j))) :
    iprop((bigSep (((Finset.univ : Finset (Fin 8)).erase 6).erase 7) fun s : Fin 8 => ((listM 1 s).view.loc (V d c j) ↦[(listM 1 s).view.set]{fullShare} f : sProp 𝕄))
        ∗ ((listM 1 6).view.loc (V d c j) ↦[(listM 1 6).view.set]{fullShare} f)
        ∗ ((listM 1 7).view.loc (V d c j) ↦[(listM 1 7).view.set]{fullShare} f))
      ⊢ ((slotM 1).view.loc (V d c j) ↦[(slotM 1).view.set]{fullShare} f : sProp 𝕄) := by
  rw [slot_lists (F := F) d c j 1 f, SparseCore.bigSep_erase' (i := (6 : Fin 8)) (Finset.mem_univ _),
    SparseCore.bigSep_erase' (i := (7 : Fin 8)) (s := (Finset.univ : Finset (Fin 8)).erase 6) (by decide)]
  iintro ⟨Hr, H6, H7⟩
  isplitl [H6]; · iexact H6
  isplitl [H7]; · iexact H7
  iexact Hr

/-- What the task holds when its last wait returns, beside what it never touched: its read share of the list, its
    slice of the result at the lookup, its read share of the shared memory, its two scratch buffers whole, its eight
    transfer semaphores at zero, and its debt with the waits recorded. -/
def EpiPost : sProp 𝕄 :=
  iprop(iPts fi d (wL L) ∗ oPts d (wL L) (oDone fi ft d) ∗ (∃ f, shTokPts d (cV L) (jV L) f)
    ∗ (∃ f, (V d (cV L) (jV L)).loc cc0_scratch1 ↦{fullShare} f) ∗ (∃ f, (V d (cV L) (jV L)).loc cc0_scratch2 ↦{fullShare} f)
    ∗ semVal (dcell d (cV L) (jV L) cc0_scratch3) 0 ∗ semVal (dcell d (cV L) (jV L) cc0_scratch4) 0 ∗ semVal (dcell d (cV L) (jV L) cc0_scratch5) 0 ∗ semVal (dcell d (cV L) (jV L) cc0_scratch6) 0 ∗ semVal (dcell d (cV L) (jV L) cc0_scratch7) 0 ∗ semVal (dcell d (cV L) (jV L) cc0_scratch8) 0 ∗ semVal (dcell d (cV L) (jV L) cc0_scratch9) 0 ∗ semVal (dcell d (cV L) (jV L) cc0_scratch10) 0
    ∗ ∃ W', ⌜WaitsOK W W'⌝ ∗ owes (V d (cV L) (jV L)) O W')

end Finish

set_option maxHeartbeats 4000000 in
/-- THE END OF THE TASK. From the main loop's invariant after its last trip, the rest of the task — the waits for the
    last two gathers, the copy-out of the last pair of blocks, the waits for both copy-outs — runs to its end and leaves
    the worker's slice at the lookup, every piece rejoined into what the launch handed over, every transfer semaphore at
    zero. -/
theorem epilogue (d : Dev nD) (L : grid0.Coords) (O : CellTallies nD τ sig (HIx 1)) (W : Waits sig (HIx 1)) (v6 : BitVec 32) :
    (Inv fi ft fo d L O W 50 () : sProp 𝕄)
      ⊢ wp frame (wpE (defs₀ (F := F)) 𝒱₀ (V d (cV L) (jV L)) none) Set.univ (tailProg (F := F) L v6) (fun _ => EpiPost fi ft d L O W) := by
  unfold Inv IdxPart
  rw [dif_neg (by omega : ¬ ((50 : ℕ) < 50)), dif_neg (by omega : ¬ ((50 : ℕ) = 0)), dif_pos (le_refl 50)]
  unfold Steady Base
  unfold GathD10 GathD11 OutD0 shAll
  iintro ⟨%hk, ⟨#Hmw, HOw, Hs4, Hs5, Hs6, Hs10, Htok2, Htok3, Htoks9, Htrem⟩, ⟨Hs3, Hi, Hsl0⟩, ⟨%f2, %hf2, Hm05, HG10, HG11, Hr4, Hr5, ⟨%h0, HO0⟩, Hdone, Hrest⟩⟩
  icases HOw with ⟨%W', %hW', HO⟩
  sl_unfold [tailProg]
  sl_exec
  -- the last two gathers have landed: the two quarters of the second half read the lookup's last two blocks
  icases HG10_dst with ⟨⟨%a10, Hq10, %ha10⟩, Hl6⟩
  icases HG11_dst with ⟨⟨%a11, Hq11, %ha11⟩, Hl7⟩
  ihave Hq10 := (Entails.of_eq (quarter_lit_1_0 (F := F) d (cV L) (jV L) a10)) $$ Hq10
  ihave Hq11 := (Entails.of_eq (quarter_lit_1_1 (F := F) d (cV L) (jV L) a11)) $$ Hq11
  ihave Hh1 := (quarters_join (F := F) d (cV L) (jV L) 1 a10 a11) $$ [Hq10 Hq11]
  · isplitl [Hq10] <;> iassumption
  ihave Hh1 := (Entails.of_eq (half_lit_1 (F := F) d (cV L) (jV L) _).symm) $$ Hh1
  -- the last pair of the worker's blocks, split off what is left of its slice
  have hoffE : k0_off29 L 798#32 = ![800 * (wL L).val + 798, 0, 0] := by
    refine (k0_off29_eq L ⟨1, by decide⟩).trans ?_
    have e : 1600 * (L 1).val + 800 * (L 0).val + 798 * ((⟨1, by decide⟩ : Fin 2) : ℕ) = 800 * (wL L).val + 798 := by
      show 1600 * (L 1).val + 800 * (L 0).val + 798 * 1 = 800 * ((L 1).val * 2 + (L 0).val) + 798
      omega
    rw [e]
  ihave Hp := (rest_take (F := F) d (cV L) (jV L) (wL L) (k0_off29_inb L 1) (lo := 798) hoffE (by omega) (fo d)) $$ Hrest
  icases Hp with ⟨Hp7, Hrest⟩
  sl_exec
  -- the first copy-out has delivered its pair at the lookup and handed the first half back
  icases HO0_dst with ⟨%g6, Hp6, %hg6⟩
  rw [wp_ret]; imodintro
  unfold EpiPost
  -- the list's read share, as the launch names it
  ihave Hi := (Entails.of_eq (pts_iV (F := F) d (cV L) (jV L) (iTok (wL L)) (fi d))) $$ Hi
  -- the worker's slice: the blocks done before, the pair the first copy-out delivered, the pair the last one wrote
  ihave Hdone := (done_add (F := F) d (cV L) (jV L) (wL L) (pairIn L 796 (by omega)) (lo := 796) rfl g6 (oDone fi ft d) hg6) $$ [Hdone Hp6]
  · isplitl [Hdone]; · iexact Hdone
    iexact Hp6
  have hg7 := pair_fact (F := F) fi ft d L 1 a10 a11 (k0_off29_inb L 1) 798 (by omega) hoffE ha10 ha11 (fo d)
  ihave Hdone := (done_add (F := F) d (cV L) (jV L) (wL L) (k0_off29_inb L 1) (lo := 798) hoffE _ (oDone fi ft d) hg7) $$ [Hdone Hp7]
  · isplitl [Hdone]; · iexact Hdone
    iexact Hp7
  ihave Hdone := (Entails.of_eq (show (oLoc d ↦[rowsIn (wL L) 0 (798 + 2)]{fullShare} oDone fi ft d : sProp 𝕄) = oPts d (wL L) (oDone fi ft d) from by
    show _ = (oLoc d ↦[oSet (wL L)]{fullShare} oDone fi ft d : sProp 𝕄)
    rw [oSet_eq_rows])) $$ Hdone
  ihave He := (Entails.of_eq (rows_none (F := F) d (wL L) 800 fullShare (fo d))) $$ Hrest
  -- the read share of the shared memory
  ihave Hsh := (toks_back_ex (F := F) d (cV L) (jV L) (ft d)) $$ [Htrem Htok2 Htok3 Hr4 Hr5 Htoks9]
  · isplitl [Htrem]; · iexact Htrem
    isplitl [Htok2]; · iexact Htok2
    isplitl [Htok3]; · iexact Htok3
    isplitl [Hr4]; · iexact Hr4
    isplitl [Hr5]; · iexact Hr5
    iexact Htoks9
  -- the buffer of gathered rows
  ihave Hh0 := (Entails.of_eq (half_lit_0 (F := F) d (cV L) (jV L) h0)) $$ HO0_src
  ihave Hh1 := (Entails.of_eq (half_lit_1 (F := F) d (cV L) (jV L) _)) $$ Hh1
  ihave Hrw := (rowHalves_join (F := F) d (cV L) (jV L) h0 _) $$ [Hh0 Hh1]
  · isplitl [Hh0] <;> iassumption
  ihave Hrw := (Entails.of_eq (pts_rwV (F := F) d (cV L) (jV L) fullShare _)) $$ Hrw
  -- the buffer of row numbers
  icases Hsl0 with ⟨%f0, Hsl0⟩
  ihave Hsl0 := (Entails.of_eq (slot_lists (F := F) d (cV L) (jV L) 0 f0).symm) $$ Hsl0
  ihave Hl6 := (Entails.of_eq (list_lit_1_6 (F := F) d (cV L) (jV L) f2)) $$ Hl6
  ihave Hl7 := (Entails.of_eq (list_lit_1_7 (F := F) d (cV L) (jV L) f2)) $$ Hl7
  ihave Hsl1 := (slot1_back (F := F) d (cV L) (jV L) f2) $$ [Hm05 Hl6 Hl7]
  · isplitl [Hm05]; · iexact Hm05
    isplitl [Hl6] <;> iassumption
  ihave Hib := (slots_join_at (F := F) d (cV L) (jV L) f0 f2) $$ [Hsl0 Hsl1]
  · isplitl [Hsl0] <;> iassumption
  ihave Hib := (Entails.of_eq (pts_ibV (F := F) d (cV L) (jV L) fullShare _)) $$ Hib
  -- everything, in the order of the statement
  isplitl [Hi]; · iexact Hi
  isplitl [Hdone]; · iexact Hdone
  isplitl [Hsh]; · iexact Hsh
  isplitl [Hib]; · iexists _; iexact Hib
  isplitl [Hrw]; · iexists _; iexact Hrw
  isplitl [Hs3]; · iexact Hs3
  isplitl [Hs4]; · iexact Hs4
  isplitl [Hs5]; · iexact Hs5
  isplitl [Hs6]; · iexact Hs6
  isplitl [HG10]; · iexact HG10
  isplitl [HG11]; · iexact HG11
  isplitl [HO0]; · iexact HO0
  isplitl [Hs10]; · iexact Hs10
  iexists _
  isplitl [He]
  rotate_left
  · iexact HO
  · iclear He
    ipureintro
    exact waitsOK_insert W (waitsOK_insert W (waitsOK_insert W (waitsOK_insert W hW' _) _) _) _
-- ==== Proof.BTripFirst.lean ====
/-
  The first trip of a tile's main loop.
  Only the copy of block 0 of the tile's row numbers is outstanding when it starts, and nothing has been written. The trip
  takes block 0 through slot 0 and block 1 through slot 1: each block's eight lists are reduced modulo 3 (the identity
  here), each list gathers its 128 rows of the table into a quarter of the rows buffer, and each pair of gathered quarters
  is copied out to two blocks of the tile's slice of the result. A gathered quarter holds the lookup's rows of the block
  its list names, so each pair copied out holds the lookup. At the trip's end the copy of block 2, the last two gathers of
  block 1 and the copy-out of blocks 12 and 13 are outstanding, which is what the invariant says of trip 1.
-/
import proofs.«205114_g12446815224155_cont_fleet_488_32_alg».proof.Proof.BWrap
import proofs.«205114_g12446815224155_cont_fleet_488_32_alg».proof.Proof.BBarrier
import proofs.«205114_g12446815224155_cont_fleet_488_32_alg».proof.Proof.BPieces
import proofs.«205114_g12446815224155_cont_fleet_488_32_alg».proof.Proof.BWrapLoops
import proofs.«205114_g12446815224155_cont_fleet_488_32_alg».proof.Proof.BGather
import proofs.«205114_g12446815224155_cont_fleet_488_32_alg».proof.Proof.BJoin
import proofs.«205114_g12446815224155_cont_fleet_488_32_alg».proof.Proof.BInv
import proofs.«205114_g12446815224155_cont_fleet_488_32_alg».proof.Proof.BGen
import proofs.«205114_g12446815224155_cont_fleet_488_32_alg».proof.Proof.BCleanOut
import proofs.«205114_g12446815224155_cont_fleet_488_32_alg».proof.Proof.BEpilogue

set_option maxRecDepth 16384

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}
local notation "𝕄" => MT nD τ sig (HIx 1) (Elt F) ℕ UU ℕ
local notation "iV" => (Memref.whole Cert.Kernel.main_v0_scv : Memref Cert.Kernel.sig Kind.scVector Space.hbm Cert.Kernel.S3276800 EltTy.i32)
local notation "tV" => (Memref.whole Cert.Kernel.main_arg1_scv : Memref Cert.Kernel.sig Kind.scVector Space.hbm Cert.Kernel.S3x128 EltTy.f32)
local notation "oV" => (Memref.whole Cert.Kernel.main_v1_scv : Memref Cert.Kernel.sig Kind.scVector Space.hbm Cert.Kernel.S25600x128x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)

open Idealize.ShloMosaic.ValueIdx

variable (fi : (d : Dev nD) → Buf (Elt F) (idxLoc d)) (ft : (d : Dev nD) → Buf (Elt F) (tabLoc d)) (fo : (d : Dev nD) → Buf (Elt F) (oLoc d))
variable [FloatOps F]

set_option maxHeartbeats 32000000 in
theorem trip_first (hr : InRange (F := F) fi) (d : Dev nD) (L : grid0.Coords) (O : CellTallies nD τ sig (HIx 1)) (W : Waits sig (HIx 1))
    (v5 v6 : BitVec 32) (k : Fin k0_t1_loop.trips) (hk : k.val = 0) (acc : Unit) :
    Inv (F := F) fi ft fo d L O W k.val acc
      ⊢ wp frame (wpE (defs₀ (F := F)) 𝒱₀ (V d (cV L) (jV L)) none) Set.univ
          (k0_t1_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k acc)
          (Inv (F := F) fi ft fo d L O W (k.val + 1)) := by
  unfold Inv
  rw [dif_pos hk]
  unfold Base IdxPart First
  rw [dif_pos (by omega : k.val < 50)]
  iintro ⟨%hk50, ⟨#Hmw2, ⟨%W0, %hW0, HO⟩, Hs4, Hs5, Hs6, Hs10, Htok2, Htok3, Htoks9, Htrem⟩, ⟨HF0, Hi'⟩, ⟨%f0, Hsl1⟩, ⟨%frw, Hrw'⟩, Hs7, Hs8, Hs9, Htok4, Htok5, Ho, Hdone⟩
  have hg0 : 2 * k.val < 100 := by omega
  unfold IdxD0 idxBlk
  sl_unfold [k0_t1_body]
  sl_exec (disch := (clear * - k hk; decide +kernel +revert))
  -- block 2k of row numbers has landed in slot 0
  icases HF0_dst with ⟨%f1, Hsl0, %hs1⟩
  have hf1 := slot_range (F := F) fi hr d L 0 _ f1 hs1
  ihave Hsl0 := (Entails.of_eq (slot_lit_0 (F := F) d (cV L) (jV L) f1)) $$ Hsl0
  ihave Hls := (Entails.of_eq (slot_lists8 (F := F) d (cV L) (jV L) 0 f1)) $$ Hsl0
  icases Hls with ⟨Hl0, Hl1, Hl2, Hl3, Hl4, Hl5, Hl6, Hl7⟩
  ihave Hl0 := (Entails.of_eq (list_lit_0_0 (F := F) d (cV L) (jV L) f1).symm) $$ Hl0
  ihave Hl1 := (Entails.of_eq (list_lit_0_1 (F := F) d (cV L) (jV L) f1).symm) $$ Hl1
  ihave Hl2 := (Entails.of_eq (list_lit_0_2 (F := F) d (cV L) (jV L) f1).symm) $$ Hl2
  ihave Hl3 := (Entails.of_eq (list_lit_0_3 (F := F) d (cV L) (jV L) f1).symm) $$ Hl3
  ihave Hl4 := (Entails.of_eq (list_lit_0_4 (F := F) d (cV L) (jV L) f1).symm) $$ Hl4
  ihave Hl5 := (Entails.of_eq (list_lit_0_5 (F := F) d (cV L) (jV L) f1).symm) $$ Hl5
  ihave Hl6 := (Entails.of_eq (list_lit_0_6 (F := F) d (cV L) (jV L) f1).symm) $$ Hl6
  ihave Hl7 := (Entails.of_eq (list_lit_0_7 (F := F) d (cV L) (jV L) f1).symm) $$ Hl7
  -- the rows buffer by its four quarters
  ihave Hh := (Entails.of_eq (rw_halves (F := F) d (cV L) (jV L) frw)) $$ Hrw'
  icases Hh with ⟨Hh0, Hh1⟩
  ihave Hqa := (Entails.of_eq (half_quarters (F := F) d (cV L) (jV L) 0 frw)) $$ Hh0
  icases Hqa with ⟨Hq00, Hq01⟩
  ihave Hqb := (Entails.of_eq (half_quarters (F := F) d (cV L) (jV L) 1 frw)) $$ Hh1
  icases Hqb with ⟨Hq10, Hq11⟩
  ihave Hq00 := (Entails.of_eq (quarter_lit_0_0 (F := F) d (cV L) (jV L) frw).symm) $$ Hq00
  ihave Hq01 := (Entails.of_eq (quarter_lit_0_1 (F := F) d (cV L) (jV L) frw).symm) $$ Hq01
  ihave Hq10 := (Entails.of_eq (quarter_lit_1_0 (F := F) d (cV L) (jV L) frw).symm) $$ Hq10
  ihave Hq11 := (Entails.of_eq (quarter_lit_1_1 (F := F) d (cV L) (jV L) frw).symm) $$ Hq11
  -- the slot 1 as the next block's copy names it
  ihave Hsl1 := (Entails.of_eq (slot_lit_1 (F := F) d (cV L) (jV L) f0).symm) $$ Hsl1
  -- the bounds of the slice's two intervals, said through the trip's number
  ihave Ho := (Entails.of_eq (show (oLoc d ↦[rowsIn (wL L) 0 800]{fullShare} fo d : sProp 𝕄) = (oLoc d ↦[rowsIn (wL L) (16 * k.val) 800]{fullShare} fo d) from by rw [hk])) $$ Ho
  ihave Hdone := (Entails.of_eq (show (oLoc d ↦[rowsIn (wL L) 0 0]{fullShare} oDone fi ft d : sProp 𝕄) = (oLoc d ↦[rowsIn (wL L) 0 (16 * k.val)]{fullShare} oDone fi ft d) from by rw [hk])) $$ Hdone
  -- reduction of the list 0 of slot 0: each step stores back what it loaded
  have hfl0 : ListOK (F := F) 0 0 d (cV L) (jV L) f1 := listOK_of_slot (F := F) 0 d (cV L) (jV L) f1 hf1 0
  first
    | sl_for (inv_t2 (F := F) d L f1) $$ [Hl0]
    | (sl_rw [Idealize.SL.Sem.Prog.bind_assoc]; sl_for (inv_t2 (F := F) d L f1) $$ [Hl0])
  · intro k2 acc
    exact step_t2 (F := F) d L v5 v6 (0#32) (1#32) k f1 hfl0 k2 acc
  · iapply (Entails.of_eq (show ((((ibV).slice (Rect.unit (s := S2x1024) ![0, 0] S1x128.size inb_S2x1024_S1x128_0_0) (fun _ => rfl)).squeeze S128 squeezes_S1x128_S128).view.loc (V d (cV L) (jV L)) ↦[(((ibV).slice (Rect.unit (s := S2x1024) ![0, 0] S1x128.size inb_S2x1024_S1x128_0_0) (fun _ => rfl)).squeeze S128 squeezes_S1x128_S128).view.set]{fullShare} f1 : sProp 𝕄) = inv_t2 (F := F) d L f1 0 PUnit.unit from rfl)) $$ Hl0
  iintro %acc2 Hl0
  ihave Hl0 := (Entails.of_eq (show inv_t2 (F := F) d L f1 (Scf.trips k0_t2_loop.lb k0_t2_loop.ub k0_t2_loop.st) acc2 = ((((ibV).slice (Rect.unit (s := S2x1024) ![0, 0] S1x128.size inb_S2x1024_S1x128_0_0) (fun _ => rfl)).squeeze S128 squeezes_S1x128_S128).view.loc (V d (cV L) (jV L)) ↦[(((ibV).slice (Rect.unit (s := S2x1024) ![0, 0] S1x128.size inb_S2x1024_S1x128_0_0) (fun _ => rfl)).squeeze S128 squeezes_S1x128_S128).view.set]{fullShare} f1 : sProp 𝕄) from rfl)) $$ Hl0
  sl_exec (disch := (clear * - k hk; decide +kernel +revert))
  -- reduction of the list 1 of slot 0: each step stores back what it loaded
  have hfl1 : ListOK (F := F) 0 1 d (cV L) (jV L) f1 := listOK_of_slot (F := F) 0 d (cV L) (jV L) f1 hf1 1
  first
    | sl_for (inv_t3 (F := F) d L f1) $$ [Hl1]
    | (sl_rw [Idealize.SL.Sem.Prog.bind_assoc]; sl_for (inv_t3 (F := F) d L f1) $$ [Hl1])
  · intro k2 acc
    exact step_t3 (F := F) d L v5 v6 (0#32) (1#32) k f1 hfl1 k2 acc
  · iapply (Entails.of_eq (show ((((ibV).slice (Rect.unit (s := S2x1024) ![0, 128] S1x128.size inb_S2x1024_S1x128_0_128) (fun _ => rfl)).squeeze S128 squeezes_S1x128_S128).view.loc (V d (cV L) (jV L)) ↦[(((ibV).slice (Rect.unit (s := S2x1024) ![0, 128] S1x128.size inb_S2x1024_S1x128_0_128) (fun _ => rfl)).squeeze S128 squeezes_S1x128_S128).view.set]{fullShare} f1 : sProp 𝕄) = inv_t3 (F := F) d L f1 0 PUnit.unit from rfl)) $$ Hl1
  iintro %acc3 Hl1
  ihave Hl1 := (Entails.of_eq (show inv_t3 (F := F) d L f1 (Scf.trips k0_t3_loop.lb k0_t3_loop.ub k0_t3_loop.st) acc3 = ((((ibV).slice (Rect.unit (s := S2x1024) ![0, 128] S1x128.size inb_S2x1024_S1x128_0_128) (fun _ => rfl)).squeeze S128 squeezes_S1x128_S128).view.loc (V d (cV L) (jV L)) ↦[(((ibV).slice (Rect.unit (s := S2x1024) ![0, 128] S1x128.size inb_S2x1024_S1x128_0_128) (fun _ => rfl)).squeeze S128 squeezes_S1x128_S128).view.set]{fullShare} f1 : sProp 𝕄) from rfl)) $$ Hl1
  have hin0 : ∀ x, (((((ibV).slice (Rect.unit (s := S2x1024) ![0, 0] S1x128.size inb_S2x1024_S1x128_0_0) (fun _ => rfl)).squeeze S128 squeezes_S1x128_S128).view.read (Elt F) f1 x : BitVec 32)).toNat < S3x128.size (gathers_S3x128_S128x128).axis :=
    gather_hin gathers_S3x128_S128x128 _ hfl0
  sl_exec (disch := (clear * - k hk; decide +kernel +revert))
  -- reduction of the list 2 of slot 0: each step stores back what it loaded
  have hfl2 : ListOK (F := F) 0 2 d (cV L) (jV L) f1 := listOK_of_slot (F := F) 0 d (cV L) (jV L) f1 hf1 2
  first
    | sl_for (inv_t4 (F := F) d L f1) $$ [Hl2]
    | (sl_rw [Idealize.SL.Sem.Prog.bind_assoc]; sl_for (inv_t4 (F := F) d L f1) $$ [Hl2])
  · intro k2 acc
    exact step_t4 (F := F) d L v5 v6 (0#32) (1#32) k f1 hfl2 k2 acc
  · iapply (Entails.of_eq (show ((((ibV).slice (Rect.unit (s := S2x1024) ![0, 256] S1x128.size inb_S2x1024_S1x128_0_256) (fun _ => rfl)).squeeze S128 squeezes_S1x128_S128).view.loc (V d (cV L) (jV L)) ↦[(((ibV).slice (Rect.unit (s := S2x1024) ![0, 256] S1x128.size inb_S2x1024_S1x128_0_256) (fun _ => rfl)).squeeze S128 squeezes_S1x128_S128).view.set]{fullShare} f1 : sProp 𝕄) = inv_t4 (F := F) d L f1 0 PUnit.unit from rfl)) $$ Hl2
  iintro %acc4 Hl2
  ihave Hl2 := (Entails.of_eq (show inv_t4 (F := F) d L f1 (Scf.trips k0_t4_loop.lb k0_t4_loop.ub k0_t4_loop.st) acc4 = ((((ibV).slice (Rect.unit (s := S2x1024) ![0, 256] S1x128.size inb_S2x1024_S1x128_0_256) (fun _ => rfl)).squeeze S128 squeezes_S1x128_S128).view.loc (V d (cV L) (jV L)) ↦[(((ibV).slice (Rect.unit (s := S2x1024) ![0, 256] S1x128.size inb_S2x1024_S1x128_0_256) (fun _ => rfl)).squeeze S128 squeezes_S1x128_S128).view.set]{fullShare} f1 : sProp 𝕄) from rfl)) $$ Hl2
  have hin1 : ∀ x, (((((ibV).slice (Rect.unit (s := S2x1024) ![0, 128] S1x128.size inb_S2x1024_S1x128_0_128) (fun _ => rfl)).squeeze S128 squeezes_S1x128_S128).view.read (Elt F) f1 x : BitVec 32)).toNat < S3x128.size (gathers_S3x128_S128x128).axis :=
    gather_hin gathers_S3x128_S128x128 _ hfl1
  sl_exec (disch := (clear * - k hk; decide +kernel +revert))
  -- reduction of the list 3 of slot 0: each step stores back what it loaded
  have hfl3 : ListOK (F := F) 0 3 d (cV L) (jV L) f1 := listOK_of_slot (F := F) 0 d (cV L) (jV L) f1 hf1 3
  first
    | sl_for (inv_t5 (F := F) d L f1) $$ [Hl3]
    | (sl_rw [Idealize.SL.Sem.Prog.bind_assoc]; sl_for (inv_t5 (F := F) d L f1) $$ [Hl3])
  · intro k2 acc
    exact step_t5 (F := F) d L v5 v6 k (0#32) (0#1) f1 hfl3 k2 acc
  · iapply (Entails.of_eq (show ((((ibV).slice (Rect.unit (s := S2x1024) ![0, 384] S1x128.size inb_S2x1024_S1x128_0_384) (fun _ => rfl)).squeeze S128 squeezes_S1x128_S128).view.loc (V d (cV L) (jV L)) ↦[(((ibV).slice (Rect.unit (s := S2x1024) ![0, 384] S1x128.size inb_S2x1024_S1x128_0_384) (fun _ => rfl)).squeeze S128 squeezes_S1x128_S128).view.set]{fullShare} f1 : sProp 𝕄) = inv_t5 (F := F) d L f1 0 PUnit.unit from rfl)) $$ Hl3
  iintro %acc5 Hl3
  ihave Hl3 := (Entails.of_eq (show inv_t5 (F := F) d L f1 (Scf.trips k0_t5_loop.lb k0_t5_loop.ub k0_t5_loop.st) acc5 = ((((ibV).slice (Rect.unit (s := S2x1024) ![0, 384] S1x128.size inb_S2x1024_S1x128_0_384) (fun _ => rfl)).squeeze S128 squeezes_S1x128_S128).view.loc (V d (cV L) (jV L)) ↦[(((ibV).slice (Rect.unit (s := S2x1024) ![0, 384] S1x128.size inb_S2x1024_S1x128_0_384) (fun _ => rfl)).squeeze S128 squeezes_S1x128_S128).view.set]{fullShare} f1 : sProp 𝕄) from rfl)) $$ Hl3
  have hin2 : ∀ x, (((((ibV).slice (Rect.unit (s := S2x1024) ![0, 256] S1x128.size inb_S2x1024_S1x128_0_256) (fun _ => rfl)).squeeze S128 squeezes_S1x128_S128).view.read (Elt F) f1 x : BitVec 32)).toNat < S3x128.size (gathers_S3x128_S128x128).axis :=
    gather_hin gathers_S3x128_S128x128 _ hfl2
  sl_exec (disch := (clear * - k hk; decide +kernel +revert))
  have hg1 : 2 * k.val + 1 < 100 := by omega
  have hoffI1 : _ = (![102400 * (wL L).val + 1024 * (2 * k.val + 1)] : Fin 1 → ℕ) := (k0_off9_eq L k).trans (congrArg (fun n => (![n] : Fin 1 → ℕ)) (by show _ = 102400 * ((L 1).val * 2 + (L 0).val) + 1024 * (2 * k.val + 1); omega))
  sl_unfold_run_names
  ihave Hs4 := (idx_clean1 (F := F) fi hr d L _ _ _ _ _ (2 * k.val + 1) hg1 hoffI1) $$ Hs4
  ihave Hi' := (Entails.of_eq (idx_rest (F := F) fi d L _ (2 * k.val + 1) hg1 hoffI1)) $$ Hi'
  -- reduction of the list 4 of slot 0: each step stores back what it loaded
  have hfl4 : ListOK (F := F) 0 4 d (cV L) (jV L) f1 := listOK_of_slot (F := F) 0 d (cV L) (jV L) f1 hf1 4
  first
    | sl_for (inv_t6 (F := F) d L f1) $$ [Hl4]
    | (sl_rw [Idealize.SL.Sem.Prog.bind_assoc]; sl_for (inv_t6 (F := F) d L f1) $$ [Hl4])
  · intro k2 acc
    exact step_t6 (F := F) d L v5 v6 k (0#32) (0#1) f1 hfl4 k2 acc
  · iapply (Entails.of_eq (show ((((ibV).slice (Rect.unit (s := S2x1024) ![0, 512] S1x128.size inb_S2x1024_S1x128_0_512) (fun _ => rfl)).squeeze S128 squeezes_S1x128_S128).view.loc (V d (cV L) (jV L)) ↦[(((ibV).slice (Rect.unit (s := S2x1024) ![0, 512] S1x128.size inb_S2x1024_S1x128_0_512) (fun _ => rfl)).squeeze S128 squeezes_S1x128_S128).view.set]{fullShare} f1 : sProp 𝕄) = inv_t6 (F := F) d L f1 0 PUnit.unit from rfl)) $$ Hl4
  iintro %acc6 Hl4
  ihave Hl4 := (Entails.of_eq (show inv_t6 (F := F) d L f1 (Scf.trips k0_t6_loop.lb k0_t6_loop.ub k0_t6_loop.st) acc6 = ((((ibV).slice (Rect.unit (s := S2x1024) ![0, 512] S1x128.size inb_S2x1024_S1x128_0_512) (fun _ => rfl)).squeeze S128 squeezes_S1x128_S128).view.loc (V d (cV L) (jV L)) ↦[(((ibV).slice (Rect.unit (s := S2x1024) ![0, 512] S1x128.size inb_S2x1024_S1x128_0_512) (fun _ => rfl)).squeeze S128 squeezes_S1x128_S128).view.set]{fullShare} f1 : sProp 𝕄) from rfl)) $$ Hl4
  sl_exec (disch := (clear * - k hk; decide +kernel +revert))
  ihave Hg := (pts_name (F := F) _ _ _) $$ Hq00
  icases Hg with ⟨%a0_0, Hq00, %ea0_0⟩
  have hqa0_0 : QuarterIs fi ft d L 0 0 (8 * (2 * k.val) + 0) a0_0 := by
    rw [ea0_0]; exact gather_fact (F := F) fi ft hr d L 0 0 0 0 (2 * k.val) hg0 f1 hs1 _ _ _
  ihave Hg := (pts_name (F := F) _ _ _) $$ Hq01
  icases Hg with ⟨%a0_1, Hq01, %ea0_1⟩
  have hqa0_1 : QuarterIs fi ft d L 0 1 (8 * (2 * k.val) + 1) a0_1 := by
    rw [ea0_1]; exact gather_fact (F := F) fi ft hr d L 0 1 0 1 (2 * k.val) hg0 f1 hs1 _ _ _
  -- the two gathered quarters of half 0, joined into the half the copy-out reads
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 _ _) $$ [Hq00 Hq01]
  · isplitl [Hq00] <;> iassumption
  ihave Hh0 := (Entails.of_eq (half_lit_0 (F := F) d (cV L) (jV L) _).symm) $$ Hh0
  have hoff0 : _ = (![800 * (wL L).val + (16 * k.val), 0, 0] : Fin 3 → ℕ) := (k0_off12_eq L k 0 0).trans (congrArg (fun n => (![n, 0, 0] : Fin 3 → ℕ)) (by show _ = 800 * ((L 1).val * 2 + (L 0).val) + (16 * k.val); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 0 0) (lo := 16 * k.val) hoff0 (by omega) (fo d)) $$ Ho
  icases Hp with ⟨Hp0, Ho⟩
  sl_exec (disch := (clear * - k hk; decide +kernel +revert))
  sl_unfold_run_names
  ihave Hs9 := (out_clean0 (F := F) fi ft d L _ _ _ (fo d) a0_0 a0_1 (k0_off12_inb L k 0 0) (16 * k.val) (by omega) hoff0 (QuarterIs_cast (F := F) fi ft (by omega) hqa0_0) (QuarterIs_cast (F := F) fi ft (by omega) hqa0_1)) $$ Hs9
  unfold OutD0
  have hin3 : ∀ x, (((((ibV).slice (Rect.unit (s := S2x1024) ![0, 384] S1x128.size inb_S2x1024_S1x128_0_384) (fun _ => rfl)).squeeze S128 squeezes_S1x128_S128).view.read (Elt F) f1 x : BitVec 32)).toNat < S3x128.size (gathers_S3x128_S128x128).axis :=
    gather_hin gathers_S3x128_S128x128 _ hfl3
  sl_exec (disch := (clear * - k hk; decide +kernel +revert))
  -- reduction of the list 5 of slot 0: each step stores back what it loaded
  have hfl5 : ListOK (F := F) 0 5 d (cV L) (jV L) f1 := listOK_of_slot (F := F) 0 d (cV L) (jV L) f1 hf1 5
  first
    | sl_for (inv_t7 (F := F) d L f1) $$ [Hl5]
    | (sl_rw [Idealize.SL.Sem.Prog.bind_assoc]; sl_for (inv_t7 (F := F) d L f1) $$ [Hl5])
  · intro k2 acc
    exact step_t7 (F := F) d L v6 f1 hfl5 k2 acc
  · iapply (Entails.of_eq (show ((((ibV).slice (Rect.unit (s := S2x1024) ![0, 640] S1x128.size inb_S2x1024_S1x128_0_640) (fun _ => rfl)).squeeze S128 squeezes_S1x128_S128).view.loc (V d (cV L) (jV L)) ↦[(((ibV).slice (Rect.unit (s := S2x1024) ![0, 640] S1x128.size inb_S2x1024_S1x128_0_640) (fun _ => rfl)).squeeze S128 squeezes_S1x128_S128).view.set]{fullShare} f1 : sProp 𝕄) = inv_t7 (F := F) d L f1 0 PUnit.unit from rfl)) $$ Hl5
  iintro %acc7 Hl5
  ihave Hl5 := (Entails.of_eq (show inv_t7 (F := F) d L f1 (Scf.trips k0_t7_loop.lb k0_t7_loop.ub k0_t7_loop.st) acc7 = ((((ibV).slice (Rect.unit (s := S2x1024) ![0, 640] S1x128.size inb_S2x1024_S1x128_0_640) (fun _ => rfl)).squeeze S128 squeezes_S1x128_S128).view.loc (V d (cV L) (jV L)) ↦[(((ibV).slice (Rect.unit (s := S2x1024) ![0, 640] S1x128.size inb_S2x1024_S1x128_0_640) (fun _ => rfl)).squeeze S128 squeezes_S1x128_S128).view.set]{fullShare} f1 : sProp 𝕄) from rfl)) $$ Hl5
  sl_exec (disch := (clear * - k hk; decide +kernel +revert))
  icases Hs9_dst with ⟨%gp0, Hp0, %hgp0⟩
  ihave Hdone := (done_add (F := F) d (cV L) (jV L) (wL L) (pairIn L (16 * k.val) (by omega)) (lo := 16 * k.val) rfl gp0 (oDone fi ft d) hgp0) $$ [Hdone Hp0]
  · isplitl [Hdone] <;> iassumption
  ihave Hh0 := (Entails.of_eq (half_lit_0 (F := F) d (cV L) (jV L) _)) $$ Hs9_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  have hin4 : ∀ x, (((((ibV).slice (Rect.unit (s := S2x1024) ![0, 512] S1x128.size inb_S2x1024_S1x128_0_512) (fun _ => rfl)).squeeze S128 squeezes_S1x128_S128).view.read (Elt F) f1 x : BitVec 32)).toNat < S3x128.size (gathers_S3x128_S128x128).axis :=
    gather_hin gathers_S3x128_S128x128 _ hfl4
  sl_exec (disch := (clear * - k hk; decide +kernel +revert))
  -- reduction of the list 6 of slot 0: each step stores back what it loaded
  have hfl6 : ListOK (F := F) 0 6 d (cV L) (jV L) f1 := listOK_of_slot (F := F) 0 d (cV L) (jV L) f1 hf1 6
  first
    | sl_for (inv_t8 (F := F) d L f1) $$ [Hl6]
    | (sl_rw [Idealize.SL.Sem.Prog.bind_assoc]; sl_for (inv_t8 (F := F) d L f1) $$ [Hl6])
  · intro k2 acc
    exact step_t8 (F := F) d L v6 f1 hfl6 k2 acc
  · iapply (Entails.of_eq (show ((((ibV).slice (Rect.unit (s := S2x1024) ![0, 768] S1x128.size inb_S2x1024_S1x128_0_768) (fun _ => rfl)).squeeze S128 squeezes_S1x128_S128).view.loc (V d (cV L) (jV L)) ↦[(((ibV).slice (Rect.unit (s := S2x1024) ![0, 768] S1x128.size inb_S2x1024_S1x128_0_768) (fun _ => rfl)).squeeze S128 squeezes_S1x128_S128).view.set]{fullShare} f1 : sProp 𝕄) = inv_t8 (F := F) d L f1 0 PUnit.unit from rfl)) $$ Hl6
  iintro %acc8 Hl6
  ihave Hl6 := (Entails.of_eq (show inv_t8 (F := F) d L f1 (Scf.trips k0_t8_loop.lb k0_t8_loop.ub k0_t8_loop.st) acc8 = ((((ibV).slice (Rect.unit (s := S2x1024) ![0, 768] S1x128.size inb_S2x1024_S1x128_0_768) (fun _ => rfl)).squeeze S128 squeezes_S1x128_S128).view.loc (V d (cV L) (jV L)) ↦[(((ibV).slice (Rect.unit (s := S2x1024) ![0, 768] S1x128.size inb_S2x1024_S1x128_0_768) (fun _ => rfl)).squeeze S128 squeezes_S1x128_S128).view.set]{fullShare} f1 : sProp 𝕄) from rfl)) $$ Hl6
  sl_exec (disch := (clear * - k hk; decide +kernel +revert))
  ihave Hg := (pts_name (F := F) _ _ _) $$ Hq10
  icases Hg with ⟨%a0_2, Hq10, %ea0_2⟩
  have hqa0_2 : QuarterIs fi ft d L 1 0 (8 * (2 * k.val) + 2) a0_2 := by
    rw [ea0_2]; exact gather_fact (F := F) fi ft hr d L 0 2 1 0 (2 * k.val) hg0 f1 hs1 _ _ _
  ihave Hg := (pts_name (F := F) _ _ _) $$ Hq11
  icases Hg with ⟨%a0_3, Hq11, %ea0_3⟩
  have hqa0_3 : QuarterIs fi ft d L 1 1 (8 * (2 * k.val) + 3) a0_3 := by
    rw [ea0_3]; exact gather_fact (F := F) fi ft hr d L 0 3 1 1 (2 * k.val) hg0 f1 hs1 _ _ _
  -- the two gathered quarters of half 1, joined into the half the copy-out reads
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 _ _) $$ [Hq10 Hq11]
  · isplitl [Hq10] <;> iassumption
  ihave Hh1 := (Entails.of_eq (half_lit_1 (F := F) d (cV L) (jV L) _).symm) $$ Hh1
  have hoff1 : _ = (![800 * (wL L).val + (16 * k.val + 2), 0, 0] : Fin 3 → ℕ) := (k0_off12_eq L k 0 1).trans (congrArg (fun n => (![n, 0, 0] : Fin 3 → ℕ)) (by show _ = 800 * ((L 1).val * 2 + (L 0).val) + (16 * k.val + 2); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 0 1) (lo := 16 * k.val + 2) hoff1 (by omega) (fo d)) $$ Ho
  icases Hp with ⟨Hp1, Ho⟩
  ihave Ho := (Entails.of_eq (show (oLoc d ↦[rowsIn (wL L) (16 * k.val + 2 + 2) 800]{fullShare} fo d : sProp 𝕄) = (oLoc d ↦[rowsIn (wL L) (16 * k.val + 4) 800]{fullShare} fo d) from by rw [show 16 * k.val + 2 + 2 = 16 * k.val + 4 from by omega])) $$ Ho
  sl_exec (disch := (clear * - k hk; decide +kernel +revert))
  sl_unfold_run_names
  ihave Hs10 := (out_clean1 (F := F) fi ft d L _ _ _ (fo d) a0_2 a0_3 (k0_off12_inb L k 0 1) (16 * k.val + 2) (by omega) hoff1 (QuarterIs_cast (F := F) fi ft (by omega) hqa0_2) (QuarterIs_cast (F := F) fi ft (by omega) hqa0_3)) $$ Hs10
  unfold OutD1
  have hin5 : ∀ x, (((((ibV).slice (Rect.unit (s := S2x1024) ![0, 640] S1x128.size inb_S2x1024_S1x128_0_640) (fun _ => rfl)).squeeze S128 squeezes_S1x128_S128).view.read (Elt F) f1 x : BitVec 32)).toNat < S3x128.size (gathers_S3x128_S128x128).axis :=
    gather_hin gathers_S3x128_S128x128 _ hfl5
  sl_exec (disch := (clear * - k hk; decide +kernel +revert))
  -- reduction of the list 7 of slot 0: each step stores back what it loaded
  have hfl7 : ListOK (F := F) 0 7 d (cV L) (jV L) f1 := listOK_of_slot (F := F) 0 d (cV L) (jV L) f1 hf1 7
  first
    | sl_for (inv_t9 (F := F) d L f1) $$ [Hl7]
    | (sl_rw [Idealize.SL.Sem.Prog.bind_assoc]; sl_for (inv_t9 (F := F) d L f1) $$ [Hl7])
  · intro k2 acc
    exact step_t9 (F := F) d L v6 (0#32) f1 hfl7 k2 acc
  · iapply (Entails.of_eq (show ((((ibV).slice (Rect.unit (s := S2x1024) ![0, 896] S1x128.size inb_S2x1024_S1x128_0_896) (fun _ => rfl)).squeeze S128 squeezes_S1x128_S128).view.loc (V d (cV L) (jV L)) ↦[(((ibV).slice (Rect.unit (s := S2x1024) ![0, 896] S1x128.size inb_S2x1024_S1x128_0_896) (fun _ => rfl)).squeeze S128 squeezes_S1x128_S128).view.set]{fullShare} f1 : sProp 𝕄) = inv_t9 (F := F) d L f1 0 PUnit.unit from rfl)) $$ Hl7
  iintro %acc9 Hl7
  ihave Hl7 := (Entails.of_eq (show inv_t9 (F := F) d L f1 (Scf.trips k0_t9_loop.lb k0_t9_loop.ub k0_t9_loop.st) acc9 = ((((ibV).slice (Rect.unit (s := S2x1024) ![0, 896] S1x128.size inb_S2x1024_S1x128_0_896) (fun _ => rfl)).squeeze S128 squeezes_S1x128_S128).view.loc (V d (cV L) (jV L)) ↦[(((ibV).slice (Rect.unit (s := S2x1024) ![0, 896] S1x128.size inb_S2x1024_S1x128_0_896) (fun _ => rfl)).squeeze S128 squeezes_S1x128_S128).view.set]{fullShare} f1 : sProp 𝕄) from rfl)) $$ Hl7
  sl_exec (disch := (clear * - k hk; decide +kernel +revert))
  icases Hs10_dst with ⟨%gp1, Hp1, %hgp1⟩
  ihave Hdone := (done_add (F := F) d (cV L) (jV L) (wL L) (pairIn L (16 * k.val + 2) (by omega)) (lo := 16 * k.val + 2) rfl gp1 (oDone fi ft d) hgp1) $$ [Hdone Hp1]
  · isplitl [Hdone] <;> iassumption
  ihave Hdone := (Entails.of_eq (show (oLoc d ↦[rowsIn (wL L) 0 (16 * k.val + 2 + 2)]{fullShare} oDone fi ft d : sProp 𝕄) = (oLoc d ↦[rowsIn (wL L) 0 (16 * k.val + 4)]{fullShare} oDone fi ft d) from by rw [show 16 * k.val + 2 + 2 = 16 * k.val + 4 from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  have hin6 : ∀ x, (((((ibV).slice (Rect.unit (s := S2x1024) ![0, 768] S1x128.size inb_S2x1024_S1x128_0_768) (fun _ => rfl)).squeeze S128 squeezes_S1x128_S128).view.read (Elt F) f1 x : BitVec 32)).toNat < S3x128.size (gathers_S3x128_S128x128).axis :=
    gather_hin gathers_S3x128_S128x128 _ hfl6
  sl_exec (disch := (clear * - k hk; decide +kernel +revert))
  ihave Hg := (pts_name (F := F) _ _ _) $$ Hq00
  icases Hg with ⟨%a0_4, Hq00, %ea0_4⟩
  have hqa0_4 : QuarterIs fi ft d L 0 0 (8 * (2 * k.val) + 4) a0_4 := by
    rw [ea0_4]; exact gather_fact (F := F) fi ft hr d L 0 4 0 0 (2 * k.val) hg0 f1 hs1 _ _ _
  ihave Hg := (pts_name (F := F) _ _ _) $$ Hq01
  icases Hg with ⟨%a0_5, Hq01, %ea0_5⟩
  have hqa0_5 : QuarterIs fi ft d L 0 1 (8 * (2 * k.val) + 5) a0_5 := by
    rw [ea0_5]; exact gather_fact (F := F) fi ft hr d L 0 5 0 1 (2 * k.val) hg0 f1 hs1 _ _ _
  -- the two gathered quarters of half 0, joined into the half the copy-out reads
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 _ _) $$ [Hq00 Hq01]
  · isplitl [Hq00] <;> iassumption
  ihave Hh0 := (Entails.of_eq (half_lit_0 (F := F) d (cV L) (jV L) _).symm) $$ Hh0
  have hoff2 : _ = (![800 * (wL L).val + (16 * k.val + 4), 0, 0] : Fin 3 → ℕ) := (k0_off12_eq L k 0 2).trans (congrArg (fun n => (![n, 0, 0] : Fin 3 → ℕ)) (by show _ = 800 * ((L 1).val * 2 + (L 0).val) + (16 * k.val + 4); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 0 2) (lo := 16 * k.val + 4) hoff2 (by omega) (fo d)) $$ Ho
  icases Hp with ⟨Hp2, Ho⟩
  ihave Ho := (Entails.of_eq (show (oLoc d ↦[rowsIn (wL L) (16 * k.val + 4 + 2) 800]{fullShare} fo d : sProp 𝕄) = (oLoc d ↦[rowsIn (wL L) (16 * k.val + 6) 800]{fullShare} fo d) from by rw [show 16 * k.val + 4 + 2 = 16 * k.val + 6 from by omega])) $$ Ho
  sl_exec (disch := (clear * - k hk; decide +kernel +revert))
  sl_unfold_run_names
  ihave Hs9 := (out_clean0 (F := F) fi ft d L _ _ _ (fo d) a0_4 a0_5 (k0_off12_inb L k 0 2) (16 * k.val + 4) (by omega) hoff2 (QuarterIs_cast (F := F) fi ft (by omega) hqa0_4) (QuarterIs_cast (F := F) fi ft (by omega) hqa0_5)) $$ Hs9
  unfold OutD0
  have hin7 : ∀ x, (((((ibV).slice (Rect.unit (s := S2x1024) ![0, 896] S1x128.size inb_S2x1024_S1x128_0_896) (fun _ => rfl)).squeeze S128 squeezes_S1x128_S128).view.read (Elt F) f1 x : BitVec 32)).toNat < S3x128.size (gathers_S3x128_S128x128).axis :=
    gather_hin gathers_S3x128_S128x128 _ hfl7
  unfold IdxD1 idxBlk
  sl_exec (disch := (clear * - k hk; decide +kernel +revert))
  -- block 2k+1 of row numbers has landed in slot 1
  icases Hs4_dst with ⟨%f2, Hsl1, %hs2⟩
  have hf2 := slot_range (F := F) fi hr d L 1 _ f2 hs2
  ihave Hsl1 := (Entails.of_eq (slot_lit_1 (F := F) d (cV L) (jV L) f2)) $$ Hsl1
  ihave Hls := (Entails.of_eq (slot_lists8 (F := F) d (cV L) (jV L) 1 f2)) $$ Hsl1
  icases Hls with ⟨Hm0, Hm1, Hm2, Hm3, Hm4, Hm5, Hm6, Hm7⟩
  ihave Hm0 := (Entails.of_eq (list_lit_1_0 (F := F) d (cV L) (jV L) f2).symm) $$ Hm0
  ihave Hm1 := (Entails.of_eq (list_lit_1_1 (F := F) d (cV L) (jV L) f2).symm) $$ Hm1
  ihave Hm2 := (Entails.of_eq (list_lit_1_2 (F := F) d (cV L) (jV L) f2).symm) $$ Hm2
  ihave Hm3 := (Entails.of_eq (list_lit_1_3 (F := F) d (cV L) (jV L) f2).symm) $$ Hm3
  ihave Hm4 := (Entails.of_eq (list_lit_1_4 (F := F) d (cV L) (jV L) f2).symm) $$ Hm4
  ihave Hm5 := (Entails.of_eq (list_lit_1_5 (F := F) d (cV L) (jV L) f2).symm) $$ Hm5
  ihave Hm6 := (Entails.of_eq (list_lit_1_6 (F := F) d (cV L) (jV L) f2).symm) $$ Hm6
  ihave Hm7 := (Entails.of_eq (list_lit_1_7 (F := F) d (cV L) (jV L) f2).symm) $$ Hm7
  -- reduction of the list 0 of slot 1: each step stores back what it loaded
  have hfm0 : ListOK (F := F) 1 0 d (cV L) (jV L) f2 := listOK_of_slot (F := F) 1 d (cV L) (jV L) f2 hf2 0
  first
    | sl_for (inv_t10 (F := F) d L f2) $$ [Hm0]
    | (sl_rw [Idealize.SL.Sem.Prog.bind_assoc]; sl_for (inv_t10 (F := F) d L f2) $$ [Hm0])
  · intro k2 acc
    exact step_t10 (F := F) d L v6 k (0#32) (0#32) f2 hfm0 k2 acc
  · iapply (Entails.of_eq (show ((((ibV).slice (Rect.unit (s := S2x1024) ![1, 0] S1x128.size inb_S2x1024_S1x128_1_0) (fun _ => rfl)).squeeze S128 squeezes_S1x128_S128).view.loc (V d (cV L) (jV L)) ↦[(((ibV).slice (Rect.unit (s := S2x1024) ![1, 0] S1x128.size inb_S2x1024_S1x128_1_0) (fun _ => rfl)).squeeze S128 squeezes_S1x128_S128).view.set]{fullShare} f2 : sProp 𝕄) = inv_t10 (F := F) d L f2 0 PUnit.unit from rfl)) $$ Hm0
  iintro %acc10 Hm0
  ihave Hm0 := (Entails.of_eq (show inv_t10 (F := F) d L f2 (Scf.trips k0_t10_loop.lb k0_t10_loop.ub k0_t10_loop.st) acc10 = ((((ibV).slice (Rect.unit (s := S2x1024) ![1, 0] S1x128.size inb_S2x1024_S1x128_1_0) (fun _ => rfl)).squeeze S128 squeezes_S1x128_S128).view.loc (V d (cV L) (jV L)) ↦[(((ibV).slice (Rect.unit (s := S2x1024) ![1, 0] S1x128.size inb_S2x1024_S1x128_1_0) (fun _ => rfl)).squeeze S128 squeezes_S1x128_S128).view.set]{fullShare} f2 : sProp 𝕄) from rfl)) $$ Hm0
  sl_exec (disch := (clear * - k hk; decide +kernel +revert))
  -- reduction of the list 1 of slot 1: each step stores back what it loaded
  have hfm1 : ListOK (F := F) 1 1 d (cV L) (jV L) f2 := listOK_of_slot (F := F) 1 d (cV L) (jV L) f2 hf2 1
  first
    | sl_for (inv_t11 (F := F) d L f2) $$ [Hm1]
    | (sl_rw [Idealize.SL.Sem.Prog.bind_assoc]; sl_for (inv_t11 (F := F) d L f2) $$ [Hm1])
  · intro k2 acc
    exact step_t11 (F := F) d L v6 k (0#32) (0#32) f2 hfm1 k2 acc
  · iapply (Entails.of_eq (show ((((ibV).slice (Rect.unit (s := S2x1024) ![1, 128] S1x128.size inb_S2x1024_S1x128_1_128) (fun _ => rfl)).squeeze S128 squeezes_S1x128_S128).view.loc (V d (cV L) (jV L)) ↦[(((ibV).slice (Rect.unit (s := S2x1024) ![1, 128] S1x128.size inb_S2x1024_S1x128_1_128) (fun _ => rfl)).squeeze S128 squeezes_S1x128_S128).view.set]{fullShare} f2 : sProp 𝕄) = inv_t11 (F := F) d L f2 0 PUnit.unit from rfl)) $$ Hm1
  iintro %acc11 Hm1
  ihave Hm1 := (Entails.of_eq (show inv_t11 (F := F) d L f2 (Scf.trips k0_t11_loop.lb k0_t11_loop.ub k0_t11_loop.st) acc11 = ((((ibV).slice (Rect.unit (s := S2x1024) ![1, 128] S1x128.size inb_S2x1024_S1x128_1_128) (fun _ => rfl)).squeeze S128 squeezes_S1x128_S128).view.loc (V d (cV L) (jV L)) ↦[(((ibV).slice (Rect.unit (s := S2x1024) ![1, 128] S1x128.size inb_S2x1024_S1x128_1_128) (fun _ => rfl)).squeeze S128 squeezes_S1x128_S128).view.set]{fullShare} f2 : sProp 𝕄) from rfl)) $$ Hm1
  sl_exec (disch := (clear * - k hk; decide +kernel +revert))
  icases Hs9_dst with ⟨%gp2, Hp2, %hgp2⟩
  ihave Hdone := (done_add (F := F) d (cV L) (jV L) (wL L) (pairIn L (16 * k.val + 4) (by omega)) (lo := 16 * k.val + 4) rfl gp2 (oDone fi ft d) hgp2) $$ [Hdone Hp2]
  · isplitl [Hdone] <;> iassumption
  ihave Hdone := (Entails.of_eq (show (oLoc d ↦[rowsIn (wL L) 0 (16 * k.val + 4 + 2)]{fullShare} oDone fi ft d : sProp 𝕄) = (oLoc d ↦[rowsIn (wL L) 0 (16 * k.val + 6)]{fullShare} oDone fi ft d) from by rw [show 16 * k.val + 4 + 2 = 16 * k.val + 6 from by omega])) $$ Hdone
  ihave Hh0 := (Entails.of_eq (half_lit_0 (F := F) d (cV L) (jV L) _)) $$ Hs9_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  have him0 : ∀ x, (((((ibV).slice (Rect.unit (s := S2x1024) ![1, 0] S1x128.size inb_S2x1024_S1x128_1_0) (fun _ => rfl)).squeeze S128 squeezes_S1x128_S128).view.read (Elt F) f2 x : BitVec 32)).toNat < S3x128.size (gathers_S3x128_S128x128).axis :=
    gather_hin gathers_S3x128_S128x128 _ hfm0
  sl_exec (disch := (clear * - k hk; decide +kernel +revert))
  -- reduction of the list 2 of slot 1: each step stores back what it loaded
  have hfm2 : ListOK (F := F) 1 2 d (cV L) (jV L) f2 := listOK_of_slot (F := F) 1 d (cV L) (jV L) f2 hf2 2
  first
    | sl_for (inv_t12 (F := F) d L f2) $$ [Hm2]
    | (sl_rw [Idealize.SL.Sem.Prog.bind_assoc]; sl_for (inv_t12 (F := F) d L f2) $$ [Hm2])
  · intro k2 acc
    exact step_t12 (F := F) d L v6 k (0#32) (0#32) f2 hfm2 k2 acc
  · iapply (Entails.of_eq (show ((((ibV).slice (Rect.unit (s := S2x1024) ![1, 256] S1x128.size inb_S2x1024_S1x128_1_256) (fun _ => rfl)).squeeze S128 squeezes_S1x128_S128).view.loc (V d (cV L) (jV L)) ↦[(((ibV).slice (Rect.unit (s := S2x1024) ![1, 256] S1x128.size inb_S2x1024_S1x128_1_256) (fun _ => rfl)).squeeze S128 squeezes_S1x128_S128).view.set]{fullShare} f2 : sProp 𝕄) = inv_t12 (F := F) d L f2 0 PUnit.unit from rfl)) $$ Hm2
  iintro %acc12 Hm2
  ihave Hm2 := (Entails.of_eq (show inv_t12 (F := F) d L f2 (Scf.trips k0_t12_loop.lb k0_t12_loop.ub k0_t12_loop.st) acc12 = ((((ibV).slice (Rect.unit (s := S2x1024) ![1, 256] S1x128.size inb_S2x1024_S1x128_1_256) (fun _ => rfl)).squeeze S128 squeezes_S1x128_S128).view.loc (V d (cV L) (jV L)) ↦[(((ibV).slice (Rect.unit (s := S2x1024) ![1, 256] S1x128.size inb_S2x1024_S1x128_1_256) (fun _ => rfl)).squeeze S128 squeezes_S1x128_S128).view.set]{fullShare} f2 : sProp 𝕄) from rfl)) $$ Hm2
  sl_exec (disch := (clear * - k hk; decide +kernel +revert))
  have hc7 : k0_cond7 k = 1#1 := (by decide +kernel : ∀ k : Fin k0_t1_loop.trips, k0_cond7 k = 1#1) k
  ihave Hg := (pts_name (F := F) _ _ _) $$ Hq10
  icases Hg with ⟨%a0_6, Hq10, %ea0_6⟩
  have hqa0_6 : QuarterIs fi ft d L 1 0 (8 * (2 * k.val) + 6) a0_6 := by
    rw [ea0_6]; exact gather_fact (F := F) fi ft hr d L 0 6 1 0 (2 * k.val) hg0 f1 hs1 _ _ _
  ihave Hg := (pts_name (F := F) _ _ _) $$ Hq11
  icases Hg with ⟨%a0_7, Hq11, %ea0_7⟩
  have hqa0_7 : QuarterIs fi ft d L 1 1 (8 * (2 * k.val) + 7) a0_7 := by
    rw [ea0_7]; exact gather_fact (F := F) fi ft hr d L 0 7 1 1 (2 * k.val) hg0 f1 hs1 _ _ _
  -- the two gathered quarters of half 1, joined into the half the copy-out reads
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 _ _) $$ [Hq10 Hq11]
  · isplitl [Hq10] <;> iassumption
  ihave Hh1 := (Entails.of_eq (half_lit_1 (F := F) d (cV L) (jV L) _).symm) $$ Hh1
  have hoff3 : _ = (![800 * (wL L).val + (16 * k.val + 6), 0, 0] : Fin 3 → ℕ) := (k0_off21_eq L k).trans (congrArg (fun n => (![n, 0, 0] : Fin 3 → ℕ)) (by show _ = 800 * ((L 1).val * 2 + (L 0).val) + (16 * k.val + 6); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off21_inb L k hc7) (lo := 16 * k.val + 6) hoff3 (by omega) (fo d)) $$ Ho
  icases Hp with ⟨Hp3, Ho⟩
  ihave Ho := (Entails.of_eq (show (oLoc d ↦[rowsIn (wL L) (16 * k.val + 6 + 2) 800]{fullShare} fo d : sProp 𝕄) = (oLoc d ↦[rowsIn (wL L) (16 * k.val + 8) 800]{fullShare} fo d) from by rw [show 16 * k.val + 6 + 2 = 16 * k.val + 8 from by omega])) $$ Ho
  sl_exec (disch := (clear * - k hk; decide +kernel +revert))
  sl_unfold_run_names
  ihave Hs10 := (out_clean1 (F := F) fi ft d L _ _ _ (fo d) a0_6 a0_7 (k0_off21_inb L k hc7) (16 * k.val + 6) (by omega) hoff3 (QuarterIs_cast (F := F) fi ft (by omega) hqa0_6) (QuarterIs_cast (F := F) fi ft (by omega) hqa0_7)) $$ Hs10
  unfold OutD1
  have him1 : ∀ x, (((((ibV).slice (Rect.unit (s := S2x1024) ![1, 128] S1x128.size inb_S2x1024_S1x128_1_128) (fun _ => rfl)).squeeze S128 squeezes_S1x128_S128).view.read (Elt F) f2 x : BitVec 32)).toNat < S3x128.size (gathers_S3x128_S128x128).axis :=
    gather_hin gathers_S3x128_S128x128 _ hfm1
  sl_exec (disch := (clear * - k hk; decide +kernel +revert))
  -- reduction of the list 3 of slot 1: each step stores back what it loaded
  have hfm3 : ListOK (F := F) 1 3 d (cV L) (jV L) f2 := listOK_of_slot (F := F) 1 d (cV L) (jV L) f2 hf2 3
  first
    | sl_for (inv_t13 (F := F) d L f2) $$ [Hm3]
    | (sl_rw [Idealize.SL.Sem.Prog.bind_assoc]; sl_for (inv_t13 (F := F) d L f2) $$ [Hm3])
  · intro k2 acc
    exact step_t13 (F := F) d L v5 v6 k (0#32) f2 hfm3 k2 acc
  · iapply (Entails.of_eq (show ((((ibV).slice (Rect.unit (s := S2x1024) ![1, 384] S1x128.size inb_S2x1024_S1x128_1_384) (fun _ => rfl)).squeeze S128 squeezes_S1x128_S128).view.loc (V d (cV L) (jV L)) ↦[(((ibV).slice (Rect.unit (s := S2x1024) ![1, 384] S1x128.size inb_S2x1024_S1x128_1_384) (fun _ => rfl)).squeeze S128 squeezes_S1x128_S128).view.set]{fullShare} f2 : sProp 𝕄) = inv_t13 (F := F) d L f2 0 PUnit.unit from rfl)) $$ Hm3
  iintro %acc13 Hm3
  ihave Hm3 := (Entails.of_eq (show inv_t13 (F := F) d L f2 (Scf.trips k0_t13_loop.lb k0_t13_loop.ub k0_t13_loop.st) acc13 = ((((ibV).slice (Rect.unit (s := S2x1024) ![1, 384] S1x128.size inb_S2x1024_S1x128_1_384) (fun _ => rfl)).squeeze S128 squeezes_S1x128_S128).view.loc (V d (cV L) (jV L)) ↦[(((ibV).slice (Rect.unit (s := S2x1024) ![1, 384] S1x128.size inb_S2x1024_S1x128_1_384) (fun _ => rfl)).squeeze S128 squeezes_S1x128_S128).view.set]{fullShare} f2 : sProp 𝕄) from rfl)) $$ Hm3
  sl_exec (disch := (clear * - k hk; decide +kernel +revert))
  -- the next block's copy of row numbers lands in slot 0: its eight lists, all at the same contents, are the slot again
  ihave Hl0 := (Entails.of_eq (list_lit_0_0 (F := F) d (cV L) (jV L) f1)) $$ Hl0
  ihave Hl1 := (Entails.of_eq (list_lit_0_1 (F := F) d (cV L) (jV L) f1)) $$ Hl1
  ihave Hl2 := (Entails.of_eq (list_lit_0_2 (F := F) d (cV L) (jV L) f1)) $$ Hl2
  ihave Hl3 := (Entails.of_eq (list_lit_0_3 (F := F) d (cV L) (jV L) f1)) $$ Hl3
  ihave Hl4 := (Entails.of_eq (list_lit_0_4 (F := F) d (cV L) (jV L) f1)) $$ Hl4
  ihave Hl5 := (Entails.of_eq (list_lit_0_5 (F := F) d (cV L) (jV L) f1)) $$ Hl5
  ihave Hl6 := (Entails.of_eq (list_lit_0_6 (F := F) d (cV L) (jV L) f1)) $$ Hl6
  ihave Hl7 := (Entails.of_eq (list_lit_0_7 (F := F) d (cV L) (jV L) f1)) $$ Hl7
  ihave Hsl0 := (Entails.of_eq (slot_lists8 (F := F) d (cV L) (jV L) 0 f1).symm) $$ [Hl0 Hl1 Hl2 Hl3 Hl4 Hl5 Hl6 Hl7]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hl7
  ihave Hsl0 := (Entails.of_eq (slot_lit_0 (F := F) d (cV L) (jV L) f1).symm) $$ Hsl0
  sl_exec (disch := (clear * - k hk; decide +kernel +revert))
  have hg2 : 2 * (k.val + 1) < 100 := by omega
  have hoffI2 : _ = (![102400 * (wL L).val + 1024 * (2 * (k.val + 1))] : Fin 1 → ℕ) := (k0_off23_eq L k).trans (congrArg (fun n => (![n] : Fin 1 → ℕ)) (by show _ = 102400 * ((L 1).val * 2 + (L 0).val) + 1024 * (2 * (k.val + 1)); omega))
  sl_unfold_run_names
  ihave HF0 := (idx_clean0 (F := F) fi hr d L _ _ _ _ _ (2 * (k.val + 1)) hg2 hoffI2) $$ HF0
  ihave Hi' := (Entails.of_eq (idx_rest (F := F) fi d L _ (2 * (k.val + 1)) hg2 hoffI2)) $$ Hi'
  icases Hs10_dst with ⟨%gp3, Hp3, %hgp3⟩
  ihave Hdone := (done_add (F := F) d (cV L) (jV L) (wL L) (pairIn L (16 * k.val + 6) (by omega)) (lo := 16 * k.val + 6) rfl gp3 (oDone fi ft d) hgp3) $$ [Hdone Hp3]
  · isplitl [Hdone] <;> iassumption
  ihave Hdone := (Entails.of_eq (show (oLoc d ↦[rowsIn (wL L) 0 (16 * k.val + 6 + 2)]{fullShare} oDone fi ft d : sProp 𝕄) = (oLoc d ↦[rowsIn (wL L) 0 (16 * k.val + 8)]{fullShare} oDone fi ft d) from by rw [show 16 * k.val + 6 + 2 = 16 * k.val + 8 from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  have him2 : ∀ x, (((((ibV).slice (Rect.unit (s := S2x1024) ![1, 256] S1x128.size inb_S2x1024_S1x128_1_256) (fun _ => rfl)).squeeze S128 squeezes_S1x128_S128).view.read (Elt F) f2 x : BitVec 32)).toNat < S3x128.size (gathers_S3x128_S128x128).axis :=
    gather_hin gathers_S3x128_S128x128 _ hfm2
  sl_exec (disch := (clear * - k hk; decide +kernel +revert))
  -- reduction of the list 4 of slot 1: each step stores back what it loaded
  have hfm4 : ListOK (F := F) 1 4 d (cV L) (jV L) f2 := listOK_of_slot (F := F) 1 d (cV L) (jV L) f2 hf2 4
  first
    | sl_for (inv_t14 (F := F) d L f2) $$ [Hm4]
    | (sl_rw [Idealize.SL.Sem.Prog.bind_assoc]; sl_for (inv_t14 (F := F) d L f2) $$ [Hm4])
  · intro k2 acc
    exact step_t14 (F := F) d L v5 v6 k (0#32) f2 hfm4 k2 acc
  · iapply (Entails.of_eq (show ((((ibV).slice (Rect.unit (s := S2x1024) ![1, 512] S1x128.size inb_S2x1024_S1x128_1_512) (fun _ => rfl)).squeeze S128 squeezes_S1x128_S128).view.loc (V d (cV L) (jV L)) ↦[(((ibV).slice (Rect.unit (s := S2x1024) ![1, 512] S1x128.size inb_S2x1024_S1x128_1_512) (fun _ => rfl)).squeeze S128 squeezes_S1x128_S128).view.set]{fullShare} f2 : sProp 𝕄) = inv_t14 (F := F) d L f2 0 PUnit.unit from rfl)) $$ Hm4
  iintro %acc14 Hm4
  ihave Hm4 := (Entails.of_eq (show inv_t14 (F := F) d L f2 (Scf.trips k0_t14_loop.lb k0_t14_loop.ub k0_t14_loop.st) acc14 = ((((ibV).slice (Rect.unit (s := S2x1024) ![1, 512] S1x128.size inb_S2x1024_S1x128_1_512) (fun _ => rfl)).squeeze S128 squeezes_S1x128_S128).view.loc (V d (cV L) (jV L)) ↦[(((ibV).slice (Rect.unit (s := S2x1024) ![1, 512] S1x128.size inb_S2x1024_S1x128_1_512) (fun _ => rfl)).squeeze S128 squeezes_S1x128_S128).view.set]{fullShare} f2 : sProp 𝕄) from rfl)) $$ Hm4
  sl_exec (disch := (clear * - k hk; decide +kernel +revert))
  ihave Hg := (pts_name (F := F) _ _ _) $$ Hq00
  icases Hg with ⟨%a1_0, Hq00, %ea1_0⟩
  have hqa1_0 : QuarterIs fi ft d L 0 0 (8 * (2 * k.val + 1) + 0) a1_0 := by
    rw [ea1_0]; exact gather_fact (F := F) fi ft hr d L 1 0 0 0 (2 * k.val + 1) hg1 f2 hs2 _ _ _
  ihave Hg := (pts_name (F := F) _ _ _) $$ Hq01
  icases Hg with ⟨%a1_1, Hq01, %ea1_1⟩
  have hqa1_1 : QuarterIs fi ft d L 0 1 (8 * (2 * k.val + 1) + 1) a1_1 := by
    rw [ea1_1]; exact gather_fact (F := F) fi ft hr d L 1 1 0 1 (2 * k.val + 1) hg1 f2 hs2 _ _ _
  -- the two gathered quarters of half 0, joined into the half the copy-out reads
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 _ _) $$ [Hq00 Hq01]
  · isplitl [Hq00] <;> iassumption
  ihave Hh0 := (Entails.of_eq (half_lit_0 (F := F) d (cV L) (jV L) _).symm) $$ Hh0
  have hoff4 : _ = (![800 * (wL L).val + (16 * k.val + 8), 0, 0] : Fin 3 → ℕ) := (k0_off12_eq L k 1 0).trans (congrArg (fun n => (![n, 0, 0] : Fin 3 → ℕ)) (by show _ = 800 * ((L 1).val * 2 + (L 0).val) + (16 * k.val + 8); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 1 0) (lo := 16 * k.val + 8) hoff4 (by omega) (fo d)) $$ Ho
  icases Hp with ⟨Hp4, Ho⟩
  ihave Ho := (Entails.of_eq (show (oLoc d ↦[rowsIn (wL L) (16 * k.val + 8 + 2) 800]{fullShare} fo d : sProp 𝕄) = (oLoc d ↦[rowsIn (wL L) (16 * k.val + 10) 800]{fullShare} fo d) from by rw [show 16 * k.val + 8 + 2 = 16 * k.val + 10 from by omega])) $$ Ho
  sl_exec (disch := (clear * - k hk; decide +kernel +revert))
  sl_unfold_run_names
  ihave Hs9 := (out_clean0 (F := F) fi ft d L _ _ _ (fo d) a1_0 a1_1 (k0_off12_inb L k 1 0) (16 * k.val + 8) (by omega) hoff4 (QuarterIs_cast (F := F) fi ft (by omega) hqa1_0) (QuarterIs_cast (F := F) fi ft (by omega) hqa1_1)) $$ Hs9
  unfold OutD0
  have him3 : ∀ x, (((((ibV).slice (Rect.unit (s := S2x1024) ![1, 384] S1x128.size inb_S2x1024_S1x128_1_384) (fun _ => rfl)).squeeze S128 squeezes_S1x128_S128).view.read (Elt F) f2 x : BitVec 32)).toNat < S3x128.size (gathers_S3x128_S128x128).axis :=
    gather_hin gathers_S3x128_S128x128 _ hfm3
  sl_exec (disch := (clear * - k hk; decide +kernel +revert))
  -- reduction of the list 5 of slot 1: each step stores back what it loaded
  have hfm5 : ListOK (F := F) 1 5 d (cV L) (jV L) f2 := listOK_of_slot (F := F) 1 d (cV L) (jV L) f2 hf2 5
  first
    | sl_for (inv_t15 (F := F) d L f2) $$ [Hm5]
    | (sl_rw [Idealize.SL.Sem.Prog.bind_assoc]; sl_for (inv_t15 (F := F) d L f2) $$ [Hm5])
  · intro k2 acc
    exact step_t15 (F := F) d L v6 k (0#32) f2 hfm5 k2 acc
  · iapply (Entails.of_eq (show ((((ibV).slice (Rect.unit (s := S2x1024) ![1, 640] S1x128.size inb_S2x1024_S1x128_1_640) (fun _ => rfl)).squeeze S128 squeezes_S1x128_S128).view.loc (V d (cV L) (jV L)) ↦[(((ibV).slice (Rect.unit (s := S2x1024) ![1, 640] S1x128.size inb_S2x1024_S1x128_1_640) (fun _ => rfl)).squeeze S128 squeezes_S1x128_S128).view.set]{fullShare} f2 : sProp 𝕄) = inv_t15 (F := F) d L f2 0 PUnit.unit from rfl)) $$ Hm5
  iintro %acc15 Hm5
  ihave Hm5 := (Entails.of_eq (show inv_t15 (F := F) d L f2 (Scf.trips k0_t15_loop.lb k0_t15_loop.ub k0_t15_loop.st) acc15 = ((((ibV).slice (Rect.unit (s := S2x1024) ![1, 640] S1x128.size inb_S2x1024_S1x128_1_640) (fun _ => rfl)).squeeze S128 squeezes_S1x128_S128).view.loc (V d (cV L) (jV L)) ↦[(((ibV).slice (Rect.unit (s := S2x1024) ![1, 640] S1x128.size inb_S2x1024_S1x128_1_640) (fun _ => rfl)).squeeze S128 squeezes_S1x128_S128).view.set]{fullShare} f2 : sProp 𝕄) from rfl)) $$ Hm5
  sl_exec (disch := (clear * - k hk; decide +kernel +revert))
  icases Hs9_dst with ⟨%gp4, Hp4, %hgp4⟩
  ihave Hdone := (done_add (F := F) d (cV L) (jV L) (wL L) (pairIn L (16 * k.val + 8) (by omega)) (lo := 16 * k.val + 8) rfl gp4 (oDone fi ft d) hgp4) $$ [Hdone Hp4]
  · isplitl [Hdone] <;> iassumption
  ihave Hdone := (Entails.of_eq (show (oLoc d ↦[rowsIn (wL L) 0 (16 * k.val + 8 + 2)]{fullShare} oDone fi ft d : sProp 𝕄) = (oLoc d ↦[rowsIn (wL L) 0 (16 * k.val + 10)]{fullShare} oDone fi ft d) from by rw [show 16 * k.val + 8 + 2 = 16 * k.val + 10 from by omega])) $$ Hdone
  ihave Hh0 := (Entails.of_eq (half_lit_0 (F := F) d (cV L) (jV L) _)) $$ Hs9_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  have him4 : ∀ x, (((((ibV).slice (Rect.unit (s := S2x1024) ![1, 512] S1x128.size inb_S2x1024_S1x128_1_512) (fun _ => rfl)).squeeze S128 squeezes_S1x128_S128).view.read (Elt F) f2 x : BitVec 32)).toNat < S3x128.size (gathers_S3x128_S128x128).axis :=
    gather_hin gathers_S3x128_S128x128 _ hfm4
  sl_exec (disch := (clear * - k hk; decide +kernel +revert))
  -- reduction of the list 6 of slot 1: each step stores back what it loaded
  have hfm6 : ListOK (F := F) 1 6 d (cV L) (jV L) f2 := listOK_of_slot (F := F) 1 d (cV L) (jV L) f2 hf2 6
  first
    | sl_for (inv_t16 (F := F) d L f2) $$ [Hm6]
    | (sl_rw [Idealize.SL.Sem.Prog.bind_assoc]; sl_for (inv_t16 (F := F) d L f2) $$ [Hm6])
  · intro k2 acc
    exact step_t16 (F := F) d L  f2 hfm6 k2 acc
  · iapply (Entails.of_eq (show ((((ibV).slice (Rect.unit (s := S2x1024) ![1, 768] S1x128.size inb_S2x1024_S1x128_1_768) (fun _ => rfl)).squeeze S128 squeezes_S1x128_S128).view.loc (V d (cV L) (jV L)) ↦[(((ibV).slice (Rect.unit (s := S2x1024) ![1, 768] S1x128.size inb_S2x1024_S1x128_1_768) (fun _ => rfl)).squeeze S128 squeezes_S1x128_S128).view.set]{fullShare} f2 : sProp 𝕄) = inv_t16 (F := F) d L f2 0 PUnit.unit from rfl)) $$ Hm6
  iintro %acc16 Hm6
  ihave Hm6 := (Entails.of_eq (show inv_t16 (F := F) d L f2 (Scf.trips k0_t16_loop.lb k0_t16_loop.ub k0_t16_loop.st) acc16 = ((((ibV).slice (Rect.unit (s := S2x1024) ![1, 768] S1x128.size inb_S2x1024_S1x128_1_768) (fun _ => rfl)).squeeze S128 squeezes_S1x128_S128).view.loc (V d (cV L) (jV L)) ↦[(((ibV).slice (Rect.unit (s := S2x1024) ![1, 768] S1x128.size inb_S2x1024_S1x128_1_768) (fun _ => rfl)).squeeze S128 squeezes_S1x128_S128).view.set]{fullShare} f2 : sProp 𝕄) from rfl)) $$ Hm6
  sl_exec (disch := (clear * - k hk; decide +kernel +revert))
  ihave Hg := (pts_name (F := F) _ _ _) $$ Hq10
  icases Hg with ⟨%a1_2, Hq10, %ea1_2⟩
  have hqa1_2 : QuarterIs fi ft d L 1 0 (8 * (2 * k.val + 1) + 2) a1_2 := by
    rw [ea1_2]; exact gather_fact (F := F) fi ft hr d L 1 2 1 0 (2 * k.val + 1) hg1 f2 hs2 _ _ _
  ihave Hg := (pts_name (F := F) _ _ _) $$ Hq11
  icases Hg with ⟨%a1_3, Hq11, %ea1_3⟩
  have hqa1_3 : QuarterIs fi ft d L 1 1 (8 * (2 * k.val + 1) + 3) a1_3 := by
    rw [ea1_3]; exact gather_fact (F := F) fi ft hr d L 1 3 1 1 (2 * k.val + 1) hg1 f2 hs2 _ _ _
  -- the two gathered quarters of half 1, joined into the half the copy-out reads
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 _ _) $$ [Hq10 Hq11]
  · isplitl [Hq10] <;> iassumption
  ihave Hh1 := (Entails.of_eq (half_lit_1 (F := F) d (cV L) (jV L) _).symm) $$ Hh1
  have hoff5 : _ = (![800 * (wL L).val + (16 * k.val + 10), 0, 0] : Fin 3 → ℕ) := (k0_off12_eq L k 1 1).trans (congrArg (fun n => (![n, 0, 0] : Fin 3 → ℕ)) (by show _ = 800 * ((L 1).val * 2 + (L 0).val) + (16 * k.val + 10); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 1 1) (lo := 16 * k.val + 10) hoff5 (by omega) (fo d)) $$ Ho
  icases Hp with ⟨Hp5, Ho⟩
  ihave Ho := (Entails.of_eq (show (oLoc d ↦[rowsIn (wL L) (16 * k.val + 10 + 2) 800]{fullShare} fo d : sProp 𝕄) = (oLoc d ↦[rowsIn (wL L) (16 * k.val + 12) 800]{fullShare} fo d) from by rw [show 16 * k.val + 10 + 2 = 16 * k.val + 12 from by omega])) $$ Ho
  sl_exec (disch := (clear * - k hk; decide +kernel +revert))
  sl_unfold_run_names
  ihave Hs10 := (out_clean1 (F := F) fi ft d L _ _ _ (fo d) a1_2 a1_3 (k0_off12_inb L k 1 1) (16 * k.val + 10) (by omega) hoff5 (QuarterIs_cast (F := F) fi ft (by omega) hqa1_2) (QuarterIs_cast (F := F) fi ft (by omega) hqa1_3)) $$ Hs10
  unfold OutD1
  have him5 : ∀ x, (((((ibV).slice (Rect.unit (s := S2x1024) ![1, 640] S1x128.size inb_S2x1024_S1x128_1_640) (fun _ => rfl)).squeeze S128 squeezes_S1x128_S128).view.read (Elt F) f2 x : BitVec 32)).toNat < S3x128.size (gathers_S3x128_S128x128).axis :=
    gather_hin gathers_S3x128_S128x128 _ hfm5
  sl_exec (disch := (clear * - k hk; decide +kernel +revert))
  -- reduction of the list 7 of slot 1: each step stores back what it loaded
  have hfm7 : ListOK (F := F) 1 7 d (cV L) (jV L) f2 := listOK_of_slot (F := F) 1 d (cV L) (jV L) f2 hf2 7
  first
    | sl_for (inv_t17 (F := F) d L f2) $$ [Hm7]
    | (sl_rw [Idealize.SL.Sem.Prog.bind_assoc]; sl_for (inv_t17 (F := F) d L f2) $$ [Hm7])
  · intro k2 acc
    exact step_t17 (F := F) d L v6 k (0#32) f2 hfm7 k2 acc
  · iapply (Entails.of_eq (show ((((ibV).slice (Rect.unit (s := S2x1024) ![1, 896] S1x128.size inb_S2x1024_S1x128_1_896) (fun _ => rfl)).squeeze S128 squeezes_S1x128_S128).view.loc (V d (cV L) (jV L)) ↦[(((ibV).slice (Rect.unit (s := S2x1024) ![1, 896] S1x128.size inb_S2x1024_S1x128_1_896) (fun _ => rfl)).squeeze S128 squeezes_S1x128_S128).view.set]{fullShare} f2 : sProp 𝕄) = inv_t17 (F := F) d L f2 0 PUnit.unit from rfl)) $$ Hm7
  iintro %acc17 Hm7
  ihave Hm7 := (Entails.of_eq (show inv_t17 (F := F) d L f2 (Scf.trips k0_t17_loop.lb k0_t17_loop.ub k0_t17_loop.st) acc17 = ((((ibV).slice (Rect.unit (s := S2x1024) ![1, 896] S1x128.size inb_S2x1024_S1x128_1_896) (fun _ => rfl)).squeeze S128 squeezes_S1x128_S128).view.loc (V d (cV L) (jV L)) ↦[(((ibV).slice (Rect.unit (s := S2x1024) ![1, 896] S1x128.size inb_S2x1024_S1x128_1_896) (fun _ => rfl)).squeeze S128 squeezes_S1x128_S128).view.set]{fullShare} f2 : sProp 𝕄) from rfl)) $$ Hm7
  sl_exec (disch := (clear * - k hk; decide +kernel +revert))
  icases Hs10_dst with ⟨%gp5, Hp5, %hgp5⟩
  ihave Hdone := (done_add (F := F) d (cV L) (jV L) (wL L) (pairIn L (16 * k.val + 10) (by omega)) (lo := 16 * k.val + 10) rfl gp5 (oDone fi ft d) hgp5) $$ [Hdone Hp5]
  · isplitl [Hdone] <;> iassumption
  ihave Hdone := (Entails.of_eq (show (oLoc d ↦[rowsIn (wL L) 0 (16 * k.val + 10 + 2)]{fullShare} oDone fi ft d : sProp 𝕄) = (oLoc d ↦[rowsIn (wL L) 0 (16 * k.val + 12)]{fullShare} oDone fi ft d) from by rw [show 16 * k.val + 10 + 2 = 16 * k.val + 12 from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  have him6 : ∀ x, (((((ibV).slice (Rect.unit (s := S2x1024) ![1, 768] S1x128.size inb_S2x1024_S1x128_1_768) (fun _ => rfl)).squeeze S128 squeezes_S1x128_S128).view.read (Elt F) f2 x : BitVec 32)).toNat < S3x128.size (gathers_S3x128_S128x128).axis :=
    gather_hin gathers_S3x128_S128x128 _ hfm6
  sl_exec (disch := (clear * - k hk; decide +kernel +revert))
  ihave Ho := (Entails.of_eq (show (oLoc d ↦[rowsIn (wL L) (16 * k.val + 12) 800]{fullShare} fo d : sProp 𝕄) = (oLoc d ↦[rowsIn (wL L) (16 * (k.val + 1) - 4) 800]{fullShare} fo d) from by rw [show 16 * k.val + 12 = 16 * (k.val + 1) - 4 from by omega])) $$ Ho
  ihave Hg := (pts_name (F := F) _ _ _) $$ Hq00
  icases Hg with ⟨%a1_4, Hq00, %ea1_4⟩
  have hqa1_4 : QuarterIs fi ft d L 0 0 (8 * (2 * k.val + 1) + 4) a1_4 := by
    rw [ea1_4]; exact gather_fact (F := F) fi ft hr d L 1 4 0 0 (2 * k.val + 1) hg1 f2 hs2 _ _ _
  ihave Hg := (pts_name (F := F) _ _ _) $$ Hq01
  icases Hg with ⟨%a1_5, Hq01, %ea1_5⟩
  have hqa1_5 : QuarterIs fi ft d L 0 1 (8 * (2 * k.val + 1) + 5) a1_5 := by
    rw [ea1_5]; exact gather_fact (F := F) fi ft hr d L 1 5 0 1 (2 * k.val + 1) hg1 f2 hs2 _ _ _
  -- the two gathered quarters of half 0, joined into the half the copy-out reads
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 _ _) $$ [Hq00 Hq01]
  · isplitl [Hq00] <;> iassumption
  ihave Hh0 := (Entails.of_eq (half_lit_0 (F := F) d (cV L) (jV L) _).symm) $$ Hh0
  have hoff6 : _ = (![800 * (wL L).val + (16 * (k.val + 1) - 4), 0, 0] : Fin 3 → ℕ) := (k0_off12_eq L k 1 2).trans (congrArg (fun n => (![n, 0, 0] : Fin 3 → ℕ)) (by show _ = 800 * ((L 1).val * 2 + (L 0).val) + (16 * (k.val + 1) - 4); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 1 2) (lo := 16 * (k.val + 1) - 4) hoff6 (by omega) (fo d)) $$ Ho
  icases Hp with ⟨Hp6, Ho⟩
  ihave Ho := (Entails.of_eq (show (oLoc d ↦[rowsIn (wL L) (16 * (k.val + 1) - 4 + 2) 800]{fullShare} fo d : sProp 𝕄) = (oLoc d ↦[rowsIn (wL L) (16 * (k.val + 1) - 2) 800]{fullShare} fo d) from by rw [show 16 * (k.val + 1) - 4 + 2 = 16 * (k.val + 1) - 2 from by omega])) $$ Ho
  sl_exec (disch := (clear * - k hk; decide +kernel +revert))
  sl_unfold_run_names
  ihave Hs9 := (out_clean0 (F := F) fi ft d L _ _ _ (fo d) a1_4 a1_5 (k0_off12_inb L k 1 2) (16 * (k.val + 1) - 4) (by omega) hoff6 (QuarterIs_cast (F := F) fi ft (by omega) hqa1_4) (QuarterIs_cast (F := F) fi ft (by omega) hqa1_5)) $$ Hs9
  unfold OutD0
  have him7 : ∀ x, (((((ibV).slice (Rect.unit (s := S2x1024) ![1, 896] S1x128.size inb_S2x1024_S1x128_1_896) (fun _ => rfl)).squeeze S128 squeezes_S1x128_S128).view.read (Elt F) f2 x : BitVec 32)).toNat < S3x128.size (gathers_S3x128_S128x128).axis :=
    gather_hin gathers_S3x128_S128x128 _ hfm7
  sl_exec (disch := (clear * - k hk; decide +kernel +revert))
  -- the two gathers outstanding across the trip's end, held with what they will deliver
  ihave Hn := (flight_name (F := F) _) $$ Hs7
  icases Hn with ⟨%D10, Hs7, %eD10⟩
  have c10 : D10 ⊢ GathD10 fi ft d L (16 * (k.val + 1) - 2) f2 := by
    rw [eD10]
    iintro ⟨⟨Hq, Hl⟩, Ht⟩
    ihave Hg := (pts_name (F := F) _ _ _) $$ Hq
    icases Hg with ⟨%a, Hq, %ea⟩
    isplitl [Hq Hl]
    · isplitl [Hq]
      · iexists a
        isplitl [Hq]; · iexact Hq
        ipureintro
        rw [ea]
        exact QuarterIs_cast (F := F) fi ft (by omega) (gather_fact (F := F) fi ft hr d L 1 6 1 0 (2 * k.val + 1) hg1 f2 hs2 _ _ _)
      · iexact Hl
    · iexact Ht
  ihave Hs7 := (Transfers.Flight_mono countersEmb (V d (cV L) (jV L)) c10) $$ Hs7
  ihave Hn := (flight_name (F := F) _) $$ Hs8
  icases Hn with ⟨%D11, Hs8, %eD11⟩
  have c11 : D11 ⊢ GathD11 fi ft d L (16 * (k.val + 1) - 1) f2 := by
    rw [eD11]
    iintro ⟨⟨Hq, Hl⟩, Ht⟩
    ihave Hg := (pts_name (F := F) _ _ _) $$ Hq
    icases Hg with ⟨%a, Hq, %ea⟩
    isplitl [Hq Hl]
    · isplitl [Hq]
      · iexists a
        isplitl [Hq]; · iexact Hq
        ipureintro
        rw [ea]
        exact QuarterIs_cast (F := F) fi ft (by omega) (gather_fact (F := F) fi ft hr d L 1 7 1 1 (2 * k.val + 1) hg1 f2 hs2 _ _ _)
      · iexact Hl
    · iexact Ht
  ihave Hs8 := (Transfers.Flight_mono countersEmb (V d (cV L) (jV L)) c11) $$ Hs8
  -- the invariant at the next trip
  ihave Hdone := (Entails.of_eq (show (oLoc d ↦[rowsIn (wL L) 0 (16 * k.val + 12)]{fullShare} oDone fi ft d : sProp 𝕄) = (oLoc d ↦[rowsIn (wL L) 0 (16 * (k.val + 1) - 4)]{fullShare} oDone fi ft d) from by rw [show 16 * k.val + 12 = 16 * (k.val + 1) - 4 from by omega])) $$ Hdone
  sl_step
  rw [dif_neg (by omega : ¬ (k.val + 1 = 0)), dif_pos (by omega : k.val + 1 ≤ 50), dif_pos (by omega : k.val + 1 < 50)]
  unfold Steady
  isplitr; · ipureintro; omega
  isplitl [HO Hs4 Hs5 Hs6 Hs10 Htok2 Htok3 Htoks9 Htrem]
  · isplitr; · iexact Hmw2
    isplitl [HO]
    · iexists _
      isplitr
      swap; · iexact HO
      ipureintro
      repeat (first | exact hW0 | apply waitsOK_insert)
    isplitl [Hs4]; · iexact Hs4
    isplitl [Hs5]; · iexact Hs5
    isplitl [Hs6]; · iexact Hs6
    isplitl [Hs10]; · iexact Hs10
    isplitl [Htok2]; · iexact Htok2
    isplitl [Htok3]; · iexact Htok3
    isplitl [Htoks9]; · iexact Htoks9
    iexact Htrem
  isplitl [HF0 Hi']
  · isplitl [HF0]; · iexact HF0
    iexact Hi'
  iexists f2
  isplitr
  · ipureintro
    exact (show SlotIs fi d L 1 (2 * (k.val + 1) - 1) f2 from (show 2 * k.val + 1 = 2 * (k.val + 1) - 1 from by omega) ▸ hs2)
  isplitl [Hm0 Hm1 Hm2 Hm3 Hm4 Hm5]
  · iapply (Entails.of_eq (six_lists (F := F) d (cV L) (jV L) f2).symm)
    isplitl [Hm0]; · iapply (Entails.of_eq (list_lit_1_0 (F := F) d (cV L) (jV L) f2)) $$ Hm0
    isplitl [Hm1]; · iapply (Entails.of_eq (list_lit_1_1 (F := F) d (cV L) (jV L) f2)) $$ Hm1
    isplitl [Hm2]; · iapply (Entails.of_eq (list_lit_1_2 (F := F) d (cV L) (jV L) f2)) $$ Hm2
    isplitl [Hm3]; · iapply (Entails.of_eq (list_lit_1_3 (F := F) d (cV L) (jV L) f2)) $$ Hm3
    isplitl [Hm4]; · iapply (Entails.of_eq (list_lit_1_4 (F := F) d (cV L) (jV L) f2)) $$ Hm4
    iapply (Entails.of_eq (list_lit_1_5 (F := F) d (cV L) (jV L) f2)) $$ Hm5
  isplitl [Hs7]; · iexact Hs7
  isplitl [Hs8]; · iexact Hs8
  isplitl [Htok4]; · iexact Htok4
  isplitl [Htok5]; · iexact Htok5
  isplitl [Hs9]; · iexists _; iexact Hs9
  isplitl [Hdone]; · iexact Hdone
  iexact Ho

end Cert.Proof.KB

end
-- ==== Proof.BTripSteady.lean ====
/-
  A trip of the main loop from the second on. At the head of trip k ≥ 1 the copy of block 2k of row numbers, the last
  two gathers of block 2k - 1 and the copy-out of rows 16k - 4, 16k - 3 are outstanding. The trip handles blocks 2k
  and 2k + 1 the same way: wait for the block; reduce its eight lists; for each list gather its rows into a quarter of
  the rows buffer; every two gathers later wait for them — the two quarters then read two consecutive blocks of the
  lookup —, join them into their half and copy it out to that pair of the worker's blocks; before a half is gathered
  into again wait for its copy-out and add its pair to the interval of blocks done. After the first gather of a block
  the other slot is free and the next block is copied into it, except after the last block. At the end of the trip the
  same three kinds of transfers are outstanding, two blocks of row numbers further on: the invariant at k + 1.
-/
import proofs.«205114_g12446815224155_cont_fleet_488_32_alg».proof.Proof.BWrap
import proofs.«205114_g12446815224155_cont_fleet_488_32_alg».proof.Proof.BBarrier
import proofs.«205114_g12446815224155_cont_fleet_488_32_alg».proof.Proof.BPieces
import proofs.«205114_g12446815224155_cont_fleet_488_32_alg».proof.Proof.BWrapLoops
import proofs.«205114_g12446815224155_cont_fleet_488_32_alg».proof.Proof.BGather
import proofs.«205114_g12446815224155_cont_fleet_488_32_alg».proof.Proof.BJoin
import proofs.«205114_g12446815224155_cont_fleet_488_32_alg».proof.Proof.BInv
import proofs.«205114_g12446815224155_cont_fleet_488_32_alg».proof.Proof.BGen
import proofs.«205114_g12446815224155_cont_fleet_488_32_alg».proof.Proof.BClean
import proofs.«205114_g12446815224155_cont_fleet_488_32_alg».proof.Proof.BCleanOut
import proofs.«205114_g12446815224155_cont_fleet_488_32_alg».proof.Proof.BRejoin
import proofs.«205114_g12446815224155_cont_fleet_488_32_alg».proof.Proof.BEpilogue

set_option maxRecDepth 16384

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}
local notation "𝕄" => MT nD τ sig (HIx 1) (Elt F) ℕ UU ℕ
local notation "iV" => (Memref.whole Cert.Kernel.main_v0_scv : Memref Cert.Kernel.sig Kind.scVector Space.hbm Cert.Kernel.S3276800 EltTy.i32)
local notation "tV" => (Memref.whole Cert.Kernel.main_arg1_scv : Memref Cert.Kernel.sig Kind.scVector Space.hbm Cert.Kernel.S3x128 EltTy.f32)
local notation "oV" => (Memref.whole Cert.Kernel.main_v1_scv : Memref Cert.Kernel.sig Kind.scVector Space.hbm Cert.Kernel.S25600x128x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)

variable (fi : (d : Dev nD) → Buf (Elt F) (idxLoc d)) (ft : (d : Dev nD) → Buf (Elt F) (tabLoc d)) (fo : (d : Dev nD) → Buf (Elt F) (oLoc d))
variable [FloatOps F]

set_option maxHeartbeats 64000000 in
/-- Trip k of the main loop, 1 ≤ k < 49: from the invariant at k to the invariant at k + 1. -/
theorem trip_mid (hr : InRange (F := F) fi) (d : Dev nD) (L : grid0.Coords) (O : CellTallies nD τ sig (HIx 1)) (W : Waits sig (HIx 1))
    (v5 v6 : BitVec 32) (k : Fin k0_t1_loop.trips) (hk1 : 1 ≤ k.val) (hlt : k.val < 49) (acc : Unit) :
    Inv (F := F) fi ft fo d L O W k.val acc
      ⊢ wp frame (wpE (defs₀ (F := F)) 𝒱₀ (V d (cV L) (jV L)) none) Set.univ
          (k0_t1_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k acc)
          (Inv (F := F) fi ft fo d L O W (k.val + 1)) := by
  have hk50 : k.val < 50 := k.isLt
  unfold Inv
  rw [dif_neg (by omega : ¬ (k.val = 0)), dif_pos (by omega : k.val ≤ 50)]
  unfold Base IdxPart Steady
  rw [dif_pos hk50]
  unfold IdxD0 idxBlk GathD10 GathD11 OutD0 shAll
  iintro ⟨%hk50', ⟨#Hmw2, ⟨%W0, %hW0, HO⟩, Hs4, Hs5, Hs6, Hs10, Htok2, Htok3, Htoks9, Htrem⟩, ⟨HF0, Hi'⟩, ⟨%f2, %hf2, Hm05, HG10, HG11, Hr4, Hr5, ⟨%h0, HO0⟩, Hdone, Hrest⟩⟩
  have hg0 : 2 * k.val < 100 := by omega
  sl_unfold [k0_t1_body]
  sl_exec (disch := (clear * - k hk1 hlt; decide +kernel +revert))
  -- block 2k of row numbers has landed in slot 0
  icases HF0_dst with ⟨%f1, Hsl0, %hs1⟩
  have hf1 := slot_range (F := F) fi hr d L 0 _ f1 hs1
  ihave Hsl0 := (Entails.of_eq (slot_lit_0 (F := F) d (cV L) (jV L) f1)) $$ Hsl0
  ihave Hls := (Entails.of_eq (slot_lists8 (F := F) d (cV L) (jV L) 0 f1)) $$ Hsl0
  icases Hls with ⟨Hl0, Hl1, Hl2, Hl3, Hl4, Hl5, Hl6, Hl7⟩
  ihave Hl0 := (Entails.of_eq (list_lit_0_0 (F := F) d (cV L) (jV L) f1).symm) $$ Hl0
  ihave Hl1 := (Entails.of_eq (list_lit_0_1 (F := F) d (cV L) (jV L) f1).symm) $$ Hl1
  ihave Hl2 := (Entails.of_eq (list_lit_0_2 (F := F) d (cV L) (jV L) f1).symm) $$ Hl2
  ihave Hl3 := (Entails.of_eq (list_lit_0_3 (F := F) d (cV L) (jV L) f1).symm) $$ Hl3
  ihave Hl4 := (Entails.of_eq (list_lit_0_4 (F := F) d (cV L) (jV L) f1).symm) $$ Hl4
  ihave Hl5 := (Entails.of_eq (list_lit_0_5 (F := F) d (cV L) (jV L) f1).symm) $$ Hl5
  ihave Hl6 := (Entails.of_eq (list_lit_0_6 (F := F) d (cV L) (jV L) f1).symm) $$ Hl6
  ihave Hl7 := (Entails.of_eq (list_lit_0_7 (F := F) d (cV L) (jV L) f1).symm) $$ Hl7
  -- reduction of the list 0 of slot 0: each step stores back what it loaded
  have hfl0 : ListOK (F := F) 0 0 d (cV L) (jV L) f1 := listOK_of_slot (F := F) 0 d (cV L) (jV L) f1 hf1 0
  first
    | sl_for (inv_t2 (F := F) d L f1) $$ [Hl0]
    | (sl_rw [Idealize.SL.Sem.Prog.bind_assoc]; sl_for (inv_t2 (F := F) d L f1) $$ [Hl0])
  · intro k2 acc
    exact step_t2 (F := F) d L v5 v6 (0#32) (1#32) k f1 hfl0 k2 acc
  · iapply (Entails.of_eq (show ((((ibV).slice (Rect.unit (s := S2x1024) ![0, 0] S1x128.size inb_S2x1024_S1x128_0_0) (fun _ => rfl)).squeeze S128 squeezes_S1x128_S128).view.loc (V d (cV L) (jV L)) ↦[(((ibV).slice (Rect.unit (s := S2x1024) ![0, 0] S1x128.size inb_S2x1024_S1x128_0_0) (fun _ => rfl)).squeeze S128 squeezes_S1x128_S128).view.set]{fullShare} f1 : sProp 𝕄) = inv_t2 (F := F) d L f1 0 PUnit.unit from rfl)) $$ Hl0
  iintro %acc2 Hl0
  ihave Hl0 := (Entails.of_eq (show inv_t2 (F := F) d L f1 (Scf.trips k0_t2_loop.lb k0_t2_loop.ub k0_t2_loop.st) acc2 = ((((ibV).slice (Rect.unit (s := S2x1024) ![0, 0] S1x128.size inb_S2x1024_S1x128_0_0) (fun _ => rfl)).squeeze S128 squeezes_S1x128_S128).view.loc (V d (cV L) (jV L)) ↦[(((ibV).slice (Rect.unit (s := S2x1024) ![0, 0] S1x128.size inb_S2x1024_S1x128_0_0) (fun _ => rfl)).squeeze S128 squeezes_S1x128_S128).view.set]{fullShare} f1 : sProp 𝕄) from rfl)) $$ Hl0
  sl_exec (disch := (clear * - k hk1 hlt; decide +kernel +revert))
  -- reduction of the list 1 of slot 0: each step stores back what it loaded
  have hfl1 : ListOK (F := F) 0 1 d (cV L) (jV L) f1 := listOK_of_slot (F := F) 0 d (cV L) (jV L) f1 hf1 1
  first
    | sl_for (inv_t3 (F := F) d L f1) $$ [Hl1]
    | (sl_rw [Idealize.SL.Sem.Prog.bind_assoc]; sl_for (inv_t3 (F := F) d L f1) $$ [Hl1])
  · intro k2 acc
    exact step_t3 (F := F) d L v5 v6 (0#32) (1#32) k f1 hfl1 k2 acc
  · iapply (Entails.of_eq (show ((((ibV).slice (Rect.unit (s := S2x1024) ![0, 128] S1x128.size inb_S2x1024_S1x128_0_128) (fun _ => rfl)).squeeze S128 squeezes_S1x128_S128).view.loc (V d (cV L) (jV L)) ↦[(((ibV).slice (Rect.unit (s := S2x1024) ![0, 128] S1x128.size inb_S2x1024_S1x128_0_128) (fun _ => rfl)).squeeze S128 squeezes_S1x128_S128).view.set]{fullShare} f1 : sProp 𝕄) = inv_t3 (F := F) d L f1 0 PUnit.unit from rfl)) $$ Hl1
  iintro %acc3 Hl1
  ihave Hl1 := (Entails.of_eq (show inv_t3 (F := F) d L f1 (Scf.trips k0_t3_loop.lb k0_t3_loop.ub k0_t3_loop.st) acc3 = ((((ibV).slice (Rect.unit (s := S2x1024) ![0, 128] S1x128.size inb_S2x1024_S1x128_0_128) (fun _ => rfl)).squeeze S128 squeezes_S1x128_S128).view.loc (V d (cV L) (jV L)) ↦[(((ibV).slice (Rect.unit (s := S2x1024) ![0, 128] S1x128.size inb_S2x1024_S1x128_0_128) (fun _ => rfl)).squeeze S128 squeezes_S1x128_S128).view.set]{fullShare} f1 : sProp 𝕄) from rfl)) $$ Hl1
  have hin0 : ∀ x, (((((ibV).slice (Rect.unit (s := S2x1024) ![0, 0] S1x128.size inb_S2x1024_S1x128_0_0) (fun _ => rfl)).squeeze S128 squeezes_S1x128_S128).view.read (Elt F) f1 x : BitVec 32)).toNat < S3x128.size (gathers_S3x128_S128x128).axis :=
    gather_hin gathers_S3x128_S128x128 _ hfl0
  sl_exec (disch := (clear * - k hk1 hlt; decide +kernel +revert))
  -- the copy-out of half 0 has delivered its pair at the lookup: the done interval grows by two blocks; the half is two quarters again
  icases HO0_dst with ⟨%gA, HpA, %hgA⟩
  ihave Hdone := (done_add (F := F) d (cV L) (jV L) (wL L) (pairIn L (16 * k.val - 4) (by omega)) (lo := 16 * k.val - 4) rfl gA (oDone fi ft d) hgA) $$ [Hdone HpA]
  · isplitl [Hdone]; · iexact Hdone
    iexact HpA
  ihave Hdone := (Entails.of_eq (show (oLoc d ↦[rowsIn (wL L) 0 (16 * k.val - 4 + 2)]{fullShare} oDone fi ft d : sProp 𝕄) = (oLoc d ↦[rowsIn (wL L) 0 (16 * k.val - 2)]{fullShare} oDone fi ft d) from by rw [show 16 * k.val - 4 + 2 = 16 * k.val - 2 from by omega])) $$ Hdone
  ihave Hh0 := (Entails.of_eq (half_lit_0 (F := F) d (cV L) (jV L) _)) $$ HO0_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  sl_exec (disch := (clear * - k hk1 hlt; decide +kernel +revert))
  -- reduction of the list 2 of slot 0: each step stores back what it loaded
  have hfl2 : ListOK (F := F) 0 2 d (cV L) (jV L) f1 := listOK_of_slot (F := F) 0 d (cV L) (jV L) f1 hf1 2
  first
    | sl_for (inv_t4 (F := F) d L f1) $$ [Hl2]
    | (sl_rw [Idealize.SL.Sem.Prog.bind_assoc]; sl_for (inv_t4 (F := F) d L f1) $$ [Hl2])
  · intro k2 acc
    exact step_t4 (F := F) d L v5 v6 (0#32) (1#32) k f1 hfl2 k2 acc
  · iapply (Entails.of_eq (show ((((ibV).slice (Rect.unit (s := S2x1024) ![0, 256] S1x128.size inb_S2x1024_S1x128_0_256) (fun _ => rfl)).squeeze S128 squeezes_S1x128_S128).view.loc (V d (cV L) (jV L)) ↦[(((ibV).slice (Rect.unit (s := S2x1024) ![0, 256] S1x128.size inb_S2x1024_S1x128_0_256) (fun _ => rfl)).squeeze S128 squeezes_S1x128_S128).view.set]{fullShare} f1 : sProp 𝕄) = inv_t4 (F := F) d L f1 0 PUnit.unit from rfl)) $$ Hl2
  iintro %acc4 Hl2
  ihave Hl2 := (Entails.of_eq (show inv_t4 (F := F) d L f1 (Scf.trips k0_t4_loop.lb k0_t4_loop.ub k0_t4_loop.st) acc4 = ((((ibV).slice (Rect.unit (s := S2x1024) ![0, 256] S1x128.size inb_S2x1024_S1x128_0_256) (fun _ => rfl)).squeeze S128 squeezes_S1x128_S128).view.loc (V d (cV L) (jV L)) ↦[(((ibV).slice (Rect.unit (s := S2x1024) ![0, 256] S1x128.size inb_S2x1024_S1x128_0_256) (fun _ => rfl)).squeeze S128 squeezes_S1x128_S128).view.set]{fullShare} f1 : sProp 𝕄) from rfl)) $$ Hl2
  have hin1 : ∀ x, (((((ibV).slice (Rect.unit (s := S2x1024) ![0, 128] S1x128.size inb_S2x1024_S1x128_0_128) (fun _ => rfl)).squeeze S128 squeezes_S1x128_S128).view.read (Elt F) f1 x : BitVec 32)).toNat < S3x128.size (gathers_S3x128_S128x128).axis :=
    gather_hin gathers_S3x128_S128x128 _ hfl1
  sl_exec (disch := (clear * - k hk1 hlt; decide +kernel +revert))
  -- the last two gathers of the previous block have landed: the second half reads blocks 16k-2, 16k-1 of the lookup
  icases HG10_dst with ⟨⟨%b10, Hq10, %hb10⟩, Hn6⟩
  icases HG11_dst with ⟨⟨%b11, Hq11, %hb11⟩, Hn7⟩
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 b10 b11) $$ [Hq10 Hq11]
  · isplitl [Hq10] <;> iassumption
  ihave Hh1 := (Entails.of_eq (half_lit_1 (F := F) d (cV L) (jV L) _).symm) $$ Hh1
  have hc3 : k0_cond3 k = 1#1 := (by decide +kernel : ∀ k : Fin k0_t1_loop.trips, 1 ≤ k.val → k0_cond3 k = 1#1) k hk1
  have hoff7 : _ = (![800 * (wL L).val + (16 * k.val - 2), 0, 0] : Fin 3 → ℕ) := ((by decide +kernel : ∀ (i : grid0.Coords) (k : Fin k0_t1_loop.trips), 1 ≤ k.val → k0_off7 i k = ![1600 * (i 1).val + 800 * (i 0).val + 16 * k.val - 2, 0, 0]) L k hk1).trans (congrArg (fun n => (![n, 0, 0] : Fin 3 → ℕ)) (by show _ = 800 * ((L 1).val * 2 + (L 0).val) + (16 * k.val - 2); omega))
  ihave Hp := (rest_take (F := F) d (cV L) (jV L) (wL L) (k0_off7_inb L k hc3) (lo := 16 * k.val - 2) hoff7 (by omega) (fo d)) $$ Hrest
  icases Hp with ⟨HpB, Hrest⟩
  ihave Hrest := (Entails.of_eq (show (oLoc d ↦[rowsIn (wL L) (16 * k.val - 2 + 2) 800]{fullShare} fo d : sProp 𝕄) = (oLoc d ↦[rowsIn (wL L) (16 * k.val) 800]{fullShare} fo d) from by rw [show 16 * k.val - 2 + 2 = 16 * k.val from by omega])) $$ Hrest
  sl_exec (disch := (clear * - k hk1 hlt; decide +kernel +revert))
  sl_unfold_run_names
  ihave Hs10 := (out_clean1 (F := F) fi ft d L _ _ _ (fo d) b10 b11 (k0_off7_inb L k hc3) (16 * k.val - 2) (by omega) hoff7 (QuarterIs_cast (F := F) fi ft (by omega) hb10) (QuarterIs_cast (F := F) fi ft (by omega) hb11)) $$ Hs10
  unfold OutD1
  -- reduction of the list 3 of slot 0: each step stores back what it loaded
  have hfl3 : ListOK (F := F) 0 3 d (cV L) (jV L) f1 := listOK_of_slot (F := F) 0 d (cV L) (jV L) f1 hf1 3
  first
    | sl_for (inv_t5 (F := F) d L f1) $$ [Hl3]
    | (sl_rw [Idealize.SL.Sem.Prog.bind_assoc]; sl_for (inv_t5 (F := F) d L f1) $$ [Hl3])
  · intro k2 acc
    exact step_t5 (F := F) d L v5 v6 k (0#32) (0#1) f1 hfl3 k2 acc
  · iapply (Entails.of_eq (show ((((ibV).slice (Rect.unit (s := S2x1024) ![0, 384] S1x128.size inb_S2x1024_S1x128_0_384) (fun _ => rfl)).squeeze S128 squeezes_S1x128_S128).view.loc (V d (cV L) (jV L)) ↦[(((ibV).slice (Rect.unit (s := S2x1024) ![0, 384] S1x128.size inb_S2x1024_S1x128_0_384) (fun _ => rfl)).squeeze S128 squeezes_S1x128_S128).view.set]{fullShare} f1 : sProp 𝕄) = inv_t5 (F := F) d L f1 0 PUnit.unit from rfl)) $$ Hl3
  iintro %acc5 Hl3
  ihave Hl3 := (Entails.of_eq (show inv_t5 (F := F) d L f1 (Scf.trips k0_t5_loop.lb k0_t5_loop.ub k0_t5_loop.st) acc5 = ((((ibV).slice (Rect.unit (s := S2x1024) ![0, 384] S1x128.size inb_S2x1024_S1x128_0_384) (fun _ => rfl)).squeeze S128 squeezes_S1x128_S128).view.loc (V d (cV L) (jV L)) ↦[(((ibV).slice (Rect.unit (s := S2x1024) ![0, 384] S1x128.size inb_S2x1024_S1x128_0_384) (fun _ => rfl)).squeeze S128 squeezes_S1x128_S128).view.set]{fullShare} f1 : sProp 𝕄) from rfl)) $$ Hl3
  have hin2 : ∀ x, (((((ibV).slice (Rect.unit (s := S2x1024) ![0, 256] S1x128.size inb_S2x1024_S1x128_0_256) (fun _ => rfl)).squeeze S128 squeezes_S1x128_S128).view.read (Elt F) f1 x : BitVec 32)).toNat < S3x128.size (gathers_S3x128_S128x128).axis :=
    gather_hin gathers_S3x128_S128x128 _ hfl2
  -- the second slot is free again: its first six lists and the two the gathers handed back are the slot the next block is copied into
  ihave Hn6 := (Entails.of_eq (list_lit_1_6 (F := F) d (cV L) (jV L) f2)) $$ Hn6
  ihave Hn7 := (Entails.of_eq (list_lit_1_7 (F := F) d (cV L) (jV L) f2)) $$ Hn7
  ihave Hsl1 := (slot1_back (F := F) d (cV L) (jV L) f2) $$ [Hm05 Hn6 Hn7]
  · isplitl [Hm05]; · iexact Hm05
    isplitl [Hn6] <;> iassumption
  ihave Hsl1 := (Entails.of_eq (slot_lit_1 (F := F) d (cV L) (jV L) f2).symm) $$ Hsl1
  sl_exec (disch := (clear * - k hk1 hlt; decide +kernel +revert))
  have hg1 : 2 * k.val + 1 < 100 := by omega
  have hoffI1 : _ = (![102400 * (wL L).val + 1024 * (2 * k.val + 1)] : Fin 1 → ℕ) := (k0_off9_eq L k).trans (congrArg (fun n => (![n] : Fin 1 → ℕ)) (by show _ = 102400 * ((L 1).val * 2 + (L 0).val) + 1024 * (2 * k.val + 1); omega))
  sl_unfold_run_names
  ihave Hs4 := (idx_clean1 (F := F) fi hr d L _ _ _ _ _ (2 * k.val + 1) hg1 hoffI1) $$ Hs4
  unfold IdxD1 idxBlk
  ihave Hi' := (Entails.of_eq (idx_rest (F := F) fi d L _ (2 * k.val + 1) hg1 hoffI1)) $$ Hi'
  -- the copy-out of half 1 has delivered its pair at the lookup: the done interval grows by two blocks; the half is two quarters again
  icases Hs10_dst with ⟨%gB2, HpB2, %hgB2⟩
  ihave Hdone := (done_add (F := F) d (cV L) (jV L) (wL L) (pairIn L (16 * k.val - 2) (by omega)) (lo := 16 * k.val - 2) rfl gB2 (oDone fi ft d) hgB2) $$ [Hdone HpB2]
  · isplitl [Hdone]; · iexact Hdone
    iexact HpB2
  ihave Hdone := (Entails.of_eq (show (oLoc d ↦[rowsIn (wL L) 0 (16 * k.val - 2 + 2)]{fullShare} oDone fi ft d : sProp 𝕄) = (oLoc d ↦[rowsIn (wL L) 0 (16 * k.val)]{fullShare} oDone fi ft d) from by rw [show 16 * k.val - 2 + 2 = 16 * k.val from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  sl_exec (disch := (clear * - k hk1 hlt; decide +kernel +revert))
  -- reduction of the list 4 of slot 0: each step stores back what it loaded
  have hfl4 : ListOK (F := F) 0 4 d (cV L) (jV L) f1 := listOK_of_slot (F := F) 0 d (cV L) (jV L) f1 hf1 4
  first
    | sl_for (inv_t6 (F := F) d L f1) $$ [Hl4]
    | (sl_rw [Idealize.SL.Sem.Prog.bind_assoc]; sl_for (inv_t6 (F := F) d L f1) $$ [Hl4])
  · intro k2 acc
    exact step_t6 (F := F) d L v5 v6 k (0#32) (0#1) f1 hfl4 k2 acc
  · iapply (Entails.of_eq (show ((((ibV).slice (Rect.unit (s := S2x1024) ![0, 512] S1x128.size inb_S2x1024_S1x128_0_512) (fun _ => rfl)).squeeze S128 squeezes_S1x128_S128).view.loc (V d (cV L) (jV L)) ↦[(((ibV).slice (Rect.unit (s := S2x1024) ![0, 512] S1x128.size inb_S2x1024_S1x128_0_512) (fun _ => rfl)).squeeze S128 squeezes_S1x128_S128).view.set]{fullShare} f1 : sProp 𝕄) = inv_t6 (F := F) d L f1 0 PUnit.unit from rfl)) $$ Hl4
  iintro %acc6 Hl4
  ihave Hl4 := (Entails.of_eq (show inv_t6 (F := F) d L f1 (Scf.trips k0_t6_loop.lb k0_t6_loop.ub k0_t6_loop.st) acc6 = ((((ibV).slice (Rect.unit (s := S2x1024) ![0, 512] S1x128.size inb_S2x1024_S1x128_0_512) (fun _ => rfl)).squeeze S128 squeezes_S1x128_S128).view.loc (V d (cV L) (jV L)) ↦[(((ibV).slice (Rect.unit (s := S2x1024) ![0, 512] S1x128.size inb_S2x1024_S1x128_0_512) (fun _ => rfl)).squeeze S128 squeezes_S1x128_S128).view.set]{fullShare} f1 : sProp 𝕄) from rfl)) $$ Hl4
  have hin3 : ∀ x, (((((ibV).slice (Rect.unit (s := S2x1024) ![0, 384] S1x128.size inb_S2x1024_S1x128_0_384) (fun _ => rfl)).squeeze S128 squeezes_S1x128_S128).view.read (Elt F) f1 x : BitVec 32)).toNat < S3x128.size (gathers_S3x128_S128x128).axis :=
    gather_hin gathers_S3x128_S128x128 _ hfl3
  sl_exec (disch := (clear * - k hk1 hlt; decide +kernel +revert))
  -- the two gathered quarters of half 0 read blocks 16 * k.val, 16 * k.val + 1 of the lookup; joined, they are copied out to that pair of the worker's blocks
  ihave Hg := (pts_name (F := F) _ _ _) $$ Hq00
  icases Hg with ⟨%aP00, Hq00, %eaP00⟩
  have hqaP00 : QuarterIs fi ft d L 0 0 (8 * (2 * k.val) + 0) aP00 := by
    rw [eaP00]; exact gather_fact (F := F) fi ft hr d L 0 0 0 0 (2 * k.val) hg0 f1 hs1 _ _ _
  ihave Hg := (pts_name (F := F) _ _ _) $$ Hq01
  icases Hg with ⟨%aP01, Hq01, %eaP01⟩
  have hqaP01 : QuarterIs fi ft d L 0 1 (8 * (2 * k.val) + 1) aP01 := by
    rw [eaP01]; exact gather_fact (F := F) fi ft hr d L 0 1 0 1 (2 * k.val) hg0 f1 hs1 _ _ _
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 aP00 aP01) $$ [Hq00 Hq01]
  · isplitl [Hq00] <;> iassumption
  ihave Hh0 := (Entails.of_eq (half_lit_0 (F := F) d (cV L) (jV L) _).symm) $$ Hh0
  have hoffP0 : _ = (![800 * (wL L).val + (16 * k.val), 0, 0] : Fin 3 → ℕ) := (k0_off12_eq L k 0 0).trans (congrArg (fun n => (![n, 0, 0] : Fin 3 → ℕ)) (by show _ = 800 * ((L 1).val * 2 + (L 0).val) + (16 * k.val); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 0 0) (lo := 16 * k.val) hoffP0 (by omega) (fo d)) $$ Hrest
  icases Hp with ⟨HpP0, Hrest⟩
  ihave Hrest := (Entails.of_eq (show (oLoc d ↦[rowsIn (wL L) (16 * k.val + 2) 800]{fullShare} fo d : sProp 𝕄) = (oLoc d ↦[rowsIn (wL L) (16 * k.val + 2) 800]{fullShare} fo d) from by rw [show 16 * k.val + 2 = 16 * k.val + 2 from by omega])) $$ Hrest
  sl_exec (disch := (clear * - k hk1 hlt; decide +kernel +revert))
  sl_unfold_run_names
  ihave HO0 := (out_clean0 (F := F) fi ft d L _ _ _ (fo d) aP00 aP01 (k0_off12_inb L k 0 0) (16 * k.val) (by omega) hoffP0 (QuarterIs_cast (F := F) fi ft (by omega) hqaP00) (QuarterIs_cast (F := F) fi ft (by omega) hqaP01)) $$ HO0
  unfold OutD0
  -- reduction of the list 5 of slot 0: each step stores back what it loaded
  have hfl5 : ListOK (F := F) 0 5 d (cV L) (jV L) f1 := listOK_of_slot (F := F) 0 d (cV L) (jV L) f1 hf1 5
  first
    | sl_for (inv_t7 (F := F) d L f1) $$ [Hl5]
    | (sl_rw [Idealize.SL.Sem.Prog.bind_assoc]; sl_for (inv_t7 (F := F) d L f1) $$ [Hl5])
  · intro k2 acc
    exact step_t7 (F := F) d L v6 f1 hfl5 k2 acc
  · iapply (Entails.of_eq (show ((((ibV).slice (Rect.unit (s := S2x1024) ![0, 640] S1x128.size inb_S2x1024_S1x128_0_640) (fun _ => rfl)).squeeze S128 squeezes_S1x128_S128).view.loc (V d (cV L) (jV L)) ↦[(((ibV).slice (Rect.unit (s := S2x1024) ![0, 640] S1x128.size inb_S2x1024_S1x128_0_640) (fun _ => rfl)).squeeze S128 squeezes_S1x128_S128).view.set]{fullShare} f1 : sProp 𝕄) = inv_t7 (F := F) d L f1 0 PUnit.unit from rfl)) $$ Hl5
  iintro %acc7 Hl5
  ihave Hl5 := (Entails.of_eq (show inv_t7 (F := F) d L f1 (Scf.trips k0_t7_loop.lb k0_t7_loop.ub k0_t7_loop.st) acc7 = ((((ibV).slice (Rect.unit (s := S2x1024) ![0, 640] S1x128.size inb_S2x1024_S1x128_0_640) (fun _ => rfl)).squeeze S128 squeezes_S1x128_S128).view.loc (V d (cV L) (jV L)) ↦[(((ibV).slice (Rect.unit (s := S2x1024) ![0, 640] S1x128.size inb_S2x1024_S1x128_0_640) (fun _ => rfl)).squeeze S128 squeezes_S1x128_S128).view.set]{fullShare} f1 : sProp 𝕄) from rfl)) $$ Hl5
  have hin4 : ∀ x, (((((ibV).slice (Rect.unit (s := S2x1024) ![0, 512] S1x128.size inb_S2x1024_S1x128_0_512) (fun _ => rfl)).squeeze S128 squeezes_S1x128_S128).view.read (Elt F) f1 x : BitVec 32)).toNat < S3x128.size (gathers_S3x128_S128x128).axis :=
    gather_hin gathers_S3x128_S128x128 _ hfl4
  sl_exec (disch := (clear * - k hk1 hlt; decide +kernel +revert))
  -- the copy-out of half 0 has delivered its pair at the lookup: the done interval grows by two blocks; the half is two quarters again
  icases HO0_dst with ⟨%gM0, HpM0, %hgM0⟩
  ihave Hdone := (done_add (F := F) d (cV L) (jV L) (wL L) (pairIn L (16 * k.val) (by omega)) (lo := 16 * k.val) rfl gM0 (oDone fi ft d) hgM0) $$ [Hdone HpM0]
  · isplitl [Hdone]; · iexact Hdone
    iexact HpM0
  ihave Hdone := (Entails.of_eq (show (oLoc d ↦[rowsIn (wL L) 0 (16 * k.val + 2)]{fullShare} oDone fi ft d : sProp 𝕄) = (oLoc d ↦[rowsIn (wL L) 0 (16 * k.val + 2)]{fullShare} oDone fi ft d) from by rw [show 16 * k.val + 2 = 16 * k.val + 2 from by omega])) $$ Hdone
  ihave Hh0 := (Entails.of_eq (half_lit_0 (F := F) d (cV L) (jV L) _)) $$ HO0_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  sl_exec (disch := (clear * - k hk1 hlt; decide +kernel +revert))
  -- reduction of the list 6 of slot 0: each step stores back what it loaded
  have hfl6 : ListOK (F := F) 0 6 d (cV L) (jV L) f1 := listOK_of_slot (F := F) 0 d (cV L) (jV L) f1 hf1 6
  first
    | sl_for (inv_t8 (F := F) d L f1) $$ [Hl6]
    | (sl_rw [Idealize.SL.Sem.Prog.bind_assoc]; sl_for (inv_t8 (F := F) d L f1) $$ [Hl6])
  · intro k2 acc
    exact step_t8 (F := F) d L v6 f1 hfl6 k2 acc
  · iapply (Entails.of_eq (show ((((ibV).slice (Rect.unit (s := S2x1024) ![0, 768] S1x128.size inb_S2x1024_S1x128_0_768) (fun _ => rfl)).squeeze S128 squeezes_S1x128_S128).view.loc (V d (cV L) (jV L)) ↦[(((ibV).slice (Rect.unit (s := S2x1024) ![0, 768] S1x128.size inb_S2x1024_S1x128_0_768) (fun _ => rfl)).squeeze S128 squeezes_S1x128_S128).view.set]{fullShare} f1 : sProp 𝕄) = inv_t8 (F := F) d L f1 0 PUnit.unit from rfl)) $$ Hl6
  iintro %acc8 Hl6
  ihave Hl6 := (Entails.of_eq (show inv_t8 (F := F) d L f1 (Scf.trips k0_t8_loop.lb k0_t8_loop.ub k0_t8_loop.st) acc8 = ((((ibV).slice (Rect.unit (s := S2x1024) ![0, 768] S1x128.size inb_S2x1024_S1x128_0_768) (fun _ => rfl)).squeeze S128 squeezes_S1x128_S128).view.loc (V d (cV L) (jV L)) ↦[(((ibV).slice (Rect.unit (s := S2x1024) ![0, 768] S1x128.size inb_S2x1024_S1x128_0_768) (fun _ => rfl)).squeeze S128 squeezes_S1x128_S128).view.set]{fullShare} f1 : sProp 𝕄) from rfl)) $$ Hl6
  have hin5 : ∀ x, (((((ibV).slice (Rect.unit (s := S2x1024) ![0, 640] S1x128.size inb_S2x1024_S1x128_0_640) (fun _ => rfl)).squeeze S128 squeezes_S1x128_S128).view.read (Elt F) f1 x : BitVec 32)).toNat < S3x128.size (gathers_S3x128_S128x128).axis :=
    gather_hin gathers_S3x128_S128x128 _ hfl5
  sl_exec (disch := (clear * - k hk1 hlt; decide +kernel +revert))
  -- the two gathered quarters of half 1 read blocks 16 * k.val + 2, 16 * k.val + 2 + 1 of the lookup; joined, they are copied out to that pair of the worker's blocks
  ihave Hg := (pts_name (F := F) _ _ _) $$ Hq10
  icases Hg with ⟨%aP10, Hq10, %eaP10⟩
  have hqaP10 : QuarterIs fi ft d L 1 0 (8 * (2 * k.val) + 2) aP10 := by
    rw [eaP10]; exact gather_fact (F := F) fi ft hr d L 0 2 1 0 (2 * k.val) hg0 f1 hs1 _ _ _
  ihave Hg := (pts_name (F := F) _ _ _) $$ Hq11
  icases Hg with ⟨%aP11, Hq11, %eaP11⟩
  have hqaP11 : QuarterIs fi ft d L 1 1 (8 * (2 * k.val) + 3) aP11 := by
    rw [eaP11]; exact gather_fact (F := F) fi ft hr d L 0 3 1 1 (2 * k.val) hg0 f1 hs1 _ _ _
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 aP10 aP11) $$ [Hq10 Hq11]
  · isplitl [Hq10] <;> iassumption
  ihave Hh1 := (Entails.of_eq (half_lit_1 (F := F) d (cV L) (jV L) _).symm) $$ Hh1
  have hoffP1 : _ = (![800 * (wL L).val + (16 * k.val + 2), 0, 0] : Fin 3 → ℕ) := (k0_off12_eq L k 0 1).trans (congrArg (fun n => (![n, 0, 0] : Fin 3 → ℕ)) (by show _ = 800 * ((L 1).val * 2 + (L 0).val) + (16 * k.val + 2); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 0 1) (lo := 16 * k.val + 2) hoffP1 (by omega) (fo d)) $$ Hrest
  icases Hp with ⟨HpP1, Hrest⟩
  ihave Hrest := (Entails.of_eq (show (oLoc d ↦[rowsIn (wL L) (16 * k.val + 2 + 2) 800]{fullShare} fo d : sProp 𝕄) = (oLoc d ↦[rowsIn (wL L) (16 * k.val + 4) 800]{fullShare} fo d) from by rw [show 16 * k.val + 2 + 2 = 16 * k.val + 4 from by omega])) $$ Hrest
  sl_exec (disch := (clear * - k hk1 hlt; decide +kernel +revert))
  sl_unfold_run_names
  ihave Hs10 := (out_clean1 (F := F) fi ft d L _ _ _ (fo d) aP10 aP11 (k0_off12_inb L k 0 1) (16 * k.val + 2) (by omega) hoffP1 (QuarterIs_cast (F := F) fi ft (by omega) hqaP10) (QuarterIs_cast (F := F) fi ft (by omega) hqaP11)) $$ Hs10
  unfold OutD1
  -- reduction of the list 7 of slot 0: each step stores back what it loaded
  have hfl7 : ListOK (F := F) 0 7 d (cV L) (jV L) f1 := listOK_of_slot (F := F) 0 d (cV L) (jV L) f1 hf1 7
  first
    | sl_for (inv_t9 (F := F) d L f1) $$ [Hl7]
    | (sl_rw [Idealize.SL.Sem.Prog.bind_assoc]; sl_for (inv_t9 (F := F) d L f1) $$ [Hl7])
  · intro k2 acc
    exact step_t9 (F := F) d L v6 (0#32) f1 hfl7 k2 acc
  · iapply (Entails.of_eq (show ((((ibV).slice (Rect.unit (s := S2x1024) ![0, 896] S1x128.size inb_S2x1024_S1x128_0_896) (fun _ => rfl)).squeeze S128 squeezes_S1x128_S128).view.loc (V d (cV L) (jV L)) ↦[(((ibV).slice (Rect.unit (s := S2x1024) ![0, 896] S1x128.size inb_S2x1024_S1x128_0_896) (fun _ => rfl)).squeeze S128 squeezes_S1x128_S128).view.set]{fullShare} f1 : sProp 𝕄) = inv_t9 (F := F) d L f1 0 PUnit.unit from rfl)) $$ Hl7
  iintro %acc9 Hl7
  ihave Hl7 := (Entails.of_eq (show inv_t9 (F := F) d L f1 (Scf.trips k0_t9_loop.lb k0_t9_loop.ub k0_t9_loop.st) acc9 = ((((ibV).slice (Rect.unit (s := S2x1024) ![0, 896] S1x128.size inb_S2x1024_S1x128_0_896) (fun _ => rfl)).squeeze S128 squeezes_S1x128_S128).view.loc (V d (cV L) (jV L)) ↦[(((ibV).slice (Rect.unit (s := S2x1024) ![0, 896] S1x128.size inb_S2x1024_S1x128_0_896) (fun _ => rfl)).squeeze S128 squeezes_S1x128_S128).view.set]{fullShare} f1 : sProp 𝕄) from rfl)) $$ Hl7
  have hin6 : ∀ x, (((((ibV).slice (Rect.unit (s := S2x1024) ![0, 768] S1x128.size inb_S2x1024_S1x128_0_768) (fun _ => rfl)).squeeze S128 squeezes_S1x128_S128).view.read (Elt F) f1 x : BitVec 32)).toNat < S3x128.size (gathers_S3x128_S128x128).axis :=
    gather_hin gathers_S3x128_S128x128 _ hfl6
  have hin7 : ∀ x, (((((ibV).slice (Rect.unit (s := S2x1024) ![0, 896] S1x128.size inb_S2x1024_S1x128_0_896) (fun _ => rfl)).squeeze S128 squeezes_S1x128_S128).view.read (Elt F) f1 x : BitVec 32)).toNat < S3x128.size (gathers_S3x128_S128x128).axis :=
    gather_hin gathers_S3x128_S128x128 _ hfl7
  sl_exec (disch := (clear * - k hk1 hlt; decide +kernel +revert))
  -- the copy-out of half 1 has delivered its pair at the lookup: the done interval grows by two blocks; the half is two quarters again
  icases Hs10_dst with ⟨%gM1, HpM1, %hgM1⟩
  ihave Hdone := (done_add (F := F) d (cV L) (jV L) (wL L) (pairIn L (16 * k.val + 2) (by omega)) (lo := 16 * k.val + 2) rfl gM1 (oDone fi ft d) hgM1) $$ [Hdone HpM1]
  · isplitl [Hdone]; · iexact Hdone
    iexact HpM1
  ihave Hdone := (Entails.of_eq (show (oLoc d ↦[rowsIn (wL L) 0 (16 * k.val + 2 + 2)]{fullShare} oDone fi ft d : sProp 𝕄) = (oLoc d ↦[rowsIn (wL L) 0 (16 * k.val + 4)]{fullShare} oDone fi ft d) from by rw [show 16 * k.val + 2 + 2 = 16 * k.val + 4 from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  sl_exec (disch := (clear * - k hk1 hlt; decide +kernel +revert))
  -- the two gathered quarters of half 0 read blocks 16 * k.val + 4, 16 * k.val + 4 + 1 of the lookup; joined, they are copied out to that pair of the worker's blocks
  ihave Hg := (pts_name (F := F) _ _ _) $$ Hq00
  icases Hg with ⟨%aP20, Hq00, %eaP20⟩
  have hqaP20 : QuarterIs fi ft d L 0 0 (8 * (2 * k.val) + 4) aP20 := by
    rw [eaP20]; exact gather_fact (F := F) fi ft hr d L 0 4 0 0 (2 * k.val) hg0 f1 hs1 _ _ _
  ihave Hg := (pts_name (F := F) _ _ _) $$ Hq01
  icases Hg with ⟨%aP21, Hq01, %eaP21⟩
  have hqaP21 : QuarterIs fi ft d L 0 1 (8 * (2 * k.val) + 5) aP21 := by
    rw [eaP21]; exact gather_fact (F := F) fi ft hr d L 0 5 0 1 (2 * k.val) hg0 f1 hs1 _ _ _
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 aP20 aP21) $$ [Hq00 Hq01]
  · isplitl [Hq00] <;> iassumption
  ihave Hh0 := (Entails.of_eq (half_lit_0 (F := F) d (cV L) (jV L) _).symm) $$ Hh0
  have hoffP2 : _ = (![800 * (wL L).val + (16 * k.val + 4), 0, 0] : Fin 3 → ℕ) := (k0_off12_eq L k 0 2).trans (congrArg (fun n => (![n, 0, 0] : Fin 3 → ℕ)) (by show _ = 800 * ((L 1).val * 2 + (L 0).val) + (16 * k.val + 4); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 0 2) (lo := 16 * k.val + 4) hoffP2 (by omega) (fo d)) $$ Hrest
  icases Hp with ⟨HpP2, Hrest⟩
  ihave Hrest := (Entails.of_eq (show (oLoc d ↦[rowsIn (wL L) (16 * k.val + 4 + 2) 800]{fullShare} fo d : sProp 𝕄) = (oLoc d ↦[rowsIn (wL L) (16 * k.val + 6) 800]{fullShare} fo d) from by rw [show 16 * k.val + 4 + 2 = 16 * k.val + 6 from by omega])) $$ Hrest
  sl_exec (disch := (clear * - k hk1 hlt; decide +kernel +revert))
  sl_unfold_run_names
  ihave HO0 := (out_clean0 (F := F) fi ft d L _ _ _ (fo d) aP20 aP21 (k0_off12_inb L k 0 2) (16 * k.val + 4) (by omega) hoffP2 (QuarterIs_cast (F := F) fi ft (by omega) hqaP20) (QuarterIs_cast (F := F) fi ft (by omega) hqaP21)) $$ HO0
  unfold OutD0
  -- block 2k+1 of row numbers has landed in slot 1
  icases Hs4_dst with ⟨%f3, Hsl1, %hs3⟩
  have hf3 := slot_range (F := F) fi hr d L 1 _ f3 hs3
  ihave Hsl1 := (Entails.of_eq (slot_lit_1 (F := F) d (cV L) (jV L) f3)) $$ Hsl1
  ihave Hls := (Entails.of_eq (slot_lists8 (F := F) d (cV L) (jV L) 1 f3)) $$ Hsl1
  icases Hls with ⟨Hm0, Hm1, Hm2, Hm3, Hm4, Hm5, Hm6, Hm7⟩
  ihave Hm0 := (Entails.of_eq (list_lit_1_0 (F := F) d (cV L) (jV L) f3).symm) $$ Hm0
  ihave Hm1 := (Entails.of_eq (list_lit_1_1 (F := F) d (cV L) (jV L) f3).symm) $$ Hm1
  ihave Hm2 := (Entails.of_eq (list_lit_1_2 (F := F) d (cV L) (jV L) f3).symm) $$ Hm2
  ihave Hm3 := (Entails.of_eq (list_lit_1_3 (F := F) d (cV L) (jV L) f3).symm) $$ Hm3
  ihave Hm4 := (Entails.of_eq (list_lit_1_4 (F := F) d (cV L) (jV L) f3).symm) $$ Hm4
  ihave Hm5 := (Entails.of_eq (list_lit_1_5 (F := F) d (cV L) (jV L) f3).symm) $$ Hm5
  ihave Hm6 := (Entails.of_eq (list_lit_1_6 (F := F) d (cV L) (jV L) f3).symm) $$ Hm6
  ihave Hm7 := (Entails.of_eq (list_lit_1_7 (F := F) d (cV L) (jV L) f3).symm) $$ Hm7
  -- reduction of the list 0 of slot 1: each step stores back what it loaded
  have hfm0 : ListOK (F := F) 1 0 d (cV L) (jV L) f3 := listOK_of_slot (F := F) 1 d (cV L) (jV L) f3 hf3 0
  first
    | sl_for (inv_t10 (F := F) d L f3) $$ [Hm0]
    | (sl_rw [Idealize.SL.Sem.Prog.bind_assoc]; sl_for (inv_t10 (F := F) d L f3) $$ [Hm0])
  · intro k2 acc
    exact step_t10 (F := F) d L v6 k (0#32) (0#32) f3 hfm0 k2 acc
  · iapply (Entails.of_eq (show ((((ibV).slice (Rect.unit (s := S2x1024) ![1, 0] S1x128.size inb_S2x1024_S1x128_1_0) (fun _ => rfl)).squeeze S128 squeezes_S1x128_S128).view.loc (V d (cV L) (jV L)) ↦[(((ibV).slice (Rect.unit (s := S2x1024) ![1, 0] S1x128.size inb_S2x1024_S1x128_1_0) (fun _ => rfl)).squeeze S128 squeezes_S1x128_S128).view.set]{fullShare} f3 : sProp 𝕄) = inv_t10 (F := F) d L f3 0 PUnit.unit from rfl)) $$ Hm0
  iintro %acc10 Hm0
  ihave Hm0 := (Entails.of_eq (show inv_t10 (F := F) d L f3 (Scf.trips k0_t10_loop.lb k0_t10_loop.ub k0_t10_loop.st) acc10 = ((((ibV).slice (Rect.unit (s := S2x1024) ![1, 0] S1x128.size inb_S2x1024_S1x128_1_0) (fun _ => rfl)).squeeze S128 squeezes_S1x128_S128).view.loc (V d (cV L) (jV L)) ↦[(((ibV).slice (Rect.unit (s := S2x1024) ![1, 0] S1x128.size inb_S2x1024_S1x128_1_0) (fun _ => rfl)).squeeze S128 squeezes_S1x128_S128).view.set]{fullShare} f3 : sProp 𝕄) from rfl)) $$ Hm0
  sl_exec (disch := (clear * - k hk1 hlt; decide +kernel +revert))
  -- reduction of the list 1 of slot 1: each step stores back what it loaded
  have hfm1 : ListOK (F := F) 1 1 d (cV L) (jV L) f3 := listOK_of_slot (F := F) 1 d (cV L) (jV L) f3 hf3 1
  first
    | sl_for (inv_t11 (F := F) d L f3) $$ [Hm1]
    | (sl_rw [Idealize.SL.Sem.Prog.bind_assoc]; sl_for (inv_t11 (F := F) d L f3) $$ [Hm1])
  · intro k2 acc
    exact step_t11 (F := F) d L v6 k (0#32) (0#32) f3 hfm1 k2 acc
  · iapply (Entails.of_eq (show ((((ibV).slice (Rect.unit (s := S2x1024) ![1, 128] S1x128.size inb_S2x1024_S1x128_1_128) (fun _ => rfl)).squeeze S128 squeezes_S1x128_S128).view.loc (V d (cV L) (jV L)) ↦[(((ibV).slice (Rect.unit (s := S2x1024) ![1, 128] S1x128.size inb_S2x1024_S1x128_1_128) (fun _ => rfl)).squeeze S128 squeezes_S1x128_S128).view.set]{fullShare} f3 : sProp 𝕄) = inv_t11 (F := F) d L f3 0 PUnit.unit from rfl)) $$ Hm1
  iintro %acc11 Hm1
  ihave Hm1 := (Entails.of_eq (show inv_t11 (F := F) d L f3 (Scf.trips k0_t11_loop.lb k0_t11_loop.ub k0_t11_loop.st) acc11 = ((((ibV).slice (Rect.unit (s := S2x1024) ![1, 128] S1x128.size inb_S2x1024_S1x128_1_128) (fun _ => rfl)).squeeze S128 squeezes_S1x128_S128).view.loc (V d (cV L) (jV L)) ↦[(((ibV).slice (Rect.unit (s := S2x1024) ![1, 128] S1x128.size inb_S2x1024_S1x128_1_128) (fun _ => rfl)).squeeze S128 squeezes_S1x128_S128).view.set]{fullShare} f3 : sProp 𝕄) from rfl)) $$ Hm1
  have him0 : ∀ x, (((((ibV).slice (Rect.unit (s := S2x1024) ![1, 0] S1x128.size inb_S2x1024_S1x128_1_0) (fun _ => rfl)).squeeze S128 squeezes_S1x128_S128).view.read (Elt F) f3 x : BitVec 32)).toNat < S3x128.size (gathers_S3x128_S128x128).axis :=
    gather_hin gathers_S3x128_S128x128 _ hfm0
  sl_exec (disch := (clear * - k hk1 hlt; decide +kernel +revert))
  -- the copy-out of half 0 has delivered its pair at the lookup: the done interval grows by two blocks; the half is two quarters again
  icases HO0_dst with ⟨%gN0, HpN0, %hgN0⟩
  ihave Hdone := (done_add (F := F) d (cV L) (jV L) (wL L) (pairIn L (16 * k.val + 4) (by omega)) (lo := 16 * k.val + 4) rfl gN0 (oDone fi ft d) hgN0) $$ [Hdone HpN0]
  · isplitl [Hdone]; · iexact Hdone
    iexact HpN0
  ihave Hdone := (Entails.of_eq (show (oLoc d ↦[rowsIn (wL L) 0 (16 * k.val + 4 + 2)]{fullShare} oDone fi ft d : sProp 𝕄) = (oLoc d ↦[rowsIn (wL L) 0 (16 * k.val + 6)]{fullShare} oDone fi ft d) from by rw [show 16 * k.val + 4 + 2 = 16 * k.val + 6 from by omega])) $$ Hdone
  ihave Hh0 := (Entails.of_eq (half_lit_0 (F := F) d (cV L) (jV L) _)) $$ HO0_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  sl_exec (disch := (clear * - k hk1 hlt; decide +kernel +revert))
  -- reduction of the list 2 of slot 1: each step stores back what it loaded
  have hfm2 : ListOK (F := F) 1 2 d (cV L) (jV L) f3 := listOK_of_slot (F := F) 1 d (cV L) (jV L) f3 hf3 2
  first
    | sl_for (inv_t12 (F := F) d L f3) $$ [Hm2]
    | (sl_rw [Idealize.SL.Sem.Prog.bind_assoc]; sl_for (inv_t12 (F := F) d L f3) $$ [Hm2])
  · intro k2 acc
    exact step_t12 (F := F) d L v6 k (0#32) (0#32) f3 hfm2 k2 acc
  · iapply (Entails.of_eq (show ((((ibV).slice (Rect.unit (s := S2x1024) ![1, 256] S1x128.size inb_S2x1024_S1x128_1_256) (fun _ => rfl)).squeeze S128 squeezes_S1x128_S128).view.loc (V d (cV L) (jV L)) ↦[(((ibV).slice (Rect.unit (s := S2x1024) ![1, 256] S1x128.size inb_S2x1024_S1x128_1_256) (fun _ => rfl)).squeeze S128 squeezes_S1x128_S128).view.set]{fullShare} f3 : sProp 𝕄) = inv_t12 (F := F) d L f3 0 PUnit.unit from rfl)) $$ Hm2
  iintro %acc12 Hm2
  ihave Hm2 := (Entails.of_eq (show inv_t12 (F := F) d L f3 (Scf.trips k0_t12_loop.lb k0_t12_loop.ub k0_t12_loop.st) acc12 = ((((ibV).slice (Rect.unit (s := S2x1024) ![1, 256] S1x128.size inb_S2x1024_S1x128_1_256) (fun _ => rfl)).squeeze S128 squeezes_S1x128_S128).view.loc (V d (cV L) (jV L)) ↦[(((ibV).slice (Rect.unit (s := S2x1024) ![1, 256] S1x128.size inb_S2x1024_S1x128_1_256) (fun _ => rfl)).squeeze S128 squeezes_S1x128_S128).view.set]{fullShare} f3 : sProp 𝕄) from rfl)) $$ Hm2
  have him1 : ∀ x, (((((ibV).slice (Rect.unit (s := S2x1024) ![1, 128] S1x128.size inb_S2x1024_S1x128_1_128) (fun _ => rfl)).squeeze S128 squeezes_S1x128_S128).view.read (Elt F) f3 x : BitVec 32)).toNat < S3x128.size (gathers_S3x128_S128x128).axis :=
    gather_hin gathers_S3x128_S128x128 _ hfm1
  sl_exec (disch := (clear * - k hk1 hlt; decide +kernel +revert))
  have hc7 : k0_cond7 k = 1#1 := (by decide +kernel : ∀ k : Fin k0_t1_loop.trips, k0_cond7 k = 1#1) k
  -- the two gathered quarters of half 1 read blocks 16 * k.val + 6, 16 * k.val + 6 + 1 of the lookup; joined, they are copied out to that pair of the worker's blocks
  ihave Hg := (pts_name (F := F) _ _ _) $$ Hq10
  icases Hg with ⟨%aQ00, Hq10, %eaQ00⟩
  have hqaQ00 : QuarterIs fi ft d L 1 0 (8 * (2 * k.val) + 6) aQ00 := by
    rw [eaQ00]; exact gather_fact (F := F) fi ft hr d L 0 6 1 0 (2 * k.val) hg0 f1 hs1 _ _ _
  ihave Hg := (pts_name (F := F) _ _ _) $$ Hq11
  icases Hg with ⟨%aQ01, Hq11, %eaQ01⟩
  have hqaQ01 : QuarterIs fi ft d L 1 1 (8 * (2 * k.val) + 7) aQ01 := by
    rw [eaQ01]; exact gather_fact (F := F) fi ft hr d L 0 7 1 1 (2 * k.val) hg0 f1 hs1 _ _ _
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 aQ00 aQ01) $$ [Hq10 Hq11]
  · isplitl [Hq10] <;> iassumption
  ihave Hh1 := (Entails.of_eq (half_lit_1 (F := F) d (cV L) (jV L) _).symm) $$ Hh1
  have hoffQ0 : _ = (![800 * (wL L).val + (16 * k.val + 6), 0, 0] : Fin 3 → ℕ) := (k0_off21_eq L k).trans (congrArg (fun n => (![n, 0, 0] : Fin 3 → ℕ)) (by show _ = 800 * ((L 1).val * 2 + (L 0).val) + (16 * k.val + 6); omega))
  ihave Hp := (rest_take (F := F) d (cV L) (jV L) (wL L) (k0_off21_inb L k hc7) (lo := 16 * k.val + 6) hoffQ0 (by omega) (fo d)) $$ Hrest
  icases Hp with ⟨HpQ0, Hrest⟩
  ihave Hrest := (Entails.of_eq (show (oLoc d ↦[rowsIn (wL L) (16 * k.val + 6 + 2) 800]{fullShare} fo d : sProp 𝕄) = (oLoc d ↦[rowsIn (wL L) (16 * k.val + 8) 800]{fullShare} fo d) from by rw [show 16 * k.val + 6 + 2 = 16 * k.val + 8 from by omega])) $$ Hrest
  sl_exec (disch := (clear * - k hk1 hlt; decide +kernel +revert))
  sl_unfold_run_names
  ihave Hs10 := (out_clean1 (F := F) fi ft d L _ _ _ (fo d) aQ00 aQ01 (k0_off21_inb L k hc7) (16 * k.val + 6) (by omega) hoffQ0 (QuarterIs_cast (F := F) fi ft (by omega) hqaQ00) (QuarterIs_cast (F := F) fi ft (by omega) hqaQ01)) $$ Hs10
  unfold OutD1
  -- reduction of the list 3 of slot 1: each step stores back what it loaded
  have hfm3 : ListOK (F := F) 1 3 d (cV L) (jV L) f3 := listOK_of_slot (F := F) 1 d (cV L) (jV L) f3 hf3 3
  first
    | sl_for (inv_t13 (F := F) d L f3) $$ [Hm3]
    | (sl_rw [Idealize.SL.Sem.Prog.bind_assoc]; sl_for (inv_t13 (F := F) d L f3) $$ [Hm3])
  · intro k2 acc
    exact step_t13 (F := F) d L v5 v6 k (0#32) f3 hfm3 k2 acc
  · iapply (Entails.of_eq (show ((((ibV).slice (Rect.unit (s := S2x1024) ![1, 384] S1x128.size inb_S2x1024_S1x128_1_384) (fun _ => rfl)).squeeze S128 squeezes_S1x128_S128).view.loc (V d (cV L) (jV L)) ↦[(((ibV).slice (Rect.unit (s := S2x1024) ![1, 384] S1x128.size inb_S2x1024_S1x128_1_384) (fun _ => rfl)).squeeze S128 squeezes_S1x128_S128).view.set]{fullShare} f3 : sProp 𝕄) = inv_t13 (F := F) d L f3 0 PUnit.unit from rfl)) $$ Hm3
  iintro %acc13 Hm3
  ihave Hm3 := (Entails.of_eq (show inv_t13 (F := F) d L f3 (Scf.trips k0_t13_loop.lb k0_t13_loop.ub k0_t13_loop.st) acc13 = ((((ibV).slice (Rect.unit (s := S2x1024) ![1, 384] S1x128.size inb_S2x1024_S1x128_1_384) (fun _ => rfl)).squeeze S128 squeezes_S1x128_S128).view.loc (V d (cV L) (jV L)) ↦[(((ibV).slice (Rect.unit (s := S2x1024) ![1, 384] S1x128.size inb_S2x1024_S1x128_1_384) (fun _ => rfl)).squeeze S128 squeezes_S1x128_S128).view.set]{fullShare} f3 : sProp 𝕄) from rfl)) $$ Hm3
  have him2 : ∀ x, (((((ibV).slice (Rect.unit (s := S2x1024) ![1, 256] S1x128.size inb_S2x1024_S1x128_1_256) (fun _ => rfl)).squeeze S128 squeezes_S1x128_S128).view.read (Elt F) f3 x : BitVec 32)).toNat < S3x128.size (gathers_S3x128_S128x128).axis :=
    gather_hin gathers_S3x128_S128x128 _ hfm2
  -- the first slot is free: its eight lists, all at the same contents, are the slot the block after next is copied into
  ihave Hl0 := (Entails.of_eq (list_lit_0_0 (F := F) d (cV L) (jV L) f1)) $$ Hl0
  ihave Hl1 := (Entails.of_eq (list_lit_0_1 (F := F) d (cV L) (jV L) f1)) $$ Hl1
  ihave Hl2 := (Entails.of_eq (list_lit_0_2 (F := F) d (cV L) (jV L) f1)) $$ Hl2
  ihave Hl3 := (Entails.of_eq (list_lit_0_3 (F := F) d (cV L) (jV L) f1)) $$ Hl3
  ihave Hl4 := (Entails.of_eq (list_lit_0_4 (F := F) d (cV L) (jV L) f1)) $$ Hl4
  ihave Hl5 := (Entails.of_eq (list_lit_0_5 (F := F) d (cV L) (jV L) f1)) $$ Hl5
  ihave Hl6 := (Entails.of_eq (list_lit_0_6 (F := F) d (cV L) (jV L) f1)) $$ Hl6
  ihave Hl7 := (Entails.of_eq (list_lit_0_7 (F := F) d (cV L) (jV L) f1)) $$ Hl7
  ihave Hsl0 := (Entails.of_eq (slot_lists8 (F := F) d (cV L) (jV L) 0 f1).symm) $$ [Hl0 Hl1 Hl2 Hl3 Hl4 Hl5 Hl6 Hl7]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hl7
  ihave Hsl0 := (Entails.of_eq (slot_lit_0 (F := F) d (cV L) (jV L) f1).symm) $$ Hsl0
  sl_exec (disch := (clear * - k hk1 hlt; decide +kernel +revert))
  have hg2 : 2 * k.val + 2 < 100 := by omega
  have hoffI0 : _ = (![102400 * (wL L).val + 1024 * (2 * k.val + 2)] : Fin 1 → ℕ) := (k0_off23_eq L k).trans (congrArg (fun n => (![n] : Fin 1 → ℕ)) (by show _ = 102400 * ((L 1).val * 2 + (L 0).val) + 1024 * (2 * k.val + 2); omega))
  sl_unfold_run_names
  ihave HF0 := (idx_clean0 (F := F) fi hr d L _ _ _ _ _ (2 * k.val + 2) hg2 hoffI0) $$ HF0
  ihave Hi' := (Entails.of_eq (idx_rest (F := F) fi d L _ (2 * k.val + 2) hg2 hoffI0)) $$ Hi'
  -- the copy-out of half 1 has delivered its pair at the lookup: the done interval grows by two blocks; the half is two quarters again
  icases Hs10_dst with ⟨%gN1, HpN1, %hgN1⟩
  ihave Hdone := (done_add (F := F) d (cV L) (jV L) (wL L) (pairIn L (16 * k.val + 6) (by omega)) (lo := 16 * k.val + 6) rfl gN1 (oDone fi ft d) hgN1) $$ [Hdone HpN1]
  · isplitl [Hdone]; · iexact Hdone
    iexact HpN1
  ihave Hdone := (Entails.of_eq (show (oLoc d ↦[rowsIn (wL L) 0 (16 * k.val + 6 + 2)]{fullShare} oDone fi ft d : sProp 𝕄) = (oLoc d ↦[rowsIn (wL L) 0 (16 * k.val + 8)]{fullShare} oDone fi ft d) from by rw [show 16 * k.val + 6 + 2 = 16 * k.val + 8 from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  sl_exec (disch := (clear * - k hk1 hlt; decide +kernel +revert))
  -- reduction of the list 4 of slot 1: each step stores back what it loaded
  have hfm4 : ListOK (F := F) 1 4 d (cV L) (jV L) f3 := listOK_of_slot (F := F) 1 d (cV L) (jV L) f3 hf3 4
  first
    | sl_for (inv_t14 (F := F) d L f3) $$ [Hm4]
    | (sl_rw [Idealize.SL.Sem.Prog.bind_assoc]; sl_for (inv_t14 (F := F) d L f3) $$ [Hm4])
  · intro k2 acc
    exact step_t14 (F := F) d L v5 v6 k (0#32) f3 hfm4 k2 acc
  · iapply (Entails.of_eq (show ((((ibV).slice (Rect.unit (s := S2x1024) ![1, 512] S1x128.size inb_S2x1024_S1x128_1_512) (fun _ => rfl)).squeeze S128 squeezes_S1x128_S128).view.loc (V d (cV L) (jV L)) ↦[(((ibV).slice (Rect.unit (s := S2x1024) ![1, 512] S1x128.size inb_S2x1024_S1x128_1_512) (fun _ => rfl)).squeeze S128 squeezes_S1x128_S128).view.set]{fullShare} f3 : sProp 𝕄) = inv_t14 (F := F) d L f3 0 PUnit.unit from rfl)) $$ Hm4
  iintro %acc14 Hm4
  ihave Hm4 := (Entails.of_eq (show inv_t14 (F := F) d L f3 (Scf.trips k0_t14_loop.lb k0_t14_loop.ub k0_t14_loop.st) acc14 = ((((ibV).slice (Rect.unit (s := S2x1024) ![1, 512] S1x128.size inb_S2x1024_S1x128_1_512) (fun _ => rfl)).squeeze S128 squeezes_S1x128_S128).view.loc (V d (cV L) (jV L)) ↦[(((ibV).slice (Rect.unit (s := S2x1024) ![1, 512] S1x128.size inb_S2x1024_S1x128_1_512) (fun _ => rfl)).squeeze S128 squeezes_S1x128_S128).view.set]{fullShare} f3 : sProp 𝕄) from rfl)) $$ Hm4
  have him3 : ∀ x, (((((ibV).slice (Rect.unit (s := S2x1024) ![1, 384] S1x128.size inb_S2x1024_S1x128_1_384) (fun _ => rfl)).squeeze S128 squeezes_S1x128_S128).view.read (Elt F) f3 x : BitVec 32)).toNat < S3x128.size (gathers_S3x128_S128x128).axis :=
    gather_hin gathers_S3x128_S128x128 _ hfm3
  sl_exec (disch := (clear * - k hk1 hlt; decide +kernel +revert))
  -- the two gathered quarters of half 0 read blocks 16 * k.val + 8, 16 * k.val + 8 + 1 of the lookup; joined, they are copied out to that pair of the worker's blocks
  ihave Hg := (pts_name (F := F) _ _ _) $$ Hq00
  icases Hg with ⟨%aQ10, Hq00, %eaQ10⟩
  have hqaQ10 : QuarterIs fi ft d L 0 0 (8 * (2 * k.val + 1) + 0) aQ10 := by
    rw [eaQ10]; exact gather_fact (F := F) fi ft hr d L 1 0 0 0 (2 * k.val + 1) hg1 f3 hs3 _ _ _
  ihave Hg := (pts_name (F := F) _ _ _) $$ Hq01
  icases Hg with ⟨%aQ11, Hq01, %eaQ11⟩
  have hqaQ11 : QuarterIs fi ft d L 0 1 (8 * (2 * k.val + 1) + 1) aQ11 := by
    rw [eaQ11]; exact gather_fact (F := F) fi ft hr d L 1 1 0 1 (2 * k.val + 1) hg1 f3 hs3 _ _ _
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 aQ10 aQ11) $$ [Hq00 Hq01]
  · isplitl [Hq00] <;> iassumption
  ihave Hh0 := (Entails.of_eq (half_lit_0 (F := F) d (cV L) (jV L) _).symm) $$ Hh0
  have hoffQ1 : _ = (![800 * (wL L).val + (16 * k.val + 8), 0, 0] : Fin 3 → ℕ) := (k0_off12_eq L k 1 0).trans (congrArg (fun n => (![n, 0, 0] : Fin 3 → ℕ)) (by show _ = 800 * ((L 1).val * 2 + (L 0).val) + (16 * k.val + 8); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 1 0) (lo := 16 * k.val + 8) hoffQ1 (by omega) (fo d)) $$ Hrest
  icases Hp with ⟨HpQ1, Hrest⟩
  ihave Hrest := (Entails.of_eq (show (oLoc d ↦[rowsIn (wL L) (16 * k.val + 8 + 2) 800]{fullShare} fo d : sProp 𝕄) = (oLoc d ↦[rowsIn (wL L) (16 * k.val + 10) 800]{fullShare} fo d) from by rw [show 16 * k.val + 8 + 2 = 16 * k.val + 10 from by omega])) $$ Hrest
  sl_exec (disch := (clear * - k hk1 hlt; decide +kernel +revert))
  sl_unfold_run_names
  ihave HO0 := (out_clean0 (F := F) fi ft d L _ _ _ (fo d) aQ10 aQ11 (k0_off12_inb L k 1 0) (16 * k.val + 8) (by omega) hoffQ1 (QuarterIs_cast (F := F) fi ft (by omega) hqaQ10) (QuarterIs_cast (F := F) fi ft (by omega) hqaQ11)) $$ HO0
  unfold OutD0
  -- reduction of the list 5 of slot 1: each step stores back what it loaded
  have hfm5 : ListOK (F := F) 1 5 d (cV L) (jV L) f3 := listOK_of_slot (F := F) 1 d (cV L) (jV L) f3 hf3 5
  first
    | sl_for (inv_t15 (F := F) d L f3) $$ [Hm5]
    | (sl_rw [Idealize.SL.Sem.Prog.bind_assoc]; sl_for (inv_t15 (F := F) d L f3) $$ [Hm5])
  · intro k2 acc
    exact step_t15 (F := F) d L v6 k (0#32) f3 hfm5 k2 acc
  · iapply (Entails.of_eq (show ((((ibV).slice (Rect.unit (s := S2x1024) ![1, 640] S1x128.size inb_S2x1024_S1x128_1_640) (fun _ => rfl)).squeeze S128 squeezes_S1x128_S128).view.loc (V d (cV L) (jV L)) ↦[(((ibV).slice (Rect.unit (s := S2x1024) ![1, 640] S1x128.size inb_S2x1024_S1x128_1_640) (fun _ => rfl)).squeeze S128 squeezes_S1x128_S128).view.set]{fullShare} f3 : sProp 𝕄) = inv_t15 (F := F) d L f3 0 PUnit.unit from rfl)) $$ Hm5
  iintro %acc15 Hm5
  ihave Hm5 := (Entails.of_eq (show inv_t15 (F := F) d L f3 (Scf.trips k0_t15_loop.lb k0_t15_loop.ub k0_t15_loop.st) acc15 = ((((ibV).slice (Rect.unit (s := S2x1024) ![1, 640] S1x128.size inb_S2x1024_S1x128_1_640) (fun _ => rfl)).squeeze S128 squeezes_S1x128_S128).view.loc (V d (cV L) (jV L)) ↦[(((ibV).slice (Rect.unit (s := S2x1024) ![1, 640] S1x128.size inb_S2x1024_S1x128_1_640) (fun _ => rfl)).squeeze S128 squeezes_S1x128_S128).view.set]{fullShare} f3 : sProp 𝕄) from rfl)) $$ Hm5
  have him4 : ∀ x, (((((ibV).slice (Rect.unit (s := S2x1024) ![1, 512] S1x128.size inb_S2x1024_S1x128_1_512) (fun _ => rfl)).squeeze S128 squeezes_S1x128_S128).view.read (Elt F) f3 x : BitVec 32)).toNat < S3x128.size (gathers_S3x128_S128x128).axis :=
    gather_hin gathers_S3x128_S128x128 _ hfm4
  sl_exec (disch := (clear * - k hk1 hlt; decide +kernel +revert))
  -- the copy-out of half 0 has delivered its pair at the lookup: the done interval grows by two blocks; the half is two quarters again
  icases HO0_dst with ⟨%gN2, HpN2, %hgN2⟩
  ihave Hdone := (done_add (F := F) d (cV L) (jV L) (wL L) (pairIn L (16 * k.val + 8) (by omega)) (lo := 16 * k.val + 8) rfl gN2 (oDone fi ft d) hgN2) $$ [Hdone HpN2]
  · isplitl [Hdone]; · iexact Hdone
    iexact HpN2
  ihave Hdone := (Entails.of_eq (show (oLoc d ↦[rowsIn (wL L) 0 (16 * k.val + 8 + 2)]{fullShare} oDone fi ft d : sProp 𝕄) = (oLoc d ↦[rowsIn (wL L) 0 (16 * k.val + 10)]{fullShare} oDone fi ft d) from by rw [show 16 * k.val + 8 + 2 = 16 * k.val + 10 from by omega])) $$ Hdone
  ihave Hh0 := (Entails.of_eq (half_lit_0 (F := F) d (cV L) (jV L) _)) $$ HO0_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  sl_exec (disch := (clear * - k hk1 hlt; decide +kernel +revert))
  -- reduction of the list 6 of slot 1: each step stores back what it loaded
  have hfm6 : ListOK (F := F) 1 6 d (cV L) (jV L) f3 := listOK_of_slot (F := F) 1 d (cV L) (jV L) f3 hf3 6
  first
    | sl_for (inv_t16 (F := F) d L f3) $$ [Hm6]
    | (sl_rw [Idealize.SL.Sem.Prog.bind_assoc]; sl_for (inv_t16 (F := F) d L f3) $$ [Hm6])
  · intro k2 acc
    exact step_t16 (F := F) d L  f3 hfm6 k2 acc
  · iapply (Entails.of_eq (show ((((ibV).slice (Rect.unit (s := S2x1024) ![1, 768] S1x128.size inb_S2x1024_S1x128_1_768) (fun _ => rfl)).squeeze S128 squeezes_S1x128_S128).view.loc (V d (cV L) (jV L)) ↦[(((ibV).slice (Rect.unit (s := S2x1024) ![1, 768] S1x128.size inb_S2x1024_S1x128_1_768) (fun _ => rfl)).squeeze S128 squeezes_S1x128_S128).view.set]{fullShare} f3 : sProp 𝕄) = inv_t16 (F := F) d L f3 0 PUnit.unit from rfl)) $$ Hm6
  iintro %acc16 Hm6
  ihave Hm6 := (Entails.of_eq (show inv_t16 (F := F) d L f3 (Scf.trips k0_t16_loop.lb k0_t16_loop.ub k0_t16_loop.st) acc16 = ((((ibV).slice (Rect.unit (s := S2x1024) ![1, 768] S1x128.size inb_S2x1024_S1x128_1_768) (fun _ => rfl)).squeeze S128 squeezes_S1x128_S128).view.loc (V d (cV L) (jV L)) ↦[(((ibV).slice (Rect.unit (s := S2x1024) ![1, 768] S1x128.size inb_S2x1024_S1x128_1_768) (fun _ => rfl)).squeeze S128 squeezes_S1x128_S128).view.set]{fullShare} f3 : sProp 𝕄) from rfl)) $$ Hm6
  have him5 : ∀ x, (((((ibV).slice (Rect.unit (s := S2x1024) ![1, 640] S1x128.size inb_S2x1024_S1x128_1_640) (fun _ => rfl)).squeeze S128 squeezes_S1x128_S128).view.read (Elt F) f3 x : BitVec 32)).toNat < S3x128.size (gathers_S3x128_S128x128).axis :=
    gather_hin gathers_S3x128_S128x128 _ hfm5
  sl_exec (disch := (clear * - k hk1 hlt; decide +kernel +revert))
  -- the two gathered quarters of half 1 read blocks 16 * k.val + 10, 16 * k.val + 10 + 1 of the lookup; joined, they are copied out to that pair of the worker's blocks
  ihave Hg := (pts_name (F := F) _ _ _) $$ Hq10
  icases Hg with ⟨%aQ20, Hq10, %eaQ20⟩
  have hqaQ20 : QuarterIs fi ft d L 1 0 (8 * (2 * k.val + 1) + 2) aQ20 := by
    rw [eaQ20]; exact gather_fact (F := F) fi ft hr d L 1 2 1 0 (2 * k.val + 1) hg1 f3 hs3 _ _ _
  ihave Hg := (pts_name (F := F) _ _ _) $$ Hq11
  icases Hg with ⟨%aQ21, Hq11, %eaQ21⟩
  have hqaQ21 : QuarterIs fi ft d L 1 1 (8 * (2 * k.val + 1) + 3) aQ21 := by
    rw [eaQ21]; exact gather_fact (F := F) fi ft hr d L 1 3 1 1 (2 * k.val + 1) hg1 f3 hs3 _ _ _
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 aQ20 aQ21) $$ [Hq10 Hq11]
  · isplitl [Hq10] <;> iassumption
  ihave Hh1 := (Entails.of_eq (half_lit_1 (F := F) d (cV L) (jV L) _).symm) $$ Hh1
  have hoffQ2 : _ = (![800 * (wL L).val + (16 * k.val + 10), 0, 0] : Fin 3 → ℕ) := (k0_off12_eq L k 1 1).trans (congrArg (fun n => (![n, 0, 0] : Fin 3 → ℕ)) (by show _ = 800 * ((L 1).val * 2 + (L 0).val) + (16 * k.val + 10); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 1 1) (lo := 16 * k.val + 10) hoffQ2 (by omega) (fo d)) $$ Hrest
  icases Hp with ⟨HpQ2, Hrest⟩
  ihave Hrest := (Entails.of_eq (show (oLoc d ↦[rowsIn (wL L) (16 * k.val + 10 + 2) 800]{fullShare} fo d : sProp 𝕄) = (oLoc d ↦[rowsIn (wL L) (16 * (k.val + 1) - 4) 800]{fullShare} fo d) from by rw [show 16 * k.val + 10 + 2 = 16 * (k.val + 1) - 4 from by omega])) $$ Hrest
  sl_exec (disch := (clear * - k hk1 hlt; decide +kernel +revert))
  sl_unfold_run_names
  ihave Hs10 := (out_clean1 (F := F) fi ft d L _ _ _ (fo d) aQ20 aQ21 (k0_off12_inb L k 1 1) (16 * k.val + 10) (by omega) hoffQ2 (QuarterIs_cast (F := F) fi ft (by omega) hqaQ20) (QuarterIs_cast (F := F) fi ft (by omega) hqaQ21)) $$ Hs10
  unfold OutD1
  -- reduction of the list 7 of slot 1: each step stores back what it loaded
  have hfm7 : ListOK (F := F) 1 7 d (cV L) (jV L) f3 := listOK_of_slot (F := F) 1 d (cV L) (jV L) f3 hf3 7
  first
    | sl_for (inv_t17 (F := F) d L f3) $$ [Hm7]
    | (sl_rw [Idealize.SL.Sem.Prog.bind_assoc]; sl_for (inv_t17 (F := F) d L f3) $$ [Hm7])
  · intro k2 acc
    exact step_t17 (F := F) d L v6 k (0#32) f3 hfm7 k2 acc
  · iapply (Entails.of_eq (show ((((ibV).slice (Rect.unit (s := S2x1024) ![1, 896] S1x128.size inb_S2x1024_S1x128_1_896) (fun _ => rfl)).squeeze S128 squeezes_S1x128_S128).view.loc (V d (cV L) (jV L)) ↦[(((ibV).slice (Rect.unit (s := S2x1024) ![1, 896] S1x128.size inb_S2x1024_S1x128_1_896) (fun _ => rfl)).squeeze S128 squeezes_S1x128_S128).view.set]{fullShare} f3 : sProp 𝕄) = inv_t17 (F := F) d L f3 0 PUnit.unit from rfl)) $$ Hm7
  iintro %acc17 Hm7
  ihave Hm7 := (Entails.of_eq (show inv_t17 (F := F) d L f3 (Scf.trips k0_t17_loop.lb k0_t17_loop.ub k0_t17_loop.st) acc17 = ((((ibV).slice (Rect.unit (s := S2x1024) ![1, 896] S1x128.size inb_S2x1024_S1x128_1_896) (fun _ => rfl)).squeeze S128 squeezes_S1x128_S128).view.loc (V d (cV L) (jV L)) ↦[(((ibV).slice (Rect.unit (s := S2x1024) ![1, 896] S1x128.size inb_S2x1024_S1x128_1_896) (fun _ => rfl)).squeeze S128 squeezes_S1x128_S128).view.set]{fullShare} f3 : sProp 𝕄) from rfl)) $$ Hm7
  have him6 : ∀ x, (((((ibV).slice (Rect.unit (s := S2x1024) ![1, 768] S1x128.size inb_S2x1024_S1x128_1_768) (fun _ => rfl)).squeeze S128 squeezes_S1x128_S128).view.read (Elt F) f3 x : BitVec 32)).toNat < S3x128.size (gathers_S3x128_S128x128).axis :=
    gather_hin gathers_S3x128_S128x128 _ hfm6
  have him7 : ∀ x, (((((ibV).slice (Rect.unit (s := S2x1024) ![1, 896] S1x128.size inb_S2x1024_S1x128_1_896) (fun _ => rfl)).squeeze S128 squeezes_S1x128_S128).view.read (Elt F) f3 x : BitVec 32)).toNat < S3x128.size (gathers_S3x128_S128x128).axis :=
    gather_hin gathers_S3x128_S128x128 _ hfm7
  sl_exec (disch := (clear * - k hk1 hlt; decide +kernel +revert))
  -- the copy-out of half 1 has delivered its pair at the lookup: the done interval grows by two blocks; the half is two quarters again
  icases Hs10_dst with ⟨%gN3, HpN3, %hgN3⟩
  ihave Hdone := (done_add (F := F) d (cV L) (jV L) (wL L) (pairIn L (16 * k.val + 10) (by omega)) (lo := 16 * k.val + 10) rfl gN3 (oDone fi ft d) hgN3) $$ [Hdone HpN3]
  · isplitl [Hdone]; · iexact Hdone
    iexact HpN3
  ihave Hdone := (Entails.of_eq (show (oLoc d ↦[rowsIn (wL L) 0 (16 * k.val + 10 + 2)]{fullShare} oDone fi ft d : sProp 𝕄) = (oLoc d ↦[rowsIn (wL L) 0 (16 * k.val + 12)]{fullShare} oDone fi ft d) from by rw [show 16 * k.val + 10 + 2 = 16 * k.val + 12 from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  sl_exec (disch := (clear * - k hk1 hlt; decide +kernel +revert))
  -- the two gathered quarters of half 0 read blocks 16 * (k.val + 1) - 4, 16 * (k.val + 1) - 4 + 1 of the lookup; joined, they are copied out to that pair of the worker's blocks
  ihave Hg := (pts_name (F := F) _ _ _) $$ Hq00
  icases Hg with ⟨%aQ30, Hq00, %eaQ30⟩
  have hqaQ30 : QuarterIs fi ft d L 0 0 (8 * (2 * k.val + 1) + 4) aQ30 := by
    rw [eaQ30]; exact gather_fact (F := F) fi ft hr d L 1 4 0 0 (2 * k.val + 1) hg1 f3 hs3 _ _ _
  ihave Hg := (pts_name (F := F) _ _ _) $$ Hq01
  icases Hg with ⟨%aQ31, Hq01, %eaQ31⟩
  have hqaQ31 : QuarterIs fi ft d L 0 1 (8 * (2 * k.val + 1) + 5) aQ31 := by
    rw [eaQ31]; exact gather_fact (F := F) fi ft hr d L 1 5 0 1 (2 * k.val + 1) hg1 f3 hs3 _ _ _
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 aQ30 aQ31) $$ [Hq00 Hq01]
  · isplitl [Hq00] <;> iassumption
  ihave Hh0 := (Entails.of_eq (half_lit_0 (F := F) d (cV L) (jV L) _).symm) $$ Hh0
  have hoffQ3 : _ = (![800 * (wL L).val + (16 * (k.val + 1) - 4), 0, 0] : Fin 3 → ℕ) := (k0_off12_eq L k 1 2).trans (congrArg (fun n => (![n, 0, 0] : Fin 3 → ℕ)) (by show _ = 800 * ((L 1).val * 2 + (L 0).val) + (16 * (k.val + 1) - 4); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 1 2) (lo := 16 * (k.val + 1) - 4) hoffQ3 (by omega) (fo d)) $$ Hrest
  icases Hp with ⟨HpQ3, Hrest⟩
  ihave Hrest := (Entails.of_eq (show (oLoc d ↦[rowsIn (wL L) (16 * (k.val + 1) - 4 + 2) 800]{fullShare} fo d : sProp 𝕄) = (oLoc d ↦[rowsIn (wL L) (16 * (k.val + 1) - 2) 800]{fullShare} fo d) from by rw [show 16 * (k.val + 1) - 4 + 2 = 16 * (k.val + 1) - 2 from by omega])) $$ Hrest
  sl_exec (disch := (clear * - k hk1 hlt; decide +kernel +revert))
  sl_unfold_run_names
  ihave HO0 := (out_clean0 (F := F) fi ft d L _ _ _ (fo d) aQ30 aQ31 (k0_off12_inb L k 1 2) (16 * (k.val + 1) - 4) (by omega) hoffQ3 (QuarterIs_cast (F := F) fi ft (by omega) hqaQ30) (QuarterIs_cast (F := F) fi ft (by omega) hqaQ31)) $$ HO0
  unfold OutD0
  -- the two gathers outstanding across the trip's end, held with what they will deliver
  ihave Hn := (flight_name (F := F) _) $$ HG10
  icases Hn with ⟨%D10, HG10, %eD10⟩
  have cD10 : D10 ⊢ GathD10 fi ft d L (16 * (k.val + 1) - 2) f3 := by
    rw [eD10]
    iintro ⟨⟨Hq, Hl⟩, Ht⟩
    ihave Hg := (pts_name (F := F) _ _ _) $$ Hq
    icases Hg with ⟨%a, Hq, %ea⟩
    isplitl [Hq Hl]
    · isplitl [Hq]
      · iexists a
        isplitl [Hq]; · iexact Hq
        ipureintro
        rw [ea]
        exact QuarterIs_cast (F := F) fi ft (by omega) (gather_fact (F := F) fi ft hr d L 1 6 1 0 (2 * k.val + 1) hg1 f3 hs3 _ _ _)
      · iexact Hl
    · iexact Ht
  ihave HG10 := (Transfers.Flight_mono countersEmb (V d (cV L) (jV L)) cD10) $$ HG10
  ihave Hn := (flight_name (F := F) _) $$ HG11
  icases Hn with ⟨%D11, HG11, %eD11⟩
  have cD11 : D11 ⊢ GathD11 fi ft d L (16 * (k.val + 1) - 1) f3 := by
    rw [eD11]
    iintro ⟨⟨Hq, Hl⟩, Ht⟩
    ihave Hg := (pts_name (F := F) _ _ _) $$ Hq
    icases Hg with ⟨%a, Hq, %ea⟩
    isplitl [Hq Hl]
    · isplitl [Hq]
      · iexists a
        isplitl [Hq]; · iexact Hq
        ipureintro
        rw [ea]
        exact QuarterIs_cast (F := F) fi ft (by omega) (gather_fact (F := F) fi ft hr d L 1 7 1 1 (2 * k.val + 1) hg1 f3 hs3 _ _ _)
      · iexact Hl
    · iexact Ht
  ihave HG11 := (Transfers.Flight_mono countersEmb (V d (cV L) (jV L)) cD11) $$ HG11
  -- the invariant at the next trip
  ihave Hdone := (Entails.of_eq (show (oLoc d ↦[rowsIn (wL L) 0 (16 * k.val + 12)]{fullShare} oDone fi ft d : sProp 𝕄) = (oLoc d ↦[rowsIn (wL L) 0 (16 * (k.val + 1) - 4)]{fullShare} oDone fi ft d) from by rw [show 16 * k.val + 12 = 16 * (k.val + 1) - 4 from by omega])) $$ Hdone
  sl_step
  rw [dif_neg (by omega : ¬ (k.val + 1 = 0)), dif_pos (by omega : k.val + 1 ≤ 50), dif_pos (by omega : k.val + 1 < 50)]
  isplitr; · ipureintro; omega
  isplitl [HO Hs4 Hs5 Hs6 Hs10 Htok2 Htok3 Htoks9 Htrem]
  · isplitr; · iexact Hmw2
    isplitl [HO]
    · iexists _
      isplitr
      swap
      · iexact HO
      ipureintro
      repeat (first | exact hW0 | apply waitsOK_insert)
    isplitl [Hs4]; · iexact Hs4
    isplitl [Hs5]; · iexact Hs5
    isplitl [Hs6]; · iexact Hs6
    isplitl [Hs10]; · iexact Hs10
    isplitl [Htok2]; · iexact Htok2
    isplitl [Htok3]; · iexact Htok3
    isplitl [Htoks9]; · iexact Htoks9
    iexact Htrem
  isplitl [HF0 Hi']
  · isplitl [HF0]; · iexact HF0
    iexact Hi'
  iexists f3
  isplitr
  · ipureintro
    exact (show SlotIs fi d L 1 (2 * (k.val + 1) - 1) f3 from (show 2 * k.val + 1 = 2 * (k.val + 1) - 1 from by omega) ▸ hs3)
  isplitl [Hm0 Hm1 Hm2 Hm3 Hm4 Hm5]
  · iapply (Entails.of_eq (six_lists (F := F) d (cV L) (jV L) f3).symm)
    isplitl [Hm0]; · iapply (Entails.of_eq (list_lit_1_0 (F := F) d (cV L) (jV L) f3)) $$ Hm0
    isplitl [Hm1]; · iapply (Entails.of_eq (list_lit_1_1 (F := F) d (cV L) (jV L) f3)) $$ Hm1
    isplitl [Hm2]; · iapply (Entails.of_eq (list_lit_1_2 (F := F) d (cV L) (jV L) f3)) $$ Hm2
    isplitl [Hm3]; · iapply (Entails.of_eq (list_lit_1_3 (F := F) d (cV L) (jV L) f3)) $$ Hm3
    isplitl [Hm4]; · iapply (Entails.of_eq (list_lit_1_4 (F := F) d (cV L) (jV L) f3)) $$ Hm4
    iapply (Entails.of_eq (list_lit_1_5 (F := F) d (cV L) (jV L) f3)) $$ Hm5
  isplitl [HG10]; · iexact HG10
  isplitl [HG11]; · iexact HG11
  isplitl [Hr4]; · iexact Hr4
  isplitl [Hr5]; · iexact Hr5
  isplitl [HO0]; · iexists _; iexact HO0
  isplitl [Hdone]; · iexact Hdone
  iexact Hrest

set_option maxHeartbeats 64000000 in
/-- The last trip, k = 49: the same, without the copy of a next block; after it no copy of row numbers is outstanding. -/
theorem trip_last (hr : InRange (F := F) fi) (d : Dev nD) (L : grid0.Coords) (O : CellTallies nD τ sig (HIx 1)) (W : Waits sig (HIx 1))
    (v5 v6 : BitVec 32) (k : Fin k0_t1_loop.trips) (hk49 : k.val = 49) (acc : Unit) :
    Inv (F := F) fi ft fo d L O W k.val acc
      ⊢ wp frame (wpE (defs₀ (F := F)) 𝒱₀ (V d (cV L) (jV L)) none) Set.univ
          (k0_t1_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k acc)
          (Inv (F := F) fi ft fo d L O W (k.val + 1)) := by
  have hk1 : 1 ≤ k.val := by omega
  have hk50 : k.val < 50 := k.isLt
  unfold Inv
  rw [dif_neg (by omega : ¬ (k.val = 0)), dif_pos (by omega : k.val ≤ 50)]
  unfold Base IdxPart Steady
  rw [dif_pos hk50]
  unfold IdxD0 idxBlk GathD10 GathD11 OutD0 shAll
  iintro ⟨%hk50', ⟨#Hmw2, ⟨%W0, %hW0, HO⟩, Hs4, Hs5, Hs6, Hs10, Htok2, Htok3, Htoks9, Htrem⟩, ⟨HF0, Hi'⟩, ⟨%f2, %hf2, Hm05, HG10, HG11, Hr4, Hr5, ⟨%h0, HO0⟩, Hdone, Hrest⟩⟩
  have hg0 : 2 * k.val < 100 := by omega
  sl_unfold [k0_t1_body]
  sl_exec (disch := (clear * - k hk49; decide +kernel +revert))
  -- block 2k of row numbers has landed in slot 0
  icases HF0_dst with ⟨%f1, Hsl0, %hs1⟩
  have hf1 := slot_range (F := F) fi hr d L 0 _ f1 hs1
  ihave Hsl0 := (Entails.of_eq (slot_lit_0 (F := F) d (cV L) (jV L) f1)) $$ Hsl0
  ihave Hls := (Entails.of_eq (slot_lists8 (F := F) d (cV L) (jV L) 0 f1)) $$ Hsl0
  icases Hls with ⟨Hl0, Hl1, Hl2, Hl3, Hl4, Hl5, Hl6, Hl7⟩
  ihave Hl0 := (Entails.of_eq (list_lit_0_0 (F := F) d (cV L) (jV L) f1).symm) $$ Hl0
  ihave Hl1 := (Entails.of_eq (list_lit_0_1 (F := F) d (cV L) (jV L) f1).symm) $$ Hl1
  ihave Hl2 := (Entails.of_eq (list_lit_0_2 (F := F) d (cV L) (jV L) f1).symm) $$ Hl2
  ihave Hl3 := (Entails.of_eq (list_lit_0_3 (F := F) d (cV L) (jV L) f1).symm) $$ Hl3
  ihave Hl4 := (Entails.of_eq (list_lit_0_4 (F := F) d (cV L) (jV L) f1).symm) $$ Hl4
  ihave Hl5 := (Entails.of_eq (list_lit_0_5 (F := F) d (cV L) (jV L) f1).symm) $$ Hl5
  ihave Hl6 := (Entails.of_eq (list_lit_0_6 (F := F) d (cV L) (jV L) f1).symm) $$ Hl6
  ihave Hl7 := (Entails.of_eq (list_lit_0_7 (F := F) d (cV L) (jV L) f1).symm) $$ Hl7
  -- reduction of the list 0 of slot 0: each step stores back what it loaded
  have hfl0 : ListOK (F := F) 0 0 d (cV L) (jV L) f1 := listOK_of_slot (F := F) 0 d (cV L) (jV L) f1 hf1 0
  first
    | sl_for (inv_t2 (F := F) d L f1) $$ [Hl0]
    | (sl_rw [Idealize.SL.Sem.Prog.bind_assoc]; sl_for (inv_t2 (F := F) d L f1) $$ [Hl0])
  · intro k2 acc
    exact step_t2 (F := F) d L v5 v6 (0#32) (1#32) k f1 hfl0 k2 acc
  · iapply (Entails.of_eq (show ((((ibV).slice (Rect.unit (s := S2x1024) ![0, 0] S1x128.size inb_S2x1024_S1x128_0_0) (fun _ => rfl)).squeeze S128 squeezes_S1x128_S128).view.loc (V d (cV L) (jV L)) ↦[(((ibV).slice (Rect.unit (s := S2x1024) ![0, 0] S1x128.size inb_S2x1024_S1x128_0_0) (fun _ => rfl)).squeeze S128 squeezes_S1x128_S128).view.set]{fullShare} f1 : sProp 𝕄) = inv_t2 (F := F) d L f1 0 PUnit.unit from rfl)) $$ Hl0
  iintro %acc2 Hl0
  ihave Hl0 := (Entails.of_eq (show inv_t2 (F := F) d L f1 (Scf.trips k0_t2_loop.lb k0_t2_loop.ub k0_t2_loop.st) acc2 = ((((ibV).slice (Rect.unit (s := S2x1024) ![0, 0] S1x128.size inb_S2x1024_S1x128_0_0) (fun _ => rfl)).squeeze S128 squeezes_S1x128_S128).view.loc (V d (cV L) (jV L)) ↦[(((ibV).slice (Rect.unit (s := S2x1024) ![0, 0] S1x128.size inb_S2x1024_S1x128_0_0) (fun _ => rfl)).squeeze S128 squeezes_S1x128_S128).view.set]{fullShare} f1 : sProp 𝕄) from rfl)) $$ Hl0
  sl_exec (disch := (clear * - k hk49; decide +kernel +revert))
  -- reduction of the list 1 of slot 0: each step stores back what it loaded
  have hfl1 : ListOK (F := F) 0 1 d (cV L) (jV L) f1 := listOK_of_slot (F := F) 0 d (cV L) (jV L) f1 hf1 1
  first
    | sl_for (inv_t3 (F := F) d L f1) $$ [Hl1]
    | (sl_rw [Idealize.SL.Sem.Prog.bind_assoc]; sl_for (inv_t3 (F := F) d L f1) $$ [Hl1])
  · intro k2 acc
    exact step_t3 (F := F) d L v5 v6 (0#32) (1#32) k f1 hfl1 k2 acc
  · iapply (Entails.of_eq (show ((((ibV).slice (Rect.unit (s := S2x1024) ![0, 128] S1x128.size inb_S2x1024_S1x128_0_128) (fun _ => rfl)).squeeze S128 squeezes_S1x128_S128).view.loc (V d (cV L) (jV L)) ↦[(((ibV).slice (Rect.unit (s := S2x1024) ![0, 128] S1x128.size inb_S2x1024_S1x128_0_128) (fun _ => rfl)).squeeze S128 squeezes_S1x128_S128).view.set]{fullShare} f1 : sProp 𝕄) = inv_t3 (F := F) d L f1 0 PUnit.unit from rfl)) $$ Hl1
  iintro %acc3 Hl1
  ihave Hl1 := (Entails.of_eq (show inv_t3 (F := F) d L f1 (Scf.trips k0_t3_loop.lb k0_t3_loop.ub k0_t3_loop.st) acc3 = ((((ibV).slice (Rect.unit (s := S2x1024) ![0, 128] S1x128.size inb_S2x1024_S1x128_0_128) (fun _ => rfl)).squeeze S128 squeezes_S1x128_S128).view.loc (V d (cV L) (jV L)) ↦[(((ibV).slice (Rect.unit (s := S2x1024) ![0, 128] S1x128.size inb_S2x1024_S1x128_0_128) (fun _ => rfl)).squeeze S128 squeezes_S1x128_S128).view.set]{fullShare} f1 : sProp 𝕄) from rfl)) $$ Hl1
  have hin0 : ∀ x, (((((ibV).slice (Rect.unit (s := S2x1024) ![0, 0] S1x128.size inb_S2x1024_S1x128_0_0) (fun _ => rfl)).squeeze S128 squeezes_S1x128_S128).view.read (Elt F) f1 x : BitVec 32)).toNat < S3x128.size (gathers_S3x128_S128x128).axis :=
    gather_hin gathers_S3x128_S128x128 _ hfl0
  sl_exec (disch := (clear * - k hk49; decide +kernel +revert))
  -- the copy-out of half 0 has delivered its pair at the lookup: the done interval grows by two blocks; the half is two quarters again
  icases HO0_dst with ⟨%gA, HpA, %hgA⟩
  ihave Hdone := (done_add (F := F) d (cV L) (jV L) (wL L) (pairIn L (16 * k.val - 4) (by omega)) (lo := 16 * k.val - 4) rfl gA (oDone fi ft d) hgA) $$ [Hdone HpA]
  · isplitl [Hdone]; · iexact Hdone
    iexact HpA
  ihave Hdone := (Entails.of_eq (show (oLoc d ↦[rowsIn (wL L) 0 (16 * k.val - 4 + 2)]{fullShare} oDone fi ft d : sProp 𝕄) = (oLoc d ↦[rowsIn (wL L) 0 (16 * k.val - 2)]{fullShare} oDone fi ft d) from by rw [show 16 * k.val - 4 + 2 = 16 * k.val - 2 from by omega])) $$ Hdone
  ihave Hh0 := (Entails.of_eq (half_lit_0 (F := F) d (cV L) (jV L) _)) $$ HO0_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  sl_exec (disch := (clear * - k hk49; decide +kernel +revert))
  -- reduction of the list 2 of slot 0: each step stores back what it loaded
  have hfl2 : ListOK (F := F) 0 2 d (cV L) (jV L) f1 := listOK_of_slot (F := F) 0 d (cV L) (jV L) f1 hf1 2
  first
    | sl_for (inv_t4 (F := F) d L f1) $$ [Hl2]
    | (sl_rw [Idealize.SL.Sem.Prog.bind_assoc]; sl_for (inv_t4 (F := F) d L f1) $$ [Hl2])
  · intro k2 acc
    exact step_t4 (F := F) d L v5 v6 (0#32) (1#32) k f1 hfl2 k2 acc
  · iapply (Entails.of_eq (show ((((ibV).slice (Rect.unit (s := S2x1024) ![0, 256] S1x128.size inb_S2x1024_S1x128_0_256) (fun _ => rfl)).squeeze S128 squeezes_S1x128_S128).view.loc (V d (cV L) (jV L)) ↦[(((ibV).slice (Rect.unit (s := S2x1024) ![0, 256] S1x128.size inb_S2x1024_S1x128_0_256) (fun _ => rfl)).squeeze S128 squeezes_S1x128_S128).view.set]{fullShare} f1 : sProp 𝕄) = inv_t4 (F := F) d L f1 0 PUnit.unit from rfl)) $$ Hl2
  iintro %acc4 Hl2
  ihave Hl2 := (Entails.of_eq (show inv_t4 (F := F) d L f1 (Scf.trips k0_t4_loop.lb k0_t4_loop.ub k0_t4_loop.st) acc4 = ((((ibV).slice (Rect.unit (s := S2x1024) ![0, 256] S1x128.size inb_S2x1024_S1x128_0_256) (fun _ => rfl)).squeeze S128 squeezes_S1x128_S128).view.loc (V d (cV L) (jV L)) ↦[(((ibV).slice (Rect.unit (s := S2x1024) ![0, 256] S1x128.size inb_S2x1024_S1x128_0_256) (fun _ => rfl)).squeeze S128 squeezes_S1x128_S128).view.set]{fullShare} f1 : sProp 𝕄) from rfl)) $$ Hl2
  have hin1 : ∀ x, (((((ibV).slice (Rect.unit (s := S2x1024) ![0, 128] S1x128.size inb_S2x1024_S1x128_0_128) (fun _ => rfl)).squeeze S128 squeezes_S1x128_S128).view.read (Elt F) f1 x : BitVec 32)).toNat < S3x128.size (gathers_S3x128_S128x128).axis :=
    gather_hin gathers_S3x128_S128x128 _ hfl1
  sl_exec (disch := (clear * - k hk49; decide +kernel +revert))
  -- the last two gathers of the previous block have landed: the second half reads blocks 16k-2, 16k-1 of the lookup
  icases HG10_dst with ⟨⟨%b10, Hq10, %hb10⟩, Hn6⟩
  icases HG11_dst with ⟨⟨%b11, Hq11, %hb11⟩, Hn7⟩
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 b10 b11) $$ [Hq10 Hq11]
  · isplitl [Hq10] <;> iassumption
  ihave Hh1 := (Entails.of_eq (half_lit_1 (F := F) d (cV L) (jV L) _).symm) $$ Hh1
  have hc3 : k0_cond3 k = 1#1 := (by decide +kernel : ∀ k : Fin k0_t1_loop.trips, 1 ≤ k.val → k0_cond3 k = 1#1) k hk1
  have hoff7 : _ = (![800 * (wL L).val + (16 * k.val - 2), 0, 0] : Fin 3 → ℕ) := ((by decide +kernel : ∀ (i : grid0.Coords) (k : Fin k0_t1_loop.trips), 1 ≤ k.val → k0_off7 i k = ![1600 * (i 1).val + 800 * (i 0).val + 16 * k.val - 2, 0, 0]) L k hk1).trans (congrArg (fun n => (![n, 0, 0] : Fin 3 → ℕ)) (by show _ = 800 * ((L 1).val * 2 + (L 0).val) + (16 * k.val - 2); omega))
  ihave Hp := (rest_take (F := F) d (cV L) (jV L) (wL L) (k0_off7_inb L k hc3) (lo := 16 * k.val - 2) hoff7 (by omega) (fo d)) $$ Hrest
  icases Hp with ⟨HpB, Hrest⟩
  ihave Hrest := (Entails.of_eq (show (oLoc d ↦[rowsIn (wL L) (16 * k.val - 2 + 2) 800]{fullShare} fo d : sProp 𝕄) = (oLoc d ↦[rowsIn (wL L) (16 * k.val) 800]{fullShare} fo d) from by rw [show 16 * k.val - 2 + 2 = 16 * k.val from by omega])) $$ Hrest
  sl_exec (disch := (clear * - k hk49; decide +kernel +revert))
  sl_unfold_run_names
  ihave Hs10 := (out_clean1 (F := F) fi ft d L _ _ _ (fo d) b10 b11 (k0_off7_inb L k hc3) (16 * k.val - 2) (by omega) hoff7 (QuarterIs_cast (F := F) fi ft (by omega) hb10) (QuarterIs_cast (F := F) fi ft (by omega) hb11)) $$ Hs10
  unfold OutD1
  -- reduction of the list 3 of slot 0: each step stores back what it loaded
  have hfl3 : ListOK (F := F) 0 3 d (cV L) (jV L) f1 := listOK_of_slot (F := F) 0 d (cV L) (jV L) f1 hf1 3
  first
    | sl_for (inv_t5 (F := F) d L f1) $$ [Hl3]
    | (sl_rw [Idealize.SL.Sem.Prog.bind_assoc]; sl_for (inv_t5 (F := F) d L f1) $$ [Hl3])
  · intro k2 acc
    exact step_t5 (F := F) d L v5 v6 k (0#32) (0#1) f1 hfl3 k2 acc
  · iapply (Entails.of_eq (show ((((ibV).slice (Rect.unit (s := S2x1024) ![0, 384] S1x128.size inb_S2x1024_S1x128_0_384) (fun _ => rfl)).squeeze S128 squeezes_S1x128_S128).view.loc (V d (cV L) (jV L)) ↦[(((ibV).slice (Rect.unit (s := S2x1024) ![0, 384] S1x128.size inb_S2x1024_S1x128_0_384) (fun _ => rfl)).squeeze S128 squeezes_S1x128_S128).view.set]{fullShare} f1 : sProp 𝕄) = inv_t5 (F := F) d L f1 0 PUnit.unit from rfl)) $$ Hl3
  iintro %acc5 Hl3
  ihave Hl3 := (Entails.of_eq (show inv_t5 (F := F) d L f1 (Scf.trips k0_t5_loop.lb k0_t5_loop.ub k0_t5_loop.st) acc5 = ((((ibV).slice (Rect.unit (s := S2x1024) ![0, 384] S1x128.size inb_S2x1024_S1x128_0_384) (fun _ => rfl)).squeeze S128 squeezes_S1x128_S128).view.loc (V d (cV L) (jV L)) ↦[(((ibV).slice (Rect.unit (s := S2x1024) ![0, 384] S1x128.size inb_S2x1024_S1x128_0_384) (fun _ => rfl)).squeeze S128 squeezes_S1x128_S128).view.set]{fullShare} f1 : sProp 𝕄) from rfl)) $$ Hl3
  have hin2 : ∀ x, (((((ibV).slice (Rect.unit (s := S2x1024) ![0, 256] S1x128.size inb_S2x1024_S1x128_0_256) (fun _ => rfl)).squeeze S128 squeezes_S1x128_S128).view.read (Elt F) f1 x : BitVec 32)).toNat < S3x128.size (gathers_S3x128_S128x128).axis :=
    gather_hin gathers_S3x128_S128x128 _ hfl2
  -- the second slot is free again: its first six lists and the two the gathers handed back are the slot the next block is copied into
  ihave Hn6 := (Entails.of_eq (list_lit_1_6 (F := F) d (cV L) (jV L) f2)) $$ Hn6
  ihave Hn7 := (Entails.of_eq (list_lit_1_7 (F := F) d (cV L) (jV L) f2)) $$ Hn7
  ihave Hsl1 := (slot1_back (F := F) d (cV L) (jV L) f2) $$ [Hm05 Hn6 Hn7]
  · isplitl [Hm05]; · iexact Hm05
    isplitl [Hn6] <;> iassumption
  ihave Hsl1 := (Entails.of_eq (slot_lit_1 (F := F) d (cV L) (jV L) f2).symm) $$ Hsl1
  sl_exec (disch := (clear * - k hk49; decide +kernel +revert))
  have hg1 : 2 * k.val + 1 < 100 := by omega
  have hoffI1 : _ = (![102400 * (wL L).val + 1024 * (2 * k.val + 1)] : Fin 1 → ℕ) := (k0_off9_eq L k).trans (congrArg (fun n => (![n] : Fin 1 → ℕ)) (by show _ = 102400 * ((L 1).val * 2 + (L 0).val) + 1024 * (2 * k.val + 1); omega))
  sl_unfold_run_names
  ihave Hs4 := (idx_clean1 (F := F) fi hr d L _ _ _ _ _ (2 * k.val + 1) hg1 hoffI1) $$ Hs4
  unfold IdxD1 idxBlk
  ihave Hi' := (Entails.of_eq (idx_rest (F := F) fi d L _ (2 * k.val + 1) hg1 hoffI1)) $$ Hi'
  -- the copy-out of half 1 has delivered its pair at the lookup: the done interval grows by two blocks; the half is two quarters again
  icases Hs10_dst with ⟨%gB2, HpB2, %hgB2⟩
  ihave Hdone := (done_add (F := F) d (cV L) (jV L) (wL L) (pairIn L (16 * k.val - 2) (by omega)) (lo := 16 * k.val - 2) rfl gB2 (oDone fi ft d) hgB2) $$ [Hdone HpB2]
  · isplitl [Hdone]; · iexact Hdone
    iexact HpB2
  ihave Hdone := (Entails.of_eq (show (oLoc d ↦[rowsIn (wL L) 0 (16 * k.val - 2 + 2)]{fullShare} oDone fi ft d : sProp 𝕄) = (oLoc d ↦[rowsIn (wL L) 0 (16 * k.val)]{fullShare} oDone fi ft d) from by rw [show 16 * k.val - 2 + 2 = 16 * k.val from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  sl_exec (disch := (clear * - k hk49; decide +kernel +revert))
  -- reduction of the list 4 of slot 0: each step stores back what it loaded
  have hfl4 : ListOK (F := F) 0 4 d (cV L) (jV L) f1 := listOK_of_slot (F := F) 0 d (cV L) (jV L) f1 hf1 4
  first
    | sl_for (inv_t6 (F := F) d L f1) $$ [Hl4]
    | (sl_rw [Idealize.SL.Sem.Prog.bind_assoc]; sl_for (inv_t6 (F := F) d L f1) $$ [Hl4])
  · intro k2 acc
    exact step_t6 (F := F) d L v5 v6 k (0#32) (0#1) f1 hfl4 k2 acc
  · iapply (Entails.of_eq (show ((((ibV).slice (Rect.unit (s := S2x1024) ![0, 512] S1x128.size inb_S2x1024_S1x128_0_512) (fun _ => rfl)).squeeze S128 squeezes_S1x128_S128).view.loc (V d (cV L) (jV L)) ↦[(((ibV).slice (Rect.unit (s := S2x1024) ![0, 512] S1x128.size inb_S2x1024_S1x128_0_512) (fun _ => rfl)).squeeze S128 squeezes_S1x128_S128).view.set]{fullShare} f1 : sProp 𝕄) = inv_t6 (F := F) d L f1 0 PUnit.unit from rfl)) $$ Hl4
  iintro %acc6 Hl4
  ihave Hl4 := (Entails.of_eq (show inv_t6 (F := F) d L f1 (Scf.trips k0_t6_loop.lb k0_t6_loop.ub k0_t6_loop.st) acc6 = ((((ibV).slice (Rect.unit (s := S2x1024) ![0, 512] S1x128.size inb_S2x1024_S1x128_0_512) (fun _ => rfl)).squeeze S128 squeezes_S1x128_S128).view.loc (V d (cV L) (jV L)) ↦[(((ibV).slice (Rect.unit (s := S2x1024) ![0, 512] S1x128.size inb_S2x1024_S1x128_0_512) (fun _ => rfl)).squeeze S128 squeezes_S1x128_S128).view.set]{fullShare} f1 : sProp 𝕄) from rfl)) $$ Hl4
  have hin3 : ∀ x, (((((ibV).slice (Rect.unit (s := S2x1024) ![0, 384] S1x128.size inb_S2x1024_S1x128_0_384) (fun _ => rfl)).squeeze S128 squeezes_S1x128_S128).view.read (Elt F) f1 x : BitVec 32)).toNat < S3x128.size (gathers_S3x128_S128x128).axis :=
    gather_hin gathers_S3x128_S128x128 _ hfl3
  sl_exec (disch := (clear * - k hk49; decide +kernel +revert))
  -- the two gathered quarters of half 0 read blocks 16 * k.val, 16 * k.val + 1 of the lookup; joined, they are copied out to that pair of the worker's blocks
  ihave Hg := (pts_name (F := F) _ _ _) $$ Hq00
  icases Hg with ⟨%aP00, Hq00, %eaP00⟩
  have hqaP00 : QuarterIs fi ft d L 0 0 (8 * (2 * k.val) + 0) aP00 := by
    rw [eaP00]; exact gather_fact (F := F) fi ft hr d L 0 0 0 0 (2 * k.val) hg0 f1 hs1 _ _ _
  ihave Hg := (pts_name (F := F) _ _ _) $$ Hq01
  icases Hg with ⟨%aP01, Hq01, %eaP01⟩
  have hqaP01 : QuarterIs fi ft d L 0 1 (8 * (2 * k.val) + 1) aP01 := by
    rw [eaP01]; exact gather_fact (F := F) fi ft hr d L 0 1 0 1 (2 * k.val) hg0 f1 hs1 _ _ _
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 aP00 aP01) $$ [Hq00 Hq01]
  · isplitl [Hq00] <;> iassumption
  ihave Hh0 := (Entails.of_eq (half_lit_0 (F := F) d (cV L) (jV L) _).symm) $$ Hh0
  have hoffP0 : _ = (![800 * (wL L).val + (16 * k.val), 0, 0] : Fin 3 → ℕ) := (k0_off12_eq L k 0 0).trans (congrArg (fun n => (![n, 0, 0] : Fin 3 → ℕ)) (by show _ = 800 * ((L 1).val * 2 + (L 0).val) + (16 * k.val); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 0 0) (lo := 16 * k.val) hoffP0 (by omega) (fo d)) $$ Hrest
  icases Hp with ⟨HpP0, Hrest⟩
  ihave Hrest := (Entails.of_eq (show (oLoc d ↦[rowsIn (wL L) (16 * k.val + 2) 800]{fullShare} fo d : sProp 𝕄) = (oLoc d ↦[rowsIn (wL L) (16 * k.val + 2) 800]{fullShare} fo d) from by rw [show 16 * k.val + 2 = 16 * k.val + 2 from by omega])) $$ Hrest
  sl_exec (disch := (clear * - k hk49; decide +kernel +revert))
  sl_unfold_run_names
  ihave HO0 := (out_clean0 (F := F) fi ft d L _ _ _ (fo d) aP00 aP01 (k0_off12_inb L k 0 0) (16 * k.val) (by omega) hoffP0 (QuarterIs_cast (F := F) fi ft (by omega) hqaP00) (QuarterIs_cast (F := F) fi ft (by omega) hqaP01)) $$ HO0
  unfold OutD0
  -- reduction of the list 5 of slot 0: each step stores back what it loaded
  have hfl5 : ListOK (F := F) 0 5 d (cV L) (jV L) f1 := listOK_of_slot (F := F) 0 d (cV L) (jV L) f1 hf1 5
  first
    | sl_for (inv_t7 (F := F) d L f1) $$ [Hl5]
    | (sl_rw [Idealize.SL.Sem.Prog.bind_assoc]; sl_for (inv_t7 (F := F) d L f1) $$ [Hl5])
  · intro k2 acc
    exact step_t7 (F := F) d L v6 f1 hfl5 k2 acc
  · iapply (Entails.of_eq (show ((((ibV).slice (Rect.unit (s := S2x1024) ![0, 640] S1x128.size inb_S2x1024_S1x128_0_640) (fun _ => rfl)).squeeze S128 squeezes_S1x128_S128).view.loc (V d (cV L) (jV L)) ↦[(((ibV).slice (Rect.unit (s := S2x1024) ![0, 640] S1x128.size inb_S2x1024_S1x128_0_640) (fun _ => rfl)).squeeze S128 squeezes_S1x128_S128).view.set]{fullShare} f1 : sProp 𝕄) = inv_t7 (F := F) d L f1 0 PUnit.unit from rfl)) $$ Hl5
  iintro %acc7 Hl5
  ihave Hl5 := (Entails.of_eq (show inv_t7 (F := F) d L f1 (Scf.trips k0_t7_loop.lb k0_t7_loop.ub k0_t7_loop.st) acc7 = ((((ibV).slice (Rect.unit (s := S2x1024) ![0, 640] S1x128.size inb_S2x1024_S1x128_0_640) (fun _ => rfl)).squeeze S128 squeezes_S1x128_S128).view.loc (V d (cV L) (jV L)) ↦[(((ibV).slice (Rect.unit (s := S2x1024) ![0, 640] S1x128.size inb_S2x1024_S1x128_0_640) (fun _ => rfl)).squeeze S128 squeezes_S1x128_S128).view.set]{fullShare} f1 : sProp 𝕄) from rfl)) $$ Hl5
  have hin4 : ∀ x, (((((ibV).slice (Rect.unit (s := S2x1024) ![0, 512] S1x128.size inb_S2x1024_S1x128_0_512) (fun _ => rfl)).squeeze S128 squeezes_S1x128_S128).view.read (Elt F) f1 x : BitVec 32)).toNat < S3x128.size (gathers_S3x128_S128x128).axis :=
    gather_hin gathers_S3x128_S128x128 _ hfl4
  sl_exec (disch := (clear * - k hk49; decide +kernel +revert))
  -- the copy-out of half 0 has delivered its pair at the lookup: the done interval grows by two blocks; the half is two quarters again
  icases HO0_dst with ⟨%gM0, HpM0, %hgM0⟩
  ihave Hdone := (done_add (F := F) d (cV L) (jV L) (wL L) (pairIn L (16 * k.val) (by omega)) (lo := 16 * k.val) rfl gM0 (oDone fi ft d) hgM0) $$ [Hdone HpM0]
  · isplitl [Hdone]; · iexact Hdone
    iexact HpM0
  ihave Hdone := (Entails.of_eq (show (oLoc d ↦[rowsIn (wL L) 0 (16 * k.val + 2)]{fullShare} oDone fi ft d : sProp 𝕄) = (oLoc d ↦[rowsIn (wL L) 0 (16 * k.val + 2)]{fullShare} oDone fi ft d) from by rw [show 16 * k.val + 2 = 16 * k.val + 2 from by omega])) $$ Hdone
  ihave Hh0 := (Entails.of_eq (half_lit_0 (F := F) d (cV L) (jV L) _)) $$ HO0_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  sl_exec (disch := (clear * - k hk49; decide +kernel +revert))
  -- reduction of the list 6 of slot 0: each step stores back what it loaded
  have hfl6 : ListOK (F := F) 0 6 d (cV L) (jV L) f1 := listOK_of_slot (F := F) 0 d (cV L) (jV L) f1 hf1 6
  first
    | sl_for (inv_t8 (F := F) d L f1) $$ [Hl6]
    | (sl_rw [Idealize.SL.Sem.Prog.bind_assoc]; sl_for (inv_t8 (F := F) d L f1) $$ [Hl6])
  · intro k2 acc
    exact step_t8 (F := F) d L v6 f1 hfl6 k2 acc
  · iapply (Entails.of_eq (show ((((ibV).slice (Rect.unit (s := S2x1024) ![0, 768] S1x128.size inb_S2x1024_S1x128_0_768) (fun _ => rfl)).squeeze S128 squeezes_S1x128_S128).view.loc (V d (cV L) (jV L)) ↦[(((ibV).slice (Rect.unit (s := S2x1024) ![0, 768] S1x128.size inb_S2x1024_S1x128_0_768) (fun _ => rfl)).squeeze S128 squeezes_S1x128_S128).view.set]{fullShare} f1 : sProp 𝕄) = inv_t8 (F := F) d L f1 0 PUnit.unit from rfl)) $$ Hl6
  iintro %acc8 Hl6
  ihave Hl6 := (Entails.of_eq (show inv_t8 (F := F) d L f1 (Scf.trips k0_t8_loop.lb k0_t8_loop.ub k0_t8_loop.st) acc8 = ((((ibV).slice (Rect.unit (s := S2x1024) ![0, 768] S1x128.size inb_S2x1024_S1x128_0_768) (fun _ => rfl)).squeeze S128 squeezes_S1x128_S128).view.loc (V d (cV L) (jV L)) ↦[(((ibV).slice (Rect.unit (s := S2x1024) ![0, 768] S1x128.size inb_S2x1024_S1x128_0_768) (fun _ => rfl)).squeeze S128 squeezes_S1x128_S128).view.set]{fullShare} f1 : sProp 𝕄) from rfl)) $$ Hl6
  have hin5 : ∀ x, (((((ibV).slice (Rect.unit (s := S2x1024) ![0, 640] S1x128.size inb_S2x1024_S1x128_0_640) (fun _ => rfl)).squeeze S128 squeezes_S1x128_S128).view.read (Elt F) f1 x : BitVec 32)).toNat < S3x128.size (gathers_S3x128_S128x128).axis :=
    gather_hin gathers_S3x128_S128x128 _ hfl5
  sl_exec (disch := (clear * - k hk49; decide +kernel +revert))
  -- the two gathered quarters of half 1 read blocks 16 * k.val + 2, 16 * k.val + 2 + 1 of the lookup; joined, they are copied out to that pair of the worker's blocks
  ihave Hg := (pts_name (F := F) _ _ _) $$ Hq10
  icases Hg with ⟨%aP10, Hq10, %eaP10⟩
  have hqaP10 : QuarterIs fi ft d L 1 0 (8 * (2 * k.val) + 2) aP10 := by
    rw [eaP10]; exact gather_fact (F := F) fi ft hr d L 0 2 1 0 (2 * k.val) hg0 f1 hs1 _ _ _
  ihave Hg := (pts_name (F := F) _ _ _) $$ Hq11
  icases Hg with ⟨%aP11, Hq11, %eaP11⟩
  have hqaP11 : QuarterIs fi ft d L 1 1 (8 * (2 * k.val) + 3) aP11 := by
    rw [eaP11]; exact gather_fact (F := F) fi ft hr d L 0 3 1 1 (2 * k.val) hg0 f1 hs1 _ _ _
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 aP10 aP11) $$ [Hq10 Hq11]
  · isplitl [Hq10] <;> iassumption
  ihave Hh1 := (Entails.of_eq (half_lit_1 (F := F) d (cV L) (jV L) _).symm) $$ Hh1
  have hoffP1 : _ = (![800 * (wL L).val + (16 * k.val + 2), 0, 0] : Fin 3 → ℕ) := (k0_off12_eq L k 0 1).trans (congrArg (fun n => (![n, 0, 0] : Fin 3 → ℕ)) (by show _ = 800 * ((L 1).val * 2 + (L 0).val) + (16 * k.val + 2); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 0 1) (lo := 16 * k.val + 2) hoffP1 (by omega) (fo d)) $$ Hrest
  icases Hp with ⟨HpP1, Hrest⟩
  ihave Hrest := (Entails.of_eq (show (oLoc d ↦[rowsIn (wL L) (16 * k.val + 2 + 2) 800]{fullShare} fo d : sProp 𝕄) = (oLoc d ↦[rowsIn (wL L) (16 * k.val + 4) 800]{fullShare} fo d) from by rw [show 16 * k.val + 2 + 2 = 16 * k.val + 4 from by omega])) $$ Hrest
  sl_exec (disch := (clear * - k hk49; decide +kernel +revert))
  sl_unfold_run_names
  ihave Hs10 := (out_clean1 (F := F) fi ft d L _ _ _ (fo d) aP10 aP11 (k0_off12_inb L k 0 1) (16 * k.val + 2) (by omega) hoffP1 (QuarterIs_cast (F := F) fi ft (by omega) hqaP10) (QuarterIs_cast (F := F) fi ft (by omega) hqaP11)) $$ Hs10
  unfold OutD1
  -- reduction of the list 7 of slot 0: each step stores back what it loaded
  have hfl7 : ListOK (F := F) 0 7 d (cV L) (jV L) f1 := listOK_of_slot (F := F) 0 d (cV L) (jV L) f1 hf1 7
  first
    | sl_for (inv_t9 (F := F) d L f1) $$ [Hl7]
    | (sl_rw [Idealize.SL.Sem.Prog.bind_assoc]; sl_for (inv_t9 (F := F) d L f1) $$ [Hl7])
  · intro k2 acc
    exact step_t9 (F := F) d L v6 (0#32) f1 hfl7 k2 acc
  · iapply (Entails.of_eq (show ((((ibV).slice (Rect.unit (s := S2x1024) ![0, 896] S1x128.size inb_S2x1024_S1x128_0_896) (fun _ => rfl)).squeeze S128 squeezes_S1x128_S128).view.loc (V d (cV L) (jV L)) ↦[(((ibV).slice (Rect.unit (s := S2x1024) ![0, 896] S1x128.size inb_S2x1024_S1x128_0_896) (fun _ => rfl)).squeeze S128 squeezes_S1x128_S128).view.set]{fullShare} f1 : sProp 𝕄) = inv_t9 (F := F) d L f1 0 PUnit.unit from rfl)) $$ Hl7
  iintro %acc9 Hl7
  ihave Hl7 := (Entails.of_eq (show inv_t9 (F := F) d L f1 (Scf.trips k0_t9_loop.lb k0_t9_loop.ub k0_t9_loop.st) acc9 = ((((ibV).slice (Rect.unit (s := S2x1024) ![0, 896] S1x128.size inb_S2x1024_S1x128_0_896) (fun _ => rfl)).squeeze S128 squeezes_S1x128_S128).view.loc (V d (cV L) (jV L)) ↦[(((ibV).slice (Rect.unit (s := S2x1024) ![0, 896] S1x128.size inb_S2x1024_S1x128_0_896) (fun _ => rfl)).squeeze S128 squeezes_S1x128_S128).view.set]{fullShare} f1 : sProp 𝕄) from rfl)) $$ Hl7
  have hin6 : ∀ x, (((((ibV).slice (Rect.unit (s := S2x1024) ![0, 768] S1x128.size inb_S2x1024_S1x128_0_768) (fun _ => rfl)).squeeze S128 squeezes_S1x128_S128).view.read (Elt F) f1 x : BitVec 32)).toNat < S3x128.size (gathers_S3x128_S128x128).axis :=
    gather_hin gathers_S3x128_S128x128 _ hfl6
  have hin7 : ∀ x, (((((ibV).slice (Rect.unit (s := S2x1024) ![0, 896] S1x128.size inb_S2x1024_S1x128_0_896) (fun _ => rfl)).squeeze S128 squeezes_S1x128_S128).view.read (Elt F) f1 x : BitVec 32)).toNat < S3x128.size (gathers_S3x128_S128x128).axis :=
    gather_hin gathers_S3x128_S128x128 _ hfl7
  sl_exec (disch := (clear * - k hk49; decide +kernel +revert))
  -- the copy-out of half 1 has delivered its pair at the lookup: the done interval grows by two blocks; the half is two quarters again
  icases Hs10_dst with ⟨%gM1, HpM1, %hgM1⟩
  ihave Hdone := (done_add (F := F) d (cV L) (jV L) (wL L) (pairIn L (16 * k.val + 2) (by omega)) (lo := 16 * k.val + 2) rfl gM1 (oDone fi ft d) hgM1) $$ [Hdone HpM1]
  · isplitl [Hdone]; · iexact Hdone
    iexact HpM1
  ihave Hdone := (Entails.of_eq (show (oLoc d ↦[rowsIn (wL L) 0 (16 * k.val + 2 + 2)]{fullShare} oDone fi ft d : sProp 𝕄) = (oLoc d ↦[rowsIn (wL L) 0 (16 * k.val + 4)]{fullShare} oDone fi ft d) from by rw [show 16 * k.val + 2 + 2 = 16 * k.val + 4 from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  sl_exec (disch := (clear * - k hk49; decide +kernel +revert))
  -- the two gathered quarters of half 0 read blocks 16 * k.val + 4, 16 * k.val + 4 + 1 of the lookup; joined, they are copied out to that pair of the worker's blocks
  ihave Hg := (pts_name (F := F) _ _ _) $$ Hq00
  icases Hg with ⟨%aP20, Hq00, %eaP20⟩
  have hqaP20 : QuarterIs fi ft d L 0 0 (8 * (2 * k.val) + 4) aP20 := by
    rw [eaP20]; exact gather_fact (F := F) fi ft hr d L 0 4 0 0 (2 * k.val) hg0 f1 hs1 _ _ _
  ihave Hg := (pts_name (F := F) _ _ _) $$ Hq01
  icases Hg with ⟨%aP21, Hq01, %eaP21⟩
  have hqaP21 : QuarterIs fi ft d L 0 1 (8 * (2 * k.val) + 5) aP21 := by
    rw [eaP21]; exact gather_fact (F := F) fi ft hr d L 0 5 0 1 (2 * k.val) hg0 f1 hs1 _ _ _
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 aP20 aP21) $$ [Hq00 Hq01]
  · isplitl [Hq00] <;> iassumption
  ihave Hh0 := (Entails.of_eq (half_lit_0 (F := F) d (cV L) (jV L) _).symm) $$ Hh0
  have hoffP2 : _ = (![800 * (wL L).val + (16 * k.val + 4), 0, 0] : Fin 3 → ℕ) := (k0_off12_eq L k 0 2).trans (congrArg (fun n => (![n, 0, 0] : Fin 3 → ℕ)) (by show _ = 800 * ((L 1).val * 2 + (L 0).val) + (16 * k.val + 4); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 0 2) (lo := 16 * k.val + 4) hoffP2 (by omega) (fo d)) $$ Hrest
  icases Hp with ⟨HpP2, Hrest⟩
  ihave Hrest := (Entails.of_eq (show (oLoc d ↦[rowsIn (wL L) (16 * k.val + 4 + 2) 800]{fullShare} fo d : sProp 𝕄) = (oLoc d ↦[rowsIn (wL L) (16 * k.val + 6) 800]{fullShare} fo d) from by rw [show 16 * k.val + 4 + 2 = 16 * k.val + 6 from by omega])) $$ Hrest
  sl_exec (disch := (clear * - k hk49; decide +kernel +revert))
  sl_unfold_run_names
  ihave HO0 := (out_clean0 (F := F) fi ft d L _ _ _ (fo d) aP20 aP21 (k0_off12_inb L k 0 2) (16 * k.val + 4) (by omega) hoffP2 (QuarterIs_cast (F := F) fi ft (by omega) hqaP20) (QuarterIs_cast (F := F) fi ft (by omega) hqaP21)) $$ HO0
  unfold OutD0
  -- block 2k+1 of row numbers has landed in slot 1
  icases Hs4_dst with ⟨%f3, Hsl1, %hs3⟩
  have hf3 := slot_range (F := F) fi hr d L 1 _ f3 hs3
  ihave Hsl1 := (Entails.of_eq (slot_lit_1 (F := F) d (cV L) (jV L) f3)) $$ Hsl1
  ihave Hls := (Entails.of_eq (slot_lists8 (F := F) d (cV L) (jV L) 1 f3)) $$ Hsl1
  icases Hls with ⟨Hm0, Hm1, Hm2, Hm3, Hm4, Hm5, Hm6, Hm7⟩
  ihave Hm0 := (Entails.of_eq (list_lit_1_0 (F := F) d (cV L) (jV L) f3).symm) $$ Hm0
  ihave Hm1 := (Entails.of_eq (list_lit_1_1 (F := F) d (cV L) (jV L) f3).symm) $$ Hm1
  ihave Hm2 := (Entails.of_eq (list_lit_1_2 (F := F) d (cV L) (jV L) f3).symm) $$ Hm2
  ihave Hm3 := (Entails.of_eq (list_lit_1_3 (F := F) d (cV L) (jV L) f3).symm) $$ Hm3
  ihave Hm4 := (Entails.of_eq (list_lit_1_4 (F := F) d (cV L) (jV L) f3).symm) $$ Hm4
  ihave Hm5 := (Entails.of_eq (list_lit_1_5 (F := F) d (cV L) (jV L) f3).symm) $$ Hm5
  ihave Hm6 := (Entails.of_eq (list_lit_1_6 (F := F) d (cV L) (jV L) f3).symm) $$ Hm6
  ihave Hm7 := (Entails.of_eq (list_lit_1_7 (F := F) d (cV L) (jV L) f3).symm) $$ Hm7
  -- reduction of the list 0 of slot 1: each step stores back what it loaded
  have hfm0 : ListOK (F := F) 1 0 d (cV L) (jV L) f3 := listOK_of_slot (F := F) 1 d (cV L) (jV L) f3 hf3 0
  first
    | sl_for (inv_t10 (F := F) d L f3) $$ [Hm0]
    | (sl_rw [Idealize.SL.Sem.Prog.bind_assoc]; sl_for (inv_t10 (F := F) d L f3) $$ [Hm0])
  · intro k2 acc
    exact step_t10 (F := F) d L v6 k (0#32) (0#32) f3 hfm0 k2 acc
  · iapply (Entails.of_eq (show ((((ibV).slice (Rect.unit (s := S2x1024) ![1, 0] S1x128.size inb_S2x1024_S1x128_1_0) (fun _ => rfl)).squeeze S128 squeezes_S1x128_S128).view.loc (V d (cV L) (jV L)) ↦[(((ibV).slice (Rect.unit (s := S2x1024) ![1, 0] S1x128.size inb_S2x1024_S1x128_1_0) (fun _ => rfl)).squeeze S128 squeezes_S1x128_S128).view.set]{fullShare} f3 : sProp 𝕄) = inv_t10 (F := F) d L f3 0 PUnit.unit from rfl)) $$ Hm0
  iintro %acc10 Hm0
  ihave Hm0 := (Entails.of_eq (show inv_t10 (F := F) d L f3 (Scf.trips k0_t10_loop.lb k0_t10_loop.ub k0_t10_loop.st) acc10 = ((((ibV).slice (Rect.unit (s := S2x1024) ![1, 0] S1x128.size inb_S2x1024_S1x128_1_0) (fun _ => rfl)).squeeze S128 squeezes_S1x128_S128).view.loc (V d (cV L) (jV L)) ↦[(((ibV).slice (Rect.unit (s := S2x1024) ![1, 0] S1x128.size inb_S2x1024_S1x128_1_0) (fun _ => rfl)).squeeze S128 squeezes_S1x128_S128).view.set]{fullShare} f3 : sProp 𝕄) from rfl)) $$ Hm0
  sl_exec (disch := (clear * - k hk49; decide +kernel +revert))
  -- reduction of the list 1 of slot 1: each step stores back what it loaded
  have hfm1 : ListOK (F := F) 1 1 d (cV L) (jV L) f3 := listOK_of_slot (F := F) 1 d (cV L) (jV L) f3 hf3 1
  first
    | sl_for (inv_t11 (F := F) d L f3) $$ [Hm1]
    | (sl_rw [Idealize.SL.Sem.Prog.bind_assoc]; sl_for (inv_t11 (F := F) d L f3) $$ [Hm1])
  · intro k2 acc
    exact step_t11 (F := F) d L v6 k (0#32) (0#32) f3 hfm1 k2 acc
  · iapply (Entails.of_eq (show ((((ibV).slice (Rect.unit (s := S2x1024) ![1, 128] S1x128.size inb_S2x1024_S1x128_1_128) (fun _ => rfl)).squeeze S128 squeezes_S1x128_S128).view.loc (V d (cV L) (jV L)) ↦[(((ibV).slice (Rect.unit (s := S2x1024) ![1, 128] S1x128.size inb_S2x1024_S1x128_1_128) (fun _ => rfl)).squeeze S128 squeezes_S1x128_S128).view.set]{fullShare} f3 : sProp 𝕄) = inv_t11 (F := F) d L f3 0 PUnit.unit from rfl)) $$ Hm1
  iintro %acc11 Hm1
  ihave Hm1 := (Entails.of_eq (show inv_t11 (F := F) d L f3 (Scf.trips k0_t11_loop.lb k0_t11_loop.ub k0_t11_loop.st) acc11 = ((((ibV).slice (Rect.unit (s := S2x1024) ![1, 128] S1x128.size inb_S2x1024_S1x128_1_128) (fun _ => rfl)).squeeze S128 squeezes_S1x128_S128).view.loc (V d (cV L) (jV L)) ↦[(((ibV).slice (Rect.unit (s := S2x1024) ![1, 128] S1x128.size inb_S2x1024_S1x128_1_128) (fun _ => rfl)).squeeze S128 squeezes_S1x128_S128).view.set]{fullShare} f3 : sProp 𝕄) from rfl)) $$ Hm1
  have him0 : ∀ x, (((((ibV).slice (Rect.unit (s := S2x1024) ![1, 0] S1x128.size inb_S2x1024_S1x128_1_0) (fun _ => rfl)).squeeze S128 squeezes_S1x128_S128).view.read (Elt F) f3 x : BitVec 32)).toNat < S3x128.size (gathers_S3x128_S128x128).axis :=
    gather_hin gathers_S3x128_S128x128 _ hfm0
  sl_exec (disch := (clear * - k hk49; decide +kernel +revert))
  -- the copy-out of half 0 has delivered its pair at the lookup: the done interval grows by two blocks; the half is two quarters again
  icases HO0_dst with ⟨%gN0, HpN0, %hgN0⟩
  ihave Hdone := (done_add (F := F) d (cV L) (jV L) (wL L) (pairIn L (16 * k.val + 4) (by omega)) (lo := 16 * k.val + 4) rfl gN0 (oDone fi ft d) hgN0) $$ [Hdone HpN0]
  · isplitl [Hdone]; · iexact Hdone
    iexact HpN0
  ihave Hdone := (Entails.of_eq (show (oLoc d ↦[rowsIn (wL L) 0 (16 * k.val + 4 + 2)]{fullShare} oDone fi ft d : sProp 𝕄) = (oLoc d ↦[rowsIn (wL L) 0 (16 * k.val + 6)]{fullShare} oDone fi ft d) from by rw [show 16 * k.val + 4 + 2 = 16 * k.val + 6 from by omega])) $$ Hdone
  ihave Hh0 := (Entails.of_eq (half_lit_0 (F := F) d (cV L) (jV L) _)) $$ HO0_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  sl_exec (disch := (clear * - k hk49; decide +kernel +revert))
  -- reduction of the list 2 of slot 1: each step stores back what it loaded
  have hfm2 : ListOK (F := F) 1 2 d (cV L) (jV L) f3 := listOK_of_slot (F := F) 1 d (cV L) (jV L) f3 hf3 2
  first
    | sl_for (inv_t12 (F := F) d L f3) $$ [Hm2]
    | (sl_rw [Idealize.SL.Sem.Prog.bind_assoc]; sl_for (inv_t12 (F := F) d L f3) $$ [Hm2])
  · intro k2 acc
    exact step_t12 (F := F) d L v6 k (0#32) (0#32) f3 hfm2 k2 acc
  · iapply (Entails.of_eq (show ((((ibV).slice (Rect.unit (s := S2x1024) ![1, 256] S1x128.size inb_S2x1024_S1x128_1_256) (fun _ => rfl)).squeeze S128 squeezes_S1x128_S128).view.loc (V d (cV L) (jV L)) ↦[(((ibV).slice (Rect.unit (s := S2x1024) ![1, 256] S1x128.size inb_S2x1024_S1x128_1_256) (fun _ => rfl)).squeeze S128 squeezes_S1x128_S128).view.set]{fullShare} f3 : sProp 𝕄) = inv_t12 (F := F) d L f3 0 PUnit.unit from rfl)) $$ Hm2
  iintro %acc12 Hm2
  ihave Hm2 := (Entails.of_eq (show inv_t12 (F := F) d L f3 (Scf.trips k0_t12_loop.lb k0_t12_loop.ub k0_t12_loop.st) acc12 = ((((ibV).slice (Rect.unit (s := S2x1024) ![1, 256] S1x128.size inb_S2x1024_S1x128_1_256) (fun _ => rfl)).squeeze S128 squeezes_S1x128_S128).view.loc (V d (cV L) (jV L)) ↦[(((ibV).slice (Rect.unit (s := S2x1024) ![1, 256] S1x128.size inb_S2x1024_S1x128_1_256) (fun _ => rfl)).squeeze S128 squeezes_S1x128_S128).view.set]{fullShare} f3 : sProp 𝕄) from rfl)) $$ Hm2
  have him1 : ∀ x, (((((ibV).slice (Rect.unit (s := S2x1024) ![1, 128] S1x128.size inb_S2x1024_S1x128_1_128) (fun _ => rfl)).squeeze S128 squeezes_S1x128_S128).view.read (Elt F) f3 x : BitVec 32)).toNat < S3x128.size (gathers_S3x128_S128x128).axis :=
    gather_hin gathers_S3x128_S128x128 _ hfm1
  sl_exec (disch := (clear * - k hk49; decide +kernel +revert))
  have hc7 : k0_cond7 k = 1#1 := (by decide +kernel : ∀ k : Fin k0_t1_loop.trips, k0_cond7 k = 1#1) k
  -- the two gathered quarters of half 1 read blocks 16 * k.val + 6, 16 * k.val + 6 + 1 of the lookup; joined, they are copied out to that pair of the worker's blocks
  ihave Hg := (pts_name (F := F) _ _ _) $$ Hq10
  icases Hg with ⟨%aQ00, Hq10, %eaQ00⟩
  have hqaQ00 : QuarterIs fi ft d L 1 0 (8 * (2 * k.val) + 6) aQ00 := by
    rw [eaQ00]; exact gather_fact (F := F) fi ft hr d L 0 6 1 0 (2 * k.val) hg0 f1 hs1 _ _ _
  ihave Hg := (pts_name (F := F) _ _ _) $$ Hq11
  icases Hg with ⟨%aQ01, Hq11, %eaQ01⟩
  have hqaQ01 : QuarterIs fi ft d L 1 1 (8 * (2 * k.val) + 7) aQ01 := by
    rw [eaQ01]; exact gather_fact (F := F) fi ft hr d L 0 7 1 1 (2 * k.val) hg0 f1 hs1 _ _ _
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 aQ00 aQ01) $$ [Hq10 Hq11]
  · isplitl [Hq10] <;> iassumption
  ihave Hh1 := (Entails.of_eq (half_lit_1 (F := F) d (cV L) (jV L) _).symm) $$ Hh1
  have hoffQ0 : _ = (![800 * (wL L).val + (16 * k.val + 6), 0, 0] : Fin 3 → ℕ) := (k0_off21_eq L k).trans (congrArg (fun n => (![n, 0, 0] : Fin 3 → ℕ)) (by show _ = 800 * ((L 1).val * 2 + (L 0).val) + (16 * k.val + 6); omega))
  ihave Hp := (rest_take (F := F) d (cV L) (jV L) (wL L) (k0_off21_inb L k hc7) (lo := 16 * k.val + 6) hoffQ0 (by omega) (fo d)) $$ Hrest
  icases Hp with ⟨HpQ0, Hrest⟩
  ihave Hrest := (Entails.of_eq (show (oLoc d ↦[rowsIn (wL L) (16 * k.val + 6 + 2) 800]{fullShare} fo d : sProp 𝕄) = (oLoc d ↦[rowsIn (wL L) (16 * k.val + 8) 800]{fullShare} fo d) from by rw [show 16 * k.val + 6 + 2 = 16 * k.val + 8 from by omega])) $$ Hrest
  sl_exec (disch := (clear * - k hk49; decide +kernel +revert))
  sl_unfold_run_names
  ihave Hs10 := (out_clean1 (F := F) fi ft d L _ _ _ (fo d) aQ00 aQ01 (k0_off21_inb L k hc7) (16 * k.val + 6) (by omega) hoffQ0 (QuarterIs_cast (F := F) fi ft (by omega) hqaQ00) (QuarterIs_cast (F := F) fi ft (by omega) hqaQ01)) $$ Hs10
  unfold OutD1
  -- reduction of the list 3 of slot 1: each step stores back what it loaded
  have hfm3 : ListOK (F := F) 1 3 d (cV L) (jV L) f3 := listOK_of_slot (F := F) 1 d (cV L) (jV L) f3 hf3 3
  first
    | sl_for (inv_t13 (F := F) d L f3) $$ [Hm3]
    | (sl_rw [Idealize.SL.Sem.Prog.bind_assoc]; sl_for (inv_t13 (F := F) d L f3) $$ [Hm3])
  · intro k2 acc
    exact step_t13 (F := F) d L v5 v6 k (0#32) f3 hfm3 k2 acc
  · iapply (Entails.of_eq (show ((((ibV).slice (Rect.unit (s := S2x1024) ![1, 384] S1x128.size inb_S2x1024_S1x128_1_384) (fun _ => rfl)).squeeze S128 squeezes_S1x128_S128).view.loc (V d (cV L) (jV L)) ↦[(((ibV).slice (Rect.unit (s := S2x1024) ![1, 384] S1x128.size inb_S2x1024_S1x128_1_384) (fun _ => rfl)).squeeze S128 squeezes_S1x128_S128).view.set]{fullShare} f3 : sProp 𝕄) = inv_t13 (F := F) d L f3 0 PUnit.unit from rfl)) $$ Hm3
  iintro %acc13 Hm3
  ihave Hm3 := (Entails.of_eq (show inv_t13 (F := F) d L f3 (Scf.trips k0_t13_loop.lb k0_t13_loop.ub k0_t13_loop.st) acc13 = ((((ibV).slice (Rect.unit (s := S2x1024) ![1, 384] S1x128.size inb_S2x1024_S1x128_1_384) (fun _ => rfl)).squeeze S128 squeezes_S1x128_S128).view.loc (V d (cV L) (jV L)) ↦[(((ibV).slice (Rect.unit (s := S2x1024) ![1, 384] S1x128.size inb_S2x1024_S1x128_1_384) (fun _ => rfl)).squeeze S128 squeezes_S1x128_S128).view.set]{fullShare} f3 : sProp 𝕄) from rfl)) $$ Hm3
  have him2 : ∀ x, (((((ibV).slice (Rect.unit (s := S2x1024) ![1, 256] S1x128.size inb_S2x1024_S1x128_1_256) (fun _ => rfl)).squeeze S128 squeezes_S1x128_S128).view.read (Elt F) f3 x : BitVec 32)).toNat < S3x128.size (gathers_S3x128_S128x128).axis :=
    gather_hin gathers_S3x128_S128x128 _ hfm2
  sl_exec (disch := (clear * - k hk49; decide +kernel +revert))
  -- the copy-out of half 1 has delivered its pair at the lookup: the done interval grows by two blocks; the half is two quarters again
  icases Hs10_dst with ⟨%gN1, HpN1, %hgN1⟩
  ihave Hdone := (done_add (F := F) d (cV L) (jV L) (wL L) (pairIn L (16 * k.val + 6) (by omega)) (lo := 16 * k.val + 6) rfl gN1 (oDone fi ft d) hgN1) $$ [Hdone HpN1]
  · isplitl [Hdone]; · iexact Hdone
    iexact HpN1
  ihave Hdone := (Entails.of_eq (show (oLoc d ↦[rowsIn (wL L) 0 (16 * k.val + 6 + 2)]{fullShare} oDone fi ft d : sProp 𝕄) = (oLoc d ↦[rowsIn (wL L) 0 (16 * k.val + 8)]{fullShare} oDone fi ft d) from by rw [show 16 * k.val + 6 + 2 = 16 * k.val + 8 from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  sl_exec (disch := (clear * - k hk49; decide +kernel +revert))
  -- reduction of the list 4 of slot 1: each step stores back what it loaded
  have hfm4 : ListOK (F := F) 1 4 d (cV L) (jV L) f3 := listOK_of_slot (F := F) 1 d (cV L) (jV L) f3 hf3 4
  first
    | sl_for (inv_t14 (F := F) d L f3) $$ [Hm4]
    | (sl_rw [Idealize.SL.Sem.Prog.bind_assoc]; sl_for (inv_t14 (F := F) d L f3) $$ [Hm4])
  · intro k2 acc
    exact step_t14 (F := F) d L v5 v6 k (0#32) f3 hfm4 k2 acc
  · iapply (Entails.of_eq (show ((((ibV).slice (Rect.unit (s := S2x1024) ![1, 512] S1x128.size inb_S2x1024_S1x128_1_512) (fun _ => rfl)).squeeze S128 squeezes_S1x128_S128).view.loc (V d (cV L) (jV L)) ↦[(((ibV).slice (Rect.unit (s := S2x1024) ![1, 512] S1x128.size inb_S2x1024_S1x128_1_512) (fun _ => rfl)).squeeze S128 squeezes_S1x128_S128).view.set]{fullShare} f3 : sProp 𝕄) = inv_t14 (F := F) d L f3 0 PUnit.unit from rfl)) $$ Hm4
  iintro %acc14 Hm4
  ihave Hm4 := (Entails.of_eq (show inv_t14 (F := F) d L f3 (Scf.trips k0_t14_loop.lb k0_t14_loop.ub k0_t14_loop.st) acc14 = ((((ibV).slice (Rect.unit (s := S2x1024) ![1, 512] S1x128.size inb_S2x1024_S1x128_1_512) (fun _ => rfl)).squeeze S128 squeezes_S1x128_S128).view.loc (V d (cV L) (jV L)) ↦[(((ibV).slice (Rect.unit (s := S2x1024) ![1, 512] S1x128.size inb_S2x1024_S1x128_1_512) (fun _ => rfl)).squeeze S128 squeezes_S1x128_S128).view.set]{fullShare} f3 : sProp 𝕄) from rfl)) $$ Hm4
  have him3 : ∀ x, (((((ibV).slice (Rect.unit (s := S2x1024) ![1, 384] S1x128.size inb_S2x1024_S1x128_1_384) (fun _ => rfl)).squeeze S128 squeezes_S1x128_S128).view.read (Elt F) f3 x : BitVec 32)).toNat < S3x128.size (gathers_S3x128_S128x128).axis :=
    gather_hin gathers_S3x128_S128x128 _ hfm3
  sl_exec (disch := (clear * - k hk49; decide +kernel +revert))
  -- the two gathered quarters of half 0 read blocks 16 * k.val + 8, 16 * k.val + 8 + 1 of the lookup; joined, they are copied out to that pair of the worker's blocks
  ihave Hg := (pts_name (F := F) _ _ _) $$ Hq00
  icases Hg with ⟨%aQ10, Hq00, %eaQ10⟩
  have hqaQ10 : QuarterIs fi ft d L 0 0 (8 * (2 * k.val + 1) + 0) aQ10 := by
    rw [eaQ10]; exact gather_fact (F := F) fi ft hr d L 1 0 0 0 (2 * k.val + 1) hg1 f3 hs3 _ _ _
  ihave Hg := (pts_name (F := F) _ _ _) $$ Hq01
  icases Hg with ⟨%aQ11, Hq01, %eaQ11⟩
  have hqaQ11 : QuarterIs fi ft d L 0 1 (8 * (2 * k.val + 1) + 1) aQ11 := by
    rw [eaQ11]; exact gather_fact (F := F) fi ft hr d L 1 1 0 1 (2 * k.val + 1) hg1 f3 hs3 _ _ _
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 aQ10 aQ11) $$ [Hq00 Hq01]
  · isplitl [Hq00] <;> iassumption
  ihave Hh0 := (Entails.of_eq (half_lit_0 (F := F) d (cV L) (jV L) _).symm) $$ Hh0
  have hoffQ1 : _ = (![800 * (wL L).val + (16 * k.val + 8), 0, 0] : Fin 3 → ℕ) := (k0_off12_eq L k 1 0).trans (congrArg (fun n => (![n, 0, 0] : Fin 3 → ℕ)) (by show _ = 800 * ((L 1).val * 2 + (L 0).val) + (16 * k.val + 8); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 1 0) (lo := 16 * k.val + 8) hoffQ1 (by omega) (fo d)) $$ Hrest
  icases Hp with ⟨HpQ1, Hrest⟩
  ihave Hrest := (Entails.of_eq (show (oLoc d ↦[rowsIn (wL L) (16 * k.val + 8 + 2) 800]{fullShare} fo d : sProp 𝕄) = (oLoc d ↦[rowsIn (wL L) (16 * k.val + 10) 800]{fullShare} fo d) from by rw [show 16 * k.val + 8 + 2 = 16 * k.val + 10 from by omega])) $$ Hrest
  sl_exec (disch := (clear * - k hk49; decide +kernel +revert))
  sl_unfold_run_names
  ihave HO0 := (out_clean0 (F := F) fi ft d L _ _ _ (fo d) aQ10 aQ11 (k0_off12_inb L k 1 0) (16 * k.val + 8) (by omega) hoffQ1 (QuarterIs_cast (F := F) fi ft (by omega) hqaQ10) (QuarterIs_cast (F := F) fi ft (by omega) hqaQ11)) $$ HO0
  unfold OutD0
  -- reduction of the list 5 of slot 1: each step stores back what it loaded
  have hfm5 : ListOK (F := F) 1 5 d (cV L) (jV L) f3 := listOK_of_slot (F := F) 1 d (cV L) (jV L) f3 hf3 5
  first
    | sl_for (inv_t15 (F := F) d L f3) $$ [Hm5]
    | (sl_rw [Idealize.SL.Sem.Prog.bind_assoc]; sl_for (inv_t15 (F := F) d L f3) $$ [Hm5])
  · intro k2 acc
    exact step_t15 (F := F) d L v6 k (0#32) f3 hfm5 k2 acc
  · iapply (Entails.of_eq (show ((((ibV).slice (Rect.unit (s := S2x1024) ![1, 640] S1x128.size inb_S2x1024_S1x128_1_640) (fun _ => rfl)).squeeze S128 squeezes_S1x128_S128).view.loc (V d (cV L) (jV L)) ↦[(((ibV).slice (Rect.unit (s := S2x1024) ![1, 640] S1x128.size inb_S2x1024_S1x128_1_640) (fun _ => rfl)).squeeze S128 squeezes_S1x128_S128).view.set]{fullShare} f3 : sProp 𝕄) = inv_t15 (F := F) d L f3 0 PUnit.unit from rfl)) $$ Hm5
  iintro %acc15 Hm5
  ihave Hm5 := (Entails.of_eq (show inv_t15 (F := F) d L f3 (Scf.trips k0_t15_loop.lb k0_t15_loop.ub k0_t15_loop.st) acc15 = ((((ibV).slice (Rect.unit (s := S2x1024) ![1, 640] S1x128.size inb_S2x1024_S1x128_1_640) (fun _ => rfl)).squeeze S128 squeezes_S1x128_S128).view.loc (V d (cV L) (jV L)) ↦[(((ibV).slice (Rect.unit (s := S2x1024) ![1, 640] S1x128.size inb_S2x1024_S1x128_1_640) (fun _ => rfl)).squeeze S128 squeezes_S1x128_S128).view.set]{fullShare} f3 : sProp 𝕄) from rfl)) $$ Hm5
  have him4 : ∀ x, (((((ibV).slice (Rect.unit (s := S2x1024) ![1, 512] S1x128.size inb_S2x1024_S1x128_1_512) (fun _ => rfl)).squeeze S128 squeezes_S1x128_S128).view.read (Elt F) f3 x : BitVec 32)).toNat < S3x128.size (gathers_S3x128_S128x128).axis :=
    gather_hin gathers_S3x128_S128x128 _ hfm4
  sl_exec (disch := (clear * - k hk49; decide +kernel +revert))
  -- the copy-out of half 0 has delivered its pair at the lookup: the done interval grows by two blocks; the half is two quarters again
  icases HO0_dst with ⟨%gN2, HpN2, %hgN2⟩
  ihave Hdone := (done_add (F := F) d (cV L) (jV L) (wL L) (pairIn L (16 * k.val + 8) (by omega)) (lo := 16 * k.val + 8) rfl gN2 (oDone fi ft d) hgN2) $$ [Hdone HpN2]
  · isplitl [Hdone]; · iexact Hdone
    iexact HpN2
  ihave Hdone := (Entails.of_eq (show (oLoc d ↦[rowsIn (wL L) 0 (16 * k.val + 8 + 2)]{fullShare} oDone fi ft d : sProp 𝕄) = (oLoc d ↦[rowsIn (wL L) 0 (16 * k.val + 10)]{fullShare} oDone fi ft d) from by rw [show 16 * k.val + 8 + 2 = 16 * k.val + 10 from by omega])) $$ Hdone
  ihave Hh0 := (Entails.of_eq (half_lit_0 (F := F) d (cV L) (jV L) _)) $$ HO0_src
  ihave Hqs := (Entails.of_eq (half_quarters (F := F) d (cV L) (jV L) 0 _)) $$ Hh0
  icases Hqs with ⟨Hq00, Hq01⟩
  ihave Hq00 := (Entails.of_eq (quarter_lit_0_0 (F := F) d (cV L) (jV L) _).symm) $$ Hq00
  ihave Hq01 := (Entails.of_eq (quarter_lit_0_1 (F := F) d (cV L) (jV L) _).symm) $$ Hq01
  sl_exec (disch := (clear * - k hk49; decide +kernel +revert))
  -- reduction of the list 6 of slot 1: each step stores back what it loaded
  have hfm6 : ListOK (F := F) 1 6 d (cV L) (jV L) f3 := listOK_of_slot (F := F) 1 d (cV L) (jV L) f3 hf3 6
  first
    | sl_for (inv_t16 (F := F) d L f3) $$ [Hm6]
    | (sl_rw [Idealize.SL.Sem.Prog.bind_assoc]; sl_for (inv_t16 (F := F) d L f3) $$ [Hm6])
  · intro k2 acc
    exact step_t16 (F := F) d L  f3 hfm6 k2 acc
  · iapply (Entails.of_eq (show ((((ibV).slice (Rect.unit (s := S2x1024) ![1, 768] S1x128.size inb_S2x1024_S1x128_1_768) (fun _ => rfl)).squeeze S128 squeezes_S1x128_S128).view.loc (V d (cV L) (jV L)) ↦[(((ibV).slice (Rect.unit (s := S2x1024) ![1, 768] S1x128.size inb_S2x1024_S1x128_1_768) (fun _ => rfl)).squeeze S128 squeezes_S1x128_S128).view.set]{fullShare} f3 : sProp 𝕄) = inv_t16 (F := F) d L f3 0 PUnit.unit from rfl)) $$ Hm6
  iintro %acc16 Hm6
  ihave Hm6 := (Entails.of_eq (show inv_t16 (F := F) d L f3 (Scf.trips k0_t16_loop.lb k0_t16_loop.ub k0_t16_loop.st) acc16 = ((((ibV).slice (Rect.unit (s := S2x1024) ![1, 768] S1x128.size inb_S2x1024_S1x128_1_768) (fun _ => rfl)).squeeze S128 squeezes_S1x128_S128).view.loc (V d (cV L) (jV L)) ↦[(((ibV).slice (Rect.unit (s := S2x1024) ![1, 768] S1x128.size inb_S2x1024_S1x128_1_768) (fun _ => rfl)).squeeze S128 squeezes_S1x128_S128).view.set]{fullShare} f3 : sProp 𝕄) from rfl)) $$ Hm6
  have him5 : ∀ x, (((((ibV).slice (Rect.unit (s := S2x1024) ![1, 640] S1x128.size inb_S2x1024_S1x128_1_640) (fun _ => rfl)).squeeze S128 squeezes_S1x128_S128).view.read (Elt F) f3 x : BitVec 32)).toNat < S3x128.size (gathers_S3x128_S128x128).axis :=
    gather_hin gathers_S3x128_S128x128 _ hfm5
  sl_exec (disch := (clear * - k hk49; decide +kernel +revert))
  -- the two gathered quarters of half 1 read blocks 16 * k.val + 10, 16 * k.val + 10 + 1 of the lookup; joined, they are copied out to that pair of the worker's blocks
  ihave Hg := (pts_name (F := F) _ _ _) $$ Hq10
  icases Hg with ⟨%aQ20, Hq10, %eaQ20⟩
  have hqaQ20 : QuarterIs fi ft d L 1 0 (8 * (2 * k.val + 1) + 2) aQ20 := by
    rw [eaQ20]; exact gather_fact (F := F) fi ft hr d L 1 2 1 0 (2 * k.val + 1) hg1 f3 hs3 _ _ _
  ihave Hg := (pts_name (F := F) _ _ _) $$ Hq11
  icases Hg with ⟨%aQ21, Hq11, %eaQ21⟩
  have hqaQ21 : QuarterIs fi ft d L 1 1 (8 * (2 * k.val + 1) + 3) aQ21 := by
    rw [eaQ21]; exact gather_fact (F := F) fi ft hr d L 1 3 1 1 (2 * k.val + 1) hg1 f3 hs3 _ _ _
  ihave Hq10 := (Entails.of_eq (quarter_lit_1_0 (F := F) d (cV L) (jV L) _)) $$ Hq10
  ihave Hq11 := (Entails.of_eq (quarter_lit_1_1 (F := F) d (cV L) (jV L) _)) $$ Hq11
  ihave Hh1 := (quarters_join (F := F) d (cV L) (jV L) 1 aQ20 aQ21) $$ [Hq10 Hq11]
  · isplitl [Hq10] <;> iassumption
  ihave Hh1 := (Entails.of_eq (half_lit_1 (F := F) d (cV L) (jV L) _).symm) $$ Hh1
  have hoffQ2 : _ = (![800 * (wL L).val + (16 * k.val + 10), 0, 0] : Fin 3 → ℕ) := (k0_off12_eq L k 1 1).trans (congrArg (fun n => (![n, 0, 0] : Fin 3 → ℕ)) (by show _ = 800 * ((L 1).val * 2 + (L 0).val) + (16 * k.val + 10); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 1 1) (lo := 16 * k.val + 10) hoffQ2 (by omega) (fo d)) $$ Hrest
  icases Hp with ⟨HpQ2, Hrest⟩
  ihave Hrest := (Entails.of_eq (show (oLoc d ↦[rowsIn (wL L) (16 * k.val + 10 + 2) 800]{fullShare} fo d : sProp 𝕄) = (oLoc d ↦[rowsIn (wL L) (16 * (k.val + 1) - 4) 800]{fullShare} fo d) from by rw [show 16 * k.val + 10 + 2 = 16 * (k.val + 1) - 4 from by omega])) $$ Hrest
  sl_exec (disch := (clear * - k hk49; decide +kernel +revert))
  sl_unfold_run_names
  ihave Hs10 := (out_clean1 (F := F) fi ft d L _ _ _ (fo d) aQ20 aQ21 (k0_off12_inb L k 1 1) (16 * k.val + 10) (by omega) hoffQ2 (QuarterIs_cast (F := F) fi ft (by omega) hqaQ20) (QuarterIs_cast (F := F) fi ft (by omega) hqaQ21)) $$ Hs10
  unfold OutD1
  -- reduction of the list 7 of slot 1: each step stores back what it loaded
  have hfm7 : ListOK (F := F) 1 7 d (cV L) (jV L) f3 := listOK_of_slot (F := F) 1 d (cV L) (jV L) f3 hf3 7
  first
    | sl_for (inv_t17 (F := F) d L f3) $$ [Hm7]
    | (sl_rw [Idealize.SL.Sem.Prog.bind_assoc]; sl_for (inv_t17 (F := F) d L f3) $$ [Hm7])
  · intro k2 acc
    exact step_t17 (F := F) d L v6 k (0#32) f3 hfm7 k2 acc
  · iapply (Entails.of_eq (show ((((ibV).slice (Rect.unit (s := S2x1024) ![1, 896] S1x128.size inb_S2x1024_S1x128_1_896) (fun _ => rfl)).squeeze S128 squeezes_S1x128_S128).view.loc (V d (cV L) (jV L)) ↦[(((ibV).slice (Rect.unit (s := S2x1024) ![1, 896] S1x128.size inb_S2x1024_S1x128_1_896) (fun _ => rfl)).squeeze S128 squeezes_S1x128_S128).view.set]{fullShare} f3 : sProp 𝕄) = inv_t17 (F := F) d L f3 0 PUnit.unit from rfl)) $$ Hm7
  iintro %acc17 Hm7
  ihave Hm7 := (Entails.of_eq (show inv_t17 (F := F) d L f3 (Scf.trips k0_t17_loop.lb k0_t17_loop.ub k0_t17_loop.st) acc17 = ((((ibV).slice (Rect.unit (s := S2x1024) ![1, 896] S1x128.size inb_S2x1024_S1x128_1_896) (fun _ => rfl)).squeeze S128 squeezes_S1x128_S128).view.loc (V d (cV L) (jV L)) ↦[(((ibV).slice (Rect.unit (s := S2x1024) ![1, 896] S1x128.size inb_S2x1024_S1x128_1_896) (fun _ => rfl)).squeeze S128 squeezes_S1x128_S128).view.set]{fullShare} f3 : sProp 𝕄) from rfl)) $$ Hm7
  have him6 : ∀ x, (((((ibV).slice (Rect.unit (s := S2x1024) ![1, 768] S1x128.size inb_S2x1024_S1x128_1_768) (fun _ => rfl)).squeeze S128 squeezes_S1x128_S128).view.read (Elt F) f3 x : BitVec 32)).toNat < S3x128.size (gathers_S3x128_S128x128).axis :=
    gather_hin gathers_S3x128_S128x128 _ hfm6
  have him7 : ∀ x, (((((ibV).slice (Rect.unit (s := S2x1024) ![1, 896] S1x128.size inb_S2x1024_S1x128_1_896) (fun _ => rfl)).squeeze S128 squeezes_S1x128_S128).view.read (Elt F) f3 x : BitVec 32)).toNat < S3x128.size (gathers_S3x128_S128x128).axis :=
    gather_hin gathers_S3x128_S128x128 _ hfm7
  sl_exec (disch := (clear * - k hk49; decide +kernel +revert))
  -- the copy-out of half 1 has delivered its pair at the lookup: the done interval grows by two blocks; the half is two quarters again
  icases Hs10_dst with ⟨%gN3, HpN3, %hgN3⟩
  ihave Hdone := (done_add (F := F) d (cV L) (jV L) (wL L) (pairIn L (16 * k.val + 10) (by omega)) (lo := 16 * k.val + 10) rfl gN3 (oDone fi ft d) hgN3) $$ [Hdone HpN3]
  · isplitl [Hdone]; · iexact Hdone
    iexact HpN3
  ihave Hdone := (Entails.of_eq (show (oLoc d ↦[rowsIn (wL L) 0 (16 * k.val + 10 + 2)]{fullShare} oDone fi ft d : sProp 𝕄) = (oLoc d ↦[rowsIn (wL L) 0 (16 * k.val + 12)]{fullShare} oDone fi ft d) from by rw [show 16 * k.val + 10 + 2 = 16 * k.val + 12 from by omega])) $$ Hdone
  ihave Hh1 := (Entails.of_eq (half_lit_1 (F := F) d (cV L) (jV L) _)) $$ Hs10_src
  ihave Hqs := (Entails.of_eq (half_quarters (F := F) d (cV L) (jV L) 1 _)) $$ Hh1
  icases Hqs with ⟨Hq10, Hq11⟩
  ihave Hq10 := (Entails.of_eq (quarter_lit_1_0 (F := F) d (cV L) (jV L) _).symm) $$ Hq10
  ihave Hq11 := (Entails.of_eq (quarter_lit_1_1 (F := F) d (cV L) (jV L) _).symm) $$ Hq11
  sl_exec (disch := (clear * - k hk49; decide +kernel +revert))
  -- the two gathered quarters of half 0 read blocks 16 * (k.val + 1) - 4, 16 * (k.val + 1) - 4 + 1 of the lookup; joined, they are copied out to that pair of the worker's blocks
  ihave Hg := (pts_name (F := F) _ _ _) $$ Hq00
  icases Hg with ⟨%aQ30, Hq00, %eaQ30⟩
  have hqaQ30 : QuarterIs fi ft d L 0 0 (8 * (2 * k.val + 1) + 4) aQ30 := by
    rw [eaQ30]; exact gather_fact (F := F) fi ft hr d L 1 4 0 0 (2 * k.val + 1) hg1 f3 hs3 _ _ _
  ihave Hg := (pts_name (F := F) _ _ _) $$ Hq01
  icases Hg with ⟨%aQ31, Hq01, %eaQ31⟩
  have hqaQ31 : QuarterIs fi ft d L 0 1 (8 * (2 * k.val + 1) + 5) aQ31 := by
    rw [eaQ31]; exact gather_fact (F := F) fi ft hr d L 1 5 0 1 (2 * k.val + 1) hg1 f3 hs3 _ _ _
  ihave Hq00 := (Entails.of_eq (quarter_lit_0_0 (F := F) d (cV L) (jV L) _)) $$ Hq00
  ihave Hq01 := (Entails.of_eq (quarter_lit_0_1 (F := F) d (cV L) (jV L) _)) $$ Hq01
  ihave Hh0 := (quarters_join (F := F) d (cV L) (jV L) 0 aQ30 aQ31) $$ [Hq00 Hq01]
  · isplitl [Hq00] <;> iassumption
  ihave Hh0 := (Entails.of_eq (half_lit_0 (F := F) d (cV L) (jV L) _).symm) $$ Hh0
  have hoffQ3 : _ = (![800 * (wL L).val + (16 * (k.val + 1) - 4), 0, 0] : Fin 3 → ℕ) := (k0_off12_eq L k 1 2).trans (congrArg (fun n => (![n, 0, 0] : Fin 3 → ℕ)) (by show _ = 800 * ((L 1).val * 2 + (L 0).val) + (16 * (k.val + 1) - 4); have e20 : ((0 : Fin 2) : ℕ) = 0 := rfl; have e21 : ((1 : Fin 2) : ℕ) = 1 := rfl; have e30 : ((0 : Fin 3) : ℕ) = 0 := rfl; have e31 : ((1 : Fin 3) : ℕ) = 1 := rfl; have e32 : ((2 : Fin 3) : ℕ) = 2 := rfl; omega))
  ihave Hp := (rest_take (F := F) d (cV L) (jV L) (wL L) (k0_off12_inb L k 1 2) (lo := 16 * (k.val + 1) - 4) hoffQ3 (by omega) (fo d)) $$ Hrest
  icases Hp with ⟨HpQ3, Hrest⟩
  ihave Hrest := (Entails.of_eq (show (oLoc d ↦[rowsIn (wL L) (16 * (k.val + 1) - 4 + 2) 800]{fullShare} fo d : sProp 𝕄) = (oLoc d ↦[rowsIn (wL L) (16 * (k.val + 1) - 2) 800]{fullShare} fo d) from by rw [show 16 * (k.val + 1) - 4 + 2 = 16 * (k.val + 1) - 2 from by omega])) $$ Hrest
  sl_exec (disch := (clear * - k hk49; decide +kernel +revert))
  sl_unfold_run_names
  ihave HO0 := (out_clean0 (F := F) fi ft d L _ _ _ (fo d) aQ30 aQ31 (k0_off12_inb L k 1 2) (16 * (k.val + 1) - 4) (by omega) hoffQ3 (QuarterIs_cast (F := F) fi ft (by omega) hqaQ30) (QuarterIs_cast (F := F) fi ft (by omega) hqaQ31)) $$ HO0
  unfold OutD0
  -- the two gathers outstanding across the trip's end, held with what they will deliver
  ihave Hn := (flight_name (F := F) _) $$ HG10
  icases Hn with ⟨%D10, HG10, %eD10⟩
  have cD10 : D10 ⊢ GathD10 fi ft d L (16 * (k.val + 1) - 2) f3 := by
    rw [eD10]
    iintro ⟨⟨Hq, Hl⟩, Ht⟩
    ihave Hg := (pts_name (F := F) _ _ _) $$ Hq
    icases Hg with ⟨%a, Hq, %ea⟩
    isplitl [Hq Hl]
    · isplitl [Hq]
      · iexists a
        isplitl [Hq]; · iexact Hq
        ipureintro
        rw [ea]
        exact QuarterIs_cast (F := F) fi ft (by omega) (gather_fact (F := F) fi ft hr d L 1 6 1 0 (2 * k.val + 1) hg1 f3 hs3 _ _ _)
      · iexact Hl
    · iexact Ht
  ihave HG10 := (Transfers.Flight_mono countersEmb (V d (cV L) (jV L)) cD10) $$ HG10
  ihave Hn := (flight_name (F := F) _) $$ HG11
  icases Hn with ⟨%D11, HG11, %eD11⟩
  have cD11 : D11 ⊢ GathD11 fi ft d L (16 * (k.val + 1) - 1) f3 := by
    rw [eD11]
    iintro ⟨⟨Hq, Hl⟩, Ht⟩
    ihave Hg := (pts_name (F := F) _ _ _) $$ Hq
    icases Hg with ⟨%a, Hq, %ea⟩
    isplitl [Hq Hl]
    · isplitl [Hq]
      · iexists a
        isplitl [Hq]; · iexact Hq
        ipureintro
        rw [ea]
        exact QuarterIs_cast (F := F) fi ft (by omega) (gather_fact (F := F) fi ft hr d L 1 7 1 1 (2 * k.val + 1) hg1 f3 hs3 _ _ _)
      · iexact Hl
    · iexact Ht
  ihave HG11 := (Transfers.Flight_mono countersEmb (V d (cV L) (jV L)) cD11) $$ HG11
  -- the invariant at the next trip
  ihave Hdone := (Entails.of_eq (show (oLoc d ↦[rowsIn (wL L) 0 (16 * k.val + 12)]{fullShare} oDone fi ft d : sProp 𝕄) = (oLoc d ↦[rowsIn (wL L) 0 (16 * (k.val + 1) - 4)]{fullShare} oDone fi ft d) from by rw [show 16 * k.val + 12 = 16 * (k.val + 1) - 4 from by omega])) $$ Hdone
  sl_step
  rw [dif_neg (by omega : ¬ (k.val + 1 = 0)), dif_pos (by omega : k.val + 1 ≤ 50), dif_neg (by omega : ¬ (k.val + 1 < 50))]
  isplitr; · ipureintro; omega
  isplitl [HO Hs4 Hs5 Hs6 Hs10 Htok2 Htok3 Htoks9 Htrem]
  · isplitr; · iexact Hmw2
    isplitl [HO]
    · iexists _
      isplitr
      swap
      · iexact HO
      ipureintro
      repeat (first | exact hW0 | apply waitsOK_insert)
    isplitl [Hs4]; · iexact Hs4
    isplitl [Hs5]; · iexact Hs5
    isplitl [Hs6]; · iexact Hs6
    isplitl [Hs10]; · iexact Hs10
    isplitl [Htok2]; · iexact Htok2
    isplitl [Htok3]; · iexact Htok3
    isplitl [Htoks9]; · iexact Htoks9
    iexact Htrem
  isplitl [HF0 Hi' Hl0 Hl1 Hl2 Hl3 Hl4 Hl5 Hl6 Hl7]
  · isplitl [HF0]; · iexact HF0
    isplitl [Hi']; · iexact Hi'
    iexists f1
    ihave Hl0 := (Entails.of_eq (list_lit_0_0 (F := F) d (cV L) (jV L) f1)) $$ Hl0
    ihave Hl1 := (Entails.of_eq (list_lit_0_1 (F := F) d (cV L) (jV L) f1)) $$ Hl1
    ihave Hl2 := (Entails.of_eq (list_lit_0_2 (F := F) d (cV L) (jV L) f1)) $$ Hl2
    ihave Hl3 := (Entails.of_eq (list_lit_0_3 (F := F) d (cV L) (jV L) f1)) $$ Hl3
    ihave Hl4 := (Entails.of_eq (list_lit_0_4 (F := F) d (cV L) (jV L) f1)) $$ Hl4
    ihave Hl5 := (Entails.of_eq (list_lit_0_5 (F := F) d (cV L) (jV L) f1)) $$ Hl5
    ihave Hl6 := (Entails.of_eq (list_lit_0_6 (F := F) d (cV L) (jV L) f1)) $$ Hl6
    ihave Hl7 := (Entails.of_eq (list_lit_0_7 (F := F) d (cV L) (jV L) f1)) $$ Hl7
    ihave Hsl0 := (Entails.of_eq (slot_lists8 (F := F) d (cV L) (jV L) 0 f1).symm) $$ [Hl0 Hl1 Hl2 Hl3 Hl4 Hl5 Hl6 Hl7]
    · isplitl [Hl0]; · iexact Hl0
      isplitl [Hl1]; · iexact Hl1
      isplitl [Hl2]; · iexact Hl2
      isplitl [Hl3]; · iexact Hl3
      isplitl [Hl4]; · iexact Hl4
      isplitl [Hl5]; · iexact Hl5
      isplitl [Hl6]; · iexact Hl6
      iexact Hl7
    iapply (Entails.of_eq (slot_lists (F := F) d (cV L) (jV L) 0 f1)) $$ Hsl0
  iexists f3
  isplitr
  · ipureintro
    exact (show SlotIs fi d L 1 (2 * (k.val + 1) - 1) f3 from (show 2 * k.val + 1 = 2 * (k.val + 1) - 1 from by omega) ▸ hs3)
  isplitl [Hm0 Hm1 Hm2 Hm3 Hm4 Hm5]
  · iapply (Entails.of_eq (six_lists (F := F) d (cV L) (jV L) f3).symm)
    isplitl [Hm0]; · iapply (Entails.of_eq (list_lit_1_0 (F := F) d (cV L) (jV L) f3)) $$ Hm0
    isplitl [Hm1]; · iapply (Entails.of_eq (list_lit_1_1 (F := F) d (cV L) (jV L) f3)) $$ Hm1
    isplitl [Hm2]; · iapply (Entails.of_eq (list_lit_1_2 (F := F) d (cV L) (jV L) f3)) $$ Hm2
    isplitl [Hm3]; · iapply (Entails.of_eq (list_lit_1_3 (F := F) d (cV L) (jV L) f3)) $$ Hm3
    isplitl [Hm4]; · iapply (Entails.of_eq (list_lit_1_4 (F := F) d (cV L) (jV L) f3)) $$ Hm4
    iapply (Entails.of_eq (list_lit_1_5 (F := F) d (cV L) (jV L) f3)) $$ Hm5
  isplitl [HG10]; · iexact HG10
  isplitl [HG11]; · iexact HG11
  isplitl [Hr4]; · iexact Hr4
  isplitl [Hr5]; · iexact Hr5
  isplitl [HO0]; · iexists _; iexact HO0
  isplitl [Hdone]; · iexact Hdone
  iexact Hrest

/-- Every trip of the main loop from the second on takes the invariant at k to the invariant at k + 1. -/
theorem trip_steady (hr : InRange (F := F) fi) (d : Dev nD) (L : grid0.Coords) (O : CellTallies nD τ sig (HIx 1)) (W : Waits sig (HIx 1))
    (v5 v6 : BitVec 32) (k : Fin k0_t1_loop.trips) (hk1 : 1 ≤ k.val) (acc : Unit) :
    Inv (F := F) fi ft fo d L O W k.val acc
      ⊢ wp frame (wpE (defs₀ (F := F)) 𝒱₀ (V d (cV L) (jV L)) none) Set.univ
          (k0_t1_body (F := F) L iV (Memref.isWhole_whole _) tV (Memref.isWhole_whole _) oV (Memref.isWhole_whole _) shV (Memref.isWhole_whole _)
            ibV (Memref.isWhole_whole _) rwV (Memref.isWhole_whole _)
            cc0_scratch3 cc0_scratch4 cc0_scratch5 cc0_scratch6 cc0_scratch7 cc0_scratch8 cc0_scratch9 cc0_scratch10 cc0_scoped0 v5 v6 k acc)
          (Inv (F := F) fi ft fo d L O W (k.val + 1)) := by
  by_cases h : k.val < 49
  · exact trip_mid (F := F) fi ft fo hr d L O W v5 v6 k hk1 h acc
  · exact trip_last (F := F) fi ft fo hr d L O W v5 v6 k (by have h50 : k.val < 50 := k.isLt; omega) acc

end Cert.Proof.KB

end
-- ==== Proof.BFinish.lean ====
/-
  From what the end of the task holds to what the launch is owed. The task's last wait leaves the worker's read share
  of the list, its slice of the result at the lookup, its read share of the shared memory, its two scratch buffers
  whole and its eight transfer semaphores at zero; beside them the tile still holds what the task never touched — the
  semaphore of the table's copy at zero, the rest of its own semaphores at zero, the rest of its own buffers, and what
  tile 0 hands back of the table. Together they are the postcondition of the tile's task.
-/
import proofs.«205114_g12446815224155_cont_fleet_488_32_alg».proof.Proof.BEpilogue

set_option maxRecDepth 16384

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}
local notation "𝕄" => MT nD τ sig (HIx 1) (Elt F) ℕ UU ℕ
local notation "iV" => (Memref.whole Cert.Kernel.main_v0_scv : Memref Cert.Kernel.sig Kind.scVector Space.hbm Cert.Kernel.S3276800 EltTy.i32)
local notation "tV" => (Memref.whole Cert.Kernel.main_arg1_scv : Memref Cert.Kernel.sig Kind.scVector Space.hbm Cert.Kernel.S3x128 EltTy.f32)
local notation "oV" => (Memref.whole Cert.Kernel.main_v1_scv : Memref Cert.Kernel.sig Kind.scVector Space.hbm Cert.Kernel.S25600x128x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)

variable (fi : (d : Dev nD) → Buf (Elt F) (idxLoc d)) (ft : (d : Dev nD) → Buf (Elt F) (tabLoc d)) (fo : (d : Dev nD) → Buf (Elt F) (oLoc d))
variable [FloatOps F]

section Glue

variable (d : Dev nD) (L : grid0.Coords) (O : CellTallies nD τ sig (HIx 1)) (W : Waits sig (HIx 1))

/-- What the end of the task holds, with what the task never touched, is what the tile's task owes at its end. -/
theorem epi_glue (hF : (K (F := F)).Facts) :
    iprop(EpiPost fi ft d L O W ∗ tdExtra ft d (cV L) (jV L) ∗ semVal (dcell d (cV L) (jV L) cc0_scoped0) 0
        ∗ (bigSep ((((((((((ownCells (V d (cV L) (jV L))).erase (dcell d (cV L) (jV L) cc0_scratch3)).erase (dcell d (cV L) (jV L) cc0_scratch4)).erase (dcell d (cV L) (jV L) cc0_scratch5)).erase (dcell d (cV L) (jV L) cc0_scratch6)).erase (dcell d (cV L) (jV L) cc0_scratch7)).erase (dcell d (cV L) (jV L) cc0_scratch8)).erase (dcell d (cV L) (jV L) cc0_scratch9)).erase (dcell d (cV L) (jV L) cc0_scratch10)).erase (dcell d (cV L) (jV L) cc0_scoped0)) fun g => semVal g 0)
        ∗ (bigSep (((ownRefs (τ := τ) (.scVector (cV L) (jV L))).erase ((Proc.scVector (cV L) (jV L)).devRef cc0_scratch1)).erase ((Proc.scVector (cV L) (jV L)).devRef cc0_scratch2)) fun b => iprop(∃ f, ((d, b) : Loc nD τ sig) ↦{fullShare} f)))
      ⊢ (iprop((iPts fi d (wL L) ∗ oPts d (wL L) (oDone fi ft d) ∗ tdExtra ft d (cV L) (jV L) ∗ ∃ f, shTokPts d (cV L) (jV L) f)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') : sProp 𝕄) := by
  unfold EpiPost
  iintro ⟨⟨Hi, Ho, Hsh, Hb1, Hb2, Hs3, Hs4, Hs5, Hs6, Hs7, Hs8, Hs9, Hs10, HW⟩, Htd, Hs11, Hsr, Hbr⟩
  isplitl [Hi Ho Htd Hsh]
  · isplitl [Hi]; · iexact Hi
    isplitl [Ho]; · iexact Ho
    isplitl [Htd]; · iexact Htd
    iexact Hsh
  isplitl [Hb1 Hb2 Hbr]
  · iapply (bufs_back_scoped (F := F) hF d (cV L) (jV L))
    isplitl [Hb1]; · iexact Hb1
    isplitl [Hb2]; · iexact Hb2
    iexact Hbr
  isplitl [Hs3 Hs4 Hs5 Hs6 Hs7 Hs8 Hs9 Hs10 Hs11 Hsr]
  · iapply (sems_back_scoped (F := F) d (cV L) (jV L))
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    iexact Hsr
  icases HW with ⟨%W', %hW', HO⟩
  iexists W'
  isplitr [HO]
  · ipureintro; exact hW'
  · iexact HO

end Glue

end Cert.Proof.KB

end
-- ==== Proof.BTail.lean ====
/-
  The rest of the task after the main loop's last trip, with what the task never touched carried around it: from the
  loop's invariant after its last trip and those untouched resources, the rest of the task runs to its end and leaves
  what the tile's task owes.
-/
import proofs.«205114_g12446815224155_cont_fleet_488_32_alg».proof.Proof.BFinish

set_option maxRecDepth 16384

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}
local notation "𝕄" => MT nD τ sig (HIx 1) (Elt F) ℕ UU ℕ
local notation "iV" => (Memref.whole Cert.Kernel.main_v0_scv : Memref Cert.Kernel.sig Kind.scVector Space.hbm Cert.Kernel.S3276800 EltTy.i32)
local notation "tV" => (Memref.whole Cert.Kernel.main_arg1_scv : Memref Cert.Kernel.sig Kind.scVector Space.hbm Cert.Kernel.S3x128 EltTy.f32)
local notation "oV" => (Memref.whole Cert.Kernel.main_v1_scv : Memref Cert.Kernel.sig Kind.scVector Space.hbm Cert.Kernel.S25600x128x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)

variable (fi : (d : Dev nD) → Buf (Elt F) (idxLoc d)) (ft : (d : Dev nD) → Buf (Elt F) (tabLoc d)) (fo : (d : Dev nD) → Buf (Elt F) (oLoc d))
variable [FloatOps F]

section Tail

variable (d : Dev nD) (L : grid0.Coords) (O : CellTallies nD τ sig (HIx 1)) (W : Waits sig (HIx 1))

/-- THE TASK'S TAIL: what the end of the task needs beside the loop's invariant is only carried along — it is framed
    around the run of the task's last part, and joined with what that run leaves into what the tile's task owes. -/
theorem tail_ok (hF : (K (F := F)).Facts) (v6 : BitVec 32) :
    iprop(Inv fi ft fo d L O W 50 () ∗ tdExtra ft d (cV L) (jV L) ∗ semVal (dcell d (cV L) (jV L) cc0_scoped0) 0
        ∗ (bigSep ((((((((((ownCells (V d (cV L) (jV L))).erase (dcell d (cV L) (jV L) cc0_scratch3)).erase (dcell d (cV L) (jV L) cc0_scratch4)).erase (dcell d (cV L) (jV L) cc0_scratch5)).erase (dcell d (cV L) (jV L) cc0_scratch6)).erase (dcell d (cV L) (jV L) cc0_scratch7)).erase (dcell d (cV L) (jV L) cc0_scratch8)).erase (dcell d (cV L) (jV L) cc0_scratch9)).erase (dcell d (cV L) (jV L) cc0_scratch10)).erase (dcell d (cV L) (jV L) cc0_scoped0)) fun g => semVal g 0)
        ∗ (bigSep (((ownRefs (τ := τ) (.scVector (cV L) (jV L))).erase ((Proc.scVector (cV L) (jV L)).devRef cc0_scratch1)).erase ((Proc.scVector (cV L) (jV L)).devRef cc0_scratch2)) fun b => iprop(∃ f, ((d, b) : Loc nD τ sig) ↦{fullShare} f)))
      ⊢ wp frame (wpE (defs₀ (F := F)) 𝒱₀ (V d (cV L) (jV L)) none) Set.univ (tailProg (F := F) L v6)
          (fun _ => (iprop((iPts fi d (wL L) ∗ oPts d (wL L) (oDone fi ft d) ∗ tdExtra ft d (cV L) (jV L) ∗ ∃ f, shTokPts d (cV L) (jV L) f)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') : sProp 𝕄)) :=
  ((sep_mono_left (epilogue fi ft fo d L O W v6)).trans (wp_frame_r _ _ _)).trans
    (wp_mono _ _ _ fun _ => epi_glue fi ft d L O W hF)

end Tail

end Cert.Proof.KB

end
-- ==== Proof.BBody.lean ====
/-
  One tile's task, whole. Tile 0 of a SparseCore first copies the table into the shared memory; every tile then meets the
  others at the barrier, across which tile 0 hands each a read share of that copy. The first block of the tile's row
  numbers is sent for; the fifty trips of the main loop run by the invariant (Proof/KInv.lean): the first trip
  (Proof/KTripFirst.lean), every later one (Proof/KTripSteady.lean); the transfers still outstanding are drained and the
  buffers, shares and semaphores the launch handed over are put back (Proof/KEpilogue.lean, Proof/KTail.lean). The tile's
  slice of the result then holds the lookup.
-/
import proofs.«205114_g12446815224155_cont_fleet_488_32_alg».proof.Proof.BBarrier
import proofs.«205114_g12446815224155_cont_fleet_488_32_alg».proof.Proof.BTripFirst
import proofs.«205114_g12446815224155_cont_fleet_488_32_alg».proof.Proof.BTripSteady
import proofs.«205114_g12446815224155_cont_fleet_488_32_alg».proof.Proof.BTail

set_option maxRecDepth 16384

noncomputable section

namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}
local notation "𝕄" => MT nD τ sig (HIx 1) (Elt F) ℕ UU ℕ
local notation "iV" => (Memref.whole Cert.Kernel.main_v0_scv : Memref Cert.Kernel.sig Kind.scVector Space.hbm Cert.Kernel.S3276800 EltTy.i32)
local notation "tV" => (Memref.whole Cert.Kernel.main_arg1_scv : Memref Cert.Kernel.sig Kind.scVector Space.hbm Cert.Kernel.S3x128 EltTy.f32)
local notation "oV" => (Memref.whole Cert.Kernel.main_v1_scv : Memref Cert.Kernel.sig Kind.scVector Space.hbm Cert.Kernel.S25600x128x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scratch1 : Memref Cert.Kernel.sig Kind.scVector Space.vmem Cert.Kernel.S2x1024 EltTy.i32)
local notation "rwV" => (Memref.whole Cert.Kernel.cc0_scratch2 : Memref Cert.Kernel.sig Kind.scVector Space.vmem Cert.Kernel.S2x2x128x128 EltTy.f32)

open Idealize.ShloMosaic.ValueIdx

variable (fi : (d : Dev nD) → Buf (Elt F) (idxLoc d)) (ft : (d : Dev nD) → Buf (Elt F) (tabLoc d)) (fo : (d : Dev nD) → Buf (Elt F) (oLoc d))
variable [FloatOps F]

set_option maxHeartbeats 16000000 in
/-- One tile's task: from its read share of the list, its slice of the result and its barrier kit, the body runs to the
    end and leaves the slice at the lookup. -/
theorem tile_body (hr : InRange (F := F) fi) : TileBody (F := F) fi ft fo := by
  intro d L hF O W hO hOlev
  unfold bkit
  have hO' : ∀ g, (O + oxV d (cV L)) g none = 0 := fun g => by rw [Pi.add_apply, Finsupp.add_apply, hO g, oxV_none]
  by_cases hj : (L 1).val = 0
  · -- tile 0: the table into the shared memory first
    rw [show goExtra (F := F) ft d (cV L) (jV L) = iprop(tPts ft d (cV L) ∗ ∃ f, shLoc d (cV L) ↦{fullShare} f) from if_pos hj]
    iintro ⟨#Hlv, ⟨⟨%κ, #Hinv⟩, Htoks, #Hrch, Hat, Hcred⟩, ⟨Hi, Ho, Ht, %fsh, Hsh⟩, Hb0, Hz0, HO⟩
    ihave Hb0 := (Entails.of_eq (((K (F := F)).scopedBufs_V hF d (cV L) (jV L)).trans (ownBufs_V (F := F) d (cV L) (jV L)))) $$ Hb0
    icases Hb0 with ⟨⟨%fib, Hib⟩, ⟨%frw, Hrw⟩, Hbufs⟩
    ihave Hz0 := (Entails.of_eq ((SparseCore.Cfg.scopedSems0_V (Val := Elt F) d (cV L) (jV L)).trans (ownSems0_V (F := F) d (cV L) (jV L)))) $$ Hz0
    icases Hz0 with ⟨Hs3, Hs4, Hs5, Hs6, Hs7, Hs8, Hs9, Hs10, HsS, Hsems⟩
    ihave Hmw1 := (show levAts (K (F := F)).L (K (F := F)).lev ⊢ Transfers.MayWaits (V d (cV L) (jV L)) (default : HIx 1) (O + oxV d (cV L)) from
      (K (F := F)).mayWaits_none (thr := V d (cV L) (jV L)) hO') $$ Hlv
    ihave Hmw2 := (show levAts (K (F := F)).L (K (F := F)).lev ⊢ Transfers.MayWaits (V d (cV L) (jV L)) (default : HIx 1) O from
      (K (F := F)).mayWaits_none (thr := V d (cV L) (jV L)) hO) $$ Hlv
    ihave Hi' := (Entails.of_eq (pts_iV (F := F) d (cV L) (jV L) _ _).symm) $$ Hi
    ihave Hib' := (Entails.of_eq (pts_ibV (F := F) d (cV L) (jV L) _ _).symm) $$ Hib
    ihave Hrw' := (Entails.of_eq (pts_rwV (F := F) d (cV L) (jV L) _ _).symm) $$ Hrw
    ihave Ht' := (Entails.of_eq (pts_tV (F := F) d (cV L) (jV L) _ _).symm) $$ Ht
    ihave Hsh' := (Entails.of_eq (pts_shV (F := F) d (cV L) (jV L) _ _).symm) $$ Hsh
    sl_unfold [cc0__body]
    sl_unfold [k0_part14]
    sl_exec (disch := (clear * - L hj; decide +kernel +revert))
    -- the shared memory now holds the table: sixteen read shares of it, one per tile, and the remainder
    have hcont : (Memref.whole cc0_scratch0).view.writes (Elt F) fsh [⟨Rect.whole cc0_scratch0.ty.shape, tile_body.sl.dma0 ft d⟩] = tabAt ft d (cV L) :=
      View.read_writes_whole (Val := Elt F) (View.whole cc0_scratch0) fsh _
    rw [hcont]
    ihave Hsh2 := (Entails.of_eq (pts_shV (F := F) d (cV L) (jV L) _ _)) $$ Hsh'
    ihave Hsp := (Transfers.pointsTo_toks_split (ℓ := shLoc d (cV L)) (S := Finset.univ) (f := tabAt ft d (cV L)) fullShare 16) $$ Hsh2
    icases Hsp with ⟨Hrem, Htk⟩
    ihave Hpays := (pays_tile0 (F := F) ft d L hj) $$ Htk
    sl_rw [Idealize.SL.Sem.Prog.bind_assoc]
    iapply (SparseCore.wp_subcoreBarrier 𝒱₀ none EB (bRd (F := F) ft) d (sc := cV L) (i := jV L) sc_bar0 (grid0.bound 1) hsub0 (L 1) rfl κ (fun _ => 0) (jV L).val
        (fun j => bRd_mem₀ ft d _ _ _) (fun _ => rfl) (bRd_expect ft d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hmy := (got_tok (F := F) ft d (cV L) (jV L)) $$ Hgot
    ihave Hmy' := (Entails.of_eq (pts_shV (F := F) d (cV L) (jV L) _ _).symm) $$ Hmy
    -- the buffer of row numbers by its two slots, the table's share by tokens, the slice as an interval of blocks
    ihave Hsl := (Entails.of_eq (ib_slots (F := F) d (cV L) (jV L) fib)) $$ Hib'
    icases Hsl with ⟨Hsl0, Hsl1⟩
    ihave Hsl0 := (Entails.of_eq (slot_lit_0 (F := F) d (cV L) (jV L) fib).symm) $$ Hsl0
    ihave Htk := (Transfers.pointsTo_toks_split (ℓ := (shV).view.loc (V d (cV L) (jV L))) (S := (shV).view.set) (f := tabAt ft d (cV L)) (shTok (jV L)) 9) $$ Hmy'
    icases Htk with ⟨Htrem, Htoks9⟩
    ihave Hx := (Entails.of_eq (SparseCore.bigSep_erase' (show (2 : Fin 9) ∈ (Finset.univ : Finset (Fin 9)) from by decide))) $$ Htoks9
    icases Hx with ⟨Htok2, Htoks9⟩
    ihave Hx := (Entails.of_eq (SparseCore.bigSep_erase' (show (3 : Fin 9) ∈ ((Finset.univ : Finset (Fin 9)).erase 2) from by decide))) $$ Htoks9
    icases Hx with ⟨Htok3, Htoks9⟩
    ihave Hx := (Entails.of_eq (SparseCore.bigSep_erase' (show (4 : Fin 9) ∈ (((Finset.univ : Finset (Fin 9)).erase 2).erase 3) from by decide))) $$ Htoks9
    icases Hx with ⟨Htok4, Htoks9⟩
    ihave Hx := (Entails.of_eq (SparseCore.bigSep_erase' (show (5 : Fin 9) ∈ ((((Finset.univ : Finset (Fin 9)).erase 2).erase 3).erase 4) from by decide))) $$ Htoks9
    icases Hx with ⟨Htok5, Htoks9⟩
    ihave Ho := (Entails.of_eq (show (oPts d (wL L) (fo d) : sProp 𝕄) = (oLoc d ↦[rowsIn (wL L) 0 800]{fullShare} fo d) from by rw [← oSet_eq_rows])) $$ Ho
    -- the first copy of row numbers goes out; it is held with what it will deliver
    sl_exec
    have hoffI0 : _ = (![102400 * (wL L).val + 1024 * (2 * 0)] : Fin 1 → ℕ) := (k0_off1_eq L).trans (congrArg (fun n => (![n] : Fin 1 → ℕ)) (by show _ = 102400 * ((L 1).val * 2 + (L 0).val) + 1024 * (2 * 0); omega))
    sl_unfold_run_names
    ihave Hs3 := (idx_clean0 (F := F) fi hr d L _ _ _ _ _ (2 * 0) (by omega) hoffI0) $$ Hs3
    ihave Hi' := (Entails.of_eq (idx_rest (F := F) fi d L _ (2 * 0) (by omega) hoffI0)) $$ Hi'
    -- the main loop, by its invariant
    first
      | sl_for (Inv (F := F) fi ft fo d L O W) $$ [HO Hs4 Hs5 Hs6 Hs10 Htok2 Htok3 Htoks9 Htrem Hs3 Hi' Hsl1 Hrw' Hs7 Hs8 Hs9 Htok4 Htok5 Ho]
      | (sl_rw [Idealize.SL.Sem.Prog.bind_assoc]; sl_for (Inv (F := F) fi ft fo d L O W) $$ [HO Hs4 Hs5 Hs6 Hs10 Htok2 Htok3 Htoks9 Htrem Hs3 Hi' Hsl1 Hrw' Hs7 Hs8 Hs9 Htok4 Htok5 Ho])
    · intro k acc
      by_cases h0 : k.val = 0
      · exact trip_first (F := F) fi ft fo hr d L O W _ _ k h0 acc
      · exact trip_steady (F := F) fi ft fo hr d L O W _ _ k (by omega) acc
    · unfold Inv
      rw [dif_pos rfl]
      unfold Base IdxPart First
      rw [dif_pos (by decide : (0 : ℕ) < 50)]
      isplitr; · ipureintro; omega
      isplitl [HO Hs4 Hs5 Hs6 Hs10 Htok2 Htok3 Htoks9 Htrem]
      · isplitr; · iexact Hmw2
        isplitl [HO]
        · iexists _
          isplitr
          swap; · iexact HO
          ipureintro
          unfold WaitsOK
          intro p hp
          rcases Finset.mem_insert.mp hp with h | hp
          · subst h; first | exact .inr (.inl rfl) | exact .inr (.inr rfl)
          rcases Finset.mem_insert.mp hp with h | hp
          · subst h; first | exact .inr (.inl rfl) | exact .inr (.inr rfl)
          exact .inl hp
        isplitl [Hs4]; · iexact Hs4
        isplitl [Hs5]; · iexact Hs5
        isplitl [Hs6]; · iexact Hs6
        isplitl [Hs10]; · iexact Hs10
        isplitl [Htok2]; · iexact Htok2
        isplitl [Htok3]; · iexact Htok3
        isplitl [Htoks9]; · iexact Htoks9
        iexact Htrem
      isplitl [Hs3 Hi']
      · isplitl [Hs3]; · iexact Hs3
        iexact Hi'
      isplitl [Hsl1]; · iexists _; iexact Hsl1
      isplitl [Hrw']; · iexists _; iexact Hrw'
      isplitl [Hs7]; · iexact Hs7
      isplitl [Hs8]; · iexact Hs8
      isplitl [Hs9]; · iexact Hs9
      isplitl [Htok4]; · iexact Htok4
      isplitl [Htok5]; · iexact Htok5
      isplitl [Ho]; · iexact Ho
      rw [rows_none]; iempintro
    -- after the loop: the last transfers drained, everything the launch handed over put back
    iintro %accE HI
    ihave HI := (Entails.of_eq (show Inv (F := F) fi ft fo d L O W (Scf.trips k0_t1_loop.lb k0_t1_loop.ub k0_t1_loop.st) accE = Inv (F := F) fi ft fo d L O W 50 () from rfl)) $$ HI
    iapply (tail_ok (F := F) fi ft fo d L O W hF _)
    isplitl [HI]; · iexact HI
    isplitl [Ht' Hrem]
    · rw [show tdExtra (F := F) ft d (cV L) (jV L) = iprop(tPts ft d (cV L) ∗ ∃ f, shLoc d (cV L) ↦{shareDrop fullShare 16} f) from if_pos hj]
      isplitl [Ht']; · iapply (Entails.of_eq (pts_tV (F := F) d (cV L) (jV L) _ _)) $$ Ht'
      iexists _; iexact Hrem
    isplitl [HsS]; · iexact HsS
    isplitl [Hsems]; · iexact Hsems
    iexact Hbufs
  · -- any other tile: nothing to do before the barrier, and nothing to hand over at it
    rw [show goExtra (F := F) ft d (cV L) (jV L) = iprop(emp) from if_neg hj]
    iintro ⟨#Hlv, ⟨⟨%κ, #Hinv⟩, Htoks, #Hrch, Hat, Hcred⟩, ⟨Hi, Ho, -⟩, Hb0, Hz0, HO⟩
    ihave Hb0 := (Entails.of_eq (((K (F := F)).scopedBufs_V hF d (cV L) (jV L)).trans (ownBufs_V (F := F) d (cV L) (jV L)))) $$ Hb0
    icases Hb0 with ⟨⟨%fib, Hib⟩, ⟨%frw, Hrw⟩, Hbufs⟩
    ihave Hz0 := (Entails.of_eq ((SparseCore.Cfg.scopedSems0_V (Val := Elt F) d (cV L) (jV L)).trans (ownSems0_V (F := F) d (cV L) (jV L)))) $$ Hz0
    icases Hz0 with ⟨Hs3, Hs4, Hs5, Hs6, Hs7, Hs8, Hs9, Hs10, HsS, Hsems⟩
    ihave Hmw1 := (show levAts (K (F := F)).L (K (F := F)).lev ⊢ Transfers.MayWaits (V d (cV L) (jV L)) (default : HIx 1) (O + oxV d (cV L)) from
      (K (F := F)).mayWaits_none (thr := V d (cV L) (jV L)) hO') $$ Hlv
    ihave Hmw2 := (show levAts (K (F := F)).L (K (F := F)).lev ⊢ Transfers.MayWaits (V d (cV L) (jV L)) (default : HIx 1) O from
      (K (F := F)).mayWaits_none (thr := V d (cV L) (jV L)) hO) $$ Hlv
    ihave Hi' := (Entails.of_eq (pts_iV (F := F) d (cV L) (jV L) _ _).symm) $$ Hi
    ihave Hib' := (Entails.of_eq (pts_ibV (F := F) d (cV L) (jV L) _ _).symm) $$ Hib
    ihave Hrw' := (Entails.of_eq (pts_rwV (F := F) d (cV L) (jV L) _ _).symm) $$ Hrw
    sl_unfold [cc0__body]
    sl_unfold [k0_part14]
    sl_exec (disch := (clear * - L hj; decide +kernel +revert))
    sl_rw [Idealize.SL.Sem.Prog.bind_assoc]
    iapply (SparseCore.wp_subcoreBarrier 𝒱₀ none EB (bRd (F := F) ft) d (sc := cV L) (i := jV L) sc_bar0 (grid0.bound 1) hsub0 (L 1) rfl κ (fun _ => 0) (jV L).val
        (fun j => bRd_mem₀ ft d _ _ _) (fun _ => rfl) (bRd_expect ft d _ _) (some 0) O _) $$ [HO Htoks Hcred Hat]
    · isplitr; · iexact Hinv
      isplitl [HO]; · iexact HO
      isplitl [Htoks]
      · rw [bigSep_sep', bigSep_sep']
        isplitl [Htoks]; · iexact Htoks
        isplitr; · iapply (pays_other (F := F) ft d L hj); iempintro
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hmy := (got_tok (F := F) ft d (cV L) (jV L)) $$ Hgot
    ihave Hmy' := (Entails.of_eq (pts_shV (F := F) d (cV L) (jV L) _ _).symm) $$ Hmy
    -- the buffer of row numbers by its two slots, the table's share by tokens, the slice as an interval of blocks
    ihave Hsl := (Entails.of_eq (ib_slots (F := F) d (cV L) (jV L) fib)) $$ Hib'
    icases Hsl with ⟨Hsl0, Hsl1⟩
    ihave Hsl0 := (Entails.of_eq (slot_lit_0 (F := F) d (cV L) (jV L) fib).symm) $$ Hsl0
    ihave Htk := (Transfers.pointsTo_toks_split (ℓ := (shV).view.loc (V d (cV L) (jV L))) (S := (shV).view.set) (f := tabAt ft d (cV L)) (shTok (jV L)) 9) $$ Hmy'
    icases Htk with ⟨Htrem, Htoks9⟩
    ihave Hx := (Entails.of_eq (SparseCore.bigSep_erase' (show (2 : Fin 9) ∈ (Finset.univ : Finset (Fin 9)) from by decide))) $$ Htoks9
    icases Hx with ⟨Htok2, Htoks9⟩
    ihave Hx := (Entails.of_eq (SparseCore.bigSep_erase' (show (3 : Fin 9) ∈ ((Finset.univ : Finset (Fin 9)).erase 2) from by decide))) $$ Htoks9
    icases Hx with ⟨Htok3, Htoks9⟩
    ihave Hx := (Entails.of_eq (SparseCore.bigSep_erase' (show (4 : Fin 9) ∈ (((Finset.univ : Finset (Fin 9)).erase 2).erase 3) from by decide))) $$ Htoks9
    icases Hx with ⟨Htok4, Htoks9⟩
    ihave Hx := (Entails.of_eq (SparseCore.bigSep_erase' (show (5 : Fin 9) ∈ ((((Finset.univ : Finset (Fin 9)).erase 2).erase 3).erase 4) from by decide))) $$ Htoks9
    icases Hx with ⟨Htok5, Htoks9⟩
    ihave Ho := (Entails.of_eq (show (oPts d (wL L) (fo d) : sProp 𝕄) = (oLoc d ↦[rowsIn (wL L) 0 800]{fullShare} fo d) from by rw [← oSet_eq_rows])) $$ Ho
    -- the first copy of row numbers goes out; it is held with what it will deliver
    sl_exec
    have hoffI0 : _ = (![102400 * (wL L).val + 1024 * (2 * 0)] : Fin 1 → ℕ) := (k0_off1_eq L).trans (congrArg (fun n => (![n] : Fin 1 → ℕ)) (by show _ = 102400 * ((L 1).val * 2 + (L 0).val) + 1024 * (2 * 0); omega))
    sl_unfold_run_names
    ihave Hs3 := (idx_clean0 (F := F) fi hr d L _ _ _ _ _ (2 * 0) (by omega) hoffI0) $$ Hs3
    ihave Hi' := (Entails.of_eq (idx_rest (F := F) fi d L _ (2 * 0) (by omega) hoffI0)) $$ Hi'
    -- the main loop, by its invariant
    first
      | sl_for (Inv (F := F) fi ft fo d L O W) $$ [HO Hs4 Hs5 Hs6 Hs10 Htok2 Htok3 Htoks9 Htrem Hs3 Hi' Hsl1 Hrw' Hs7 Hs8 Hs9 Htok4 Htok5 Ho]
      | (sl_rw [Idealize.SL.Sem.Prog.bind_assoc]; sl_for (Inv (F := F) fi ft fo d L O W) $$ [HO Hs4 Hs5 Hs6 Hs10 Htok2 Htok3 Htoks9 Htrem Hs3 Hi' Hsl1 Hrw' Hs7 Hs8 Hs9 Htok4 Htok5 Ho])
    · intro k acc
      by_cases h0 : k.val = 0
      · exact trip_first (F := F) fi ft fo hr d L O W _ _ k h0 acc
      · exact trip_steady (F := F) fi ft fo hr d L O W _ _ k (by omega) acc
    · unfold Inv
      rw [dif_pos rfl]
      unfold Base IdxPart First
      rw [dif_pos (by decide : (0 : ℕ) < 50)]
      isplitr; · ipureintro; omega
      isplitl [HO Hs4 Hs5 Hs6 Hs10 Htok2 Htok3 Htoks9 Htrem]
      · isplitr; · iexact Hmw2
        isplitl [HO]
        · iexists _
          isplitr
          swap; · iexact HO
          ipureintro
          unfold WaitsOK
          intro p hp
          rcases Finset.mem_insert.mp hp with h | hp
          · subst h; first | exact .inr (.inl rfl) | exact .inr (.inr rfl)
          exact .inl hp
        isplitl [Hs4]; · iexact Hs4
        isplitl [Hs5]; · iexact Hs5
        isplitl [Hs6]; · iexact Hs6
        isplitl [Hs10]; · iexact Hs10
        isplitl [Htok2]; · iexact Htok2
        isplitl [Htok3]; · iexact Htok3
        isplitl [Htoks9]; · iexact Htoks9
        iexact Htrem
      isplitl [Hs3 Hi']
      · isplitl [Hs3]; · iexact Hs3
        iexact Hi'
      isplitl [Hsl1]; · iexists _; iexact Hsl1
      isplitl [Hrw']; · iexists _; iexact Hrw'
      isplitl [Hs7]; · iexact Hs7
      isplitl [Hs8]; · iexact Hs8
      isplitl [Hs9]; · iexact Hs9
      isplitl [Htok4]; · iexact Htok4
      isplitl [Htok5]; · iexact Htok5
      isplitl [Ho]; · iexact Ho
      rw [rows_none]; iempintro
    -- after the loop: the last transfers drained, everything the launch handed over put back
    iintro %accE HI
    ihave HI := (Entails.of_eq (show Inv (F := F) fi ft fo d L O W (Scf.trips k0_t1_loop.lb k0_t1_loop.ub k0_t1_loop.st) accE = Inv (F := F) fi ft fo d L O W 50 () from rfl)) $$ HI
    iapply (tail_ok (F := F) fi ft fo d L O W hF _)
    isplitl [HI]; · iexact HI
    isplitr
    · rw [show tdExtra (F := F) ft d (cV L) (jV L) = iprop(emp) from if_neg hj]; iempintro
    isplitl [HsS]; · iexact HsS
    isplitl [Hsems]; · iexact Hsems
    iexact Hbufs

end Cert.Proof.KB

end
-- ==== Proof.lean ====
/-
  An embedding lookup. The input is an array of 16384 × 200 row numbers, each between 0 and 2, and a table of 3 rows of
  128 finite entries; entry (b, h, d) of the result is the table's entry in row idx[b, h] and column d (Proof/Spec.lean).

  The reference computes it on the host: the row numbers reduced modulo 3 (the identity on 0 … 2), a gather of whole
  rows, and a bounds mask that is all true on these inputs. Its run is written out operation by operation and its result
  read at an index (Proof/Ref*.lean).

  The kernel flattens the row numbers, has each of thirty-two tiles reduce its hundred blocks of 1024 row numbers
  modulo 3 in place, gather the named rows of a copy of the table kept in its SparseCore's shared memory, and copy the
  gathered rows out two blocks of 128 at a time; the result is reshaped back. Tile 0 of a SparseCore fills the shared
  copy; the tiles meet at the barrier, across which tile 0 hands every tile a read share of the copy. One tile's task is
  Proof/KBody.lean: the main loop of fifty trips by an invariant that says, of every transfer still in flight at the
  head of a trip, what it will deliver (Proof/KInv.lean), a row number between 0 and 2 being its own remainder modulo 3
  (Proof/KWrap.lean) and a gathered chunk being the lookup's rows (Proof/KGather.lean, Proof/KValue.lean). How one
  tile's task becomes the run of the whole program, with the result named, is Proof/K*.lean for the idealized program and
  Proof/B*.lean, the same text, for the word-level one; that the flat lookup between the two reshapes is the
  specification is Proof/Bridge.lean; the five claims from one tile's task are Proof/Claims.lean.
-/
import proofs.«205114_g12446815224155_cont_fleet_488_32_alg».proof.Defs
import proofs.«205114_g12446815224155_cont_fleet_488_32_alg».proof.Proof.Gen.Kernel
import proofs.«205114_g12446815224155_cont_fleet_488_32_alg».proof.Proof.Gen.Kernel.Skeleton
import proofs.«205114_g12446815224155_cont_fleet_488_32_alg».proof.Proof.Gen.KernelIdeal
import proofs.«205114_g12446815224155_cont_fleet_488_32_alg».proof.Proof.Gen.KernelIdeal.Skeleton
import proofs.«205114_g12446815224155_cont_fleet_488_32_alg».proof.Proof.Gen.ReferenceIdeal
import proofs.«205114_g12446815224155_cont_fleet_488_32_alg».proof.Proof.Gen.Pre_input_domain
import proofs.«205114_g12446815224155_cont_fleet_488_32_alg».proof.Proof.Claims
import proofs.«205114_g12446815224155_cont_fleet_488_32_alg».proof.Proof.KBody
import proofs.«205114_g12446815224155_cont_fleet_488_32_alg».proof.Proof.BBody
import Idealize.ShloMosaic.Adequacy
import Idealize.ShloMosaic.Init

noncomputable section

namespace Cert.Proof

open Idealize.ShloMosaic Idealize.SL.Sem

/-- The claim: the word-level kernel and the idealized one run and leave their arguments unchanged, so does the
    reference, and the idealized kernel and the reference end with the same result, the lookup. -/
theorem claim : Cert.Claim :=
  ⟨Cert.Kernel.Gen.facts, Cert.KernelIdeal.Gen.facts, Cert.ReferenceIdeal.Gen.facts, Cert.Pre_input_domain.Gen.facts,
    Cert.Proof.Claims.frame_k (fun m hr => Cert.Proof.KB.tile_body (F := Bits) (Cert.Proof.KB.fiOf m) (Cert.Proof.KB.ftOf m) (Cert.Proof.KB.foOf m) hr),
    Cert.Proof.Claims.frame_ki (fun m hr => Cert.Proof.KI.tile_body (F := Ideal) (Cert.Proof.KI.fiOf m) (Cert.Proof.KI.ftOf m) (Cert.Proof.KI.foOf m) hr),
    Cert.Proof.Claims.frame_ri,
    Cert.Proof.Claims.preserves,
    Cert.Proof.Claims.algebraic (fun m hr => Cert.Proof.KI.tile_body (F := Ideal) (Cert.Proof.KI.fiOf m) (Cert.Proof.KI.ftOf m) (Cert.Proof.KI.foOf m) hr)⟩

end Cert.Proof

end
